-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S13x16384 : Shape := ⟨2, ![13, 16384]⟩
abbrev S13x100000x16 : Shape := ⟨3, ![13, 100000, 16]⟩
abbrev S208x64 : Shape := ⟨2, ![208, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S13x100000x16 : S_.BroadcastsInDim S13x100000x16 (![] : Fin 0 → Fin S13x100000x16.rank)
  reducesTo_S13x100000x16_S_d0_1_2 : S13x100000x16.ReducesTo [0, 1, 2] S_
  h_S_ : 0 < S_.numel
  bcast_S_S208x64 : S_.BroadcastsInDim S208x64 (![] : Fin 0 → Fin S208x64.rank)
  reducesTo_S208x64_S_d0_1 : S208x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S13x16384 : S_.BroadcastsInDim S13x16384 (![] : Fin 0 → Fin S13x16384.rank)
  reducesTo_S13x16384_S_d0_1 : S13x16384.ReducesTo [0, 1] S_

variable [Facts]

def fn_part3 {F : FTy → Type} [FloatOps F] (main_arg0 : IVec S13x16384 32) (main_arg1 : IVec S13x16384 32) (main_v48 : IVec S_ 1) (main_v50 : IVec S13x16384 1) : IVec S_ 1 :=
  let main_c_19 : IVec S_ 32 := constantI S_ 32 99999#32
  let main_v51 : IVec S13x16384 32 := broadcastInDim S13x16384 ![] bcast_S_S13x16384 main_c_19
  let main_v52 : IVec S13x16384 1 := cmpi .sle main_arg0 main_v51
  let main_v53 : IVec S13x16384 1 := andi main_v50 main_v52
  let main_c_20 : IVec S_ 1 := constantI S_ 1 1#1
  let main_v54 : IVec S_ 1 := (fun x v => Host.reduce IntOp.andi x v reducesTo_S13x16384_S_d0_1 h_S_) main_v53 main_c_20
  let main_v55 : IVec S_ 1 := andi main_v48 main_v54
  let main_c_21 : IVec S_ 32 := constantI S_ 32 0#32
  let main_v56 : IVec S13x16384 32 := broadcastInDim S13x16384 ![] bcast_S_S13x16384 main_c_21
  let main_v57 : IVec S13x16384 1 := cmpi .sge main_arg1 main_v56
  let main_c_22 : IVec S_ 32 := constantI S_ 32 99999#32
  let main_v58 : IVec S13x16384 32 := broadcastInDim S13x16384 ![] bcast_S_S13x16384 main_c_22
  let main_v59 : IVec S13x16384 1 := cmpi .sle main_arg1 main_v58
  let main_v60 : IVec S13x16384 1 := andi main_v57 main_v59
  let main_c_23 : IVec S_ 1 := constantI S_ 1 1#1
  let main_v61 : IVec S_ 1 := (fun x v => Host.reduce IntOp.andi x v reducesTo_S13x16384_S_d0_1 h_S_) main_v60 main_c_23
  let main_v62 : IVec S_ 1 := andi main_v55 main_v61
  main_v62

def fn_part2 {F : FTy → Type} [FloatOps F] (main_arg0 : IVec S13x16384 32) (main_arg1 : IVec S13x16384 32) (main_arg9 : FVec F S64 .f32) (main_arg10 : FVec F S64x32 .f32) (main_arg11 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_c_18 : IVec S_ 32 := constantI S_ 32 0#32
  let main_v49 : IVec S13x16384 32 := broadcastInDim S13x16384 ![] bcast_S_S13x16384 main_c_18
  let main_v50 : IVec S13x16384 1 := cmpi .sge main_arg0 main_v49
  fn_part3 (F := F) main_arg0 main_arg1 main_v48 main_v50

def fn_part1 {F : FTy → Type} [FloatOps F] (main_arg0 : IVec S13x16384 32) (main_arg1 : IVec S13x16384 32) (main_arg6 : FVec F S64x32 .f32) (main_arg7 : FVec F S32 .f32) (main_arg8 : FVec F S208x64 .f32) (main_arg9 : FVec F S64 .f32) (main_arg10 : FVec F S64x32 .f32) (main_arg11 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S208x64 .f32 := Host.absf main_arg8
  let main_cst_10 : FVec F S_ .f32 := constant S_ .f32 0x7F800000#32
  let main_v30 : FVec F S208x64 .f32 := broadcastInDim S208x64 ![] bcast_S_S208x64 main_cst_10
  let main_v31 : IVec S208x64 1 := cmpf .olt main_v29 main_v30
  let main_c_11 : IVec S_ 1 := constantI S_ 1 1#1
  let main_v32 : IVec S_ 1 := (fun x v => Host.reduce IntOp.andi x v reducesTo_S208x64_S_d0_1 h_S_) main_v31 main_c_11
  let main_v33 : IVec S_ 1 := andi main_v28 main_v32
  fn_part2 (F := F) main_arg0 main_arg1 main_arg9 main_arg10 main_arg11 main_v33

def fn {F : FTy → Type} [FloatOps F] (main_arg0 : IVec S13x16384 32) (main_arg1 : IVec S13x16384 32) (main_arg2 : FVec F S13x100000x16 .f32) (main_arg3 : FVec F S13x100000x16 .f32) (main_arg4 : FVec F S208x64 .f32) (main_arg5 : FVec F S64 .f32) (main_arg6 : FVec F S64x32 .f32) (main_arg7 : FVec F S32 .f32) (main_arg8 : FVec F S208x64 .f32) (main_arg9 : FVec F S64 .f32) (main_arg10 : FVec F S64x32 .f32) (main_arg11 : FVec F S32 .f32) : IVec S_ 1 :=
  let main_v0 : FVec F S13x100000x16 .f32 := Host.absf main_arg2
  let main_cst : FVec F S_ .f32 := constant S_ .f32 0x7F800000#32
  let main_v1 : FVec F S13x100000x16 .f32 := broadcastInDim S13x100000x16 ![] bcast_S_S13x100000x16 main_cst
  let main_v2 : IVec S13x100000x16 1 := cmpf .olt main_v0 main_v1
  let main_c : IVec S_ 1 := constantI S_ 1 1#1
  let main_v3 : IVec S_ 1 := (fun x v => Host.reduce IntOp.andi x v reducesTo_S13x100000x16_S_d0_1_2 h_S_) main_v2 main_c
  let main_v4 : FVec F S13x100000x16 .f32 := Host.absf main_arg3
  let main_cst_0 : FVec F S_ .f32 := constant S_ .f32 0x7F800000#32
  let main_v5 : FVec F S13x100000x16 .f32 := broadcastInDim S13x100000x16 ![] bcast_S_S13x100000x16 main_cst_0
  let main_v6 : IVec S13x100000x16 1 := cmpf .olt main_v4 main_v5
  let main_c_1 : IVec S_ 1 := constantI S_ 1 1#1
  let main_v7 : IVec S_ 1 := (fun x v => Host.reduce IntOp.andi x v reducesTo_S13x100000x16_S_d0_1_2 h_S_) main_v6 main_c_1
  let main_v8 : IVec S_ 1 := andi main_v3 main_v7
  let main_v9 : FVec F S208x64 .f32 := Host.absf main_arg4
  let main_cst_2 : FVec F S_ .f32 := constant S_ .f32 0x7F800000#32
  let main_v10 : FVec F S208x64 .f32 := broadcastInDim S208x64 ![] bcast_S_S208x64 main_cst_2
  let main_v11 : IVec S208x64 1 := cmpf .olt main_v9 main_v10
  let main_c_3 : IVec S_ 1 := constantI S_ 1 1#1
  let main_v12 : IVec S_ 1 := (fun x v => Host.reduce IntOp.andi x v reducesTo_S208x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg6 main_arg7 main_arg8 main_arg9 main_arg10 main_arg11 main_v13 main_v16
-- ==== Kernel.lean ====
abbrev S13x16384 : Shape := ⟨2, ![13, 16384]⟩
abbrev S13x100000x16 : Shape := ⟨3, ![13, 100000, 16]⟩
abbrev S208x64 : Shape := ⟨2, ![208, 64]⟩
abbrev S64 : Shape := ⟨1, ![64]⟩
abbrev S64x32 : Shape := ⟨2, ![64, 32]⟩
abbrev S32 : Shape := ⟨1, ![32]⟩
abbrev S13x16x100000 : Shape := ⟨3, ![13, 16, 100000]⟩
abbrev S13x16x16384 : Shape := ⟨3, ![13, 16, 16384]⟩
abbrev S100000 : Shape := ⟨1, ![100000]⟩
abbrev S8192 : Shape := ⟨1, ![8192]⟩
abbrev S_ : Shape := ⟨0, ![]⟩
abbrev S1x1x100000 : Shape := ⟨3, ![1, 1, 100000]⟩
abbrev S1x8192 : Shape := ⟨2, ![1, 8192]⟩
abbrev S16 : Shape := ⟨1, ![16]⟩
abbrev S1x1x8192 : Shape := ⟨3, ![1, 1, 8192]⟩
abbrev S64x208 : Shape := ⟨2, ![64, 208]⟩
abbrev S64x1 : Shape := ⟨2, ![64, 1]⟩
abbrev S32x64 : Shape := ⟨2, ![32, 64]⟩
abbrev S32x1 : Shape := ⟨2, ![32, 1]⟩
abbrev S1x1 : Shape := ⟨2, ![1, 1]⟩
abbrev S13x16x1024 : Shape := ⟨3, ![13, 16, 1024]⟩
abbrev S3 : Shape := ⟨1, ![3]⟩
abbrev S1 : Shape := ⟨1, ![1]⟩
abbrev S208x1024 : Shape := ⟨2, ![208, 1024]⟩
abbrev S64x1024 : Shape := ⟨2, ![64, 1024]⟩
abbrev S32x1024 : Shape := ⟨2, ![32, 1024]⟩
abbrev S1x32x1024 : Shape := ⟨3, ![1, 32, 1024]⟩
abbrev S1x1x1 : Shape := ⟨3, ![1, 1, 1]⟩

abbrev nBuf : Table → Nat
  | .hbm => 25
  | .local .tc .vmem => 12
  | .local .tc .smem => 2
  | .local .scVector .vmem => 3
  | _ => 0

abbrev bufTy : (tb : Table) → Fin (nBuf tb) → BufTy
  | .hbm, ⟨0, _⟩ => ⟨S13x16384, .i32⟩
  | .hbm, ⟨1, _⟩ => ⟨S13x16384, .i32⟩
  | .hbm, ⟨2, _⟩ => ⟨S13x100000x16, .f32⟩
  | .hbm, ⟨3, _⟩ => ⟨S13x100000x16, .f32⟩
  | .hbm, ⟨4, _⟩ => ⟨S208x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S208x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S13x16x100000, .f32⟩
  | .hbm, ⟨13, _⟩ => ⟨S13x16x100000, .f32⟩
  | .hbm, ⟨14, _⟩ => ⟨S13x16x16384, .f32⟩
  | .hbm, ⟨15, _⟩ => ⟨S13x16x16384, .f32⟩
  | .hbm, ⟨16, _⟩ => ⟨S64x208, .f32⟩
  | .hbm, ⟨17, _⟩ => ⟨S64x1, .f32⟩
  | .hbm, ⟨18, _⟩ => ⟨S32x64, .f32⟩
  | .hbm, ⟨19, _⟩ => ⟨S32x1, .f32⟩
  | .hbm, ⟨20, _⟩ => ⟨S64x208, .f32⟩
  | .hbm, ⟨21, _⟩ => ⟨S64x1, .f32⟩
  | .hbm, ⟨22, _⟩ => ⟨S32x64, .f32⟩
  | .hbm, ⟨23, _⟩ => ⟨S32x1, .f32⟩
  | .hbm, ⟨24, _⟩ => ⟨S1x1, .f32⟩
  | .local .tc .vmem, ⟨0, _⟩ => ⟨S13x16x1024, .f32⟩
  | .local .tc .vmem, ⟨1, _⟩ => ⟨S13x16x1024, .f32⟩
  | .local .tc .vmem, ⟨2, _⟩ => ⟨S13x16x1024, .f32⟩
  | .local .tc .vmem, ⟨3, _⟩ => ⟨S13x16x1024, .f32⟩
  | .local .tc .vmem, ⟨4, _⟩ => ⟨S64x208, .f32⟩
  | .local .tc .vmem, ⟨5, _⟩ => ⟨S64x1, .f32⟩
  | .local .tc .vmem, ⟨6, _⟩ => ⟨S32x64, .f32⟩
  | .local .tc .vmem, ⟨7, _⟩ => ⟨S32x1, .f32⟩
  | .local .tc .vmem, ⟨8, _⟩ => ⟨S64x208, .f32⟩
  | .local .tc .vmem, ⟨9, _⟩ => ⟨S64x1, .f32⟩
  | .local .tc .vmem, ⟨10, _⟩ => ⟨S32x64, .f32⟩
  | .local .tc .vmem, ⟨11, _⟩ => ⟨S32x1, .f32⟩
  | .local .tc .smem, ⟨0, _⟩ => ⟨S1x1, .f32⟩
  | .local .tc .smem, ⟨1, _⟩ => ⟨S3, .f32⟩
  | .local .scVector .vmem, ⟨0, _⟩ => ⟨S100000, .f32⟩
  | .local .scVector .vmem, ⟨1, _⟩ => ⟨S8192, .i32⟩
  | .local .scVector .vmem, ⟨2, _⟩ => ⟨S8192, .f32⟩
  | _, _ => ⟨S13x16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v0_scv : Ref sig .scVector := ⟨.hbm, 12, rfl⟩
abbrev main_v1_scv : Ref sig .scVector := ⟨.hbm, 13, rfl⟩
abbrev main_arg0_scv : Ref sig .scVector := ⟨.hbm, 0, rfl⟩
abbrev main_arg1_scv : Ref sig .scVector := ⟨.hbm, 1, rfl⟩
abbrev main_v2_0_scv : Ref sig .scVector := ⟨.hbm, 14, rfl⟩
abbrev main_v2_1_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.smem, 0, rfl⟩
abbrev cc1_scratch0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2 : BitVec 32 := 0#32
  let c13_i32 : BitVec 32 := 13#32
  let v3 : BitVec 32 := Scalar.addi c0_i32_2 c13_i32
  let c1_i32 : BitVec 32 := 1#32
  ⟨c0_i32_2, v3, c1_i32⟩
def k0_off1 (i : grid0.Coords) (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let arg1 : BitVec 32 := BitVec.ofNat 32 (i 1).val
  let c0_i32_8_r0 : BitVec 32 := 0#32
  ![arg11.toNat, arg1.toNat, 0]
@[reducible] def k0_t2_loop : Scf.Loop 32 :=
  let c0_i32_5 : BitVec 32 := 0#32
  let c2_i32 : BitVec 32 := 2#32
  let v4 : BitVec 32 := Scalar.addi c0_i32_5 c2_i32
  let c1_i32_6 : BitVec 32 := 1#32
  ⟨c0_i32_5, v4, c1_i32_6⟩
def k0_off2 (k0_t1 : Fin k0_t1_loop.trips) (k0_t2 : Fin k0_t2_loop.trips) : Fin 2 → Nat :=
  let c0_i32_2 : BitVec 32 := 0#32
  let c1_i32 : BitVec 32 := 1#32
  let arg11 : BitVec 32 := Scf.iv c0_i32_2 c1_i32 k0_t1
  let c0_i32_5 : BitVec 32 := 0#32
  let c1_i32_6 : BitVec 32 := 1#32
  let arg12 : BitVec 32 := Scf.iv c0_i32_5 c1_i32_6 k0_t2
  let c8192_i32 : BitVec 32 := 8192#32
  let v5 : BitVec 32 := Scalar.muli arg12 c8192_i32
  ![arg11.toNat, v5.toNat]
@[reducible] def k0_t3_loop : Scf.Loop 32 :=
  let c0_i32_9 : BitVec 32 := 0#32
  let c16_i32 : BitVec 32 := 16#32
  let v6 : BitVec 32 := Scalar.addi c0_i32_9 c16_i32
  let c1_i32_10 : BitVec 32 := 1#32
  ⟨c0_i32_9, v6, c1_i32_10⟩
def k0_off3 (k0_t3 : Fin k0_t3_loop.trips) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let c0_i32_13 : BitVec 32 := 0#32
  let v9 : BitVec 32 := Scalar.addi v8 c0_i32_13
  let v10 : Index := Scalar.indexCast v9
  ![v10.toNat]

def k0_chk1 (i : grid0.Coords) (v11 : IVec S16 32) : Prop :=
  (∀ (k0_h1 : k0_cond1 i = 1#1), ∀ a x, ((![v11] : Fin 1 → IVec S16 32) a x).toNat < S100000.size a)
instance k0_chk1.dec : ∀ (i : grid0.Coords) (v11 : IVec S16 32), Decidable (k0_chk1 i v11) := fun i v11 => decidable_of_iff' _ (Iff.of_eq (k0_chk1.eq_1 i v11))
theorem k0_idx1_inb : ∀ (i : grid0.Coords) (v11 : IVec S16 32) (k0_hw1 : k0_chk1 i v11), ∀ (k0_h1 : k0_cond1 i = 1#1), ∀ a x, ((![v11] : Fin 1 → IVec S16 32) a x).toNat < S100000.size a := fun i v11 k0_hw1 k0_h1 => k0_hw1 k0_h1
def k0_off4 (k0_t3 : Fin k0_t3_loop.trips) (c0_i32_14 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v13 : BitVec 32 := Scalar.addi v8 c0_i32_14
  let v14 : Index := Scalar.indexCast v13
  ![v14.toNat]

def k0_chk2 (i : grid0.Coords) (v18 : IVec S16 32) : Prop :=
  (∀ (k0_h1 : k0_cond1 i = 1#1), ∀ a x, ((![v18] : Fin 1 → IVec S16 32) a x).toNat < S100000.size a)
instance k0_chk2.dec : ∀ (i : grid0.Coords) (v18 : IVec S16 32), Decidable (k0_chk2 i v18) := fun i v18 => decidable_of_iff' _ (Iff.of_eq (k0_chk2.eq_1 i v18))
theorem k0_idx2_inb : ∀ (i : grid0.Coords) (v18 : IVec S16 32) (k0_hw2 : k0_chk2 i v18), ∀ (k0_h1 : k0_cond1 i = 1#1), ∀ a x, ((![v18] : Fin 1 → IVec S16 32) a x).toNat < S100000.size a := fun i v18 k0_hw2 k0_h1 => k0_hw2 k0_h1
def k0_off5 (k0_t3 : Fin k0_t3_loop.trips) (c16_i32_16 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v20 : BitVec 32 := Scalar.addi v8 c16_i32_16
  let v21 : Index := Scalar.indexCast v20
  ![v21.toNat]

def k0_chk3 (i : grid0.Coords) (v25 : IVec S16 32) : Prop :=
  (∀ (k0_h1 : k0_cond1 i = 1#1), ∀ a x, ((![v25] : Fin 1 → IVec S16 32) a x).toNat < S100000.size a)
instance k0_chk3.dec : ∀ (i : grid0.Coords) (v25 : IVec S16 32), Decidable (k0_chk3 i v25) := fun i v25 => decidable_of_iff' _ (Iff.of_eq (k0_chk3.eq_1 i v25))
theorem k0_idx3_inb : ∀ (i : grid0.Coords) (v25 : IVec S16 32) (k0_hw3 : k0_chk3 i v25), ∀ (k0_h1 : k0_cond1 i = 1#1), ∀ a x, ((![v25] : Fin 1 → IVec S16 32) a x).toNat < S100000.size a := fun i v25 k0_hw3 k0_h1 => k0_hw3 k0_h1
def k0_off6 (k0_t3 : Fin k0_t3_loop.trips) (c32_i32_17 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v27 : BitVec 32 := Scalar.addi v8 c32_i32_17
  let v28 : Index := Scalar.indexCast v27
  ![v28.toNat]

def k0_chk4 (i : grid0.Coords) (v32 : IVec S16 32) : Prop :=
  (∀ (k0_h1 : k0_cond1 i = 1#1), ∀ a x, ((![v32] : Fin 1 → IVec S16 32) a x).toNat < S100000.size a)
instance k0_chk4.dec : ∀ (i : grid0.Coords) (v32 : IVec S16 32), Decidable (k0_chk4 i v32) := fun i v32 => decidable_of_iff' _ (Iff.of_eq (k0_chk4.eq_1 i v32))
theorem k0_idx4_inb : ∀ (i : grid0.Coords) (v32 : IVec S16 32) (k0_hw4 : k0_chk4 i v32), ∀ (k0_h1 : k0_cond1 i = 1#1), ∀ a x, ((![v32] : Fin 1 → IVec S16 32) a x).toNat < S100000.size a := fun i v32 k0_hw4 k0_h1 => k0_hw4 k0_h1
def k0_off7 (k0_t3 : Fin k0_t3_loop.trips) (c48_i32_18 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v34 : BitVec 32 := Scalar.addi v8 c48_i32_18
  let v35 : Index := Scalar.indexCast v34
  ![v35.toNat]

def k0_chk5 (i : grid0.Coords) (v39 : IVec S16 32) : Prop :=
  (∀ (k0_h1 : k0_cond1 i = 1#1), ∀ a x, ((![v39] : Fin 1 → IVec S16 32) a x).toNat < S100000.size a)
instance k0_chk5.dec : ∀ (i : grid0.Coords) (v39 : IVec S16 32), Decidable (k0_chk5 i v39) := fun i v39 => decidable_of_iff' _ (Iff.of_eq (k0_chk5.eq_1 i v39))
theorem k0_idx5_inb : ∀ (i : grid0.Coords) (v39 : IVec S16 32) (k0_hw5 : k0_chk5 i v39), ∀ (k0_h1 : k0_cond1 i = 1#1), ∀ a x, ((![v39] : Fin 1 → IVec S16 32) a x).toNat < S100000.size a := fun i v39 k0_hw5 k0_h1 => k0_hw5 k0_h1
def k0_off8 (k0_t3 : Fin k0_t3_loop.trips) (c64_i32_19 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v41 : BitVec 32 := Scalar.addi v8 c64_i32_19
  let v42 : Index := Scalar.indexCast v41
  ![v42.toNat]

def k0_chk6 (i : grid0.Coords) (v46 : IVec S16 32) : Prop :=
  (∀ (k0_h1 : k0_cond1 i = 1#1), ∀ a x, ((![v46] : Fin 1 → IVec S16 32) a x).toNat < S100000.size a)
instance k0_chk6.dec : ∀ (i : grid0.Coords) (v46 : IVec S16 32), Decidable (k0_chk6 i v46) := fun i v46 => decidable_of_iff' _ (Iff.of_eq (k0_chk6.eq_1 i v46))
theorem k0_idx6_inb : ∀ (i : grid0.Coords) (v46 : IVec S16 32) (k0_hw6 : k0_chk6 i v46), ∀ (k0_h1 : k0_cond1 i = 1#1), ∀ a x, ((![v46] : Fin 1 → IVec S16 32) a x).toNat < S100000.size a := fun i v46 k0_hw6 k0_h1 => k0_hw6 k0_h1
def k0_off9 (k0_t3 : Fin k0_t3_loop.trips) (c80_i32_20 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v48 : BitVec 32 := Scalar.addi v8 c80_i32_20
  let v49 : Index := Scalar.indexCast v48
  ![v49.toNat]

def k0_chk7 (i : grid0.Coords) (v53 : IVec S16 32) : Prop :=
  (∀ (k0_h1 : k0_cond1 i = 1#1), ∀ a x, ((![v53] : Fin 1 → IVec S16 32) a x).toNat < S100000.size a)
instance k0_chk7.dec : ∀ (i : grid0.Coords) (v53 : IVec S16 32), Decidable (k0_chk7 i v53) := fun i v53 => decidable_of_iff' _ (Iff.of_eq (k0_chk7.eq_1 i v53))
theorem k0_idx7_inb : ∀ (i : grid0.Coords) (v53 : IVec S16 32) (k0_hw7 : k0_chk7 i v53), ∀ (k0_h1 : k0_cond1 i = 1#1), ∀ a x, ((![v53] : Fin 1 → IVec S16 32) a x).toNat < S100000.size a := fun i v53 k0_hw7 k0_h1 => k0_hw7 k0_h1
def k0_off10 (k0_t3 : Fin k0_t3_loop.trips) (c96_i32_21 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v55 : BitVec 32 := Scalar.addi v8 c96_i32_21
  let v56 : Index := Scalar.indexCast v55
  ![v56.toNat]

def k0_chk8 (i : grid0.Coords) (v60 : IVec S16 32) : Prop :=
  (∀ (k0_h1 : k0_cond1 i = 1#1), ∀ a x, ((![v60] : Fin 1 → IVec S16 32) a x).toNat < S100000.size a)
instance k0_chk8.dec : ∀ (i : grid0.Coords) (v60 : IVec S16 32), Decidable (k0_chk8 i v60) := fun i v60 => decidable_of_iff' _ (Iff.of_eq (k0_chk8.eq_1 i v60))
theorem k0_idx8_inb : ∀ (i : grid0.Coords) (v60 : IVec S16 32) (k0_hw8 : k0_chk8 i v60), ∀ (k0_h1 : k0_cond1 i = 1#1), ∀ a x, ((![v60] : Fin 1 → IVec S16 32) a x).toNat < S100000.size a := fun i v60 k0_hw8 k0_h1 => k0_hw8 k0_h1
def k0_off11 (k0_t3 : Fin k0_t3_loop.trips) (c112_i32_22 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v62 : BitVec 32 := Scalar.addi v8 c112_i32_22
  let v63 : Index := Scalar.indexCast v62
  ![v63.toNat]

def k0_chk9 (i : grid0.Coords) (v67 : IVec S16 32) : Prop :=
  (∀ (k0_h1 : k0_cond1 i = 1#1), ∀ a x, ((![v67] : Fin 1 → IVec S16 32) a x).toNat < S100000.size a)
instance k0_chk9.dec : ∀ (i : grid0.Coords) (v67 : IVec S16 32), Decidable (k0_chk9 i v67) := fun i v67 => decidable_of_iff' _ (Iff.of_eq (k0_chk9.eq_1 i v67))
theorem k0_idx9_inb : ∀ (i : grid0.Coords) (v67 : IVec S16 32) (k0_hw9 : k0_chk9 i v67), ∀ (k0_h1 : k0_cond1 i = 1#1), ∀ a x, ((![v67] : Fin 1 → IVec S16 32) a x).toNat < S100000.size a := fun i v67 k0_hw9 k0_h1 => k0_hw9 k0_h1
def k0_off12 (k0_t3 : Fin k0_t3_loop.trips) (c128_i32_23 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v69 : BitVec 32 := Scalar.addi v8 c128_i32_23
  let v70 : Index := Scalar.indexCast v69
  ![v70.toNat]

def k0_chk10 (i : grid0.Coords) (v74 : IVec S16 32) : Prop :=
  (∀ (k0_h1 : k0_cond1 i = 1#1), ∀ a x, ((![v74] : Fin 1 → IVec S16 32) a x).toNat < S100000.size a)
instance k0_chk10.dec : ∀ (i : grid0.Coords) (v74 : IVec S16 32), Decidable (k0_chk10 i v74) := fun i v74 => decidable_of_iff' _ (Iff.of_eq (k0_chk10.eq_1 i v74))
theorem k0_idx10_inb : ∀ (i : grid0.Coords) (v74 : IVec S16 32) (k0_hw10 : k0_chk10 i v74), ∀ (k0_h1 : k0_cond1 i = 1#1), ∀ a x, ((![v74] : Fin 1 → IVec S16 32) a x).toNat < S100000.size a := fun i v74 k0_hw10 k0_h1 => k0_hw10 k0_h1
def k0_off13 (k0_t3 : Fin k0_t3_loop.trips) (c144_i32_24 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v76 : BitVec 32 := Scalar.addi v8 c144_i32_24
  let v77 : Index := Scalar.indexCast v76
  ![v77.toNat]

def k0_chk11 (i : grid0.Coords) (v81 : IVec S16 32) : Prop :=
  (∀ (k0_h1 : k0_cond1 i = 1#1), ∀ a x, ((![v81] : Fin 1 → IVec S16 32) a x).toNat < S100000.size a)
instance k0_chk11.dec : ∀ (i : grid0.Coords) (v81 : IVec S16 32), Decidable (k0_chk11 i v81) := fun i v81 => decidable_of_iff' _ (Iff.of_eq (k0_chk11.eq_1 i v81))
theorem k0_idx11_inb : ∀ (i : grid0.Coords) (v81 : IVec S16 32) (k0_hw11 : k0_chk11 i v81), ∀ (k0_h1 : k0_cond1 i = 1#1), ∀ a x, ((![v81] : Fin 1 → IVec S16 32) a x).toNat < S100000.size a := fun i v81 k0_hw11 k0_h1 => k0_hw11 k0_h1
def k0_off14 (k0_t3 : Fin k0_t3_loop.trips) (c160_i32_25 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v83 : BitVec 32 := Scalar.addi v8 c160_i32_25
  let v84 : Index := Scalar.indexCast v83
  ![v84.toNat]

def k0_chk12 (i : grid0.Coords) (v88 : IVec S16 32) : Prop :=
  (∀ (k0_h1 : k0_cond1 i = 1#1), ∀ a x, ((![v88] : Fin 1 → IVec S16 32) a x).toNat < S100000.size a)
instance k0_chk12.dec : ∀ (i : grid0.Coords) (v88 : IVec S16 32), Decidable (k0_chk12 i v88) := fun i v88 => decidable_of_iff' _ (Iff.of_eq (k0_chk12.eq_1 i v88))
theorem k0_idx12_inb : ∀ (i : grid0.Coords) (v88 : IVec S16 32) (k0_hw12 : k0_chk12 i v88), ∀ (k0_h1 : k0_cond1 i = 1#1), ∀ a x, ((![v88] : Fin 1 → IVec S16 32) a x).toNat < S100000.size a := fun i v88 k0_hw12 k0_h1 => k0_hw12 k0_h1
def k0_off15 (k0_t3 : Fin k0_t3_loop.trips) (c176_i32_26 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v90 : BitVec 32 := Scalar.addi v8 c176_i32_26
  let v91 : Index := Scalar.indexCast v90
  ![v91.toNat]

def k0_chk13 (i : grid0.Coords) (v95 : IVec S16 32) : Prop :=
  (∀ (k0_h1 : k0_cond1 i = 1#1), ∀ a x, ((![v95] : Fin 1 → IVec S16 32) a x).toNat < S100000.size a)
instance k0_chk13.dec : ∀ (i : grid0.Coords) (v95 : IVec S16 32), Decidable (k0_chk13 i v95) := fun i v95 => decidable_of_iff' _ (Iff.of_eq (k0_chk13.eq_1 i v95))
theorem k0_idx13_inb : ∀ (i : grid0.Coords) (v95 : IVec S16 32) (k0_hw13 : k0_chk13 i v95), ∀ (k0_h1 : k0_cond1 i = 1#1), ∀ a x, ((![v95] : Fin 1 → IVec S16 32) a x).toNat < S100000.size a := fun i v95 k0_hw13 k0_h1 => k0_hw13 k0_h1
def k0_off16 (k0_t3 : Fin k0_t3_loop.trips) (c192_i32_27 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v97 : BitVec 32 := Scalar.addi v8 c192_i32_27
  let v98 : Index := Scalar.indexCast v97
  ![v98.toNat]

def k0_chk14 (i : grid0.Coords) (v102 : IVec S16 32) : Prop :=
  (∀ (k0_h1 : k0_cond1 i = 1#1), ∀ a x, ((![v102] : Fin 1 → IVec S16 32) a x).toNat < S100000.size a)
instance k0_chk14.dec : ∀ (i : grid0.Coords) (v102 : IVec S16 32), Decidable (k0_chk14 i v102) := fun i v102 => decidable_of_iff' _ (Iff.of_eq (k0_chk14.eq_1 i v102))
theorem k0_idx14_inb : ∀ (i : grid0.Coords) (v102 : IVec S16 32) (k0_hw14 : k0_chk14 i v102), ∀ (k0_h1 : k0_cond1 i = 1#1), ∀ a x, ((![v102] : Fin 1 → IVec S16 32) a x).toNat < S100000.size a := fun i v102 k0_hw14 k0_h1 => k0_hw14 k0_h1
def k0_off17 (k0_t3 : Fin k0_t3_loop.trips) (c208_i32_28 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v104 : BitVec 32 := Scalar.addi v8 c208_i32_28
  let v105 : Index := Scalar.indexCast v104
  ![v105.toNat]

def k0_chk15 (i : grid0.Coords) (v109 : IVec S16 32) : Prop :=
  (∀ (k0_h1 : k0_cond1 i = 1#1), ∀ a x, ((![v109] : Fin 1 → IVec S16 32) a x).toNat < S100000.size a)
instance k0_chk15.dec : ∀ (i : grid0.Coords) (v109 : IVec S16 32), Decidable (k0_chk15 i v109) := fun i v109 => decidable_of_iff' _ (Iff.of_eq (k0_chk15.eq_1 i v109))
theorem k0_idx15_inb : ∀ (i : grid0.Coords) (v109 : IVec S16 32) (k0_hw15 : k0_chk15 i v109), ∀ (k0_h1 : k0_cond1 i = 1#1), ∀ a x, ((![v109] : Fin 1 → IVec S16 32) a x).toNat < S100000.size a := fun i v109 k0_hw15 k0_h1 => k0_hw15 k0_h1
def k0_off18 (k0_t3 : Fin k0_t3_loop.trips) (c224_i32_29 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v111 : BitVec 32 := Scalar.addi v8 c224_i32_29
  let v112 : Index := Scalar.indexCast v111
  ![v112.toNat]

def k0_chk16 (i : grid0.Coords) (v116 : IVec S16 32) : Prop :=
  (∀ (k0_h1 : k0_cond1 i = 1#1), ∀ a x, ((![v116] : Fin 1 → IVec S16 32) a x).toNat < S100000.size a)
instance k0_chk16.dec : ∀ (i : grid0.Coords) (v116 : IVec S16 32), Decidable (k0_chk16 i v116) := fun i v116 => decidable_of_iff' _ (Iff.of_eq (k0_chk16.eq_1 i v116))
theorem k0_idx16_inb : ∀ (i : grid0.Coords) (v116 : IVec S16 32) (k0_hw16 : k0_chk16 i v116), ∀ (k0_h1 : k0_cond1 i = 1#1), ∀ a x, ((![v116] : Fin 1 → IVec S16 32) a x).toNat < S100000.size a := fun i v116 k0_hw16 k0_h1 => k0_hw16 k0_h1
def k0_off19 (k0_t3 : Fin k0_t3_loop.trips) (c240_i32_30 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v118 : BitVec 32 := Scalar.addi v8 c240_i32_30
  let v119 : Index := Scalar.indexCast v118
  ![v119.toNat]

def k0_chk17 (i : grid0.Coords) (v123 : IVec S16 32) : Prop :=
  (∀ (k0_h1 : k0_cond1 i = 1#1), ∀ a x, ((![v123] : Fin 1 → IVec S16 32) a x).toNat < S100000.size a)
instance k0_chk17.dec : ∀ (i : grid0.Coords) (v123 : IVec S16 32), Decidable (k0_chk17 i v123) := fun i v123 => decidable_of_iff' _ (Iff.of_eq (k0_chk17.eq_1 i v123))
theorem k0_idx17_inb : ∀ (i : grid0.Coords) (v123 : IVec S16 32) (k0_hw17 : k0_chk17 i v123), ∀ (k0_h1 : k0_cond1 i = 1#1), ∀ a x, ((![v123] : Fin 1 → IVec S16 32) a x).toNat < S100000.size a := fun i v123 k0_hw17 k0_h1 => k0_hw17 k0_h1
def k0_off20 (k0_t3 : Fin k0_t3_loop.trips) (c256_i32_31 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v125 : BitVec 32 := Scalar.addi v8 c256_i32_31
  let v126 : Index := Scalar.indexCast v125
  ![v126.toNat]

def k0_chk18 (i : grid0.Coords) (v130 : IVec S16 32) : Prop :=
  (∀ (k0_h1 : k0_cond1 i = 1#1), ∀ a x, ((![v130] : Fin 1 → IVec S16 32) a x).toNat < S100000.size a)
instance k0_chk18.dec : ∀ (i : grid0.Coords) (v130 : IVec S16 32), Decidable (k0_chk18 i v130) := fun i v130 => decidable_of_iff' _ (Iff.of_eq (k0_chk18.eq_1 i v130))
theorem k0_idx18_inb : ∀ (i : grid0.Coords) (v130 : IVec S16 32) (k0_hw18 : k0_chk18 i v130), ∀ (k0_h1 : k0_cond1 i = 1#1), ∀ a x, ((![v130] : Fin 1 → IVec S16 32) a x).toNat < S100000.size a := fun i v130 k0_hw18 k0_h1 => k0_hw18 k0_h1
def k0_off21 (k0_t3 : Fin k0_t3_loop.trips) (c272_i32_32 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v132 : BitVec 32 := Scalar.addi v8 c272_i32_32
  let v133 : Index := Scalar.indexCast v132
  ![v133.toNat]

def k0_chk19 (i : grid0.Coords) (v137 : IVec S16 32) : Prop :=
  (∀ (k0_h1 : k0_cond1 i = 1#1), ∀ a x, ((![v137] : Fin 1 → IVec S16 32) a x).toNat < S100000.size a)
instance k0_chk19.dec : ∀ (i : grid0.Coords) (v137 : IVec S16 32), Decidable (k0_chk19 i v137) := fun i v137 => decidable_of_iff' _ (Iff.of_eq (k0_chk19.eq_1 i v137))
theorem k0_idx19_inb : ∀ (i : grid0.Coords) (v137 : IVec S16 32) (k0_hw19 : k0_chk19 i v137), ∀ (k0_h1 : k0_cond1 i = 1#1), ∀ a x, ((![v137] : Fin 1 → IVec S16 32) a x).toNat < S100000.size a := fun i v137 k0_hw19 k0_h1 => k0_hw19 k0_h1
def k0_off22 (k0_t3 : Fin k0_t3_loop.trips) (c288_i32_33 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v139 : BitVec 32 := Scalar.addi v8 c288_i32_33
  let v140 : Index := Scalar.indexCast v139
  ![v140.toNat]

def k0_chk20 (i : grid0.Coords) (v144 : IVec S16 32) : Prop :=
  (∀ (k0_h1 : k0_cond1 i = 1#1), ∀ a x, ((![v144] : Fin 1 → IVec S16 32) a x).toNat < S100000.size a)
instance k0_chk20.dec : ∀ (i : grid0.Coords) (v144 : IVec S16 32), Decidable (k0_chk20 i v144) := fun i v144 => decidable_of_iff' _ (Iff.of_eq (k0_chk20.eq_1 i v144))
theorem k0_idx20_inb : ∀ (i : grid0.Coords) (v144 : IVec S16 32) (k0_hw20 : k0_chk20 i v144), ∀ (k0_h1 : k0_cond1 i = 1#1), ∀ a x, ((![v144] : Fin 1 → IVec S16 32) a x).toNat < S100000.size a := fun i v144 k0_hw20 k0_h1 => k0_hw20 k0_h1
def k0_off23 (k0_t3 : Fin k0_t3_loop.trips) (c304_i32_34 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v146 : BitVec 32 := Scalar.addi v8 c304_i32_34
  let v147 : Index := Scalar.indexCast v146
  ![v147.toNat]

def k0_chk21 (i : grid0.Coords) (v151 : IVec S16 32) : Prop :=
  (∀ (k0_h1 : k0_cond1 i = 1#1), ∀ a x, ((![v151] : Fin 1 → IVec S16 32) a x).toNat < S100000.size a)
instance k0_chk21.dec : ∀ (i : grid0.Coords) (v151 : IVec S16 32), Decidable (k0_chk21 i v151) := fun i v151 => decidable_of_iff' _ (Iff.of_eq (k0_chk21.eq_1 i v151))
theorem k0_idx21_inb : ∀ (i : grid0.Coords) (v151 : IVec S16 32) (k0_hw21 : k0_chk21 i v151), ∀ (k0_h1 : k0_cond1 i = 1#1), ∀ a x, ((![v151] : Fin 1 → IVec S16 32) a x).toNat < S100000.size a := fun i v151 k0_hw21 k0_h1 => k0_hw21 k0_h1
def k0_off24 (k0_t3 : Fin k0_t3_loop.trips) (c320_i32_35 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v153 : BitVec 32 := Scalar.addi v8 c320_i32_35
  let v154 : Index := Scalar.indexCast v153
  ![v154.toNat]

def k0_chk22 (i : grid0.Coords) (v158 : IVec S16 32) : Prop :=
  (∀ (k0_h1 : k0_cond1 i = 1#1), ∀ a x, ((![v158] : Fin 1 → IVec S16 32) a x).toNat < S100000.size a)
instance k0_chk22.dec : ∀ (i : grid0.Coords) (v158 : IVec S16 32), Decidable (k0_chk22 i v158) := fun i v158 => decidable_of_iff' _ (Iff.of_eq (k0_chk22.eq_1 i v158))
theorem k0_idx22_inb : ∀ (i : grid0.Coords) (v158 : IVec S16 32) (k0_hw22 : k0_chk22 i v158), ∀ (k0_h1 : k0_cond1 i = 1#1), ∀ a x, ((![v158] : Fin 1 → IVec S16 32) a x).toNat < S100000.size a := fun i v158 k0_hw22 k0_h1 => k0_hw22 k0_h1
def k0_off25 (k0_t3 : Fin k0_t3_loop.trips) (c336_i32_36 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v160 : BitVec 32 := Scalar.addi v8 c336_i32_36
  let v161 : Index := Scalar.indexCast v160
  ![v161.toNat]

def k0_chk23 (i : grid0.Coords) (v165 : IVec S16 32) : Prop :=
  (∀ (k0_h1 : k0_cond1 i = 1#1), ∀ a x, ((![v165] : Fin 1 → IVec S16 32) a x).toNat < S100000.size a)
instance k0_chk23.dec : ∀ (i : grid0.Coords) (v165 : IVec S16 32), Decidable (k0_chk23 i v165) := fun i v165 => decidable_of_iff' _ (Iff.of_eq (k0_chk23.eq_1 i v165))
theorem k0_idx23_inb : ∀ (i : grid0.Coords) (v165 : IVec S16 32) (k0_hw23 : k0_chk23 i v165), ∀ (k0_h1 : k0_cond1 i = 1#1), ∀ a x, ((![v165] : Fin 1 → IVec S16 32) a x).toNat < S100000.size a := fun i v165 k0_hw23 k0_h1 => k0_hw23 k0_h1
def k0_off26 (k0_t3 : Fin k0_t3_loop.trips) (c352_i32_37 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v167 : BitVec 32 := Scalar.addi v8 c352_i32_37
  let v168 : Index := Scalar.indexCast v167
  ![v168.toNat]

def k0_chk24 (i : grid0.Coords) (v172 : IVec S16 32) : Prop :=
  (∀ (k0_h1 : k0_cond1 i = 1#1), ∀ a x, ((![v172] : Fin 1 → IVec S16 32) a x).toNat < S100000.size a)
instance k0_chk24.dec : ∀ (i : grid0.Coords) (v172 : IVec S16 32), Decidable (k0_chk24 i v172) := fun i v172 => decidable_of_iff' _ (Iff.of_eq (k0_chk24.eq_1 i v172))
theorem k0_idx24_inb : ∀ (i : grid0.Coords) (v172 : IVec S16 32) (k0_hw24 : k0_chk24 i v172), ∀ (k0_h1 : k0_cond1 i = 1#1), ∀ a x, ((![v172] : Fin 1 → IVec S16 32) a x).toNat < S100000.size a := fun i v172 k0_hw24 k0_h1 => k0_hw24 k0_h1
def k0_off27 (k0_t3 : Fin k0_t3_loop.trips) (c368_i32_38 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v174 : BitVec 32 := Scalar.addi v8 c368_i32_38
  let v175 : Index := Scalar.indexCast v174
  ![v175.toNat]

def k0_chk25 (i : grid0.Coords) (v179 : IVec S16 32) : Prop :=
  (∀ (k0_h1 : k0_cond1 i = 1#1), ∀ a x, ((![v179] : Fin 1 → IVec S16 32) a x).toNat < S100000.size a)
instance k0_chk25.dec : ∀ (i : grid0.Coords) (v179 : IVec S16 32), Decidable (k0_chk25 i v179) := fun i v179 => decidable_of_iff' _ (Iff.of_eq (k0_chk25.eq_1 i v179))
theorem k0_idx25_inb : ∀ (i : grid0.Coords) (v179 : IVec S16 32) (k0_hw25 : k0_chk25 i v179), ∀ (k0_h1 : k0_cond1 i = 1#1), ∀ a x, ((![v179] : Fin 1 → IVec S16 32) a x).toNat < S100000.size a := fun i v179 k0_hw25 k0_h1 => k0_hw25 k0_h1
def k0_off28 (k0_t3 : Fin k0_t3_loop.trips) (c384_i32_39 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v181 : BitVec 32 := Scalar.addi v8 c384_i32_39
  let v182 : Index := Scalar.indexCast v181
  ![v182.toNat]

def k0_chk26 (i : grid0.Coords) (v186 : IVec S16 32) : Prop :=
  (∀ (k0_h1 : k0_cond1 i = 1#1), ∀ a x, ((![v186] : Fin 1 → IVec S16 32) a x).toNat < S100000.size a)
instance k0_chk26.dec : ∀ (i : grid0.Coords) (v186 : IVec S16 32), Decidable (k0_chk26 i v186) := fun i v186 => decidable_of_iff' _ (Iff.of_eq (k0_chk26.eq_1 i v186))
theorem k0_idx26_inb : ∀ (i : grid0.Coords) (v186 : IVec S16 32) (k0_hw26 : k0_chk26 i v186), ∀ (k0_h1 : k0_cond1 i = 1#1), ∀ a x, ((![v186] : Fin 1 → IVec S16 32) a x).toNat < S100000.size a := fun i v186 k0_hw26 k0_h1 => k0_hw26 k0_h1
def k0_off29 (k0_t3 : Fin k0_t3_loop.trips) (c400_i32_40 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v188 : BitVec 32 := Scalar.addi v8 c400_i32_40
  let v189 : Index := Scalar.indexCast v188
  ![v189.toNat]

def k0_chk27 (i : grid0.Coords) (v193 : IVec S16 32) : Prop :=
  (∀ (k0_h1 : k0_cond1 i = 1#1), ∀ a x, ((![v193] : Fin 1 → IVec S16 32) a x).toNat < S100000.size a)
instance k0_chk27.dec : ∀ (i : grid0.Coords) (v193 : IVec S16 32), Decidable (k0_chk27 i v193) := fun i v193 => decidable_of_iff' _ (Iff.of_eq (k0_chk27.eq_1 i v193))
theorem k0_idx27_inb : ∀ (i : grid0.Coords) (v193 : IVec S16 32) (k0_hw27 : k0_chk27 i v193), ∀ (k0_h1 : k0_cond1 i = 1#1), ∀ a x, ((![v193] : Fin 1 → IVec S16 32) a x).toNat < S100000.size a := fun i v193 k0_hw27 k0_h1 => k0_hw27 k0_h1
def k0_off30 (k0_t3 : Fin k0_t3_loop.trips) (c416_i32_41 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v195 : BitVec 32 := Scalar.addi v8 c416_i32_41
  let v196 : Index := Scalar.indexCast v195
  ![v196.toNat]

def k0_chk28 (i : grid0.Coords) (v200 : IVec S16 32) : Prop :=
  (∀ (k0_h1 : k0_cond1 i = 1#1), ∀ a x, ((![v200] : Fin 1 → IVec S16 32) a x).toNat < S100000.size a)
instance k0_chk28.dec : ∀ (i : grid0.Coords) (v200 : IVec S16 32), Decidable (k0_chk28 i v200) := fun i v200 => decidable_of_iff' _ (Iff.of_eq (k0_chk28.eq_1 i v200))
theorem k0_idx28_inb : ∀ (i : grid0.Coords) (v200 : IVec S16 32) (k0_hw28 : k0_chk28 i v200), ∀ (k0_h1 : k0_cond1 i = 1#1), ∀ a x, ((![v200] : Fin 1 → IVec S16 32) a x).toNat < S100000.size a := fun i v200 k0_hw28 k0_h1 => k0_hw28 k0_h1
def k0_off31 (k0_t3 : Fin k0_t3_loop.trips) (c432_i32_42 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v202 : BitVec 32 := Scalar.addi v8 c432_i32_42
  let v203 : Index := Scalar.indexCast v202
  ![v203.toNat]

def k0_chk29 (i : grid0.Coords) (v207 : IVec S16 32) : Prop :=
  (∀ (k0_h1 : k0_cond1 i = 1#1), ∀ a x, ((![v207] : Fin 1 → IVec S16 32) a x).toNat < S100000.size a)
instance k0_chk29.dec : ∀ (i : grid0.Coords) (v207 : IVec S16 32), Decidable (k0_chk29 i v207) := fun i v207 => decidable_of_iff' _ (Iff.of_eq (k0_chk29.eq_1 i v207))
theorem k0_idx29_inb : ∀ (i : grid0.Coords) (v207 : IVec S16 32) (k0_hw29 : k0_chk29 i v207), ∀ (k0_h1 : k0_cond1 i = 1#1), ∀ a x, ((![v207] : Fin 1 → IVec S16 32) a x).toNat < S100000.size a := fun i v207 k0_hw29 k0_h1 => k0_hw29 k0_h1
def k0_off32 (k0_t3 : Fin k0_t3_loop.trips) (c448_i32_43 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v209 : BitVec 32 := Scalar.addi v8 c448_i32_43
  let v210 : Index := Scalar.indexCast v209
  ![v210.toNat]

def k0_chk30 (i : grid0.Coords) (v214 : IVec S16 32) : Prop :=
  (∀ (k0_h1 : k0_cond1 i = 1#1), ∀ a x, ((![v214] : Fin 1 → IVec S16 32) a x).toNat < S100000.size a)
instance k0_chk30.dec : ∀ (i : grid0.Coords) (v214 : IVec S16 32), Decidable (k0_chk30 i v214) := fun i v214 => decidable_of_iff' _ (Iff.of_eq (k0_chk30.eq_1 i v214))
theorem k0_idx30_inb : ∀ (i : grid0.Coords) (v214 : IVec S16 32) (k0_hw30 : k0_chk30 i v214), ∀ (k0_h1 : k0_cond1 i = 1#1), ∀ a x, ((![v214] : Fin 1 → IVec S16 32) a x).toNat < S100000.size a := fun i v214 k0_hw30 k0_h1 => k0_hw30 k0_h1
def k0_off33 (k0_t3 : Fin k0_t3_loop.trips) (c464_i32_44 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v216 : BitVec 32 := Scalar.addi v8 c464_i32_44
  let v217 : Index := Scalar.indexCast v216
  ![v217.toNat]

def k0_chk31 (i : grid0.Coords) (v221 : IVec S16 32) : Prop :=
  (∀ (k0_h1 : k0_cond1 i = 1#1), ∀ a x, ((![v221] : Fin 1 → IVec S16 32) a x).toNat < S100000.size a)
instance k0_chk31.dec : ∀ (i : grid0.Coords) (v221 : IVec S16 32), Decidable (k0_chk31 i v221) := fun i v221 => decidable_of_iff' _ (Iff.of_eq (k0_chk31.eq_1 i v221))
theorem k0_idx31_inb : ∀ (i : grid0.Coords) (v221 : IVec S16 32) (k0_hw31 : k0_chk31 i v221), ∀ (k0_h1 : k0_cond1 i = 1#1), ∀ a x, ((![v221] : Fin 1 → IVec S16 32) a x).toNat < S100000.size a := fun i v221 k0_hw31 k0_h1 => k0_hw31 k0_h1
def k0_off34 (k0_t3 : Fin k0_t3_loop.trips) (c480_i32_45 : BitVec 32) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let v223 : BitVec 32 := Scalar.addi v8 c480_i32_45
  let v224 : Index := Scalar.indexCast v223
  ![v224.toNat]

def k0_chk32 (i : grid0.Coords) (v228 : IVec S16 32) : Prop :=
  (∀ (k0_h1 : k0_cond1 i = 1#1), ∀ a x, ((![v228] : Fin 1 → IVec S16 32) a x).toNat < S100000.size a)
instance k0_chk32.dec : ∀ (i : grid0.Coords) (v228 : IVec S16 32), Decidable (k0_chk32 i v228) := fun i v228 => decidable_of_iff' _ (Iff.of_eq (k0_chk32.eq_1 i v228))
theorem k0_idx32_inb : ∀ (i : grid0.Coords) (v228 : IVec S16 32) (k0_hw32 : k0_chk32 i v228), ∀ (k0_h1 : k0_cond1 i = 1#1), ∀ a x, ((![v228] : Fin 1 → IVec S16 32) a x).toNat < S100000.size a := fun i v228 k0_hw32 k0_h1 => k0_hw32 k0_h1
def k0_off35 (k0_t3 : Fin k0_t3_loop.trips) : Fin 1 → Nat :=
  let c0_i32_9 : BitVec 32 := 0#32
  let c1_i32_10 : BitVec 32 := 1#32
  let arg13 : BitVec 32 := Scf.iv c0_i32_9 c1_i32_10 k0_t3
  let c512_i32 : BitVec 32 := 512#32
  let v8 : BitVec 32 := Scalar.muli arg13 c512_i32
  let c496_i32_46 : BitVec 32 := 496#32
  let v230 : BitVec 32 := Scalar.addi v8 c496_i32_46
  let v231 : Index := Scalar.indexCast v230
  ![v231.toNat]
def k0_off36 (i : grid0.Coords) (k0_t1 : Fin k0_t1_loop.trips) (k0_t2 : Fin k0_t2_loop.trips) : Fin 3 → Nat :=
  let c0_i32_2 : BitVec 32 := 0#32
  let c1_i32 : BitVec 32 := 1#32
  let arg11 : BitVec 32 := Scf.iv c0_i32_2 c1_i32 k0_t1
  let arg1 : BitVec 32 := BitVec.ofNat 32 (i 1).val
  let c0_i32_5 : BitVec 32 := 0#32
  let c1_i32_6 : BitVec 32 := 1#32
  let arg12 : BitVec 32 := Scf.iv c0_i32_5 c1_i32_6 k0_t2
  let c8192_i32_12 : BitVec 32 := 8192#32
  let v7 : BitVec 32 := Scalar.muli arg12 c8192_i32_12
  ![arg11.toNat, arg1.toNat, v7.toNat]
@[reducible] def k0_t4_loop : Scf.Loop 32 :=
  let c0_i32_2 : BitVec 32 := 0#32
  let c13_i32 : BitVec 32 := 13#32
  let v3 : BitVec 32 := Scalar.addi c0_i32_2 c13_i32
  let c1_i32 : BitVec 32 := 1#32
  ⟨c0_i32_2, v3, c1_i32⟩
def k0_off37 (i : grid0.Coords) (k0_t4 : Fin k0_t4_loop.trips) : Fin 3 → Nat :=
  let c0_i32_2 : BitVec 32 := 0#32
  let c1_i32 : BitVec 32 := 1#32
  let arg11 : BitVec 32 := Scf.iv c0_i32_2 c1_i32 k0_t4
  let arg1 : BitVec 32 := BitVec.ofNat 32 (i 1).val
  let c0_i32_8_r3 : BitVec 32 := 0#32
  ![arg11.toNat, arg1.toNat, 0]
@[reducible] def k0_t5_loop : Scf.Loop 32 :=
  let c0_i32_5 : BitVec 32 := 0#32
  let c2_i32 : BitVec 32 := 2#32
  let v4 : BitVec 32 := Scalar.addi c0_i32_5 c2_i32
  let c1_i32_6 : BitVec 32 := 1#32
  ⟨c0_i32_5, v4, c1_i32_6⟩
def k0_off38 (k0_t4 : Fin k0_t4_loop.trips) (k0_t5 : Fin k0_t5_loop.trips) : Fin 2 → Nat :=
  let c0_i32_2 : BitVec 32 := 0#32
  let c1_i32 : BitVec 32 := 1#32
  let arg11 : BitVec 32 := Scf.iv c0_i32_2 c1_i32 k0_t4
  let c0_i32_5 : BitVec 32 := 0#32
  let c1_i32_6 : BitVec 32 := 1#32
  let arg12 : BitVec 32 := Scf.iv c0_i32_5 c1_i32_6 k0_t5
  let c8192_i32 : BitVec 32 := 8192#32
  let v5 : BitVec 32 := Scalar.muli arg12 c8192_i32
  ![arg11.toNat, v5.toNat]
@[reducible] def k0_t6_loop : Scf.Loop 32 :=
  let c0_i32_9 : BitVec 32 := 0#32
  let c16_i32 : BitVec 32 := 16#32
  let v6 : BitVec 32 := Scalar.addi c0_i32_9 c16_i32
  let c1_i32_10 : BitVec 32 := 1#32
  ⟨c0_i32_9, v6, c1_i32_10⟩
def k0_off39 (k0_t6 : Fin k0_t6_loop.trips) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let c0_i32_13 : BitVec 32 := 0#32
  let v9 : BitVec 32 := Scalar.addi v8 c0_i32_13
  let v10 : Index := Scalar.indexCast v9
  ![v10.toNat]

def k0_chk33 (i : grid0.Coords) (v11 : IVec S16 32) : Prop :=
  (∀ (k0_h1 : ¬(k0_cond1 i = 1#1)), ∀ a x, ((![v11] : Fin 1 → IVec S16 32) a x).toNat < S100000.size a)
instance k0_chk33.dec : ∀ (i : grid0.Coords) (v11 : IVec S16 32), Decidable (k0_chk33 i v11) := fun i v11 => decidable_of_iff' _ (Iff.of_eq (k0_chk33.eq_1 i v11))
theorem k0_idx33_inb : ∀ (i : grid0.Coords) (v11 : IVec S16 32) (k0_hw33 : k0_chk33 i v11), ∀ (k0_h1 : ¬(k0_cond1 i = 1#1)), ∀ a x, ((![v11] : Fin 1 → IVec S16 32) a x).toNat < S100000.size a := fun i v11 k0_hw33 k0_h1 => k0_hw33 k0_h1
def k0_off40 (k0_t6 : Fin k0_t6_loop.trips) (c0_i32_14 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v13 : BitVec 32 := Scalar.addi v8 c0_i32_14
  let v14 : Index := Scalar.indexCast v13
  ![v14.toNat]

def k0_chk34 (i : grid0.Coords) (v18 : IVec S16 32) : Prop :=
  (∀ (k0_h1 : ¬(k0_cond1 i = 1#1)), ∀ a x, ((![v18] : Fin 1 → IVec S16 32) a x).toNat < S100000.size a)
instance k0_chk34.dec : ∀ (i : grid0.Coords) (v18 : IVec S16 32), Decidable (k0_chk34 i v18) := fun i v18 => decidable_of_iff' _ (Iff.of_eq (k0_chk34.eq_1 i v18))
theorem k0_idx34_inb : ∀ (i : grid0.Coords) (v18 : IVec S16 32) (k0_hw34 : k0_chk34 i v18), ∀ (k0_h1 : ¬(k0_cond1 i = 1#1)), ∀ a x, ((![v18] : Fin 1 → IVec S16 32) a x).toNat < S100000.size a := fun i v18 k0_hw34 k0_h1 => k0_hw34 k0_h1
def k0_off41 (k0_t6 : Fin k0_t6_loop.trips) (c16_i32_16 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v20 : BitVec 32 := Scalar.addi v8 c16_i32_16
  let v21 : Index := Scalar.indexCast v20
  ![v21.toNat]

def k0_chk35 (i : grid0.Coords) (v25 : IVec S16 32) : Prop :=
  (∀ (k0_h1 : ¬(k0_cond1 i = 1#1)), ∀ a x, ((![v25] : Fin 1 → IVec S16 32) a x).toNat < S100000.size a)
instance k0_chk35.dec : ∀ (i : grid0.Coords) (v25 : IVec S16 32), Decidable (k0_chk35 i v25) := fun i v25 => decidable_of_iff' _ (Iff.of_eq (k0_chk35.eq_1 i v25))
theorem k0_idx35_inb : ∀ (i : grid0.Coords) (v25 : IVec S16 32) (k0_hw35 : k0_chk35 i v25), ∀ (k0_h1 : ¬(k0_cond1 i = 1#1)), ∀ a x, ((![v25] : Fin 1 → IVec S16 32) a x).toNat < S100000.size a := fun i v25 k0_hw35 k0_h1 => k0_hw35 k0_h1
def k0_off42 (k0_t6 : Fin k0_t6_loop.trips) (c32_i32_17 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v27 : BitVec 32 := Scalar.addi v8 c32_i32_17
  let v28 : Index := Scalar.indexCast v27
  ![v28.toNat]

def k0_chk36 (i : grid0.Coords) (v32 : IVec S16 32) : Prop :=
  (∀ (k0_h1 : ¬(k0_cond1 i = 1#1)), ∀ a x, ((![v32] : Fin 1 → IVec S16 32) a x).toNat < S100000.size a)
instance k0_chk36.dec : ∀ (i : grid0.Coords) (v32 : IVec S16 32), Decidable (k0_chk36 i v32) := fun i v32 => decidable_of_iff' _ (Iff.of_eq (k0_chk36.eq_1 i v32))
theorem k0_idx36_inb : ∀ (i : grid0.Coords) (v32 : IVec S16 32) (k0_hw36 : k0_chk36 i v32), ∀ (k0_h1 : ¬(k0_cond1 i = 1#1)), ∀ a x, ((![v32] : Fin 1 → IVec S16 32) a x).toNat < S100000.size a := fun i v32 k0_hw36 k0_h1 => k0_hw36 k0_h1
def k0_off43 (k0_t6 : Fin k0_t6_loop.trips) (c48_i32_18 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v34 : BitVec 32 := Scalar.addi v8 c48_i32_18
  let v35 : Index := Scalar.indexCast v34
  ![v35.toNat]

def k0_chk37 (i : grid0.Coords) (v39 : IVec S16 32) : Prop :=
  (∀ (k0_h1 : ¬(k0_cond1 i = 1#1)), ∀ a x, ((![v39] : Fin 1 → IVec S16 32) a x).toNat < S100000.size a)
instance k0_chk37.dec : ∀ (i : grid0.Coords) (v39 : IVec S16 32), Decidable (k0_chk37 i v39) := fun i v39 => decidable_of_iff' _ (Iff.of_eq (k0_chk37.eq_1 i v39))
theorem k0_idx37_inb : ∀ (i : grid0.Coords) (v39 : IVec S16 32) (k0_hw37 : k0_chk37 i v39), ∀ (k0_h1 : ¬(k0_cond1 i = 1#1)), ∀ a x, ((![v39] : Fin 1 → IVec S16 32) a x).toNat < S100000.size a := fun i v39 k0_hw37 k0_h1 => k0_hw37 k0_h1
def k0_off44 (k0_t6 : Fin k0_t6_loop.trips) (c64_i32_19 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v41 : BitVec 32 := Scalar.addi v8 c64_i32_19
  let v42 : Index := Scalar.indexCast v41
  ![v42.toNat]

def k0_chk38 (i : grid0.Coords) (v46 : IVec S16 32) : Prop :=
  (∀ (k0_h1 : ¬(k0_cond1 i = 1#1)), ∀ a x, ((![v46] : Fin 1 → IVec S16 32) a x).toNat < S100000.size a)
instance k0_chk38.dec : ∀ (i : grid0.Coords) (v46 : IVec S16 32), Decidable (k0_chk38 i v46) := fun i v46 => decidable_of_iff' _ (Iff.of_eq (k0_chk38.eq_1 i v46))
theorem k0_idx38_inb : ∀ (i : grid0.Coords) (v46 : IVec S16 32) (k0_hw38 : k0_chk38 i v46), ∀ (k0_h1 : ¬(k0_cond1 i = 1#1)), ∀ a x, ((![v46] : Fin 1 → IVec S16 32) a x).toNat < S100000.size a := fun i v46 k0_hw38 k0_h1 => k0_hw38 k0_h1
def k0_off45 (k0_t6 : Fin k0_t6_loop.trips) (c80_i32_20 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v48 : BitVec 32 := Scalar.addi v8 c80_i32_20
  let v49 : Index := Scalar.indexCast v48
  ![v49.toNat]

def k0_chk39 (i : grid0.Coords) (v53 : IVec S16 32) : Prop :=
  (∀ (k0_h1 : ¬(k0_cond1 i = 1#1)), ∀ a x, ((![v53] : Fin 1 → IVec S16 32) a x).toNat < S100000.size a)
instance k0_chk39.dec : ∀ (i : grid0.Coords) (v53 : IVec S16 32), Decidable (k0_chk39 i v53) := fun i v53 => decidable_of_iff' _ (Iff.of_eq (k0_chk39.eq_1 i v53))
theorem k0_idx39_inb : ∀ (i : grid0.Coords) (v53 : IVec S16 32) (k0_hw39 : k0_chk39 i v53), ∀ (k0_h1 : ¬(k0_cond1 i = 1#1)), ∀ a x, ((![v53] : Fin 1 → IVec S16 32) a x).toNat < S100000.size a := fun i v53 k0_hw39 k0_h1 => k0_hw39 k0_h1
def k0_off46 (k0_t6 : Fin k0_t6_loop.trips) (c96_i32_21 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v55 : BitVec 32 := Scalar.addi v8 c96_i32_21
  let v56 : Index := Scalar.indexCast v55
  ![v56.toNat]

def k0_chk40 (i : grid0.Coords) (v60 : IVec S16 32) : Prop :=
  (∀ (k0_h1 : ¬(k0_cond1 i = 1#1)), ∀ a x, ((![v60] : Fin 1 → IVec S16 32) a x).toNat < S100000.size a)
instance k0_chk40.dec : ∀ (i : grid0.Coords) (v60 : IVec S16 32), Decidable (k0_chk40 i v60) := fun i v60 => decidable_of_iff' _ (Iff.of_eq (k0_chk40.eq_1 i v60))
theorem k0_idx40_inb : ∀ (i : grid0.Coords) (v60 : IVec S16 32) (k0_hw40 : k0_chk40 i v60), ∀ (k0_h1 : ¬(k0_cond1 i = 1#1)), ∀ a x, ((![v60] : Fin 1 → IVec S16 32) a x).toNat < S100000.size a := fun i v60 k0_hw40 k0_h1 => k0_hw40 k0_h1
def k0_off47 (k0_t6 : Fin k0_t6_loop.trips) (c112_i32_22 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v62 : BitVec 32 := Scalar.addi v8 c112_i32_22
  let v63 : Index := Scalar.indexCast v62
  ![v63.toNat]

def k0_chk41 (i : grid0.Coords) (v67 : IVec S16 32) : Prop :=
  (∀ (k0_h1 : ¬(k0_cond1 i = 1#1)), ∀ a x, ((![v67] : Fin 1 → IVec S16 32) a x).toNat < S100000.size a)
instance k0_chk41.dec : ∀ (i : grid0.Coords) (v67 : IVec S16 32), Decidable (k0_chk41 i v67) := fun i v67 => decidable_of_iff' _ (Iff.of_eq (k0_chk41.eq_1 i v67))
theorem k0_idx41_inb : ∀ (i : grid0.Coords) (v67 : IVec S16 32) (k0_hw41 : k0_chk41 i v67), ∀ (k0_h1 : ¬(k0_cond1 i = 1#1)), ∀ a x, ((![v67] : Fin 1 → IVec S16 32) a x).toNat < S100000.size a := fun i v67 k0_hw41 k0_h1 => k0_hw41 k0_h1
def k0_off48 (k0_t6 : Fin k0_t6_loop.trips) (c128_i32_23 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v69 : BitVec 32 := Scalar.addi v8 c128_i32_23
  let v70 : Index := Scalar.indexCast v69
  ![v70.toNat]

def k0_chk42 (i : grid0.Coords) (v74 : IVec S16 32) : Prop :=
  (∀ (k0_h1 : ¬(k0_cond1 i = 1#1)), ∀ a x, ((![v74] : Fin 1 → IVec S16 32) a x).toNat < S100000.size a)
instance k0_chk42.dec : ∀ (i : grid0.Coords) (v74 : IVec S16 32), Decidable (k0_chk42 i v74) := fun i v74 => decidable_of_iff' _ (Iff.of_eq (k0_chk42.eq_1 i v74))
theorem k0_idx42_inb : ∀ (i : grid0.Coords) (v74 : IVec S16 32) (k0_hw42 : k0_chk42 i v74), ∀ (k0_h1 : ¬(k0_cond1 i = 1#1)), ∀ a x, ((![v74] : Fin 1 → IVec S16 32) a x).toNat < S100000.size a := fun i v74 k0_hw42 k0_h1 => k0_hw42 k0_h1
def k0_off49 (k0_t6 : Fin k0_t6_loop.trips) (c144_i32_24 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v76 : BitVec 32 := Scalar.addi v8 c144_i32_24
  let v77 : Index := Scalar.indexCast v76
  ![v77.toNat]

def k0_chk43 (i : grid0.Coords) (v81 : IVec S16 32) : Prop :=
  (∀ (k0_h1 : ¬(k0_cond1 i = 1#1)), ∀ a x, ((![v81] : Fin 1 → IVec S16 32) a x).toNat < S100000.size a)
instance k0_chk43.dec : ∀ (i : grid0.Coords) (v81 : IVec S16 32), Decidable (k0_chk43 i v81) := fun i v81 => decidable_of_iff' _ (Iff.of_eq (k0_chk43.eq_1 i v81))
theorem k0_idx43_inb : ∀ (i : grid0.Coords) (v81 : IVec S16 32) (k0_hw43 : k0_chk43 i v81), ∀ (k0_h1 : ¬(k0_cond1 i = 1#1)), ∀ a x, ((![v81] : Fin 1 → IVec S16 32) a x).toNat < S100000.size a := fun i v81 k0_hw43 k0_h1 => k0_hw43 k0_h1
def k0_off50 (k0_t6 : Fin k0_t6_loop.trips) (c160_i32_25 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v83 : BitVec 32 := Scalar.addi v8 c160_i32_25
  let v84 : Index := Scalar.indexCast v83
  ![v84.toNat]

def k0_chk44 (i : grid0.Coords) (v88 : IVec S16 32) : Prop :=
  (∀ (k0_h1 : ¬(k0_cond1 i = 1#1)), ∀ a x, ((![v88] : Fin 1 → IVec S16 32) a x).toNat < S100000.size a)
instance k0_chk44.dec : ∀ (i : grid0.Coords) (v88 : IVec S16 32), Decidable (k0_chk44 i v88) := fun i v88 => decidable_of_iff' _ (Iff.of_eq (k0_chk44.eq_1 i v88))
theorem k0_idx44_inb : ∀ (i : grid0.Coords) (v88 : IVec S16 32) (k0_hw44 : k0_chk44 i v88), ∀ (k0_h1 : ¬(k0_cond1 i = 1#1)), ∀ a x, ((![v88] : Fin 1 → IVec S16 32) a x).toNat < S100000.size a := fun i v88 k0_hw44 k0_h1 => k0_hw44 k0_h1
def k0_off51 (k0_t6 : Fin k0_t6_loop.trips) (c176_i32_26 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v90 : BitVec 32 := Scalar.addi v8 c176_i32_26
  let v91 : Index := Scalar.indexCast v90
  ![v91.toNat]

def k0_chk45 (i : grid0.Coords) (v95 : IVec S16 32) : Prop :=
  (∀ (k0_h1 : ¬(k0_cond1 i = 1#1)), ∀ a x, ((![v95] : Fin 1 → IVec S16 32) a x).toNat < S100000.size a)
instance k0_chk45.dec : ∀ (i : grid0.Coords) (v95 : IVec S16 32), Decidable (k0_chk45 i v95) := fun i v95 => decidable_of_iff' _ (Iff.of_eq (k0_chk45.eq_1 i v95))
theorem k0_idx45_inb : ∀ (i : grid0.Coords) (v95 : IVec S16 32) (k0_hw45 : k0_chk45 i v95), ∀ (k0_h1 : ¬(k0_cond1 i = 1#1)), ∀ a x, ((![v95] : Fin 1 → IVec S16 32) a x).toNat < S100000.size a := fun i v95 k0_hw45 k0_h1 => k0_hw45 k0_h1
def k0_off52 (k0_t6 : Fin k0_t6_loop.trips) (c192_i32_27 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v97 : BitVec 32 := Scalar.addi v8 c192_i32_27
  let v98 : Index := Scalar.indexCast v97
  ![v98.toNat]

def k0_chk46 (i : grid0.Coords) (v102 : IVec S16 32) : Prop :=
  (∀ (k0_h1 : ¬(k0_cond1 i = 1#1)), ∀ a x, ((![v102] : Fin 1 → IVec S16 32) a x).toNat < S100000.size a)
instance k0_chk46.dec : ∀ (i : grid0.Coords) (v102 : IVec S16 32), Decidable (k0_chk46 i v102) := fun i v102 => decidable_of_iff' _ (Iff.of_eq (k0_chk46.eq_1 i v102))
theorem k0_idx46_inb : ∀ (i : grid0.Coords) (v102 : IVec S16 32) (k0_hw46 : k0_chk46 i v102), ∀ (k0_h1 : ¬(k0_cond1 i = 1#1)), ∀ a x, ((![v102] : Fin 1 → IVec S16 32) a x).toNat < S100000.size a := fun i v102 k0_hw46 k0_h1 => k0_hw46 k0_h1
def k0_off53 (k0_t6 : Fin k0_t6_loop.trips) (c208_i32_28 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v104 : BitVec 32 := Scalar.addi v8 c208_i32_28
  let v105 : Index := Scalar.indexCast v104
  ![v105.toNat]

def k0_chk47 (i : grid0.Coords) (v109 : IVec S16 32) : Prop :=
  (∀ (k0_h1 : ¬(k0_cond1 i = 1#1)), ∀ a x, ((![v109] : Fin 1 → IVec S16 32) a x).toNat < S100000.size a)
instance k0_chk47.dec : ∀ (i : grid0.Coords) (v109 : IVec S16 32), Decidable (k0_chk47 i v109) := fun i v109 => decidable_of_iff' _ (Iff.of_eq (k0_chk47.eq_1 i v109))
theorem k0_idx47_inb : ∀ (i : grid0.Coords) (v109 : IVec S16 32) (k0_hw47 : k0_chk47 i v109), ∀ (k0_h1 : ¬(k0_cond1 i = 1#1)), ∀ a x, ((![v109] : Fin 1 → IVec S16 32) a x).toNat < S100000.size a := fun i v109 k0_hw47 k0_h1 => k0_hw47 k0_h1
def k0_off54 (k0_t6 : Fin k0_t6_loop.trips) (c224_i32_29 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v111 : BitVec 32 := Scalar.addi v8 c224_i32_29
  let v112 : Index := Scalar.indexCast v111
  ![v112.toNat]

def k0_chk48 (i : grid0.Coords) (v116 : IVec S16 32) : Prop :=
  (∀ (k0_h1 : ¬(k0_cond1 i = 1#1)), ∀ a x, ((![v116] : Fin 1 → IVec S16 32) a x).toNat < S100000.size a)
instance k0_chk48.dec : ∀ (i : grid0.Coords) (v116 : IVec S16 32), Decidable (k0_chk48 i v116) := fun i v116 => decidable_of_iff' _ (Iff.of_eq (k0_chk48.eq_1 i v116))
theorem k0_idx48_inb : ∀ (i : grid0.Coords) (v116 : IVec S16 32) (k0_hw48 : k0_chk48 i v116), ∀ (k0_h1 : ¬(k0_cond1 i = 1#1)), ∀ a x, ((![v116] : Fin 1 → IVec S16 32) a x).toNat < S100000.size a := fun i v116 k0_hw48 k0_h1 => k0_hw48 k0_h1
def k0_off55 (k0_t6 : Fin k0_t6_loop.trips) (c240_i32_30 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v118 : BitVec 32 := Scalar.addi v8 c240_i32_30
  let v119 : Index := Scalar.indexCast v118
  ![v119.toNat]

def k0_chk49 (i : grid0.Coords) (v123 : IVec S16 32) : Prop :=
  (∀ (k0_h1 : ¬(k0_cond1 i = 1#1)), ∀ a x, ((![v123] : Fin 1 → IVec S16 32) a x).toNat < S100000.size a)
instance k0_chk49.dec : ∀ (i : grid0.Coords) (v123 : IVec S16 32), Decidable (k0_chk49 i v123) := fun i v123 => decidable_of_iff' _ (Iff.of_eq (k0_chk49.eq_1 i v123))
theorem k0_idx49_inb : ∀ (i : grid0.Coords) (v123 : IVec S16 32) (k0_hw49 : k0_chk49 i v123), ∀ (k0_h1 : ¬(k0_cond1 i = 1#1)), ∀ a x, ((![v123] : Fin 1 → IVec S16 32) a x).toNat < S100000.size a := fun i v123 k0_hw49 k0_h1 => k0_hw49 k0_h1
def k0_off56 (k0_t6 : Fin k0_t6_loop.trips) (c256_i32_31 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v125 : BitVec 32 := Scalar.addi v8 c256_i32_31
  let v126 : Index := Scalar.indexCast v125
  ![v126.toNat]

def k0_chk50 (i : grid0.Coords) (v130 : IVec S16 32) : Prop :=
  (∀ (k0_h1 : ¬(k0_cond1 i = 1#1)), ∀ a x, ((![v130] : Fin 1 → IVec S16 32) a x).toNat < S100000.size a)
instance k0_chk50.dec : ∀ (i : grid0.Coords) (v130 : IVec S16 32), Decidable (k0_chk50 i v130) := fun i v130 => decidable_of_iff' _ (Iff.of_eq (k0_chk50.eq_1 i v130))
theorem k0_idx50_inb : ∀ (i : grid0.Coords) (v130 : IVec S16 32) (k0_hw50 : k0_chk50 i v130), ∀ (k0_h1 : ¬(k0_cond1 i = 1#1)), ∀ a x, ((![v130] : Fin 1 → IVec S16 32) a x).toNat < S100000.size a := fun i v130 k0_hw50 k0_h1 => k0_hw50 k0_h1
def k0_off57 (k0_t6 : Fin k0_t6_loop.trips) (c272_i32_32 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v132 : BitVec 32 := Scalar.addi v8 c272_i32_32
  let v133 : Index := Scalar.indexCast v132
  ![v133.toNat]

def k0_chk51 (i : grid0.Coords) (v137 : IVec S16 32) : Prop :=
  (∀ (k0_h1 : ¬(k0_cond1 i = 1#1)), ∀ a x, ((![v137] : Fin 1 → IVec S16 32) a x).toNat < S100000.size a)
instance k0_chk51.dec : ∀ (i : grid0.Coords) (v137 : IVec S16 32), Decidable (k0_chk51 i v137) := fun i v137 => decidable_of_iff' _ (Iff.of_eq (k0_chk51.eq_1 i v137))
theorem k0_idx51_inb : ∀ (i : grid0.Coords) (v137 : IVec S16 32) (k0_hw51 : k0_chk51 i v137), ∀ (k0_h1 : ¬(k0_cond1 i = 1#1)), ∀ a x, ((![v137] : Fin 1 → IVec S16 32) a x).toNat < S100000.size a := fun i v137 k0_hw51 k0_h1 => k0_hw51 k0_h1
def k0_off58 (k0_t6 : Fin k0_t6_loop.trips) (c288_i32_33 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v139 : BitVec 32 := Scalar.addi v8 c288_i32_33
  let v140 : Index := Scalar.indexCast v139
  ![v140.toNat]

def k0_chk52 (i : grid0.Coords) (v144 : IVec S16 32) : Prop :=
  (∀ (k0_h1 : ¬(k0_cond1 i = 1#1)), ∀ a x, ((![v144] : Fin 1 → IVec S16 32) a x).toNat < S100000.size a)
instance k0_chk52.dec : ∀ (i : grid0.Coords) (v144 : IVec S16 32), Decidable (k0_chk52 i v144) := fun i v144 => decidable_of_iff' _ (Iff.of_eq (k0_chk52.eq_1 i v144))
theorem k0_idx52_inb : ∀ (i : grid0.Coords) (v144 : IVec S16 32) (k0_hw52 : k0_chk52 i v144), ∀ (k0_h1 : ¬(k0_cond1 i = 1#1)), ∀ a x, ((![v144] : Fin 1 → IVec S16 32) a x).toNat < S100000.size a := fun i v144 k0_hw52 k0_h1 => k0_hw52 k0_h1
def k0_off59 (k0_t6 : Fin k0_t6_loop.trips) (c304_i32_34 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v146 : BitVec 32 := Scalar.addi v8 c304_i32_34
  let v147 : Index := Scalar.indexCast v146
  ![v147.toNat]

def k0_chk53 (i : grid0.Coords) (v151 : IVec S16 32) : Prop :=
  (∀ (k0_h1 : ¬(k0_cond1 i = 1#1)), ∀ a x, ((![v151] : Fin 1 → IVec S16 32) a x).toNat < S100000.size a)
instance k0_chk53.dec : ∀ (i : grid0.Coords) (v151 : IVec S16 32), Decidable (k0_chk53 i v151) := fun i v151 => decidable_of_iff' _ (Iff.of_eq (k0_chk53.eq_1 i v151))
theorem k0_idx53_inb : ∀ (i : grid0.Coords) (v151 : IVec S16 32) (k0_hw53 : k0_chk53 i v151), ∀ (k0_h1 : ¬(k0_cond1 i = 1#1)), ∀ a x, ((![v151] : Fin 1 → IVec S16 32) a x).toNat < S100000.size a := fun i v151 k0_hw53 k0_h1 => k0_hw53 k0_h1
def k0_off60 (k0_t6 : Fin k0_t6_loop.trips) (c320_i32_35 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v153 : BitVec 32 := Scalar.addi v8 c320_i32_35
  let v154 : Index := Scalar.indexCast v153
  ![v154.toNat]

def k0_chk54 (i : grid0.Coords) (v158 : IVec S16 32) : Prop :=
  (∀ (k0_h1 : ¬(k0_cond1 i = 1#1)), ∀ a x, ((![v158] : Fin 1 → IVec S16 32) a x).toNat < S100000.size a)
instance k0_chk54.dec : ∀ (i : grid0.Coords) (v158 : IVec S16 32), Decidable (k0_chk54 i v158) := fun i v158 => decidable_of_iff' _ (Iff.of_eq (k0_chk54.eq_1 i v158))
theorem k0_idx54_inb : ∀ (i : grid0.Coords) (v158 : IVec S16 32) (k0_hw54 : k0_chk54 i v158), ∀ (k0_h1 : ¬(k0_cond1 i = 1#1)), ∀ a x, ((![v158] : Fin 1 → IVec S16 32) a x).toNat < S100000.size a := fun i v158 k0_hw54 k0_h1 => k0_hw54 k0_h1
def k0_off61 (k0_t6 : Fin k0_t6_loop.trips) (c336_i32_36 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v160 : BitVec 32 := Scalar.addi v8 c336_i32_36
  let v161 : Index := Scalar.indexCast v160
  ![v161.toNat]

def k0_chk55 (i : grid0.Coords) (v165 : IVec S16 32) : Prop :=
  (∀ (k0_h1 : ¬(k0_cond1 i = 1#1)), ∀ a x, ((![v165] : Fin 1 → IVec S16 32) a x).toNat < S100000.size a)
instance k0_chk55.dec : ∀ (i : grid0.Coords) (v165 : IVec S16 32), Decidable (k0_chk55 i v165) := fun i v165 => decidable_of_iff' _ (Iff.of_eq (k0_chk55.eq_1 i v165))
theorem k0_idx55_inb : ∀ (i : grid0.Coords) (v165 : IVec S16 32) (k0_hw55 : k0_chk55 i v165), ∀ (k0_h1 : ¬(k0_cond1 i = 1#1)), ∀ a x, ((![v165] : Fin 1 → IVec S16 32) a x).toNat < S100000.size a := fun i v165 k0_hw55 k0_h1 => k0_hw55 k0_h1
def k0_off62 (k0_t6 : Fin k0_t6_loop.trips) (c352_i32_37 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v167 : BitVec 32 := Scalar.addi v8 c352_i32_37
  let v168 : Index := Scalar.indexCast v167
  ![v168.toNat]

def k0_chk56 (i : grid0.Coords) (v172 : IVec S16 32) : Prop :=
  (∀ (k0_h1 : ¬(k0_cond1 i = 1#1)), ∀ a x, ((![v172] : Fin 1 → IVec S16 32) a x).toNat < S100000.size a)
instance k0_chk56.dec : ∀ (i : grid0.Coords) (v172 : IVec S16 32), Decidable (k0_chk56 i v172) := fun i v172 => decidable_of_iff' _ (Iff.of_eq (k0_chk56.eq_1 i v172))
theorem k0_idx56_inb : ∀ (i : grid0.Coords) (v172 : IVec S16 32) (k0_hw56 : k0_chk56 i v172), ∀ (k0_h1 : ¬(k0_cond1 i = 1#1)), ∀ a x, ((![v172] : Fin 1 → IVec S16 32) a x).toNat < S100000.size a := fun i v172 k0_hw56 k0_h1 => k0_hw56 k0_h1
def k0_off63 (k0_t6 : Fin k0_t6_loop.trips) (c368_i32_38 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v174 : BitVec 32 := Scalar.addi v8 c368_i32_38
  let v175 : Index := Scalar.indexCast v174
  ![v175.toNat]

def k0_chk57 (i : grid0.Coords) (v179 : IVec S16 32) : Prop :=
  (∀ (k0_h1 : ¬(k0_cond1 i = 1#1)), ∀ a x, ((![v179] : Fin 1 → IVec S16 32) a x).toNat < S100000.size a)
instance k0_chk57.dec : ∀ (i : grid0.Coords) (v179 : IVec S16 32), Decidable (k0_chk57 i v179) := fun i v179 => decidable_of_iff' _ (Iff.of_eq (k0_chk57.eq_1 i v179))
theorem k0_idx57_inb : ∀ (i : grid0.Coords) (v179 : IVec S16 32) (k0_hw57 : k0_chk57 i v179), ∀ (k0_h1 : ¬(k0_cond1 i = 1#1)), ∀ a x, ((![v179] : Fin 1 → IVec S16 32) a x).toNat < S100000.size a := fun i v179 k0_hw57 k0_h1 => k0_hw57 k0_h1
def k0_off64 (k0_t6 : Fin k0_t6_loop.trips) (c384_i32_39 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v181 : BitVec 32 := Scalar.addi v8 c384_i32_39
  let v182 : Index := Scalar.indexCast v181
  ![v182.toNat]

def k0_chk58 (i : grid0.Coords) (v186 : IVec S16 32) : Prop :=
  (∀ (k0_h1 : ¬(k0_cond1 i = 1#1)), ∀ a x, ((![v186] : Fin 1 → IVec S16 32) a x).toNat < S100000.size a)
instance k0_chk58.dec : ∀ (i : grid0.Coords) (v186 : IVec S16 32), Decidable (k0_chk58 i v186) := fun i v186 => decidable_of_iff' _ (Iff.of_eq (k0_chk58.eq_1 i v186))
theorem k0_idx58_inb : ∀ (i : grid0.Coords) (v186 : IVec S16 32) (k0_hw58 : k0_chk58 i v186), ∀ (k0_h1 : ¬(k0_cond1 i = 1#1)), ∀ a x, ((![v186] : Fin 1 → IVec S16 32) a x).toNat < S100000.size a := fun i v186 k0_hw58 k0_h1 => k0_hw58 k0_h1
def k0_off65 (k0_t6 : Fin k0_t6_loop.trips) (c400_i32_40 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v188 : BitVec 32 := Scalar.addi v8 c400_i32_40
  let v189 : Index := Scalar.indexCast v188
  ![v189.toNat]

def k0_chk59 (i : grid0.Coords) (v193 : IVec S16 32) : Prop :=
  (∀ (k0_h1 : ¬(k0_cond1 i = 1#1)), ∀ a x, ((![v193] : Fin 1 → IVec S16 32) a x).toNat < S100000.size a)
instance k0_chk59.dec : ∀ (i : grid0.Coords) (v193 : IVec S16 32), Decidable (k0_chk59 i v193) := fun i v193 => decidable_of_iff' _ (Iff.of_eq (k0_chk59.eq_1 i v193))
theorem k0_idx59_inb : ∀ (i : grid0.Coords) (v193 : IVec S16 32) (k0_hw59 : k0_chk59 i v193), ∀ (k0_h1 : ¬(k0_cond1 i = 1#1)), ∀ a x, ((![v193] : Fin 1 → IVec S16 32) a x).toNat < S100000.size a := fun i v193 k0_hw59 k0_h1 => k0_hw59 k0_h1
def k0_off66 (k0_t6 : Fin k0_t6_loop.trips) (c416_i32_41 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v195 : BitVec 32 := Scalar.addi v8 c416_i32_41
  let v196 : Index := Scalar.indexCast v195
  ![v196.toNat]

def k0_chk60 (i : grid0.Coords) (v200 : IVec S16 32) : Prop :=
  (∀ (k0_h1 : ¬(k0_cond1 i = 1#1)), ∀ a x, ((![v200] : Fin 1 → IVec S16 32) a x).toNat < S100000.size a)
instance k0_chk60.dec : ∀ (i : grid0.Coords) (v200 : IVec S16 32), Decidable (k0_chk60 i v200) := fun i v200 => decidable_of_iff' _ (Iff.of_eq (k0_chk60.eq_1 i v200))
theorem k0_idx60_inb : ∀ (i : grid0.Coords) (v200 : IVec S16 32) (k0_hw60 : k0_chk60 i v200), ∀ (k0_h1 : ¬(k0_cond1 i = 1#1)), ∀ a x, ((![v200] : Fin 1 → IVec S16 32) a x).toNat < S100000.size a := fun i v200 k0_hw60 k0_h1 => k0_hw60 k0_h1
def k0_off67 (k0_t6 : Fin k0_t6_loop.trips) (c432_i32_42 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v202 : BitVec 32 := Scalar.addi v8 c432_i32_42
  let v203 : Index := Scalar.indexCast v202
  ![v203.toNat]

def k0_chk61 (i : grid0.Coords) (v207 : IVec S16 32) : Prop :=
  (∀ (k0_h1 : ¬(k0_cond1 i = 1#1)), ∀ a x, ((![v207] : Fin 1 → IVec S16 32) a x).toNat < S100000.size a)
instance k0_chk61.dec : ∀ (i : grid0.Coords) (v207 : IVec S16 32), Decidable (k0_chk61 i v207) := fun i v207 => decidable_of_iff' _ (Iff.of_eq (k0_chk61.eq_1 i v207))
theorem k0_idx61_inb : ∀ (i : grid0.Coords) (v207 : IVec S16 32) (k0_hw61 : k0_chk61 i v207), ∀ (k0_h1 : ¬(k0_cond1 i = 1#1)), ∀ a x, ((![v207] : Fin 1 → IVec S16 32) a x).toNat < S100000.size a := fun i v207 k0_hw61 k0_h1 => k0_hw61 k0_h1
def k0_off68 (k0_t6 : Fin k0_t6_loop.trips) (c448_i32_43 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v209 : BitVec 32 := Scalar.addi v8 c448_i32_43
  let v210 : Index := Scalar.indexCast v209
  ![v210.toNat]

def k0_chk62 (i : grid0.Coords) (v214 : IVec S16 32) : Prop :=
  (∀ (k0_h1 : ¬(k0_cond1 i = 1#1)), ∀ a x, ((![v214] : Fin 1 → IVec S16 32) a x).toNat < S100000.size a)
instance k0_chk62.dec : ∀ (i : grid0.Coords) (v214 : IVec S16 32), Decidable (k0_chk62 i v214) := fun i v214 => decidable_of_iff' _ (Iff.of_eq (k0_chk62.eq_1 i v214))
theorem k0_idx62_inb : ∀ (i : grid0.Coords) (v214 : IVec S16 32) (k0_hw62 : k0_chk62 i v214), ∀ (k0_h1 : ¬(k0_cond1 i = 1#1)), ∀ a x, ((![v214] : Fin 1 → IVec S16 32) a x).toNat < S100000.size a := fun i v214 k0_hw62 k0_h1 => k0_hw62 k0_h1
def k0_off69 (k0_t6 : Fin k0_t6_loop.trips) (c464_i32_44 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v216 : BitVec 32 := Scalar.addi v8 c464_i32_44
  let v217 : Index := Scalar.indexCast v216
  ![v217.toNat]

def k0_chk63 (i : grid0.Coords) (v221 : IVec S16 32) : Prop :=
  (∀ (k0_h1 : ¬(k0_cond1 i = 1#1)), ∀ a x, ((![v221] : Fin 1 → IVec S16 32) a x).toNat < S100000.size a)
instance k0_chk63.dec : ∀ (i : grid0.Coords) (v221 : IVec S16 32), Decidable (k0_chk63 i v221) := fun i v221 => decidable_of_iff' _ (Iff.of_eq (k0_chk63.eq_1 i v221))
theorem k0_idx63_inb : ∀ (i : grid0.Coords) (v221 : IVec S16 32) (k0_hw63 : k0_chk63 i v221), ∀ (k0_h1 : ¬(k0_cond1 i = 1#1)), ∀ a x, ((![v221] : Fin 1 → IVec S16 32) a x).toNat < S100000.size a := fun i v221 k0_hw63 k0_h1 => k0_hw63 k0_h1
def k0_off70 (k0_t6 : Fin k0_t6_loop.trips) (c480_i32_45 : BitVec 32) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let v223 : BitVec 32 := Scalar.addi v8 c480_i32_45
  let v224 : Index := Scalar.indexCast v223
  ![v224.toNat]

def k0_chk64 (i : grid0.Coords) (v228 : IVec S16 32) : Prop :=
  (∀ (k0_h1 : ¬(k0_cond1 i = 1#1)), ∀ a x, ((![v228] : Fin 1 → IVec S16 32) a x).toNat < S100000.size a)
instance k0_chk64.dec : ∀ (i : grid0.Coords) (v228 : IVec S16 32), Decidable (k0_chk64 i v228) := fun i v228 => decidable_of_iff' _ (Iff.of_eq (k0_chk64.eq_1 i v228))
theorem k0_idx64_inb : ∀ (i : grid0.Coords) (v228 : IVec S16 32) (k0_hw64 : k0_chk64 i v228), ∀ (k0_h1 : ¬(k0_cond1 i = 1#1)), ∀ a x, ((![v228] : Fin 1 → IVec S16 32) a x).toNat < S100000.size a := fun i v228 k0_hw64 k0_h1 => k0_hw64 k0_h1
def k0_off71 (k0_t6 : Fin k0_t6_loop.trips) : Fin 1 → Nat :=
  let c0_i32_9 : BitVec 32 := 0#32
  let c1_i32_10 : BitVec 32 := 1#32
  let arg13 : BitVec 32 := Scf.iv c0_i32_9 c1_i32_10 k0_t6
  let c512_i32 : BitVec 32 := 512#32
  let v8 : BitVec 32 := Scalar.muli arg13 c512_i32
  let c496_i32_46 : BitVec 32 := 496#32
  let v230 : BitVec 32 := Scalar.addi v8 c496_i32_46
  let v231 : Index := Scalar.indexCast v230
  ![v231.toNat]
def k0_off72 (i : grid0.Coords) (k0_t4 : Fin k0_t4_loop.trips) (k0_t5 : Fin k0_t5_loop.trips) : Fin 3 → Nat :=
  let c0_i32_2 : BitVec 32 := 0#32
  let c1_i32 : BitVec 32 := 1#32
  let arg11 : BitVec 32 := Scf.iv c0_i32_2 c1_i32 k0_t4
  let arg1 : BitVec 32 := BitVec.ofNat 32 (i 1).val
  let c0_i32_5 : BitVec 32 := 0#32
  let c1_i32_6 : BitVec 32 := 1#32
  let arg12 : BitVec 32 := Scf.iv c0_i32_5 c1_i32_6 k0_t5
  let c8192_i32_12 : BitVec 32 := 8192#32
  let v7 : BitVec 32 := Scalar.muli arg12 c8192_i32_12
  ![arg11.toNat, arg1.toNat, v7.toNat]
abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_36 : BitVec 32 := 0#32
  let v71 : BitVec 1 := Scalar.cmpi .ne v70 c0_i32_36
  v71

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S13x16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S13x16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x208 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x208 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .smem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S13x100000x16_S13x16x100000_0_2_1 : S13x100000x16.Transposes [0, 2, 1] S13x16x100000
  squeezes_S1x1x100000_S100000 : S1x1x100000.Squeezes S100000
  squeezes_S1x8192_S8192 : S1x8192.Squeezes S8192
  h_S16 : 0 < S16.numel
  h_S100000 : 0 < S100000.numel
  squeezes_S1x1x8192_S8192 : S1x1x8192.Squeezes S8192
  transposes_S208x64_S64x208_1_0 : S208x64.Transposes [1, 0] S64x208
  shapeCasts_S64_S64x1 : S64.ShapeCasts S64x1
  transposes_S64x32_S32x64_1_0 : S64x32.Transposes [1, 0] S32x64
  shapeCasts_S32_S32x1 : S32.ShapeCasts S32x1
  inb_S3_S1_0 : ∀ a, (![0] : Fin 1 → Nat) a + S1.size a ≤ S3.size a
  numel1_S1 : S1.numel = 1
  inb_S3_S1_1 : ∀ a, (![1] : Fin 1 → Nat) a + S1.size a ≤ S3.size a
  inb_S3_S1_2 : ∀ a, (![2] : Fin 1 → Nat) a + S1.size a ≤ S3.size a
  inb_S13x16x1024_S13x16x1024_0_0_0 : ∀ a, (![0, 0, 0] : Fin 3 → Nat) a + S13x16x1024.size a ≤ S13x16x1024.size a
  h_S13x16x1024 : 0 < S13x16x1024.numel
  shapeCasts_S13x16x1024_S13x16x1024 : S13x16x1024.ShapeCasts S13x16x1024
  shapeCasts_S13x16x1024_S208x1024 : S13x16x1024.ShapeCasts S208x1024
  inb_S64x208_S64x208_0_0 : ∀ a, (![0, 0] : Fin 2 → Nat) a + S64x208.size a ≤ S64x208.size a
  h_S64x208 : 0 < S64x208.numel
  shapeCasts_S64x208_S64x208 : S64x208.ShapeCasts S64x208
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x1024 : S32x1.Broadcasts S32x1024
  shapeCasts_S32x1024_S1x32x1024 : S32x1024.ShapeCasts S1x32x1024
  reduces_S1x32x1024_S1 : S1x32x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  dot_S64x208_S208x1024_S64x1024_1_0_0_1_n_n_wf : DotDims.WF S64x208 S208x1024 S64x1024 [1] [0] [0] [1] [] []
  dot_S32x64_S64x1024_S32x1024_1_0_0_1_n_n_wf : DotDims.WF S32x64 S64x1024 S32x1024 [1] [0] [0] [1] [] []
  hcc0_scoped0 : 0 + S_.numel ≤ 19
  hcc0_scoped1 : 1 + S_.numel ≤ 19
  hcc0_scoped2 : 2 + S_.numel ≤ 19
  hcc0_scoped3 : 3 + S_.numel ≤ 19
  hcc0_scoped4 : 4 + S_.numel ≤ 19
  hcc0_scoped5 : 5 + S_.numel ≤ 19
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, ∀ (k0_h1 : k0_cond1 i = 1#1), k0_t1_loop.OK
  k0_off1_inb : ∀ (i : grid0.Coords) (k0_t1 : Fin k0_t1_loop.trips), ∀ (k0_h1 : k0_cond1 i = 1#1), ∀ a, (k0_off1 i k0_t1) a + S1x1x100000.size a ≤ S13x16x100000.size a
  k0_t2_ok : ∀ i : grid0.Coords, ∀ (k0_h1 : k0_cond1 i = 1#1), k0_t2_loop.OK
  k0_off2_inb : ∀ (i : grid0.Coords) (k0_t1 : Fin k0_t1_loop.trips) (k0_t2 : Fin k0_t2_loop.trips), ∀ (k0_h1 : k0_cond1 i = 1#1), ∀ a, (k0_off2 k0_t1 k0_t2) a + S1x8192.size a ≤ S13x16384.size a
  k0_t3_ok : ∀ i : grid0.Coords, ∀ (k0_h1 : k0_cond1 i = 1#1), k0_t3_loop.OK
  k0_off3_inb : ∀ (i : grid0.Coords) (k0_t3 : Fin k0_t3_loop.trips), ∀ (k0_h1 : k0_cond1 i = 1#1), ∀ a, (k0_off3 k0_t3) a + S16.size a ≤ S8192.size a
  k0_off4_inb : ∀ (i : grid0.Coords) (k0_t3 : Fin k0_t3_loop.trips), ∀ (k0_h1 : k0_cond1 i = 1#1), ∀ (r : Fin 2), ∀ a, (k0_off4 k0_t3 (BitVec.ofNat 32 (16 * r.val))) a + S16.size a ≤ S8192.size a
  k0_off5_inb : ∀ (i : grid0.Coords) (k0_t3 : Fin k0_t3_loop.trips), ∀ (k0_h1 : k0_cond1 i = 1#1), ∀ (r : Fin 2), ∀ a, (k0_off5 k0_t3 (BitVec.ofNat 32 (16 + 16 * r.val))) a + S16.size a ≤ S8192.size a
  k0_off6_inb : ∀ (i : grid0.Coords) (k0_t3 : Fin k0_t3_loop.trips), ∀ (k0_h1 : k0_cond1 i = 1#1), ∀ (r : Fin 2), ∀ a, (k0_off6 k0_t3 (BitVec.ofNat 32 (32 + 16 * r.val))) a + S16.size a ≤ S8192.size a
  k0_off7_inb : ∀ (i : grid0.Coords) (k0_t3 : Fin k0_t3_loop.trips), ∀ (k0_h1 : k0_cond1 i = 1#1), ∀ (r : Fin 2), ∀ a, (k0_off7 k0_t3 (BitVec.ofNat 32 (48 + 16 * r.val))) a + S16.size a ≤ S8192.size a
  k0_off8_inb : ∀ (i : grid0.Coords) (k0_t3 : Fin k0_t3_loop.trips), ∀ (k0_h1 : k0_cond1 i = 1#1), ∀ (r : Fin 2), ∀ a, (k0_off8 k0_t3 (BitVec.ofNat 32 (64 + 16 * r.val))) a + S16.size a ≤ S8192.size a
  k0_off9_inb : ∀ (i : grid0.Coords) (k0_t3 : Fin k0_t3_loop.trips), ∀ (k0_h1 : k0_cond1 i = 1#1), ∀ (r : Fin 2), ∀ a, (k0_off9 k0_t3 (BitVec.ofNat 32 (80 + 16 * r.val))) a + S16.size a ≤ S8192.size a
  k0_off10_inb : ∀ (i : grid0.Coords) (k0_t3 : Fin k0_t3_loop.trips), ∀ (k0_h1 : k0_cond1 i = 1#1), ∀ (r : Fin 2), ∀ a, (k0_off10 k0_t3 (BitVec.ofNat 32 (96 + 16 * r.val))) a + S16.size a ≤ S8192.size a
  k0_off11_inb : ∀ (i : grid0.Coords) (k0_t3 : Fin k0_t3_loop.trips), ∀ (k0_h1 : k0_cond1 i = 1#1), ∀ (r : Fin 2), ∀ a, (k0_off11 k0_t3 (BitVec.ofNat 32 (112 + 16 * r.val))) a + S16.size a ≤ S8192.size a
  k0_off12_inb : ∀ (i : grid0.Coords) (k0_t3 : Fin k0_t3_loop.trips), ∀ (k0_h1 : k0_cond1 i = 1#1), ∀ (r : Fin 2), ∀ a, (k0_off12 k0_t3 (BitVec.ofNat 32 (128 + 16 * r.val))) a + S16.size a ≤ S8192.size a
  k0_off13_inb : ∀ (i : grid0.Coords) (k0_t3 : Fin k0_t3_loop.trips), ∀ (k0_h1 : k0_cond1 i = 1#1), ∀ (r : Fin 2), ∀ a, (k0_off13 k0_t3 (BitVec.ofNat 32 (144 + 16 * r.val))) a + S16.size a ≤ S8192.size a
  k0_off14_inb : ∀ (i : grid0.Coords) (k0_t3 : Fin k0_t3_loop.trips), ∀ (k0_h1 : k0_cond1 i = 1#1), ∀ (r : Fin 2), ∀ a, (k0_off14 k0_t3 (BitVec.ofNat 32 (160 + 16 * r.val))) a + S16.size a ≤ S8192.size a
  k0_off15_inb : ∀ (i : grid0.Coords) (k0_t3 : Fin k0_t3_loop.trips), ∀ (k0_h1 : k0_cond1 i = 1#1), ∀ (r : Fin 2), ∀ a, (k0_off15 k0_t3 (BitVec.ofNat 32 (176 + 16 * r.val))) a + S16.size a ≤ S8192.size a
  k0_off16_inb : ∀ (i : grid0.Coords) (k0_t3 : Fin k0_t3_loop.trips), ∀ (k0_h1 : k0_cond1 i = 1#1), ∀ (r : Fin 2), ∀ a, (k0_off16 k0_t3 (BitVec.ofNat 32 (192 + 16 * r.val))) a + S16.size a ≤ S8192.size a
  k0_off17_inb : ∀ (i : grid0.Coords) (k0_t3 : Fin k0_t3_loop.trips), ∀ (k0_h1 : k0_cond1 i = 1#1), ∀ (r : Fin 2), ∀ a, (k0_off17 k0_t3 (BitVec.ofNat 32 (208 + 16 * r.val))) a + S16.size a ≤ S8192.size a
  k0_off18_inb : ∀ (i : grid0.Coords) (k0_t3 : Fin k0_t3_loop.trips), ∀ (k0_h1 : k0_cond1 i = 1#1), ∀ (r : Fin 2), ∀ a, (k0_off18 k0_t3 (BitVec.ofNat 32 (224 + 16 * r.val))) a + S16.size a ≤ S8192.size a
  k0_off19_inb : ∀ (i : grid0.Coords) (k0_t3 : Fin k0_t3_loop.trips), ∀ (k0_h1 : k0_cond1 i = 1#1), ∀ (r : Fin 2), ∀ a, (k0_off19 k0_t3 (BitVec.ofNat 32 (240 + 16 * r.val))) a + S16.size a ≤ S8192.size a
  k0_off20_inb : ∀ (i : grid0.Coords) (k0_t3 : Fin k0_t3_loop.trips), ∀ (k0_h1 : k0_cond1 i = 1#1), ∀ (r : Fin 2), ∀ a, (k0_off20 k0_t3 (BitVec.ofNat 32 (256 + 16 * r.val))) a + S16.size a ≤ S8192.size a
  k0_off21_inb : ∀ (i : grid0.Coords) (k0_t3 : Fin k0_t3_loop.trips), ∀ (k0_h1 : k0_cond1 i = 1#1), ∀ (r : Fin 2), ∀ a, (k0_off21 k0_t3 (BitVec.ofNat 32 (272 + 16 * r.val))) a + S16.size a ≤ S8192.size a
  k0_off22_inb : ∀ (i : grid0.Coords) (k0_t3 : Fin k0_t3_loop.trips), ∀ (k0_h1 : k0_cond1 i = 1#1), ∀ (r : Fin 2), ∀ a, (k0_off22 k0_t3 (BitVec.ofNat 32 (288 + 16 * r.val))) a + S16.size a ≤ S8192.size a
  k0_off23_inb : ∀ (i : grid0.Coords) (k0_t3 : Fin k0_t3_loop.trips), ∀ (k0_h1 : k0_cond1 i = 1#1), ∀ (r : Fin 2), ∀ a, (k0_off23 k0_t3 (BitVec.ofNat 32 (304 + 16 * r.val))) a + S16.size a ≤ S8192.size a
  k0_off24_inb : ∀ (i : grid0.Coords) (k0_t3 : Fin k0_t3_loop.trips), ∀ (k0_h1 : k0_cond1 i = 1#1), ∀ (r : Fin 2), ∀ a, (k0_off24 k0_t3 (BitVec.ofNat 32 (320 + 16 * r.val))) a + S16.size a ≤ S8192.size a
  k0_off25_inb : ∀ (i : grid0.Coords) (k0_t3 : Fin k0_t3_loop.trips), ∀ (k0_h1 : k0_cond1 i = 1#1), ∀ (r : Fin 2), ∀ a, (k0_off25 k0_t3 (BitVec.ofNat 32 (336 + 16 * r.val))) a + S16.size a ≤ S8192.size a
  k0_off26_inb : ∀ (i : grid0.Coords) (k0_t3 : Fin k0_t3_loop.trips), ∀ (k0_h1 : k0_cond1 i = 1#1), ∀ (r : Fin 2), ∀ a, (k0_off26 k0_t3 (BitVec.ofNat 32 (352 + 16 * r.val))) a + S16.size a ≤ S8192.size a
  k0_off27_inb : ∀ (i : grid0.Coords) (k0_t3 : Fin k0_t3_loop.trips), ∀ (k0_h1 : k0_cond1 i = 1#1), ∀ (r : Fin 2), ∀ a, (k0_off27 k0_t3 (BitVec.ofNat 32 (368 + 16 * r.val))) a + S16.size a ≤ S8192.size a
  k0_off28_inb : ∀ (i : grid0.Coords) (k0_t3 : Fin k0_t3_loop.trips), ∀ (k0_h1 : k0_cond1 i = 1#1), ∀ (r : Fin 2), ∀ a, (k0_off28 k0_t3 (BitVec.ofNat 32 (384 + 16 * r.val))) a + S16.size a ≤ S8192.size a
  k0_off29_inb : ∀ (i : grid0.Coords) (k0_t3 : Fin k0_t3_loop.trips), ∀ (k0_h1 : k0_cond1 i = 1#1), ∀ (r : Fin 2), ∀ a, (k0_off29 k0_t3 (BitVec.ofNat 32 (400 + 16 * r.val))) a + S16.size a ≤ S8192.size a
  k0_off30_inb : ∀ (i : grid0.Coords) (k0_t3 : Fin k0_t3_loop.trips), ∀ (k0_h1 : k0_cond1 i = 1#1), ∀ (r : Fin 2), ∀ a, (k0_off30 k0_t3 (BitVec.ofNat 32 (416 + 16 * r.val))) a + S16.size a ≤ S8192.size a
  k0_off31_inb : ∀ (i : grid0.Coords) (k0_t3 : Fin k0_t3_loop.trips), ∀ (k0_h1 : k0_cond1 i = 1#1), ∀ (r : Fin 2), ∀ a, (k0_off31 k0_t3 (BitVec.ofNat 32 (432 + 16 * r.val))) a + S16.size a ≤ S8192.size a
  k0_off32_inb : ∀ (i : grid0.Coords) (k0_t3 : Fin k0_t3_loop.trips), ∀ (k0_h1 : k0_cond1 i = 1#1), ∀ (r : Fin 2), ∀ a, (k0_off32 k0_t3 (BitVec.ofNat 32 (448 + 16 * r.val))) a + S16.size a ≤ S8192.size a
  k0_off33_inb : ∀ (i : grid0.Coords) (k0_t3 : Fin k0_t3_loop.trips), ∀ (k0_h1 : k0_cond1 i = 1#1), ∀ (r : Fin 2), ∀ a, (k0_off33 k0_t3 (BitVec.ofNat 32 (464 + 16 * r.val))) a + S16.size a ≤ S8192.size a
  k0_off34_inb : ∀ (i : grid0.Coords) (k0_t3 : Fin k0_t3_loop.trips), ∀ (k0_h1 : k0_cond1 i = 1#1), ∀ (r : Fin 2), ∀ a, (k0_off34 k0_t3 (BitVec.ofNat 32 (480 + 16 * r.val))) a + S16.size a ≤ S8192.size a
  k0_off35_inb : ∀ (i : grid0.Coords) (k0_t3 : Fin k0_t3_loop.trips), ∀ (k0_h1 : k0_cond1 i = 1#1), ∀ a, (k0_off35 k0_t3) a + S16.size a ≤ S8192.size a
  k0_off36_inb : ∀ (i : grid0.Coords) (k0_t1 : Fin k0_t1_loop.trips) (k0_t2 : Fin k0_t2_loop.trips), ∀ (k0_h1 : k0_cond1 i = 1#1), ∀ a, (k0_off36 i k0_t1 k0_t2) a + S1x1x8192.size a ≤ S13x16x16384.size a
  k0_t4_ok : ∀ i : grid0.Coords, ∀ (k0_h1 : ¬(k0_cond1 i = 1#1)), k0_t4_loop.OK
  k0_off37_inb : ∀ (i : grid0.Coords) (k0_t4 : Fin k0_t4_loop.trips), ∀ (k0_h1 : ¬(k0_cond1 i = 1#1)), ∀ a, (k0_off37 i k0_t4) a + S1x1x100000.size a ≤ S13x16x100000.size a
  k0_t5_ok : ∀ i : grid0.Coords, ∀ (k0_h1 : ¬(k0_cond1 i = 1#1)), k0_t5_loop.OK
  k0_off38_inb : ∀ (i : grid0.Coords) (k0_t4 : Fin k0_t4_loop.trips) (k0_t5 : Fin k0_t5_loop.trips), ∀ (k0_h1 : ¬(k0_cond1 i = 1#1)), ∀ a, (k0_off38 k0_t4 k0_t5) a + S1x8192.size a ≤ S13x16384.size a
  k0_t6_ok : ∀ i : grid0.Coords, ∀ (k0_h1 : ¬(k0_cond1 i = 1#1)), k0_t6_loop.OK
  k0_off39_inb : ∀ (i : grid0.Coords) (k0_t6 : Fin k0_t6_loop.trips), ∀ (k0_h1 : ¬(k0_cond1 i = 1#1)), ∀ a, (k0_off39 k0_t6) a + S16.size a ≤ S8192.size a
  k0_off40_inb : ∀ (i : grid0.Coords) (k0_t6 : Fin k0_t6_loop.trips), ∀ (k0_h1 : ¬(k0_cond1 i = 1#1)), ∀ (r : Fin 2), ∀ a, (k0_off40 k0_t6 (BitVec.ofNat 32 (16 * r.val))) a + S16.size a ≤ S8192.size a
  k0_off41_inb : ∀ (i : grid0.Coords) (k0_t6 : Fin k0_t6_loop.trips), ∀ (k0_h1 : ¬(k0_cond1 i = 1#1)), ∀ (r : Fin 2), ∀ a, (k0_off41 k0_t6 (BitVec.ofNat 32 (16 + 16 * r.val))) a + S16.size a ≤ S8192.size a
  k0_off42_inb : ∀ (i : grid0.Coords) (k0_t6 : Fin k0_t6_loop.trips), ∀ (k0_h1 : ¬(k0_cond1 i = 1#1)), ∀ (r : Fin 2), ∀ a, (k0_off42 k0_t6 (BitVec.ofNat 32 (32 + 16 * r.val))) a + S16.size a ≤ S8192.size a
  k0_off43_inb : ∀ (i : grid0.Coords) (k0_t6 : Fin k0_t6_loop.trips), ∀ (k0_h1 : ¬(k0_cond1 i = 1#1)), ∀ (r : Fin 2), ∀ a, (k0_off43 k0_t6 (BitVec.ofNat 32 (48 + 16 * r.val))) a + S16.size a ≤ S8192.size a
  k0_off44_inb : ∀ (i : grid0.Coords) (k0_t6 : Fin k0_t6_loop.trips), ∀ (k0_h1 : ¬(k0_cond1 i = 1#1)), ∀ (r : Fin 2), ∀ a, (k0_off44 k0_t6 (BitVec.ofNat 32 (64 + 16 * r.val))) a + S16.size a ≤ S8192.size a
  k0_off45_inb : ∀ (i : grid0.Coords) (k0_t6 : Fin k0_t6_loop.trips), ∀ (k0_h1 : ¬(k0_cond1 i = 1#1)), ∀ (r : Fin 2), ∀ a, (k0_off45 k0_t6 (BitVec.ofNat 32 (80 + 16 * r.val))) a + S16.size a ≤ S8192.size a
  k0_off46_inb : ∀ (i : grid0.Coords) (k0_t6 : Fin k0_t6_loop.trips), ∀ (k0_h1 : ¬(k0_cond1 i = 1#1)), ∀ (r : Fin 2), ∀ a, (k0_off46 k0_t6 (BitVec.ofNat 32 (96 + 16 * r.val))) a + S16.size a ≤ S8192.size a
  k0_off47_inb : ∀ (i : grid0.Coords) (k0_t6 : Fin k0_t6_loop.trips), ∀ (k0_h1 : ¬(k0_cond1 i = 1#1)), ∀ (r : Fin 2), ∀ a, (k0_off47 k0_t6 (BitVec.ofNat 32 (112 + 16 * r.val))) a + S16.size a ≤ S8192.size a
  k0_off48_inb : ∀ (i : grid0.Coords) (k0_t6 : Fin k0_t6_loop.trips), ∀ (k0_h1 : ¬(k0_cond1 i = 1#1)), ∀ (r : Fin 2), ∀ a, (k0_off48 k0_t6 (BitVec.ofNat 32 (128 + 16 * r.val))) a + S16.size a ≤ S8192.size a
  k0_off49_inb : ∀ (i : grid0.Coords) (k0_t6 : Fin k0_t6_loop.trips), ∀ (k0_h1 : ¬(k0_cond1 i = 1#1)), ∀ (r : Fin 2), ∀ a, (k0_off49 k0_t6 (BitVec.ofNat 32 (144 + 16 * r.val))) a + S16.size a ≤ S8192.size a
  k0_off50_inb : ∀ (i : grid0.Coords) (k0_t6 : Fin k0_t6_loop.trips), ∀ (k0_h1 : ¬(k0_cond1 i = 1#1)), ∀ (r : Fin 2), ∀ a, (k0_off50 k0_t6 (BitVec.ofNat 32 (160 + 16 * r.val))) a + S16.size a ≤ S8192.size a
  k0_off51_inb : ∀ (i : grid0.Coords) (k0_t6 : Fin k0_t6_loop.trips), ∀ (k0_h1 : ¬(k0_cond1 i = 1#1)), ∀ (r : Fin 2), ∀ a, (k0_off51 k0_t6 (BitVec.ofNat 32 (176 + 16 * r.val))) a + S16.size a ≤ S8192.size a
  k0_off52_inb : ∀ (i : grid0.Coords) (k0_t6 : Fin k0_t6_loop.trips), ∀ (k0_h1 : ¬(k0_cond1 i = 1#1)), ∀ (r : Fin 2), ∀ a, (k0_off52 k0_t6 (BitVec.ofNat 32 (192 + 16 * r.val))) a + S16.size a ≤ S8192.size a
  k0_off53_inb : ∀ (i : grid0.Coords) (k0_t6 : Fin k0_t6_loop.trips), ∀ (k0_h1 : ¬(k0_cond1 i = 1#1)), ∀ (r : Fin 2), ∀ a, (k0_off53 k0_t6 (BitVec.ofNat 32 (208 + 16 * r.val))) a + S16.size a ≤ S8192.size a
  k0_off54_inb : ∀ (i : grid0.Coords) (k0_t6 : Fin k0_t6_loop.trips), ∀ (k0_h1 : ¬(k0_cond1 i = 1#1)), ∀ (r : Fin 2), ∀ a, (k0_off54 k0_t6 (BitVec.ofNat 32 (224 + 16 * r.val))) a + S16.size a ≤ S8192.size a
  k0_off55_inb : ∀ (i : grid0.Coords) (k0_t6 : Fin k0_t6_loop.trips), ∀ (k0_h1 : ¬(k0_cond1 i = 1#1)), ∀ (r : Fin 2), ∀ a, (k0_off55 k0_t6 (BitVec.ofNat 32 (240 + 16 * r.val))) a + S16.size a ≤ S8192.size a
  k0_off56_inb : ∀ (i : grid0.Coords) (k0_t6 : Fin k0_t6_loop.trips), ∀ (k0_h1 : ¬(k0_cond1 i = 1#1)), ∀ (r : Fin 2), ∀ a, (k0_off56 k0_t6 (BitVec.ofNat 32 (256 + 16 * r.val))) a + S16.size a ≤ S8192.size a
  k0_off57_inb : ∀ (i : grid0.Coords) (k0_t6 : Fin k0_t6_loop.trips), ∀ (k0_h1 : ¬(k0_cond1 i = 1#1)), ∀ (r : Fin 2), ∀ a, (k0_off57 k0_t6 (BitVec.ofNat 32 (272 + 16 * r.val))) a + S16.size a ≤ S8192.size a
  k0_off58_inb : ∀ (i : grid0.Coords) (k0_t6 : Fin k0_t6_loop.trips), ∀ (k0_h1 : ¬(k0_cond1 i = 1#1)), ∀ (r : Fin 2), ∀ a, (k0_off58 k0_t6 (BitVec.ofNat 32 (288 + 16 * r.val))) a + S16.size a ≤ S8192.size a
  k0_off59_inb : ∀ (i : grid0.Coords) (k0_t6 : Fin k0_t6_loop.trips), ∀ (k0_h1 : ¬(k0_cond1 i = 1#1)), ∀ (r : Fin 2), ∀ a, (k0_off59 k0_t6 (BitVec.ofNat 32 (304 + 16 * r.val))) a + S16.size a ≤ S8192.size a
  k0_off60_inb : ∀ (i : grid0.Coords) (k0_t6 : Fin k0_t6_loop.trips), ∀ (k0_h1 : ¬(k0_cond1 i = 1#1)), ∀ (r : Fin 2), ∀ a, (k0_off60 k0_t6 (BitVec.ofNat 32 (320 + 16 * r.val))) a + S16.size a ≤ S8192.size a
  k0_off61_inb : ∀ (i : grid0.Coords) (k0_t6 : Fin k0_t6_loop.trips), ∀ (k0_h1 : ¬(k0_cond1 i = 1#1)), ∀ (r : Fin 2), ∀ a, (k0_off61 k0_t6 (BitVec.ofNat 32 (336 + 16 * r.val))) a + S16.size a ≤ S8192.size a
  k0_off62_inb : ∀ (i : grid0.Coords) (k0_t6 : Fin k0_t6_loop.trips), ∀ (k0_h1 : ¬(k0_cond1 i = 1#1)), ∀ (r : Fin 2), ∀ a, (k0_off62 k0_t6 (BitVec.ofNat 32 (352 + 16 * r.val))) a + S16.size a ≤ S8192.size a
  k0_off63_inb : ∀ (i : grid0.Coords) (k0_t6 : Fin k0_t6_loop.trips), ∀ (k0_h1 : ¬(k0_cond1 i = 1#1)), ∀ (r : Fin 2), ∀ a, (k0_off63 k0_t6 (BitVec.ofNat 32 (368 + 16 * r.val))) a + S16.size a ≤ S8192.size a
  k0_off64_inb : ∀ (i : grid0.Coords) (k0_t6 : Fin k0_t6_loop.trips), ∀ (k0_h1 : ¬(k0_cond1 i = 1#1)), ∀ (r : Fin 2), ∀ a, (k0_off64 k0_t6 (BitVec.ofNat 32 (384 + 16 * r.val))) a + S16.size a ≤ S8192.size a
  k0_off65_inb : ∀ (i : grid0.Coords) (k0_t6 : Fin k0_t6_loop.trips), ∀ (k0_h1 : ¬(k0_cond1 i = 1#1)), ∀ (r : Fin 2), ∀ a, (k0_off65 k0_t6 (BitVec.ofNat 32 (400 + 16 * r.val))) a + S16.size a ≤ S8192.size a
  k0_off66_inb : ∀ (i : grid0.Coords) (k0_t6 : Fin k0_t6_loop.trips), ∀ (k0_h1 : ¬(k0_cond1 i = 1#1)), ∀ (r : Fin 2), ∀ a, (k0_off66 k0_t6 (BitVec.ofNat 32 (416 + 16 * r.val))) a + S16.size a ≤ S8192.size a
  k0_off67_inb : ∀ (i : grid0.Coords) (k0_t6 : Fin k0_t6_loop.trips), ∀ (k0_h1 : ¬(k0_cond1 i = 1#1)), ∀ (r : Fin 2), ∀ a, (k0_off67 k0_t6 (BitVec.ofNat 32 (432 + 16 * r.val))) a + S16.size a ≤ S8192.size a
  k0_off68_inb : ∀ (i : grid0.Coords) (k0_t6 : Fin k0_t6_loop.trips), ∀ (k0_h1 : ¬(k0_cond1 i = 1#1)), ∀ (r : Fin 2), ∀ a, (k0_off68 k0_t6 (BitVec.ofNat 32 (448 + 16 * r.val))) a + S16.size a ≤ S8192.size a
  k0_off69_inb : ∀ (i : grid0.Coords) (k0_t6 : Fin k0_t6_loop.trips), ∀ (k0_h1 : ¬(k0_cond1 i = 1#1)), ∀ (r : Fin 2), ∀ a, (k0_off69 k0_t6 (BitVec.ofNat 32 (464 + 16 * r.val))) a + S16.size a ≤ S8192.size a
  k0_off70_inb : ∀ (i : grid0.Coords) (k0_t6 : Fin k0_t6_loop.trips), ∀ (k0_h1 : ¬(k0_cond1 i = 1#1)), ∀ (r : Fin 2), ∀ a, (k0_off70 k0_t6 (BitVec.ofNat 32 (480 + 16 * r.val))) a + S16.size a ≤ S8192.size a
  k0_off71_inb : ∀ (i : grid0.Coords) (k0_t6 : Fin k0_t6_loop.trips), ∀ (k0_h1 : ¬(k0_cond1 i = 1#1)), ∀ a, (k0_off71 k0_t6) a + S16.size a ≤ S8192.size a
  k0_off72_inb : ∀ (i : grid0.Coords) (k0_t4 : Fin k0_t4_loop.trips) (k0_t5 : Fin k0_t5_loop.trips), ∀ (k0_h1 : ¬(k0_cond1 i = 1#1)), ∀ a, (k0_off72 i k0_t4 k0_t5) a + S1x1x8192.size a ≤ S13x16x16384.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S13x16x1024.size a ≤ S13x16x16384.size a
  hwx1_0 : ∀ i : grid1.Coords, EltTy.bits .f32 = 32 ∨ (Rect.block (s := S13x16x16384) S13x16x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S13x16x1024.size a ≤ S13x16x16384.size a
  hwx1_1 : ∀ i : grid1.Coords, EltTy.bits .f32 = 32 ∨ (Rect.block (s := S13x16x16384) S13x16x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x208.size a ≤ S64x208.size a
  hwx1_2 : ∀ i : grid1.Coords, EltTy.bits .f32 = 32 ∨ (Rect.block (s := S64x208) S64x208.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x208.size a ≤ S64x208.size a
  hwx1_6 : ∀ i : grid1.Coords, EltTy.bits .f32 = 32 ∨ (Rect.block (s := S64x208) S64x208.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .f32 = 32 ∨ (Rect.block (s := S64x1) S64x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x64.size a ≤ S32x64.size a
  hwx1_8 : ∀ i : grid1.Coords, EltTy.bits .f32 = 32 ∨ (Rect.block (s := S32x64) S32x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x1.size a ≤ S32x1.size a
  hwx1_9 : ∀ i : grid1.Coords, EltTy.bits .f32 = 32 ∨ (Rect.block (s := S32x1) S32x1.size (cc1_transform_9 i) (hinb1_9 i)).WholeWords (EltTy.packing .f32)
  hstage1_10 : ∀ j, (stage1_10 j).IsWhole
  nbuf1_10 : grid1.bufCount reads1_10 false = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
def dot_S64x208_S208x1024_S64x1024_1_0_0_1_n_n : DotDims S64x208 S208x1024 S64x1024 where
  lhsContracting := [1]
  rhsContracting := [0]
  lhsNonContracting := [0]
  rhsNonContracting := [1]
  lhsBatch := []
  rhsBatch := []
  wf := dot_S64x208_S208x1024_S64x1024_1_0_0_1_n_n_wf
def dot_S32x64_S64x1024_S32x1024_1_0_0_1_n_n : DotDims S32x64 S64x1024 S32x1024 where
  lhsContracting := [1]
  rhsContracting := [0]
  lhsNonContracting := [0]
  rhsNonContracting := [1]
  lhsBatch := []
  rhsBatch := []
  wf := dot_S32x64_S64x1024_S32x1024_1_0_0_1_n_n_wf

abbrev win1_0 : Pipeline.Window sig grid1 :=
  Pipeline.Window.ofSpec (Memref.whole main_v2_0) S13x16x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S13x16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x208.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S64x208.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S32x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10) S32x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v11) S1x1.size cc1_transform_10 reads1_10 true false 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S13x16384 : Shape := ⟨2, ![13, 16384]⟩
abbrev S13x100000x16 : Shape := ⟨3, ![13, 100000, 16]⟩
abbrev S208x64 : Shape := ⟨2, ![208, 64]⟩
abbrev S64 : Shape := ⟨1, ![64]⟩
abbrev S64x32 : Shape := ⟨2, ![64, 32]⟩
abbrev S32 : Shape := ⟨1, ![32]⟩
abbrev S_ : Shape := ⟨0, ![]⟩
abbrev S13x16384x1 : Shape := ⟨3, ![13, 16384, 1]⟩
abbrev S1 : Shape := ⟨1, ![1]⟩
abbrev S1x1x1 : Shape := ⟨3, ![1, 1, 1]⟩
abbrev S13x16384x16 : Shape := ⟨3, ![13, 16384, 16]⟩
abbrev S16384x13x16 : Shape := ⟨3, ![16384, 13, 16]⟩
abbrev S16384x208 : Shape := ⟨2, ![16384, 208]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S524288 : Shape := ⟨1, ![524288]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S13x16384, .i32⟩
  | .hbm, ⟨1, _⟩ => ⟨S13x16384, .i32⟩
  | .hbm, ⟨2, _⟩ => ⟨S13x100000x16, .f32⟩
  | .hbm, ⟨3, _⟩ => ⟨S13x100000x16, .f32⟩
  | .hbm, ⟨4, _⟩ => ⟨S208x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S208x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S_, .i32⟩
  | .hbm, ⟨13, _⟩ => ⟨S13x16384, .i32⟩
  | .hbm, ⟨14, _⟩ => ⟨S13x16384, .i1⟩
  | .hbm, ⟨15, _⟩ => ⟨S_, .i32⟩
  | .hbm, ⟨16, _⟩ => ⟨S13x16384, .i32⟩
  | .hbm, ⟨17, _⟩ => ⟨S13x16384, .i32⟩
  | .hbm, ⟨18, _⟩ => ⟨S13x16384, .i32⟩
  | .hbm, ⟨19, _⟩ => ⟨S13x16384x1, .i32⟩
  | .hbm, ⟨20, _⟩ => ⟨S1, .i32⟩
  | .hbm, ⟨21, _⟩ => ⟨S_, .i32⟩
  | .hbm, ⟨22, _⟩ => ⟨S13x16384x1, .i32⟩
  | .hbm, ⟨23, _⟩ => ⟨S13x16384x1, .i1⟩
  | .hbm, ⟨24, _⟩ => ⟨S1x1x1, .i32⟩
  | .hbm, ⟨25, _⟩ => ⟨S13x16384x1, .i32⟩
  | .hbm, ⟨26, _⟩ => ⟨S13x16384x1, .i1⟩
  | .hbm, ⟨27, _⟩ => ⟨S13x16384x1, .i1⟩
  | .hbm, ⟨28, _⟩ => ⟨S_, .i1⟩
  | .hbm, ⟨29, _⟩ => ⟨S13x16384, .i1⟩
  | .hbm, ⟨30, _⟩ => ⟨S13x16384x16, .f32⟩
  | .hbm, ⟨31, _⟩ => ⟨S13x16384x16, .i1⟩
  | .hbm, ⟨32, _⟩ => ⟨S_, .f32⟩
  | .hbm, ⟨33, _⟩ => ⟨S13x16384x16, .f32⟩
  | .hbm, ⟨34, _⟩ => ⟨S13x16384x16, .f32⟩
  | .hbm, ⟨35, _⟩ => ⟨S16384x13x16, .f32⟩
  | .hbm, ⟨36, _⟩ => ⟨S16384x208, .f32⟩
  | .hbm, ⟨37, _⟩ => ⟨S16384x64, .f32⟩
  | .hbm, ⟨38, _⟩ => ⟨S1x64, .f32⟩
  | .hbm, ⟨39, _⟩ => ⟨S16384x64, .f32⟩
  | .hbm, ⟨40, _⟩ => ⟨S16384x64, .f32⟩
  | .hbm, ⟨41, _⟩ => ⟨S_, .f32⟩
  | .hbm, ⟨42, _⟩ => ⟨S16384x64, .f32⟩
  | .hbm, ⟨43, _⟩ => ⟨S16384x64, .f32⟩
  | .hbm, ⟨44, _⟩ => ⟨S16384x32, .f32⟩
  | .hbm, ⟨45, _⟩ => ⟨S1x32, .f32⟩
  | .hbm, ⟨46, _⟩ => ⟨S16384x32, .f32⟩
  | .hbm, ⟨47, _⟩ => ⟨S16384x32, .f32⟩
  | .hbm, ⟨48, _⟩ => ⟨S_, .f32⟩
  | .hbm, ⟨49, _⟩ => ⟨S16384x32, .f32⟩
  | .hbm, ⟨50, _⟩ => ⟨S16384x32, .f32⟩
  | .hbm, ⟨51, _⟩ => ⟨S_, .i32⟩
  | .hbm, ⟨52, _⟩ => ⟨S13x16384, .i32⟩
  | .hbm, ⟨53, _⟩ => ⟨S13x16384, .i1⟩
  | .hbm, ⟨54, _⟩ => ⟨S_, .i32⟩
  | .hbm, ⟨55, _⟩ => ⟨S13x16384, .i32⟩
  | .hbm, ⟨56, _⟩ => ⟨S13x16384, .i32⟩
  | .hbm, ⟨57, _⟩ => ⟨S13x16384, .i32⟩
  | .hbm, ⟨58, _⟩ => ⟨S13x16384x1, .i32⟩
  | .hbm, ⟨59, _⟩ => ⟨S1, .i32⟩
  | .hbm, ⟨60, _⟩ => ⟨S_, .i32⟩
  | .hbm, ⟨61, _⟩ => ⟨S13x16384x1, .i32⟩
  | .hbm, ⟨62, _⟩ => ⟨S13x16384x1, .i1⟩
  | .hbm, ⟨63, _⟩ => ⟨S1x1x1, .i32⟩
  | .hbm, ⟨64, _⟩ => ⟨S13x16384x1, .i32⟩
  | .hbm, ⟨65, _⟩ => ⟨S13x16384x1, .i1⟩
  | .hbm, ⟨66, _⟩ => ⟨S13x16384x1, .i1⟩
  | .hbm, ⟨67, _⟩ => ⟨S_, .i1⟩
  | .hbm, ⟨68, _⟩ => ⟨S13x16384, .i1⟩
  | .hbm, ⟨69, _⟩ => ⟨S13x16384x16, .f32⟩
  | .hbm, ⟨70, _⟩ => ⟨S13x16384x16, .i1⟩
  | .hbm, ⟨71, _⟩ => ⟨S_, .f32⟩
  | .hbm, ⟨72, _⟩ => ⟨S13x16384x16, .f32⟩
  | .hbm, ⟨73, _⟩ => ⟨S13x16384x16, .f32⟩
  | .hbm, ⟨74, _⟩ => ⟨S16384x13x16, .f32⟩
  | .hbm, ⟨75, _⟩ => ⟨S16384x208, .f32⟩
  | .hbm, ⟨76, _⟩ => ⟨S16384x64, .f32⟩
  | .hbm, ⟨77, _⟩ => ⟨S1x64, .f32⟩
  | .hbm, ⟨78, _⟩ => ⟨S16384x64, .f32⟩
  | .hbm, ⟨79, _⟩ => ⟨S16384x64, .f32⟩
  | .hbm, ⟨80, _⟩ => ⟨S_, .f32⟩
  | .hbm, ⟨81, _⟩ => ⟨S16384x64, .f32⟩
  | .hbm, ⟨82, _⟩ => ⟨S16384x64, .f32⟩
  | .hbm, ⟨83, _⟩ => ⟨S16384x32, .f32⟩
  | .hbm, ⟨84, _⟩ => ⟨S1x32, .f32⟩
  | .hbm, ⟨85, _⟩ => ⟨S16384x32, .f32⟩
  | .hbm, ⟨86, _⟩ => ⟨S16384x32, .f32⟩
  | .hbm, ⟨87, _⟩ => ⟨S_, .f32⟩
  | .hbm, ⟨88, _⟩ => ⟨S16384x32, .f32⟩
  | .hbm, ⟨89, _⟩ => ⟨S16384x32, .f32⟩
  | .hbm, ⟨90, _⟩ => ⟨S524288, .f32⟩
  | .hbm, ⟨91, _⟩ => ⟨S524288, .f32⟩
  | .hbm, ⟨92, _⟩ => ⟨S524288, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S524288, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S524288, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S1x1, .f32⟩
  | _, _ => ⟨S13x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_call1_cst : Ref sig .tc := ⟨.hbm, 41, rfl⟩
abbrev main_call1_v0 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_call2_cst : Ref sig .tc := ⟨.hbm, 48, rfl⟩
abbrev main_call2_v0 : Ref sig .tc := ⟨.hbm, 49, rfl⟩
abbrev main_v12 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_v14 : Ref sig .tc := ⟨.hbm, 70, rfl⟩
abbrev main_call3_cst : Ref sig .tc := ⟨.hbm, 71, rfl⟩
abbrev main_call3_v15 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_call4_cst : Ref sig .tc := ⟨.hbm, 80, rfl⟩
abbrev main_call4_v0 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_call5_cst : Ref sig .tc := ⟨.hbm, 87, rfl⟩
abbrev main_call5_v0 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_cst : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_cst_0 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_1 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_2 : Ref sig .tc := ⟨.hbm, 107, rfl⟩
abbrev main_v40 : Ref sig .tc := ⟨.hbm, 108, rfl⟩
abbrev main_cst_3 : Ref sig .tc := ⟨.hbm, 109, rfl⟩
abbrev main_v41 : Ref sig .tc := ⟨.hbm, 110, rfl⟩
abbrev main_v42 : Ref sig .tc := ⟨.hbm, 111, rfl⟩

abbrev nD : Nat := 1
abbrev τ : Topo := Topo.v7x

variable {F : FTy → Type} [FloatOps F]

class Facts₀ : Prop where
  bcast_S_S13x16384 : S_.BroadcastsInDim S13x16384 (![] : Fin 0 → Fin S13x16384.rank)
  bcast_S13x16384_S13x16384x1_0_1 : S13x16384.BroadcastsInDim S13x16384x1 (![0, 1] : Fin 2 → Fin S13x16384x1.rank)
  bcast_S_S13x16384x1 : S_.BroadcastsInDim S13x16384x1 (![] : Fin 0 → Fin S13x16384x1.rank)
  bcast_S1_S1x1x1_2 : S1.BroadcastsInDim S1x1x1 (![2] : Fin 1 → Fin S1x1x1.rank)
  bcast_S1x1x1_S13x16384x1_0_1_2 : S1x1x1.BroadcastsInDim S13x16384x1 (![0, 1, 2] : Fin 3 → Fin S13x16384x1.rank)
  reducesTo_S13x16384x1_S13x16384_d2 : S13x16384x1.ReducesTo [2] S13x16384
  h_S_ : 0 < S_.numel
  bcast_S13x16384_S13x16384x16_0_1 : S13x16384.BroadcastsInDim S13x16384x16 (![0, 1] : Fin 2 → Fin S13x16384x16.rank)
  bcast_S_S13x16384x16 : S_.BroadcastsInDim S13x16384x16 (![] : Fin 0 → Fin S13x16384x16.rank)
  transposes_S13x16384x16_S16384x13x16_1_0_2 : S13x16384x16.Transposes [1, 0, 2] S16384x13x16
  shapeCasts_S16384x13x16_S16384x208 : S16384x13x16.ShapeCasts S16384x208
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  shapeCasts_S16384x32_S524288 : S16384x32.ShapeCasts S524288
  reducesTo_S524288_S_d0 : S524288.ReducesTo [0] S_
  shapeCasts_S_S1x1 : S_.ShapeCasts S1x1
  gather_S13x100000x16_S13x16384x1_S13x16384x16_2_1_0_0_1_2_1116_wf : GatherDims.WF S13x100000x16 S13x16384x1 S13x16384x16 [2] [1] [0] [1] [0] 2 ![1, 1, 16]
  dot_S16384x208_S208x64_S16384x64_1_0_0_1_n_n_wf : DotDims.WF S16384x208 S208x64 S16384x64 [1] [0] [0] [1] [] []
  dot_S16384x64_S64x32_S16384x32_1_0_0_1_n_n_wf : DotDims.WF S16384x64 S64x32 S16384x32 [1] [0] [0] [1] [] []

variable [Facts₀]

def gather_S13x100000x16_S13x16384x1_S13x16384x16_2_1_0_0_1_2_1116 : GatherDims S13x100000x16 S13x16384x1 S13x16384x16 where
  offsetDims := [2]
  collapsedSliceDims := [1]
  operandBatchingDims := [0]
  startIndicesBatchingDims := [0]
  startIndexMap := [1]
  indexVectorDim := 2
  sliceSizes := ![1, 1, 16]
  wf := gather_S13x100000x16_S13x16384x1_S13x16384x16_2_1_0_0_1_2_1116_wf
def dot_S16384x208_S208x64_S16384x64_1_0_0_1_n_n : DotDims S16384x208 S208x64 S16384x64 where
  lhsContracting := [1]
  rhsContracting := [0]
  lhsNonContracting := [0]
  rhsNonContracting := [1]
  lhsBatch := []
  rhsBatch := []
  wf := dot_S16384x208_S208x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf

class Facts : Prop extends Facts₀ where

variable [Facts]
-- ==== Proof.PreFacts.lean ====
/-
  What the precondition says of the argument arrays, entry by entry.

  The precondition is a conjunction of twelve "all entries satisfy p" tests: for each of the ten float arrays
  |x| < +∞ at every entry, and for each of the two index arrays 0 ≤ i ≤ 99999 (signed) at every entry. Each test is a
  reduction by "and" from the constant one; the conjunction being one, every test is one, and every entry passes.
  Read back: every index word, as a natural number, is below 100000 (at any float instance), and at the exact
  instance every float entry is a real number.
-/
import proofs.«205816_g11845519802804_retrytranche1_1814_36_alg».proof.Pre_input_domain
import Idealize.ShloMosaic.Lib.ReduceAll
import Idealize.ShloMosaic.PureOps.Ideal
import Idealize.ShloMosaic.PureOps.Ideal.Laws

noncomputable section

namespace Cert.PreFacts

open Idealize.ShloMosaic Cert.Pre_input_domain

instance subsingleton_S_ : Subsingleton S_.Idx := ⟨fun a b => funext fun d => d.elim0⟩

variable {F : FTy → Type} [FloatOps F] [hP : Cert.Pre_input_domain.Facts]

/-- A signed word between 0 and 99999 is, as a natural number, below 100000. -/
theorem word_lt (v : BitVec 32) (h0 : IntOp.cmpi .sge v 0#32 = 1#1) (h1 : IntOp.cmpi .sle v 99999#32 = 1#1) : v.toNat < 100000 := by
  have ofBool_eq_one (p : Bool) : (BitVec.ofBool p = 1#1) ↔ p = true := by cases p <;> decide
  simp only [IntOp.cmpi, ofBool_eq_one, BitVec.sle_eq_decide, decide_eq_true_eq, BitVec.toInt_eq_toNat_cond, BitVec.toNat_ofNat,
    Nat.reducePow, Nat.reduceMod] at h0 h1
  omega

/-- The test of one float array: every entry's absolute value is below the pattern of +∞. -/
def FiniteAt {s : Shape} (hb : S_.BroadcastsInDim s (![] : Fin 0 → Fin s.rank)) (a : FVec F s .f32) : Prop :=
  ∀ j, cmpf .olt (Host.absf a) (broadcastInDim s ![] hb (constant S_ .f32 0x7F800000#32)) j = 1#1

/-- The twelve tests, each at every entry. -/
theorem tests (a0 a1 : IVec S13x16384 32) (a2 a3 : FVec F S13x100000x16 .f32) (a4 : FVec F S208x64 .f32) (a5 : FVec F S64 .f32)
    (a6 : FVec F S64x32 .f32) (a7 : FVec F S32 .f32) (a8 : FVec F S208x64 .f32) (a9 : FVec F S64 .f32) (a10 : FVec F S64x32 .f32)
    (a11 : FVec F S32 .f32) (h : fn (F := F) a0 a1 a2 a3 a4 a5 a6 a7 a8 a9 a10 a11 = fun _ => 1#1) :
    ((∀ j, (a0 j).toNat < 100000) ∧ (∀ j, (a1 j).toNat < 100000))
    ∧ FiniteAt hP.bcast_S_S13x100000x16 a2 ∧ FiniteAt hP.bcast_S_S13x100000x16 a3 ∧ FiniteAt hP.bcast_S_S208x64 a4 ∧ FiniteAt hP.bcast_S_S64 a5
    ∧ FiniteAt hP.bcast_S_S64x32 a6 ∧ FiniteAt hP.bcast_S_S32 a7 ∧ FiniteAt hP.bcast_S_S208x64 a8 ∧ FiniteAt hP.bcast_S_S64 a9
    ∧ FiniteAt hP.bcast_S_S64x32 a10 ∧ FiniteAt hP.bcast_S_S32 a11 := by
  have key : ∀ (x y : IVec S_ 1) (i : S_.Idx), andi x y i = 1#1 → x i = 1#1 ∧ y i = 1#1 := fun x y i e => IntOp.andi_eq_one.1 e
  have h0 := congrFun h (fun d => d.elim0)
  dsimp only [fn, fn_part1, fn_part2, fn_part3] at h0
  obtain ⟨h0, i1⟩ := key _ _ _ h0
  obtain ⟨h0, i0⟩ := key _ _ _ h0
  obtain ⟨h0, f11⟩ := key _ _ _ h0
  obtain ⟨h0, f10⟩ := key _ _ _ h0
  obtain ⟨h0, f9⟩ := key _ _ _ h0
  obtain ⟨h0, f8⟩ := key _ _ _ h0
  obtain ⟨h0, f7⟩ := key _ _ _ h0
  obtain ⟨h0, f6⟩ := key _ _ _ h0
  obtain ⟨h0, f5⟩ := key _ _ _ h0
  obtain ⟨h0, f4⟩ := key _ _ _ h0
  obtain ⟨f2, f3⟩ := key _ _ _ h0
  refine ⟨⟨fun j => ?_, fun j => ?_⟩, Host.reduce_andi_all _ _ _ _ _ f2, Host.reduce_andi_all _ _ _ _ _ f3, Host.reduce_andi_all _ _ _ _ _ f4,
    Host.reduce_andi_all _ _ _ _ _ f5, Host.reduce_andi_all _ _ _ _ _ f6, Host.reduce_andi_all _ _ _ _ _ f7, Host.reduce_andi_all _ _ _ _ _ f8,
    Host.reduce_andi_all _ _ _ _ _ f9, Host.reduce_andi_all _ _ _ _ _ f10, Host.reduce_andi_all _ _ _ _ _ f11⟩
  · have e := Host.reduce_andi_all _ _ _ _ _ i0 j
    obtain ⟨e0, e1⟩ := IntOp.andi_eq_one.1 e
    exact word_lt _ e0 e1
  · have e := Host.reduce_andi_all _ _ _ _ _ i1 j
    obtain ⟨e0, e1⟩ := IntOp.andi_eq_one.1 e
    exact word_lt _ e0 e1

/-- At the exact instance an entry that passes the test is a real number. -/
theorem real_of_finiteAt {s : Shape} (hb : S_.BroadcastsInDim s (![] : Fin 0 → Fin s.rank)) (a : FVec Ideal s .f32)
    (h : FiniteAt (F := Ideal) hb a) (j : s.Idx) : ∃ r : ℝ, a j = (r : EReal) := by
  have e := h j
  simp only [cmpf, Host.absf, broadcastInDim, constant, Ideal.cmpf_def, Ideal.absf_def, Ideal.cmp, Ideal.ofBits_def] at e
  have hinf : Ideal.ofBits .f32 0x7F800000#32 = (⊤ : EReal) := by simp [Ideal.ofBits, Ideal.ieee]
  have hlt : max (a j : EReal) (-(a j : EReal)) < ⊤ := by
    have e' : decide (FloatOps.hostAbsf (a j) < Ideal.ofBits .f32 0x7F800000#32) = true := by
      revert e; cases decide (FloatOps.hostAbsf (a j) < Ideal.ofBits .f32 0x7F800000#32) <;> decide
    have := of_decide_eq_true e'
    rw [hinf] at this
    exact this
  induction hx : (a j : EReal) using EReal.rec with
  | bot => rw [hx] at hlt; simp at hlt
  | coe r => exact ⟨r, rfl⟩
  | top => rw [hx] at hlt; simp at hlt

end Cert.PreFacts

end
-- ==== Proof.ScSetup.lean ====
/-
  The SparseCore call of the program (a vector-subcore kernel on 2 SparseCores × 16 vector subcores): the
  configuration the launch theorem is applied at, the handshakes' payloads with the result NAMED, and how a
  SparseCore's operands split among its sixteen tiles.

  SparseCore 0 gathers the user tower, SparseCore 1 the item tower. Tile `e` of a SparseCore reads, for every field
  `f`, row `[f, e, :]` of the transposed table and all of the index array, and writes rows `[f, e, :]` of the result:
  after the call the result holds at `[f, e, b]` the table's element `[f, e, idx[f, b]]` (`gathered`). The kernel makes
  local copies only, each waited for before the next access: its ghost state is a copy of the transfers' counters
  (found by instance, `CountersIn`), so the handshakes carry nothing of a protocol of the kernel's own.
-/
import Idealize.ShloMosaic.Lib.SparseCore.Launch
import Idealize.ShloMosaic.Lib.SparseCore.Ops
import Idealize.ShloMosaic.Lib.Pipeline.Kit
import Idealize.ShloMosaic.Lib.Transfers
import Idealize.ShloMosaic.Lib.Tactic
import proofs.«205816_g11845519802804_retrytranche1_1814_36_alg».proof.Proof.Gen.KernelIdeal

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: any user algebra holding a copy of the transfers' counters -/

abbrev UH : Type := URounds (GSem nD τ sig) ℕ

variable {U : Type} [URA U]

local notation "𝕄" => MT nD τ sig (HIx 1) (Elt F) ℕ U ℕ

/-! ## The arrays -/

/-- The transposed tables (`[13, 16, 100000]`), the index arrays (`[13, 16384]`) and the results (`[13, 16, 16384]`) of the
    two towers, as locations of device `d`. -/
abbrev tULoc (d : Dev nD) : Loc nD τ sig := (SparseCore.T d).loc main_v0
abbrev tILoc (d : Dev nD) : Loc nD τ sig := (SparseCore.T d).loc main_v1
abbrev iULoc (d : Dev nD) : Loc nD τ sig := (SparseCore.T d).loc main_arg0
abbrev iILoc (d : Dev nD) : Loc nD τ sig := (SparseCore.T d).loc main_arg1
abbrev oULoc (d : Dev nD) : Loc nD τ sig := (SparseCore.T d).loc main_v2_0
abbrev oILoc (d : Dev nD) : Loc nD τ sig := (SparseCore.T d).loc main_v2_1

/-- The row of a table an index word names: the word read unsigned (below 100000 under the precondition). -/
def gIdx (w : BitVec 32) : Fin 100000 := if h : w.toNat < 100000 then ⟨w.toNat, h⟩ else ⟨0, by decide⟩

theorem gIdx_of_lt {w : BitVec 32} (h : w.toNat < 100000) : gIdx w = ⟨w.toNat, h⟩ := dif_pos h

/-- THE RESULT of one tower: at `[f, e, b]` the transposed table's element `[f, e, idx[f, b]]`. -/
def gathered (tab : S13x16x100000.Idx → Elt F .f32) (idx : S13x16384.Idx → Elt F .i32) : S13x16x16384.Idx → Elt F .f32 :=
  fun ix => tab (fun a => match a with
    | 0 => (ix 0 : Fin 13)
    | 1 => (ix 1 : Fin 16)
    | 2 => gIdx (idx (fun b => match b with | 0 => (ix 0 : Fin 13) | 1 => (ix 2 : Fin 16384))))

/-! ## What the handshakes carry -/

section Pay

-- What the two tables hold when the call is reached (the host transposes just before it wrote them), per device; the
-- index arrays are at their launch contents `m`.
variable (tabU : (d : Dev nD) → Buf (Elt F) (tULoc d)) (tabI : (d : Dev nD) → Buf (Elt F) (tILoc d))
variable (m : (ℓ : Loc nD τ sig) → Buf (Elt F) ℓ)

/-- The elements `[·, e, ·]` of a rank-three array: tile `e`'s rows. -/
def colSet {n0 n1 n2 : Nat} (e : ℕ) : Finset ((⟨3, ![n0, n1, n2]⟩ : Shape).Idx) := Finset.univ.filter fun ix => (ix 1).val = e

/-- The result of the user tower on device `d`, and of the item tower. -/
def resU (d : Dev nD) : Buf (Elt F) (oULoc d) := gathered (F := F) (tabU d) (m (iULoc d))
def resI (d : Dev nD) : Buf (Elt F) (oILoc d) := gathered (F := F) (tabI d) (m (iILoc d))

/-- What the call hands SparseCore `c`: its tower's table and index array whole, the result array whole (at its launch contents: nothing wrote it yet). -/
def stCore (d : Dev nD) (c : ℕ) : sProp 𝕄 :=
  if c = 0 then iprop((tULoc d ↦{fullShare} tabU d) ∗ (iULoc d ↦{fullShare} m (iULoc d)) ∗ oULoc d ↦{fullShare} m (oULoc d))
  else iprop((tILoc d ↦{fullShare} tabI d) ∗ (iILoc d ↦{fullShare} m (iILoc d)) ∗ oILoc d ↦{fullShare} m (oILoc d))
/-- What it takes back: the same, the result array at THE RESULT. -/
def dnCore (d : Dev nD) (c : ℕ) : sProp 𝕄 :=
  if c = 0 then iprop((tULoc d ↦{fullShare} tabU d) ∗ (iULoc d ↦{fullShare} m (iULoc d)) ∗ oULoc d ↦{fullShare} resU tabU m d)
  else iprop((tILoc d ↦{fullShare} tabI d) ∗ (iILoc d ↦{fullShare} m (iILoc d)) ∗ oILoc d ↦{fullShare} resI tabI m d)
/-- Tile `e` of SparseCore `c`: a read share of the table and of the index array, its rows of the result. -/
def goTile (d : Dev nD) (c e : ℕ) : sProp 𝕄 :=
  if c = 0 then iprop((tULoc d ↦{Transfers.shareTokN fullShare e} tabU d) ∗ (iULoc d ↦{Transfers.shareTokN fullShare e} m (iULoc d)) ∗ oULoc d ↦[colSet e]{fullShare} m (oULoc d))
  else iprop((tILoc d ↦{Transfers.shareTokN fullShare e} tabI d) ∗ (iILoc d ↦{Transfers.shareTokN fullShare e} m (iILoc d)) ∗ oILoc d ↦[colSet e]{fullShare} m (oILoc d))
def tdTile (d : Dev nD) (c e : ℕ) : sProp 𝕄 :=
  if c = 0 then iprop((tULoc d ↦{Transfers.shareTokN fullShare e} tabU d) ∗ (iULoc d ↦{Transfers.shareTokN fullShare e} m (iULoc d)) ∗ oULoc d ↦[colSet e]{fullShare} resU tabU m d)
  else iprop((tILoc d ↦{Transfers.shareTokN fullShare e} tabI d) ∗ (iILoc d ↦{Transfers.shareTokN fullShare e} m (iILoc d)) ∗ oILoc d ↦[colSet e]{fullShare} resI tabI m d)

instance stCore_storable (d : Dev nD) (c : ℕ) : BI.Storable (upEmb : UEmb _ 𝕄) (stCore tabU tabI m d c) := by unfold stCore; split <;> infer_instance
instance dnCore_storable (d : Dev nD) (c : ℕ) : BI.Storable (upEmb : UEmb _ 𝕄) (dnCore tabU tabI m d c) := by unfold dnCore; split <;> infer_instance
instance goTile_storable (d : Dev nD) (c e : ℕ) : BI.Storable (upEmb : UEmb _ 𝕄) (goTile tabU tabI m d c e) := by unfold goTile; split <;> infer_instance
instance tdTile_storable (d : Dev nD) (c e : ℕ) : BI.Storable (upEmb : UEmb _ 𝕄) (tdTile tabU tabI m d c e) := by unfold tdTile; split <;> infer_instance

/-- The one call's payloads; nothing of a protocol of the kernel's own. -/
def P : (K (F := F)).Pay (nD := nD) (Val := Elt F) (Name := ℕ) (U := U) where
  st := fun _ d c => stCore tabU tabI m d c.val
  dn := fun _ d c => dnCore tabU tabI m d c.val
  go := fun _ d c i => goTile tabU tabI m d c.val i.val
  td := fun _ d c i => tdTile tabU tabI m d c.val i.val
  x := fun _ _ => iprop(emp)

instance P_storable : (P (F := F) (U := U) tabU tabI m).IsStorable where
  st _ d c := by unfold P; infer_instance
  dn _ d c := by unfold P; infer_instance
  go _ _ _ _ := by unfold P; infer_instance
  td _ _ _ _ := by unfold P; infer_instance

end Pay

/-! ## How a SparseCore's operands split among its tiles -/

section Split

omit [URA U] in
theorem colSet_disjoint {n0 n1 n2 : Nat} : ∀ i ∈ (Finset.univ : Finset (Fin 16)), ∀ j ∈ (Finset.univ : Finset (Fin 16)), i ≠ j →
    Disjoint (colSet (n0 := n0) (n1 := n1) (n2 := n2) i.val) (colSet j.val) := by
  intro i _ j _ h
  refine Finset.disjoint_left.mpr fun ix hi hj => h (Fin.ext ?_)
  rw [← (Finset.mem_filter.mp hi).2, ← (Finset.mem_filter.mp hj).2]

omit [URA U] in
theorem colSet_cover {n0 n2 : Nat} : (Finset.univ : Finset (Fin 16)).biUnion (fun i => colSet (n0 := n0) (n1 := 16) (n2 := n2) i.val) = Finset.univ := by
  refine Finset.eq_univ_iff_forall.mpr fun ix => Finset.mem_biUnion.mpr ⟨(ix 1 : Fin 16), Finset.mem_univ _, Finset.mem_filter.mpr ⟨Finset.mem_univ _, rfl⟩⟩

/-- One tower's three arrays, whole, are sixteen read shares of the table and of the index array (and what is left of
    the two, kept for the way back) and the result's sixteen row sets; back, the row sets at one function join. -/
theorem split_core {tl il ol : Loc nD τ sig} (tab : Buf (Elt F) tl) (idx : Buf (Elt F) il) (o₀ res : Buf (Elt F) ol)
    (cs : ℕ → Finset (Idx ol))
    (hd : ∀ i ∈ (Finset.univ : Finset (Fin 16)), ∀ j ∈ (Finset.univ : Finset (Fin 16)), i ≠ j → Disjoint (cs i.val) (cs j.val))
    (hc : (Finset.univ : Finset (Fin 16)).biUnion (fun i => cs i.val) = Finset.univ) :
    (iprop((tl ↦{fullShare} tab) ∗ (il ↦{fullShare} idx) ∗ ol ↦{fullShare} o₀) : sProp 𝕄)
      ⊢ |={Set.univ}=> iprop((bigSep Finset.univ fun i : Fin 16 =>
            iprop((tl ↦{Transfers.shareTokN fullShare i.val} tab) ∗ (il ↦{Transfers.shareTokN fullShare i.val} idx) ∗ ol ↦[cs i.val]{fullShare} o₀))
          ∗ ((bigSep Finset.univ fun i : Fin 16 =>
              iprop((tl ↦{Transfers.shareTokN fullShare i.val} tab) ∗ (il ↦{Transfers.shareTokN fullShare i.val} idx) ∗ ol ↦[cs i.val]{fullShare} res))
            -∗ iprop((tl ↦{fullShare} tab) ∗ (il ↦{fullShare} idx) ∗ ol ↦{fullShare} res))) := by
  have ho : ∀ g : Buf (Elt F) ol, (ol ↦{fullShare} g : sProp 𝕄) = bigSep Finset.univ fun i : Fin 16 => ol ↦[cs i.val]{fullShare} g := by
    intro g; rw [← pointsTo_biUnion Finset.univ (ℓ := ol) (fun i : Fin 16 => cs i.val) hd, hc]
  rw [bigSep_sep', bigSep_sep', bigSep_sep', bigSep_sep', ← ho, ← ho]
  iintro ⟨Ht, Hi, Ho⟩
  ihave Ht' := (Transfers.pointsTo_toks_split fullShare 16) $$ Ht
  icases Ht' with ⟨Htd, Htt⟩
  ihave Hi' := (Transfers.pointsTo_toks_split fullShare 16) $$ Hi
  icases Hi' with ⟨Hid, Hit⟩
  imodintro
  isplitl [Htt Hit Ho]
  · isplitl [Htt]; · iexact Htt
    isplitl [Hit]; · iexact Hit
    iexact Ho
  iintro ⟨Htt, Hit, Ho⟩
  isplitl [Htd Htt]
  · iapply (Transfers.pointsTo_toks_join fullShare 16); isplitl [Htd] <;> iassumption
  isplitl [Hid Hit]
  · iapply (Transfers.pointsTo_toks_join fullShare 16); isplitl [Hid] <;> iassumption
  iexact Ho

variable (tabU : (d : Dev nD) → Buf (Elt F) (tULoc d)) (tabI : (d : Dev nD) → Buf (Elt F) (tILoc d))
variable (m : (ℓ : Loc nD τ sig) → Buf (Elt F) ℓ)

theorem vecSplit : (K (F := F)).VecSplit' (P (U := U) tabU tabI m) 0 := by
  intro d c
  match c with
  | ⟨0, _⟩ =>
    show stCore tabU tabI m d 0 ⊢ |={Set.univ}=> iprop((bigSep Finset.univ fun i : Fin 16 => goTile tabU tabI m d 0 i.val)
      ∗ ((bigSep Finset.univ fun i : Fin 16 => tdTile tabU tabI m d 0 i.val) -∗ dnCore tabU tabI m d 0))
    unfold stCore goTile tdTile dnCore
    simp only [↓reduceIte]
    exact split_core (tabU d) (m (iULoc d)) (m (oULoc d)) (resU tabU m d) (fun e => colSet e) colSet_disjoint colSet_cover
  | ⟨1, _⟩ =>
    show stCore tabU tabI m d 1 ⊢ |={Set.univ}=> iprop((bigSep Finset.univ fun i : Fin 16 => goTile tabU tabI m d 1 i.val)
      ∗ ((bigSep Finset.univ fun i : Fin 16 => tdTile tabU tabI m d 1 i.val) -∗ dnCore tabU tabI m d 1))
    unfold stCore goTile tdTile dnCore
    simp only [Nat.one_ne_zero, ↓reduceIte]
    exact split_core (tabI d) (m (iILoc d)) (m (oILoc d)) (resI tabI m d) (fun e => colSet e) colSet_disjoint colSet_cover

/-! ## The launch element: nothing of the kernel's own -/

theorem bigSep_emp' {I : Type} (s : Finset I) : (bigSep s fun _ => iprop(emp)) = (iprop(emp) : sProp 𝕄) := bigSep_emp_const s

theorem Px_emp : (bigSep Finset.univ fun thr : Thread nD τ => bigSep Finset.univ fun q : Fin 1 => (P (F := F) (U := U) tabU tabI m).x q thr) = (iprop(emp) : sProp 𝕄) := by
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]

end Split

end Cert.KernelIdeal.Sc
end
-- ==== Proof.Ghost.lean ====
/-
  The ghost state the whole proof shares: the launch handshakes' rounds, the TensorCore pipeline's staging cells' rounds,
  and a copy of the transfer counters for the SparseCore kernel's local copies (which need no schedule).
-/
import proofs.«205816_g11845519802804_retrytranche1_1814_36_alg».proof.KernelIdeal
import proofs.«205816_g11845519802804_retrytranche1_1814_36_alg».proof.Proof.Gen.KernelIdeal
import Idealize.ShloMosaic.Lib.SparseCore.Launch
import Idealize.ShloMosaic.Lib.Pipeline.Kit
import Idealize.ShloMosaic.Lib.Transfers

noncomputable section

namespace Cert.KernelIdeal.Ghost

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component, and the pipeline's. -/
abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

example : CountersIn UU := inferInstance

/-- The launch element splits: the handshakes' rounds, the pipeline's, and the counters' unit (dropped). -/
theorem ownU_split (a : UH) (p : UP) (cn : Counters) : (ownU (a, (p, cn)) : sProp 𝕄) ⊢ iprop(BI.own (EH a) ∗ BI.own (EP p)) := by
  iintro Hu
  ihave H := (ownU_pair _ _) $$ Hu
  icases H with ⟨HH, HR⟩
  isplitl [HH]; · iexact HH
  ihave H2 := (own_pair_emb (embR : Emb (UP × Counters) (MT nD τ sig (HIx 1) (Elt F) ℕ UU ℕ)) p cn) $$ HR
  icases H2 with ⟨HP, -⟩
  iexact HP

end Cert.KernelIdeal.Ghost

end
-- ==== Proof.MainOps.lean ====
/-
  @main's host operations around the two calls, as operations on a valuation of the TensorCore's twenty-five arrays.

  Before the SparseCore call the two embedding tables are transposed ([13,100000,16] to [13,16,100000]); after it the
  four weight matrices are transposed and the four bias vectors laid out as columns; then the TensorCore call reads the
  two gathered arrays and those eight. Here: the arrays as a set held whole, each operation with the buffers it touches,
  and what the composed valuation holds at each array that matters afterwards.
-/
import proofs.«205816_g11845519802804_retrytranche1_1814_36_alg».proof.KernelIdeal
import proofs.«205816_g11845519802804_retrytranche1_1814_36_alg».proof.Proof.Gen.KernelIdeal
import Idealize.ShloMosaic.Lib.SparseCore.Launch
import Idealize.ShloMosaic.Lib.StableHlo.Run

noncomputable section

namespace Cert.KernelIdeal.Main

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)

variable {F : FTy → Type} [FloatOps F]

/-! ## The arrays -/

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_arg6 : DevRef τ sig := Proc.devRef .tc (main_arg6 : Ref sig .tc)
abbrev r_arg7 : DevRef τ sig := Proc.devRef .tc (main_arg7 : Ref sig .tc)
abbrev r_arg8 : DevRef τ sig := Proc.devRef .tc (main_arg8 : Ref sig .tc)
abbrev r_arg9 : DevRef τ sig := Proc.devRef .tc (main_arg9 : Ref sig .tc)
abbrev r_arg10 : DevRef τ sig := Proc.devRef .tc (main_arg10 : Ref sig .tc)
abbrev r_arg11 : DevRef τ sig := Proc.devRef .tc (main_arg11 : Ref sig .tc)
abbrev r_v0 : DevRef τ sig := Proc.devRef .tc (main_v0 : Ref sig .tc)
abbrev r_v1 : DevRef τ sig := Proc.devRef .tc (main_v1 : Ref sig .tc)
abbrev r_v2_0 : DevRef τ sig := Proc.devRef .tc (main_v2_0 : Ref sig .tc)
abbrev r_v2_1 : DevRef τ sig := Proc.devRef .tc (main_v2_1 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)
abbrev r_v9 : DevRef τ sig := Proc.devRef .tc (main_v9 : Ref sig .tc)
abbrev r_v10 : DevRef τ sig := Proc.devRef .tc (main_v10 : Ref sig .tc)
abbrev r_v11 : DevRef τ sig := Proc.devRef .tc (main_v11 : Ref sig .tc)

/-- The TensorCore's unscoped arrays: the twelve arguments and the thirteen values of @main. -/
abbrev S25 : Finset (DevRef τ sig) := {r_arg0, r_arg1, r_arg2, r_arg3, r_arg4, r_arg5, r_arg6, r_arg7, r_arg8, r_arg9, r_arg10, r_arg11, r_v0, r_v1, r_v2_0, r_v2_1, r_v3, r_v4, r_v5, r_v6, r_v7, r_v8, r_v9, r_v10, r_v11}

/-! ## The operations, as @main spells them -/

/-- A table [13,100000,16] laid out [13,16,100000]; a weight matrix transposed; -/
abbrev trTab : (⟨S13x100000x16, .f32⟩ : BufTy).Contents (Elt F) → (⟨S13x16x100000, .f32⟩ : BufTy).Contents (Elt F) := (transpose S13x16x100000 [0, 2, 1] · transposes_S13x100000x16_S13x16x100000_0_2_1)
abbrev trW1 : (⟨S208x64, .f32⟩ : BufTy).Contents (Elt F) → (⟨S64x208, .f32⟩ : BufTy).Contents (Elt F) := (transpose S64x208 [1, 0] · transposes_S208x64_S64x208_1_0)
abbrev trW2 : (⟨S64x32, .f32⟩ : BufTy).Contents (Elt F) → (⟨S32x64, .f32⟩ : BufTy).Contents (Elt F) := (transpose S32x64 [1, 0] · transposes_S64x32_S32x64_1_0)

abbrev opT0 : HloOp τ sig (Elt F) := StableHlo.unary main_arg2 main_v0 ((transpose S13x16x100000 [0, 2, 1] · transposes_S13x100000x16_S13x16x100000_0_2_1) : (⟨S13x100000x16, .f32⟩ : BufTy).Contents (Elt F) → (⟨S13x16x100000, .f32⟩ : BufTy).Contents (Elt F))
abbrev opT1 : HloOp τ sig (Elt F) := StableHlo.unary main_arg3 main_v1 ((transpose S13x16x100000 [0, 2, 1] · transposes_S13x100000x16_S13x16x100000_0_2_1) : (⟨S13x100000x16, .f32⟩ : BufTy).Contents (Elt F) → (⟨S13x16x100000, .f32⟩ : BufTy).Contents (Elt F))
abbrev op3 : HloOp τ sig (Elt F) := StableHlo.unary main_arg4 main_v3 ((transpose S64x208 [1, 0] · transposes_S208x64_S64x208_1_0) : (⟨S208x64, .f32⟩ : BufTy).Contents (Elt F) → (⟨S64x208, .f32⟩ : BufTy).Contents (Elt F))
abbrev op4 : HloOp τ sig (Elt F) := StableHlo.reshape main_arg5 main_v4 rfl shapeCasts_S64_S64x1
abbrev op5 : HloOp τ sig (Elt F) := StableHlo.unary main_arg6 main_v5 ((transpose S32x64 [1, 0] · transposes_S64x32_S32x64_1_0) : (⟨S64x32, .f32⟩ : BufTy).Contents (Elt F) → (⟨S32x64, .f32⟩ : BufTy).Contents (Elt F))
abbrev op6 : HloOp τ sig (Elt F) := StableHlo.reshape main_arg7 main_v6 rfl shapeCasts_S32_S32x1
abbrev op7 : HloOp τ sig (Elt F) := StableHlo.unary main_arg8 main_v7 ((transpose S64x208 [1, 0] · transposes_S208x64_S64x208_1_0) : (⟨S208x64, .f32⟩ : BufTy).Contents (Elt F) → (⟨S64x208, .f32⟩ : BufTy).Contents (Elt F))
abbrev op8 : HloOp τ sig (Elt F) := StableHlo.reshape main_arg9 main_v8 rfl shapeCasts_S64_S64x1
abbrev op9 : HloOp τ sig (Elt F) := StableHlo.unary main_arg10 main_v9 ((transpose S32x64 [1, 0] · transposes_S64x32_S32x64_1_0) : (⟨S64x32, .f32⟩ : BufTy).Contents (Elt F) → (⟨S32x64, .f32⟩ : BufTy).Contents (Elt F))
abbrev op10 : HloOp τ sig (Elt F) := StableHlo.reshape main_arg11 main_v10 rfl shapeCasts_S32_S32x1

theorem hT0 : (opT0 (F := F)).bufs ⊆ S25 := show ({r_arg2, r_v0} : Finset (DevRef τ sig)) ⊆ S25 by decide
theorem hT1 : (opT1 (F := F)).bufs ⊆ S25 := show ({r_arg3, r_v1} : Finset (DevRef τ sig)) ⊆ S25 by decide
theorem h3 : (op3 (F := F)).bufs ⊆ S25 := show ({r_arg4, r_v3} : Finset (DevRef τ sig)) ⊆ S25 by decide
theorem h4 : (op4 (F := F)).bufs ⊆ S25 := show ({r_arg5, r_v4} : Finset (DevRef τ sig)) ⊆ S25 by decide
theorem h5 : (op5 (F := F)).bufs ⊆ S25 := show ({r_arg6, r_v5} : Finset (DevRef τ sig)) ⊆ S25 by decide
theorem h6 : (op6 (F := F)).bufs ⊆ S25 := show ({r_arg7, r_v6} : Finset (DevRef τ sig)) ⊆ S25 by decide
theorem h7 : (op7 (F := F)).bufs ⊆ S25 := show ({r_arg8, r_v7} : Finset (DevRef τ sig)) ⊆ S25 by decide
theorem h8 : (op8 (F := F)).bufs ⊆ S25 := show ({r_arg9, r_v8} : Finset (DevRef τ sig)) ⊆ S25 by decide
theorem h9 : (op9 (F := F)).bufs ⊆ S25 := show ({r_arg10, r_v9} : Finset (DevRef τ sig)) ⊆ S25 by decide
theorem h10 : (op10 (F := F)).bufs ⊆ S25 := show ({r_arg11, r_v10} : Finset (DevRef τ sig)) ⊆ S25 by decide

/-! ## The unscoped arrays are those twenty-five -/

section Held

variable {Ix : Type} [DecidableEq Ix] {Name : Type} [DecidableEq Name] {U : Type} [URA U] {Lvl : Type} [Preorder Lvl]

local notation "𝕄" => MT nD τ sig Ix (Elt F) Name U Lvl

theorem unscoped_eq : (Finset.univ.filter fun b : Ref sig .tc => ¬ b.isScoped) = {main_arg0, main_arg1, main_arg2, main_arg3, main_arg4, main_arg5, main_arg6, main_arg7, main_arg8, main_arg9, main_arg10, main_arg11, main_v0, main_v1, main_v2_0, main_v2_1, main_v3, main_v4, main_v5, main_v6, main_v7, main_v8, main_v9, main_v10, main_v11} := by decide

omit [FloatOps F] in
theorem unscoped_held (d : Dev nD) (W : Valuation τ sig (Elt F)) :
    (unscopedBufs d (fun b => W (Proc.devRef .tc b)) : sProp 𝕄) = held (T d) S25 W := by
  unfold unscopedBufs held S25
  rw [unscoped_eq, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- A subset of the arrays taken out of the held set, to be put back at any valuation that agrees off it. -/
theorem held_take {T' : Finset (DevRef τ sig)} (c : Thread nD τ) (hT : T' ⊆ S25) (W : Valuation τ sig (Elt F)) :
    (held c S25 W : sProp 𝕄) ⊢ iprop(held c T' W ∗ ∀ W' : Valuation τ sig (Elt F), ⌜∀ b, b ∉ T' → W' b = W b⌝ -∗ held c T' W' -∗ held c S25 W') := by
  rw [StableHlo.held_sub_split c hT W]
  iintro ⟨HT, Hrest⟩
  isplitl [HT]; · iexact HT
  iintro %W' %h HT'
  rw [StableHlo.held_sub_split c hT W', StableHlo.held_congr c (S := S25 \ T') (V := W') (V' := W) (fun b hb => h b (Finset.mem_sdiff.mp hb).2)]
  isplitl [HT']; · iexact HT'
  iexact Hrest

end Held

/-! ## The valuations @main passes through -/

/-- The launch valuation. -/
def V0 (m : (ℓ : Loc nD τ sig) → Buf (Elt F) ℓ) (d : Dev nD) : Valuation τ sig (Elt F) := fun b => m (d, b)
/-- Before the SparseCore call: the two tables transposed. -/
def V2 (m : (ℓ : Loc nD τ sig) → Buf (Elt F) ℓ) (d : Dev nD) : Valuation τ sig (Elt F) := (opT1 (F := F)).result ((opT0 (F := F)).result (V0 m d))
/-- After it: the two gathered arrays at `G0`, `G1`. -/
def V3 (m : (ℓ : Loc nD τ sig) → Buf (Elt F) ℓ) (d : Dev nD) (G0 : r_v2_0.ty.Contents (Elt F)) (G1 : r_v2_1.ty.Contents (Elt F)) : Valuation τ sig (Elt F) :=
  Function.update (Function.update (V2 m d) r_v2_0 G0) r_v2_1 G1
/-- Before the TensorCore call: the weights transposed, the biases as columns. -/
def V11 (m : (ℓ : Loc nD τ sig) → Buf (Elt F) ℓ) (d : Dev nD) (G0 : r_v2_0.ty.Contents (Elt F)) (G1 : r_v2_1.ty.Contents (Elt F)) : Valuation τ sig (Elt F) :=
  (op10 (F := F)).result ((op9 (F := F)).result ((op8 (F := F)).result ((op7 (F := F)).result ((op6 (F := F)).result ((op5 (F := F)).result
    ((op4 (F := F)).result ((op3 (F := F)).result (V3 m d G0 G1))))))))

section Vals

variable (m : (ℓ : Loc nD τ sig) → Buf (Elt F) ℓ) (d : Dev nD) (G0 : r_v2_0.ty.Contents (Elt F)) (G1 : r_v2_1.ty.Contents (Elt F))

theorem V2_v0 : V2 m d r_v0 = trTab (m ((SparseCore.T d).loc main_arg2)) := by
  unfold V2
  rw [StableHlo.unary_result_ne _ _ _ _ _ _ (show (main_v0 : Ref sig .tc) ≠ main_v1 by decide), StableHlo.unary_result]
  rfl
theorem V2_v1 : V2 m d r_v1 = trTab (m ((SparseCore.T d).loc main_arg3)) := by
  unfold V2
  rw [StableHlo.unary_result, StableHlo.unary_result_ne _ _ _ _ _ _ (show (main_arg3 : Ref sig .tc) ≠ main_v0 by decide)]
  rfl
theorem V2_of_ne (r : Ref sig .tc) (h0 : r ≠ main_v0) (h1 : r ≠ main_v1) : V2 m d (Proc.devRef .tc r) = m ((SparseCore.T d).loc r) := by
  unfold V2
  rw [StableHlo.unary_result_ne _ _ _ _ _ _ h1, StableHlo.unary_result_ne _ _ _ _ _ _ h0]
  rfl

theorem V3_v2_0 : V3 m d G0 G1 r_v2_0 = G0 := by
  unfold V3; rw [Function.update_of_ne (show r_v2_0 ≠ r_v2_1 by decide), Function.update_self]
theorem V3_v2_1 : V3 m d G0 G1 r_v2_1 = G1 := Function.update_self _ _ _
theorem V3_of_ne (b : DevRef τ sig) (h0 : b ≠ r_v2_0) (h1 : b ≠ r_v2_1) : V3 m d G0 G1 b = V2 m d b := by
  unfold V3; rw [Function.update_of_ne h1, Function.update_of_ne h0]

/-- An array none of the eight later operations writes holds after them what it held after the SparseCore call. -/
theorem V11_of_ne (r : Ref sig .tc) (h_v3 : r ≠ main_v3) (h_v4 : r ≠ main_v4) (h_v5 : r ≠ main_v5) (h_v6 : r ≠ main_v6) (h_v7 : r ≠ main_v7) (h_v8 : r ≠ main_v8) (h_v9 : r ≠ main_v9) (h_v10 : r ≠ main_v10) :
    V11 m d G0 G1 (Proc.devRef .tc r) = V3 m d G0 G1 (Proc.devRef .tc r) := by
  unfold V11
  rw [StableHlo.reshape_result_ne _ _ _ _ _ _ _ h_v10, StableHlo.unary_result_ne _ _ _ _ _ _ h_v9, StableHlo.reshape_result_ne _ _ _ _ _ _ _ h_v8, StableHlo.unary_result_ne _ _ _ _ _ _ h_v7, StableHlo.reshape_result_ne _ _ _ _ _ _ _ h_v6, StableHlo.unary_result_ne _ _ _ _ _ _ h_v5, StableHlo.reshape_result_ne _ _ _ _ _ _ _ h_v4, StableHlo.unary_result_ne _ _ _ _ _ _ h_v3]
theorem V11_v3 : V11 m d G0 G1 r_v3 = trW1 (m ((SparseCore.T d).loc main_arg4)) := by
  unfold V11
  rw [StableHlo.reshape_result_ne _ _ _ _ _ _ _ (show (main_v3 : Ref sig .tc) ≠ main_v10 by decide),
    StableHlo.unary_result_ne _ _ _ _ _ _ (show (main_v3 : Ref sig .tc) ≠ main_v9 by decide),
    StableHlo.reshape_result_ne _ _ _ _ _ _ _ (show (main_v3 : Ref sig .tc) ≠ main_v8 by decide),
    StableHlo.unary_result_ne _ _ _ _ _ _ (show (main_v3 : Ref sig .tc) ≠ main_v7 by decide),
    StableHlo.reshape_result_ne _ _ _ _ _ _ _ (show (main_v3 : Ref sig .tc) ≠ main_v6 by decide),
    StableHlo.unary_result_ne _ _ _ _ _ _ (show (main_v3 : Ref sig .tc) ≠ main_v5 by decide),
    StableHlo.reshape_result_ne _ _ _ _ _ _ _ (show (main_v3 : Ref sig .tc) ≠ main_v4 by decide),
    StableHlo.unary_result]
  show _ = _
  rw [V3_of_ne m d G0 G1 r_arg4 (by decide) (by decide), V2_of_ne m d main_arg4 (by decide) (by decide)]
theorem V11_v4 : V11 m d G0 G1 r_v4 = (shapeCast S64x1 (m ((SparseCore.T d).loc main_arg5)) shapeCasts_S64_S64x1) := by
  unfold V11
  rw [StableHlo.reshape_result_ne _ _ _ _ _ _ _ (show (main_v4 : Ref sig .tc) ≠ main_v10 by decide),
    StableHlo.unary_result_ne _ _ _ _ _ _ (show (main_v4 : Ref sig .tc) ≠ main_v9 by decide),
    StableHlo.reshape_result_ne _ _ _ _ _ _ _ (show (main_v4 : Ref sig .tc) ≠ main_v8 by decide),
    StableHlo.unary_result_ne _ _ _ _ _ _ (show (main_v4 : Ref sig .tc) ≠ main_v7 by decide),
    StableHlo.reshape_result_ne _ _ _ _ _ _ _ (show (main_v4 : Ref sig .tc) ≠ main_v6 by decide),
    StableHlo.unary_result_ne _ _ _ _ _ _ (show (main_v4 : Ref sig .tc) ≠ main_v5 by decide),
    StableHlo.reshape_result,
    StableHlo.unary_result_ne _ _ _ _ _ _ (show (main_arg5 : Ref sig .tc) ≠ main_v3 by decide)]
  show (fun i => _) = _
  rw [V3_of_ne m d G0 G1 r_arg5 (by decide) (by decide), V2_of_ne m d main_arg5 (by decide) (by decide)]
  rfl
theorem V11_v5 : V11 m d G0 G1 r_v5 = trW2 (m ((SparseCore.T d).loc main_arg6)) := by
  unfold V11
  rw [StableHlo.reshape_result_ne _ _ _ _ _ _ _ (show (main_v5 : Ref sig .tc) ≠ main_v10 by decide),
    StableHlo.unary_result_ne _ _ _ _ _ _ (show (main_v5 : Ref sig .tc) ≠ main_v9 by decide),
    StableHlo.reshape_result_ne _ _ _ _ _ _ _ (show (main_v5 : Ref sig .tc) ≠ main_v8 by decide),
    StableHlo.unary_result_ne _ _ _ _ _ _ (show (main_v5 : Ref sig .tc) ≠ main_v7 by decide),
    StableHlo.reshape_result_ne _ _ _ _ _ _ _ (show (main_v5 : Ref sig .tc) ≠ main_v6 by decide),
    StableHlo.unary_result,
    StableHlo.reshape_result_ne _ _ _ _ _ _ _ (show (main_arg6 : Ref sig .tc) ≠ main_v4 by decide),
    StableHlo.unary_result_ne _ _ _ _ _ _ (show (main_arg6 : Ref sig .tc) ≠ main_v3 by decide)]
  show _ = _
  rw [V3_of_ne m d G0 G1 r_arg6 (by decide) (by decide), V2_of_ne m d main_arg6 (by decide) (by decide)]
theorem V11_v6 : V11 m d G0 G1 r_v6 = (shapeCast S32x1 (m ((SparseCore.T d).loc main_arg7)) shapeCasts_S32_S32x1) := by
  unfold V11
  rw [StableHlo.reshape_result_ne _ _ _ _ _ _ _ (show (main_v6 : Ref sig .tc) ≠ main_v10 by decide),
    StableHlo.unary_result_ne _ _ _ _ _ _ (show (main_v6 : Ref sig .tc) ≠ main_v9 by decide),
    StableHlo.reshape_result_ne _ _ _ _ _ _ _ (show (main_v6 : Ref sig .tc) ≠ main_v8 by decide),
    StableHlo.unary_result_ne _ _ _ _ _ _ (show (main_v6 : Ref sig .tc) ≠ main_v7 by decide),
    StableHlo.reshape_result,
    StableHlo.unary_result_ne _ _ _ _ _ _ (show (main_arg7 : Ref sig .tc) ≠ main_v5 by decide),
    StableHlo.reshape_result_ne _ _ _ _ _ _ _ (show (main_arg7 : Ref sig .tc) ≠ main_v4 by decide),
    StableHlo.unary_result_ne _ _ _ _ _ _ (show (main_arg7 : Ref sig .tc) ≠ main_v3 by decide)]
  show (fun i => _) = _
  rw [V3_of_ne m d G0 G1 r_arg7 (by decide) (by decide), V2_of_ne m d main_arg7 (by decide) (by decide)]
  rfl
theorem V11_v7 : V11 m d G0 G1 r_v7 = trW1 (m ((SparseCore.T d).loc main_arg8)) := by
  unfold V11
  rw [StableHlo.reshape_result_ne _ _ _ _ _ _ _ (show (main_v7 : Ref sig .tc) ≠ main_v10 by decide),
    StableHlo.unary_result_ne _ _ _ _ _ _ (show (main_v7 : Ref sig .tc) ≠ main_v9 by decide),
    StableHlo.reshape_result_ne _ _ _ _ _ _ _ (show (main_v7 : Ref sig .tc) ≠ main_v8 by decide),
    StableHlo.unary_result,
    StableHlo.reshape_result_ne _ _ _ _ _ _ _ (show (main_arg8 : Ref sig .tc) ≠ main_v6 by decide),
    StableHlo.unary_result_ne _ _ _ _ _ _ (show (main_arg8 : Ref sig .tc) ≠ main_v5 by decide),
    StableHlo.reshape_result_ne _ _ _ _ _ _ _ (show (main_arg8 : Ref sig .tc) ≠ main_v4 by decide),
    StableHlo.unary_result_ne _ _ _ _ _ _ (show (main_arg8 : Ref sig .tc) ≠ main_v3 by decide)]
  show _ = _
  rw [V3_of_ne m d G0 G1 r_arg8 (by decide) (by decide), V2_of_ne m d main_arg8 (by decide) (by decide)]
theorem V11_v8 : V11 m d G0 G1 r_v8 = (shapeCast S64x1 (m ((SparseCore.T d).loc main_arg9)) shapeCasts_S64_S64x1) := by
  unfold V11
  rw [StableHlo.reshape_result_ne _ _ _ _ _ _ _ (show (main_v8 : Ref sig .tc) ≠ main_v10 by decide),
    StableHlo.unary_result_ne _ _ _ _ _ _ (show (main_v8 : Ref sig .tc) ≠ main_v9 by decide),
    StableHlo.reshape_result,
    StableHlo.unary_result_ne _ _ _ _ _ _ (show (main_arg9 : Ref sig .tc) ≠ main_v7 by decide),
    StableHlo.reshape_result_ne _ _ _ _ _ _ _ (show (main_arg9 : Ref sig .tc) ≠ main_v6 by decide),
    StableHlo.unary_result_ne _ _ _ _ _ _ (show (main_arg9 : Ref sig .tc) ≠ main_v5 by decide),
    StableHlo.reshape_result_ne _ _ _ _ _ _ _ (show (main_arg9 : Ref sig .tc) ≠ main_v4 by decide),
    StableHlo.unary_result_ne _ _ _ _ _ _ (show (main_arg9 : Ref sig .tc) ≠ main_v3 by decide)]
  show (fun i => _) = _
  rw [V3_of_ne m d G0 G1 r_arg9 (by decide) (by decide), V2_of_ne m d main_arg9 (by decide) (by decide)]
  rfl
theorem V11_v9 : V11 m d G0 G1 r_v9 = trW2 (m ((SparseCore.T d).loc main_arg10)) := by
  unfold V11
  rw [StableHlo.reshape_result_ne _ _ _ _ _ _ _ (show (main_v9 : Ref sig .tc) ≠ main_v10 by decide),
    StableHlo.unary_result,
    StableHlo.reshape_result_ne _ _ _ _ _ _ _ (show (main_arg10 : Ref sig .tc) ≠ main_v8 by decide),
    StableHlo.unary_result_ne _ _ _ _ _ _ (show (main_arg10 : Ref sig .tc) ≠ main_v7 by decide),
    StableHlo.reshape_result_ne _ _ _ _ _ _ _ (show (main_arg10 : Ref sig .tc) ≠ main_v6 by decide),
    StableHlo.unary_result_ne _ _ _ _ _ _ (show (main_arg10 : Ref sig .tc) ≠ main_v5 by decide),
    StableHlo.reshape_result_ne _ _ _ _ _ _ _ (show (main_arg10 : Ref sig .tc) ≠ main_v4 by decide),
    StableHlo.unary_result_ne _ _ _ _ _ _ (show (main_arg10 : Ref sig .tc) ≠ main_v3 by decide)]
  show _ = _
  rw [V3_of_ne m d G0 G1 r_arg10 (by decide) (by decide), V2_of_ne m d main_arg10 (by decide) (by decide)]
theorem V11_v10 : V11 m d G0 G1 r_v10 = (shapeCast S32x1 (m ((SparseCore.T d).loc main_arg11)) shapeCasts_S32_S32x1) := by
  unfold V11
  rw [StableHlo.reshape_result,
    StableHlo.unary_result_ne _ _ _ _ _ _ (show (main_arg11 : Ref sig .tc) ≠ main_v9 by decide),
    StableHlo.reshape_result_ne _ _ _ _ _ _ _ (show (main_arg11 : Ref sig .tc) ≠ main_v8 by decide),
    StableHlo.unary_result_ne _ _ _ _ _ _ (show (main_arg11 : Ref sig .tc) ≠ main_v7 by decide),
    StableHlo.reshape_result_ne _ _ _ _ _ _ _ (show (main_arg11 : Ref sig .tc) ≠ main_v6 by decide),
    StableHlo.unary_result_ne _ _ _ _ _ _ (show (main_arg11 : Ref sig .tc) ≠ main_v5 by decide),
    StableHlo.reshape_result_ne _ _ _ _ _ _ _ (show (main_arg11 : Ref sig .tc) ≠ main_v4 by decide),
    StableHlo.unary_result_ne _ _ _ _ _ _ (show (main_arg11 : Ref sig .tc) ≠ main_v3 by decide)]
  show (fun i => _) = _
  rw [V3_of_ne m d G0 G1 r_arg11 (by decide) (by decide), V2_of_ne m d main_arg11 (by decide) (by decide)]
  rfl

/-- The twelve arguments are written by nothing. -/
theorem V11_arg (r : Ref sig .tc) (hr : r ∈ ({main_arg0, main_arg1, main_arg2, main_arg3, main_arg4, main_arg5, main_arg6, main_arg7, main_arg8, main_arg9, main_arg10, main_arg11} : Finset (Ref sig .tc))) :
    V11 m d G0 G1 (Proc.devRef .tc r) = m ((SparseCore.T d).loc r) := by
  have hne : ∀ y ∈ ({main_v0, main_v1, main_v2_0, main_v2_1, main_v3, main_v4, main_v5, main_v6, main_v7, main_v8, main_v9, main_v10} : Finset (Ref sig .tc)), r ≠ y := by
    revert r; decide
  rw [V11_of_ne m d G0 G1 r (hne _ (by decide)) (hne _ (by decide)) (hne _ (by decide)) (hne _ (by decide)) (hne _ (by decide)) (hne _ (by decide)) (hne _ (by decide)) (hne _ (by decide)),
    V3_of_ne m d G0 G1 _ (StableHlo.devRef_ne_of_ne (hne main_v2_0 (by decide))) (StableHlo.devRef_ne_of_ne (hne main_v2_1 (by decide))),
    V2_of_ne m d r (hne _ (by decide)) (hne _ (by decide))]
theorem V11_v2_0 : V11 m d G0 G1 r_v2_0 = G0 :=
  (V11_of_ne m d G0 G1 main_v2_0 (by decide) (by decide) (by decide) (by decide) (by decide) (by decide) (by decide) (by decide)).trans (V3_v2_0 m d G0 G1)
theorem V11_v2_1 : V11 m d G0 G1 r_v2_1 = G1 :=
  (V11_of_ne m d G0 G1 main_v2_1 (by decide) (by decide) (by decide) (by decide) (by decide) (by decide) (by decide) (by decide)).trans (V3_v2_1 m d G0 G1)
theorem V11_v11 : V11 m d G0 G1 r_v11 = m ((SparseCore.T d).loc main_v11) :=
  (V11_of_ne m d G0 G1 main_v11 (by decide) (by decide) (by decide) (by decide) (by decide) (by decide) (by decide) (by decide)).trans
    ((V3_of_ne m d G0 G1 r_v11 (by decide) (by decide)).trans (V2_of_ne m d main_v11 (by decide) (by decide)))

end Vals

end Cert.KernelIdeal.Main

end
-- ==== Proof.TcValue.lean ====
/-
  The value of the inner TensorCore region of `Cert.KernelIdeal` (custom call 1), as ONE pure function of its ten
  operand arrays, generic in the float instance: the grid's sixteen points folded in order over the three-word
  scratch, each step the body's own pure operations (the generated payloads `Gen.k1_pay1` … `Gen.k1_pay8`).

    blk A n      — block `n` of a [13,16,16384] array along its last axis: `A (j₀, j₁, 1024 (n mod 16) + j₂)`;
    accStep      — the scratch after one point, from the scratch before it and the point's two blocks:
                     word 0 += Σ u·v, word 1 += Σ u·u, word 2 += Σ v·v, with u, v the two towers of the blocks;
    accAt n      — the scratch after point `n`, started from zero at point 0;
    tcScore      — the [1,1] result: 1 / (1 + exp (0 − s₀ / sqrt (s₁ · s₂))) of the scratch after point 15.
-/
import proofs.«205816_g11845519802804_retrytranche1_1814_36_alg».proof.Proof.Gen.KernelIdeal.Skeleton
import Idealize.ShloMosaic.Lib.ValueIdx

noncomputable section

namespace Cert.KernelIdeal.Tc

open Cert.KernelIdeal Cert.KernelIdeal.Gen
open Idealize.ShloMosaic Idealize.ShloMosaic.ValueIdx Idealize.SL.Sem

variable {F : FTy → Type} [FloatOps F]

/-- Block `n` (taken mod 16) of a [13,16,16384] array along its last axis. -/
def blk (A : Vec F S13x16x16384 .f32) (n : ℕ) : Vec F S13x16x1024 .f32 :=
  fun j => A (ix3 (j 0) (j 1) ⟨1024 * (n % 16) + (j 2).val, by
    have h2 : (j 2).val < 1024 := (j 2).isLt
    have hn : n % 16 < 16 := Nat.mod_lt _ (by decide)
    show _ < 16384
    omega⟩)

/-- The three scratch words at zero. -/
def zero3 : Vec F S3 .f32 := fun _ => (Scalar.ofBits .f32 0x00000000#32 : F .f32)

/-- The user tower of a block: max (W2ᵀ · max (W1ᵀ · reshape e + b1, 0) + b2, 0), as the body computes it. -/
abbrev towerU (e : Vec F S13x16x1024 .f32) (W1 : Vec F S64x208 .f32) (b1 : Vec F S64x1 .f32) (W2 : Vec F S32x64 .f32)
    (b2 : Vec F S32x1 .f32) : FVec F S32x1024 .f32 :=
  k1_pay2 e W1 b1 W2 b2

/-- The item tower of a block, as the body computes it (the same operations, split over two payloads). -/
abbrev towerV (e : Vec F S13x16x1024 .f32) (W1 : Vec F S64x208 .f32) (b1 : Vec F S64x1 .f32) (W2 : Vec F S32x64 .f32)
    (b2 : Vec F S32x1 .f32) : FVec F S32x1024 .f32 :=
  k1_pay5 (k1_pay3 e W1) (k1_pay4 b1) W2 b2

/-- The two towers are one function. -/
theorem towerV_eq (e : Vec F S13x16x1024 .f32) (W1 : Vec F S64x208 .f32) (b1 : Vec F S64x1 .f32) (W2 : Vec F S32x64 .f32)
    (b2 : Vec F S32x1 .f32) : towerV e W1 b1 W2 b2 = towerU e W1 b1 W2 b2 := rfl

/-- The scratch after one grid point, from the scratch `acc` before it, the point's user block `e1` and item block
    `e2`, and the eight weight arrays: the body's three read-modify-write updates. -/
def accStep (acc : Vec F S3 .f32) (e1 e2 : Vec F S13x16x1024 .f32)
    (W1u : Vec F S64x208 .f32) (b1u : Vec F S64x1 .f32) (W2u : Vec F S32x64 .f32) (b2u : Vec F S32x1 .f32)
    (W1v : Vec F S64x208 .f32) (b1v : Vec F S64x1 .f32) (W2v : Vec F S32x64 .f32) (b2v : Vec F S32x1 .f32) : Vec F S3 .f32 :=
  fun j =>
    if (j 0).val = 0 then
      (k1_pay6 (k1_pay2 e1 W1u b1u W2u b2u) (k1_pay3 e2 W1v) (k1_pay4 b1v) W2v b2v (acc (ix1 (0 : Fin 3))) : F .f32)
    else if (j 0).val = 1 then
      (k1_pay7 (k1_pay2 e1 W1u b1u W2u b2u) (acc (ix1 (1 : Fin 3))) : F .f32)
    else
      (k1_pay8 (k1_pay3 e2 W1v) (k1_pay4 b1v) W2v b2v (acc (ix1 (2 : Fin 3))) : F .f32)

section Fold

variable (A0 A1 : Vec F S13x16x16384 .f32)
  (W1u : Vec F S64x208 .f32) (b1u : Vec F S64x1 .f32) (W2u : Vec F S32x64 .f32) (b2u : Vec F S32x1 .f32)
  (W1v : Vec F S64x208 .f32) (b1v : Vec F S64x1 .f32) (W2v : Vec F S32x64 .f32) (b2v : Vec F S32x1 .f32)

/-- The scratch after point `n`: zeroed at point 0, then one step per point, in order. -/
def accAt : ℕ → Vec F S3 .f32
  | 0 => accStep zero3 (blk A0 0) (blk A1 0) W1u b1u W2u b2u W1v b1v W2v b2v
  | n + 1 => accStep (accAt n) (blk A0 (n + 1)) (blk A1 (n + 1)) W1u b1u W2u b2u W1v b1v W2v b2v

/-- The word the last point stores in the [1,1] result, from a scratch. -/
def scoreOf (acc : Vec F S3 .f32) : Vec F S1x1 .f32 :=
  fun _ => (k1_pay1 (acc (ix1 (0 : Fin 3))) (acc (ix1 (1 : Fin 3))) (acc (ix1 (2 : Fin 3))) : F .f32)

/-- THE REGION'S VALUE: what the [1,1] result array holds after the sixteen points, as a function of the ten operand
    arrays (in the custom call's operand order). -/
def tcScore : Vec F S1x1 .f32 :=
  scoreOf (accAt A0 A1 W1u b1u W2u b2u W1v b1v W2v b2v 15)

end Fold

end Cert.KernelIdeal.Tc

end
-- ==== Proof.Main.lean ====
/-
  @main on the TensorCore, the launch element, and the program's run.

  @main transposes the two tables, starts the SparseCore call and waits for it (the two gathered arrays come back named),
  lays out the eight weight arrays, and runs the TensorCore call on the two gathered arrays and those eight; the twelve
  arguments are never written. The run's post names the result array as the TensorCore call's score of the gathered
  arrays, so that each frame is this run with the value dropped.
-/
import proofs.«205816_g11845519802804_retrytranche1_1814_36_alg».proof.Proof.ScSetup
import proofs.«205816_g11845519802804_retrytranche1_1814_36_alg».proof.Proof.Ghost
import proofs.«205816_g11845519802804_retrytranche1_1814_36_alg».proof.Proof.MainOps
import proofs.«205816_g11845519802804_retrytranche1_1814_36_alg».proof.Proof.TcValue

noncomputable section

namespace Cert.KernelIdeal.Main

open Cert.KernelIdeal Cert.KernelIdeal.Gen
open Cert.KernelIdeal.Sc (K D 𝒱 𝒱₀ v₀ facts)
open Cert.KernelIdeal.Ghost
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## Subsets of the arrays taken out of the held set -/

abbrev T6 : Finset (DevRef τ sig) := {r_v0, r_arg0, r_v2_0, r_v1, r_arg1, r_v2_1}
theorem T6_sub : T6 ⊆ S25 := by decide
omit [FloatOps F] in
theorem held_T6 (c : Thread nD τ) (W : Valuation τ sig (Elt F)) :
    (held c T6 W : sProp 𝕄) = iprop(((c.1, r_v0) ↦{fullShare} W r_v0) ∗ ((c.1, r_arg0) ↦{fullShare} W r_arg0) ∗ ((c.1, r_v2_0) ↦{fullShare} W r_v2_0) ∗ ((c.1, r_v1) ↦{fullShare} W r_v1) ∗ ((c.1, r_arg1) ↦{fullShare} W r_arg1) ∗ ((c.1, r_v2_1) ↦{fullShare} W r_v2_1)) := by
  unfold held T6
  rw [SparseCore.bigSep_insert' (by decide), SparseCore.bigSep_insert' (by decide), SparseCore.bigSep_insert' (by decide), SparseCore.bigSep_insert' (by decide), SparseCore.bigSep_insert' (by decide), bigSep_singleton]

abbrev T11 : Finset (DevRef τ sig) := {r_v2_0, r_v2_1, r_v3, r_v4, r_v5, r_v6, r_v7, r_v8, r_v9, r_v10, r_v11}
theorem T11_sub : T11 ⊆ S25 := by decide
omit [FloatOps F] in
theorem held_T11 (c : Thread nD τ) (W : Valuation τ sig (Elt F)) :
    (held c T11 W : sProp 𝕄) = iprop(((c.1, r_v2_0) ↦{fullShare} W r_v2_0) ∗ ((c.1, r_v2_1) ↦{fullShare} W r_v2_1) ∗ ((c.1, r_v3) ↦{fullShare} W r_v3) ∗ ((c.1, r_v4) ↦{fullShare} W r_v4) ∗ ((c.1, r_v5) ↦{fullShare} W r_v5) ∗ ((c.1, r_v6) ↦{fullShare} W r_v6) ∗ ((c.1, r_v7) ↦{fullShare} W r_v7) ∗ ((c.1, r_v8) ↦{fullShare} W r_v8) ∗ ((c.1, r_v9) ↦{fullShare} W r_v9) ∗ ((c.1, r_v10) ↦{fullShare} W r_v10) ∗ ((c.1, r_v11) ↦{fullShare} W r_v11)) := by
  unfold held T11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

abbrev T13 : Finset (DevRef τ sig) := {r_arg0, r_arg1, r_arg2, r_arg3, r_arg4, r_arg5, r_arg6, r_arg7, r_arg8, r_arg9, r_arg10, r_arg11, r_v11}
theorem T13_sub : T13 ⊆ S25 := by decide
omit [FloatOps F] in
theorem held_T13 (c : Thread nD τ) (W : Valuation τ sig (Elt F)) :
    (held c T13 W : sProp 𝕄) = iprop(((c.1, r_arg0) ↦{fullShare} W r_arg0) ∗ ((c.1, r_arg1) ↦{fullShare} W r_arg1) ∗ ((c.1, r_arg2) ↦{fullShare} W r_arg2) ∗ ((c.1, r_arg3) ↦{fullShare} W r_arg3) ∗ ((c.1, r_arg4) ↦{fullShare} W r_arg4) ∗ ((c.1, r_arg5) ↦{fullShare} W r_arg5) ∗ ((c.1, r_arg6) ↦{fullShare} W r_arg6) ∗ ((c.1, r_arg7) ↦{fullShare} W r_arg7) ∗ ((c.1, r_arg8) ↦{fullShare} W r_arg8) ∗ ((c.1, r_arg9) ↦{fullShare} W r_arg9) ∗ ((c.1, r_arg10) ↦{fullShare} W r_arg10) ∗ ((c.1, r_arg11) ↦{fullShare} W r_arg11) ∗ ((c.1, r_v11) ↦{fullShare} W r_v11)) := by
  unfold held T13
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The values -/

section Values

variable (m : (ℓ : Loc nD τ sig) → Buf (Elt F) ℓ)

/-- The transposed tables, as the SparseCore call finds them. -/
def tabU (d : Dev nD) : Buf (Elt F) (Sc.tULoc d) := trTab (m ((SparseCore.T d).loc main_arg2))
def tabI (d : Dev nD) : Buf (Elt F) (Sc.tILoc d) := trTab (m ((SparseCore.T d).loc main_arg3))
/-- The call's payloads at this program's tables. -/
abbrev PP : (K (F := F)).Pay (nD := nD) (Val := Elt F) (Name := ℕ) (U := UU) := Sc.P (U := UU) (tabU m) (tabI m) m
/-- The gathered arrays. -/
def G0 (d : Dev nD) : r_v2_0.ty.Contents (Elt F) := Sc.resU (tabU m) m d
def G1 (d : Dev nD) : r_v2_1.ty.Contents (Elt F) := Sc.resI (tabI m) m d
/-- THE RESULT: the TensorCore call's score of the gathered arrays and the laid-out weights. -/
def kVal (d : Dev nD) : r_v11.ty.Contents (Elt F) :=
  Tc.tcScore (G0 m d) (G1 m d) (trW1 (m ((SparseCore.T d).loc main_arg4))) (shapeCast S64x1 (m ((SparseCore.T d).loc main_arg5)) shapeCasts_S64_S64x1)
    (trW2 (m ((SparseCore.T d).loc main_arg6))) (shapeCast S32x1 (m ((SparseCore.T d).loc main_arg7)) shapeCasts_S32_S32x1)
    (trW1 (m ((SparseCore.T d).loc main_arg8))) (shapeCast S64x1 (m ((SparseCore.T d).loc main_arg9)) shapeCasts_S64_S64x1)
    (trW2 (m ((SparseCore.T d).loc main_arg10))) (shapeCast S32x1 (m ((SparseCore.T d).loc main_arg11)) shapeCasts_S32_S32x1)

/-- After the TensorCore call. -/
def V12 (d : Dev nD) : Valuation τ sig (Elt F) := Function.update (V11 m d (G0 m d) (G1 m d)) r_v11 (kVal m d)

theorem V12_v11 (d : Dev nD) : V12 m d r_v11 = kVal m d := Function.update_self _ _ _
theorem V12_arg (d : Dev nD) (r : Ref sig .tc) (hr : r ∈ ({main_arg0, main_arg1, main_arg2, main_arg3, main_arg4, main_arg5, main_arg6, main_arg7, main_arg8, main_arg9, main_arg10, main_arg11} : Finset (Ref sig .tc))) :
    V12 m d (Proc.devRef .tc r) = m ((SparseCore.T d).loc r) := by
  have hne : (Proc.devRef .tc r : DevRef τ sig) ≠ r_v11 := StableHlo.devRef_ne_of_ne (by revert r; decide)
  unfold V12
  rw [Function.update_of_ne hne]
  exact V11_arg m d _ _ r hr

end Values

/-! ## @main on the TensorCore -/

section Main

variable (m : (ℓ : Loc nD τ sig) → Buf (Elt F) ℓ) (ρ : Dev nD → PrngReg)

theorem V3_off (d : Dev nD) (b : DevRef τ sig) (hb : b ∉ T6) : V3 m d (G0 m d) (G1 m d) b = V2 m d b :=
  V3_of_ne m d _ _ b (by rintro rfl; exact hb (by decide)) (by rintro rfl; exact hb (by decide))

theorem unscoped_held' (d : Dev nD) : (unscopedBufs d (fun b => m ((SparseCore.T d).loc b)) : sProp 𝕄) = held (SparseCore.T d) S25 (V0 m d) :=
  unscoped_held d (V0 m d)

theorem st0_eq (d : Dev nD) : (bigSep Finset.univ fun c : Fin ((K (F := F)).nCore 0) => (PP m).st 0 d c)
    = iprop(Sc.stCore (U := UU) (tabU m) (tabI m) m d 0 ∗ Sc.stCore (U := UU) (tabU m) (tabI m) m d 1) := by
  show (bigSep (Finset.univ : Finset (Fin 2)) fun c => Sc.stCore (U := UU) (tabU m) (tabI m) m d c.val) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (PP m).dn 0 d c)
    = iprop(Sc.dnCore (U := UU) (tabU m) (tabI m) m d 0 ∗ Sc.dnCore (U := UU) (tabU m) (tabI m) m d 1) := by
  show (bigSep (Finset.univ : Finset (Fin 2)) fun c => Sc.dnCore (U := UU) (tabU m) (tabI m) m d c.val) = _
  rw [show (Finset.univ : Finset (Fin 2)) = {0, 1} by decide, SparseCore.bigSep_insert' (by decide), bigSep_singleton]
  rfl

theorem kVal_eq (d : Dev nD) : kVal m d = Tc.tcScore (V11 m d (G0 m d) (G1 m d) r_v2_0) (V11 m d (G0 m d) (G1 m d) r_v2_1) (V11 m d (G0 m d) (G1 m d) r_v3) (V11 m d (G0 m d) (G1 m d) r_v4) (V11 m d (G0 m d) (G1 m d) r_v5) (V11 m d (G0 m d) (G1 m d) r_v6) (V11 m d (G0 m d) (G1 m d) r_v7) (V11 m d (G0 m d) (G1 m d) r_v8) (V11 m d (G0 m d) (G1 m d) r_v9) (V11 m d (G0 m d) (G1 m d) r_v10) := by
  rw [V11_v2_0, V11_v2_1, V11_v3, V11_v4, V11_v5, V11_v6, V11_v7, V11_v8, V11_v9, V11_v10]
  rfl

theorem V12_off (d : Dev nD) (b : DevRef τ sig) (hb : b ∉ T11) : V12 m d b = V11 m d (G0 m d) (G1 m d) b :=
  Function.update_of_ne (by rintro rfl; exact hb (by decide)) _ _
theorem V12_of_ne (d : Dev nD) (b : DevRef τ sig) (hb : b ≠ r_v11) : V12 m d b = V11 m d (G0 m d) (G1 m d) b := Function.update_of_ne hb _ _

/-- What @main leaves the claim: the twelve arguments at their launch contents and the result array at THE RESULT. -/
def FIN (d : Dev nD) : sProp 𝕄 :=
  iprop((((SparseCore.T d).loc main_arg0) ↦{fullShare} m ((SparseCore.T d).loc main_arg0))
    ∗ (((SparseCore.T d).loc main_arg1) ↦{fullShare} m ((SparseCore.T d).loc main_arg1))
    ∗ (((SparseCore.T d).loc main_arg2) ↦{fullShare} m ((SparseCore.T d).loc main_arg2))
    ∗ (((SparseCore.T d).loc main_arg3) ↦{fullShare} m ((SparseCore.T d).loc main_arg3))
    ∗ (((SparseCore.T d).loc main_arg4) ↦{fullShare} m ((SparseCore.T d).loc main_arg4))
    ∗ (((SparseCore.T d).loc main_arg5) ↦{fullShare} m ((SparseCore.T d).loc main_arg5))
    ∗ (((SparseCore.T d).loc main_arg6) ↦{fullShare} m ((SparseCore.T d).loc main_arg6))
    ∗ (((SparseCore.T d).loc main_arg7) ↦{fullShare} m ((SparseCore.T d).loc main_arg7))
    ∗ (((SparseCore.T d).loc main_arg8) ↦{fullShare} m ((SparseCore.T d).loc main_arg8))
    ∗ (((SparseCore.T d).loc main_arg9) ↦{fullShare} m ((SparseCore.T d).loc main_arg9))
    ∗ (((SparseCore.T d).loc main_arg10) ↦{fullShare} m ((SparseCore.T d).loc main_arg10))
    ∗ (((SparseCore.T d).loc main_arg11) ↦{fullShare} m ((SparseCore.T d).loc main_arg11))
    ∗ (((SparseCore.T d).loc main_v11) ↦{fullShare} kVal m d))

theorem held_T11_V12 (d : Dev nD) : (held (SparseCore.T d) T11 (V12 m d) : sProp 𝕄)
    = iprop((((SparseCore.T d : Thread nD τ).1, r_v2_0) ↦{fullShare} V11 m d (G0 m d) (G1 m d) r_v2_0) ∗ (((SparseCore.T d : Thread nD τ).1, r_v2_1) ↦{fullShare} V11 m d (G0 m d) (G1 m d) r_v2_1) ∗ (((SparseCore.T d : Thread nD τ).1, r_v3) ↦{fullShare} V11 m d (G0 m d) (G1 m d) r_v3) ∗ (((SparseCore.T d : Thread nD τ).1, r_v4) ↦{fullShare} V11 m d (G0 m d) (G1 m d) r_v4) ∗ (((SparseCore.T d : Thread nD τ).1, r_v5) ↦{fullShare} V11 m d (G0 m d) (G1 m d) r_v5) ∗ (((SparseCore.T d : Thread nD τ).1, r_v6) ↦{fullShare} V11 m d (G0 m d) (G1 m d) r_v6) ∗ (((SparseCore.T d : Thread nD τ).1, r_v7) ↦{fullShare} V11 m d (G0 m d) (G1 m d) r_v7) ∗ (((SparseCore.T d : Thread nD τ).1, r_v8) ↦{fullShare} V11 m d (G0 m d) (G1 m d) r_v8) ∗ (((SparseCore.T d : Thread nD τ).1, r_v9) ↦{fullShare} V11 m d (G0 m d) (G1 m d) r_v9) ∗ (((SparseCore.T d : Thread nD τ).1, r_v10) ↦{fullShare} V11 m d (G0 m d) (G1 m d) r_v10)
        ∗ (((SparseCore.T d : Thread nD τ).1, r_v11) ↦{fullShare} Tc.tcScore (V11 m d (G0 m d) (G1 m d) r_v2_0) (V11 m d (G0 m d) (G1 m d) r_v2_1) (V11 m d (G0 m d) (G1 m d) r_v3) (V11 m d (G0 m d) (G1 m d) r_v4) (V11 m d (G0 m d) (G1 m d) r_v5) (V11 m d (G0 m d) (G1 m d) r_v6) (V11 m d (G0 m d) (G1 m d) r_v7) (V11 m d (G0 m d) (G1 m d) r_v8) (V11 m d (G0 m d) (G1 m d) r_v9) (V11 m d (G0 m d) (G1 m d) r_v10))) := by
  rw [held_T11, V12_v11, kVal_eq, V12_of_ne m d r_v2_0 (by decide), V12_of_ne m d r_v2_1 (by decide), V12_of_ne m d r_v3 (by decide), V12_of_ne m d r_v4 (by decide), V12_of_ne m d r_v5 (by decide), V12_of_ne m d r_v6 (by decide), V12_of_ne m d r_v7 (by decide), V12_of_ne m d r_v8 (by decide), V12_of_ne m d r_v9 (by decide), V12_of_ne m d r_v10 (by decide)]

theorem held_T13_V12 (d : Dev nD) : (held (SparseCore.T d) T13 (V12 m d) : sProp 𝕄) = FIN m d := by
  rw [held_T13, V12_arg m d main_arg0 (by decide), V12_arg m d main_arg1 (by decide), V12_arg m d main_arg2 (by decide), V12_arg m d main_arg3 (by decide), V12_arg m d main_arg4 (by decide), V12_arg m d main_arg5 (by decide), V12_arg m d main_arg6 (by decide), V12_arg m d main_arg7 (by decide), V12_arg m d main_arg8 (by decide), V12_arg m d main_arg9 (by decide), V12_arg m d main_arg10 (by decide), V12_arg m d main_arg11 (by decide), V12_v11]
  rfl

/-- The TensorCore call's proof, as @main's proof uses it: from the region boundary, the pipeline's ghost state `Gd d`,
    what the thread owes and the eleven arrays, to the same with the result array at the score. -/
def RegionRule (Gd : Dev nD → sProp 𝕄) : Prop :=
  ∀ (d : Dev nD) (Vf : (c : Dev nD) → (b : Ref sig .tc) → Buf (Elt F) ((SparseCore.T c).loc b)) (Of : Dev nD → CellTallies nD τ sig (HIx 1))
    (_ : ∀ c g, Of c g none = 0) (Wf : Dev nD → Waits sig (HIx 1)) (Φ : PUnit → sProp 𝕄),
    iprop(levAts (K (F := F)).L (K (F := F)).lev ∗ boundary (SparseCore.T d) ∗ Gd d ∗ owes (SparseCore.T d) (Of d) (Wf d)
        ∗ (((SparseCore.T d).loc main_v2_0) ↦{fullShare} Vf d main_v2_0)
        ∗ (((SparseCore.T d).loc main_v2_1) ↦{fullShare} Vf d main_v2_1)
        ∗ (((SparseCore.T d).loc main_v3) ↦{fullShare} Vf d main_v3)
        ∗ (((SparseCore.T d).loc main_v4) ↦{fullShare} Vf d main_v4)
        ∗ (((SparseCore.T d).loc main_v5) ↦{fullShare} Vf d main_v5)
        ∗ (((SparseCore.T d).loc main_v6) ↦{fullShare} Vf d main_v6)
        ∗ (((SparseCore.T d).loc main_v7) ↦{fullShare} Vf d main_v7)
        ∗ (((SparseCore.T d).loc main_v8) ↦{fullShare} Vf d main_v8)
        ∗ (((SparseCore.T d).loc main_v9) ↦{fullShare} Vf d main_v9)
        ∗ (((SparseCore.T d).loc main_v10) ↦{fullShare} Vf d main_v10)
        ∗ (((SparseCore.T d).loc main_v11) ↦{fullShare} Vf d main_v11)
        ∗ (iprop(boundary (SparseCore.T d) ∗ (∃ W', ⌜∀ p ∈ W', p ∈ Wf d ∨ p.2 = none⌝ ∗ owes (SparseCore.T d) (Of d) W')
            ∗ (((SparseCore.T d).loc main_v2_0) ↦{fullShare} Vf d main_v2_0)
            ∗ (((SparseCore.T d).loc main_v2_1) ↦{fullShare} Vf d main_v2_1)
            ∗ (((SparseCore.T d).loc main_v3) ↦{fullShare} Vf d main_v3)
            ∗ (((SparseCore.T d).loc main_v4) ↦{fullShare} Vf d main_v4)
            ∗ (((SparseCore.T d).loc main_v5) ↦{fullShare} Vf d main_v5)
            ∗ (((SparseCore.T d).loc main_v6) ↦{fullShare} Vf d main_v6)
            ∗ (((SparseCore.T d).loc main_v7) ↦{fullShare} Vf d main_v7)
            ∗ (((SparseCore.T d).loc main_v8) ↦{fullShare} Vf d main_v8)
            ∗ (((SparseCore.T d).loc main_v9) ↦{fullShare} Vf d main_v9)
            ∗ (((SparseCore.T d).loc main_v10) ↦{fullShare} Vf d main_v10)
            ∗ (((SparseCore.T d).loc main_v11) ↦{fullShare} Tc.tcScore (Vf d main_v2_0) (Vf d main_v2_1) (Vf d main_v3) (Vf d main_v4) (Vf d main_v5) (Vf d main_v6) (Vf d main_v7) (Vf d main_v8) (Vf d main_v9) (Vf d main_v10))) -∗ Φ ⟨⟩))
      ⊢ wp frame (wpE ((K (F := F)).defs (D (F := F))) 𝒱 (SparseCore.T d) none) Set.univ (Prog.lift (.customCall (SparseCore.inner (Pipeline.entry 0)) ())) Φ

set_option maxHeartbeats 1600000 in
theorem hmain (Gd : Dev nD → sProp 𝕄) (hreg : RegionRule (F := F) Gd) (κ : GSem nD τ sig → ℕ) (d : Dev nD) :
    iprop((K (F := F)).ctx EH (PP m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held']
  simp only [main, wp_bind, wp_pure]
  iintro ⟨#Hctx, Hst, ⟨Hb, Hheld, -, -⟩, HG⟩
  -- the two tables transposed
  iapply (wp_hlo_within 𝒱 (SparseCore.T d) none Set.univ (op := opT0) (S := S25) hT0 (V := V0 m d)) $$ [Hb Hheld]
  · isplitl [Hb] <;> iassumption
  iintro ⟨Hb, Hheld⟩
  rw [wp_ret]; imodintro
  iapply (wp_hlo_within 𝒱 (SparseCore.T d) none Set.univ (op := opT1) (S := S25) hT1 (V := (opT0 (F := F)).result (V0 m d))) $$ [Hb Hheld]
  · isplitl [Hb] <;> iassumption
  iintro ⟨Hb, Hheld⟩
  rw [wp_ret]; imodintro
  -- the SparseCore call: each tower's table, index array and result array to its SparseCore, and back
  rw [show (opT1 (F := F)).result ((opT0 (F := F)).result (V0 m d)) = V2 m d from rfl]
  ihave Hh := (held_take (SparseCore.T d) T6_sub (V2 m d)) $$ Hheld
  icases Hh with ⟨H6, Hback⟩
  ihave H6' := (Entails.of_eq (held_T6 (F := F) (SparseCore.T d) (V2 m d))) $$ H6
  rw [V2_v0, V2_v1, V2_of_ne m d main_arg0 (by decide) (by decide), V2_of_ne m d main_arg1 (by decide) (by decide),
    V2_of_ne m d main_v2_0 (by decide) (by decide), V2_of_ne m d main_v2_1 (by decide) (by decide)]
  icases H6' with ⟨Ht0, Hi0, Ho0, Ht1, Hi1, Ho1⟩
  iapply ((K (F := F)).wp_run (D (F := F)) 𝒱 (EH := EH) (P := PP m) κ d 0) $$ [Hst Ht0 Hi0 Ho0 Ht1 Hi1 Ho1 Hb Hback HG]
  isplitr; · iexact Hctx
  isplitl [Hst]; · iexact Hst
  isplitl [Ht0 Hi0 Ho0 Ht1 Hi1 Ho1]
  · rw [st0_eq]
    unfold Sc.stCore
    simp only [↓reduceIte, Nat.one_ne_zero]
    isplitl [Ht0 Hi0 Ho0]
    · isplitl [Ht0]; · iexact Ht0
      isplitl [Hi0]; · iexact Hi0
      iexact Ho0
    isplitl [Ht1]; · iexact Ht1
    isplitl [Hi1]; · iexact Hi1
    iexact Ho1
  iintro ⟨Hst, Hdn⟩
  ihave Hdn' := (Entails.of_eq (dn0_eq m d)) $$ Hdn
  unfold Sc.dnCore
  simp only [↓reduceIte, Nat.one_ne_zero]
  icases Hdn' with ⟨⟨Ht0, Hi0, Ho0⟩, Ht1, Hi1, Ho1⟩
  ispecialize Hback $$ %(V3 m d (G0 m d) (G1 m d)) %(V3_off m d) [Ht0 Hi0 Ho0 Ht1 Hi1 Ho1]
  · rw [held_T6, V3_v2_0, V3_v2_1, V3_of_ne m d _ _ r_v0 (by decide) (by decide), V3_of_ne m d _ _ r_arg0 (by decide) (by decide),
      V3_of_ne m d _ _ r_v1 (by decide) (by decide), V3_of_ne m d _ _ r_arg1 (by decide) (by decide),
      V2_v0, V2_v1, V2_of_ne m d main_arg0 (by decide) (by decide), V2_of_ne m d main_arg1 (by decide) (by decide)]
    isplitl [Ht0]; · iexact Ht0
    isplitl [Hi0]; · iexact Hi0
    isplitl [Ho0]; · iexact Ho0
    isplitl [Ht1]; · iexact Ht1
    isplitl [Hi1]; · iexact Hi1
    iexact Ho1
  -- the eight weight arrays laid out
  irename Hback => Hheld
  iapply (wp_hlo_within 𝒱 (SparseCore.T d) none Set.univ (op := op3) (S := S25) h3 (V := V3 m d (G0 m d) (G1 m d))) $$ [Hb Hheld]
  · isplitl [Hb] <;> iassumption
  iintro ⟨Hb, Hheld⟩
  rw [wp_ret]; imodintro
  iapply (wp_hlo_within 𝒱 (SparseCore.T d) none Set.univ (op := op4) (S := S25) h4 (V := (op3 (F := F)).result (V3 m d (G0 m d) (G1 m d)))) $$ [Hb Hheld]
  · isplitl [Hb] <;> iassumption
  iintro ⟨Hb, Hheld⟩
  rw [wp_ret]; imodintro
  iapply (wp_hlo_within 𝒱 (SparseCore.T d) none Set.univ (op := op5) (S := S25) h5 (V := (op4 (F := F)).result ((op3 (F := F)).result (V3 m d (G0 m d) (G1 m d))))) $$ [Hb Hheld]
  · isplitl [Hb] <;> iassumption
  iintro ⟨Hb, Hheld⟩
  rw [wp_ret]; imodintro
  iapply (wp_hlo_within 𝒱 (SparseCore.T d) none Set.univ (op := op6) (S := S25) h6 (V := (op5 (F := F)).result ((op4 (F := F)).result ((op3 (F := F)).result (V3 m d (G0 m d) (G1 m d)))))) $$ [Hb Hheld]
  · isplitl [Hb] <;> iassumption
  iintro ⟨Hb, Hheld⟩
  rw [wp_ret]; imodintro
  iapply (wp_hlo_within 𝒱 (SparseCore.T d) none Set.univ (op := op7) (S := S25) h7 (V := (op6 (F := F)).result ((op5 (F := F)).result ((op4 (F := F)).result ((op3 (F := F)).result (V3 m d (G0 m d) (G1 m d))))))) $$ [Hb Hheld]
  · isplitl [Hb] <;> iassumption
  iintro ⟨Hb, Hheld⟩
  rw [wp_ret]; imodintro
  iapply (wp_hlo_within 𝒱 (SparseCore.T d) none Set.univ (op := op8) (S := S25) h8 (V := (op7 (F := F)).result ((op6 (F := F)).result ((op5 (F := F)).result ((op4 (F := F)).result ((op3 (F := F)).result (V3 m d (G0 m d) (G1 m d)))))))) $$ [Hb Hheld]
  · isplitl [Hb] <;> iassumption
  iintro ⟨Hb, Hheld⟩
  rw [wp_ret]; imodintro
  iapply (wp_hlo_within 𝒱 (SparseCore.T d) none Set.univ (op := op9) (S := S25) h9 (V := (op8 (F := F)).result ((op7 (F := F)).result ((op6 (F := F)).result ((op5 (F := F)).result ((op4 (F := F)).result ((op3 (F := F)).result (V3 m d (G0 m d) (G1 m d))))))))) $$ [Hb Hheld]
  · isplitl [Hb] <;> iassumption
  iintro ⟨Hb, Hheld⟩
  rw [wp_ret]; imodintro
  iapply (wp_hlo_within 𝒱 (SparseCore.T d) none Set.univ (op := op10) (S := S25) h10 (V := (op9 (F := F)).result ((op8 (F := F)).result ((op7 (F := F)).result ((op6 (F := F)).result ((op5 (F := F)).result ((op4 (F := F)).result ((op3 (F := F)).result (V3 m d (G0 m d) (G1 m d)))))))))) $$ [Hb Hheld]
  · isplitl [Hb] <;> iassumption
  iintro ⟨Hb, Hheld⟩
  rw [wp_ret]; imodintro
  rw [show (op10 (F := F)).result ((op9 (F := F)).result ((op8 (F := F)).result ((op7 (F := F)).result ((op6 (F := F)).result ((op5 (F := F)).result ((op4 (F := F)).result ((op3 (F := F)).result (V3 m d (G0 m d) (G1 m d))))))))) = V11 m d (G0 m d) (G1 m d) from rfl]
  -- the TensorCore call
  ihave Hh := (held_take (SparseCore.T d) T11_sub (V11 m d (G0 m d) (G1 m d))) $$ Hheld
  icases Hh with ⟨H11, Hback⟩
  ihave H11' := (Entails.of_eq (held_T11 (F := F) (SparseCore.T d) (V11 m d (G0 m d) (G1 m d)))) $$ H11
  icases H11' with ⟨Ha0, Ha1, Hv3, Hv4, Hv5, Hv6, Hv7, Hv8, Hv9, Hv10, Hv11⟩
  unfold SparseCore.Cfg.tcSt
  rw [SparseCore.Cfg.Otc_end (K := K (F := F)) d (show 1 ≤ ((0 : Fin 1).val + 1) from le_refl _)]
  icases Hst with ⟨⟨%W, %hW, HO⟩, Hrest⟩
  ihave Hlev := (SparseCore.Cfg.ctx_levAts κ) $$ Hctx
  iapply (hreg d (fun c b => V11 m c (G0 m c) (G1 m c) (Proc.devRef .tc b)) (fun _ => 0) (fun _ _ => rfl) (fun _ => W) _) $$ [Hlev Hb HG HO Ha0 Ha1 Hv3 Hv4 Hv5 Hv6 Hv7 Hv8 Hv9 Hv10 Hv11 Hback Hrest]
  isplitl [Hlev]; · iexact Hlev
  isplitl [Hb]; · iexact Hb
  isplitl [HG]; · iexact HG
  isplitl [HO]; · iexact HO
  isplitl [Ha0]; · iexact Ha0
  isplitl [Ha1]; · iexact Ha1
  isplitl [Hv3]; · iexact Hv3
  isplitl [Hv4]; · iexact Hv4
  isplitl [Hv5]; · iexact Hv5
  isplitl [Hv6]; · iexact Hv6
  isplitl [Hv7]; · iexact Hv7
  isplitl [Hv8]; · iexact Hv8
  isplitl [Hv9]; · iexact Hv9
  isplitl [Hv10]; · iexact Hv10
  isplitl [Hv11]; · iexact Hv11
  iintro ⟨Hb, ⟨%W', %hW', HO⟩, Ha0, Ha1, Hv3, Hv4, Hv5, Hv6, Hv7, Hv8, Hv9, Hv10, Hv11⟩
  ispecialize Hback $$ %(V12 m d) %(V12_off m d) [Ha0 Ha1 Hv3 Hv4 Hv5 Hv6 Hv7 Hv8 Hv9 Hv10 Hv11]
  · rw [held_T11_V12]
    isplitl [Ha0]; · iexact Ha0
    isplitl [Ha1]; · iexact Ha1
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    iexact Hv11
  -- what is left for the claim: the twelve arguments and the result array
  ihave Hh := (held_take (SparseCore.T d) T13_sub (V12 m d)) $$ Hback
  icases Hh with ⟨H13, -⟩
  ihave H13' := (Entails.of_eq (held_T13_V12 m d)) $$ H13
  imodintro
  isplitl [HO Hrest]
  · isplitl [HO]
    · iexists W'
      isplitr
      · ipureintro
        intro p hp
        rcases hW' p hp with h | h
        · exact hW p h
        · rw [h]; exact Nat.zero_le _
      iexact HO
    iexact Hrest
  iexact H13'

end Main

/-! ## What the final memory holds -/

section Fin

variable (m : (ℓ : Loc nD τ sig) → Buf (Elt F) ℓ) (ρ : Dev nD → PrngReg)

/-- The result array at THE RESULT and the twelve arguments unchanged, of a physical state. -/
def fq (d : Dev nD) (s' : Phys nD τ sig (Elt F)) : Prop :=
  s'.mem.mem ((SparseCore.T d).loc main_v11) = kVal m d
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)
  ∧ s'.mem.mem ((SparseCore.T d).loc main_arg7) = m ((SparseCore.T d).loc main_arg7)
  ∧ s'.mem.mem ((SparseCore.T d).loc main_arg8) = m ((SparseCore.T d).loc main_arg8)
  ∧ s'.mem.mem ((SparseCore.T d).loc main_arg9) = m ((SparseCore.T d).loc main_arg9)
  ∧ s'.mem.mem ((SparseCore.T d).loc main_arg10) = m ((SparseCore.T d).loc main_arg10)
  ∧ s'.mem.mem ((SparseCore.T d).loc main_arg11) = m ((SparseCore.T d).loc main_arg11)

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H8, H9, H10, H11, Hv⟩, HSI⟩
  ihave H := (persistent_entails_right (SI_pointsTo_agree (st := s') (ℓ := ((SparseCore.T d).loc main_arg0)) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := ((SparseCore.T d).loc main_arg1)) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := ((SparseCore.T d).loc main_arg2)) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := ((SparseCore.T d).loc main_arg3)) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := ((SparseCore.T d).loc main_arg4)) (I := Finset.univ) (q := fullShare) (f := m ((SparseCore.T d).loc main_arg4)))) $$ [HSI H4]
  · isplitl [HSI] <;> iassumption
  icases H with ⟨%h4, HSI, -⟩
  ihave H := (persistent_entails_right (SI_pointsTo_agree (st := s') (ℓ := ((SparseCore.T d).loc main_arg5)) (I := Finset.univ) (q := fullShare) (f := m ((SparseCore.T d).loc main_arg5)))) $$ [HSI H5]
  · isplitl [HSI] <;> iassumption
  icases H with ⟨%h5, HSI, -⟩
  ihave H := (persistent_entails_right (SI_pointsTo_agree (st := s') (ℓ := ((SparseCore.T d).loc main_arg6)) (I := Finset.univ) (q := fullShare) (f := m ((SparseCore.T d).loc main_arg6)))) $$ [HSI H6]
  · isplitl [HSI] <;> iassumption
  icases H with ⟨%h6, HSI, -⟩
  ihave H := (persistent_entails_right (SI_pointsTo_agree (st := s') (ℓ := ((SparseCore.T d).loc main_arg7)) (I := Finset.univ) (q := fullShare) (f := m ((SparseCore.T d).loc main_arg7)))) $$ [HSI H7]
  · isplitl [HSI] <;> iassumption
  icases H with ⟨%h7, HSI, -⟩
  ihave H := (persistent_entails_right (SI_pointsTo_agree (st := s') (ℓ := ((SparseCore.T d).loc main_arg8)) (I := Finset.univ) (q := fullShare) (f := m ((SparseCore.T d).loc main_arg8)))) $$ [HSI H8]
  · isplitl [HSI] <;> iassumption
  icases H with ⟨%h8, HSI, -⟩
  ihave H := (persistent_entails_right (SI_pointsTo_agree (st := s') (ℓ := ((SparseCore.T d).loc main_arg9)) (I := Finset.univ) (q := fullShare) (f := m ((SparseCore.T d).loc main_arg9)))) $$ [HSI H9]
  · isplitl [HSI] <;> iassumption
  icases H with ⟨%h9, HSI, -⟩
  ihave H := (persistent_entails_right (SI_pointsTo_agree (st := s') (ℓ := ((SparseCore.T d).loc main_arg10)) (I := Finset.univ) (q := fullShare) (f := m ((SparseCore.T d).loc main_arg10)))) $$ [HSI H10]
  · isplitl [HSI] <;> iassumption
  icases H with ⟨%h10, HSI, -⟩
  ihave H := (persistent_entails_right (SI_pointsTo_agree (st := s') (ℓ := ((SparseCore.T d).loc main_arg11)) (I := Finset.univ) (q := fullShare) (f := m ((SparseCore.T d).loc main_arg11)))) $$ [HSI H11]
  · isplitl [HSI] <;> iassumption
  icases H with ⟨%h11, HSI, -⟩
  ihave H := (SI_pointsTo_agree (st := s') (ℓ := ((SparseCore.T d).loc main_v11)) (I := Finset.univ) (q := fullShare) (f := kVal m d)) $$ [HSI Hv]
  · isplitl [HSI] <;> iassumption
  icases H with %hv
  ipureintro
  exact ⟨funext fun i => hv i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i)⟩

/-- The run's post: on every device the result array at THE RESULT, the twelve arguments unchanged. -/
def QC : PUnit × MemSt nD τ sig (Elt F) → Prop := fun r => ∀ d : Dev nD,
  r.2.mem ((SparseCore.T d).loc main_v11) = kVal m d
  ∧ r.2.mem ((SparseCore.T d).loc main_arg0) = m ((SparseCore.T d).loc main_arg0)
  ∧ r.2.mem ((SparseCore.T d).loc main_arg1) = m ((SparseCore.T d).loc main_arg1)
  ∧ r.2.mem ((SparseCore.T d).loc main_arg2) = m ((SparseCore.T d).loc main_arg2)
  ∧ r.2.mem ((SparseCore.T d).loc main_arg3) = m ((SparseCore.T d).loc main_arg3)
  ∧ r.2.mem ((SparseCore.T d).loc main_arg4) = m ((SparseCore.T d).loc main_arg4)
  ∧ r.2.mem ((SparseCore.T d).loc main_arg5) = m ((SparseCore.T d).loc main_arg5)
  ∧ r.2.mem ((SparseCore.T d).loc main_arg6) = m ((SparseCore.T d).loc main_arg6)
  ∧ r.2.mem ((SparseCore.T d).loc main_arg7) = m ((SparseCore.T d).loc main_arg7)
  ∧ r.2.mem ((SparseCore.T d).loc main_arg8) = m ((SparseCore.T d).loc main_arg8)
  ∧ r.2.mem ((SparseCore.T d).loc main_arg9) = m ((SparseCore.T d).loc main_arg9)
  ∧ r.2.mem ((SparseCore.T d).loc main_arg10) = m ((SparseCore.T d).loc main_arg10)
  ∧ r.2.mem ((SparseCore.T d).loc main_arg11) = m ((SparseCore.T d).loc main_arg11)

end Fin

/-! ## The launch element, and the program's run -/

section Run

variable (m : (ℓ : Loc nD τ sig) → Buf (Elt F) ℓ) (ρ : Dev nD → PrngReg)

/-- The launch element: the handshakes' rounds, the pipeline's staging cells' rounds, the counters' unit. -/
def u₀ (pinit : UP) : UU := (initOf (K (F := F)).hsCells (K (F := F)).hsToks, (pinit, 1))

theorem hu₀ (Gd : Dev nD → sProp 𝕄) (pinit : UP) (hfund : (BI.own (EP pinit) : sProp 𝕄) ⊢ iprop(|==> bigSep Finset.univ Gd)) :
    (ownU (u₀ (F := F) pinit) : sProp 𝕄)
      ⊢ |={Set.univ}=> iprop(BI.own (EH (initOf (K (F := F)).hsCells (K (F := F)).hsToks)) ∗ (bigSep Finset.univ Gd)
        ∗ bigSep Finset.univ fun thr : Thread nD τ => bigSep Finset.univ fun q : Fin 1 => (PP m).x q thr) := by
  unfold u₀
  iintro Hu
  ihave H := (ownU_split _ _ _) $$ Hu
  icases H with ⟨HH, HP⟩
  imod hfund $$ HP with HG
  imodintro
  isplitl [HH]; · iexact HH
  isplitl [HG]; · iexact HG
  rw [Sc.Px_emp]
  iempintro

/-- The program's run, from the SparseCore kernel's obligation, the TensorCore call's rule and the pipeline's funded ghost state. -/
theorem run_main [∀ e, Nonempty (Elt F e)] (Gd : Dev nD → sProp 𝕄) (pinit : UP)
    (hfund : (BI.own (EP pinit) : sProp 𝕄) ⊢ iprop(|==> bigSep Finset.univ Gd)) (hreg : RegionRule (F := F) Gd)
    (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (Sc.vecSplit (tabU m) (tabI m) m))
    m ρ main Gd (FIN m) (u₀ (F := F) pinit) (sep_elim_left.trans (hu₀ m Gd pinit hfund)) (hmain m ρ Gd hreg) (fq m) (hfin m) (QC m) (fun _ h => h)

end Run

end Cert.KernelIdeal.Main

end
-- ==== Proof.ScBody.lean ====
/-
  What the tile's body proof shares between the two towers: the closed forms of the unrolled units' offsets, the
  value a run of the units' stores leaves in the out scratch (`Good`: its first lanes hold the gather), the
  innermost loop's invariant, the result array's progress over the pieces written (`mixO`) with the index arithmetic of
  the squeezed slices, and the tile's own scratch buffers and semaphores among its scoped storage.
-/
import proofs.«205816_g11845519802804_retrytranche1_1814_36_alg».proof.Proof.ScSetup
import proofs.«205816_g11845519802804_retrytranche1_1814_36_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "tUW" => (Memref.whole Cert.KernelIdeal.main_v0_scv : Memref Cert.KernelIdeal.sig Kind.scVector Space.hbm Cert.KernelIdeal.S13x16x100000 EltTy.f32)
local notation "tIW" => (Memref.whole Cert.KernelIdeal.main_v1_scv : Memref Cert.KernelIdeal.sig Kind.scVector Space.hbm Cert.KernelIdeal.S13x16x100000 EltTy.f32)
local notation "iUW" => (Memref.whole Cert.KernelIdeal.main_arg0_scv : Memref Cert.KernelIdeal.sig Kind.scVector Space.hbm Cert.KernelIdeal.S13x16384 EltTy.i32)
local notation "iIW" => (Memref.whole Cert.KernelIdeal.main_arg1_scv : Memref Cert.KernelIdeal.sig Kind.scVector Space.hbm Cert.KernelIdeal.S13x16384 EltTy.i32)
local notation "oUW" => (Memref.whole Cert.KernelIdeal.main_v2_0_scv : Memref Cert.KernelIdeal.sig Kind.scVector Space.hbm Cert.KernelIdeal.S13x16x16384 EltTy.f32)
local notation "oIW" => (Memref.whole Cert.KernelIdeal.main_v2_1_scv : Memref Cert.KernelIdeal.sig Kind.scVector Space.hbm Cert.KernelIdeal.S13x16x16384 EltTy.f32)
local notation "sR" => (Memref.whole Cert.KernelIdeal.cc0_scratch0 : Memref Cert.KernelIdeal.sig Kind.scVector Space.vmem Cert.KernelIdeal.S100000 EltTy.f32)
local notation "sI" => (Memref.whole Cert.KernelIdeal.cc0_scratch1 : Memref Cert.KernelIdeal.sig Kind.scVector Space.vmem Cert.KernelIdeal.S8192 EltTy.i32)
local notation "sO" => (Memref.whole Cert.KernelIdeal.cc0_scratch2 : Memref Cert.KernelIdeal.sig Kind.scVector Space.vmem Cert.KernelIdeal.S8192 EltTy.f32)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

set_option Elab.async false
theorem offU_l0 : ∀ k : Fin k0_t3_loop.trips, k0_off3 k = ![512 * k.val + 0] := by decide +kernel
theorem offU_s0 : ∀ k : Fin k0_t3_loop.trips, k0_off4 k 0#32 = ![512 * k.val + 0] := by decide +kernel
theorem offU_l1 : ∀ k : Fin k0_t3_loop.trips, k0_off4 k 16#32 = ![512 * k.val + 16] := by decide +kernel
theorem offU_s1 : ∀ k : Fin k0_t3_loop.trips, k0_off5 k 16#32 = ![512 * k.val + 16] := by decide +kernel
theorem offU_l2 : ∀ k : Fin k0_t3_loop.trips, k0_off5 k 32#32 = ![512 * k.val + 32] := by decide +kernel
theorem offU_s2 : ∀ k : Fin k0_t3_loop.trips, k0_off6 k 32#32 = ![512 * k.val + 32] := by decide +kernel
theorem offU_l3 : ∀ k : Fin k0_t3_loop.trips, k0_off6 k 48#32 = ![512 * k.val + 48] := by decide +kernel
theorem offU_s3 : ∀ k : Fin k0_t3_loop.trips, k0_off7 k 48#32 = ![512 * k.val + 48] := by decide +kernel
theorem offU_l4 : ∀ k : Fin k0_t3_loop.trips, k0_off7 k 64#32 = ![512 * k.val + 64] := by decide +kernel
theorem offU_s4 : ∀ k : Fin k0_t3_loop.trips, k0_off8 k 64#32 = ![512 * k.val + 64] := by decide +kernel
theorem offU_l5 : ∀ k : Fin k0_t3_loop.trips, k0_off8 k 80#32 = ![512 * k.val + 80] := by decide +kernel
theorem offU_s5 : ∀ k : Fin k0_t3_loop.trips, k0_off9 k 80#32 = ![512 * k.val + 80] := by decide +kernel
theorem offU_l6 : ∀ k : Fin k0_t3_loop.trips, k0_off9 k 96#32 = ![512 * k.val + 96] := by decide +kernel
theorem offU_s6 : ∀ k : Fin k0_t3_loop.trips, k0_off10 k 96#32 = ![512 * k.val + 96] := by decide +kernel
theorem offU_l7 : ∀ k : Fin k0_t3_loop.trips, k0_off10 k 112#32 = ![512 * k.val + 112] := by decide +kernel
theorem offU_s7 : ∀ k : Fin k0_t3_loop.trips, k0_off11 k 112#32 = ![512 * k.val + 112] := by decide +kernel
theorem offU_l8 : ∀ k : Fin k0_t3_loop.trips, k0_off11 k 128#32 = ![512 * k.val + 128] := by decide +kernel
theorem offU_s8 : ∀ k : Fin k0_t3_loop.trips, k0_off12 k 128#32 = ![512 * k.val + 128] := by decide +kernel
theorem offU_l9 : ∀ k : Fin k0_t3_loop.trips, k0_off12 k 144#32 = ![512 * k.val + 144] := by decide +kernel
theorem offU_s9 : ∀ k : Fin k0_t3_loop.trips, k0_off13 k 144#32 = ![512 * k.val + 144] := by decide +kernel
theorem offU_l10 : ∀ k : Fin k0_t3_loop.trips, k0_off13 k 160#32 = ![512 * k.val + 160] := by decide +kernel
theorem offU_s10 : ∀ k : Fin k0_t3_loop.trips, k0_off14 k 160#32 = ![512 * k.val + 160] := by decide +kernel
theorem offU_l11 : ∀ k : Fin k0_t3_loop.trips, k0_off14 k 176#32 = ![512 * k.val + 176] := by decide +kernel
theorem offU_s11 : ∀ k : Fin k0_t3_loop.trips, k0_off15 k 176#32 = ![512 * k.val + 176] := by decide +kernel
theorem offU_l12 : ∀ k : Fin k0_t3_loop.trips, k0_off15 k 192#32 = ![512 * k.val + 192] := by decide +kernel
theorem offU_s12 : ∀ k : Fin k0_t3_loop.trips, k0_off16 k 192#32 = ![512 * k.val + 192] := by decide +kernel
theorem offU_l13 : ∀ k : Fin k0_t3_loop.trips, k0_off16 k 208#32 = ![512 * k.val + 208] := by decide +kernel
theorem offU_s13 : ∀ k : Fin k0_t3_loop.trips, k0_off17 k 208#32 = ![512 * k.val + 208] := by decide +kernel
theorem offU_l14 : ∀ k : Fin k0_t3_loop.trips, k0_off17 k 224#32 = ![512 * k.val + 224] := by decide +kernel
theorem offU_s14 : ∀ k : Fin k0_t3_loop.trips, k0_off18 k 224#32 = ![512 * k.val + 224] := by decide +kernel
theorem offU_l15 : ∀ k : Fin k0_t3_loop.trips, k0_off18 k 240#32 = ![512 * k.val + 240] := by decide +kernel
theorem offU_s15 : ∀ k : Fin k0_t3_loop.trips, k0_off19 k 240#32 = ![512 * k.val + 240] := by decide +kernel
theorem offU_l16 : ∀ k : Fin k0_t3_loop.trips, k0_off19 k 256#32 = ![512 * k.val + 256] := by decide +kernel
theorem offU_s16 : ∀ k : Fin k0_t3_loop.trips, k0_off20 k 256#32 = ![512 * k.val + 256] := by decide +kernel
theorem offU_l17 : ∀ k : Fin k0_t3_loop.trips, k0_off20 k 272#32 = ![512 * k.val + 272] := by decide +kernel
theorem offU_s17 : ∀ k : Fin k0_t3_loop.trips, k0_off21 k 272#32 = ![512 * k.val + 272] := by decide +kernel
theorem offU_l18 : ∀ k : Fin k0_t3_loop.trips, k0_off21 k 288#32 = ![512 * k.val + 288] := by decide +kernel
theorem offU_s18 : ∀ k : Fin k0_t3_loop.trips, k0_off22 k 288#32 = ![512 * k.val + 288] := by decide +kernel
theorem offU_l19 : ∀ k : Fin k0_t3_loop.trips, k0_off22 k 304#32 = ![512 * k.val + 304] := by decide +kernel
theorem offU_s19 : ∀ k : Fin k0_t3_loop.trips, k0_off23 k 304#32 = ![512 * k.val + 304] := by decide +kernel
theorem offU_l20 : ∀ k : Fin k0_t3_loop.trips, k0_off23 k 320#32 = ![512 * k.val + 320] := by decide +kernel
theorem offU_s20 : ∀ k : Fin k0_t3_loop.trips, k0_off24 k 320#32 = ![512 * k.val + 320] := by decide +kernel
theorem offU_l21 : ∀ k : Fin k0_t3_loop.trips, k0_off24 k 336#32 = ![512 * k.val + 336] := by decide +kernel
theorem offU_s21 : ∀ k : Fin k0_t3_loop.trips, k0_off25 k 336#32 = ![512 * k.val + 336] := by decide +kernel
theorem offU_l22 : ∀ k : Fin k0_t3_loop.trips, k0_off25 k 352#32 = ![512 * k.val + 352] := by decide +kernel
theorem offU_s22 : ∀ k : Fin k0_t3_loop.trips, k0_off26 k 352#32 = ![512 * k.val + 352] := by decide +kernel
theorem offU_l23 : ∀ k : Fin k0_t3_loop.trips, k0_off26 k 368#32 = ![512 * k.val + 368] := by decide +kernel
theorem offU_s23 : ∀ k : Fin k0_t3_loop.trips, k0_off27 k 368#32 = ![512 * k.val + 368] := by decide +kernel
theorem offU_l24 : ∀ k : Fin k0_t3_loop.trips, k0_off27 k 384#32 = ![512 * k.val + 384] := by decide +kernel
theorem offU_s24 : ∀ k : Fin k0_t3_loop.trips, k0_off28 k 384#32 = ![512 * k.val + 384] := by decide +kernel
theorem offU_l25 : ∀ k : Fin k0_t3_loop.trips, k0_off28 k 400#32 = ![512 * k.val + 400] := by decide +kernel
theorem offU_s25 : ∀ k : Fin k0_t3_loop.trips, k0_off29 k 400#32 = ![512 * k.val + 400] := by decide +kernel
theorem offU_l26 : ∀ k : Fin k0_t3_loop.trips, k0_off29 k 416#32 = ![512 * k.val + 416] := by decide +kernel
theorem offU_s26 : ∀ k : Fin k0_t3_loop.trips, k0_off30 k 416#32 = ![512 * k.val + 416] := by decide +kernel
theorem offU_l27 : ∀ k : Fin k0_t3_loop.trips, k0_off30 k 432#32 = ![512 * k.val + 432] := by decide +kernel
theorem offU_s27 : ∀ k : Fin k0_t3_loop.trips, k0_off31 k 432#32 = ![512 * k.val + 432] := by decide +kernel
theorem offU_l28 : ∀ k : Fin k0_t3_loop.trips, k0_off31 k 448#32 = ![512 * k.val + 448] := by decide +kernel
theorem offU_s28 : ∀ k : Fin k0_t3_loop.trips, k0_off32 k 448#32 = ![512 * k.val + 448] := by decide +kernel
theorem offU_l29 : ∀ k : Fin k0_t3_loop.trips, k0_off32 k 464#32 = ![512 * k.val + 464] := by decide +kernel
theorem offU_s29 : ∀ k : Fin k0_t3_loop.trips, k0_off33 k 464#32 = ![512 * k.val + 464] := by decide +kernel
theorem offU_l30 : ∀ k : Fin k0_t3_loop.trips, k0_off33 k 480#32 = ![512 * k.val + 480] := by decide +kernel
theorem offU_s30 : ∀ k : Fin k0_t3_loop.trips, k0_off34 k 480#32 = ![512 * k.val + 480] := by decide +kernel
theorem offU_l31 : ∀ k : Fin k0_t3_loop.trips, k0_off34 k 496#32 = ![512 * k.val + 496] := by decide +kernel
theorem offU_s31 : ∀ k : Fin k0_t3_loop.trips, k0_off35 k = ![512 * k.val + 496] := by decide +kernel
theorem offI_l0 : ∀ k : Fin k0_t6_loop.trips, k0_off39 k = ![512 * k.val + 0] := by decide +kernel
theorem offI_s0 : ∀ k : Fin k0_t6_loop.trips, k0_off40 k 0#32 = ![512 * k.val + 0] := by decide +kernel
theorem offI_l1 : ∀ k : Fin k0_t6_loop.trips, k0_off40 k 16#32 = ![512 * k.val + 16] := by decide +kernel
theorem offI_s1 : ∀ k : Fin k0_t6_loop.trips, k0_off41 k 16#32 = ![512 * k.val + 16] := by decide +kernel
theorem offI_l2 : ∀ k : Fin k0_t6_loop.trips, k0_off41 k 32#32 = ![512 * k.val + 32] := by decide +kernel
theorem offI_s2 : ∀ k : Fin k0_t6_loop.trips, k0_off42 k 32#32 = ![512 * k.val + 32] := by decide +kernel
theorem offI_l3 : ∀ k : Fin k0_t6_loop.trips, k0_off42 k 48#32 = ![512 * k.val + 48] := by decide +kernel
theorem offI_s3 : ∀ k : Fin k0_t6_loop.trips, k0_off43 k 48#32 = ![512 * k.val + 48] := by decide +kernel
theorem offI_l4 : ∀ k : Fin k0_t6_loop.trips, k0_off43 k 64#32 = ![512 * k.val + 64] := by decide +kernel
theorem offI_s4 : ∀ k : Fin k0_t6_loop.trips, k0_off44 k 64#32 = ![512 * k.val + 64] := by decide +kernel
theorem offI_l5 : ∀ k : Fin k0_t6_loop.trips, k0_off44 k 80#32 = ![512 * k.val + 80] := by decide +kernel
theorem offI_s5 : ∀ k : Fin k0_t6_loop.trips, k0_off45 k 80#32 = ![512 * k.val + 80] := by decide +kernel
theorem offI_l6 : ∀ k : Fin k0_t6_loop.trips, k0_off45 k 96#32 = ![512 * k.val + 96] := by decide +kernel
theorem offI_s6 : ∀ k : Fin k0_t6_loop.trips, k0_off46 k 96#32 = ![512 * k.val + 96] := by decide +kernel
theorem offI_l7 : ∀ k : Fin k0_t6_loop.trips, k0_off46 k 112#32 = ![512 * k.val + 112] := by decide +kernel
theorem offI_s7 : ∀ k : Fin k0_t6_loop.trips, k0_off47 k 112#32 = ![512 * k.val + 112] := by decide +kernel
theorem offI_l8 : ∀ k : Fin k0_t6_loop.trips, k0_off47 k 128#32 = ![512 * k.val + 128] := by decide +kernel
theorem offI_s8 : ∀ k : Fin k0_t6_loop.trips, k0_off48 k 128#32 = ![512 * k.val + 128] := by decide +kernel
theorem offI_l9 : ∀ k : Fin k0_t6_loop.trips, k0_off48 k 144#32 = ![512 * k.val + 144] := by decide +kernel
theorem offI_s9 : ∀ k : Fin k0_t6_loop.trips, k0_off49 k 144#32 = ![512 * k.val + 144] := by decide +kernel
theorem offI_l10 : ∀ k : Fin k0_t6_loop.trips, k0_off49 k 160#32 = ![512 * k.val + 160] := by decide +kernel
theorem offI_s10 : ∀ k : Fin k0_t6_loop.trips, k0_off50 k 160#32 = ![512 * k.val + 160] := by decide +kernel
theorem offI_l11 : ∀ k : Fin k0_t6_loop.trips, k0_off50 k 176#32 = ![512 * k.val + 176] := by decide +kernel
theorem offI_s11 : ∀ k : Fin k0_t6_loop.trips, k0_off51 k 176#32 = ![512 * k.val + 176] := by decide +kernel
theorem offI_l12 : ∀ k : Fin k0_t6_loop.trips, k0_off51 k 192#32 = ![512 * k.val + 192] := by decide +kernel
theorem offI_s12 : ∀ k : Fin k0_t6_loop.trips, k0_off52 k 192#32 = ![512 * k.val + 192] := by decide +kernel
theorem offI_l13 : ∀ k : Fin k0_t6_loop.trips, k0_off52 k 208#32 = ![512 * k.val + 208] := by decide +kernel
theorem offI_s13 : ∀ k : Fin k0_t6_loop.trips, k0_off53 k 208#32 = ![512 * k.val + 208] := by decide +kernel
theorem offI_l14 : ∀ k : Fin k0_t6_loop.trips, k0_off53 k 224#32 = ![512 * k.val + 224] := by decide +kernel
theorem offI_s14 : ∀ k : Fin k0_t6_loop.trips, k0_off54 k 224#32 = ![512 * k.val + 224] := by decide +kernel
theorem offI_l15 : ∀ k : Fin k0_t6_loop.trips, k0_off54 k 240#32 = ![512 * k.val + 240] := by decide +kernel
theorem offI_s15 : ∀ k : Fin k0_t6_loop.trips, k0_off55 k 240#32 = ![512 * k.val + 240] := by decide +kernel
theorem offI_l16 : ∀ k : Fin k0_t6_loop.trips, k0_off55 k 256#32 = ![512 * k.val + 256] := by decide +kernel
theorem offI_s16 : ∀ k : Fin k0_t6_loop.trips, k0_off56 k 256#32 = ![512 * k.val + 256] := by decide +kernel
theorem offI_l17 : ∀ k : Fin k0_t6_loop.trips, k0_off56 k 272#32 = ![512 * k.val + 272] := by decide +kernel
theorem offI_s17 : ∀ k : Fin k0_t6_loop.trips, k0_off57 k 272#32 = ![512 * k.val + 272] := by decide +kernel
theorem offI_l18 : ∀ k : Fin k0_t6_loop.trips, k0_off57 k 288#32 = ![512 * k.val + 288] := by decide +kernel
theorem offI_s18 : ∀ k : Fin k0_t6_loop.trips, k0_off58 k 288#32 = ![512 * k.val + 288] := by decide +kernel
theorem offI_l19 : ∀ k : Fin k0_t6_loop.trips, k0_off58 k 304#32 = ![512 * k.val + 304] := by decide +kernel
theorem offI_s19 : ∀ k : Fin k0_t6_loop.trips, k0_off59 k 304#32 = ![512 * k.val + 304] := by decide +kernel
theorem offI_l20 : ∀ k : Fin k0_t6_loop.trips, k0_off59 k 320#32 = ![512 * k.val + 320] := by decide +kernel
theorem offI_s20 : ∀ k : Fin k0_t6_loop.trips, k0_off60 k 320#32 = ![512 * k.val + 320] := by decide +kernel
theorem offI_l21 : ∀ k : Fin k0_t6_loop.trips, k0_off60 k 336#32 = ![512 * k.val + 336] := by decide +kernel
theorem offI_s21 : ∀ k : Fin k0_t6_loop.trips, k0_off61 k 336#32 = ![512 * k.val + 336] := by decide +kernel
theorem offI_l22 : ∀ k : Fin k0_t6_loop.trips, k0_off61 k 352#32 = ![512 * k.val + 352] := by decide +kernel
theorem offI_s22 : ∀ k : Fin k0_t6_loop.trips, k0_off62 k 352#32 = ![512 * k.val + 352] := by decide +kernel
theorem offI_l23 : ∀ k : Fin k0_t6_loop.trips, k0_off62 k 368#32 = ![512 * k.val + 368] := by decide +kernel
theorem offI_s23 : ∀ k : Fin k0_t6_loop.trips, k0_off63 k 368#32 = ![512 * k.val + 368] := by decide +kernel
theorem offI_l24 : ∀ k : Fin k0_t6_loop.trips, k0_off63 k 384#32 = ![512 * k.val + 384] := by decide +kernel
theorem offI_s24 : ∀ k : Fin k0_t6_loop.trips, k0_off64 k 384#32 = ![512 * k.val + 384] := by decide +kernel
theorem offI_l25 : ∀ k : Fin k0_t6_loop.trips, k0_off64 k 400#32 = ![512 * k.val + 400] := by decide +kernel
theorem offI_s25 : ∀ k : Fin k0_t6_loop.trips, k0_off65 k 400#32 = ![512 * k.val + 400] := by decide +kernel
theorem offI_l26 : ∀ k : Fin k0_t6_loop.trips, k0_off65 k 416#32 = ![512 * k.val + 416] := by decide +kernel
theorem offI_s26 : ∀ k : Fin k0_t6_loop.trips, k0_off66 k 416#32 = ![512 * k.val + 416] := by decide +kernel
theorem offI_l27 : ∀ k : Fin k0_t6_loop.trips, k0_off66 k 432#32 = ![512 * k.val + 432] := by decide +kernel
theorem offI_s27 : ∀ k : Fin k0_t6_loop.trips, k0_off67 k 432#32 = ![512 * k.val + 432] := by decide +kernel
theorem offI_l28 : ∀ k : Fin k0_t6_loop.trips, k0_off67 k 448#32 = ![512 * k.val + 448] := by decide +kernel
theorem offI_s28 : ∀ k : Fin k0_t6_loop.trips, k0_off68 k 448#32 = ![512 * k.val + 448] := by decide +kernel
theorem offI_l29 : ∀ k : Fin k0_t6_loop.trips, k0_off68 k 464#32 = ![512 * k.val + 464] := by decide +kernel
theorem offI_s29 : ∀ k : Fin k0_t6_loop.trips, k0_off69 k 464#32 = ![512 * k.val + 464] := by decide +kernel
theorem offI_l30 : ∀ k : Fin k0_t6_loop.trips, k0_off69 k 480#32 = ![512 * k.val + 480] := by decide +kernel
theorem offI_s30 : ∀ k : Fin k0_t6_loop.trips, k0_off70 k 480#32 = ![512 * k.val + 480] := by decide +kernel
theorem offI_l31 : ∀ k : Fin k0_t6_loop.trips, k0_off70 k 496#32 = ![512 * k.val + 496] := by decide +kernel
theorem offI_s31 : ∀ k : Fin k0_t6_loop.trips, k0_off71 k = ![512 * k.val + 496] := by decide +kernel

/-- What the gather of the row `R` at the index words `I` holds at lane `j`. -/
def gath (R : S100000.Idx → Elt F .f32) (I : S8192.Idx → Elt F .i32) : S8192.Idx → Elt F .f32 :=
  fun j => R (fun a => match a with | 0 => gIdx (I j))

/-- The first `n` lanes of the out scratch hold `G`. -/
def Good (G : S8192.Idx → Elt F .f32) (n : ℕ) (f : (sO).view.ty.Contents (Elt F)) : Prop :=
  ∀ y : S8192.Idx, (y 0).val < n → (sO).view.read (Elt F) f y = G y

omit [FloatOps F] [URA U] [CountersIn U] in
/-- One more store of sixteen lanes at lane `n`, of `G`'s values there. -/
theorem good_step' {G : S8192.Idx → Elt F .f32} {n : ℕ} {r : Rect S8192} {w : r.shape.Idx → Elt F .f32}
    {L : List (View.Piece (Elt F) S8192 .f32)} {f : (sO).view.ty.Contents (Elt F)}
    (hr : ∀ y : S8192.Idx, y ∈ r.set ↔ n ≤ (y 0).val ∧ (y 0).val < n + 16) (hw : ∀ x, w x = G (r.emb x))
    (hg : Good (F := F) G n ((sO).view.writes (Elt F) f L)) :
    Good (F := F) G (n + 16) ((sO).view.writes (Elt F) f (⟨r, w⟩ :: L)) := by
  intro y hy
  by_cases hmem : y ∈ r.set
  · obtain ⟨x, hx⟩ : ∃ x, r.emb x = y := by
      rw [← Rect.map_emb_univ] at hmem; obtain ⟨x, -, hx⟩ := Finset.mem_map.mp hmem; exact ⟨x, hx⟩
    subst hx
    rw [View.read_writes_cons_emb]; exact hw x
  · rw [View.writes_cons, View.read_slice_write_of_not_mem _ _ _ _ (by rwa [Rect.map_emb_univ])]
    refine hg y ?_
    have := (not_congr (hr y)).mp hmem
    omega

omit [FloatOps F] [URA U] [CountersIn U] in
theorem good_step (R : (sR).view.ty.Contents (Elt F)) (I : (sI).view.ty.Contents (Elt F)) (hI : ∀ j, (I j).toNat < 100000)
    (n n' : ℕ) {m m' : ℕ} {off off' : Fin 1 → Nat} {inb : ∀ a, off a + (![16] : Fin 1 → Nat) a ≤ S8192.size a} {inb' : ∀ a, off' a + (![16] : Fin 1 → Nat) a ≤ S8192.size a}
    {h} {L : List (View.Piece (Elt F) S8192 .f32)} {f : (sO).view.ty.Contents (Elt F)}
    (e : off = ![m]) (e' : off' = ![m']) (hm : m = n) (hm' : m' = n) (hn : n' = n + 16)
    (hg : Good (F := F) (gath R I) n ((sO).view.writes (Elt F) f L)) :
    Good (F := F) (gath R I) n' ((sO).view.writes (Elt F) f
      (⟨Rect.unit (s := S8192) off ![16] inb, loadIdx (View.readAt (Elt F) (sR).view (LoadRect.whole S100000) R)
        ![View.readAt (Elt F) (sI).view (Rect.unit (s := S8192) off' ![16] inb').toLoadRect I] h⟩ :: L)) := by
  subst e e' hm hm' hn
  refine good_step' (fun y => ?_) (fun x => ?_) hg
  · rw [Rect.mem_set_unit]
    constructor
    · intro hh; have := hh 0; simp only [Matrix.cons_val_zero] at this; omega
    · intro hh a; obtain rfl : a = 0 := Subsingleton.elim _ _; simp only [Matrix.cons_val_zero]; omega
  · have hR : View.readAt (Elt F) (sR).view (LoadRect.whole S100000) R = R := Memref.readAt_whole (Elt F) cc0_scratch0 R
    rw [hR]
    unfold loadIdx gath
    congr 1; funext a
    have ha : a = (0 : Fin 1) := Subsingleton.elim (α := Fin 1) a 0
    subst ha
    apply Fin.ext
    rw [gIdx_of_lt (hI _)]
    rfl

omit [FloatOps F] [URA U] [CountersIn U] in
/-- The check the body assumes of sixteen index words it loaded passes: they are words of the index scratch, below
    100000. -/
theorem chk_of (I : (sI).view.ty.Contents (Elt F)) (hI : ∀ j, (I j).toNat < 100000)
    (off : Fin 1 → Nat) (h : ∀ a, off a + S16.size a ≤ S8192.size a) :
    ∀ a x, ((![View.readAt (Elt F) (sI).view (Rect.unit (s := S8192) off S16.size h).toLoadRect I] : Fin 1 → IVec S16 32) a x).toNat < S100000.size a := by
  intro a x
  obtain rfl : a = 0 := Subsingleton.elim _ _
  show (View.readAt (Elt F) (sI).view (Rect.unit (s := S8192) off S16.size h).toLoadRect I x).toNat < 100000
  simp only [View.readAt_apply, Memref.view_whole, View.read_whole]
  exact hI _

omit [FloatOps F] [CountersIn U] in
theorem pts_sR (d : Dev nD) (L : grid0.Coords) (f : Buf (Elt F) ((thrV d L).loc cc0_scratch0)) :
    ((sR).view.loc (thrV d L) ↦{fullShare} f : sProp 𝕄) = (thrV d L).loc cc0_scratch0 ↦{fullShare} f := rfl
omit [FloatOps F] [CountersIn U] in
theorem pts_sI (d : Dev nD) (L : grid0.Coords) (f : Buf (Elt F) ((thrV d L).loc cc0_scratch1)) :
    ((sI).view.loc (thrV d L) ↦{fullShare} f : sProp 𝕄) = (thrV d L).loc cc0_scratch1 ↦{fullShare} f := rfl
omit [FloatOps F] [CountersIn U] in
theorem pts_sO (d : Dev nD) (L : grid0.Coords) (f : Buf (Elt F) ((thrV d L).loc cc0_scratch2)) :
    ((sO).view.loc (thrV d L) ↦{fullShare} f : sProp 𝕄) = (thrV d L).loc cc0_scratch2 ↦{fullShare} f := rfl

/-- The innermost loop's invariant: the row and the index chunk as fetched, the out scratch's first `512 k` lanes
    at the gather. -/
def inv3 (d : Dev nD) (L : grid0.Coords) (R : Buf (Elt F) ((thrV d L).loc cc0_scratch0)) (I : Buf (Elt F) ((thrV d L).loc cc0_scratch1))
    (k : ℕ) (_ : Unit) : sProp 𝕄 :=
  iprop(((thrV d L).loc cc0_scratch0 ↦{fullShare} R) ∗ ((thrV d L).loc cc0_scratch1 ↦{fullShare} I)
    ∗ ∃ o, ((thrV d L).loc cc0_scratch2 ↦{fullShare} o) ∗ ⌜Good (F := F) (gath R I) (512 * k) o⌝)

/-! ## The result array's progress: the pieces below `n` written -/

/-- An element's position among tile `e`'s elements, in the order the pieces `(f, ci)` are written. -/
def linO (ix : S13x16x16384.Idx) : ℕ := (ix 0).val * 16384 + (ix 2).val
/-- The result array after `n` pieces: THE RESULT below piece `n`, the launch contents from there on. -/
def mixO (res g₀ : S13x16x16384.Idx → Elt F .f32) (n : ℕ) : S13x16x16384.Idx → Elt F .f32 :=
  fun ix => if linO ix < n * 8192 then res ix else g₀ ix

omit [FloatOps F] [URA U] [CountersIn U] in
theorem write_sI_univ (I w : (sI).view.ty.Contents (Elt F)) : (sI).view.write (Elt F) I w Finset.univ = w := View.write_whole_univ _ _ _
omit [FloatOps F] [URA U] [CountersIn U] in
theorem write_sR_univ (R w : (sR).view.ty.Contents (Elt F)) : (sR).view.write (Elt F) R w Finset.univ = w := View.write_whole_univ _ _ _

/-! ## Index arithmetic of the squeezed slices -/

omit [FloatOps F] [URA U] [CountersIn U] in
/-- An index of `[n]` matched with `[1, 1, n]` is `(0, 0, y)`. -/
theorem reshape3_val {n : ℕ} (h : (⟨1, ![n]⟩ : Shape).numel = (⟨3, ![1, 1, n]⟩ : Shape).numel) (y : (⟨1, ![n]⟩ : Shape).Idx) :
    ((Shape.reshapeEquiv h y) 0).val = 0 ∧ ((Shape.reshapeEquiv h y) 1).val = 0 ∧ ((Shape.reshapeEquiv h y) 2).val = (y 0).val := by
  have hr := Shape.rowMajor_reshapeEquiv h y
  rw [Shape.rowMajor_val_three, Shape.rowMajor_val_one] at hr
  have h0 : ((Shape.reshapeEquiv h y) 0).val < 1 := ((Shape.reshapeEquiv h y) 0).isLt
  have h1 : ((Shape.reshapeEquiv h y) 1).val < 1 := ((Shape.reshapeEquiv h y) 1).isLt
  simp only [Matrix.cons_val_one, Matrix.cons_val_zero, Matrix.cons_val_two, Matrix.head_cons, Matrix.tail_cons] at hr
  refine ⟨by omega, by omega, ?_⟩
  have e0 : ((Shape.reshapeEquiv h y) 0).val = 0 := by omega
  have e1 : ((Shape.reshapeEquiv h y) 1).val = 0 := by omega
  rw [e0, e1] at hr
  omega

omit [FloatOps F] [URA U] [CountersIn U] in
/-- An index of `[n]` matched with `[1, n]` is `(0, y)`. -/
theorem reshape2_val {n : ℕ} (h : (⟨1, ![n]⟩ : Shape).numel = (⟨2, ![1, n]⟩ : Shape).numel) (y : (⟨1, ![n]⟩ : Shape).Idx) :
    ((Shape.reshapeEquiv h y) 0).val = 0 ∧ ((Shape.reshapeEquiv h y) 1).val = (y 0).val := by
  have hr := Shape.rowMajor_reshapeEquiv h y
  rw [Shape.rowMajor_val_two, Shape.rowMajor_val_one] at hr
  have h0 : ((Shape.reshapeEquiv h y) 0).val < 1 := ((Shape.reshapeEquiv h y) 0).isLt
  simp only [Matrix.cons_val_one, Matrix.cons_val_zero, Matrix.head_cons] at hr
  refine ⟨by omega, ?_⟩
  have e0 : ((Shape.reshapeEquiv h y) 0).val = 0 := by omega
  rw [e0] at hr
  omega

omit [FloatOps F] [URA U] [CountersIn U] in
/-- The gather of a fetched row at a fetched index chunk is THE RESULT at the piece's elements: the row is `[f, e, ·]` of
    the table, the chunk `[f, c + ·]` of the index array, the piece `[f, e, c + ·]` of the result. -/
theorem gath_eq_gathered (T : S13x16x100000.Idx → Elt F .f32) (Ix : S13x16384.Idx → Elt F .i32)
    (eT : S100000.Idx → S13x16x100000.Idx) (eI : S8192.Idx → S13x16384.Idx) (eO : S8192.Idx → S13x16x16384.Idx) (f e c : ℕ)
    (hT : ∀ z, (eT z 0).val = f ∧ (eT z 1).val = e ∧ (eT z 2).val = (z 0).val)
    (hI : ∀ y, (eI y 0).val = f ∧ (eI y 1).val = c + (y 0).val)
    (hO : ∀ y, (eO y 0).val = f ∧ (eO y 1).val = e ∧ (eO y 2).val = c + (y 0).val) (y : S8192.Idx) :
    gath (F := F) (fun z => T (eT z)) (fun j => Ix (eI j)) y = gathered (F := F) T Ix (eO y) := by
  unfold gath gathered
  beta_reduce
  have hIy : eI y = (fun b => match b with | 0 => (eO y 0 : Fin 13) | 1 => (eO y 2 : Fin 16384)) := by
    funext b
    match b with
    | 0 => exact Fin.ext ((hI y).1.trans (hO y).1.symm)
    | 1 => exact Fin.ext ((hI y).2.trans (hO y).2.2.symm)
  congr 1
  funext a
  match a with
  | 0 => exact Fin.ext ((hT _).1.trans (hO y).1.symm)
  | 1 => exact Fin.ext ((hT _).2.1.trans (hO y).2.1.symm)
  | 2 => exact Fin.ext ((hT _).2.2.trans (by rw [hIy] <;> rfl))

theorem mix_arith (a b f k2 : ℕ) (hb : b < 16384) (hk2 : k2 < 2) (hn : ¬(a = f ∧ 8192 * k2 ≤ b ∧ b < 8192 * k2 + 8192)) :
    (a * 16384 + b < (2 * f + k2) * 8192 ↔ a * 16384 + b < (2 * f + (k2 + 1)) * 8192) := by omega

omit [FloatOps F] [URA U] [CountersIn U] in
/-- Off piece `(f, k2)` of tile `e`'s elements, the progress function does not change when the piece is written. -/
theorem rest_eq_gen (res g₀ : S13x16x16384.Idx → Elt F .f32) (S : Finset S13x16x16384.Idx) (f e k2 : ℕ) (hk2 : k2 < 2)
    (hS : ∀ ix : S13x16x16384.Idx, ix ∈ S ↔ (ix 0).val = f ∧ (ix 1).val = e ∧ 8192 * k2 ≤ (ix 2).val ∧ (ix 2).val < 8192 * k2 + 8192) :
    ∀ ix ∈ colSet (n0 := 13) (n1 := 16) (n2 := 16384) e \ S, mixO (F := F) res g₀ (2 * f + k2) ix = mixO (F := F) res g₀ (2 * f + (k2 + 1)) ix := by
  intro ix hix
  obtain ⟨hc, hn⟩ := Finset.mem_sdiff.mp hix
  have he : (ix 1).val = e := (Finset.mem_filter.mp hc).2
  have hnot := mt (hS ix).mpr hn
  have key := mix_arith (ix 0).val (ix 2).val f k2 (ix 2).isLt hk2 (fun ⟨h0, h2a, h2b⟩ => hnot ⟨h0, he, h2a, h2b⟩)
  unfold mixO linO
  simp only [key]

omit [FloatOps F] [URA U] [CountersIn U] in
theorem sub_gen (S : Finset S13x16x16384.Idx) (f e k2 : ℕ)
    (hS : ∀ ix : S13x16x16384.Idx, ix ∈ S ↔ (ix 0).val = f ∧ (ix 1).val = e ∧ 8192 * k2 ≤ (ix 2).val ∧ (ix 2).val < 8192 * k2 + 8192) :
    S ⊆ colSet (n0 := 13) (n1 := 16) (n2 := 16384) e :=
  fun ix h => Finset.mem_filter.mpr ⟨Finset.mem_univ _, ((hS ix).mp h).2.1⟩

omit [FloatOps F] [URA U] [CountersIn U] in
/-- On piece `(f, k2)`, once written, the progress function is THE RESULT. -/
theorem mixO_piece (res g₀ : S13x16x16384.Idx → Elt F .f32) (f k2 : ℕ) (ix : S13x16x16384.Idx)
    (h0 : (ix 0).val = f) (h2 : (ix 2).val < 8192 * k2 + 8192) : mixO (F := F) res g₀ (2 * f + (k2 + 1)) ix = res ix := by
  have key : (ix 0).val * 16384 + (ix 2).val < (2 * f + (k2 + 1)) * 8192 := by omega
  unfold mixO linO
  rw [if_pos key]

omit [FloatOps F] [URA U] [CountersIn U] in
/-- After all twenty-six pieces the progress function is THE RESULT. -/
theorem mixO_all (res g₀ : S13x16x16384.Idx → Elt F .f32) (ix : S13x16x16384.Idx) : mixO (F := F) res g₀ (2 * 13) ix = res ix := by
  have h0 : (ix 0).val < 13 := (ix 0).isLt
  have h2 : (ix 2).val < 16384 := (ix 2).isLt
  have key : (ix 0).val * 16384 + (ix 2).val < 2 * 13 * 8192 := by omega
  unfold mixO linO
  rw [if_pos key]

omit [FloatOps F] [CountersIn U] in
/-- The tile's six DMA semaphores are among its own cells: they, at zero, and the rest. -/
theorem ownSems0_V6 (d : Dev nD) (L : grid0.Coords) :
    (ownSems0 (thrV d L) : sProp 𝕄)
      = iprop(semVal (thrV d L, SemLoc.dma cc0_scoped0.sem) 0 ∗ semVal (thrV d L, SemLoc.dma cc0_scoped1.sem) 0 ∗ semVal (thrV d L, SemLoc.dma cc0_scoped2.sem) 0 ∗ semVal (thrV d L, SemLoc.dma cc0_scoped3.sem) 0 ∗ semVal (thrV d L, SemLoc.dma cc0_scoped4.sem) 0 ∗ semVal (thrV d L, SemLoc.dma cc0_scoped5.sem) 0
          ∗ bigSep (((((((ownCells (thrV d L)).erase (thrV d L, SemLoc.dma cc0_scoped0.sem)).erase (thrV d L, SemLoc.dma cc0_scoped1.sem)).erase (thrV d L, SemLoc.dma cc0_scoped2.sem)).erase (thrV d L, SemLoc.dma cc0_scoped3.sem)).erase (thrV d L, SemLoc.dma cc0_scoped4.sem)).erase (thrV d L, SemLoc.dma cc0_scoped5.sem)) fun g => semVal g 0) := by
  unfold SparseCore.Cfg.ownSems0
  rw [SparseCore.bigSep_erase' ((mem_ownCells (g := ((thrV d L, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨fun e => absurd (Prod.mk.inj e).2 (by decide), (mem_ownCells (g := ((thrV d L, SemLoc.dma cc0_scoped1.sem) : GSem nD τ sig))).mpr ⟨rfl, by show (SemLoc.dma cc0_scoped1.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := ((thrV d L, SemLoc.dma cc0_scoped2.sem) : GSem nD τ sig))).mpr ⟨rfl, by show (SemLoc.dma cc0_scoped2.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped3.sem) : GSem nD τ sig))).mpr ⟨rfl, by show (SemLoc.dma cc0_scoped3.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped4.sem) : GSem nD τ sig))).mpr ⟨rfl, by show (SemLoc.dma cc0_scoped4.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped5.sem) : GSem nD τ sig))).mpr ⟨rfl, by show (SemLoc.dma cc0_scoped5.sem : SemLoc sig).isScoped .scVector = true; decide⟩⟩⟩⟩⟩⟩)]

omit [FloatOps F] [CountersIn U] in
/-- The three scratch buffers are among the tile's own: they, at some contents, and the rest. -/
theorem ownBufs_V3 (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Cert.KernelIdeal.Sc
end
-- ==== Proof.ScBodyUser.lean ====
/-
  The user tower's tile (SparseCore 0): for each of the thirteen fields, the tile's row of the transposed table is
  fetched into the row scratch; for each of the field's two chunks of 8192 index words, the chunk is fetched, gathered
  sixteen lanes at a time (thirty-two unrolled units per trip of the innermost loop) into the out scratch, and the out
  scratch written out to the tile's piece of the result. The loops' invariants carry the value: the out scratch's first
  lanes at the gather, the result's pieces below the current one at THE RESULT.
-/
import proofs.«205816_g11845519802804_retrytranche1_1814_36_alg».proof.Proof.ScBody
import proofs.«205816_g11845519802804_retrytranche1_1814_36_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "tUW" => (Memref.whole Cert.KernelIdeal.main_v0_scv : Memref Cert.KernelIdeal.sig Kind.scVector Space.hbm Cert.KernelIdeal.S13x16x100000 EltTy.f32)
local notation "tIW" => (Memref.whole Cert.KernelIdeal.main_v1_scv : Memref Cert.KernelIdeal.sig Kind.scVector Space.hbm Cert.KernelIdeal.S13x16x100000 EltTy.f32)
local notation "iUW" => (Memref.whole Cert.KernelIdeal.main_arg0_scv : Memref Cert.KernelIdeal.sig Kind.scVector Space.hbm Cert.KernelIdeal.S13x16384 EltTy.i32)
local notation "iIW" => (Memref.whole Cert.KernelIdeal.main_arg1_scv : Memref Cert.KernelIdeal.sig Kind.scVector Space.hbm Cert.KernelIdeal.S13x16384 EltTy.i32)
local notation "oUW" => (Memref.whole Cert.KernelIdeal.main_v2_0_scv : Memref Cert.KernelIdeal.sig Kind.scVector Space.hbm Cert.KernelIdeal.S13x16x16384 EltTy.f32)
local notation "oIW" => (Memref.whole Cert.KernelIdeal.main_v2_1_scv : Memref Cert.KernelIdeal.sig Kind.scVector Space.hbm Cert.KernelIdeal.S13x16x16384 EltTy.f32)
local notation "sR" => (Memref.whole Cert.KernelIdeal.cc0_scratch0 : Memref Cert.KernelIdeal.sig Kind.scVector Space.vmem Cert.KernelIdeal.S100000 EltTy.f32)
local notation "sI" => (Memref.whole Cert.KernelIdeal.cc0_scratch1 : Memref Cert.KernelIdeal.sig Kind.scVector Space.vmem Cert.KernelIdeal.S8192 EltTy.i32)
local notation "sO" => (Memref.whole Cert.KernelIdeal.cc0_scratch2 : Memref Cert.KernelIdeal.sig Kind.scVector Space.vmem Cert.KernelIdeal.S8192 EltTy.f32)

/-! ## The user tower's slices, spelt as the body slices them -/

abbrev tRowU (L : grid0.Coords) (k1 : Fin k0_t1_loop.trips) (h1 : k0_cond1 L = 1#1) : Memref sig .scVector .hbm S100000 .f32 :=
  ((tUW).slice (Rect.unit (s := S13x16x100000) (k0_off1 L k1) S1x1x100000.size (k0_off1_inb L k1 h1)) (fun _ => rfl)).squeeze S100000 squeezes_S1x1x100000_S100000
abbrev iChunkU (L : grid0.Coords) (k1 : Fin k0_t1_loop.trips) (k2 : Fin k0_t2_loop.trips) (h1 : k0_cond1 L = 1#1) : Memref sig .scVector .hbm S8192 .i32 :=
  ((iUW).slice (Rect.unit (s := S13x16384) (k0_off2 k1 k2) S1x8192.size (k0_off2_inb L k1 k2 h1)) (fun _ => rfl)).squeeze S8192 squeezes_S1x8192_S8192
abbrev oPieceU (L : grid0.Coords) (k1 : Fin k0_t1_loop.trips) (k2 : Fin k0_t2_loop.trips) (h1 : k0_cond1 L = 1#1) : Memref sig .scVector .hbm S8192 .f32 :=
  ((oUW).slice (Rect.unit (s := S13x16x16384) (k0_off36 L k1 k2) S1x1x8192.size (k0_off36_inb L k1 k2 h1)) (fun _ => rfl)).squeeze S8192 squeezes_S1x1x8192_S8192

/-- The index chunk `(k1, k2)` and the table row `(k1, e)` as the copies land them. -/
def chunkU (L : grid0.Coords) (k1 : Fin k0_t1_loop.trips) (k2 : Fin k0_t2_loop.trips) (h1 : k0_cond1 L = 1#1) (d : Dev nD) (Ix : Buf (Elt F) (iULoc d)) :
    Buf (Elt F) ((thrV d L).loc cc0_scratch1) := (iChunkU L k1 k2 h1).view.read (Elt F) Ix
def rowU (L : grid0.Coords) (k1 : Fin k0_t1_loop.trips) (h1 : k0_cond1 L = 1#1) (d : Dev nD) (T : Buf (Elt F) (tULoc d)) :
    Buf (Elt F) ((thrV d L).loc cc0_scratch0) := (tRowU L k1 h1).view.read (Elt F) T

theorem trips3 : Scf.trips k0_t3_loop.lb k0_t3_loop.ub k0_t3_loop.st = 16 := by decide
theorem trips2 : Scf.trips k0_t2_loop.lb k0_t2_loop.ub k0_t2_loop.st = 2 := by decide
theorem trips1 : Scf.trips k0_t1_loop.lb k0_t1_loop.ub k0_t1_loop.st = 13 := by decide
theorem trips2' : k0_t2_loop.trips = 2 := by decide

/-! ## Where the user tower's slices sit, and what the written piece holds -/

omit [FloatOps F] [URA U] [CountersIn U] in
theorem unit3_emb_val {n0 n1 n2 n : ℕ} (off : Fin 3 → ℕ) (inb : ∀ a, off a + (![1, 1, n] : Fin 3 → ℕ) a ≤ (⟨3, ![n0, n1, n2]⟩ : Shape).size a)
    (z : (⟨3, ![1, 1, n]⟩ : Shape).Idx) (a : Fin 3) :
    ((Rect.unit (s := ⟨3, ![n0, n1, n2]⟩) off ![1, 1, n] inb).emb z a).val = off a + (z a).val := by
  show off a + 1 * (z a).val = _; omega
omit [FloatOps F] [URA U] [CountersIn U] in
theorem unit2_emb_val {n0 n1 n : ℕ} (off : Fin 2 → ℕ) (inb : ∀ a, off a + (![1, n] : Fin 2 → ℕ) a ≤ (⟨2, ![n0, n1]⟩ : Shape).size a)
    (z : (⟨2, ![1, n]⟩ : Shape).Idx) (a : Fin 2) :
    ((Rect.unit (s := ⟨2, ![n0, n1]⟩) off ![1, n] inb).emb z a).val = off a + (z a).val := by
  show off a + 1 * (z a).val = _; omega

omit [FloatOps F] [URA U] [CountersIn U] in
theorem tRowU_emb (L : grid0.Coords) (k1 : Fin k0_t1_loop.trips) (h1 : k0_cond1 L = 1#1) (z : S100000.Idx) :
    ((tRowU L k1 h1).view.emb z 0).val = k1.val ∧ ((tRowU L k1 h1).view.emb z 1).val = (L 1).val ∧ ((tRowU L k1 h1).view.emb z 2).val = (z 0).val := by
  have hz := reshape3_val squeezes_S1x1x100000_S100000.numel_eq z
  have ho := k0_off1_eq L k1
  have e : ∀ a, ((tRowU L k1 h1).view.emb z a).val = (k0_off1 L k1) a + ((Shape.reshapeEquiv squeezes_S1x1x100000_S100000.numel_eq z) a).val :=
    fun a => unit3_emb_val (k0_off1 L k1) (k0_off1_inb L k1 h1) _ a
  rw [e 0, e 1, e 2, ho, hz.1, hz.2.1, hz.2.2]
  simp
omit [FloatOps F] [URA U] [CountersIn U] in
theorem iChunkU_emb (L : grid0.Coords) (k1 : Fin k0_t1_loop.trips) (k2 : Fin k0_t2_loop.trips) (h1 : k0_cond1 L = 1#1) (y : S8192.Idx) :
    ((iChunkU L k1 k2 h1).view.emb y 0).val = k1.val ∧ ((iChunkU L k1 k2 h1).view.emb y 1).val = 8192 * k2.val + (y 0).val := by
  have hz := reshape2_val squeezes_S1x8192_S8192.numel_eq y
  have ho := k0_off2_eq k1 k2
  have e : ∀ a, ((iChunkU L k1 k2 h1).view.emb y a).val = (k0_off2 k1 k2) a + ((Shape.reshapeEquiv squeezes_S1x8192_S8192.numel_eq y) a).val :=
    fun a => unit2_emb_val (k0_off2 k1 k2) (k0_off2_inb L k1 k2 h1) _ a
  rw [e 0, e 1, ho, hz.1, hz.2]
  simp
omit [FloatOps F] [URA U] [CountersIn U] in
theorem oPieceU_emb (L : grid0.Coords) (k1 : Fin k0_t1_loop.trips) (k2 : Fin k0_t2_loop.trips) (h1 : k0_cond1 L = 1#1) (y : S8192.Idx) :
    ((oPieceU L k1 k2 h1).view.emb y 0).val = k1.val ∧ ((oPieceU L k1 k2 h1).view.emb y 1).val = (L 1).val
      ∧ ((oPieceU L k1 k2 h1).view.emb y 2).val = 8192 * k2.val + (y 0).val := by
  have hz := reshape3_val squeezes_S1x1x8192_S8192.numel_eq y
  have ho := k0_off36_eq L k1 k2
  have e : ∀ a, ((oPieceU L k1 k2 h1).view.emb y a).val = (k0_off36 L k1 k2) a + ((Shape.reshapeEquiv squeezes_S1x1x8192_S8192.numel_eq y) a).val :=
    fun a => unit3_emb_val (k0_off36 L k1 k2) (k0_off36_inb L k1 k2 h1) _ a
  rw [e 0, e 1, e 2, ho, hz.1, hz.2.1, hz.2.2]
  simp

omit [FloatOps F] [URA U] [CountersIn U] in
theorem mem_pieceU (L : grid0.Coords) (k1 : Fin k0_t1_loop.trips) (k2 : Fin k0_t2_loop.trips) (h1 : k0_cond1 L = 1#1) (ix : S13x16x16384.Idx) :
    ix ∈ (oPieceU L k1 k2 h1).view.set ↔ (ix 0).val = k1.val ∧ (ix 1).val = (L 1).val ∧ 8192 * k2.val ≤ (ix 2).val ∧ (ix 2).val < 8192 * k2.val + 8192 := by
  constructor
  · intro hix
    obtain ⟨y, -, rfl⟩ := Finset.mem_map.mp hix
    have h := oPieceU_emb L k1 k2 h1 y
    have hy : (y 0).val < 8192 := (y 0).isLt
    exact ⟨h.1, h.2.1, by omega, by omega⟩
  · rintro ⟨h0, h1', h2a, h2b⟩
    have hlt : (ix 2).val - 8192 * k2.val < 8192 := by omega
    refine Finset.mem_map.mpr ⟨(fun a => match a with | 0 => ⟨(ix 2).val - 8192 * k2.val, hlt⟩ : S8192.Idx), Finset.mem_univ _, ?_⟩
    have h := oPieceU_emb L k1 k2 h1 (fun a => match a with | 0 => ⟨(ix 2).val - 8192 * k2.val, hlt⟩ : S8192.Idx)
    funext a
    apply Fin.ext
    match a with
    | 0 => exact h.1.trans h0.symm
    | 1 => exact h.2.1.trans h1'.symm
    | 2 => exact h.2.2.trans (by show 8192 * k2.val + ((ix 2).val - 8192 * k2.val) = (ix 2).val; omega)

omit [FloatOps F] [URA U] [CountersIn U] in
theorem hchunkU (L : grid0.Coords) (k1 : Fin k0_t1_loop.trips) (k2 : Fin k0_t2_loop.trips) (h1 : k0_cond1 L = 1#1) (d : Dev nD) (Ix : Buf (Elt F) (iULoc d))
    (hIx : ∀ j : S13x16384.Idx, (Ix j).toNat < 100000) : ∀ j, ((chunkU (F := F) L k1 k2 h1 d Ix) j).toNat < 100000 := by
  intro j
  have e : chunkU (F := F) L k1 k2 h1 d Ix j = Ix ((iChunkU L k1 k2 h1).view.emb j) := (View.read_apply _ _).trans (cast_eq _ _)
  rw [e]; exact hIx _

omit [FloatOps F] [URA U] [CountersIn U] in
theorem piece_subU (L : grid0.Coords) (k1 : Fin k0_t1_loop.trips) (k2 : Fin k0_t2_loop.trips) (h1 : k0_cond1 L = 1#1) :
    (oPieceU L k1 k2 h1).view.set ⊆ colSet (n0 := 13) (n1 := 16) (n2 := 16384) (L 1).val :=
  sub_gen _ k1.val (L 1).val k2.val (mem_pieceU L k1 k2 h1)

omit [FloatOps F] [URA U] [CountersIn U] in
theorem rest_eqU (L : grid0.Coords) (k1 : Fin k0_t1_loop.trips) (k2 : Fin k0_t2_loop.trips) (h1 : k0_cond1 L = 1#1)
    (res g₀ : S13x16x16384.Idx → Elt F .f32) :
    ∀ ix ∈ colSet (n0 := 13) (n1 := 16) (n2 := 16384) (L 1).val \ (oPieceU L k1 k2 h1).view.set,
      mixO (F := F) res g₀ (2 * k1.val + k2.val) ix = mixO (F := F) res g₀ (2 * k1.val + (k2.val + 1)) ix :=
  rest_eq_gen res g₀ _ k1.val (L 1).val k2.val (Nat.lt_of_lt_of_eq k2.isLt trips2') (mem_pieceU L k1 k2 h1)

omit [FloatOps F] [URA U] [CountersIn U] in
theorem piece_valU (L : grid0.Coords) (k1 : Fin k0_t1_loop.trips) (k2 : Fin k0_t2_loop.trips) (h1 : k0_cond1 L = 1#1) (d : Dev nD)
    (T : Buf (Elt F) (tULoc d)) (Ix : Buf (Elt F) (iULoc d)) (hIx : ∀ j : S13x16384.Idx, (Ix j).toNat < 100000) (g g₀ : Buf (Elt F) (oULoc d))
    (o' w : Buf (Elt F) ((thrV d L).loc cc0_scratch2)) (hw : w = o')
    (hgood : Good (F := F) (gath (rowU L k1 h1 d T) (chunkU L k1 k2 h1 d Ix)) 8192 o') :
    ∀ ix ∈ (oPieceU L k1 k2 h1).view.set,
      ((oPieceU L k1 k2 h1).view.writes (Elt F) g [⟨Rect.whole S8192, w⟩]) ix = mixO (F := F) (gathered T Ix) g₀ (2 * k1.val + (k2.val + 1)) ix := by
  intro ix hix
  obtain ⟨y, -, rfl⟩ := Finset.mem_map.mp hix
  have he := oPieceU_emb L k1 k2 h1 y
  have hy : (y 0).val < 8192 := (y 0).isLt
  have hR : rowU (F := F) L k1 h1 d T = fun z => T ((tRowU L k1 h1).view.emb z) := funext fun z => (View.read_apply _ _).trans (cast_eq _ _)
  have hI : chunkU (F := F) L k1 k2 h1 d Ix = fun j => Ix ((iChunkU L k1 k2 h1).view.emb j) := funext fun j => (View.read_apply _ _).trans (cast_eq _ _)
  have hL : ((oPieceU L k1 k2 h1).view.writes (Elt F) g [⟨Rect.whole S8192, w⟩]) ((oPieceU L k1 k2 h1).view.emb y) = w y := by
    have := View.read_writes_cons_emb (oPieceU L k1 k2 h1).view g (Rect.whole S8192) w [] y
    rw [Rect.emb_whole_apply, View.read_apply, cast_eq] at this
    exact this
  rw [mixO_piece _ _ k1.val k2.val _ he.1 (by omega)]
  refine hL.trans ?_
  subst hw
  refine (hgood y hy).trans ?_
  rw [hR, hI]
  exact gath_eq_gathered T Ix _ _ _ k1.val (L 1).val (8192 * k2.val) (tRowU_emb L k1 h1) (iChunkU_emb L k1 k2 h1) (oPieceU_emb L k1 k2 h1) y

/-! ## The innermost loop's trip: thirty-two units of sixteen lanes -/

set_option maxRecDepth 65536 in
theorem trip3U (d : Dev nD) (L : grid0.Coords) (h1 : k0_cond1 L = 1#1)
    (R : Buf (Elt F) ((thrV d L).loc cc0_scratch0)) (I : Buf (Elt F) ((thrV d L).loc cc0_scratch1)) (hI : ∀ j, (I j).toNat < 100000)
    (k : Fin k0_t3_loop.trips) (acc : Unit) :
    (inv3 (F := F) (U := U) d L R I k.val acc)
      ⊢ wp frame (wpE (defs₀ (F := F)) 𝒱₀ (thrV d L) none) Set.univ
          (k0_t3_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k acc)
          (inv3 (F := F) (U := U) d L R I (k.val + 1)) := by
  unfold inv3 k0_t3_body
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [SparseCore.vectorLoadIdx]
  iintro ⟨HR0, HI0, %o, HO0, %hg⟩
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  sl_exec (disch := exact fun _ => chk_of I hI _ _)
  sl_step
  isplitl [HR]; · iexact HR
  isplitl [HI]; · iexact HI
  iexists _
  isplitl [HO]; · iexact HO
  ipureintro
  refine (show Good (gath R I) (512 * k.val + 496 + 16) _ from ?_)
  refine good_step R I hI (512 * k.val + 496) _ (offU_s31 k) (offU_l31 k) rfl rfl (by omega) ?_
  refine good_step R I hI (512 * k.val + 480) _ (offU_s30 k) (offU_l30 k) rfl rfl (by omega) ?_
  refine good_step R I hI (512 * k.val + 464) _ (offU_s29 k) (offU_l29 k) rfl rfl (by omega) ?_
  refine good_step R I hI (512 * k.val + 448) _ (offU_s28 k) (offU_l28 k) rfl rfl (by omega) ?_
  refine good_step R I hI (512 * k.val + 432) _ (offU_s27 k) (offU_l27 k) rfl rfl (by omega) ?_
  refine good_step R I hI (512 * k.val + 416) _ (offU_s26 k) (offU_l26 k) rfl rfl (by omega) ?_
  refine good_step R I hI (512 * k.val + 400) _ (offU_s25 k) (offU_l25 k) rfl rfl (by omega) ?_
  refine good_step R I hI (512 * k.val + 384) _ (offU_s24 k) (offU_l24 k) rfl rfl (by omega) ?_
  refine good_step R I hI (512 * k.val + 368) _ (offU_s23 k) (offU_l23 k) rfl rfl (by omega) ?_
  refine good_step R I hI (512 * k.val + 352) _ (offU_s22 k) (offU_l22 k) rfl rfl (by omega) ?_
  refine good_step R I hI (512 * k.val + 336) _ (offU_s21 k) (offU_l21 k) rfl rfl (by omega) ?_
  refine good_step R I hI (512 * k.val + 320) _ (offU_s20 k) (offU_l20 k) rfl rfl (by omega) ?_
  refine good_step R I hI (512 * k.val + 304) _ (offU_s19 k) (offU_l19 k) rfl rfl (by omega) ?_
  refine good_step R I hI (512 * k.val + 288) _ (offU_s18 k) (offU_l18 k) rfl rfl (by omega) ?_
  refine good_step R I hI (512 * k.val + 272) _ (offU_s17 k) (offU_l17 k) rfl rfl (by omega) ?_
  refine good_step R I hI (512 * k.val + 256) _ (offU_s16 k) (offU_l16 k) rfl rfl (by omega) ?_
  refine good_step R I hI (512 * k.val + 240) _ (offU_s15 k) (offU_l15 k) rfl rfl (by omega) ?_
  refine good_step R I hI (512 * k.val + 224) _ (offU_s14 k) (offU_l14 k) rfl rfl (by omega) ?_
  refine good_step R I hI (512 * k.val + 208) _ (offU_s13 k) (offU_l13 k) rfl rfl (by omega) ?_
  refine good_step R I hI (512 * k.val + 192) _ (offU_s12 k) (offU_l12 k) rfl rfl (by omega) ?_
  refine good_step R I hI (512 * k.val + 176) _ (offU_s11 k) (offU_l11 k) rfl rfl (by omega) ?_
  refine good_step R I hI (512 * k.val + 160) _ (offU_s10 k) (offU_l10 k) rfl rfl (by omega) ?_
  refine good_step R I hI (512 * k.val + 144) _ (offU_s9 k) (offU_l9 k) rfl rfl (by omega) ?_
  refine good_step R I hI (512 * k.val + 128) _ (offU_s8 k) (offU_l8 k) rfl rfl (by omega) ?_
  refine good_step R I hI (512 * k.val + 112) _ (offU_s7 k) (offU_l7 k) rfl rfl (by omega) ?_
  refine good_step R I hI (512 * k.val + 96) _ (offU_s6 k) (offU_l6 k) rfl rfl (by omega) ?_
  refine good_step R I hI (512 * k.val + 80) _ (offU_s5 k) (offU_l5 k) rfl rfl (by omega) ?_
  refine good_step R I hI (512 * k.val + 64) _ (offU_s4 k) (offU_l4 k) rfl rfl (by omega) ?_
  refine good_step R I hI (512 * k.val + 48) _ (offU_s3 k) (offU_l3 k) rfl rfl (by omega) ?_
  refine good_step R I hI (512 * k.val + 32) _ (offU_s2 k) (offU_l2 k) rfl rfl (by omega) ?_
  refine good_step R I hI (512 * k.val + 16) _ (offU_s1 k) (offU_l1 k) rfl rfl (by omega) ?_
  refine good_step R I hI (512 * k.val + 0) _ (offU_s0 k) (offU_l0 k) rfl rfl (by omega) ?_
  exact hg

/-! ## The middle loop: one chunk of 8192 indices fetched, gathered, written out -/

def inv2U (d : Dev nD) (L : grid0.Coords) (h1 : k0_cond1 L = 1#1) (q : PosShare TreeShare) (T : Buf (Elt F) (tULoc d)) (Ix : Buf (Elt F) (iULoc d))
    (g₀ : Buf (Elt F) (oULoc d)) (O : CellTallies nD τ sig (HIx 1)) (W : Waits sig (HIx 1)) (k1 : Fin k0_t1_loop.trips) (k2 : ℕ) (_ : Unit) : sProp 𝕄 :=
  iprop(Transfers.MayWaits (thrV d L) (none : HIx 1) O
    ∗ (iULoc d ↦{q} Ix)
    ∗ ((thrV d L).loc cc0_scratch0 ↦{fullShare} rowU L k1 h1 d T)
    ∗ (∃ I, (thrV d L).loc cc0_scratch1 ↦{fullShare} I) ∗ (∃ o, (thrV d L).loc cc0_scratch2 ↦{fullShare} o)
    ∗ semVal (thrV d L, SemLoc.dma cc0_scoped1.sem) 0 ∗ semVal (thrV d L, SemLoc.dma cc0_scoped2.sem) 0
    ∗ (oULoc d ↦[colSet (L 1).val]{fullShare} mixO (F := F) (gathered T Ix) g₀ (2 * k1.val + k2))
    ∗ ∃ W', ⌜∀ p ∈ W', p ∈ W ∨ p.2 = none⌝ ∗ owes (thrV d L) O W')

omit [FloatOps F] [CountersIn U] in
theorem pts_iU (d : Dev nD) (L : grid0.Coords) (q : PosShare TreeShare) (f : Buf (Elt F) (iULoc d)) :
    ((iUW).view.loc (thrV d L) ↦{q} f : sProp 𝕄) = iULoc d ↦{q} f := rfl
omit [FloatOps F] [CountersIn U] in
theorem pts_tU (d : Dev nD) (L : grid0.Coords) (q : PosShare TreeShare) (f : Buf (Elt F) (tULoc d)) :
    ((tUW).view.loc (thrV d L) ↦{q} f : sProp 𝕄) = tULoc d ↦{q} f := rfl
omit [FloatOps F] [CountersIn U] in
theorem pts_oPieceU (d : Dev nD) (L : grid0.Coords) (k1 : Fin k0_t1_loop.trips) (k2 : Fin k0_t2_loop.trips) (h1 : k0_cond1 L = 1#1) (f : Buf (Elt F) (oULoc d)) :
    ((oPieceU L k1 k2 h1).view.loc (thrV d L) ↦[(oPieceU L k1 k2 h1).view.set]{fullShare} f : sProp 𝕄) = oULoc d ↦[(oPieceU L k1 k2 h1).view.set]{fullShare} f := rfl

theorem trip2U (d : Dev nD) (L : grid0.Coords) (h1 : k0_cond1 L = 1#1) (q : PosShare TreeShare) (T : Buf (Elt F) (tULoc d)) (Ix : Buf (Elt F) (iULoc d))
    (hIx : ∀ j : S13x16384.Idx, (Ix j).toNat < 100000)
    (g₀ : Buf (Elt F) (oULoc d)) (O : CellTallies nD τ sig (HIx 1)) (W : Waits sig (HIx 1)) (k1 : Fin k0_t1_loop.trips)
    (k2 : Fin k0_t2_loop.trips) (acc : Unit) :
    (inv2U (F := F) (U := U) d L h1 q T Ix g₀ O W k1 k2.val acc)
      ⊢ wp frame (wpE (defs₀ (F := F)) 𝒱₀ (thrV d L) none) Set.univ
          (k0_t2_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k1 k2 acc)
          (inv2U (F := F) (U := U) d L h1 q T Ix g₀ O W k1 (k2.val + 1)) := by
  unfold inv2U k0_t2_body
  iintro ⟨Hmw, HIx0, HR0, ⟨%I, HI0⟩, ⟨%o, HO0⟩, Hs1, Hs2, Hout0, %W', %hW', HOw⟩
  ihave HIx := (Entails.of_eq (pts_iU (F := F) d L q _).symm) $$ HIx0
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  ihave Hsp := (pointsTo_split_subset (piece_subU L k1 k2 h1)).1 $$ Hout0
  icases Hsp with ⟨Hout1, Hrest⟩
  ihave Hout := (Entails.of_eq (pts_oPieceU (F := F) d L k1 k2 h1 _).symm) $$ Hout1
  sl_exec
  rw [write_sI_univ]
  sl_for (inv3 (F := F) (U := U) d L (rowU L k1 h1 d T) (chunkU L k1 k2 h1 d Ix)) $$ [HR HI HO]
  case region =>
    intro k acc
    exact trip3U d L h1 _ _ (hchunkU L k1 k2 h1 d Ix hIx) k acc
  · unfold inv3
    isplitl [HR]; · iexact HR
    isplitl [HI]; · iexact HI
    iexists o
    isplitl [HO]; · iexact HO
    ipureintro; intro y hy; omega
  iintro %_ HI3
  unfold inv3
  icases HI3 with ⟨HR0, HI0, %o', HO0, %hgood⟩
  rw [trips3] at hgood
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  sl_exec
  sl_step
  isplitl [Hmw]; · iexact Hmw
  isplitl [HIx]; · iexact HIx
  isplitl [HR]; · iexact HR
  isplitl [HI]; · iexists _; iexact HI
  isplitl [HO]; · iexists _; iexact HO
  isplitl [Hs1]; · iexact Hs1
  isplitl [Hs2]; · iexact Hs2
  isplitl [Hout Hrest]
  · ihave Hrest' := (Entails.of_eq (pointsTo_congr (rest_eqU L k1 k2 h1 (gathered T Ix) g₀))) $$ Hrest
    iapply (pointsTo_split_subset (piece_subU L k1 k2 h1)).2
    isplitl [Hout]
    · iapply (Entails.of_eq ((pts_oPieceU (F := F) d L k1 k2 h1 _).trans
        (pointsTo_congr (piece_valU L k1 k2 h1 d T Ix hIx (mixO (F := F) (gathered T Ix) g₀ (2 * k1.val + k2.val)) g₀ o' o' rfl hgood))))
      iexact Hout
    iexact Hrest'
  iexists (insert (SemLoc.dma cc0_scoped2.sem, (default : HIx 1)) (insert (SemLoc.dma cc0_scoped1.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HOw

/-! ## The outer loop: one field's row fetched, its two chunks gathered -/

def inv1U (d : Dev nD) (L : grid0.Coords) (q : PosShare TreeShare) (T : Buf (Elt F) (tULoc d)) (Ix : Buf (Elt F) (iULoc d))
    (g₀ : Buf (Elt F) (oULoc d)) (O : CellTallies nD τ sig (HIx 1)) (W : Waits sig (HIx 1)) (k1 : ℕ) (_ : Unit) : sProp 𝕄 :=
  iprop(Transfers.MayWaits (thrV d L) (none : HIx 1) O
    ∗ (tULoc d ↦{q} T) ∗ (iULoc d ↦{q} Ix)
    ∗ (∃ R, (thrV d L).loc cc0_scratch0 ↦{fullShare} R) ∗ (∃ I, (thrV d L).loc cc0_scratch1 ↦{fullShare} I) ∗ (∃ o, (thrV d L).loc cc0_scratch2 ↦{fullShare} o)
    ∗ semVal (thrV d L, SemLoc.dma cc0_scoped0.sem) 0 ∗ semVal (thrV d L, SemLoc.dma cc0_scoped1.sem) 0 ∗ semVal (thrV d L, SemLoc.dma cc0_scoped2.sem) 0
    ∗ (oULoc d ↦[colSet (L 1).val]{fullShare} mixO (F := F) (gathered T Ix) g₀ (2 * k1))
    ∗ ∃ W', ⌜∀ p ∈ W', p ∈ W ∨ p.2 = none⌝ ∗ owes (thrV d L) O W')

theorem trip1U (d : Dev nD) (L : grid0.Coords) (h1 : k0_cond1 L = 1#1) (q : PosShare TreeShare) (T : Buf (Elt F) (tULoc d)) (Ix : Buf (Elt F) (iULoc d))
    (hIx : ∀ j : S13x16384.Idx, (Ix j).toNat < 100000)
    (g₀ : Buf (Elt F) (oULoc d)) (O : CellTallies nD τ sig (HIx 1)) (W : Waits sig (HIx 1)) (k1 : Fin k0_t1_loop.trips) (acc : Unit) :
    (inv1U (F := F) (U := U) d L q T Ix g₀ O W k1.val acc)
      ⊢ wp frame (wpE (defs₀ (F := F)) 𝒱₀ (thrV d L) none) Set.univ
          (k0_t1_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k1 acc)
          (inv1U (F := F) (U := U) d L q T Ix g₀ O W (k1.val + 1)) := by
  unfold inv1U k0_t1_body
  iintro ⟨Hmw, HT0, HIx, ⟨%R, HR0⟩, HI, HO, Hs0, Hs1, Hs2, Hout, %W', %hW', HOw⟩
  ihave HT := (Entails.of_eq (pts_tU (F := F) d L q _).symm) $$ HT0
  ihave HR := (Entails.of_eq (pts_sR (F := F) d L _).symm) $$ HR0
  sl_exec
  rw [write_sR_univ]
  sl_for (inv2U (F := F) (U := U) d L h1 q T Ix g₀ O W k1) $$ [Hmw HIx HR HI HO Hs1 Hs2 Hout HOw]
  case region =>
    intro k2 acc
    exact trip2U d L h1 q T Ix hIx g₀ O W k1 k2 acc
  · unfold inv2U
    isplitl [Hmw]; · iexact Hmw
    isplitl [HIx]; · iexact HIx
    isplitl [HR]; · iexact HR
    isplitl [HI]; · iexact HI
    isplitl [HO]; · iexact HO
    isplitl [Hs1]; · iexact Hs1
    isplitl [Hs2]; · iexact Hs2
    isplitl [Hout]; · iexact Hout
    iexists (insert (SemLoc.dma cc0_scoped0.sem, (default : HIx 1)) W'); isplitr
    · ipureintro; intro p hp
      rcases Finset.mem_insert.mp hp with hp | hp
      · exact .inr (hp ▸ rfl)
      · exact hW' p hp
    · iexact HOw
  iintro %_ HI2
  unfold inv2U
  rw [trips2]
  icases HI2 with ⟨Hmw, HIx, HR0, HI, HO, Hs1, Hs2, Hout, %W2, %hW2, HOw⟩
  sl_exec
  sl_step
  rw [show 2 * (k1.val + 1) = 2 * k1.val + 2 from by omega]
  isplitl [Hmw]; · iexact Hmw
  isplitl [HT]; · iexact HT
  isplitl [HIx]; · iexact HIx
  isplitl [HR0]; · iexists _; iexact HR0
  isplitl [HI]; · iexact HI
  isplitl [HO]; · iexact HO
  isplitl [Hs0]; · iexact Hs0
  isplitl [Hs1]; · iexact Hs1
  isplitl [Hs2]; · iexact Hs2
  isplitl [Hout]; · iexact Hout
  iexists W2; isplitr
  · ipureintro; exact hW2
  · iexact HOw

/-! ## The user tower's tile -/

theorem bodyU (hF : (K (F := F)).Facts) (d : Dev nD) (L : grid0.Coords) (h1 : k0_cond1 L = 1#1) (q : PosShare TreeShare)
    (T : Buf (Elt F) (tULoc d)) (Ix : Buf (Elt F) (iULoc d)) (hIx : ∀ j : S13x16384.Idx, (Ix j).toNat < 100000) (g₀ : Buf (Elt F) (oULoc d))
    (O : CellTallies nD τ sig (HIx 1)) (W : Waits sig (HIx 1)) (hO : ∀ g, O g none = 0) :
    (iprop(levAts (K (F := F)).L (K (F := F)).lev
        ∗ ((tULoc d ↦{q} T) ∗ (iULoc d ↦{q} Ix) ∗ oULoc d ↦[colSet (L 1).val]{fullShare} g₀)
        ∗ scopedBufs (thrV d L) ∗ scopedSems0 (thrV d L) ∗ owes (thrV d L) O W) : sProp 𝕄)
      ⊢ wp frame (wpE (defs₀ (F := F)) 𝒱₀ (thrV d L) none) Set.univ
          (cc0__sc_gather_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5)
          fun _ => iprop(((tULoc d ↦{q} T) ∗ (iULoc d ↦{q} Ix) ∗ oULoc d ↦[colSet (L 1).val]{fullShare} gathered (F := F) T Ix)
            ∗ scopedBufs (thrV d L) ∗ scopedSems0 (thrV d L)
            ∗ ∃ W', ⌜∀ p ∈ W', p ∈ W ∨ p.2 = none⌝ ∗ owes (thrV d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V6, ownBufs_V3]
  iintro ⟨#Hlv, ⟨HT, HIx, Hout⟩, ⟨HR, HI, HO, Hbufs⟩, ⟨Hs0, Hs1, Hs2, Hs3, Hs4, Hs5, Hsems⟩, HOw⟩
  ihave Hmw := ((K (F := F)).mayWaits_none (thr := thrV d L) hO) $$ Hlv
  sl_exec
  sl_for (inv1U (F := F) (U := U) d L q T Ix g₀ O W) $$ [Hmw HT HIx HR HI HO Hs0 Hs1 Hs2 Hout HOw]
  case region =>
    intro k1 acc
    exact trip1U d L h1 q T Ix hIx g₀ O W k1 acc
  · unfold inv1U
    isplitl [Hmw]; · iexact Hmw
    isplitl [HT]; · iexact HT
    isplitl [HIx]; · iexact HIx
    isplitl [HR]; · iexact HR
    isplitl [HI]; · iexact HI
    isplitl [HO]; · iexact HO
    isplitl [Hs0]; · iexact Hs0
    isplitl [Hs1]; · iexact Hs1
    isplitl [Hs2]; · iexact Hs2
    isplitl [Hout]
    · iapply (Entails.of_eq (pointsTo_congr (fun ix _ => (show mixO (F := F) (gathered T Ix) g₀ (2 * 0) ix = g₀ ix from by
        unfold mixO; rw [if_neg (by omega)]))))
      iexact Hout
    iexists W; isplitr
    · ipureintro; exact fun p hp => .inl hp
    · iexact HOw
  iintro %_ HI1
  unfold inv1U
  rw [trips1]
  icases HI1 with ⟨Hmw, HT, HIx, HR, HI, HO, Hs0, Hs1, Hs2, Hout, %W', %hW', HOw⟩
  sl_exec
  sl_step
  isplitl [HT HIx Hout]
  · isplitl [HT]; · iexact HT
    isplitl [HIx]; · iexact HIx
    iapply (Entails.of_eq (pointsTo_congr (fun ix _ => mixO_all (F := F) (gathered T Ix) g₀ ix)))
    iexact Hout
  isplitl [HR HI HO Hbufs]
  · isplitl [HR]; · iexact HR
    isplitl [HI]; · iexact HI
    isplitl [HO]; · iexact HO
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists W'; isplitr
  · ipureintro; exact hW'
  · iexact HOw

end Cert.KernelIdeal.Sc
end
-- ==== Proof.ScBodyItem.lean ====
/-
  The item tower's tile (SparseCore 1): the same work as the user tower's over the item table, the item index array and
  the item result, on the tile's other three DMA semaphores. The loops' invariants carry the value: the out scratch's
  first lanes at the gather, the result's pieces below the current one at THE RESULT.
-/
import proofs.«205816_g11845519802804_retrytranche1_1814_36_alg».proof.Proof.ScBodyUser
import proofs.«205816_g11845519802804_retrytranche1_1814_36_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "tUW" => (Memref.whole Cert.KernelIdeal.main_v0_scv : Memref Cert.KernelIdeal.sig Kind.scVector Space.hbm Cert.KernelIdeal.S13x16x100000 EltTy.f32)
local notation "tIW" => (Memref.whole Cert.KernelIdeal.main_v1_scv : Memref Cert.KernelIdeal.sig Kind.scVector Space.hbm Cert.KernelIdeal.S13x16x100000 EltTy.f32)
local notation "iUW" => (Memref.whole Cert.KernelIdeal.main_arg0_scv : Memref Cert.KernelIdeal.sig Kind.scVector Space.hbm Cert.KernelIdeal.S13x16384 EltTy.i32)
local notation "iIW" => (Memref.whole Cert.KernelIdeal.main_arg1_scv : Memref Cert.KernelIdeal.sig Kind.scVector Space.hbm Cert.KernelIdeal.S13x16384 EltTy.i32)
local notation "oUW" => (Memref.whole Cert.KernelIdeal.main_v2_0_scv : Memref Cert.KernelIdeal.sig Kind.scVector Space.hbm Cert.KernelIdeal.S13x16x16384 EltTy.f32)
local notation "oIW" => (Memref.whole Cert.KernelIdeal.main_v2_1_scv : Memref Cert.KernelIdeal.sig Kind.scVector Space.hbm Cert.KernelIdeal.S13x16x16384 EltTy.f32)
local notation "sR" => (Memref.whole Cert.KernelIdeal.cc0_scratch0 : Memref Cert.KernelIdeal.sig Kind.scVector Space.vmem Cert.KernelIdeal.S100000 EltTy.f32)
local notation "sI" => (Memref.whole Cert.KernelIdeal.cc0_scratch1 : Memref Cert.KernelIdeal.sig Kind.scVector Space.vmem Cert.KernelIdeal.S8192 EltTy.i32)
local notation "sO" => (Memref.whole Cert.KernelIdeal.cc0_scratch2 : Memref Cert.KernelIdeal.sig Kind.scVector Space.vmem Cert.KernelIdeal.S8192 EltTy.f32)

/-! ## The item tower's slices, spelt as the body slices them -/

abbrev tRowI (L : grid0.Coords) (k1 : Fin k0_t4_loop.trips) (h1 : ¬(k0_cond1 L = 1#1)) : Memref sig .scVector .hbm S100000 .f32 :=
  ((tIW).slice (Rect.unit (s := S13x16x100000) (k0_off37 L k1) S1x1x100000.size (k0_off37_inb L k1 h1)) (fun _ => rfl)).squeeze S100000 squeezes_S1x1x100000_S100000
abbrev iChunkI (L : grid0.Coords) (k1 : Fin k0_t4_loop.trips) (k2 : Fin k0_t5_loop.trips) (h1 : ¬(k0_cond1 L = 1#1)) : Memref sig .scVector .hbm S8192 .i32 :=
  ((iIW).slice (Rect.unit (s := S13x16384) (k0_off38 k1 k2) S1x8192.size (k0_off38_inb L k1 k2 h1)) (fun _ => rfl)).squeeze S8192 squeezes_S1x8192_S8192
abbrev oPieceI (L : grid0.Coords) (k1 : Fin k0_t4_loop.trips) (k2 : Fin k0_t5_loop.trips) (h1 : ¬(k0_cond1 L = 1#1)) : Memref sig .scVector .hbm S8192 .f32 :=
  ((oIW).slice (Rect.unit (s := S13x16x16384) (k0_off72 L k1 k2) S1x1x8192.size (k0_off72_inb L k1 k2 h1)) (fun _ => rfl)).squeeze S8192 squeezes_S1x1x8192_S8192

/-- The index chunk `(k1, k2)` and the table row `(k1, e)` as the copies land them. -/
def chunkI (L : grid0.Coords) (k1 : Fin k0_t4_loop.trips) (k2 : Fin k0_t5_loop.trips) (h1 : ¬(k0_cond1 L = 1#1)) (d : Dev nD) (Ix : Buf (Elt F) (iILoc d)) :
    Buf (Elt F) ((thrV d L).loc cc0_scratch1) := (iChunkI L k1 k2 h1).view.read (Elt F) Ix
def rowI (L : grid0.Coords) (k1 : Fin k0_t4_loop.trips) (h1 : ¬(k0_cond1 L = 1#1)) (d : Dev nD) (T : Buf (Elt F) (tILoc d)) :
    Buf (Elt F) ((thrV d L).loc cc0_scratch0) := (tRowI L k1 h1).view.read (Elt F) T

theorem trips6 : Scf.trips k0_t6_loop.lb k0_t6_loop.ub k0_t6_loop.st = 16 := by decide
theorem trips5 : Scf.trips k0_t5_loop.lb k0_t5_loop.ub k0_t5_loop.st = 2 := by decide
theorem trips4 : Scf.trips k0_t4_loop.lb k0_t4_loop.ub k0_t4_loop.st = 13 := by decide
theorem trips5' : k0_t5_loop.trips = 2 := by decide

/-! ## Where the item tower's slices sit, and what the written piece holds -/

omit [FloatOps F] [URA U] [CountersIn U] in
theorem tRowI_emb (L : grid0.Coords) (k1 : Fin k0_t4_loop.trips) (h1 : ¬(k0_cond1 L = 1#1)) (z : S100000.Idx) :
    ((tRowI L k1 h1).view.emb z 0).val = k1.val ∧ ((tRowI L k1 h1).view.emb z 1).val = (L 1).val ∧ ((tRowI L k1 h1).view.emb z 2).val = (z 0).val := by
  have hz := reshape3_val squeezes_S1x1x100000_S100000.numel_eq z
  have ho := k0_off37_eq L k1
  have e : ∀ a, ((tRowI L k1 h1).view.emb z a).val = (k0_off37 L k1) a + ((Shape.reshapeEquiv squeezes_S1x1x100000_S100000.numel_eq z) a).val :=
    fun a => unit3_emb_val (k0_off37 L k1) (k0_off37_inb L k1 h1) _ a
  rw [e 0, e 1, e 2, ho, hz.1, hz.2.1, hz.2.2]
  simp
omit [FloatOps F] [URA U] [CountersIn U] in
theorem iChunkI_emb (L : grid0.Coords) (k1 : Fin k0_t4_loop.trips) (k2 : Fin k0_t5_loop.trips) (h1 : ¬(k0_cond1 L = 1#1)) (y : S8192.Idx) :
    ((iChunkI L k1 k2 h1).view.emb y 0).val = k1.val ∧ ((iChunkI L k1 k2 h1).view.emb y 1).val = 8192 * k2.val + (y 0).val := by
  have hz := reshape2_val squeezes_S1x8192_S8192.numel_eq y
  have ho := k0_off38_eq k1 k2
  have e : ∀ a, ((iChunkI L k1 k2 h1).view.emb y a).val = (k0_off38 k1 k2) a + ((Shape.reshapeEquiv squeezes_S1x8192_S8192.numel_eq y) a).val :=
    fun a => unit2_emb_val (k0_off38 k1 k2) (k0_off38_inb L k1 k2 h1) _ a
  rw [e 0, e 1, ho, hz.1, hz.2]
  simp
omit [FloatOps F] [URA U] [CountersIn U] in
theorem oPieceI_emb (L : grid0.Coords) (k1 : Fin k0_t4_loop.trips) (k2 : Fin k0_t5_loop.trips) (h1 : ¬(k0_cond1 L = 1#1)) (y : S8192.Idx) :
    ((oPieceI L k1 k2 h1).view.emb y 0).val = k1.val ∧ ((oPieceI L k1 k2 h1).view.emb y 1).val = (L 1).val
      ∧ ((oPieceI L k1 k2 h1).view.emb y 2).val = 8192 * k2.val + (y 0).val := by
  have hz := reshape3_val squeezes_S1x1x8192_S8192.numel_eq y
  have ho := k0_off72_eq L k1 k2
  have e : ∀ a, ((oPieceI L k1 k2 h1).view.emb y a).val = (k0_off72 L k1 k2) a + ((Shape.reshapeEquiv squeezes_S1x1x8192_S8192.numel_eq y) a).val :=
    fun a => unit3_emb_val (k0_off72 L k1 k2) (k0_off72_inb L k1 k2 h1) _ a
  rw [e 0, e 1, e 2, ho, hz.1, hz.2.1, hz.2.2]
  simp

omit [FloatOps F] [URA U] [CountersIn U] in
theorem mem_pieceI (L : grid0.Coords) (k1 : Fin k0_t4_loop.trips) (k2 : Fin k0_t5_loop.trips) (h1 : ¬(k0_cond1 L = 1#1)) (ix : S13x16x16384.Idx) :
    ix ∈ (oPieceI L k1 k2 h1).view.set ↔ (ix 0).val = k1.val ∧ (ix 1).val = (L 1).val ∧ 8192 * k2.val ≤ (ix 2).val ∧ (ix 2).val < 8192 * k2.val + 8192 := by
  constructor
  · intro hix
    obtain ⟨y, -, rfl⟩ := Finset.mem_map.mp hix
    have h := oPieceI_emb L k1 k2 h1 y
    have hy : (y 0).val < 8192 := (y 0).isLt
    exact ⟨h.1, h.2.1, by omega, by omega⟩
  · rintro ⟨h0, h1', h2a, h2b⟩
    have hlt : (ix 2).val - 8192 * k2.val < 8192 := by omega
    refine Finset.mem_map.mpr ⟨(fun a => match a with | 0 => ⟨(ix 2).val - 8192 * k2.val, hlt⟩ : S8192.Idx), Finset.mem_univ _, ?_⟩
    have h := oPieceI_emb L k1 k2 h1 (fun a => match a with | 0 => ⟨(ix 2).val - 8192 * k2.val, hlt⟩ : S8192.Idx)
    funext a
    apply Fin.ext
    match a with
    | 0 => exact h.1.trans h0.symm
    | 1 => exact h.2.1.trans h1'.symm
    | 2 => exact h.2.2.trans (by show 8192 * k2.val + ((ix 2).val - 8192 * k2.val) = (ix 2).val; omega)

omit [FloatOps F] [URA U] [CountersIn U] in
theorem hchunkI (L : grid0.Coords) (k1 : Fin k0_t4_loop.trips) (k2 : Fin k0_t5_loop.trips) (h1 : ¬(k0_cond1 L = 1#1)) (d : Dev nD) (Ix : Buf (Elt F) (iILoc d))
    (hIx : ∀ j : S13x16384.Idx, (Ix j).toNat < 100000) : ∀ j, ((chunkI (F := F) L k1 k2 h1 d Ix) j).toNat < 100000 := by
  intro j
  have e : chunkI (F := F) L k1 k2 h1 d Ix j = Ix ((iChunkI L k1 k2 h1).view.emb j) := (View.read_apply _ _).trans (cast_eq _ _)
  rw [e]; exact hIx _

omit [FloatOps F] [URA U] [CountersIn U] in
theorem piece_subI (L : grid0.Coords) (k1 : Fin k0_t4_loop.trips) (k2 : Fin k0_t5_loop.trips) (h1 : ¬(k0_cond1 L = 1#1)) :
    (oPieceI L k1 k2 h1).view.set ⊆ colSet (n0 := 13) (n1 := 16) (n2 := 16384) (L 1).val :=
  sub_gen _ k1.val (L 1).val k2.val (mem_pieceI L k1 k2 h1)

omit [FloatOps F] [URA U] [CountersIn U] in
theorem rest_eqI (L : grid0.Coords) (k1 : Fin k0_t4_loop.trips) (k2 : Fin k0_t5_loop.trips) (h1 : ¬(k0_cond1 L = 1#1))
    (res g₀ : S13x16x16384.Idx → Elt F .f32) :
    ∀ ix ∈ colSet (n0 := 13) (n1 := 16) (n2 := 16384) (L 1).val \ (oPieceI L k1 k2 h1).view.set,
      mixO (F := F) res g₀ (2 * k1.val + k2.val) ix = mixO (F := F) res g₀ (2 * k1.val + (k2.val + 1)) ix :=
  rest_eq_gen res g₀ _ k1.val (L 1).val k2.val (Nat.lt_of_lt_of_eq k2.isLt trips5') (mem_pieceI L k1 k2 h1)

omit [FloatOps F] [URA U] [CountersIn U] in
theorem piece_valI (L : grid0.Coords) (k1 : Fin k0_t4_loop.trips) (k2 : Fin k0_t5_loop.trips) (h1 : ¬(k0_cond1 L = 1#1)) (d : Dev nD)
    (T : Buf (Elt F) (tILoc d)) (Ix : Buf (Elt F) (iILoc d)) (hIx : ∀ j : S13x16384.Idx, (Ix j).toNat < 100000) (g g₀ : Buf (Elt F) (oILoc d))
    (o' w : Buf (Elt F) ((thrV d L).loc cc0_scratch2)) (hw : w = o')
    (hgood : Good (F := F) (gath (rowI L k1 h1 d T) (chunkI L k1 k2 h1 d Ix)) 8192 o') :
    ∀ ix ∈ (oPieceI L k1 k2 h1).view.set,
      ((oPieceI L k1 k2 h1).view.writes (Elt F) g [⟨Rect.whole S8192, w⟩]) ix = mixO (F := F) (gathered T Ix) g₀ (2 * k1.val + (k2.val + 1)) ix := by
  intro ix hix
  obtain ⟨y, -, rfl⟩ := Finset.mem_map.mp hix
  have he := oPieceI_emb L k1 k2 h1 y
  have hy : (y 0).val < 8192 := (y 0).isLt
  have hR : rowI (F := F) L k1 h1 d T = fun z => T ((tRowI L k1 h1).view.emb z) := funext fun z => (View.read_apply _ _).trans (cast_eq _ _)
  have hI : chunkI (F := F) L k1 k2 h1 d Ix = fun j => Ix ((iChunkI L k1 k2 h1).view.emb j) := funext fun j => (View.read_apply _ _).trans (cast_eq _ _)
  have hL : ((oPieceI L k1 k2 h1).view.writes (Elt F) g [⟨Rect.whole S8192, w⟩]) ((oPieceI L k1 k2 h1).view.emb y) = w y := by
    have := View.read_writes_cons_emb (oPieceI L k1 k2 h1).view g (Rect.whole S8192) w [] y
    rw [Rect.emb_whole_apply, View.read_apply, cast_eq] at this
    exact this
  rw [mixO_piece _ _ k1.val k2.val _ he.1 (by omega)]
  refine hL.trans ?_
  subst hw
  refine (hgood y hy).trans ?_
  rw [hR, hI]
  exact gath_eq_gathered T Ix _ _ _ k1.val (L 1).val (8192 * k2.val) (tRowI_emb L k1 h1) (iChunkI_emb L k1 k2 h1) (oPieceI_emb L k1 k2 h1) y

/-! ## The innermost loop's trip: thirty-two units of sixteen lanes -/

set_option maxRecDepth 65536 in
theorem trip3I (d : Dev nD) (L : grid0.Coords) (h1 : ¬(k0_cond1 L = 1#1))
    (R : Buf (Elt F) ((thrV d L).loc cc0_scratch0)) (I : Buf (Elt F) ((thrV d L).loc cc0_scratch1)) (hI : ∀ j, (I j).toNat < 100000)
    (k : Fin k0_t6_loop.trips) (acc : Unit) :
    (inv3 (F := F) (U := U) d L R I k.val acc)
      ⊢ wp frame (wpE (defs₀ (F := F)) 𝒱₀ (thrV d L) none) Set.univ
          (k0_t6_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k acc)
          (inv3 (F := F) (U := U) d L R I (k.val + 1)) := by
  unfold inv3 k0_t6_body
  simp only [k0_part12_eq_skeleton]; unfold k0_part12_skel
  simp only [k0_part7_eq_skeleton, k0_part8_eq_skeleton, k0_part9_eq_skeleton, k0_part10_eq_skeleton, k0_part11_eq_skeleton]
  unfold k0_part7_skel k0_part8_skel k0_part9_skel k0_part10_skel k0_part11_skel
  simp only [SparseCore.vectorLoadIdx]
  iintro ⟨HR0, HI0, %o, HO0, %hg⟩
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  sl_exec (disch := exact fun _ => chk_of I hI _ _)
  sl_step
  isplitl [HR]; · iexact HR
  isplitl [HI]; · iexact HI
  iexists _
  isplitl [HO]; · iexact HO
  ipureintro
  refine (show Good (gath R I) (512 * k.val + 496 + 16) _ from ?_)
  refine good_step R I hI (512 * k.val + 496) _ (offI_s31 k) (offI_l31 k) rfl rfl (by omega) ?_
  refine good_step R I hI (512 * k.val + 480) _ (offI_s30 k) (offI_l30 k) rfl rfl (by omega) ?_
  refine good_step R I hI (512 * k.val + 464) _ (offI_s29 k) (offI_l29 k) rfl rfl (by omega) ?_
  refine good_step R I hI (512 * k.val + 448) _ (offI_s28 k) (offI_l28 k) rfl rfl (by omega) ?_
  refine good_step R I hI (512 * k.val + 432) _ (offI_s27 k) (offI_l27 k) rfl rfl (by omega) ?_
  refine good_step R I hI (512 * k.val + 416) _ (offI_s26 k) (offI_l26 k) rfl rfl (by omega) ?_
  refine good_step R I hI (512 * k.val + 400) _ (offI_s25 k) (offI_l25 k) rfl rfl (by omega) ?_
  refine good_step R I hI (512 * k.val + 384) _ (offI_s24 k) (offI_l24 k) rfl rfl (by omega) ?_
  refine good_step R I hI (512 * k.val + 368) _ (offI_s23 k) (offI_l23 k) rfl rfl (by omega) ?_
  refine good_step R I hI (512 * k.val + 352) _ (offI_s22 k) (offI_l22 k) rfl rfl (by omega) ?_
  refine good_step R I hI (512 * k.val + 336) _ (offI_s21 k) (offI_l21 k) rfl rfl (by omega) ?_
  refine good_step R I hI (512 * k.val + 320) _ (offI_s20 k) (offI_l20 k) rfl rfl (by omega) ?_
  refine good_step R I hI (512 * k.val + 304) _ (offI_s19 k) (offI_l19 k) rfl rfl (by omega) ?_
  refine good_step R I hI (512 * k.val + 288) _ (offI_s18 k) (offI_l18 k) rfl rfl (by omega) ?_
  refine good_step R I hI (512 * k.val + 272) _ (offI_s17 k) (offI_l17 k) rfl rfl (by omega) ?_
  refine good_step R I hI (512 * k.val + 256) _ (offI_s16 k) (offI_l16 k) rfl rfl (by omega) ?_
  refine good_step R I hI (512 * k.val + 240) _ (offI_s15 k) (offI_l15 k) rfl rfl (by omega) ?_
  refine good_step R I hI (512 * k.val + 224) _ (offI_s14 k) (offI_l14 k) rfl rfl (by omega) ?_
  refine good_step R I hI (512 * k.val + 208) _ (offI_s13 k) (offI_l13 k) rfl rfl (by omega) ?_
  refine good_step R I hI (512 * k.val + 192) _ (offI_s12 k) (offI_l12 k) rfl rfl (by omega) ?_
  refine good_step R I hI (512 * k.val + 176) _ (offI_s11 k) (offI_l11 k) rfl rfl (by omega) ?_
  refine good_step R I hI (512 * k.val + 160) _ (offI_s10 k) (offI_l10 k) rfl rfl (by omega) ?_
  refine good_step R I hI (512 * k.val + 144) _ (offI_s9 k) (offI_l9 k) rfl rfl (by omega) ?_
  refine good_step R I hI (512 * k.val + 128) _ (offI_s8 k) (offI_l8 k) rfl rfl (by omega) ?_
  refine good_step R I hI (512 * k.val + 112) _ (offI_s7 k) (offI_l7 k) rfl rfl (by omega) ?_
  refine good_step R I hI (512 * k.val + 96) _ (offI_s6 k) (offI_l6 k) rfl rfl (by omega) ?_
  refine good_step R I hI (512 * k.val + 80) _ (offI_s5 k) (offI_l5 k) rfl rfl (by omega) ?_
  refine good_step R I hI (512 * k.val + 64) _ (offI_s4 k) (offI_l4 k) rfl rfl (by omega) ?_
  refine good_step R I hI (512 * k.val + 48) _ (offI_s3 k) (offI_l3 k) rfl rfl (by omega) ?_
  refine good_step R I hI (512 * k.val + 32) _ (offI_s2 k) (offI_l2 k) rfl rfl (by omega) ?_
  refine good_step R I hI (512 * k.val + 16) _ (offI_s1 k) (offI_l1 k) rfl rfl (by omega) ?_
  refine good_step R I hI (512 * k.val + 0) _ (offI_s0 k) (offI_l0 k) rfl rfl (by omega) ?_
  exact hg

/-! ## The middle loop: one chunk of 8192 indices fetched, gathered, written out -/

def inv2I (d : Dev nD) (L : grid0.Coords) (h1 : ¬(k0_cond1 L = 1#1)) (q : PosShare TreeShare) (T : Buf (Elt F) (tILoc d)) (Ix : Buf (Elt F) (iILoc d))
    (g₀ : Buf (Elt F) (oILoc d)) (O : CellTallies nD τ sig (HIx 1)) (W : Waits sig (HIx 1)) (k1 : Fin k0_t4_loop.trips) (k2 : ℕ) (_ : Unit) : sProp 𝕄 :=
  iprop(Transfers.MayWaits (thrV d L) (none : HIx 1) O
    ∗ (iILoc d ↦{q} Ix)
    ∗ ((thrV d L).loc cc0_scratch0 ↦{fullShare} rowI L k1 h1 d T)
    ∗ (∃ I, (thrV d L).loc cc0_scratch1 ↦{fullShare} I) ∗ (∃ o, (thrV d L).loc cc0_scratch2 ↦{fullShare} o)
    ∗ semVal (thrV d L, SemLoc.dma cc0_scoped4.sem) 0 ∗ semVal (thrV d L, SemLoc.dma cc0_scoped5.sem) 0
    ∗ (oILoc d ↦[colSet (L 1).val]{fullShare} mixO (F := F) (gathered T Ix) g₀ (2 * k1.val + k2))
    ∗ ∃ W', ⌜∀ p ∈ W', p ∈ W ∨ p.2 = none⌝ ∗ owes (thrV d L) O W')

omit [FloatOps F] [CountersIn U] in
theorem pts_iI (d : Dev nD) (L : grid0.Coords) (q : PosShare TreeShare) (f : Buf (Elt F) (iILoc d)) :
    ((iIW).view.loc (thrV d L) ↦{q} f : sProp 𝕄) = iILoc d ↦{q} f := rfl
omit [FloatOps F] [CountersIn U] in
theorem pts_tI (d : Dev nD) (L : grid0.Coords) (q : PosShare TreeShare) (f : Buf (Elt F) (tILoc d)) :
    ((tIW).view.loc (thrV d L) ↦{q} f : sProp 𝕄) = tILoc d ↦{q} f := rfl
omit [FloatOps F] [CountersIn U] in
theorem pts_oPieceI (d : Dev nD) (L : grid0.Coords) (k1 : Fin k0_t4_loop.trips) (k2 : Fin k0_t5_loop.trips) (h1 : ¬(k0_cond1 L = 1#1)) (f : Buf (Elt F) (oILoc d)) :
    ((oPieceI L k1 k2 h1).view.loc (thrV d L) ↦[(oPieceI L k1 k2 h1).view.set]{fullShare} f : sProp 𝕄) = oILoc d ↦[(oPieceI L k1 k2 h1).view.set]{fullShare} f := rfl

theorem trip2I (d : Dev nD) (L : grid0.Coords) (h1 : ¬(k0_cond1 L = 1#1)) (q : PosShare TreeShare) (T : Buf (Elt F) (tILoc d)) (Ix : Buf (Elt F) (iILoc d))
    (hIx : ∀ j : S13x16384.Idx, (Ix j).toNat < 100000)
    (g₀ : Buf (Elt F) (oILoc d)) (O : CellTallies nD τ sig (HIx 1)) (W : Waits sig (HIx 1)) (k1 : Fin k0_t4_loop.trips)
    (k2 : Fin k0_t5_loop.trips) (acc : Unit) :
    (inv2I (F := F) (U := U) d L h1 q T Ix g₀ O W k1 k2.val acc)
      ⊢ wp frame (wpE (defs₀ (F := F)) 𝒱₀ (thrV d L) none) Set.univ
          (k0_t5_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k1 k2 acc)
          (inv2I (F := F) (U := U) d L h1 q T Ix g₀ O W k1 (k2.val + 1)) := by
  unfold inv2I k0_t5_body
  iintro ⟨Hmw, HIx0, HR0, ⟨%I, HI0⟩, ⟨%o, HO0⟩, Hs1, Hs2, Hout0, %W', %hW', HOw⟩
  ihave HIx := (Entails.of_eq (pts_iI (F := F) d L q _).symm) $$ HIx0
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  ihave Hsp := (pointsTo_split_subset (piece_subI L k1 k2 h1)).1 $$ Hout0
  icases Hsp with ⟨Hout1, Hrest⟩
  ihave Hout := (Entails.of_eq (pts_oPieceI (F := F) d L k1 k2 h1 _).symm) $$ Hout1
  sl_exec
  rw [write_sI_univ]
  sl_for (inv3 (F := F) (U := U) d L (rowI L k1 h1 d T) (chunkI L k1 k2 h1 d Ix)) $$ [HR HI HO]
  case region =>
    intro k acc
    exact trip3I d L h1 _ _ (hchunkI L k1 k2 h1 d Ix hIx) k acc
  · unfold inv3
    isplitl [HR]; · iexact HR
    isplitl [HI]; · iexact HI
    iexists o
    isplitl [HO]; · iexact HO
    ipureintro; intro y hy; omega
  iintro %_ HI3
  unfold inv3
  icases HI3 with ⟨HR0, HI0, %o', HO0, %hgood⟩
  rw [trips6] at hgood
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  sl_exec
  sl_step
  isplitl [Hmw]; · iexact Hmw
  isplitl [HIx]; · iexact HIx
  isplitl [HR]; · iexact HR
  isplitl [HI]; · iexists _; iexact HI
  isplitl [HO]; · iexists _; iexact HO
  isplitl [Hs1]; · iexact Hs1
  isplitl [Hs2]; · iexact Hs2
  isplitl [Hout Hrest]
  · ihave Hrest' := (Entails.of_eq (pointsTo_congr (rest_eqI L k1 k2 h1 (gathered T Ix) g₀))) $$ Hrest
    iapply (pointsTo_split_subset (piece_subI L k1 k2 h1)).2
    isplitl [Hout]
    · iapply (Entails.of_eq ((pts_oPieceI (F := F) d L k1 k2 h1 _).trans
        (pointsTo_congr (piece_valI L k1 k2 h1 d T Ix hIx (mixO (F := F) (gathered T Ix) g₀ (2 * k1.val + k2.val)) g₀ o' o' rfl hgood))))
      iexact Hout
    iexact Hrest'
  iexists (insert (SemLoc.dma cc0_scoped5.sem, (default : HIx 1)) (insert (SemLoc.dma cc0_scoped4.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HOw

/-! ## The outer loop: one field's row fetched, its two chunks gathered -/

def inv1I (d : Dev nD) (L : grid0.Coords) (q : PosShare TreeShare) (T : Buf (Elt F) (tILoc d)) (Ix : Buf (Elt F) (iILoc d))
    (g₀ : Buf (Elt F) (oILoc d)) (O : CellTallies nD τ sig (HIx 1)) (W : Waits sig (HIx 1)) (k1 : ℕ) (_ : Unit) : sProp 𝕄 :=
  iprop(Transfers.MayWaits (thrV d L) (none : HIx 1) O
    ∗ (tILoc d ↦{q} T) ∗ (iILoc d ↦{q} Ix)
    ∗ (∃ R, (thrV d L).loc cc0_scratch0 ↦{fullShare} R) ∗ (∃ I, (thrV d L).loc cc0_scratch1 ↦{fullShare} I) ∗ (∃ o, (thrV d L).loc cc0_scratch2 ↦{fullShare} o)
    ∗ semVal (thrV d L, SemLoc.dma cc0_scoped3.sem) 0 ∗ semVal (thrV d L, SemLoc.dma cc0_scoped4.sem) 0 ∗ semVal (thrV d L, SemLoc.dma cc0_scoped5.sem) 0
    ∗ (oILoc d ↦[colSet (L 1).val]{fullShare} mixO (F := F) (gathered T Ix) g₀ (2 * k1))
    ∗ ∃ W', ⌜∀ p ∈ W', p ∈ W ∨ p.2 = none⌝ ∗ owes (thrV d L) O W')

theorem trip1I (d : Dev nD) (L : grid0.Coords) (h1 : ¬(k0_cond1 L = 1#1)) (q : PosShare TreeShare) (T : Buf (Elt F) (tILoc d)) (Ix : Buf (Elt F) (iILoc d))
    (hIx : ∀ j : S13x16384.Idx, (Ix j).toNat < 100000)
    (g₀ : Buf (Elt F) (oILoc d)) (O : CellTallies nD τ sig (HIx 1)) (W : Waits sig (HIx 1)) (k1 : Fin k0_t4_loop.trips) (acc : Unit) :
    (inv1I (F := F) (U := U) d L q T Ix g₀ O W k1.val acc)
      ⊢ wp frame (wpE (defs₀ (F := F)) 𝒱₀ (thrV d L) none) Set.univ
          (k0_t4_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k1 acc)
          (inv1I (F := F) (U := U) d L q T Ix g₀ O W (k1.val + 1)) := by
  unfold inv1I k0_t4_body
  iintro ⟨Hmw, HT0, HIx, ⟨%R, HR0⟩, HI, HO, Hs0, Hs1, Hs2, Hout, %W', %hW', HOw⟩
  ihave HT := (Entails.of_eq (pts_tI (F := F) d L q _).symm) $$ HT0
  ihave HR := (Entails.of_eq (pts_sR (F := F) d L _).symm) $$ HR0
  sl_exec
  rw [write_sR_univ]
  sl_for (inv2I (F := F) (U := U) d L h1 q T Ix g₀ O W k1) $$ [Hmw HIx HR HI HO Hs1 Hs2 Hout HOw]
  case region =>
    intro k2 acc
    exact trip2I d L h1 q T Ix hIx g₀ O W k1 k2 acc
  · unfold inv2I
    isplitl [Hmw]; · iexact Hmw
    isplitl [HIx]; · iexact HIx
    isplitl [HR]; · iexact HR
    isplitl [HI]; · iexact HI
    isplitl [HO]; · iexact HO
    isplitl [Hs1]; · iexact Hs1
    isplitl [Hs2]; · iexact Hs2
    isplitl [Hout]; · iexact Hout
    iexists (insert (SemLoc.dma cc0_scoped3.sem, (default : HIx 1)) W'); isplitr
    · ipureintro; intro p hp
      rcases Finset.mem_insert.mp hp with hp | hp
      · exact .inr (hp ▸ rfl)
      · exact hW' p hp
    · iexact HOw
  iintro %_ HI2
  unfold inv2I
  rw [trips5]
  icases HI2 with ⟨Hmw, HIx, HR0, HI, HO, Hs1, Hs2, Hout, %W2, %hW2, HOw⟩
  sl_exec
  sl_step
  rw [show 2 * (k1.val + 1) = 2 * k1.val + 2 from by omega]
  isplitl [Hmw]; · iexact Hmw
  isplitl [HT]; · iexact HT
  isplitl [HIx]; · iexact HIx
  isplitl [HR0]; · iexists _; iexact HR0
  isplitl [HI]; · iexact HI
  isplitl [HO]; · iexact HO
  isplitl [Hs0]; · iexact Hs0
  isplitl [Hs1]; · iexact Hs1
  isplitl [Hs2]; · iexact Hs2
  isplitl [Hout]; · iexact Hout
  iexists W2; isplitr
  · ipureintro; exact hW2
  · iexact HOw

/-! ## The item tower's tile -/

theorem bodyI (hF : (K (F := F)).Facts) (d : Dev nD) (L : grid0.Coords) (h1 : ¬(k0_cond1 L = 1#1)) (q : PosShare TreeShare)
    (T : Buf (Elt F) (tILoc d)) (Ix : Buf (Elt F) (iILoc d)) (hIx : ∀ j : S13x16384.Idx, (Ix j).toNat < 100000) (g₀ : Buf (Elt F) (oILoc d))
    (O : CellTallies nD τ sig (HIx 1)) (W : Waits sig (HIx 1)) (hO : ∀ g, O g none = 0) :
    (iprop(levAts (K (F := F)).L (K (F := F)).lev
        ∗ ((tILoc d ↦{q} T) ∗ (iILoc d ↦{q} Ix) ∗ oILoc d ↦[colSet (L 1).val]{fullShare} g₀)
        ∗ scopedBufs (thrV d L) ∗ scopedSems0 (thrV d L) ∗ owes (thrV d L) O W) : sProp 𝕄)
      ⊢ wp frame (wpE (defs₀ (F := F)) 𝒱₀ (thrV d L) none) Set.univ
          (cc0__sc_gather_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5)
          fun _ => iprop(((tILoc d ↦{q} T) ∗ (iILoc d ↦{q} Ix) ∗ oILoc d ↦[colSet (L 1).val]{fullShare} gathered (F := F) T Ix)
            ∗ scopedBufs (thrV d L) ∗ scopedSems0 (thrV d L)
            ∗ ∃ W', ⌜∀ p ∈ W', p ∈ W ∨ p.2 = none⌝ ∗ owes (thrV d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V6, ownBufs_V3]
  iintro ⟨#Hlv, ⟨HT, HIx, Hout⟩, ⟨HR, HI, HO, Hbufs⟩, ⟨Hs0, Hs1, Hs2, Hs3, Hs4, Hs5, Hsems⟩, HOw⟩
  ihave Hmw := ((K (F := F)).mayWaits_none (thr := thrV d L) hO) $$ Hlv
  sl_exec
  sl_for (inv1I (F := F) (U := U) d L q T Ix g₀ O W) $$ [Hmw HT HIx HR HI HO Hs3 Hs4 Hs5 Hout HOw]
  case region =>
    intro k1 acc
    exact trip1I d L h1 q T Ix hIx g₀ O W k1 acc
  · unfold inv1I
    isplitl [Hmw]; · iexact Hmw
    isplitl [HT]; · iexact HT
    isplitl [HIx]; · iexact HIx
    isplitl [HR]; · iexact HR
    isplitl [HI]; · iexact HI
    isplitl [HO]; · iexact HO
    isplitl [Hs3]; · iexact Hs3
    isplitl [Hs4]; · iexact Hs4
    isplitl [Hs5]; · iexact Hs5
    isplitl [Hout]
    · iapply (Entails.of_eq (pointsTo_congr (fun ix _ => (show mixO (F := F) (gathered T Ix) g₀ (2 * 0) ix = g₀ ix from by
        unfold mixO; rw [if_neg (by omega)]))))
      iexact Hout
    iexists W; isplitr
    · ipureintro; exact fun p hp => .inl hp
    · iexact HOw
  iintro %_ HI1
  unfold inv1I
  rw [trips4]
  icases HI1 with ⟨Hmw, HT, HIx, HR, HI, HO, Hs3, Hs4, Hs5, Hout, %W', %hW', HOw⟩
  sl_exec
  sl_step
  isplitl [HT HIx Hout]
  · isplitl [HT]; · iexact HT
    isplitl [HIx]; · iexact HIx
    iapply (Entails.of_eq (pointsTo_congr (fun ix _ => mixO_all (F := F) (gathered T Ix) g₀ ix)))
    iexact Hout
  isplitl [HR HI HO Hbufs]
  · isplitl [HR]; · iexact HR
    isplitl [HI]; · iexact HI
    isplitl [HO]; · iexact HO
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists W'; isplitr
  · ipureintro; exact hW'
  · iexact HOw

end Cert.KernelIdeal.Sc
end
-- ==== Proof.ScObl.lean ====
/-
  The tile's obligation of the launch theorem for the SparseCore call: a tile of SparseCore 0 runs the user tower's body,
  a tile of SparseCore 1 the item tower's, from its share of the call's operands to its rows of THE RESULT.
-/
import proofs.«205816_g11845519802804_retrytranche1_1814_36_alg».proof.Proof.ScBodyItem
import proofs.«205816_g11845519802804_retrytranche1_1814_36_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "tUW" => (Memref.whole Cert.KernelIdeal.main_v0_scv : Memref Cert.KernelIdeal.sig Kind.scVector Space.hbm Cert.KernelIdeal.S13x16x100000 EltTy.f32)
local notation "tIW" => (Memref.whole Cert.KernelIdeal.main_v1_scv : Memref Cert.KernelIdeal.sig Kind.scVector Space.hbm Cert.KernelIdeal.S13x16x100000 EltTy.f32)
local notation "iUW" => (Memref.whole Cert.KernelIdeal.main_arg0_scv : Memref Cert.KernelIdeal.sig Kind.scVector Space.hbm Cert.KernelIdeal.S13x16384 EltTy.i32)
local notation "iIW" => (Memref.whole Cert.KernelIdeal.main_arg1_scv : Memref Cert.KernelIdeal.sig Kind.scVector Space.hbm Cert.KernelIdeal.S13x16384 EltTy.i32)
local notation "oUW" => (Memref.whole Cert.KernelIdeal.main_v2_0_scv : Memref Cert.KernelIdeal.sig Kind.scVector Space.hbm Cert.KernelIdeal.S13x16x16384 EltTy.f32)
local notation "oIW" => (Memref.whole Cert.KernelIdeal.main_v2_1_scv : Memref Cert.KernelIdeal.sig Kind.scVector Space.hbm Cert.KernelIdeal.S13x16x16384 EltTy.f32)
local notation "sR" => (Memref.whole Cert.KernelIdeal.cc0_scratch0 : Memref Cert.KernelIdeal.sig Kind.scVector Space.vmem Cert.KernelIdeal.S100000 EltTy.f32)
local notation "sI" => (Memref.whole Cert.KernelIdeal.cc0_scratch1 : Memref Cert.KernelIdeal.sig Kind.scVector Space.vmem Cert.KernelIdeal.S8192 EltTy.i32)
local notation "sO" => (Memref.whole Cert.KernelIdeal.cc0_scratch2 : Memref Cert.KernelIdeal.sig Kind.scVector Space.vmem Cert.KernelIdeal.S8192 EltTy.f32)

/-! ## The branch a tile takes -/

omit [FloatOps F] [URA U] [CountersIn U] in
theorem cond_iff (L : grid0.Coords) : k0_cond1 L = 1#1 ↔ (L 0).val = 0 := by
  unfold k0_cond1
  generalize L 0 = c
  revert c
  decide

section Tile

variable (tabU : (d : Dev nD) → Buf (Elt F) (tULoc d)) (tabI : (d : Dev nD) → Buf (Elt F) (tILoc d))
variable (m : (ℓ : Loc nD τ sig) → Buf (Elt F) ℓ)

/-- The task of the tile at grid point `L`: the user tower's on SparseCore 0, the item tower's on SparseCore 1. -/
theorem tile_body (hF : (K (F := F)).Facts)
    (hpreU : ∀ (d : Dev nD) (j : S13x16384.Idx), (m (iULoc d) j).toNat < 100000)
    (hpreI : ∀ (d : Dev nD) (j : S13x16384.Idx), (m (iILoc d) j).toNat < 100000)
    (d : Dev nD) (L : grid0.Coords) (O : CellTallies nD τ sig (HIx 1)) (W : Waits sig (HIx 1)) (hO : ∀ g, O g none = 0) :
    (iprop(levAts (K (F := F)).L (K (F := F)).lev ∗ emp ∗ goTile (U := U) tabU tabI m d (L 0).val (L 1).val
        ∗ scopedBufs (thrV d L) ∗ scopedSems0 (thrV d L) ∗ owes (thrV d L) O W) : sProp 𝕄)
      ⊢ wp frame (wpE (defs₀ (F := F)) 𝒱₀ (thrV d L) none) Set.univ
          (cc0__sc_gather_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5)
          fun _ => iprop(tdTile (U := U) tabU tabI m d (L 0).val (L 1).val ∗ scopedBufs (thrV d L) ∗ scopedSems0 (thrV d L)
            ∗ ∃ W', ⌜∀ p ∈ W', p ∈ W ∨ p.2 = none⌝ ∗ owes (thrV d L) O W') := by
  by_cases h1 : k0_cond1 L = 1#1
  · have h0 : (L 0).val = 0 := (cond_iff L).mp h1
    unfold goTile tdTile
    rw [if_pos h0, if_pos h0]
    iintro ⟨Hlv, -, Hgo, Hsb, Hss, HOw⟩
    iapply (bodyU hF d L h1 _ (tabU d) (m (iULoc d)) (hpreU d) (m (oULoc d)) O W hO)
    isplitl [Hlv]; · iexact Hlv
    isplitl [Hgo]; · iexact Hgo
    isplitl [Hsb]; · iexact Hsb
    isplitl [Hss]; · iexact Hss
    iexact HOw
  · have h0 : ¬ (L 0).val = 0 := mt (cond_iff L).mpr h1
    unfold goTile tdTile
    rw [if_neg h0, if_neg h0]
    iintro ⟨Hlv, -, Hgo, Hsb, Hss, HOw⟩
    iapply (bodyI hF d L h1 _ (tabI d) (m (iILoc d)) (hpreI d) (m (oILoc d)) O W hO)
    isplitl [Hlv]; · iexact Hlv
    isplitl [Hgo]; · iexact Hgo
    isplitl [Hsb]; · iexact Hsb
    isplitl [Hss]; · iexact Hss
    iexact HOw

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

omit [URA U] [CountersIn U] in
theorem defs₀_vector (c : Fin τ.nSC) (s : Fin τ.nSub) :
    defs₀ (F := F) (.scVector c s) 0 ()
      = SparseCore.onTile hcore0 hsub0 (fun c s => cc0__sc_gather_body (coordsV c s)
          tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5) ⟨⟩ c s := rfl

omit [FloatOps F] [CountersIn U] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts)
    (hpreU : ∀ (d : Dev nD) (j : S13x16384.Idx), (m (iULoc d) j).toNat < 100000)
    (hpreI : ∀ (d : Dev nD) (j : S13x16384.Idx), (m (iILoc d) j).toNat < 100000) :
    (K (F := F)).TileObl (D (F := F)) 𝒱 (P (U := U) tabU tabI m) v₀ 0 := by
  intro d c i O W hO _ _
  -- this kernel owes nothing for a protocol of its own
  simp only [show (P (U := U) tabU tabI m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body tabU tabI m hF hpreU hpreI d (coordsV ⟨_, hc.1⟩ ⟨_, hc.2⟩) O W hO).trans (wp_mono frame _ _ fun _ => obl_post)

end Tile

end Cert.KernelIdeal.Sc
end
-- ==== Proof.TcBody.lean ====
/-
  The body of the inner TensorCore region of `Cert.KernelIdeal` (custom call 1, `cc1__tc_dnn_body`), run once per
  control case at a symbolic grid point on ANY whole staging memrefs, and the pipeline library's body obligation made
  of the three runs.

  The body zeroes the three-word scratch at the first point (`cond1`), at every point adds the three block sums of
  the two towers to it (`Tc.accStep`), and at the last point (`k1_cond2`) stores the score of the scratch in the
  [1,1] result buffer (`Tc.scoreOf`). `bodyA` / `bodyB` / `bodyC` are the first / a middle / the last point; each
  is the skeleton's memory operations run in order, the scratch's three one-word stores read back as one function
  (`read_writes_S3`). The proof data `dat` carries the scratch in the invariant `Φ`: any contents before the first
  point, the fold `accW` of the steps so far before a later one; the result window is idle (left as found) but at the
  last point. `body_obligation` is the library's obligation at every point, by the point's case.
-/
import proofs.«205816_g11845519802804_retrytranche1_1814_36_alg».proof.Proof.TcValue
import proofs.«205816_g11845519802804_retrytranche1_1814_36_alg».proof.Proof.Gen.KernelIdeal.Launch
import proofs.«205816_g11845519802804_retrytranche1_1814_36_alg».proof.Proof.Gen.KernelIdeal.Skeleton
import proofs.«205816_g11845519802804_retrytranche1_1814_36_alg».proof.Proof.Gen.KernelIdeal.Points
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

abbrev cond1 (i : grid1.Coords) : Prop := (Scalar.cmpi .ne (Scalar.extui (Scalar.cmpi .eq (BitVec.ofNat 32 (i 0).val) 0#32)) 0#32) = 1#1

theorem hz3 : (![0, 0, 0] : Fin 3 → Nat) = fun _ => 0 := funext fun a => by fin_cases a <;> rfl
theorem hz2 : (![0, 0] : Fin 2 → Nat) = fun _ => 0 := funext fun a => by fin_cases a <;> rfl

/-- The one element of a one-word rectangle of the three-word scratch is the word's index. -/
theorem emb_S3_val (k : ℕ) (inb : ∀ a, (![k] : Fin 1 → Nat) a + S1.size a ≤ S3.size a)
    (x : (Rect.unit (s := S3) ![k] S1.size inb).shape.Idx) :
    ((Rect.unit (s := S3) ![k] S1.size inb).emb x 0 : ℕ) = k := by
  have hx : ((x 0 : Fin _) : ℕ) < 1 := (x 0).isLt
  rw [Rect.emb_apply]
  show k + 1 * _ = k
  omega

/-- A load of one word of the scratch reads the contents at the word's index. -/
theorem ld_S3_0 {Val : EltTy → Type} (X : S3.Idx → Val .f32) (h : 0 < (Rect.unit (s := S3) ![0] S1.size inb_S3_S1_0).shape.numel) :
    View.ld X (Rect.unit (s := S3) ![0] S1.size inb_S3_S1_0) (Shape.Idx.first h) = X (ix1 (0 : Fin 3)) := by
  show X _ = X _
  congr 1
  funext a
  match a with
  | ⟨0, _⟩ => exact Fin.ext (show 0 + 1 * 0 = 0 by omega)
theorem ld_S3_1 {Val : EltTy → Type} (X : S3.Idx → Val .f32) (h : 0 < (Rect.unit (s := S3) ![1] S1.size inb_S3_S1_1).shape.numel) :
    View.ld X (Rect.unit (s := S3) ![1] S1.size inb_S3_S1_1) (Shape.Idx.first h) = X (ix1 (1 : Fin 3)) := by
  show X _ = X _
  congr 1
  funext a
  match a with
  | ⟨0, _⟩ => exact Fin.ext (show 1 + 1 * 0 = 1 by omega)
theorem ld_S3_2 {Val : EltTy → Type} (X : S3.Idx → Val .f32) (h : 0 < (Rect.unit (s := S3) ![2] S1.size inb_S3_S1_2).shape.numel) :
    View.ld X (Rect.unit (s := S3) ![2] S1.size inb_S3_S1_2) (Shape.Idx.first h) = X (ix1 (2 : Fin 3)) := by
  show X _ = X _
  congr 1
  funext a
  match a with
  | ⟨0, _⟩ => exact Fin.ext (show 2 + 1 * 0 = 2 by omega)

/-- Three one-word stores at the three words of the scratch leave the function that agrees with each. -/
theorem read_writes_S3 {Val : EltTy → Type} {κ : Kind} {sp : Space} (v : View sig κ sp S3 .f32) (f : v.ty.Contents Val)
    (G : S3.Idx → Val .f32)
    (w0 : (Rect.unit (s := S3) ![0] S1.size inb_S3_S1_0).shape.Idx → Val .f32)
    (w1 : (Rect.unit (s := S3) ![1] S1.size inb_S3_S1_1).shape.Idx → Val .f32)
    (w2 : (Rect.unit (s := S3) ![2] S1.size inb_S3_S1_2).shape.Idx → Val .f32)
    (L : List (View.Piece Val S3 .f32))
    (h0 : ∀ x, w0 x = G (ix1 (0 : Fin 3))) (h1 : ∀ x, w1 x = G (ix1 (1 : Fin 3))) (h2 : ∀ x, w2 x = G (ix1 (2 : Fin 3))) :
    v.read Val (v.writes Val f (⟨Rect.unit (s := S3) ![2] S1.size inb_S3_S1_2, w2⟩ :: ⟨Rect.unit (s := S3) ![1] S1.size inb_S3_S1_1, w1⟩ ::
      ⟨Rect.unit (s := S3) ![0] S1.size inb_S3_S1_0, w0⟩ :: L)) = G := by
  show v.read Val (v.writes Val (v.writes Val f L) [⟨Rect.unit (s := S3) ![2] S1.size inb_S3_S1_2, w2⟩, ⟨Rect.unit (s := S3) ![1] S1.size inb_S3_S1_1, w1⟩,
      ⟨Rect.unit (s := S3) ![0] S1.size inb_S3_S1_0, w0⟩]) = G
  generalize v.writes Val f L = f'
  have hG : ∀ (k : Fin 3) (inb : ∀ a, (![k.val] : Fin 1 → Nat) a + S1.size a ≤ S3.size a)
      (x : (Rect.unit (s := S3) ![k.val] S1.size inb).shape.Idx), (Rect.unit (s := S3) ![k.val] S1.size inb).emb x = ix1 k := by
    intro k inb x
    funext a
    match a with
    | ⟨0, _⟩ => exact Fin.ext (emb_S3_val k.val inb x)
  funext y
  refine View.read_writes_apply_of_pieces v f' G _ ?_ y ?_
  · intro p hp x
    simp only [List.mem_cons, List.not_mem_nil, or_false] at hp
    rcases hp with rfl | rfl | rfl
    · exact (h2 x).trans (congrArg G (hG 2 inb_S3_S1_2 x).symm)
    · exact (h1 x).trans (congrArg G (hG 1 inb_S3_S1_1 x).symm)
    · exact (h0 x).trans (congrArg G (hG 0 inb_S3_S1_0 x).symm)
  · have hy : (y 0 : ℕ) < 3 := (y 0).isLt
    rcases (by omega : (y 0 : ℕ) = 0 ∨ (y 0 : ℕ) = 1 ∨ (y 0 : ℕ) = 2) with e | e | e
    · refine ⟨⟨Rect.unit (s := S3) ![0] S1.size inb_S3_S1_0, w0⟩, List.mem_cons_of_mem _ (List.mem_cons_of_mem _ List.mem_cons_self), (Rect.mem_set_unit (inb := inb_S3_S1_0)).mpr fun a => ?_⟩
      match a with
      | ⟨0, _⟩ => show 0 ≤ (y 0 : ℕ) ∧ (y 0 : ℕ) < 0 + 1; omega
    · refine ⟨⟨Rect.unit (s := S3) ![1] S1.size inb_S3_S1_1, w1⟩, List.mem_cons_of_mem _ List.mem_cons_self, (Rect.mem_set_unit (inb := inb_S3_S1_1)).mpr fun a => ?_⟩
      match a with
      | ⟨0, _⟩ => show 1 ≤ (y 0 : ℕ) ∧ (y 0 : ℕ) < 1 + 1; omega
    · refine ⟨⟨Rect.unit (s := S3) ![2] S1.size inb_S3_S1_2, w2⟩, List.mem_cons_self, (Rect.mem_set_unit (inb := inb_S3_S1_2)).mpr fun a => ?_⟩
      match a with
      | ⟨0, _⟩ => show 2 ≤ (y 0 : ℕ) ∧ (y 0 : ℕ) < 2 + 1; omega

/-- One one-word store at the one word of a [1,1] buffer leaves the function that agrees with it. -/
theorem read_writes_S1x1 {Val : EltTy → Type} {κ : Kind} {sp : Space} (v : View sig κ sp S1x1 .f32) (f : v.ty.Contents Val)
    (G : S1x1.Idx → Val .f32)
    (w : (Rect.unit (s := S1x1) ![0, 0] S1x1.size inb_S1x1_S1x1_0_0).shape.Idx → Val .f32)
    (L : List (View.Piece Val S1x1 .f32)) (h : ∀ x y, w x = G y) :
    v.read Val (v.writes Val f (⟨Rect.unit (s := S1x1) ![0, 0] S1x1.size inb_S1x1_S1x1_0_0, w⟩ :: L)) = G := by
  show v.read Val (v.writes Val (v.writes Val f L) [⟨Rect.unit (s := S1x1) ![0, 0] S1x1.size inb_S1x1_S1x1_0_0, w⟩]) = G
  generalize v.writes Val f L = f'
  funext y
  refine View.read_writes_apply_of_pieces v f' G _ ?_ y ?_
  · intro p hp x
    simp only [List.mem_cons, List.not_mem_nil, or_false] at hp
    subst hp
    exact h x _
  · refine ⟨⟨Rect.unit (s := S1x1) ![0, 0] S1x1.size inb_S1x1_S1x1_0_0, w⟩, List.mem_cons_self, (Rect.mem_set_unit (inb := inb_S1x1_S1x1_0_0)).mpr fun a => ?_⟩
    have h0 : (y 0 : ℕ) < 1 := (y 0).isLt
    have h1 : (y 1 : ℕ) < 1 := (y 1).isLt
    match a with
    | ⟨0, _⟩ => show 0 ≤ (y 0 : ℕ) ∧ (y 0 : ℕ) < 0 + 1; omega
    | ⟨1, _⟩ => show 0 ≤ (y 1 : ℕ) ∧ (y 1 : ℕ) < 0 + 1; omega

set_option maxHeartbeats 2000000 in
theorem bodyA (𝒱₀ : Variants) (c : Dev nD) (i : grid1.Coords)
    (a1 : Memref sig .tc .vmem S13x16x1024 .f32) (h1 : a1.IsWhole) (a2 : Memref sig .tc .vmem S13x16x1024 .f32) (h2 : a2.IsWhole)
    (a3 : Memref sig .tc .vmem S64x208 .f32) (h3 : a3.IsWhole) (a4 : Memref sig .tc .vmem S64x1 .f32) (h4 : a4.IsWhole)
    (a5 : Memref sig .tc .vmem S32x64 .f32) (h5 : a5.IsWhole) (a6 : Memref sig .tc .vmem S32x1 .f32) (h6 : a6.IsWhole)
    (a7 : Memref sig .tc .vmem S64x208 .f32) (h7 : a7.IsWhole) (a8 : Memref sig .tc .vmem S64x1 .f32) (h8 : a8.IsWhole)
    (a9 : Memref sig .tc .vmem S32x64 .f32) (h9 : a9.IsWhole) (a10 : Memref sig .tc .vmem S32x1 .f32) (h10 : a10.IsWhole)
    (a11 : Memref sig .tc .smem S1x1 .f32) (h11 : a11.IsWhole) (a12 : Memref sig .tc .smem S3 .f32) (h12 : a12.IsWhole)
    (hc1 : cond1 i) (hc2 : ¬ k1_cond2 i = 1#1)
    (x1 x2 : Vec F S13x16x1024 .f32) (x3 : Vec F S64x208 .f32) (x4 : Vec F S64x1 .f32) (x5 : Vec F S32x64 .f32) (x6 : Vec F S32x1 .f32)
    (x7 : Vec F S64x208 .f32) (x8 : Vec F S64x1 .f32) (x9 : Vec F S32x64 .f32) (x10 : Vec F S32x1 .f32) (x11 : Vec F S1x1 .f32) (acc : Vec F S3 .f32)
    (E : Set Name) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
        ∗ owns (c : Thread nD τ) a12 fullShare acc
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
            ∗ owns (c : Thread nD τ) a12 fullShare (accStep zero3 x1 x2 x3 x4 x5 x6 x7 x8 x9 x10)) -∗ K ⟨⟩))
      ⊢ wp frame (wpE (defs₀ (F := F)) 𝒱₀ c none) E (cc1__tc_dnn_body i a1 h1 a2 h2 a3 h3 a4 h4 a5 h5 a6 h6 a7 h7 a8 h8 a9 h9 a10 h10 a11 h11 a12 h12) K := by
  simp only [cc1__tc_dnn_body_eq_skeleton]; unfold cc1__tc_dnn_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    · ipureintro; exact hf11
    · iexact H11
  iexists _; isplitr
  swap
  · iexact H12
  ipureintro
  sl_unfold_words
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S13x16x1024) hz3, View.ld_unit_zero (S := S64x208) hz2, View.ld_unit_zero (S := S64x1) hz2, View.ld_unit_zero (S := S32x64) hz2, View.ld_unit_zero (S := S32x1) hz2]
  refine read_writes_S3 _ _ (accStep zero3 x1 x2 x3 x4 x5 x6 x7 x8 x9 x10) _ _ _ _ ?_ ?_ ?_
  · intro x; rfl
  · intro x; rfl
  · intro x; rfl

set_option maxHeartbeats 2000000 in
theorem bodyB (𝒱₀ : Variants) (c : Dev nD) (i : grid1.Coords)
    (a1 : Memref sig .tc .vmem S13x16x1024 .f32) (h1 : a1.IsWhole) (a2 : Memref sig .tc .vmem S13x16x1024 .f32) (h2 : a2.IsWhole)
    (a3 : Memref sig .tc .vmem S64x208 .f32) (h3 : a3.IsWhole) (a4 : Memref sig .tc .vmem S64x1 .f32) (h4 : a4.IsWhole)
    (a5 : Memref sig .tc .vmem S32x64 .f32) (h5 : a5.IsWhole) (a6 : Memref sig .tc .vmem S32x1 .f32) (h6 : a6.IsWhole)
    (a7 : Memref sig .tc .vmem S64x208 .f32) (h7 : a7.IsWhole) (a8 : Memref sig .tc .vmem S64x1 .f32) (h8 : a8.IsWhole)
    (a9 : Memref sig .tc .vmem S32x64 .f32) (h9 : a9.IsWhole) (a10 : Memref sig .tc .vmem S32x1 .f32) (h10 : a10.IsWhole)
    (a11 : Memref sig .tc .smem S1x1 .f32) (h11 : a11.IsWhole) (a12 : Memref sig .tc .smem S3 .f32) (h12 : a12.IsWhole)
    (hc1 : ¬ cond1 i) (hc2 : ¬ k1_cond2 i = 1#1)
    (x1 x2 : Vec F S13x16x1024 .f32) (x3 : Vec F S64x208 .f32) (x4 : Vec F S64x1 .f32) (x5 : Vec F S32x64 .f32) (x6 : Vec F S32x1 .f32)
    (x7 : Vec F S64x208 .f32) (x8 : Vec F S64x1 .f32) (x9 : Vec F S32x64 .f32) (x10 : Vec F S32x1 .f32) (x11 : Vec F S1x1 .f32) (acc : Vec F S3 .f32)
    (E : Set Name) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
        ∗ owns (c : Thread nD τ) a12 fullShare acc
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
            ∗ owns (c : Thread nD τ) a12 fullShare (accStep acc x1 x2 x3 x4 x5 x6 x7 x8 x9 x10)) -∗ K ⟨⟩))
      ⊢ wp frame (wpE (defs₀ (F := F)) 𝒱₀ c none) E (cc1__tc_dnn_body i a1 h1 a2 h2 a3 h3 a4 h4 a5 h5 a6 h6 a7 h7 a8 h8 a9 h9 a10 h10 a11 h11 a12 h12) K := by
  simp only [cc1__tc_dnn_body_eq_skeleton]; unfold cc1__tc_dnn_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    · ipureintro; exact hf11
    · iexact H11
  iexists _; isplitr
  swap
  · iexact H12
  ipureintro
  sl_unfold_words
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S13x16x1024) hz3, View.ld_unit_zero (S := S64x208) hz2, View.ld_unit_zero (S := S64x1) hz2, View.ld_unit_zero (S := S32x64) hz2, View.ld_unit_zero (S := S32x1) hz2]
  refine read_writes_S3 _ _ (accStep acc x1 x2 x3 x4 x5 x6 x7 x8 x9 x10) _ _ _ [] ?_ ?_ ?_
  · intro x; rw [ld_S3_0]; rfl
  · intro x; rw [ld_S3_1]; rfl
  · intro x; rw [ld_S3_2]; rfl

set_option maxHeartbeats 2000000 in
theorem bodyC (𝒱₀ : Variants) (c : Dev nD) (i : grid1.Coords)
    (a1 : Memref sig .tc .vmem S13x16x1024 .f32) (h1 : a1.IsWhole) (a2 : Memref sig .tc .vmem S13x16x1024 .f32) (h2 : a2.IsWhole)
    (a3 : Memref sig .tc .vmem S64x208 .f32) (h3 : a3.IsWhole) (a4 : Memref sig .tc .vmem S64x1 .f32) (h4 : a4.IsWhole)
    (a5 : Memref sig .tc .vmem S32x64 .f32) (h5 : a5.IsWhole) (a6 : Memref sig .tc .vmem S32x1 .f32) (h6 : a6.IsWhole)
    (a7 : Memref sig .tc .vmem S64x208 .f32) (h7 : a7.IsWhole) (a8 : Memref sig .tc .vmem S64x1 .f32) (h8 : a8.IsWhole)
    (a9 : Memref sig .tc .vmem S32x64 .f32) (h9 : a9.IsWhole) (a10 : Memref sig .tc .vmem S32x1 .f32) (h10 : a10.IsWhole)
    (a11 : Memref sig .tc .smem S1x1 .f32) (h11 : a11.IsWhole) (a12 : Memref sig .tc .smem S3 .f32) (h12 : a12.IsWhole)
    (hc1 : ¬ cond1 i) (hc2 : k1_cond2 i = 1#1)
    (x1 x2 : Vec F S13x16x1024 .f32) (x3 : Vec F S64x208 .f32) (x4 : Vec F S64x1 .f32) (x5 : Vec F S32x64 .f32) (x6 : Vec F S32x1 .f32)
    (x7 : Vec F S64x208 .f32) (x8 : Vec F S64x1 .f32) (x9 : Vec F S32x64 .f32) (x10 : Vec F S32x1 .f32) (x11 : Vec F S1x1 .f32) (acc : Vec F S3 .f32)
    (E : Set Name) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
        ∗ owns (c : Thread nD τ) a12 fullShare acc
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare (scoreOf (accStep acc x1 x2 x3 x4 x5 x6 x7 x8 x9 x10))
            ∗ owns (c : Thread nD τ) a12 fullShare (accStep acc x1 x2 x3 x4 x5 x6 x7 x8 x9 x10)) -∗ K ⟨⟩))
      ⊢ wp frame (wpE (defs₀ (F := F)) 𝒱₀ c none) E (cc1__tc_dnn_body i a1 h1 a2 h2 a3 h3 a4 h4 a5 h5 a6 h6 a7 h7 a8 h8 a9 h9 a10 h10 a11 h11 a12 h12) K := by
  simp only [cc1__tc_dnn_body_eq_skeleton]; unfold cc1__tc_dnn_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    swap
    · iexact H11
    ipureintro
    sl_unfold_words
    simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S13x16x1024) hz3, View.ld_unit_zero (S := S64x208) hz2, View.ld_unit_zero (S := S64x1) hz2, View.ld_unit_zero (S := S32x64) hz2, View.ld_unit_zero (S := S32x1) hz2]
    refine read_writes_S1x1 _ _ (scoreOf (accStep acc x1 x2 x3 x4 x5 x6 x7 x8 x9 x10)) _ [] ?_
    intro x y
    rw [ld_S3_0, ld_S3_1, ld_S3_2]
    rfl
  iexists _; isplitr
  swap
  · iexact H12
  ipureintro
  sl_unfold_words
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S13x16x1024) hz3, View.ld_unit_zero (S := S64x208) hz2, View.ld_unit_zero (S := S64x1) hz2, View.ld_unit_zero (S := S32x64) hz2, View.ld_unit_zero (S := S32x1) hz2]
  refine read_writes_S3 _ _ (accStep acc x1 x2 x3 x4 x5 x6 x7 x8 x9 x10) _ _ _ [] ?_ ?_ ?_
  · intro x; rw [ld_S3_0]; rfl
  · intro x; rw [ld_S3_1]; rfl
  · intro x; rw [ld_S3_2]; rfl

/-! ## The pipeline's proof data and the body obligation -/

section Obligation

variable (𝒱₀ : Variants) {c : Dev nD} (V : (b : Ref sig .tc) → Buf (Elt F) ((c : Thread nD τ).loc b))
  (O : CellTallies nD τ sig Ix) (W : Waits sig Ix)

/-- Window `w`'s block at point `t`, read off its array at the contents `V`. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The scratch after point `n`, folded over the windows' own blocks of the two [13,16,16384] arrays. -/
def accW : (n : ℕ) → n < cfg1.N → Vec F S3 .f32
  | 0, h => accStep zero3 (iblk V 0 ⟨0, h⟩) (iblk V 1 ⟨0, h⟩) (iblk V 2 ⟨0, h⟩) (iblk V 3 ⟨0, h⟩) (iblk V 4 ⟨0, h⟩) (iblk V 5 ⟨0, h⟩) (iblk V 6 ⟨0, h⟩) (iblk V 7 ⟨0, h⟩) (iblk V 8 ⟨0, h⟩) (iblk V 9 ⟨0, h⟩)
  | n + 1, h => accStep (accW n (Nat.lt_of_succ_lt h)) (iblk V 0 ⟨n + 1, h⟩) (iblk V 1 ⟨n + 1, h⟩) (iblk V 2 ⟨n + 1, h⟩) (iblk V 3 ⟨n + 1, h⟩) (iblk V 4 ⟨n + 1, h⟩) (iblk V 5 ⟨n + 1, h⟩) (iblk V 6 ⟨n + 1, h⟩) (iblk V 7 ⟨n + 1, h⟩) (iblk V 8 ⟨n + 1, h⟩) (iblk V 9 ⟨n + 1, h⟩)

abbrev ms1_0 (t : Fin cfg1.N) : Memref sig .tc .vmem S13x16x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S13x16x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x208 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x208 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S32x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .smem S1x1 .f32 := win1_10.stage (cfg1.slots t 10)
abbrev hs1_10 (t : Fin cfg1.N) : (ms1_10 t).IsWhole := hstage1_10 ((cfg1.slots t 10).cast nbuf1_10)

/-- The scratch buffer whole at contents `f`. -/
abbrev scr (c : Dev nD) (f : Vec F S3 .f32) : sProp 𝕄 := owns (c : Thread nD τ) (Memref.whole cc1_scratch0) fullShare f

/-- The proof data: the arrays at `V`; after the body each input window's buffer at its block, the result window's
    at the score of the scratch after that point (read at the last point only); the invariant the scratch — at any
    contents before the first point, at the fold's value after point `t - 1` before point `t` —; the core owing the
    constant `O` throughout, its recorded pairs within `W` and the loop's own. -/
def dat : Dat τ (Elt F) Ix Name U Lvl cfg1 c where
  A w := V (Pipeline.arrRef spec1 w)
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => iblk V 7 t
    | ⟨8, _⟩ => iblk V 8 t
    | ⟨9, _⟩ => iblk V 9 t
    | ⟨10, _⟩ => scoreOf (accW V t.val t.isLt)
  Φ t := match t with
    | ⟨0, _⟩ => iprop(∃ f, scr c f)
    | ⟨n + 1, h⟩ => scr c (accW V n (Nat.lt_of_succ_lt_succ h))
  q _ := fullShare
  owed _ := O
  recorded _ := (↑W : Set (SemLoc sig × Ix))

theorem before1_0 (t : Fin cfg1.N) (d) : (dat (Ix := Ix) (Name := Name) (U := U) (Lvl := Lvl) V O W).before 0 t d = iblk V 0 t :=
  ((dat (Ix := Ix) (Name := Name) (U := U) (Lvl := Lvl) V O W).before_in_eq_fetched 0 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_1 (t : Fin cfg1.N) (d) : (dat (Ix := Ix) (Name := Name) (U := U) (Lvl := Lvl) V O W).before 1 t d = iblk V 1 t :=
  ((dat (Ix := Ix) (Name := Name) (U := U) (Lvl := Lvl) V O W).before_in_eq_fetched 1 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_2 (t : Fin cfg1.N) (d) : (dat (Ix := Ix) (Name := Name) (U := U) (Lvl := Lvl) V O W).before 2 t d = iblk V 2 t :=
  ((dat (Ix := Ix) (Name := Name) (U := U) (Lvl := Lvl) V O W).before_in_eq_fetched 2 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_3 (t : Fin cfg1.N) (d) : (dat (Ix := Ix) (Name := Name) (U := U) (Lvl := Lvl) V O W).before 3 t d = iblk V 3 t :=
  ((dat (Ix := Ix) (Name := Name) (U := U) (Lvl := Lvl) V O W).before_in_eq_fetched 3 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_4 (t : Fin cfg1.N) (d) : (dat (Ix := Ix) (Name := Name) (U := U) (Lvl := Lvl) V O W).before 4 t d = iblk V 4 t :=
  ((dat (Ix := Ix) (Name := Name) (U := U) (Lvl := Lvl) V O W).before_in_eq_fetched 4 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_5 (t : Fin cfg1.N) (d) : (dat (Ix := Ix) (Name := Name) (U := U) (Lvl := Lvl) V O W).before 5 t d = iblk V 5 t :=
  ((dat (Ix := Ix) (Name := Name) (U := U) (Lvl := Lvl) V O W).before_in_eq_fetched 5 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_6 (t : Fin cfg1.N) (d) : (dat (Ix := Ix) (Name := Name) (U := U) (Lvl := Lvl) V O W).before 6 t d = iblk V 6 t :=
  ((dat (Ix := Ix) (Name := Name) (U := U) (Lvl := Lvl) V O W).before_in_eq_fetched 6 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_7 (t : Fin cfg1.N) (d) : (dat (Ix := Ix) (Name := Name) (U := U) (Lvl := Lvl) V O W).before 7 t d = iblk V 7 t :=
  ((dat (Ix := Ix) (Name := Name) (U := U) (Lvl := Lvl) V O W).before_in_eq_fetched 7 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_8 (t : Fin cfg1.N) (d) : (dat (Ix := Ix) (Name := Name) (U := U) (Lvl := Lvl) V O W).before 8 t d = iblk V 8 t :=
  ((dat (Ix := Ix) (Name := Name) (U := U) (Lvl := Lvl) V O W).before_in_eq_fetched 8 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_9 (t : Fin cfg1.N) (d) : (dat (Ix := Ix) (Name := Name) (U := U) (Lvl := Lvl) V O W).before 9 t d = iblk V 9 t :=
  ((dat (Ix := Ix) (Name := Name) (U := U) (Lvl := Lvl) V O W).before_in_eq_fetched 9 rfl (fun _ => rfl) (fun _ _ _ => rfl) (fun t => by dsimp only [dat]; unfold Dat.blockOf iblk; dsimp only [dat]; try rfl) t d).trans
    (by unfold Dat.fetched Dat.blockOf iblk; dsimp only [dat]; try rfl)

/-- The first `scf.if` holds at the first point only, the second at the last only: decided over the grid. -/
theorem hcond1 : ∀ t : Fin cfg1.N, cond1 (grid1.coords t) ↔ t.val % 16 = 0 :=
  (by decide +kernel : ∀ t : Fin grid1.N, cond1 (grid1.coords t) ↔ t.val % 16 = 0)
theorem hcond2 : ∀ t : Fin cfg1.N, k1_cond2 (grid1.coords t) = 1#1 ↔ t.val % 16 = 15 :=
  (by decide +kernel : ∀ t : Fin grid1.N, k1_cond2 (grid1.coords t) = 1#1 ↔ t.val % 16 = 15)

/-- What the body is called with at point `t` (the library's body obligation, the windows one by one), -/
def bodyPre (ι : Ix) (t : Fin cfg1.N) : sProp 𝕄 :=
  iprop((dat (Ix := Ix) (Name := Name) (U := U) (Lvl := Lvl) V O W).Φ t.castSucc ∗ (dat (Ix := Ix) (Name := Name) (U := U) (Lvl := Lvl) V O W).owesAt ι t.castSucc
    ∗ (∃ d, owns (c : Thread nD τ) (ms1_0 t) fullShare ((dat (Ix := Ix) (Name := Name) (U := U) (Lvl := Lvl) V O W).before 0 t d))
    ∗ (∃ d, owns (c : Thread nD τ) (ms1_1 t) fullShare ((dat (Ix := Ix) (Name := Name) (U := U) (Lvl := Lvl) V O W).before 1 t d))
    ∗ (∃ d, owns (c : Thread nD τ) (ms1_2 t) fullShare ((dat (Ix := Ix) (Name := Name) (U := U) (Lvl := Lvl) V O W).before 2 t d))
    ∗ (∃ d, owns (c : Thread nD τ) (ms1_3 t) fullShare ((dat (Ix := Ix) (Name := Name) (U := U) (Lvl := Lvl) V O W).before 3 t d))
    ∗ (∃ d, owns (c : Thread nD τ) (ms1_4 t) fullShare ((dat (Ix := Ix) (Name := Name) (U := U) (Lvl := Lvl) V O W).before 4 t d))
    ∗ (∃ d, owns (c : Thread nD τ) (ms1_5 t) fullShare ((dat (Ix := Ix) (Name := Name) (U := U) (Lvl := Lvl) V O W).before 5 t d))
    ∗ (∃ d, owns (c : Thread nD τ) (ms1_6 t) fullShare ((dat (Ix := Ix) (Name := Name) (U := U) (Lvl := Lvl) V O W).before 6 t d))
    ∗ (∃ d, owns (c : Thread nD τ) (ms1_7 t) fullShare ((dat (Ix := Ix) (Name := Name) (U := U) (Lvl := Lvl) V O W).before 7 t d))
    ∗ (∃ d, owns (c : Thread nD τ) (ms1_8 t) fullShare ((dat (Ix := Ix) (Name := Name) (U := U) (Lvl := Lvl) V O W).before 8 t d))
    ∗ (∃ d, owns (c : Thread nD τ) (ms1_9 t) fullShare ((dat (Ix := Ix) (Name := Name) (U := U) (Lvl := Lvl) V O W).before 9 t d))
    ∗ (∃ d, owns (c : Thread nD τ) (ms1_10 t) fullShare ((dat (Ix := Ix) (Name := Name) (U := U) (Lvl := Lvl) V O W).before 10 t d)))

/-- and what it returns. -/
def bodyPost (ι : Ix) (t : Fin cfg1.N) : sProp 𝕄 :=
  iprop((dat (Ix := Ix) (Name := Name) (U := U) (Lvl := Lvl) V O W).Φ t.succ ∗ (dat (Ix := Ix) (Name := Name) (U := U) (Lvl := Lvl) V O W).owesAt ι t.succ
    ∗ owns (c : Thread nD τ) (ms1_0 t) fullShare (iblk V 0 t)
    ∗ owns (c : Thread nD τ) (ms1_1 t) fullShare (iblk V 1 t)
    ∗ owns (c : Thread nD τ) (ms1_2 t) fullShare (iblk V 2 t)
    ∗ owns (c : Thread nD τ) (ms1_3 t) fullShare (iblk V 3 t)
    ∗ owns (c : Thread nD τ) (ms1_4 t) fullShare (iblk V 4 t)
    ∗ owns (c : Thread nD τ) (ms1_5 t) fullShare (iblk V 5 t)
    ∗ owns (c : Thread nD τ) (ms1_6 t) fullShare (iblk V 6 t)
    ∗ owns (c : Thread nD τ) (ms1_7 t) fullShare (iblk V 7 t)
    ∗ owns (c : Thread nD τ) (ms1_8 t) fullShare (iblk V 8 t)
    ∗ owns (c : Thread nD τ) (ms1_9 t) fullShare (iblk V 9 t)
    ∗ (dat (Ix := Ix) (Name := Name) (U := U) (Lvl := Lvl) V O W).leavesExact 10 t)

set_option maxHeartbeats 1600000 in
/-- The body at any point, by the point's control case: the inputs' buffers hold their blocks; at the first point the
    scratch is found at anything and left at the first step from zero; later at the fold's value so far and left one
    step on; the result's buffer is left as found but at the last point, where it is left at the score. -/
theorem sound_body (ι : Ix) (t : Fin cfg1.N) :
    (bodyPre V O W ι t : sProp 𝕄) ⊢ wp frame (wpE (defs₀ (F := F)) 𝒱₀ c none) Set.univ (bodyAt1 t) (fun _ => bodyPost V O W ι t) := by
  unfold bodyPre bodyPost bodyAt1
  simp only [before1_0, before1_1, before1_2, before1_3, before1_4, before1_5, before1_6, before1_7, before1_8, before1_9]
  rw [show (dat (Ix := Ix) (Name := Name) (U := U) (Lvl := Lvl) V O W).owesAt ι t.succ = (dat (Ix := Ix) (Name := Name) (U := U) (Lvl := Lvl) V O W).owesAt ι t.castSucc from rfl]
  have hN : t.val < 16 := lt_of_lt_of_eq t.isLt N_1
  obtain ⟨n, hn⟩ := t
  replace hN : n < 16 := hN
  rcases Nat.eq_zero_or_pos n with rfl | hpos
  · -- the first point
    have hc1 : cond1 (grid1.coords ⟨0, hn⟩) := (hcond1 ⟨0, hn⟩).mpr rfl
    have hc2 : ¬ k1_cond2 (grid1.coords ⟨0, hn⟩) = 1#1 := fun h => by have := (hcond2 ⟨0, hn⟩).mp h; simp at this
    have hi : cfg1.idle 10 (cfg1.grid.coords ⟨0, hn⟩) = true := by
      show (!(k1_cond2 (grid1.coords ⟨0, hn⟩) == 1#1)) = true
      simp [hc2]
    have hf : (cfg1.win 10).flush ⟨0, hn⟩ = false := Bool.eq_false_iff.mpr fun h => by have := (flush1_10 ⟨0, hn⟩).mp h; simp at this
    rw [(dat (Ix := Ix) (Name := Name) (U := U) (Lvl := Lvl) V O W).leavesExact_idle 10 ⟨0, hn⟩ hi hf]
    show iprop((∃ f, scr c f) ∗ _) ⊢ wp _ _ _ _ (fun _ => iprop(scr c (accW V 0 hn) ∗ _))
    iintro ⟨⟨%f, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (bodyA 𝒱₀ c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (Memref.whole cc1_scratch0) (Memref.isWhole_whole _) hc1 hc2
      (iblk V 0 ⟨0, hn⟩) (iblk V 1 ⟨0, hn⟩) (iblk V 2 ⟨0, hn⟩) (iblk V 3 ⟨0, hn⟩) (iblk V 4 ⟨0, hn⟩) (iblk V 5 ⟨0, hn⟩) (iblk V 6 ⟨0, hn⟩) (iblk V 7 ⟨0, hn⟩) (iblk V 8 ⟨0, hn⟩) (iblk V 9 ⟨0, hn⟩) _ f Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HΦ]; · iexact HΦ
    iintro ⟨H0, H1, H2, H3, H4, H5, H6, H7, H8, H9, H10, HΦ⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · obtain ⟨m, rfl⟩ := Nat.exists_eq_succ_of_ne_zero (Nat.pos_iff_ne_zero.mp hpos)
    replace hN : m + 1 < 16 := hN
    have hc1 : ¬ cond1 (grid1.coords ⟨m + 1, hn⟩) := fun h => by have := (hcond1 ⟨m + 1, hn⟩).mp h; dsimp only at this; omega
    show iprop(scr c (accW V m (Nat.lt_of_succ_lt hn)) ∗ _) ⊢ wp _ _ _ _ (fun _ => iprop(scr c (accW V (m + 1) hn) ∗ _))
    by_cases hl : m + 1 = 15
    · -- the last point
      have hc2 : k1_cond2 (grid1.coords ⟨m + 1, hn⟩) = 1#1 := (hcond2 ⟨m + 1, hn⟩).mpr (by dsimp only; omega)
      have hi : cfg1.idle 10 (cfg1.grid.coords ⟨m + 1, hn⟩) = false := by
        show (!(k1_cond2 (grid1.coords ⟨m + 1, hn⟩) == 1#1)) = false
        simp [hc2]
      rw [show (dat (Ix := Ix) (Name := Name) (U := U) (Lvl := Lvl) V O W).leavesExact 10 ⟨m + 1, hn⟩ = owns (c : Thread nD τ) (ms1_10 ⟨m + 1, hn⟩) fullShare ((dat (Ix := Ix) (Name := Name) (U := U) (Lvl := Lvl) V O W).after 10 ⟨m + 1, hn⟩) from by
        unfold Pipeline.Dat.leavesExact; rw [hi]]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (bodyC 𝒱₀ c (grid1.coords ⟨m + 1, hn⟩) (ms1_0 ⟨m + 1, hn⟩) (hs1_0 ⟨m + 1, hn⟩) (ms1_1 ⟨m + 1, hn⟩) (hs1_1 ⟨m + 1, hn⟩) (ms1_2 ⟨m + 1, hn⟩) (hs1_2 ⟨m + 1, hn⟩) (ms1_3 ⟨m + 1, hn⟩) (hs1_3 ⟨m + 1, hn⟩) (ms1_4 ⟨m + 1, hn⟩) (hs1_4 ⟨m + 1, hn⟩) (ms1_5 ⟨m + 1, hn⟩) (hs1_5 ⟨m + 1, hn⟩) (ms1_6 ⟨m + 1, hn⟩) (hs1_6 ⟨m + 1, hn⟩) (ms1_7 ⟨m + 1, hn⟩) (hs1_7 ⟨m + 1, hn⟩) (ms1_8 ⟨m + 1, hn⟩) (hs1_8 ⟨m + 1, hn⟩) (ms1_9 ⟨m + 1, hn⟩) (hs1_9 ⟨m + 1, hn⟩) (ms1_10 ⟨m + 1, hn⟩) (hs1_10 ⟨m + 1, hn⟩) (Memref.whole cc1_scratch0) (Memref.isWhole_whole _) hc1 hc2
        (iblk V 0 ⟨m + 1, hn⟩) (iblk V 1 ⟨m + 1, hn⟩) (iblk V 2 ⟨m + 1, hn⟩) (iblk V 3 ⟨m + 1, hn⟩) (iblk V 4 ⟨m + 1, hn⟩) (iblk V 5 ⟨m + 1, hn⟩) (iblk V 6 ⟨m + 1, hn⟩) (iblk V 7 ⟨m + 1, hn⟩) (iblk V 8 ⟨m + 1, hn⟩) (iblk V 9 ⟨m + 1, hn⟩) _ (accW V m (Nat.lt_of_succ_lt hn)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HΦ]; · iexact HΦ
      iintro ⟨H0, H1, H2, H3, H4, H5, H6, H7, H8, H9, H10, HΦ⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a middle point
      have hc2 : ¬ k1_cond2 (grid1.coords ⟨m + 1, hn⟩) = 1#1 := fun h => by have := (hcond2 ⟨m + 1, hn⟩).mp h; dsimp only at this; omega
      have hi : cfg1.idle 10 (cfg1.grid.coords ⟨m + 1, hn⟩) = true := by
        show (!(k1_cond2 (grid1.coords ⟨m + 1, hn⟩) == 1#1)) = true
        simp [hc2]
      have hf : (cfg1.win 10).flush ⟨m + 1, hn⟩ = false := Bool.eq_false_iff.mpr fun h => by have := (flush1_10 ⟨m + 1, hn⟩).mp h; dsimp only at this; omega
      rw [(dat (Ix := Ix) (Name := Name) (U := U) (Lvl := Lvl) V O W).leavesExact_idle 10 ⟨m + 1, hn⟩ hi hf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (bodyB 𝒱₀ c (grid1.coords ⟨m + 1, hn⟩) (ms1_0 ⟨m + 1, hn⟩) (hs1_0 ⟨m + 1, hn⟩) (ms1_1 ⟨m + 1, hn⟩) (hs1_1 ⟨m + 1, hn⟩) (ms1_2 ⟨m + 1, hn⟩) (hs1_2 ⟨m + 1, hn⟩) (ms1_3 ⟨m + 1, hn⟩) (hs1_3 ⟨m + 1, hn⟩) (ms1_4 ⟨m + 1, hn⟩) (hs1_4 ⟨m + 1, hn⟩) (ms1_5 ⟨m + 1, hn⟩) (hs1_5 ⟨m + 1, hn⟩) (ms1_6 ⟨m + 1, hn⟩) (hs1_6 ⟨m + 1, hn⟩) (ms1_7 ⟨m + 1, hn⟩) (hs1_7 ⟨m + 1, hn⟩) (ms1_8 ⟨m + 1, hn⟩) (hs1_8 ⟨m + 1, hn⟩) (ms1_9 ⟨m + 1, hn⟩) (hs1_9 ⟨m + 1, hn⟩) (ms1_10 ⟨m + 1, hn⟩) (hs1_10 ⟨m + 1, hn⟩) (Memref.whole cc1_scratch0) (Memref.isWhole_whole _) hc1 hc2
        (iblk V 0 ⟨m + 1, hn⟩) (iblk V 1 ⟨m + 1, hn⟩) (iblk V 2 ⟨m + 1, hn⟩) (iblk V 3 ⟨m + 1, hn⟩) (iblk V 4 ⟨m + 1, hn⟩) (iblk V 5 ⟨m + 1, hn⟩) (iblk V 6 ⟨m + 1, hn⟩) (iblk V 7 ⟨m + 1, hn⟩) (iblk V 8 ⟨m + 1, hn⟩) (iblk V 9 ⟨m + 1, hn⟩) _ (accW V m (Nat.lt_of_succ_lt hn)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HΦ]; · iexact HΦ
      iintro ⟨H0, H1, H2, H3, H4, H5, H6, H7, H8, H9, H10, HΦ⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation (ι : Ix) : BodyObligation (dat (Ix := Ix) (Name := Name) (U := U) (Lvl := Lvl) V O W) (defs₀ (F := F)) 𝒱₀ ι Set.univ := fun t => by
  rw [bigSep_W1, bigSep_W1]
  exact sound_body 𝒱₀ V O W ι t

end Obligation

end Cert.KernelIdeal.Tc

end
-- ==== Proof.TcRegion.lean ====
/-
  The inner TensorCore region of `Cert.KernelIdeal` (custom call 1) as ONE rule at @main's custom-call line, for the
  TensorCore thread inside the SparseCore launch.

  § Value: the windows' blocks read as values — a block of a [13,16,16384] array is `Tc.blk` of it, a weight window's
  block is its array —, so the body obligation's fold over window blocks is `Tc.accAt`, and the one write-back of the
  [1,1] result window, at the last point, leaves the result array at `Tc.tcScore` of the ten operand arrays.
  § Region: the pipeline library's record of the region (`reg`: the generated layout facts, the body obligation of
  TcBody.lean, the staging cells' waits at the index `none`, the eleven arrays in and out) and the rule
  `wp_tcRegion`: the region entered in the pipeline's own signature and lifted to the program's body table.
-/
import proofs.«205816_g11845519802804_retrytranche1_1814_36_alg».proof.Proof.TcBody
import Idealize.ShloMosaic.Lib.SparseCore.Launch
import proofs.«205816_g11845519802804_retrytranche1_1814_36_alg».proof.Proof.Gen.KernelIdeal.Launch
import proofs.«205816_g11845519802804_retrytranche1_1814_36_alg».proof.Proof.Gen.KernelIdeal.Skeleton
import proofs.«205816_g11845519802804_retrytranche1_1814_36_alg».proof.Proof.Gen.KernelIdeal.Points
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The windows' blocks read as values: the fold is `Tc.accAt`, the result array ends at `Tc.tcScore` -/

section Value

variable {Ix : Type} [DecidableEq Ix] {Name : Type} [DecidableEq Name] {U : Type} [URA U] {Lvl : Type} [Preorder Lvl]
variable {c : Dev nD} (V : (b : Ref sig .tc) → Buf (Elt F) ((c : Thread nD τ).loc b))

theorem iblk_0 (t : Fin cfg1.N) : (iblk V 0 t : Vec F S13x16x1024 .f32) = blk (V main_v2_0) t.val := by
  have hi : win1_0.index t 0 = 0 ∧ win1_0.index t 1 = 0 ∧ win1_0.index t 2 = t.val :=
    (by decide +kernel : ∀ t : Fin grid1.N, win1_0.index t 0 = 0 ∧ win1_0.index t 1 = 0 ∧ win1_0.index t 2 = t.val) t
  have hN : t.val < 16 := lt_of_lt_of_eq t.isLt N_1
  funext j
  unfold iblk blk
  rw [View.read_apply]
  show V main_v2_0 _ = V main_v2_0 _
  congr 1
  funext a
  apply Fin.ext
  match a with
  | ⟨0, _⟩ => show win1_0.index t 0 * 13 + 1 * (j 0).val = (j 0).val; rw [hi.1]; omega
  | ⟨1, _⟩ => show win1_0.index t 1 * 16 + 1 * (j 1).val = (j 1).val; rw [hi.2.1]; omega
  | ⟨2, _⟩ => show win1_0.index t 2 * 1024 + 1 * (j 2).val = 1024 * (t.val % 16) + (j 2).val; rw [hi.2.2, Nat.mod_eq_of_lt hN]; omega
theorem iblk_1 (t : Fin cfg1.N) : (iblk V 1 t : Vec F S13x16x1024 .f32) = blk (V main_v2_1) t.val := by
  have hi : win1_1.index t 0 = 0 ∧ win1_1.index t 1 = 0 ∧ win1_1.index t 2 = t.val :=
    (by decide +kernel : ∀ t : Fin grid1.N, win1_1.index t 0 = 0 ∧ win1_1.index t 1 = 0 ∧ win1_1.index t 2 = t.val) t
  have hN : t.val < 16 := lt_of_lt_of_eq t.isLt N_1
  funext j
  unfold iblk blk
  rw [View.read_apply]
  show V main_v2_1 _ = V main_v2_1 _
  congr 1
  funext a
  apply Fin.ext
  match a with
  | ⟨0, _⟩ => show win1_1.index t 0 * 13 + 1 * (j 0).val = (j 0).val; rw [hi.1]; omega
  | ⟨1, _⟩ => show win1_1.index t 1 * 16 + 1 * (j 1).val = (j 1).val; rw [hi.2.1]; omega
  | ⟨2, _⟩ => show win1_1.index t 2 * 1024 + 1 * (j 2).val = 1024 * (t.val % 16) + (j 2).val; rw [hi.2.2, Nat.mod_eq_of_lt hN]; omega
theorem iblk_2 (t : Fin cfg1.N) : (iblk V 2 t : Vec F S64x208 .f32) = V main_v3 := by
  have hz' : (fun a => win1_2.index t a * main_v3.ty.shape.size a) = fun _ => 0 := funext fun a => by fin_cases a <;> rfl
  exact Memref.read_access_unit_zero (Elt F) main_v3 hz' (fun a => by rw [congrFun hz' a]; simp) (V main_v3)
theorem iblk_3 (t : Fin cfg1.N) : (iblk V 3 t : Vec F S64x1 .f32) = V main_v4 := by
  have hz' : (fun a => win1_3.index t a * main_v4.ty.shape.size a) = fun _ => 0 := funext fun a => by fin_cases a <;> rfl
  exact Memref.read_access_unit_zero (Elt F) main_v4 hz' (fun a => by rw [congrFun hz' a]; simp) (V main_v4)
theorem iblk_4 (t : Fin cfg1.N) : (iblk V 4 t : Vec F S32x64 .f32) = V main_v5 := by
  have hz' : (fun a => win1_4.index t a * main_v5.ty.shape.size a) = fun _ => 0 := funext fun a => by fin_cases a <;> rfl
  exact Memref.read_access_unit_zero (Elt F) main_v5 hz' (fun a => by rw [congrFun hz' a]; simp) (V main_v5)
theorem iblk_5 (t : Fin cfg1.N) : (iblk V 5 t : Vec F S32x1 .f32) = V main_v6 := by
  have hz' : (fun a => win1_5.index t a * main_v6.ty.shape.size a) = fun _ => 0 := funext fun a => by fin_cases a <;> rfl
  exact Memref.read_access_unit_zero (Elt F) main_v6 hz' (fun a => by rw [congrFun hz' a]; simp) (V main_v6)
theorem iblk_6 (t : Fin cfg1.N) : (iblk V 6 t : Vec F S64x208 .f32) = V main_v7 := by
  have hz' : (fun a => win1_6.index t a * main_v7.ty.shape.size a) = fun _ => 0 := funext fun a => by fin_cases a <;> rfl
  exact Memref.read_access_unit_zero (Elt F) main_v7 hz' (fun a => by rw [congrFun hz' a]; simp) (V main_v7)
theorem iblk_7 (t : Fin cfg1.N) : (iblk V 7 t : Vec F S64x1 .f32) = V main_v8 := by
  have hz' : (fun a => win1_7.index t a * main_v8.ty.shape.size a) = fun _ => 0 := funext fun a => by fin_cases a <;> rfl
  exact Memref.read_access_unit_zero (Elt F) main_v8 hz' (fun a => by rw [congrFun hz' a]; simp) (V main_v8)
theorem iblk_8 (t : Fin cfg1.N) : (iblk V 8 t : Vec F S32x64 .f32) = V main_v9 := by
  have hz' : (fun a => win1_8.index t a * main_v9.ty.shape.size a) = fun _ => 0 := funext fun a => by fin_cases a <;> rfl
  exact Memref.read_access_unit_zero (Elt F) main_v9 hz' (fun a => by rw [congrFun hz' a]; simp) (V main_v9)
theorem iblk_9 (t : Fin cfg1.N) : (iblk V 9 t : Vec F S32x1 .f32) = V main_v10 := by
  have hz' : (fun a => win1_9.index t a * main_v10.ty.shape.size a) = fun _ => 0 := funext fun a => by fin_cases a <;> rfl
  exact Memref.read_access_unit_zero (Elt F) main_v10 hz' (fun a => by rw [congrFun hz' a]; simp) (V main_v10)

/-- The fold over the windows' blocks is the fold over the arrays' blocks. -/
theorem accW_eq : ∀ (n : ℕ) (h : n < cfg1.N), accW V n h = accAt (V main_v2_0) (V main_v2_1) (V main_v3) (V main_v4) (V main_v5) (V main_v6) (V main_v7) (V main_v8) (V main_v9) (V main_v10) n
  | 0, h => by
    show accStep zero3 _ _ _ _ _ _ _ _ _ _ = accStep zero3 _ _ _ _ _ _ _ _ _ _
    rw [iblk_0, iblk_1, iblk_2, iblk_3, iblk_4, iblk_5, iblk_6, iblk_7, iblk_8, iblk_9]
  | n + 1, h => by
    show accStep (accW V n _) _ _ _ _ _ _ _ _ _ _ = accStep (accAt (V main_v2_0) (V main_v2_1) (V main_v3) (V main_v4) (V main_v5) (V main_v6) (V main_v7) (V main_v8) (V main_v9) (V main_v10) n) _ _ _ _ _ _ _ _ _ _
    rw [accW_eq n, iblk_0, iblk_1, iblk_2, iblk_3, iblk_4, iblk_5, iblk_6, iblk_7, iblk_8, iblk_9]

variable (O : CellTallies nD τ sig Ix) (W : Waits sig Ix)

/-- The one write-back, at the last point, writes the score: block (0, 0) of the [1,1] array is the array. -/
theorem flushed_eq (t : Fin cfg1.N) (hf : (cfg1.win 10).flush t = true) :
    (dat (Ix := Ix) (Name := Name) (U := U) (Lvl := Lvl) V O W).flushed 10 t
      = ((cfg1.win 10).blk t).view.read (Elt F) (tcScore (V main_v2_0) (V main_v2_1) (V main_v3) (V main_v4) (V main_v5) (V main_v6) (V main_v7) (V main_v8) (V main_v9) (V main_v10)) := by
  have hN : t.val < 16 := lt_of_lt_of_eq t.isLt N_1
  have h15 : t.val = 15 := by have := (flush1_10 t).mp hf; omega
  obtain rfl : t = t1_15 := Fin.ext h15
  show (cfg1.win 10).cut (grid1.coords t1_15) ((dat (Ix := Ix) (Name := Name) (U := U) (Lvl := Lvl) V O W).after 10 t1_15) = _
  have ha : (dat (Ix := Ix) (Name := Name) (U := U) (Lvl := Lvl) V O W).after 10 t1_15 = tcScore (V main_v2_0) (V main_v2_1) (V main_v3) (V main_v4) (V main_v5) (V main_v6) (V main_v7) (V main_v8) (V main_v9) (V main_v10) := by
    dsimp only [dat]
    unfold tcScore
    rw [accW_eq]
    rfl
  rw [ha]
  have hz' : (fun a => win1_10.index t1_15 a * main_v11.ty.shape.size a) = fun _ => 0 := funext fun a => by fin_cases a <;> rfl
  exact (Memref.read_access_unit_zero (Elt F) main_v11 hz' (fun a => by rw [congrFun hz' a]; simp) (tcScore (V main_v2_0) (V main_v2_1) (V main_v3) (V main_v4) (V main_v5) (V main_v6) (V main_v7) (V main_v8) (V main_v9) (V main_v10))).symm

/-- So the result array ends holding the score. -/
theorem final_out : (dat (Ix := Ix) (Name := Name) (U := U) (Lvl := Lvl) V O W).arrAt 10 cfg1.N = tcScore (V main_v2_0) (V main_v2_1) (V main_v3) (V main_v4) (V main_v5) (V main_v6) (V main_v7) (V main_v8) (V main_v9) (V main_v10) :=
  (dat V O W).arrAt_eq_of_cover 10 (tcScore (V main_v2_0) (V main_v2_1) (V main_v3) (V main_v4) (V main_v5) (V main_v6) (V main_v7) (V main_v8) (V main_v9) (V main_v10)) (flushed_eq V O W) fun i =>
    ⟨t1_15, (flush1_10 t1_15).mpr rfl, by
      show i ∈ ((View.whole main_v11).slice (win1_10.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_10.index t1_15 0 * win1_10.size 0 ≤ (i 0 : Nat) ∧ (i 0 : Nat) < win1_10.index t1_15 0 * win1_10.size 0 + win1_10.xsize (grid1.coords t1_15) 0
                  rw [show win1_10.index t1_15 0 * win1_10.size 0 = 0 from by decide +kernel, show win1_10.xsize (grid1.coords t1_15) 0 = 1 from by decide +kernel]; omega
      | ⟨1, _⟩ => show win1_10.index t1_15 1 * win1_10.size 1 ≤ (i 1 : Nat) ∧ (i 1 : Nat) < win1_10.index t1_15 1 * win1_10.size 1 + win1_10.xsize (grid1.coords t1_15) 1
                  rw [show win1_10.index t1_15 1 * win1_10.size 1 = 0 from by decide +kernel, show win1_10.xsize (grid1.coords t1_15) 1 = 1 from by decide +kernel]; omega⟩

end Value

/-! ## The region: the library's record for `customCall (entry 0) ()`, and the rule at the custom-call line -/

section Region

variable {Name : Type} [DecidableEq Name] {U : Type} [URA U]

local notation "𝕄" => MT nD τ sig (Option (Fin 1)) (Elt F) Name U ℕ

/-- The pipeline prefetches nothing: its one admissible table contents. -/
abbrev adm : (p : Fin 1) → (pcfgs (F := F) p).Adm := fun p => (cfgs p).toPCfg_adm

/-- The program's staging cells are pairwise distinct, at the pinned configuration. -/
theorem hinj : Function.Injective (Pipeline.cellOf (nD := nD) (τ := τ) (Pipeline.pin (pcfgs (F := F)) adm)) :=
  (launch1.toP (Val := Elt F)).cellOf_inj adm

variable (V : (c : Dev nD) → (b : Ref sig .tc) → Buf (Elt F) ((c : Thread nD τ).loc b))
  (O : Dev nD → CellTallies nD τ sig (Option (Fin 1))) (W : Dev nD → Waits sig (Option (Fin 1)))

/-- The proof data of the one pipeline, on every core. -/
def pdats : (p : Fin 1) → (c : Dev nD) → Dat τ (Elt F) (Option (Fin 1)) Name U ℕ (Pipeline.pin (pcfgs (F := F)) adm p) c
  | 0 => fun c => dat (V c) (O c) (W c)

/-- A buffer of core `c` whole at the full share. -/
abbrev pl (c : Dev nD) (b : Ref sig .tc) (f : Buf (Elt F) ((c : Thread nD τ).loc b)) : sProp 𝕄 := ((c : Thread nD τ).loc b) ↦{fullShare} f

omit [FloatOps F] in
theorem owns_whole_eq (c : Dev nD) (b : Ref sig .tc) (X : b.ty.Contents (Elt F)) :
    (owns (Ix := Option (Fin 1)) (Name := Name) (U := U) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The region's arrays at contents `Fa` are the eleven buffers held. -/
theorem arrays_eq (c : Dev nD) (Fa) : ((pdats (Name := Name) (U := U) V O W 0 c).arrays Fa : sProp 𝕄)
    = iprop(pl c main_v2_0 (Fa 0) ∗ pl c main_v2_1 (Fa 1) ∗ pl c main_v3 (Fa 2) ∗ pl c main_v4 (Fa 3) ∗ pl c main_v5 (Fa 4) ∗ pl c main_v6 (Fa 5) ∗ pl c main_v7 (Fa 6) ∗ pl c main_v8 (Fa 7) ∗ pl c main_v9 (Fa 8) ∗ pl c main_v10 (Fa 9) ∗ pl c main_v11 (Fa 10)) := by
  rw [Pipeline.arrays_eq (Pipeline.pin (pcfgs (F := F)) adm) (pdats V O W) 0 c launch1.arr_whole ((pdats V O W 0 c).share_full fun _ => rfl) Fa, bigSep_W1]

/-- What the region is entered from: what the core owes and the eleven arrays, -/
def regPre (c : Dev nD) : sProp 𝕄 :=
  iprop(owes (c : Thread nD τ) (O c) (W c) ∗ pl c main_v2_0 (V c main_v2_0) ∗ pl c main_v2_1 (V c main_v2_1) ∗ pl c main_v3 (V c main_v3) ∗ pl c main_v4 (V c main_v4) ∗ pl c main_v5 (V c main_v5) ∗ pl c main_v6 (V c main_v6) ∗ pl c main_v7 (V c main_v7) ∗ pl c main_v8 (V c main_v8) ∗ pl c main_v9 (V c main_v9) ∗ pl c main_v10 (V c main_v10) ∗ pl c main_v11 (V c main_v11))

/-- and what it leaves: the ten operands unchanged, the result array at the score, the core owing the same with its
    recorded pairs grown by pairs at index `none` only (the staging cells' waits). -/
def regPost (c : Dev nD) : sProp 𝕄 :=
  iprop((∃ W', ⌜∀ p ∈ W', p ∈ W c ∨ p.2 = none⌝ ∗ owes (c : Thread nD τ) (O c) W') ∗ pl c main_v2_0 (V c main_v2_0) ∗ pl c main_v2_1 (V c main_v2_1) ∗ pl c main_v3 (V c main_v3) ∗ pl c main_v4 (V c main_v4) ∗ pl c main_v5 (V c main_v5) ∗ pl c main_v6 (V c main_v6) ∗ pl c main_v7 (V c main_v7) ∗ pl c main_v8 (V c main_v8) ∗ pl c main_v9 (V c main_v9) ∗ pl c main_v10 (V c main_v10)
    ∗ pl c main_v11 (tcScore (V c main_v2_0) (V c main_v2_1) (V c main_v3) (V c main_v4) (V c main_v5) (V c main_v6) (V c main_v7) (V c main_v8) (V c main_v9) (V c main_v10)))

/-- THE REGION, the library's record: the layout decided by the generated launch facts, no semaphore of the kernel's
    own, the body obligation, the staging cells' waits at index `none` (below everything the launch protocol has the
    TensorCore owe), the eleven arrays into the pipeline and back. -/
def reg (𝒱₀ : Variants) (lv : GSem nD τ sig → Option (Fin 1) → ℕ) (hlv : (sc (F := F)).Refines lv) (hO : ∀ c g, O c g none = 0) :
    Pipeline.RegionSeg (pcfgs (F := F)) adm (pdats (Name := Name) (U := U) V O W) (none : Option (Fin 1)) defs₀ 𝒱₀ (sc (F := F)).L lv 0 where
  win := launch1.win.to₀
  block_pos := launch1.block_pos
  stage_whole := launch1.stage_whole
  K := PEmpty
  osem k := k.elim
  ho := Pipeline.OwnSemFacts.none _
  hbody c := (body_obligation 𝒱₀ (V c) (O c) (W c) none).loose
  hwaits c := Pipeline.cellsWaits_intro (Pipeline.pin (pcfgs (F := F)) adm) (pdats V O W) none 0 c
    fun w s t => (sc (F := F)).mayWait_none _ (hO c) lv hlv
  pre := regPre V O W
  post := regPost V O W
  X _ := iprop(emp)
  Y _ := iprop(emp)
  Z _ := iprop(emp)
  hentry c := by
    rw [Pipeline.ownSems0_none, arrays_eq]
    unfold regPre
    iintro ⟨⟨HO, H0, H1, H2, H3, H4, H5, H6, H7, H8, H9, H10⟩, -, -⟩
    imodintro
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitr; · unfold Pipeline.prefHeld; rw [show (Finset.univ : Finset (Fin 0)) = ∅ from rfl, BI.bigSep_empty]; iempintro
    isplitl [HO]
    · unfold Pipeline.Dat.owesAt Pipeline.owesWithin
      iexists (W c); isplitr; · ipureintro; exact fun _ h => Or.inl h
      iexact HO
    isplitr <;> iempintro
  hin c := by
    rw [scopedRest1_eq]
    show _ ⊢ iprop(∃ f, scr c f)
    iintro ⟨-, -, ⟨%f, H⟩⟩
    iexists f
    rw [scr, owns_whole_eq]
    iexists f; isplitr; · ipureintro; rfl
    iexact H
  hout c := by
    rw [Pipeline.ownSems0_none, scopedRest1_eq]
    show scr c _ ⊢ _
    rw [scr, owns_whole_eq]
    iintro ⟨%f, -, H⟩
    isplitr; · iempintro
    isplitr; · iempintro
    iexists f; iexact H
  hexit c := by
    rw [arrays_eq]
    rw [show (pdats (Name := Name) (U := U) V O W 0 c).arrAt 0 _ = V c main_v2_0 from (dat (V c) (O c) (W c)).arrAt_in 0 rfl _,
      show (pdats (Name := Name) (U := U) V O W 0 c).arrAt 1 _ = V c main_v2_1 from (dat (V c) (O c) (W c)).arrAt_in 1 rfl _,
      show (pdats (Name := Name) (U := U) V O W 0 c).arrAt 2 _ = V c main_v3 from (dat (V c) (O c) (W c)).arrAt_in 2 rfl _,
      show (pdats (Name := Name) (U := U) V O W 0 c).arrAt 3 _ = V c main_v4 from (dat (V c) (O c) (W c)).arrAt_in 3 rfl _,
      show (pdats (Name := Name) (U := U) V O W 0 c).arrAt 4 _ = V c main_v5 from (dat (V c) (O c) (W c)).arrAt_in 4 rfl _,
      show (pdats (Name := Name) (U := U) V O W 0 c).arrAt 5 _ = V c main_v6 from (dat (V c) (O c) (W c)).arrAt_in 5 rfl _,
      show (pdats (Name := Name) (U := U) V O W 0 c).arrAt 6 _ = V c main_v7 from (dat (V c) (O c) (W c)).arrAt_in 6 rfl _,
      show (pdats (Name := Name) (U := U) V O W 0 c).arrAt 7 _ = V c main_v8 from (dat (V c) (O c) (W c)).arrAt_in 7 rfl _,
      show (pdats (Name := Name) (U := U) V O W 0 c).arrAt 8 _ = V c main_v9 from (dat (V c) (O c) (W c)).arrAt_in 8 rfl _,
      show (pdats (Name := Name) (U := U) V O W 0 c).arrAt 9 _ = V c main_v10 from (dat (V c) (O c) (W c)).arrAt_in 9 rfl _,
      show (pdats (Name := Name) (U := U) V O W 0 c).arrAt 10 _ = tcScore (V c main_v2_0) (V c main_v2_1) (V c main_v3) (V c main_v4) (V c main_v5) (V c main_v6) (V c main_v7) (V c main_v8) (V c main_v9) (V c main_v10) from final_out (V c) (O c) (W c)]
    unfold regPost
    iintro ⟨⟨H0, H1, H2, H3, H4, H5, H6, H7, H8, H9, H10⟩, ⟨%W', %hW', HO⟩, -, -⟩
    imodintro
    isplitl [HO]
    · iexists W'; isplitr
      · ipureintro
        intro p hp
        rcases hW' hp with h | ⟨w, s, rfl⟩
        · exact Or.inl h
        · exact Or.inr rfl
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- THE RULE at @main's custom-call line, on the TensorCore thread of device `d`, under the program's own body table
    (the SparseCore launch's extension of the pipeline's): from the level facts, the region boundary (the staging
    buffers, the scratch and the staging semaphores are inside it), the pipeline's cells' ghost state and duty tokens,
    what the thread owes and the eleven arrays, the call runs to the boundary again, the ten operands unchanged, the
    result array at `tcScore` of them, the thread owing what it owed. The region is entered in the pipeline's
    signature (`Pipeline.RegionSeg.wp`) and lifted (`SparseCore.Cfg.wp_liftProg`). -/
theorem wp_tcRegion [∀ e, Nonempty (Elt F e)] [Infinite Name] (𝒱₀ : Variants)
    (EP : Emb (URounds (GSem nD τ sig) Unit) (MT nD τ sig (Option (Fin 1)) (Elt F) Name U ℕ)) [EP.LandsIn (upEmb : UEmb _ 𝕄)]
    (lv : GSem nD τ sig → Option (Fin 1) → ℕ) (hlv : (sc (F := F)).Refines lv) (hO : ∀ c g, O c g none = 0)
    (d : Dev nD) (Φ : PUnit → sProp 𝕄) :
    iprop(levAts (sc (F := F)).L lv ∗ boundary (d : Thread nD τ) ∗ Pipeline.cellsGhost (Pipeline.pin (pcfgs (F := F)) adm) EP 0 d
        ∗ Pipeline.toksInit (Pipeline.pin (pcfgs (F := F)) adm) EP 0 d ∗ regPre V O W d
        ∗ (iprop(boundary (d : Thread nD τ) ∗ regPost V O W d) -∗ Φ ⟨⟩))
      ⊢ wp frame (wpE (defs (F := F)) (Variants.lift 𝒱₀) (d : Thread nD τ) none) Set.univ
          (Prog.lift (.customCall (SparseCore.inner (Pipeline.entry 0)) ())) Φ := by
  have hreg := Pipeline.RegionSeg.wp (pcfgs (F := F)) adm (pdats V O W) none hinj EP defs₀ 𝒱₀ (sc (F := F)).L lv (reg V O W 𝒱₀ lv hlv hO) d none
    (fun _ h => nomatch h) (fun _ => Prog.ret PUnit.unit) Φ
  have hlift := (sc (F := F)).wp_liftProg (Pipeline.defs (pcfgs (F := F)) defs₀) (Variants.lift 𝒱₀) (d : Thread nD τ) Set.univ none
    (Prog.op (TpuEff.customCall (Pipeline.entry 0) ()) fun _ => Prog.ret PUnit.unit) Φ
  refine BIBase.Entails.trans ?_ (show _ ⊢ wp frame (wpE (defs (F := F)) (Variants.lift 𝒱₀) (d : Thread nD τ) none) Set.univ
    (Prog.lift (.customCall (SparseCore.inner (Pipeline.entry 0)) ())) Φ from hlift)
  refine BIBase.Entails.trans ?_ hreg
  show _ ⊢ iprop((iprop(boundary (d : Thread nD τ) ∗ regPost V O W d) -∗ _) ∗ boundary (d : Thread nD τ) ∗ regPre V O W d ∗ _)
  iintro ⟨Hlev, Hb, Hg, Ht, Hpre, Hk⟩
  isplitl [Hk]
  · iintro H
    rw [wp_ret]
    imodintro
    iapply Hk
    iexact H
  isplitl [Hb]; · iexact Hb
  isplitl [Hpre]; · iexact Hpre
  isplitl [Hlev]; · iexact Hlev
  isplitl [Hg]; · iexact Hg
  iexact Ht

end Region

end Cert.KernelIdeal.Tc

end
-- ==== Proof.TcGlue.lean ====
/-
  The inner TensorCore region's rule in the form @main's proof takes it (`Cert.KernelIdeal.Main.RegionRule`), with the
  ghost state it needs from the launch: per device the pipeline's staging cells' launch state and the duty tokens of
  its transfers (`Gd`), the rounds element that funds them (`pinit`, by `Pipeline.fund_ghost`: `hfund`), and the rule
  itself (`regionRule`: `Tc.wp_tcRegion` at the launch's own levels, the pre and post written out).
-/
import proofs.«205816_g11845519802804_retrytranche1_1814_36_alg».proof.Proof.Main
import proofs.«205816_g11845519802804_retrytranche1_1814_36_alg».proof.Proof.TcRegion

noncomputable section

namespace Cert.KernelIdeal.Tc

open Cert.KernelIdeal Cert.KernelIdeal.Gen
open Cert.KernelIdeal.Ghost (EP UP UU)
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the region needs of the launch on device `d`: its staging cells' launch ghost state and its transfers' duty tokens. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- The rounds element the launch holds for the pipeline: every staging cell at its launch state, every transfer's token. -/
def pinit : UP :=
  initOf (Pipeline.cells (Pipeline.pin (pcfgs (F := F)) adm) hinj) (Pipeline.launchToks (Pipeline.pin (pcfgs (F := F)) adm) hinj)

/-- It funds `Gd` on every device (the program has one pipeline). -/
theorem hfund : (BI.own (EP (pinit (F := F))) : sProp 𝕄) ⊢ iprop(|==> bigSep Finset.univ (Gd (F := F))) := by
  have e : ∀ X : Fin 1 → sProp 𝕄, bigSep Finset.univ X = X 0 := fun X => by
    rw [show (Finset.univ : Finset (Fin 1)) = {0} from rfl, BI.bigSep_singleton]
  refine (Pipeline.fund_ghost (Pipeline.pin (pcfgs (F := F)) adm) EP hinj).trans (BI.bupd_mono ?_)
  unfold Gd
  rw [bigSep_sep']
  simp only [e]
  exact BI.Entails.refl _

/-- THE RULE as @main's proof takes it. -/
theorem regionRule [∀ e, Nonempty (Elt F e)] : Cert.KernelIdeal.Main.RegionRule (F := F) (Gd (F := F)) := by
  intro d Vf Of hO Wf Φ
  have h := wp_tcRegion (Name := ℕ) (U := UU) Vf Of Wf Cert.KernelIdeal.Sc.𝒱₀ EP (Cert.KernelIdeal.Sc.K (F := F)).lev
    (SparseCore.Cfg.refines_self _) hO d Φ
  refine BIBase.Entails.trans ?_ h
  unfold regPre regPost Gd
  iintro ⟨Hlev, Hb, ⟨Hg, Ht⟩, HO, H0, H1, H2, H3, H4, H5, H6, H7, H8, H9, H10, Hk⟩
  isplitl [Hlev]; · iexact Hlev
  isplitl [Hb]; · iexact Hb
  isplitl [Hg]; · iexact Hg
  isplitl [Ht]; · iexact Ht
  isplitl [HO H0 H1 H2 H3 H4 H5 H6 H7 H8 H9 H10]
  · isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨Hb, HO, H0, H1, H2, H3, H4, H5, H6, H7, H8, H9, H10⟩
  iapply Hk
  isplitl [Hb]; · iexact Hb
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Tc

end
-- ==== Proof.Glue.lean ====
/-
  The kernel program's run, assembled: the SparseCore kernel's tile obligation (under the index arrays' entries below
  100000), the TensorCore call's rule with the pipeline's ghost state funded at launch, and @main's proof.
-/
import proofs.«205816_g11845519802804_retrytranche1_1814_36_alg».proof.Proof.Main
import proofs.«205816_g11845519802804_retrytranche1_1814_36_alg».proof.Proof.ScObl
import proofs.«205816_g11845519802804_retrytranche1_1814_36_alg».proof.Proof.TcGlue

noncomputable section

namespace Cert.KernelIdeal.Glue

open Cert.KernelIdeal
open Idealize.ShloMosaic Idealize.SL.Sem

variable {F : FTy → Type} [FloatOps F]

/-- Every weakly fair execution of the program's threads ends, nothing faulting, with the result array at the TensorCore
    call's score of the gathered arrays and the twelve arguments unchanged. -/
theorem run [∀ e, Nonempty (Elt F e)] (m : (ℓ : Loc nD τ sig) → Buf (Elt F) ℓ) (ρ : Dev nD → PrngReg)
    (hpreU : ∀ (d : Dev nD) (j : S13x16384.Idx), (m (Sc.iULoc d) j).toNat < 100000)
    (hpreI : ∀ (d : Dev nD) (j : S13x16384.Idx), (m (Sc.iILoc d) j).toNat < 100000) :
    θ_run (Cert.KernelIdeal.defs (F := F)) (Cert.KernelIdeal.threads (F := F)) ⟨m, fun _ => 0, ρ⟩ (Main.QC m) :=
  Main.run_main m ρ (Tc.Gd (F := F)) (Tc.pinit (F := F)) Tc.hfund Tc.regionRule
    (Sc.tileObl (Main.tabU m) (Main.tabI m) m Sc.facts hpreU hpreI)

end Cert.KernelIdeal.Glue

end
-- ==== Proof.WScSetup.lean ====
/-
  The SparseCore call of the program (a vector-subcore kernel on 2 SparseCores × 16 vector subcores): the
  configuration the launch theorem is applied at, the handshakes' payloads with the result NAMED, and how a
  SparseCore's operands split among its sixteen tiles.

  SparseCore 0 gathers the user tower, SparseCore 1 the item tower. Tile `e` of a SparseCore reads, for every field
  `f`, row `[f, e, :]` of the transposed table and all of the index array, and writes rows `[f, e, :]` of the result:
  after the call the result holds at `[f, e, b]` the table's element `[f, e, idx[f, b]]` (`gathered`). The kernel makes
  local copies only, each waited for before the next access: its ghost state is a copy of the transfers' counters
  (found by instance, `CountersIn`), so the handshakes carry nothing of a protocol of the kernel's own.
-/
import Idealize.ShloMosaic.Lib.SparseCore.Launch
import Idealize.ShloMosaic.Lib.SparseCore.Ops
import Idealize.ShloMosaic.Lib.Pipeline.Kit
import Idealize.ShloMosaic.Lib.Transfers
import Idealize.ShloMosaic.Lib.Tactic
import proofs.«205816_g11845519802804_retrytranche1_1814_36_alg».proof.Proof.Gen.Kernel

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: any user algebra holding a copy of the transfers' counters -/

abbrev UH : Type := URounds (GSem nD τ sig) ℕ

variable {U : Type} [URA U]

local notation "𝕄" => MT nD τ sig (HIx 1) (Elt F) ℕ U ℕ

/-! ## The arrays -/

/-- The transposed tables (`[13, 16, 100000]`), the index arrays (`[13, 16384]`) and the results (`[13, 16, 16384]`) of the
    two towers, as locations of device `d`. -/
abbrev tULoc (d : Dev nD) : Loc nD τ sig := (SparseCore.T d).loc main_v0
abbrev tILoc (d : Dev nD) : Loc nD τ sig := (SparseCore.T d).loc main_v1
abbrev iULoc (d : Dev nD) : Loc nD τ sig := (SparseCore.T d).loc main_arg0
abbrev iILoc (d : Dev nD) : Loc nD τ sig := (SparseCore.T d).loc main_arg1
abbrev oULoc (d : Dev nD) : Loc nD τ sig := (SparseCore.T d).loc main_v2_0
abbrev oILoc (d : Dev nD) : Loc nD τ sig := (SparseCore.T d).loc main_v2_1

/-- The row of a table an index word names: the word read unsigned (below 100000 under the precondition). -/
def gIdx (w : BitVec 32) : Fin 100000 := if h : w.toNat < 100000 then ⟨w.toNat, h⟩ else ⟨0, by decide⟩

theorem gIdx_of_lt {w : BitVec 32} (h : w.toNat < 100000) : gIdx w = ⟨w.toNat, h⟩ := dif_pos h

/-- THE RESULT of one tower: at `[f, e, b]` the transposed table's element `[f, e, idx[f, b]]`. -/
def gathered (tab : S13x16x100000.Idx → Elt F .f32) (idx : S13x16384.Idx → Elt F .i32) : S13x16x16384.Idx → Elt F .f32 :=
  fun ix => tab (fun a => match a with
    | 0 => (ix 0 : Fin 13)
    | 1 => (ix 1 : Fin 16)
    | 2 => gIdx (idx (fun b => match b with | 0 => (ix 0 : Fin 13) | 1 => (ix 2 : Fin 16384))))

/-! ## What the handshakes carry -/

section Pay

-- What the two tables hold when the call is reached (the host transposes just before it wrote them), per device; the
-- index arrays are at their launch contents `m`.
variable (tabU : (d : Dev nD) → Buf (Elt F) (tULoc d)) (tabI : (d : Dev nD) → Buf (Elt F) (tILoc d))
variable (m : (ℓ : Loc nD τ sig) → Buf (Elt F) ℓ)

/-- The elements `[·, e, ·]` of a rank-three array: tile `e`'s rows. -/
def colSet {n0 n1 n2 : Nat} (e : ℕ) : Finset ((⟨3, ![n0, n1, n2]⟩ : Shape).Idx) := Finset.univ.filter fun ix => (ix 1).val = e

/-- The result of the user tower on device `d`, and of the item tower. -/
def resU (d : Dev nD) : Buf (Elt F) (oULoc d) := gathered (F := F) (tabU d) (m (iULoc d))
def resI (d : Dev nD) : Buf (Elt F) (oILoc d) := gathered (F := F) (tabI d) (m (iILoc d))

/-- What the call hands SparseCore `c`: its tower's table and index array whole, the result array whole (at its launch contents: nothing wrote it yet). -/
def stCore (d : Dev nD) (c : ℕ) : sProp 𝕄 :=
  if c = 0 then iprop((tULoc d ↦{fullShare} tabU d) ∗ (iULoc d ↦{fullShare} m (iULoc d)) ∗ oULoc d ↦{fullShare} m (oULoc d))
  else iprop((tILoc d ↦{fullShare} tabI d) ∗ (iILoc d ↦{fullShare} m (iILoc d)) ∗ oILoc d ↦{fullShare} m (oILoc d))
/-- What it takes back: the same, the result array at THE RESULT. -/
def dnCore (d : Dev nD) (c : ℕ) : sProp 𝕄 :=
  if c = 0 then iprop((tULoc d ↦{fullShare} tabU d) ∗ (iULoc d ↦{fullShare} m (iULoc d)) ∗ oULoc d ↦{fullShare} resU tabU m d)
  else iprop((tILoc d ↦{fullShare} tabI d) ∗ (iILoc d ↦{fullShare} m (iILoc d)) ∗ oILoc d ↦{fullShare} resI tabI m d)
/-- Tile `e` of SparseCore `c`: a read share of the table and of the index array, its rows of the result. -/
def goTile (d : Dev nD) (c e : ℕ) : sProp 𝕄 :=
  if c = 0 then iprop((tULoc d ↦{Transfers.shareTokN fullShare e} tabU d) ∗ (iULoc d ↦{Transfers.shareTokN fullShare e} m (iULoc d)) ∗ oULoc d ↦[colSet e]{fullShare} m (oULoc d))
  else iprop((tILoc d ↦{Transfers.shareTokN fullShare e} tabI d) ∗ (iILoc d ↦{Transfers.shareTokN fullShare e} m (iILoc d)) ∗ oILoc d ↦[colSet e]{fullShare} m (oILoc d))
def tdTile (d : Dev nD) (c e : ℕ) : sProp 𝕄 :=
  if c = 0 then iprop((tULoc d ↦{Transfers.shareTokN fullShare e} tabU d) ∗ (iULoc d ↦{Transfers.shareTokN fullShare e} m (iULoc d)) ∗ oULoc d ↦[colSet e]{fullShare} resU tabU m d)
  else iprop((tILoc d ↦{Transfers.shareTokN fullShare e} tabI d) ∗ (iILoc d ↦{Transfers.shareTokN fullShare e} m (iILoc d)) ∗ oILoc d ↦[colSet e]{fullShare} resI tabI m d)

instance stCore_storable (d : Dev nD) (c : ℕ) : BI.Storable (upEmb : UEmb _ 𝕄) (stCore tabU tabI m d c) := by unfold stCore; split <;> infer_instance
instance dnCore_storable (d : Dev nD) (c : ℕ) : BI.Storable (upEmb : UEmb _ 𝕄) (dnCore tabU tabI m d c) := by unfold dnCore; split <;> infer_instance
instance goTile_storable (d : Dev nD) (c e : ℕ) : BI.Storable (upEmb : UEmb _ 𝕄) (goTile tabU tabI m d c e) := by unfold goTile; split <;> infer_instance
instance tdTile_storable (d : Dev nD) (c e : ℕ) : BI.Storable (upEmb : UEmb _ 𝕄) (tdTile tabU tabI m d c e) := by unfold tdTile; split <;> infer_instance

/-- The one call's payloads; nothing of a protocol of the kernel's own. -/
def P : (K (F := F)).Pay (nD := nD) (Val := Elt F) (Name := ℕ) (U := U) where
  st := fun _ d c => stCore tabU tabI m d c.val
  dn := fun _ d c => dnCore tabU tabI m d c.val
  go := fun _ d c i => goTile tabU tabI m d c.val i.val
  td := fun _ d c i => tdTile tabU tabI m d c.val i.val
  x := fun _ _ => iprop(emp)

instance P_storable : (P (F := F) (U := U) tabU tabI m).IsStorable where
  st _ d c := by unfold P; infer_instance
  dn _ d c := by unfold P; infer_instance
  go _ _ _ _ := by unfold P; infer_instance
  td _ _ _ _ := by unfold P; infer_instance

end Pay

/-! ## How a SparseCore's operands split among its tiles -/

section Split

omit [URA U] in
theorem colSet_disjoint {n0 n1 n2 : Nat} : ∀ i ∈ (Finset.univ : Finset (Fin 16)), ∀ j ∈ (Finset.univ : Finset (Fin 16)), i ≠ j →
    Disjoint (colSet (n0 := n0) (n1 := n1) (n2 := n2) i.val) (colSet j.val) := by
  intro i _ j _ h
  refine Finset.disjoint_left.mpr fun ix hi hj => h (Fin.ext ?_)
  rw [← (Finset.mem_filter.mp hi).2, ← (Finset.mem_filter.mp hj).2]

omit [URA U] in
theorem colSet_cover {n0 n2 : Nat} : (Finset.univ : Finset (Fin 16)).biUnion (fun i => colSet (n0 := n0) (n1 := 16) (n2 := n2) i.val) = Finset.univ := by
  refine Finset.eq_univ_iff_forall.mpr fun ix => Finset.mem_biUnion.mpr ⟨(ix 1 : Fin 16), Finset.mem_univ _, Finset.mem_filter.mpr ⟨Finset.mem_univ _, rfl⟩⟩

/-- One tower's three arrays, whole, are sixteen read shares of the table and of the index array (and what is left of
    the two, kept for the way back) and the result's sixteen row sets; back, the row sets at one function join. -/
theorem split_core {tl il ol : Loc nD τ sig} (tab : Buf (Elt F) tl) (idx : Buf (Elt F) il) (o₀ res : Buf (Elt F) ol)
    (cs : ℕ → Finset (Idx ol))
    (hd : ∀ i ∈ (Finset.univ : Finset (Fin 16)), ∀ j ∈ (Finset.univ : Finset (Fin 16)), i ≠ j → Disjoint (cs i.val) (cs j.val))
    (hc : (Finset.univ : Finset (Fin 16)).biUnion (fun i => cs i.val) = Finset.univ) :
    (iprop((tl ↦{fullShare} tab) ∗ (il ↦{fullShare} idx) ∗ ol ↦{fullShare} o₀) : sProp 𝕄)
      ⊢ |={Set.univ}=> iprop((bigSep Finset.univ fun i : Fin 16 =>
            iprop((tl ↦{Transfers.shareTokN fullShare i.val} tab) ∗ (il ↦{Transfers.shareTokN fullShare i.val} idx) ∗ ol ↦[cs i.val]{fullShare} o₀))
          ∗ ((bigSep Finset.univ fun i : Fin 16 =>
              iprop((tl ↦{Transfers.shareTokN fullShare i.val} tab) ∗ (il ↦{Transfers.shareTokN fullShare i.val} idx) ∗ ol ↦[cs i.val]{fullShare} res))
            -∗ iprop((tl ↦{fullShare} tab) ∗ (il ↦{fullShare} idx) ∗ ol ↦{fullShare} res))) := by
  have ho : ∀ g : Buf (Elt F) ol, (ol ↦{fullShare} g : sProp 𝕄) = bigSep Finset.univ fun i : Fin 16 => ol ↦[cs i.val]{fullShare} g := by
    intro g; rw [← pointsTo_biUnion Finset.univ (ℓ := ol) (fun i : Fin 16 => cs i.val) hd, hc]
  rw [bigSep_sep', bigSep_sep', bigSep_sep', bigSep_sep', ← ho, ← ho]
  iintro ⟨Ht, Hi, Ho⟩
  ihave Ht' := (Transfers.pointsTo_toks_split fullShare 16) $$ Ht
  icases Ht' with ⟨Htd, Htt⟩
  ihave Hi' := (Transfers.pointsTo_toks_split fullShare 16) $$ Hi
  icases Hi' with ⟨Hid, Hit⟩
  imodintro
  isplitl [Htt Hit Ho]
  · isplitl [Htt]; · iexact Htt
    isplitl [Hit]; · iexact Hit
    iexact Ho
  iintro ⟨Htt, Hit, Ho⟩
  isplitl [Htd Htt]
  · iapply (Transfers.pointsTo_toks_join fullShare 16); isplitl [Htd] <;> iassumption
  isplitl [Hid Hit]
  · iapply (Transfers.pointsTo_toks_join fullShare 16); isplitl [Hid] <;> iassumption
  iexact Ho

variable (tabU : (d : Dev nD) → Buf (Elt F) (tULoc d)) (tabI : (d : Dev nD) → Buf (Elt F) (tILoc d))
variable (m : (ℓ : Loc nD τ sig) → Buf (Elt F) ℓ)

theorem vecSplit : (K (F := F)).VecSplit' (P (U := U) tabU tabI m) 0 := by
  intro d c
  match c with
  | ⟨0, _⟩ =>
    show stCore tabU tabI m d 0 ⊢ |={Set.univ}=> iprop((bigSep Finset.univ fun i : Fin 16 => goTile tabU tabI m d 0 i.val)
      ∗ ((bigSep Finset.univ fun i : Fin 16 => tdTile tabU tabI m d 0 i.val) -∗ dnCore tabU tabI m d 0))
    unfold stCore goTile tdTile dnCore
    simp only [↓reduceIte]
    exact split_core (tabU d) (m (iULoc d)) (m (oULoc d)) (resU tabU m d) (fun e => colSet e) colSet_disjoint colSet_cover
  | ⟨1, _⟩ =>
    show stCore tabU tabI m d 1 ⊢ |={Set.univ}=> iprop((bigSep Finset.univ fun i : Fin 16 => goTile tabU tabI m d 1 i.val)
      ∗ ((bigSep Finset.univ fun i : Fin 16 => tdTile tabU tabI m d 1 i.val) -∗ dnCore tabU tabI m d 1))
    unfold stCore goTile tdTile dnCore
    simp only [Nat.one_ne_zero, ↓reduceIte]
    exact split_core (tabI d) (m (iILoc d)) (m (oILoc d)) (resI tabI m d) (fun e => colSet e) colSet_disjoint colSet_cover

/-! ## The launch element: nothing of the kernel's own -/

theorem bigSep_emp' {I : Type} (s : Finset I) : (bigSep s fun _ => iprop(emp)) = (iprop(emp) : sProp 𝕄) := bigSep_emp_const s

theorem Px_emp : (bigSep Finset.univ fun thr : Thread nD τ => bigSep Finset.univ fun q : Fin 1 => (P (F := F) (U := U) tabU tabI m).x q thr) = (iprop(emp) : sProp 𝕄) := by
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]

end Split

end Cert.Kernel.Sc
end
-- ==== Proof.WGhost.lean ====
/-
  The ghost state the whole proof shares: the launch handshakes' rounds, the TensorCore pipeline's staging cells' rounds,
  and a copy of the transfer counters for the SparseCore kernel's local copies (which need no schedule).
-/
import proofs.«205816_g11845519802804_retrytranche1_1814_36_alg».proof.Kernel
import proofs.«205816_g11845519802804_retrytranche1_1814_36_alg».proof.Proof.Gen.Kernel
import Idealize.ShloMosaic.Lib.SparseCore.Launch
import Idealize.ShloMosaic.Lib.Pipeline.Kit
import Idealize.ShloMosaic.Lib.Transfers

noncomputable section

namespace Cert.Kernel.Ghost

open Cert.Kernel
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component, and the pipeline's. -/
abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

example : CountersIn UU := inferInstance

/-- The launch element splits: the handshakes' rounds, the pipeline's, and the counters' unit (dropped). -/
theorem ownU_split (a : UH) (p : UP) (cn : Counters) : (ownU (a, (p, cn)) : sProp 𝕄) ⊢ iprop(BI.own (EH a) ∗ BI.own (EP p)) := by
  iintro Hu
  ihave H := (ownU_pair _ _) $$ Hu
  icases H with ⟨HH, HR⟩
  isplitl [HH]; · iexact HH
  ihave H2 := (own_pair_emb (embR : Emb (UP × Counters) (MT nD τ sig (HIx 1) (Elt F) ℕ UU ℕ)) p cn) $$ HR
  icases H2 with ⟨HP, -⟩
  iexact HP

end Cert.Kernel.Ghost

end
-- ==== Proof.WMainOps.lean ====
/-
  @main's host operations around the two calls, as operations on a valuation of the TensorCore's twenty-five arrays.

  Before the SparseCore call the two embedding tables are transposed ([13,100000,16] to [13,16,100000]); after it the
  four weight matrices are transposed and the four bias vectors laid out as columns; then the TensorCore call reads the
  two gathered arrays and those eight. Here: the arrays as a set held whole, each operation with the buffers it touches,
  and what the composed valuation holds at each array that matters afterwards.
-/
import proofs.«205816_g11845519802804_retrytranche1_1814_36_alg».proof.Kernel
import proofs.«205816_g11845519802804_retrytranche1_1814_36_alg».proof.Proof.Gen.Kernel
import Idealize.ShloMosaic.Lib.SparseCore.Launch
import Idealize.ShloMosaic.Lib.StableHlo.Run

noncomputable section

namespace Cert.Kernel.Main

open Cert.Kernel Cert.Kernel.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)

variable {F : FTy → Type} [FloatOps F]

/-! ## The arrays -/

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_arg6 : DevRef τ sig := Proc.devRef .tc (main_arg6 : Ref sig .tc)
abbrev r_arg7 : DevRef τ sig := Proc.devRef .tc (main_arg7 : Ref sig .tc)
abbrev r_arg8 : DevRef τ sig := Proc.devRef .tc (main_arg8 : Ref sig .tc)
abbrev r_arg9 : DevRef τ sig := Proc.devRef .tc (main_arg9 : Ref sig .tc)
abbrev r_arg10 : DevRef τ sig := Proc.devRef .tc (main_arg10 : Ref sig .tc)
abbrev r_arg11 : DevRef τ sig := Proc.devRef .tc (main_arg11 : Ref sig .tc)
abbrev r_v0 : DevRef τ sig := Proc.devRef .tc (main_v0 : Ref sig .tc)
abbrev r_v1 : DevRef τ sig := Proc.devRef .tc (main_v1 : Ref sig .tc)
abbrev r_v2_0 : DevRef τ sig := Proc.devRef .tc (main_v2_0 : Ref sig .tc)
abbrev r_v2_1 : DevRef τ sig := Proc.devRef .tc (main_v2_1 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)
abbrev r_v9 : DevRef τ sig := Proc.devRef .tc (main_v9 : Ref sig .tc)
abbrev r_v10 : DevRef τ sig := Proc.devRef .tc (main_v10 : Ref sig .tc)
abbrev r_v11 : DevRef τ sig := Proc.devRef .tc (main_v11 : Ref sig .tc)

/-- The TensorCore's unscoped arrays: the twelve arguments and the thirteen values of @main. -/
abbrev S25 : Finset (DevRef τ sig) := {r_arg0, r_arg1, r_arg2, r_arg3, r_arg4, r_arg5, r_arg6, r_arg7, r_arg8, r_arg9, r_arg10, r_arg11, r_v0, r_v1, r_v2_0, r_v2_1, r_v3, r_v4, r_v5, r_v6, r_v7, r_v8, r_v9, r_v10, r_v11}

/-! ## The operations, as @main spells them -/

/-- A table [13,100000,16] laid out [13,16,100000]; a weight matrix transposed; -/
abbrev trTab : (⟨S13x100000x16, .f32⟩ : BufTy).Contents (Elt F) → (⟨S13x16x100000, .f32⟩ : BufTy).Contents (Elt F) := (transpose S13x16x100000 [0, 2, 1] · transposes_S13x100000x16_S13x16x100000_0_2_1)
abbrev trW1 : (⟨S208x64, .f32⟩ : BufTy).Contents (Elt F) → (⟨S64x208, .f32⟩ : BufTy).Contents (Elt F) := (transpose S64x208 [1, 0] · transposes_S208x64_S64x208_1_0)
abbrev trW2 : (⟨S64x32, .f32⟩ : BufTy).Contents (Elt F) → (⟨S32x64, .f32⟩ : BufTy).Contents (Elt F) := (transpose S32x64 [1, 0] · transposes_S64x32_S32x64_1_0)

abbrev opT0 : HloOp τ sig (Elt F) := StableHlo.unary main_arg2 main_v0 ((transpose S13x16x100000 [0, 2, 1] · transposes_S13x100000x16_S13x16x100000_0_2_1) : (⟨S13x100000x16, .f32⟩ : BufTy).Contents (Elt F) → (⟨S13x16x100000, .f32⟩ : BufTy).Contents (Elt F))
abbrev opT1 : HloOp τ sig (Elt F) := StableHlo.unary main_arg3 main_v1 ((transpose S13x16x100000 [0, 2, 1] · transposes_S13x100000x16_S13x16x100000_0_2_1) : (⟨S13x100000x16, .f32⟩ : BufTy).Contents (Elt F) → (⟨S13x16x100000, .f32⟩ : BufTy).Contents (Elt F))
abbrev op3 : HloOp τ sig (Elt F) := StableHlo.unary main_arg4 main_v3 ((transpose S64x208 [1, 0] · transposes_S208x64_S64x208_1_0) : (⟨S208x64, .f32⟩ : BufTy).Contents (Elt F) → (⟨S64x208, .f32⟩ : BufTy).Contents (Elt F))
abbrev op4 : HloOp τ sig (Elt F) := StableHlo.reshape main_arg5 main_v4 rfl shapeCasts_S64_S64x1
abbrev op5 : HloOp τ sig (Elt F) := StableHlo.unary main_arg6 main_v5 ((transpose S32x64 [1, 0] · transposes_S64x32_S32x64_1_0) : (⟨S64x32, .f32⟩ : BufTy).Contents (Elt F) → (⟨S32x64, .f32⟩ : BufTy).Contents (Elt F))
abbrev op6 : HloOp τ sig (Elt F) := StableHlo.reshape main_arg7 main_v6 rfl shapeCasts_S32_S32x1
abbrev op7 : HloOp τ sig (Elt F) := StableHlo.unary main_arg8 main_v7 ((transpose S64x208 [1, 0] · transposes_S208x64_S64x208_1_0) : (⟨S208x64, .f32⟩ : BufTy).Contents (Elt F) → (⟨S64x208, .f32⟩ : BufTy).Contents (Elt F))
abbrev op8 : HloOp τ sig (Elt F) := StableHlo.reshape main_arg9 main_v8 rfl shapeCasts_S64_S64x1
abbrev op9 : HloOp τ sig (Elt F) := StableHlo.unary main_arg10 main_v9 ((transpose S32x64 [1, 0] · transposes_S64x32_S32x64_1_0) : (⟨S64x32, .f32⟩ : BufTy).Contents (Elt F) → (⟨S32x64, .f32⟩ : BufTy).Contents (Elt F))
abbrev op10 : HloOp τ sig (Elt F) := StableHlo.reshape main_arg11 main_v10 rfl shapeCasts_S32_S32x1

theorem hT0 : (opT0 (F := F)).bufs ⊆ S25 := show ({r_arg2, r_v0} : Finset (DevRef τ sig)) ⊆ S25 by decide
theorem hT1 : (opT1 (F := F)).bufs ⊆ S25 := show ({r_arg3, r_v1} : Finset (DevRef τ sig)) ⊆ S25 by decide
theorem h3 : (op3 (F := F)).bufs ⊆ S25 := show ({r_arg4, r_v3} : Finset (DevRef τ sig)) ⊆ S25 by decide
theorem h4 : (op4 (F := F)).bufs ⊆ S25 := show ({r_arg5, r_v4} : Finset (DevRef τ sig)) ⊆ S25 by decide
theorem h5 : (op5 (F := F)).bufs ⊆ S25 := show ({r_arg6, r_v5} : Finset (DevRef τ sig)) ⊆ S25 by decide
theorem h6 : (op6 (F := F)).bufs ⊆ S25 := show ({r_arg7, r_v6} : Finset (DevRef τ sig)) ⊆ S25 by decide
theorem h7 : (op7 (F := F)).bufs ⊆ S25 := show ({r_arg8, r_v7} : Finset (DevRef τ sig)) ⊆ S25 by decide
theorem h8 : (op8 (F := F)).bufs ⊆ S25 := show ({r_arg9, r_v8} : Finset (DevRef τ sig)) ⊆ S25 by decide
theorem h9 : (op9 (F := F)).bufs ⊆ S25 := show ({r_arg10, r_v9} : Finset (DevRef τ sig)) ⊆ S25 by decide
theorem h10 : (op10 (F := F)).bufs ⊆ S25 := show ({r_arg11, r_v10} : Finset (DevRef τ sig)) ⊆ S25 by decide

/-! ## The unscoped arrays are those twenty-five -/

section Held

variable {Ix : Type} [DecidableEq Ix] {Name : Type} [DecidableEq Name] {U : Type} [URA U] {Lvl : Type} [Preorder Lvl]

local notation "𝕄" => MT nD τ sig Ix (Elt F) Name U Lvl

theorem unscoped_eq : (Finset.univ.filter fun b : Ref sig .tc => ¬ b.isScoped) = {main_arg0, main_arg1, main_arg2, main_arg3, main_arg4, main_arg5, main_arg6, main_arg7, main_arg8, main_arg9, main_arg10, main_arg11, main_v0, main_v1, main_v2_0, main_v2_1, main_v3, main_v4, main_v5, main_v6, main_v7, main_v8, main_v9, main_v10, main_v11} := by decide

omit [FloatOps F] in
theorem unscoped_held (d : Dev nD) (W : Valuation τ sig (Elt F)) :
    (unscopedBufs d (fun b => W (Proc.devRef .tc b)) : sProp 𝕄) = held (T d) S25 W := by
  unfold unscopedBufs held S25
  rw [unscoped_eq, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- A subset of the arrays taken out of the held set, to be put back at any valuation that agrees off it. -/
theorem held_take {T' : Finset (DevRef τ sig)} (c : Thread nD τ) (hT : T' ⊆ S25) (W : Valuation τ sig (Elt F)) :
    (held c S25 W : sProp 𝕄) ⊢ iprop(held c T' W ∗ ∀ W' : Valuation τ sig (Elt F), ⌜∀ b, b ∉ T' → W' b = W b⌝ -∗ held c T' W' -∗ held c S25 W') := by
  rw [StableHlo.held_sub_split c hT W]
  iintro ⟨HT, Hrest⟩
  isplitl [HT]; · iexact HT
  iintro %W' %h HT'
  rw [StableHlo.held_sub_split c hT W', StableHlo.held_congr c (S := S25 \ T') (V := W') (V' := W) (fun b hb => h b (Finset.mem_sdiff.mp hb).2)]
  isplitl [HT']; · iexact HT'
  iexact Hrest

end Held

/-! ## The valuations @main passes through -/

/-- The launch valuation. -/
def V0 (m : (ℓ : Loc nD τ sig) → Buf (Elt F) ℓ) (d : Dev nD) : Valuation τ sig (Elt F) := fun b => m (d, b)
/-- Before the SparseCore call: the two tables transposed. -/
def V2 (m : (ℓ : Loc nD τ sig) → Buf (Elt F) ℓ) (d : Dev nD) : Valuation τ sig (Elt F) := (opT1 (F := F)).result ((opT0 (F := F)).result (V0 m d))
/-- After it: the two gathered arrays at `G0`, `G1`. -/
def V3 (m : (ℓ : Loc nD τ sig) → Buf (Elt F) ℓ) (d : Dev nD) (G0 : r_v2_0.ty.Contents (Elt F)) (G1 : r_v2_1.ty.Contents (Elt F)) : Valuation τ sig (Elt F) :=
  Function.update (Function.update (V2 m d) r_v2_0 G0) r_v2_1 G1
/-- Before the TensorCore call: the weights transposed, the biases as columns. -/
def V11 (m : (ℓ : Loc nD τ sig) → Buf (Elt F) ℓ) (d : Dev nD) (G0 : r_v2_0.ty.Contents (Elt F)) (G1 : r_v2_1.ty.Contents (Elt F)) : Valuation τ sig (Elt F) :=
  (op10 (F := F)).result ((op9 (F := F)).result ((op8 (F := F)).result ((op7 (F := F)).result ((op6 (F := F)).result ((op5 (F := F)).result
    ((op4 (F := F)).result ((op3 (F := F)).result (V3 m d G0 G1))))))))

section Vals

variable (m : (ℓ : Loc nD τ sig) → Buf (Elt F) ℓ) (d : Dev nD) (G0 : r_v2_0.ty.Contents (Elt F)) (G1 : r_v2_1.ty.Contents (Elt F))

theorem V2_v0 : V2 m d r_v0 = trTab (m ((SparseCore.T d).loc main_arg2)) := by
  unfold V2
  rw [StableHlo.unary_result_ne _ _ _ _ _ _ (show (main_v0 : Ref sig .tc) ≠ main_v1 by decide), StableHlo.unary_result]
  rfl
theorem V2_v1 : V2 m d r_v1 = trTab (m ((SparseCore.T d).loc main_arg3)) := by
  unfold V2
  rw [StableHlo.unary_result, StableHlo.unary_result_ne _ _ _ _ _ _ (show (main_arg3 : Ref sig .tc) ≠ main_v0 by decide)]
  rfl
theorem V2_of_ne (r : Ref sig .tc) (h0 : r ≠ main_v0) (h1 : r ≠ main_v1) : V2 m d (Proc.devRef .tc r) = m ((SparseCore.T d).loc r) := by
  unfold V2
  rw [StableHlo.unary_result_ne _ _ _ _ _ _ h1, StableHlo.unary_result_ne _ _ _ _ _ _ h0]
  rfl

theorem V3_v2_0 : V3 m d G0 G1 r_v2_0 = G0 := by
  unfold V3; rw [Function.update_of_ne (show r_v2_0 ≠ r_v2_1 by decide), Function.update_self]
theorem V3_v2_1 : V3 m d G0 G1 r_v2_1 = G1 := Function.update_self _ _ _
theorem V3_of_ne (b : DevRef τ sig) (h0 : b ≠ r_v2_0) (h1 : b ≠ r_v2_1) : V3 m d G0 G1 b = V2 m d b := by
  unfold V3; rw [Function.update_of_ne h1, Function.update_of_ne h0]

/-- An array none of the eight later operations writes holds after them what it held after the SparseCore call. -/
theorem V11_of_ne (r : Ref sig .tc) (h_v3 : r ≠ main_v3) (h_v4 : r ≠ main_v4) (h_v5 : r ≠ main_v5) (h_v6 : r ≠ main_v6) (h_v7 : r ≠ main_v7) (h_v8 : r ≠ main_v8) (h_v9 : r ≠ main_v9) (h_v10 : r ≠ main_v10) :
    V11 m d G0 G1 (Proc.devRef .tc r) = V3 m d G0 G1 (Proc.devRef .tc r) := by
  unfold V11
  rw [StableHlo.reshape_result_ne _ _ _ _ _ _ _ h_v10, StableHlo.unary_result_ne _ _ _ _ _ _ h_v9, StableHlo.reshape_result_ne _ _ _ _ _ _ _ h_v8, StableHlo.unary_result_ne _ _ _ _ _ _ h_v7, StableHlo.reshape_result_ne _ _ _ _ _ _ _ h_v6, StableHlo.unary_result_ne _ _ _ _ _ _ h_v5, StableHlo.reshape_result_ne _ _ _ _ _ _ _ h_v4, StableHlo.unary_result_ne _ _ _ _ _ _ h_v3]
theorem V11_v3 : V11 m d G0 G1 r_v3 = trW1 (m ((SparseCore.T d).loc main_arg4)) := by
  unfold V11
  rw [StableHlo.reshape_result_ne _ _ _ _ _ _ _ (show (main_v3 : Ref sig .tc) ≠ main_v10 by decide),
    StableHlo.unary_result_ne _ _ _ _ _ _ (show (main_v3 : Ref sig .tc) ≠ main_v9 by decide),
    StableHlo.reshape_result_ne _ _ _ _ _ _ _ (show (main_v3 : Ref sig .tc) ≠ main_v8 by decide),
    StableHlo.unary_result_ne _ _ _ _ _ _ (show (main_v3 : Ref sig .tc) ≠ main_v7 by decide),
    StableHlo.reshape_result_ne _ _ _ _ _ _ _ (show (main_v3 : Ref sig .tc) ≠ main_v6 by decide),
    StableHlo.unary_result_ne _ _ _ _ _ _ (show (main_v3 : Ref sig .tc) ≠ main_v5 by decide),
    StableHlo.reshape_result_ne _ _ _ _ _ _ _ (show (main_v3 : Ref sig .tc) ≠ main_v4 by decide),
    StableHlo.unary_result]
  show _ = _
  rw [V3_of_ne m d G0 G1 r_arg4 (by decide) (by decide), V2_of_ne m d main_arg4 (by decide) (by decide)]
theorem V11_v4 : V11 m d G0 G1 r_v4 = (shapeCast S64x1 (m ((SparseCore.T d).loc main_arg5)) shapeCasts_S64_S64x1) := by
  unfold V11
  rw [StableHlo.reshape_result_ne _ _ _ _ _ _ _ (show (main_v4 : Ref sig .tc) ≠ main_v10 by decide),
    StableHlo.unary_result_ne _ _ _ _ _ _ (show (main_v4 : Ref sig .tc) ≠ main_v9 by decide),
    StableHlo.reshape_result_ne _ _ _ _ _ _ _ (show (main_v4 : Ref sig .tc) ≠ main_v8 by decide),
    StableHlo.unary_result_ne _ _ _ _ _ _ (show (main_v4 : Ref sig .tc) ≠ main_v7 by decide),
    StableHlo.reshape_result_ne _ _ _ _ _ _ _ (show (main_v4 : Ref sig .tc) ≠ main_v6 by decide),
    StableHlo.unary_result_ne _ _ _ _ _ _ (show (main_v4 : Ref sig .tc) ≠ main_v5 by decide),
    StableHlo.reshape_result,
    StableHlo.unary_result_ne _ _ _ _ _ _ (show (main_arg5 : Ref sig .tc) ≠ main_v3 by decide)]
  show (fun i => _) = _
  rw [V3_of_ne m d G0 G1 r_arg5 (by decide) (by decide), V2_of_ne m d main_arg5 (by decide) (by decide)]
  rfl
theorem V11_v5 : V11 m d G0 G1 r_v5 = trW2 (m ((SparseCore.T d).loc main_arg6)) := by
  unfold V11
  rw [StableHlo.reshape_result_ne _ _ _ _ _ _ _ (show (main_v5 : Ref sig .tc) ≠ main_v10 by decide),
    StableHlo.unary_result_ne _ _ _ _ _ _ (show (main_v5 : Ref sig .tc) ≠ main_v9 by decide),
    StableHlo.reshape_result_ne _ _ _ _ _ _ _ (show (main_v5 : Ref sig .tc) ≠ main_v8 by decide),
    StableHlo.unary_result_ne _ _ _ _ _ _ (show (main_v5 : Ref sig .tc) ≠ main_v7 by decide),
    StableHlo.reshape_result_ne _ _ _ _ _ _ _ (show (main_v5 : Ref sig .tc) ≠ main_v6 by decide),
    StableHlo.unary_result,
    StableHlo.reshape_result_ne _ _ _ _ _ _ _ (show (main_arg6 : Ref sig .tc) ≠ main_v4 by decide),
    StableHlo.unary_result_ne _ _ _ _ _ _ (show (main_arg6 : Ref sig .tc) ≠ main_v3 by decide)]
  show _ = _
  rw [V3_of_ne m d G0 G1 r_arg6 (by decide) (by decide), V2_of_ne m d main_arg6 (by decide) (by decide)]
theorem V11_v6 : V11 m d G0 G1 r_v6 = (shapeCast S32x1 (m ((SparseCore.T d).loc main_arg7)) shapeCasts_S32_S32x1) := by
  unfold V11
  rw [StableHlo.reshape_result_ne _ _ _ _ _ _ _ (show (main_v6 : Ref sig .tc) ≠ main_v10 by decide),
    StableHlo.unary_result_ne _ _ _ _ _ _ (show (main_v6 : Ref sig .tc) ≠ main_v9 by decide),
    StableHlo.reshape_result_ne _ _ _ _ _ _ _ (show (main_v6 : Ref sig .tc) ≠ main_v8 by decide),
    StableHlo.unary_result_ne _ _ _ _ _ _ (show (main_v6 : Ref sig .tc) ≠ main_v7 by decide),
    StableHlo.reshape_result,
    StableHlo.unary_result_ne _ _ _ _ _ _ (show (main_arg7 : Ref sig .tc) ≠ main_v5 by decide),
    StableHlo.reshape_result_ne _ _ _ _ _ _ _ (show (main_arg7 : Ref sig .tc) ≠ main_v4 by decide),
    StableHlo.unary_result_ne _ _ _ _ _ _ (show (main_arg7 : Ref sig .tc) ≠ main_v3 by decide)]
  show (fun i => _) = _
  rw [V3_of_ne m d G0 G1 r_arg7 (by decide) (by decide), V2_of_ne m d main_arg7 (by decide) (by decide)]
  rfl
theorem V11_v7 : V11 m d G0 G1 r_v7 = trW1 (m ((SparseCore.T d).loc main_arg8)) := by
  unfold V11
  rw [StableHlo.reshape_result_ne _ _ _ _ _ _ _ (show (main_v7 : Ref sig .tc) ≠ main_v10 by decide),
    StableHlo.unary_result_ne _ _ _ _ _ _ (show (main_v7 : Ref sig .tc) ≠ main_v9 by decide),
    StableHlo.reshape_result_ne _ _ _ _ _ _ _ (show (main_v7 : Ref sig .tc) ≠ main_v8 by decide),
    StableHlo.unary_result,
    StableHlo.reshape_result_ne _ _ _ _ _ _ _ (show (main_arg8 : Ref sig .tc) ≠ main_v6 by decide),
    StableHlo.unary_result_ne _ _ _ _ _ _ (show (main_arg8 : Ref sig .tc) ≠ main_v5 by decide),
    StableHlo.reshape_result_ne _ _ _ _ _ _ _ (show (main_arg8 : Ref sig .tc) ≠ main_v4 by decide),
    StableHlo.unary_result_ne _ _ _ _ _ _ (show (main_arg8 : Ref sig .tc) ≠ main_v3 by decide)]
  show _ = _
  rw [V3_of_ne m d G0 G1 r_arg8 (by decide) (by decide), V2_of_ne m d main_arg8 (by decide) (by decide)]
theorem V11_v8 : V11 m d G0 G1 r_v8 = (shapeCast S64x1 (m ((SparseCore.T d).loc main_arg9)) shapeCasts_S64_S64x1) := by
  unfold V11
  rw [StableHlo.reshape_result_ne _ _ _ _ _ _ _ (show (main_v8 : Ref sig .tc) ≠ main_v10 by decide),
    StableHlo.unary_result_ne _ _ _ _ _ _ (show (main_v8 : Ref sig .tc) ≠ main_v9 by decide),
    StableHlo.reshape_result,
    StableHlo.unary_result_ne _ _ _ _ _ _ (show (main_arg9 : Ref sig .tc) ≠ main_v7 by decide),
    StableHlo.reshape_result_ne _ _ _ _ _ _ _ (show (main_arg9 : Ref sig .tc) ≠ main_v6 by decide),
    StableHlo.unary_result_ne _ _ _ _ _ _ (show (main_arg9 : Ref sig .tc) ≠ main_v5 by decide),
    StableHlo.reshape_result_ne _ _ _ _ _ _ _ (show (main_arg9 : Ref sig .tc) ≠ main_v4 by decide),
    StableHlo.unary_result_ne _ _ _ _ _ _ (show (main_arg9 : Ref sig .tc) ≠ main_v3 by decide)]
  show (fun i => _) = _
  rw [V3_of_ne m d G0 G1 r_arg9 (by decide) (by decide), V2_of_ne m d main_arg9 (by decide) (by decide)]
  rfl
theorem V11_v9 : V11 m d G0 G1 r_v9 = trW2 (m ((SparseCore.T d).loc main_arg10)) := by
  unfold V11
  rw [StableHlo.reshape_result_ne _ _ _ _ _ _ _ (show (main_v9 : Ref sig .tc) ≠ main_v10 by decide),
    StableHlo.unary_result,
    StableHlo.reshape_result_ne _ _ _ _ _ _ _ (show (main_arg10 : Ref sig .tc) ≠ main_v8 by decide),
    StableHlo.unary_result_ne _ _ _ _ _ _ (show (main_arg10 : Ref sig .tc) ≠ main_v7 by decide),
    StableHlo.reshape_result_ne _ _ _ _ _ _ _ (show (main_arg10 : Ref sig .tc) ≠ main_v6 by decide),
    StableHlo.unary_result_ne _ _ _ _ _ _ (show (main_arg10 : Ref sig .tc) ≠ main_v5 by decide),
    StableHlo.reshape_result_ne _ _ _ _ _ _ _ (show (main_arg10 : Ref sig .tc) ≠ main_v4 by decide),
    StableHlo.unary_result_ne _ _ _ _ _ _ (show (main_arg10 : Ref sig .tc) ≠ main_v3 by decide)]
  show _ = _
  rw [V3_of_ne m d G0 G1 r_arg10 (by decide) (by decide), V2_of_ne m d main_arg10 (by decide) (by decide)]
theorem V11_v10 : V11 m d G0 G1 r_v10 = (shapeCast S32x1 (m ((SparseCore.T d).loc main_arg11)) shapeCasts_S32_S32x1) := by
  unfold V11
  rw [StableHlo.reshape_result,
    StableHlo.unary_result_ne _ _ _ _ _ _ (show (main_arg11 : Ref sig .tc) ≠ main_v9 by decide),
    StableHlo.reshape_result_ne _ _ _ _ _ _ _ (show (main_arg11 : Ref sig .tc) ≠ main_v8 by decide),
    StableHlo.unary_result_ne _ _ _ _ _ _ (show (main_arg11 : Ref sig .tc) ≠ main_v7 by decide),
    StableHlo.reshape_result_ne _ _ _ _ _ _ _ (show (main_arg11 : Ref sig .tc) ≠ main_v6 by decide),
    StableHlo.unary_result_ne _ _ _ _ _ _ (show (main_arg11 : Ref sig .tc) ≠ main_v5 by decide),
    StableHlo.reshape_result_ne _ _ _ _ _ _ _ (show (main_arg11 : Ref sig .tc) ≠ main_v4 by decide),
    StableHlo.unary_result_ne _ _ _ _ _ _ (show (main_arg11 : Ref sig .tc) ≠ main_v3 by decide)]
  show (fun i => _) = _
  rw [V3_of_ne m d G0 G1 r_arg11 (by decide) (by decide), V2_of_ne m d main_arg11 (by decide) (by decide)]
  rfl

/-- The twelve arguments are written by nothing. -/
theorem V11_arg (r : Ref sig .tc) (hr : r ∈ ({main_arg0, main_arg1, main_arg2, main_arg3, main_arg4, main_arg5, main_arg6, main_arg7, main_arg8, main_arg9, main_arg10, main_arg11} : Finset (Ref sig .tc))) :
    V11 m d G0 G1 (Proc.devRef .tc r) = m ((SparseCore.T d).loc r) := by
  have hne : ∀ y ∈ ({main_v0, main_v1, main_v2_0, main_v2_1, main_v3, main_v4, main_v5, main_v6, main_v7, main_v8, main_v9, main_v10} : Finset (Ref sig .tc)), r ≠ y := by
    revert r; decide
  rw [V11_of_ne m d G0 G1 r (hne _ (by decide)) (hne _ (by decide)) (hne _ (by decide)) (hne _ (by decide)) (hne _ (by decide)) (hne _ (by decide)) (hne _ (by decide)) (hne _ (by decide)),
    V3_of_ne m d G0 G1 _ (StableHlo.devRef_ne_of_ne (hne main_v2_0 (by decide))) (StableHlo.devRef_ne_of_ne (hne main_v2_1 (by decide))),
    V2_of_ne m d r (hne _ (by decide)) (hne _ (by decide))]
theorem V11_v2_0 : V11 m d G0 G1 r_v2_0 = G0 :=
  (V11_of_ne m d G0 G1 main_v2_0 (by decide) (by decide) (by decide) (by decide) (by decide) (by decide) (by decide) (by decide)).trans (V3_v2_0 m d G0 G1)
theorem V11_v2_1 : V11 m d G0 G1 r_v2_1 = G1 :=
  (V11_of_ne m d G0 G1 main_v2_1 (by decide) (by decide) (by decide) (by decide) (by decide) (by decide) (by decide) (by decide)).trans (V3_v2_1 m d G0 G1)
theorem V11_v11 : V11 m d G0 G1 r_v11 = m ((SparseCore.T d).loc main_v11) :=
  (V11_of_ne m d G0 G1 main_v11 (by decide) (by decide) (by decide) (by decide) (by decide) (by decide) (by decide) (by decide)).trans
    ((V3_of_ne m d G0 G1 r_v11 (by decide) (by decide)).trans (V2_of_ne m d main_v11 (by decide) (by decide)))

end Vals

end Cert.Kernel.Main

end
-- ==== Proof.WTcValue.lean ====
/-
  The value of the inner TensorCore region of `Cert.Kernel` (custom call 1), as ONE pure function of its ten
  operand arrays, generic in the float instance: the grid's sixteen points folded in order over the three-word
  scratch, each step the body's own pure operations (the generated payloads `Gen.k1_pay1` … `Gen.k1_pay8`).

    blk A n      — block `n` of a [13,16,16384] array along its last axis: `A (j₀, j₁, 1024 (n mod 16) + j₂)`;
    accStep      — the scratch after one point, from the scratch before it and the point's two blocks:
                     word 0 += Σ u·v, word 1 += Σ u·u, word 2 += Σ v·v, with u, v the two towers of the blocks;
    accAt n      — the scratch after point `n`, started from zero at point 0;
    tcScore      — the [1,1] result: 1 / (1 + exp (0 − s₀ / sqrt (s₁ · s₂))) of the scratch after point 15.
-/
import proofs.«205816_g11845519802804_retrytranche1_1814_36_alg».proof.Proof.Gen.Kernel.Skeleton
import Idealize.ShloMosaic.Lib.ValueIdx

noncomputable section

namespace Cert.Kernel.Tc

open Cert.Kernel Cert.Kernel.Gen
open Idealize.ShloMosaic Idealize.ShloMosaic.ValueIdx Idealize.SL.Sem

variable {F : FTy → Type} [FloatOps F]

/-- Block `n` (taken mod 16) of a [13,16,16384] array along its last axis. -/
def blk (A : Vec F S13x16x16384 .f32) (n : ℕ) : Vec F S13x16x1024 .f32 :=
  fun j => A (ix3 (j 0) (j 1) ⟨1024 * (n % 16) + (j 2).val, by
    have h2 : (j 2).val < 1024 := (j 2).isLt
    have hn : n % 16 < 16 := Nat.mod_lt _ (by decide)
    show _ < 16384
    omega⟩)

/-- The three scratch words at zero. -/
def zero3 : Vec F S3 .f32 := fun _ => (Scalar.ofBits .f32 0x00000000#32 : F .f32)

/-- The user tower of a block: max (W2ᵀ · max (W1ᵀ · reshape e + b1, 0) + b2, 0), as the body computes it. -/
abbrev towerU (e : Vec F S13x16x1024 .f32) (W1 : Vec F S64x208 .f32) (b1 : Vec F S64x1 .f32) (W2 : Vec F S32x64 .f32)
    (b2 : Vec F S32x1 .f32) : FVec F S32x1024 .f32 :=
  k1_pay2 e W1 b1 W2 b2

/-- The item tower of a block, as the body computes it (the same operations, split over two payloads). -/
abbrev towerV (e : Vec F S13x16x1024 .f32) (W1 : Vec F S64x208 .f32) (b1 : Vec F S64x1 .f32) (W2 : Vec F S32x64 .f32)
    (b2 : Vec F S32x1 .f32) : FVec F S32x1024 .f32 :=
  k1_pay5 (k1_pay3 e W1) (k1_pay4 b1) W2 b2

/-- The two towers are one function. -/
theorem towerV_eq (e : Vec F S13x16x1024 .f32) (W1 : Vec F S64x208 .f32) (b1 : Vec F S64x1 .f32) (W2 : Vec F S32x64 .f32)
    (b2 : Vec F S32x1 .f32) : towerV e W1 b1 W2 b2 = towerU e W1 b1 W2 b2 := rfl

/-- The scratch after one grid point, from the scratch `acc` before it, the point's user block `e1` and item block
    `e2`, and the eight weight arrays: the body's three read-modify-write updates. -/
def accStep (acc : Vec F S3 .f32) (e1 e2 : Vec F S13x16x1024 .f32)
    (W1u : Vec F S64x208 .f32) (b1u : Vec F S64x1 .f32) (W2u : Vec F S32x64 .f32) (b2u : Vec F S32x1 .f32)
    (W1v : Vec F S64x208 .f32) (b1v : Vec F S64x1 .f32) (W2v : Vec F S32x64 .f32) (b2v : Vec F S32x1 .f32) : Vec F S3 .f32 :=
  fun j =>
    if (j 0).val = 0 then
      (k1_pay6 (k1_pay2 e1 W1u b1u W2u b2u) (k1_pay3 e2 W1v) (k1_pay4 b1v) W2v b2v (acc (ix1 (0 : Fin 3))) : F .f32)
    else if (j 0).val = 1 then
      (k1_pay7 (k1_pay2 e1 W1u b1u W2u b2u) (acc (ix1 (1 : Fin 3))) : F .f32)
    else
      (k1_pay8 (k1_pay3 e2 W1v) (k1_pay4 b1v) W2v b2v (acc (ix1 (2 : Fin 3))) : F .f32)

section Fold

variable (A0 A1 : Vec F S13x16x16384 .f32)
  (W1u : Vec F S64x208 .f32) (b1u : Vec F S64x1 .f32) (W2u : Vec F S32x64 .f32) (b2u : Vec F S32x1 .f32)
  (W1v : Vec F S64x208 .f32) (b1v : Vec F S64x1 .f32) (W2v : Vec F S32x64 .f32) (b2v : Vec F S32x1 .f32)

/-- The scratch after point `n`: zeroed at point 0, then one step per point, in order. -/
def accAt : ℕ → Vec F S3 .f32
  | 0 => accStep zero3 (blk A0 0) (blk A1 0) W1u b1u W2u b2u W1v b1v W2v b2v
  | n + 1 => accStep (accAt n) (blk A0 (n + 1)) (blk A1 (n + 1)) W1u b1u W2u b2u W1v b1v W2v b2v

/-- The word the last point stores in the [1,1] result, from a scratch. -/
def scoreOf (acc : Vec F S3 .f32) : Vec F S1x1 .f32 :=
  fun _ => (k1_pay1 (acc (ix1 (0 : Fin 3))) (acc (ix1 (1 : Fin 3))) (acc (ix1 (2 : Fin 3))) : F .f32)

/-- THE REGION'S VALUE: what the [1,1] result array holds after the sixteen points, as a function of the ten operand
    arrays (in the custom call's operand order). -/
def tcScore : Vec F S1x1 .f32 :=
  scoreOf (accAt A0 A1 W1u b1u W2u b2u W1v b1v W2v b2v 15)

end Fold

end Cert.Kernel.Tc

end
-- ==== Proof.WMain.lean ====
/-
  @main on the TensorCore, the launch element, and the program's run.

  @main transposes the two tables, starts the SparseCore call and waits for it (the two gathered arrays come back named),
  lays out the eight weight arrays, and runs the TensorCore call on the two gathered arrays and those eight; the twelve
  arguments are never written. The run's post names the result array as the TensorCore call's score of the gathered
  arrays, so that each frame is this run with the value dropped.
-/
import proofs.«205816_g11845519802804_retrytranche1_1814_36_alg».proof.Proof.WScSetup
import proofs.«205816_g11845519802804_retrytranche1_1814_36_alg».proof.Proof.WGhost
import proofs.«205816_g11845519802804_retrytranche1_1814_36_alg».proof.Proof.WMainOps
import proofs.«205816_g11845519802804_retrytranche1_1814_36_alg».proof.Proof.WTcValue

noncomputable section

namespace Cert.Kernel.Main

open Cert.Kernel Cert.Kernel.Gen
open Cert.Kernel.Sc (K D 𝒱 𝒱₀ v₀ facts)
open Cert.Kernel.Ghost
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## Subsets of the arrays taken out of the held set -/

abbrev T6 : Finset (DevRef τ sig) := {r_v0, r_arg0, r_v2_0, r_v1, r_arg1, r_v2_1}
theorem T6_sub : T6 ⊆ S25 := by decide
omit [FloatOps F] in
theorem held_T6 (c : Thread nD τ) (W : Valuation τ sig (Elt F)) :
    (held c T6 W : sProp 𝕄) = iprop(((c.1, r_v0) ↦{fullShare} W r_v0) ∗ ((c.1, r_arg0) ↦{fullShare} W r_arg0) ∗ ((c.1, r_v2_0) ↦{fullShare} W r_v2_0) ∗ ((c.1, r_v1) ↦{fullShare} W r_v1) ∗ ((c.1, r_arg1) ↦{fullShare} W r_arg1) ∗ ((c.1, r_v2_1) ↦{fullShare} W r_v2_1)) := by
  unfold held T6
  rw [SparseCore.bigSep_insert' (by decide), SparseCore.bigSep_insert' (by decide), SparseCore.bigSep_insert' (by decide), SparseCore.bigSep_insert' (by decide), SparseCore.bigSep_insert' (by decide), bigSep_singleton]

abbrev T11 : Finset (DevRef τ sig) := {r_v2_0, r_v2_1, r_v3, r_v4, r_v5, r_v6, r_v7, r_v8, r_v9, r_v10, r_v11}
theorem T11_sub : T11 ⊆ S25 := by decide
omit [FloatOps F] in
theorem held_T11 (c : Thread nD τ) (W : Valuation τ sig (Elt F)) :
    (held c T11 W : sProp 𝕄) = iprop(((c.1, r_v2_0) ↦{fullShare} W r_v2_0) ∗ ((c.1, r_v2_1) ↦{fullShare} W r_v2_1) ∗ ((c.1, r_v3) ↦{fullShare} W r_v3) ∗ ((c.1, r_v4) ↦{fullShare} W r_v4) ∗ ((c.1, r_v5) ↦{fullShare} W r_v5) ∗ ((c.1, r_v6) ↦{fullShare} W r_v6) ∗ ((c.1, r_v7) ↦{fullShare} W r_v7) ∗ ((c.1, r_v8) ↦{fullShare} W r_v8) ∗ ((c.1, r_v9) ↦{fullShare} W r_v9) ∗ ((c.1, r_v10) ↦{fullShare} W r_v10) ∗ ((c.1, r_v11) ↦{fullShare} W r_v11)) := by
  unfold held T11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

abbrev T13 : Finset (DevRef τ sig) := {r_arg0, r_arg1, r_arg2, r_arg3, r_arg4, r_arg5, r_arg6, r_arg7, r_arg8, r_arg9, r_arg10, r_arg11, r_v11}
theorem T13_sub : T13 ⊆ S25 := by decide
omit [FloatOps F] in
theorem held_T13 (c : Thread nD τ) (W : Valuation τ sig (Elt F)) :
    (held c T13 W : sProp 𝕄) = iprop(((c.1, r_arg0) ↦{fullShare} W r_arg0) ∗ ((c.1, r_arg1) ↦{fullShare} W r_arg1) ∗ ((c.1, r_arg2) ↦{fullShare} W r_arg2) ∗ ((c.1, r_arg3) ↦{fullShare} W r_arg3) ∗ ((c.1, r_arg4) ↦{fullShare} W r_arg4) ∗ ((c.1, r_arg5) ↦{fullShare} W r_arg5) ∗ ((c.1, r_arg6) ↦{fullShare} W r_arg6) ∗ ((c.1, r_arg7) ↦{fullShare} W r_arg7) ∗ ((c.1, r_arg8) ↦{fullShare} W r_arg8) ∗ ((c.1, r_arg9) ↦{fullShare} W r_arg9) ∗ ((c.1, r_arg10) ↦{fullShare} W r_arg10) ∗ ((c.1, r_arg11) ↦{fullShare} W r_arg11) ∗ ((c.1, r_v11) ↦{fullShare} W r_v11)) := by
  unfold held T13
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The values -/

section Values

variable (m : (ℓ : Loc nD τ sig) → Buf (Elt F) ℓ)

/-- The transposed tables, as the SparseCore call finds them. -/
def tabU (d : Dev nD) : Buf (Elt F) (Sc.tULoc d) := trTab (m ((SparseCore.T d).loc main_arg2))
def tabI (d : Dev nD) : Buf (Elt F) (Sc.tILoc d) := trTab (m ((SparseCore.T d).loc main_arg3))
/-- The call's payloads at this program's tables. -/
abbrev PP : (K (F := F)).Pay (nD := nD) (Val := Elt F) (Name := ℕ) (U := UU) := Sc.P (U := UU) (tabU m) (tabI m) m
/-- The gathered arrays. -/
def G0 (d : Dev nD) : r_v2_0.ty.Contents (Elt F) := Sc.resU (tabU m) m d
def G1 (d : Dev nD) : r_v2_1.ty.Contents (Elt F) := Sc.resI (tabI m) m d
/-- THE RESULT: the TensorCore call's score of the gathered arrays and the laid-out weights. -/
def kVal (d : Dev nD) : r_v11.ty.Contents (Elt F) :=
  Tc.tcScore (G0 m d) (G1 m d) (trW1 (m ((SparseCore.T d).loc main_arg4))) (shapeCast S64x1 (m ((SparseCore.T d).loc main_arg5)) shapeCasts_S64_S64x1)
    (trW2 (m ((SparseCore.T d).loc main_arg6))) (shapeCast S32x1 (m ((SparseCore.T d).loc main_arg7)) shapeCasts_S32_S32x1)
    (trW1 (m ((SparseCore.T d).loc main_arg8))) (shapeCast S64x1 (m ((SparseCore.T d).loc main_arg9)) shapeCasts_S64_S64x1)
    (trW2 (m ((SparseCore.T d).loc main_arg10))) (shapeCast S32x1 (m ((SparseCore.T d).loc main_arg11)) shapeCasts_S32_S32x1)

/-- After the TensorCore call. -/
def V12 (d : Dev nD) : Valuation τ sig (Elt F) := Function.update (V11 m d (G0 m d) (G1 m d)) r_v11 (kVal m d)

theorem V12_v11 (d : Dev nD) : V12 m d r_v11 = kVal m d := Function.update_self _ _ _
theorem V12_arg (d : Dev nD) (r : Ref sig .tc) (hr : r ∈ ({main_arg0, main_arg1, main_arg2, main_arg3, main_arg4, main_arg5, main_arg6, main_arg7, main_arg8, main_arg9, main_arg10, main_arg11} : Finset (Ref sig .tc))) :
    V12 m d (Proc.devRef .tc r) = m ((SparseCore.T d).loc r) := by
  have hne : (Proc.devRef .tc r : DevRef τ sig) ≠ r_v11 := StableHlo.devRef_ne_of_ne (by revert r; decide)
  unfold V12
  rw [Function.update_of_ne hne]
  exact V11_arg m d _ _ r hr

end Values

/-! ## @main on the TensorCore -/

section Main

variable (m : (ℓ : Loc nD τ sig) → Buf (Elt F) ℓ) (ρ : Dev nD → PrngReg)

theorem V3_off (d : Dev nD) (b : DevRef τ sig) (hb : b ∉ T6) : V3 m d (G0 m d) (G1 m d) b = V2 m d b :=
  V3_of_ne m d _ _ b (by rintro rfl; exact hb (by decide)) (by rintro rfl; exact hb (by decide))

theorem unscoped_held' (d : Dev nD) : (unscopedBufs d (fun b => m ((SparseCore.T d).loc b)) : sProp 𝕄) = held (SparseCore.T d) S25 (V0 m d) :=
  unscoped_held d (V0 m d)

theorem st0_eq (d : Dev nD) : (bigSep Finset.univ fun c : Fin ((K (F := F)).nCore 0) => (PP m).st 0 d c)
    = iprop(Sc.stCore (U := UU) (tabU m) (tabI m) m d 0 ∗ Sc.stCore (U := UU) (tabU m) (tabI m) m d 1) := by
  show (bigSep (Finset.univ : Finset (Fin 2)) fun c => Sc.stCore (U := UU) (tabU m) (tabI m) m d c.val) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (PP m).dn 0 d c)
    = iprop(Sc.dnCore (U := UU) (tabU m) (tabI m) m d 0 ∗ Sc.dnCore (U := UU) (tabU m) (tabI m) m d 1) := by
  show (bigSep (Finset.univ : Finset (Fin 2)) fun c => Sc.dnCore (U := UU) (tabU m) (tabI m) m d c.val) = _
  rw [show (Finset.univ : Finset (Fin 2)) = {0, 1} by decide, SparseCore.bigSep_insert' (by decide), bigSep_singleton]
  rfl

theorem kVal_eq (d : Dev nD) : kVal m d = Tc.tcScore (V11 m d (G0 m d) (G1 m d) r_v2_0) (V11 m d (G0 m d) (G1 m d) r_v2_1) (V11 m d (G0 m d) (G1 m d) r_v3) (V11 m d (G0 m d) (G1 m d) r_v4) (V11 m d (G0 m d) (G1 m d) r_v5) (V11 m d (G0 m d) (G1 m d) r_v6) (V11 m d (G0 m d) (G1 m d) r_v7) (V11 m d (G0 m d) (G1 m d) r_v8) (V11 m d (G0 m d) (G1 m d) r_v9) (V11 m d (G0 m d) (G1 m d) r_v10) := by
  rw [V11_v2_0, V11_v2_1, V11_v3, V11_v4, V11_v5, V11_v6, V11_v7, V11_v8, V11_v9, V11_v10]
  rfl

theorem V12_off (d : Dev nD) (b : DevRef τ sig) (hb : b ∉ T11) : V12 m d b = V11 m d (G0 m d) (G1 m d) b :=
  Function.update_of_ne (by rintro rfl; exact hb (by decide)) _ _
theorem V12_of_ne (d : Dev nD) (b : DevRef τ sig) (hb : b ≠ r_v11) : V12 m d b = V11 m d (G0 m d) (G1 m d) b := Function.update_of_ne hb _ _

/-- What @main leaves the claim: the twelve arguments at their launch contents and the result array at THE RESULT. -/
def FIN (d : Dev nD) : sProp 𝕄 :=
  iprop((((SparseCore.T d).loc main_arg0) ↦{fullShare} m ((SparseCore.T d).loc main_arg0))
    ∗ (((SparseCore.T d).loc main_arg1) ↦{fullShare} m ((SparseCore.T d).loc main_arg1))
    ∗ (((SparseCore.T d).loc main_arg2) ↦{fullShare} m ((SparseCore.T d).loc main_arg2))
    ∗ (((SparseCore.T d).loc main_arg3) ↦{fullShare} m ((SparseCore.T d).loc main_arg3))
    ∗ (((SparseCore.T d).loc main_arg4) ↦{fullShare} m ((SparseCore.T d).loc main_arg4))
    ∗ (((SparseCore.T d).loc main_arg5) ↦{fullShare} m ((SparseCore.T d).loc main_arg5))
    ∗ (((SparseCore.T d).loc main_arg6) ↦{fullShare} m ((SparseCore.T d).loc main_arg6))
    ∗ (((SparseCore.T d).loc main_arg7) ↦{fullShare} m ((SparseCore.T d).loc main_arg7))
    ∗ (((SparseCore.T d).loc main_arg8) ↦{fullShare} m ((SparseCore.T d).loc main_arg8))
    ∗ (((SparseCore.T d).loc main_arg9) ↦{fullShare} m ((SparseCore.T d).loc main_arg9))
    ∗ (((SparseCore.T d).loc main_arg10) ↦{fullShare} m ((SparseCore.T d).loc main_arg10))
    ∗ (((SparseCore.T d).loc main_arg11) ↦{fullShare} m ((SparseCore.T d).loc main_arg11))
    ∗ (((SparseCore.T d).loc main_v11) ↦{fullShare} kVal m d))

theorem held_T11_V12 (d : Dev nD) : (held (SparseCore.T d) T11 (V12 m d) : sProp 𝕄)
    = iprop((((SparseCore.T d : Thread nD τ).1, r_v2_0) ↦{fullShare} V11 m d (G0 m d) (G1 m d) r_v2_0) ∗ (((SparseCore.T d : Thread nD τ).1, r_v2_1) ↦{fullShare} V11 m d (G0 m d) (G1 m d) r_v2_1) ∗ (((SparseCore.T d : Thread nD τ).1, r_v3) ↦{fullShare} V11 m d (G0 m d) (G1 m d) r_v3) ∗ (((SparseCore.T d : Thread nD τ).1, r_v4) ↦{fullShare} V11 m d (G0 m d) (G1 m d) r_v4) ∗ (((SparseCore.T d : Thread nD τ).1, r_v5) ↦{fullShare} V11 m d (G0 m d) (G1 m d) r_v5) ∗ (((SparseCore.T d : Thread nD τ).1, r_v6) ↦{fullShare} V11 m d (G0 m d) (G1 m d) r_v6) ∗ (((SparseCore.T d : Thread nD τ).1, r_v7) ↦{fullShare} V11 m d (G0 m d) (G1 m d) r_v7) ∗ (((SparseCore.T d : Thread nD τ).1, r_v8) ↦{fullShare} V11 m d (G0 m d) (G1 m d) r_v8) ∗ (((SparseCore.T d : Thread nD τ).1, r_v9) ↦{fullShare} V11 m d (G0 m d) (G1 m d) r_v9) ∗ (((SparseCore.T d : Thread nD τ).1, r_v10) ↦{fullShare} V11 m d (G0 m d) (G1 m d) r_v10)
        ∗ (((SparseCore.T d : Thread nD τ).1, r_v11) ↦{fullShare} Tc.tcScore (V11 m d (G0 m d) (G1 m d) r_v2_0) (V11 m d (G0 m d) (G1 m d) r_v2_1) (V11 m d (G0 m d) (G1 m d) r_v3) (V11 m d (G0 m d) (G1 m d) r_v4) (V11 m d (G0 m d) (G1 m d) r_v5) (V11 m d (G0 m d) (G1 m d) r_v6) (V11 m d (G0 m d) (G1 m d) r_v7) (V11 m d (G0 m d) (G1 m d) r_v8) (V11 m d (G0 m d) (G1 m d) r_v9) (V11 m d (G0 m d) (G1 m d) r_v10))) := by
  rw [held_T11, V12_v11, kVal_eq, V12_of_ne m d r_v2_0 (by decide), V12_of_ne m d r_v2_1 (by decide), V12_of_ne m d r_v3 (by decide), V12_of_ne m d r_v4 (by decide), V12_of_ne m d r_v5 (by decide), V12_of_ne m d r_v6 (by decide), V12_of_ne m d r_v7 (by decide), V12_of_ne m d r_v8 (by decide), V12_of_ne m d r_v9 (by decide), V12_of_ne m d r_v10 (by decide)]

theorem held_T13_V12 (d : Dev nD) : (held (SparseCore.T d) T13 (V12 m d) : sProp 𝕄) = FIN m d := by
  rw [held_T13, V12_arg m d main_arg0 (by decide), V12_arg m d main_arg1 (by decide), V12_arg m d main_arg2 (by decide), V12_arg m d main_arg3 (by decide), V12_arg m d main_arg4 (by decide), V12_arg m d main_arg5 (by decide), V12_arg m d main_arg6 (by decide), V12_arg m d main_arg7 (by decide), V12_arg m d main_arg8 (by decide), V12_arg m d main_arg9 (by decide), V12_arg m d main_arg10 (by decide), V12_arg m d main_arg11 (by decide), V12_v11]
  rfl

/-- The TensorCore call's proof, as @main's proof uses it: from the region boundary, the pipeline's ghost state `Gd d`,
    what the thread owes and the eleven arrays, to the same with the result array at the score. -/
def RegionRule (Gd : Dev nD → sProp 𝕄) : Prop :=
  ∀ (d : Dev nD) (Vf : (c : Dev nD) → (b : Ref sig .tc) → Buf (Elt F) ((SparseCore.T c).loc b)) (Of : Dev nD → CellTallies nD τ sig (HIx 1))
    (_ : ∀ c g, Of c g none = 0) (Wf : Dev nD → Waits sig (HIx 1)) (Φ : PUnit → sProp 𝕄),
    iprop(levAts (K (F := F)).L (K (F := F)).lev ∗ boundary (SparseCore.T d) ∗ Gd d ∗ owes (SparseCore.T d) (Of d) (Wf d)
        ∗ (((SparseCore.T d).loc main_v2_0) ↦{fullShare} Vf d main_v2_0)
        ∗ (((SparseCore.T d).loc main_v2_1) ↦{fullShare} Vf d main_v2_1)
        ∗ (((SparseCore.T d).loc main_v3) ↦{fullShare} Vf d main_v3)
        ∗ (((SparseCore.T d).loc main_v4) ↦{fullShare} Vf d main_v4)
        ∗ (((SparseCore.T d).loc main_v5) ↦{fullShare} Vf d main_v5)
        ∗ (((SparseCore.T d).loc main_v6) ↦{fullShare} Vf d main_v6)
        ∗ (((SparseCore.T d).loc main_v7) ↦{fullShare} Vf d main_v7)
        ∗ (((SparseCore.T d).loc main_v8) ↦{fullShare} Vf d main_v8)
        ∗ (((SparseCore.T d).loc main_v9) ↦{fullShare} Vf d main_v9)
        ∗ (((SparseCore.T d).loc main_v10) ↦{fullShare} Vf d main_v10)
        ∗ (((SparseCore.T d).loc main_v11) ↦{fullShare} Vf d main_v11)
        ∗ (iprop(boundary (SparseCore.T d) ∗ (∃ W', ⌜∀ p ∈ W', p ∈ Wf d ∨ p.2 = none⌝ ∗ owes (SparseCore.T d) (Of d) W')
            ∗ (((SparseCore.T d).loc main_v2_0) ↦{fullShare} Vf d main_v2_0)
            ∗ (((SparseCore.T d).loc main_v2_1) ↦{fullShare} Vf d main_v2_1)
            ∗ (((SparseCore.T d).loc main_v3) ↦{fullShare} Vf d main_v3)
            ∗ (((SparseCore.T d).loc main_v4) ↦{fullShare} Vf d main_v4)
            ∗ (((SparseCore.T d).loc main_v5) ↦{fullShare} Vf d main_v5)
            ∗ (((SparseCore.T d).loc main_v6) ↦{fullShare} Vf d main_v6)
            ∗ (((SparseCore.T d).loc main_v7) ↦{fullShare} Vf d main_v7)
            ∗ (((SparseCore.T d).loc main_v8) ↦{fullShare} Vf d main_v8)
            ∗ (((SparseCore.T d).loc main_v9) ↦{fullShare} Vf d main_v9)
            ∗ (((SparseCore.T d).loc main_v10) ↦{fullShare} Vf d main_v10)
            ∗ (((SparseCore.T d).loc main_v11) ↦{fullShare} Tc.tcScore (Vf d main_v2_0) (Vf d main_v2_1) (Vf d main_v3) (Vf d main_v4) (Vf d main_v5) (Vf d main_v6) (Vf d main_v7) (Vf d main_v8) (Vf d main_v9) (Vf d main_v10))) -∗ Φ ⟨⟩))
      ⊢ wp frame (wpE ((K (F := F)).defs (D (F := F))) 𝒱 (SparseCore.T d) none) Set.univ (Prog.lift (.customCall (SparseCore.inner (Pipeline.entry 0)) ())) Φ

set_option maxHeartbeats 1600000 in
theorem hmain (Gd : Dev nD → sProp 𝕄) (hreg : RegionRule (F := F) Gd) (κ : GSem nD τ sig → ℕ) (d : Dev nD) :
    iprop((K (F := F)).ctx EH (PP m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held']
  simp only [main, wp_bind, wp_pure]
  iintro ⟨#Hctx, Hst, ⟨Hb, Hheld, -, -⟩, HG⟩
  -- the two tables transposed
  iapply (wp_hlo_within 𝒱 (SparseCore.T d) none Set.univ (op := opT0) (S := S25) hT0 (V := V0 m d)) $$ [Hb Hheld]
  · isplitl [Hb] <;> iassumption
  iintro ⟨Hb, Hheld⟩
  rw [wp_ret]; imodintro
  iapply (wp_hlo_within 𝒱 (SparseCore.T d) none Set.univ (op := opT1) (S := S25) hT1 (V := (opT0 (F := F)).result (V0 m d))) $$ [Hb Hheld]
  · isplitl [Hb] <;> iassumption
  iintro ⟨Hb, Hheld⟩
  rw [wp_ret]; imodintro
  -- the SparseCore call: each tower's table, index array and result array to its SparseCore, and back
  rw [show (opT1 (F := F)).result ((opT0 (F := F)).result (V0 m d)) = V2 m d from rfl]
  ihave Hh := (held_take (SparseCore.T d) T6_sub (V2 m d)) $$ Hheld
  icases Hh with ⟨H6, Hback⟩
  ihave H6' := (Entails.of_eq (held_T6 (F := F) (SparseCore.T d) (V2 m d))) $$ H6
  rw [V2_v0, V2_v1, V2_of_ne m d main_arg0 (by decide) (by decide), V2_of_ne m d main_arg1 (by decide) (by decide),
    V2_of_ne m d main_v2_0 (by decide) (by decide), V2_of_ne m d main_v2_1 (by decide) (by decide)]
  icases H6' with ⟨Ht0, Hi0, Ho0, Ht1, Hi1, Ho1⟩
  iapply ((K (F := F)).wp_run (D (F := F)) 𝒱 (EH := EH) (P := PP m) κ d 0) $$ [Hst Ht0 Hi0 Ho0 Ht1 Hi1 Ho1 Hb Hback HG]
  isplitr; · iexact Hctx
  isplitl [Hst]; · iexact Hst
  isplitl [Ht0 Hi0 Ho0 Ht1 Hi1 Ho1]
  · rw [st0_eq]
    unfold Sc.stCore
    simp only [↓reduceIte, Nat.one_ne_zero]
    isplitl [Ht0 Hi0 Ho0]
    · isplitl [Ht0]; · iexact Ht0
      isplitl [Hi0]; · iexact Hi0
      iexact Ho0
    isplitl [Ht1]; · iexact Ht1
    isplitl [Hi1]; · iexact Hi1
    iexact Ho1
  iintro ⟨Hst, Hdn⟩
  ihave Hdn' := (Entails.of_eq (dn0_eq m d)) $$ Hdn
  unfold Sc.dnCore
  simp only [↓reduceIte, Nat.one_ne_zero]
  icases Hdn' with ⟨⟨Ht0, Hi0, Ho0⟩, Ht1, Hi1, Ho1⟩
  ispecialize Hback $$ %(V3 m d (G0 m d) (G1 m d)) %(V3_off m d) [Ht0 Hi0 Ho0 Ht1 Hi1 Ho1]
  · rw [held_T6, V3_v2_0, V3_v2_1, V3_of_ne m d _ _ r_v0 (by decide) (by decide), V3_of_ne m d _ _ r_arg0 (by decide) (by decide),
      V3_of_ne m d _ _ r_v1 (by decide) (by decide), V3_of_ne m d _ _ r_arg1 (by decide) (by decide),
      V2_v0, V2_v1, V2_of_ne m d main_arg0 (by decide) (by decide), V2_of_ne m d main_arg1 (by decide) (by decide)]
    isplitl [Ht0]; · iexact Ht0
    isplitl [Hi0]; · iexact Hi0
    isplitl [Ho0]; · iexact Ho0
    isplitl [Ht1]; · iexact Ht1
    isplitl [Hi1]; · iexact Hi1
    iexact Ho1
  -- the eight weight arrays laid out
  irename Hback => Hheld
  iapply (wp_hlo_within 𝒱 (SparseCore.T d) none Set.univ (op := op3) (S := S25) h3 (V := V3 m d (G0 m d) (G1 m d))) $$ [Hb Hheld]
  · isplitl [Hb] <;> iassumption
  iintro ⟨Hb, Hheld⟩
  rw [wp_ret]; imodintro
  iapply (wp_hlo_within 𝒱 (SparseCore.T d) none Set.univ (op := op4) (S := S25) h4 (V := (op3 (F := F)).result (V3 m d (G0 m d) (G1 m d)))) $$ [Hb Hheld]
  · isplitl [Hb] <;> iassumption
  iintro ⟨Hb, Hheld⟩
  rw [wp_ret]; imodintro
  iapply (wp_hlo_within 𝒱 (SparseCore.T d) none Set.univ (op := op5) (S := S25) h5 (V := (op4 (F := F)).result ((op3 (F := F)).result (V3 m d (G0 m d) (G1 m d))))) $$ [Hb Hheld]
  · isplitl [Hb] <;> iassumption
  iintro ⟨Hb, Hheld⟩
  rw [wp_ret]; imodintro
  iapply (wp_hlo_within 𝒱 (SparseCore.T d) none Set.univ (op := op6) (S := S25) h6 (V := (op5 (F := F)).result ((op4 (F := F)).result ((op3 (F := F)).result (V3 m d (G0 m d) (G1 m d)))))) $$ [Hb Hheld]
  · isplitl [Hb] <;> iassumption
  iintro ⟨Hb, Hheld⟩
  rw [wp_ret]; imodintro
  iapply (wp_hlo_within 𝒱 (SparseCore.T d) none Set.univ (op := op7) (S := S25) h7 (V := (op6 (F := F)).result ((op5 (F := F)).result ((op4 (F := F)).result ((op3 (F := F)).result (V3 m d (G0 m d) (G1 m d))))))) $$ [Hb Hheld]
  · isplitl [Hb] <;> iassumption
  iintro ⟨Hb, Hheld⟩
  rw [wp_ret]; imodintro
  iapply (wp_hlo_within 𝒱 (SparseCore.T d) none Set.univ (op := op8) (S := S25) h8 (V := (op7 (F := F)).result ((op6 (F := F)).result ((op5 (F := F)).result ((op4 (F := F)).result ((op3 (F := F)).result (V3 m d (G0 m d) (G1 m d)))))))) $$ [Hb Hheld]
  · isplitl [Hb] <;> iassumption
  iintro ⟨Hb, Hheld⟩
  rw [wp_ret]; imodintro
  iapply (wp_hlo_within 𝒱 (SparseCore.T d) none Set.univ (op := op9) (S := S25) h9 (V := (op8 (F := F)).result ((op7 (F := F)).result ((op6 (F := F)).result ((op5 (F := F)).result ((op4 (F := F)).result ((op3 (F := F)).result (V3 m d (G0 m d) (G1 m d))))))))) $$ [Hb Hheld]
  · isplitl [Hb] <;> iassumption
  iintro ⟨Hb, Hheld⟩
  rw [wp_ret]; imodintro
  iapply (wp_hlo_within 𝒱 (SparseCore.T d) none Set.univ (op := op10) (S := S25) h10 (V := (op9 (F := F)).result ((op8 (F := F)).result ((op7 (F := F)).result ((op6 (F := F)).result ((op5 (F := F)).result ((op4 (F := F)).result ((op3 (F := F)).result (V3 m d (G0 m d) (G1 m d)))))))))) $$ [Hb Hheld]
  · isplitl [Hb] <;> iassumption
  iintro ⟨Hb, Hheld⟩
  rw [wp_ret]; imodintro
  rw [show (op10 (F := F)).result ((op9 (F := F)).result ((op8 (F := F)).result ((op7 (F := F)).result ((op6 (F := F)).result ((op5 (F := F)).result ((op4 (F := F)).result ((op3 (F := F)).result (V3 m d (G0 m d) (G1 m d))))))))) = V11 m d (G0 m d) (G1 m d) from rfl]
  -- the TensorCore call
  ihave Hh := (held_take (SparseCore.T d) T11_sub (V11 m d (G0 m d) (G1 m d))) $$ Hheld
  icases Hh with ⟨H11, Hback⟩
  ihave H11' := (Entails.of_eq (held_T11 (F := F) (SparseCore.T d) (V11 m d (G0 m d) (G1 m d)))) $$ H11
  icases H11' with ⟨Ha0, Ha1, Hv3, Hv4, Hv5, Hv6, Hv7, Hv8, Hv9, Hv10, Hv11⟩
  unfold SparseCore.Cfg.tcSt
  rw [SparseCore.Cfg.Otc_end (K := K (F := F)) d (show 1 ≤ ((0 : Fin 1).val + 1) from le_refl _)]
  icases Hst with ⟨⟨%W, %hW, HO⟩, Hrest⟩
  ihave Hlev := (SparseCore.Cfg.ctx_levAts κ) $$ Hctx
  iapply (hreg d (fun c b => V11 m c (G0 m c) (G1 m c) (Proc.devRef .tc b)) (fun _ => 0) (fun _ _ => rfl) (fun _ => W) _) $$ [Hlev Hb HG HO Ha0 Ha1 Hv3 Hv4 Hv5 Hv6 Hv7 Hv8 Hv9 Hv10 Hv11 Hback Hrest]
  isplitl [Hlev]; · iexact Hlev
  isplitl [Hb]; · iexact Hb
  isplitl [HG]; · iexact HG
  isplitl [HO]; · iexact HO
  isplitl [Ha0]; · iexact Ha0
  isplitl [Ha1]; · iexact Ha1
  isplitl [Hv3]; · iexact Hv3
  isplitl [Hv4]; · iexact Hv4
  isplitl [Hv5]; · iexact Hv5
  isplitl [Hv6]; · iexact Hv6
  isplitl [Hv7]; · iexact Hv7
  isplitl [Hv8]; · iexact Hv8
  isplitl [Hv9]; · iexact Hv9
  isplitl [Hv10]; · iexact Hv10
  isplitl [Hv11]; · iexact Hv11
  iintro ⟨Hb, ⟨%W', %hW', HO⟩, Ha0, Ha1, Hv3, Hv4, Hv5, Hv6, Hv7, Hv8, Hv9, Hv10, Hv11⟩
  ispecialize Hback $$ %(V12 m d) %(V12_off m d) [Ha0 Ha1 Hv3 Hv4 Hv5 Hv6 Hv7 Hv8 Hv9 Hv10 Hv11]
  · rw [held_T11_V12]
    isplitl [Ha0]; · iexact Ha0
    isplitl [Ha1]; · iexact Ha1
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    iexact Hv11
  -- what is left for the claim: the twelve arguments and the result array
  ihave Hh := (held_take (SparseCore.T d) T13_sub (V12 m d)) $$ Hback
  icases Hh with ⟨H13, -⟩
  ihave H13' := (Entails.of_eq (held_T13_V12 m d)) $$ H13
  imodintro
  isplitl [HO Hrest]
  · isplitl [HO]
    · iexists W'
      isplitr
      · ipureintro
        intro p hp
        rcases hW' p hp with h | h
        · exact hW p h
        · rw [h]; exact Nat.zero_le _
      iexact HO
    iexact Hrest
  iexact H13'

end Main

/-! ## What the final memory holds -/

section Fin

variable (m : (ℓ : Loc nD τ sig) → Buf (Elt F) ℓ) (ρ : Dev nD → PrngReg)

/-- The result array at THE RESULT and the twelve arguments unchanged, of a physical state. -/
def fq (d : Dev nD) (s' : Phys nD τ sig (Elt F)) : Prop :=
  s'.mem.mem ((SparseCore.T d).loc main_v11) = kVal m d
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)
  ∧ s'.mem.mem ((SparseCore.T d).loc main_arg7) = m ((SparseCore.T d).loc main_arg7)
  ∧ s'.mem.mem ((SparseCore.T d).loc main_arg8) = m ((SparseCore.T d).loc main_arg8)
  ∧ s'.mem.mem ((SparseCore.T d).loc main_arg9) = m ((SparseCore.T d).loc main_arg9)
  ∧ s'.mem.mem ((SparseCore.T d).loc main_arg10) = m ((SparseCore.T d).loc main_arg10)
  ∧ s'.mem.mem ((SparseCore.T d).loc main_arg11) = m ((SparseCore.T d).loc main_arg11)

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H8, H9, H10, H11, Hv⟩, HSI⟩
  ihave H := (persistent_entails_right (SI_pointsTo_agree (st := s') (ℓ := ((SparseCore.T d).loc main_arg0)) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := ((SparseCore.T d).loc main_arg1)) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := ((SparseCore.T d).loc main_arg2)) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := ((SparseCore.T d).loc main_arg3)) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := ((SparseCore.T d).loc main_arg4)) (I := Finset.univ) (q := fullShare) (f := m ((SparseCore.T d).loc main_arg4)))) $$ [HSI H4]
  · isplitl [HSI] <;> iassumption
  icases H with ⟨%h4, HSI, -⟩
  ihave H := (persistent_entails_right (SI_pointsTo_agree (st := s') (ℓ := ((SparseCore.T d).loc main_arg5)) (I := Finset.univ) (q := fullShare) (f := m ((SparseCore.T d).loc main_arg5)))) $$ [HSI H5]
  · isplitl [HSI] <;> iassumption
  icases H with ⟨%h5, HSI, -⟩
  ihave H := (persistent_entails_right (SI_pointsTo_agree (st := s') (ℓ := ((SparseCore.T d).loc main_arg6)) (I := Finset.univ) (q := fullShare) (f := m ((SparseCore.T d).loc main_arg6)))) $$ [HSI H6]
  · isplitl [HSI] <;> iassumption
  icases H with ⟨%h6, HSI, -⟩
  ihave H := (persistent_entails_right (SI_pointsTo_agree (st := s') (ℓ := ((SparseCore.T d).loc main_arg7)) (I := Finset.univ) (q := fullShare) (f := m ((SparseCore.T d).loc main_arg7)))) $$ [HSI H7]
  · isplitl [HSI] <;> iassumption
  icases H with ⟨%h7, HSI, -⟩
  ihave H := (persistent_entails_right (SI_pointsTo_agree (st := s') (ℓ := ((SparseCore.T d).loc main_arg8)) (I := Finset.univ) (q := fullShare) (f := m ((SparseCore.T d).loc main_arg8)))) $$ [HSI H8]
  · isplitl [HSI] <;> iassumption
  icases H with ⟨%h8, HSI, -⟩
  ihave H := (persistent_entails_right (SI_pointsTo_agree (st := s') (ℓ := ((SparseCore.T d).loc main_arg9)) (I := Finset.univ) (q := fullShare) (f := m ((SparseCore.T d).loc main_arg9)))) $$ [HSI H9]
  · isplitl [HSI] <;> iassumption
  icases H with ⟨%h9, HSI, -⟩
  ihave H := (persistent_entails_right (SI_pointsTo_agree (st := s') (ℓ := ((SparseCore.T d).loc main_arg10)) (I := Finset.univ) (q := fullShare) (f := m ((SparseCore.T d).loc main_arg10)))) $$ [HSI H10]
  · isplitl [HSI] <;> iassumption
  icases H with ⟨%h10, HSI, -⟩
  ihave H := (persistent_entails_right (SI_pointsTo_agree (st := s') (ℓ := ((SparseCore.T d).loc main_arg11)) (I := Finset.univ) (q := fullShare) (f := m ((SparseCore.T d).loc main_arg11)))) $$ [HSI H11]
  · isplitl [HSI] <;> iassumption
  icases H with ⟨%h11, HSI, -⟩
  ihave H := (SI_pointsTo_agree (st := s') (ℓ := ((SparseCore.T d).loc main_v11)) (I := Finset.univ) (q := fullShare) (f := kVal m d)) $$ [HSI Hv]
  · isplitl [HSI] <;> iassumption
  icases H with %hv
  ipureintro
  exact ⟨funext fun i => hv i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i)⟩

/-- The run's post: on every device the result array at THE RESULT, the twelve arguments unchanged. -/
def QC : PUnit × MemSt nD τ sig (Elt F) → Prop := fun r => ∀ d : Dev nD,
  r.2.mem ((SparseCore.T d).loc main_v11) = kVal m d
  ∧ r.2.mem ((SparseCore.T d).loc main_arg0) = m ((SparseCore.T d).loc main_arg0)
  ∧ r.2.mem ((SparseCore.T d).loc main_arg1) = m ((SparseCore.T d).loc main_arg1)
  ∧ r.2.mem ((SparseCore.T d).loc main_arg2) = m ((SparseCore.T d).loc main_arg2)
  ∧ r.2.mem ((SparseCore.T d).loc main_arg3) = m ((SparseCore.T d).loc main_arg3)
  ∧ r.2.mem ((SparseCore.T d).loc main_arg4) = m ((SparseCore.T d).loc main_arg4)
  ∧ r.2.mem ((SparseCore.T d).loc main_arg5) = m ((SparseCore.T d).loc main_arg5)
  ∧ r.2.mem ((SparseCore.T d).loc main_arg6) = m ((SparseCore.T d).loc main_arg6)
  ∧ r.2.mem ((SparseCore.T d).loc main_arg7) = m ((SparseCore.T d).loc main_arg7)
  ∧ r.2.mem ((SparseCore.T d).loc main_arg8) = m ((SparseCore.T d).loc main_arg8)
  ∧ r.2.mem ((SparseCore.T d).loc main_arg9) = m ((SparseCore.T d).loc main_arg9)
  ∧ r.2.mem ((SparseCore.T d).loc main_arg10) = m ((SparseCore.T d).loc main_arg10)
  ∧ r.2.mem ((SparseCore.T d).loc main_arg11) = m ((SparseCore.T d).loc main_arg11)

end Fin

/-! ## The launch element, and the program's run -/

section Run

variable (m : (ℓ : Loc nD τ sig) → Buf (Elt F) ℓ) (ρ : Dev nD → PrngReg)

/-- The launch element: the handshakes' rounds, the pipeline's staging cells' rounds, the counters' unit. -/
def u₀ (pinit : UP) : UU := (initOf (K (F := F)).hsCells (K (F := F)).hsToks, (pinit, 1))

theorem hu₀ (Gd : Dev nD → sProp 𝕄) (pinit : UP) (hfund : (BI.own (EP pinit) : sProp 𝕄) ⊢ iprop(|==> bigSep Finset.univ Gd)) :
    (ownU (u₀ (F := F) pinit) : sProp 𝕄)
      ⊢ |={Set.univ}=> iprop(BI.own (EH (initOf (K (F := F)).hsCells (K (F := F)).hsToks)) ∗ (bigSep Finset.univ Gd)
        ∗ bigSep Finset.univ fun thr : Thread nD τ => bigSep Finset.univ fun q : Fin 1 => (PP m).x q thr) := by
  unfold u₀
  iintro Hu
  ihave H := (ownU_split _ _ _) $$ Hu
  icases H with ⟨HH, HP⟩
  imod hfund $$ HP with HG
  imodintro
  isplitl [HH]; · iexact HH
  isplitl [HG]; · iexact HG
  rw [Sc.Px_emp]
  iempintro

/-- The program's run, from the SparseCore kernel's obligation, the TensorCore call's rule and the pipeline's funded ghost state. -/
theorem run_main [∀ e, Nonempty (Elt F e)] (Gd : Dev nD → sProp 𝕄) (pinit : UP)
    (hfund : (BI.own (EP pinit) : sProp 𝕄) ⊢ iprop(|==> bigSep Finset.univ Gd)) (hreg : RegionRule (F := F) Gd)
    (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (Sc.vecSplit (tabU m) (tabI m) m))
    m ρ main Gd (FIN m) (u₀ (F := F) pinit) (sep_elim_left.trans (hu₀ m Gd pinit hfund)) (hmain m ρ Gd hreg) (fq m) (hfin m) (QC m) (fun _ h => h)

end Run

end Cert.Kernel.Main

end
-- ==== Proof.WScBody.lean ====
/-
  What the tile's body proof shares between the two towers: the closed forms of the unrolled units' offsets, the
  value a run of the units' stores leaves in the out scratch (`Good`: its first lanes hold the gather), the
  innermost loop's invariant, the result array's progress over the pieces written (`mixO`) with the index arithmetic of
  the squeezed slices, and the tile's own scratch buffers and semaphores among its scoped storage.
-/
import proofs.«205816_g11845519802804_retrytranche1_1814_36_alg».proof.Proof.WScSetup
import proofs.«205816_g11845519802804_retrytranche1_1814_36_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "tUW" => (Memref.whole Cert.Kernel.main_v0_scv : Memref Cert.Kernel.sig Kind.scVector Space.hbm Cert.Kernel.S13x16x100000 EltTy.f32)
local notation "tIW" => (Memref.whole Cert.Kernel.main_v1_scv : Memref Cert.Kernel.sig Kind.scVector Space.hbm Cert.Kernel.S13x16x100000 EltTy.f32)
local notation "iUW" => (Memref.whole Cert.Kernel.main_arg0_scv : Memref Cert.Kernel.sig Kind.scVector Space.hbm Cert.Kernel.S13x16384 EltTy.i32)
local notation "iIW" => (Memref.whole Cert.Kernel.main_arg1_scv : Memref Cert.Kernel.sig Kind.scVector Space.hbm Cert.Kernel.S13x16384 EltTy.i32)
local notation "oUW" => (Memref.whole Cert.Kernel.main_v2_0_scv : Memref Cert.Kernel.sig Kind.scVector Space.hbm Cert.Kernel.S13x16x16384 EltTy.f32)
local notation "oIW" => (Memref.whole Cert.Kernel.main_v2_1_scv : Memref Cert.Kernel.sig Kind.scVector Space.hbm Cert.Kernel.S13x16x16384 EltTy.f32)
local notation "sR" => (Memref.whole Cert.Kernel.cc0_scratch0 : Memref Cert.Kernel.sig Kind.scVector Space.vmem Cert.Kernel.S100000 EltTy.f32)
local notation "sI" => (Memref.whole Cert.Kernel.cc0_scratch1 : Memref Cert.Kernel.sig Kind.scVector Space.vmem Cert.Kernel.S8192 EltTy.i32)
local notation "sO" => (Memref.whole Cert.Kernel.cc0_scratch2 : Memref Cert.Kernel.sig Kind.scVector Space.vmem Cert.Kernel.S8192 EltTy.f32)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

set_option Elab.async false
theorem offU_l0 : ∀ k : Fin k0_t3_loop.trips, k0_off3 k = ![512 * k.val + 0] := by decide +kernel
theorem offU_s0 : ∀ k : Fin k0_t3_loop.trips, k0_off4 k 0#32 = ![512 * k.val + 0] := by decide +kernel
theorem offU_l1 : ∀ k : Fin k0_t3_loop.trips, k0_off4 k 16#32 = ![512 * k.val + 16] := by decide +kernel
theorem offU_s1 : ∀ k : Fin k0_t3_loop.trips, k0_off5 k 16#32 = ![512 * k.val + 16] := by decide +kernel
theorem offU_l2 : ∀ k : Fin k0_t3_loop.trips, k0_off5 k 32#32 = ![512 * k.val + 32] := by decide +kernel
theorem offU_s2 : ∀ k : Fin k0_t3_loop.trips, k0_off6 k 32#32 = ![512 * k.val + 32] := by decide +kernel
theorem offU_l3 : ∀ k : Fin k0_t3_loop.trips, k0_off6 k 48#32 = ![512 * k.val + 48] := by decide +kernel
theorem offU_s3 : ∀ k : Fin k0_t3_loop.trips, k0_off7 k 48#32 = ![512 * k.val + 48] := by decide +kernel
theorem offU_l4 : ∀ k : Fin k0_t3_loop.trips, k0_off7 k 64#32 = ![512 * k.val + 64] := by decide +kernel
theorem offU_s4 : ∀ k : Fin k0_t3_loop.trips, k0_off8 k 64#32 = ![512 * k.val + 64] := by decide +kernel
theorem offU_l5 : ∀ k : Fin k0_t3_loop.trips, k0_off8 k 80#32 = ![512 * k.val + 80] := by decide +kernel
theorem offU_s5 : ∀ k : Fin k0_t3_loop.trips, k0_off9 k 80#32 = ![512 * k.val + 80] := by decide +kernel
theorem offU_l6 : ∀ k : Fin k0_t3_loop.trips, k0_off9 k 96#32 = ![512 * k.val + 96] := by decide +kernel
theorem offU_s6 : ∀ k : Fin k0_t3_loop.trips, k0_off10 k 96#32 = ![512 * k.val + 96] := by decide +kernel
theorem offU_l7 : ∀ k : Fin k0_t3_loop.trips, k0_off10 k 112#32 = ![512 * k.val + 112] := by decide +kernel
theorem offU_s7 : ∀ k : Fin k0_t3_loop.trips, k0_off11 k 112#32 = ![512 * k.val + 112] := by decide +kernel
theorem offU_l8 : ∀ k : Fin k0_t3_loop.trips, k0_off11 k 128#32 = ![512 * k.val + 128] := by decide +kernel
theorem offU_s8 : ∀ k : Fin k0_t3_loop.trips, k0_off12 k 128#32 = ![512 * k.val + 128] := by decide +kernel
theorem offU_l9 : ∀ k : Fin k0_t3_loop.trips, k0_off12 k 144#32 = ![512 * k.val + 144] := by decide +kernel
theorem offU_s9 : ∀ k : Fin k0_t3_loop.trips, k0_off13 k 144#32 = ![512 * k.val + 144] := by decide +kernel
theorem offU_l10 : ∀ k : Fin k0_t3_loop.trips, k0_off13 k 160#32 = ![512 * k.val + 160] := by decide +kernel
theorem offU_s10 : ∀ k : Fin k0_t3_loop.trips, k0_off14 k 160#32 = ![512 * k.val + 160] := by decide +kernel
theorem offU_l11 : ∀ k : Fin k0_t3_loop.trips, k0_off14 k 176#32 = ![512 * k.val + 176] := by decide +kernel
theorem offU_s11 : ∀ k : Fin k0_t3_loop.trips, k0_off15 k 176#32 = ![512 * k.val + 176] := by decide +kernel
theorem offU_l12 : ∀ k : Fin k0_t3_loop.trips, k0_off15 k 192#32 = ![512 * k.val + 192] := by decide +kernel
theorem offU_s12 : ∀ k : Fin k0_t3_loop.trips, k0_off16 k 192#32 = ![512 * k.val + 192] := by decide +kernel
theorem offU_l13 : ∀ k : Fin k0_t3_loop.trips, k0_off16 k 208#32 = ![512 * k.val + 208] := by decide +kernel
theorem offU_s13 : ∀ k : Fin k0_t3_loop.trips, k0_off17 k 208#32 = ![512 * k.val + 208] := by decide +kernel
theorem offU_l14 : ∀ k : Fin k0_t3_loop.trips, k0_off17 k 224#32 = ![512 * k.val + 224] := by decide +kernel
theorem offU_s14 : ∀ k : Fin k0_t3_loop.trips, k0_off18 k 224#32 = ![512 * k.val + 224] := by decide +kernel
theorem offU_l15 : ∀ k : Fin k0_t3_loop.trips, k0_off18 k 240#32 = ![512 * k.val + 240] := by decide +kernel
theorem offU_s15 : ∀ k : Fin k0_t3_loop.trips, k0_off19 k 240#32 = ![512 * k.val + 240] := by decide +kernel
theorem offU_l16 : ∀ k : Fin k0_t3_loop.trips, k0_off19 k 256#32 = ![512 * k.val + 256] := by decide +kernel
theorem offU_s16 : ∀ k : Fin k0_t3_loop.trips, k0_off20 k 256#32 = ![512 * k.val + 256] := by decide +kernel
theorem offU_l17 : ∀ k : Fin k0_t3_loop.trips, k0_off20 k 272#32 = ![512 * k.val + 272] := by decide +kernel
theorem offU_s17 : ∀ k : Fin k0_t3_loop.trips, k0_off21 k 272#32 = ![512 * k.val + 272] := by decide +kernel
theorem offU_l18 : ∀ k : Fin k0_t3_loop.trips, k0_off21 k 288#32 = ![512 * k.val + 288] := by decide +kernel
theorem offU_s18 : ∀ k : Fin k0_t3_loop.trips, k0_off22 k 288#32 = ![512 * k.val + 288] := by decide +kernel
theorem offU_l19 : ∀ k : Fin k0_t3_loop.trips, k0_off22 k 304#32 = ![512 * k.val + 304] := by decide +kernel
theorem offU_s19 : ∀ k : Fin k0_t3_loop.trips, k0_off23 k 304#32 = ![512 * k.val + 304] := by decide +kernel
theorem offU_l20 : ∀ k : Fin k0_t3_loop.trips, k0_off23 k 320#32 = ![512 * k.val + 320] := by decide +kernel
theorem offU_s20 : ∀ k : Fin k0_t3_loop.trips, k0_off24 k 320#32 = ![512 * k.val + 320] := by decide +kernel
theorem offU_l21 : ∀ k : Fin k0_t3_loop.trips, k0_off24 k 336#32 = ![512 * k.val + 336] := by decide +kernel
theorem offU_s21 : ∀ k : Fin k0_t3_loop.trips, k0_off25 k 336#32 = ![512 * k.val + 336] := by decide +kernel
theorem offU_l22 : ∀ k : Fin k0_t3_loop.trips, k0_off25 k 352#32 = ![512 * k.val + 352] := by decide +kernel
theorem offU_s22 : ∀ k : Fin k0_t3_loop.trips, k0_off26 k 352#32 = ![512 * k.val + 352] := by decide +kernel
theorem offU_l23 : ∀ k : Fin k0_t3_loop.trips, k0_off26 k 368#32 = ![512 * k.val + 368] := by decide +kernel
theorem offU_s23 : ∀ k : Fin k0_t3_loop.trips, k0_off27 k 368#32 = ![512 * k.val + 368] := by decide +kernel
theorem offU_l24 : ∀ k : Fin k0_t3_loop.trips, k0_off27 k 384#32 = ![512 * k.val + 384] := by decide +kernel
theorem offU_s24 : ∀ k : Fin k0_t3_loop.trips, k0_off28 k 384#32 = ![512 * k.val + 384] := by decide +kernel
theorem offU_l25 : ∀ k : Fin k0_t3_loop.trips, k0_off28 k 400#32 = ![512 * k.val + 400] := by decide +kernel
theorem offU_s25 : ∀ k : Fin k0_t3_loop.trips, k0_off29 k 400#32 = ![512 * k.val + 400] := by decide +kernel
theorem offU_l26 : ∀ k : Fin k0_t3_loop.trips, k0_off29 k 416#32 = ![512 * k.val + 416] := by decide +kernel
theorem offU_s26 : ∀ k : Fin k0_t3_loop.trips, k0_off30 k 416#32 = ![512 * k.val + 416] := by decide +kernel
theorem offU_l27 : ∀ k : Fin k0_t3_loop.trips, k0_off30 k 432#32 = ![512 * k.val + 432] := by decide +kernel
theorem offU_s27 : ∀ k : Fin k0_t3_loop.trips, k0_off31 k 432#32 = ![512 * k.val + 432] := by decide +kernel
theorem offU_l28 : ∀ k : Fin k0_t3_loop.trips, k0_off31 k 448#32 = ![512 * k.val + 448] := by decide +kernel
theorem offU_s28 : ∀ k : Fin k0_t3_loop.trips, k0_off32 k 448#32 = ![512 * k.val + 448] := by decide +kernel
theorem offU_l29 : ∀ k : Fin k0_t3_loop.trips, k0_off32 k 464#32 = ![512 * k.val + 464] := by decide +kernel
theorem offU_s29 : ∀ k : Fin k0_t3_loop.trips, k0_off33 k 464#32 = ![512 * k.val + 464] := by decide +kernel
theorem offU_l30 : ∀ k : Fin k0_t3_loop.trips, k0_off33 k 480#32 = ![512 * k.val + 480] := by decide +kernel
theorem offU_s30 : ∀ k : Fin k0_t3_loop.trips, k0_off34 k 480#32 = ![512 * k.val + 480] := by decide +kernel
theorem offU_l31 : ∀ k : Fin k0_t3_loop.trips, k0_off34 k 496#32 = ![512 * k.val + 496] := by decide +kernel
theorem offU_s31 : ∀ k : Fin k0_t3_loop.trips, k0_off35 k = ![512 * k.val + 496] := by decide +kernel
theorem offI_l0 : ∀ k : Fin k0_t6_loop.trips, k0_off39 k = ![512 * k.val + 0] := by decide +kernel
theorem offI_s0 : ∀ k : Fin k0_t6_loop.trips, k0_off40 k 0#32 = ![512 * k.val + 0] := by decide +kernel
theorem offI_l1 : ∀ k : Fin k0_t6_loop.trips, k0_off40 k 16#32 = ![512 * k.val + 16] := by decide +kernel
theorem offI_s1 : ∀ k : Fin k0_t6_loop.trips, k0_off41 k 16#32 = ![512 * k.val + 16] := by decide +kernel
theorem offI_l2 : ∀ k : Fin k0_t6_loop.trips, k0_off41 k 32#32 = ![512 * k.val + 32] := by decide +kernel
theorem offI_s2 : ∀ k : Fin k0_t6_loop.trips, k0_off42 k 32#32 = ![512 * k.val + 32] := by decide +kernel
theorem offI_l3 : ∀ k : Fin k0_t6_loop.trips, k0_off42 k 48#32 = ![512 * k.val + 48] := by decide +kernel
theorem offI_s3 : ∀ k : Fin k0_t6_loop.trips, k0_off43 k 48#32 = ![512 * k.val + 48] := by decide +kernel
theorem offI_l4 : ∀ k : Fin k0_t6_loop.trips, k0_off43 k 64#32 = ![512 * k.val + 64] := by decide +kernel
theorem offI_s4 : ∀ k : Fin k0_t6_loop.trips, k0_off44 k 64#32 = ![512 * k.val + 64] := by decide +kernel
theorem offI_l5 : ∀ k : Fin k0_t6_loop.trips, k0_off44 k 80#32 = ![512 * k.val + 80] := by decide +kernel
theorem offI_s5 : ∀ k : Fin k0_t6_loop.trips, k0_off45 k 80#32 = ![512 * k.val + 80] := by decide +kernel
theorem offI_l6 : ∀ k : Fin k0_t6_loop.trips, k0_off45 k 96#32 = ![512 * k.val + 96] := by decide +kernel
theorem offI_s6 : ∀ k : Fin k0_t6_loop.trips, k0_off46 k 96#32 = ![512 * k.val + 96] := by decide +kernel
theorem offI_l7 : ∀ k : Fin k0_t6_loop.trips, k0_off46 k 112#32 = ![512 * k.val + 112] := by decide +kernel
theorem offI_s7 : ∀ k : Fin k0_t6_loop.trips, k0_off47 k 112#32 = ![512 * k.val + 112] := by decide +kernel
theorem offI_l8 : ∀ k : Fin k0_t6_loop.trips, k0_off47 k 128#32 = ![512 * k.val + 128] := by decide +kernel
theorem offI_s8 : ∀ k : Fin k0_t6_loop.trips, k0_off48 k 128#32 = ![512 * k.val + 128] := by decide +kernel
theorem offI_l9 : ∀ k : Fin k0_t6_loop.trips, k0_off48 k 144#32 = ![512 * k.val + 144] := by decide +kernel
theorem offI_s9 : ∀ k : Fin k0_t6_loop.trips, k0_off49 k 144#32 = ![512 * k.val + 144] := by decide +kernel
theorem offI_l10 : ∀ k : Fin k0_t6_loop.trips, k0_off49 k 160#32 = ![512 * k.val + 160] := by decide +kernel
theorem offI_s10 : ∀ k : Fin k0_t6_loop.trips, k0_off50 k 160#32 = ![512 * k.val + 160] := by decide +kernel
theorem offI_l11 : ∀ k : Fin k0_t6_loop.trips, k0_off50 k 176#32 = ![512 * k.val + 176] := by decide +kernel
theorem offI_s11 : ∀ k : Fin k0_t6_loop.trips, k0_off51 k 176#32 = ![512 * k.val + 176] := by decide +kernel
theorem offI_l12 : ∀ k : Fin k0_t6_loop.trips, k0_off51 k 192#32 = ![512 * k.val + 192] := by decide +kernel
theorem offI_s12 : ∀ k : Fin k0_t6_loop.trips, k0_off52 k 192#32 = ![512 * k.val + 192] := by decide +kernel
theorem offI_l13 : ∀ k : Fin k0_t6_loop.trips, k0_off52 k 208#32 = ![512 * k.val + 208] := by decide +kernel
theorem offI_s13 : ∀ k : Fin k0_t6_loop.trips, k0_off53 k 208#32 = ![512 * k.val + 208] := by decide +kernel
theorem offI_l14 : ∀ k : Fin k0_t6_loop.trips, k0_off53 k 224#32 = ![512 * k.val + 224] := by decide +kernel
theorem offI_s14 : ∀ k : Fin k0_t6_loop.trips, k0_off54 k 224#32 = ![512 * k.val + 224] := by decide +kernel
theorem offI_l15 : ∀ k : Fin k0_t6_loop.trips, k0_off54 k 240#32 = ![512 * k.val + 240] := by decide +kernel
theorem offI_s15 : ∀ k : Fin k0_t6_loop.trips, k0_off55 k 240#32 = ![512 * k.val + 240] := by decide +kernel
theorem offI_l16 : ∀ k : Fin k0_t6_loop.trips, k0_off55 k 256#32 = ![512 * k.val + 256] := by decide +kernel
theorem offI_s16 : ∀ k : Fin k0_t6_loop.trips, k0_off56 k 256#32 = ![512 * k.val + 256] := by decide +kernel
theorem offI_l17 : ∀ k : Fin k0_t6_loop.trips, k0_off56 k 272#32 = ![512 * k.val + 272] := by decide +kernel
theorem offI_s17 : ∀ k : Fin k0_t6_loop.trips, k0_off57 k 272#32 = ![512 * k.val + 272] := by decide +kernel
theorem offI_l18 : ∀ k : Fin k0_t6_loop.trips, k0_off57 k 288#32 = ![512 * k.val + 288] := by decide +kernel
theorem offI_s18 : ∀ k : Fin k0_t6_loop.trips, k0_off58 k 288#32 = ![512 * k.val + 288] := by decide +kernel
theorem offI_l19 : ∀ k : Fin k0_t6_loop.trips, k0_off58 k 304#32 = ![512 * k.val + 304] := by decide +kernel
theorem offI_s19 : ∀ k : Fin k0_t6_loop.trips, k0_off59 k 304#32 = ![512 * k.val + 304] := by decide +kernel
theorem offI_l20 : ∀ k : Fin k0_t6_loop.trips, k0_off59 k 320#32 = ![512 * k.val + 320] := by decide +kernel
theorem offI_s20 : ∀ k : Fin k0_t6_loop.trips, k0_off60 k 320#32 = ![512 * k.val + 320] := by decide +kernel
theorem offI_l21 : ∀ k : Fin k0_t6_loop.trips, k0_off60 k 336#32 = ![512 * k.val + 336] := by decide +kernel
theorem offI_s21 : ∀ k : Fin k0_t6_loop.trips, k0_off61 k 336#32 = ![512 * k.val + 336] := by decide +kernel
theorem offI_l22 : ∀ k : Fin k0_t6_loop.trips, k0_off61 k 352#32 = ![512 * k.val + 352] := by decide +kernel
theorem offI_s22 : ∀ k : Fin k0_t6_loop.trips, k0_off62 k 352#32 = ![512 * k.val + 352] := by decide +kernel
theorem offI_l23 : ∀ k : Fin k0_t6_loop.trips, k0_off62 k 368#32 = ![512 * k.val + 368] := by decide +kernel
theorem offI_s23 : ∀ k : Fin k0_t6_loop.trips, k0_off63 k 368#32 = ![512 * k.val + 368] := by decide +kernel
theorem offI_l24 : ∀ k : Fin k0_t6_loop.trips, k0_off63 k 384#32 = ![512 * k.val + 384] := by decide +kernel
theorem offI_s24 : ∀ k : Fin k0_t6_loop.trips, k0_off64 k 384#32 = ![512 * k.val + 384] := by decide +kernel
theorem offI_l25 : ∀ k : Fin k0_t6_loop.trips, k0_off64 k 400#32 = ![512 * k.val + 400] := by decide +kernel
theorem offI_s25 : ∀ k : Fin k0_t6_loop.trips, k0_off65 k 400#32 = ![512 * k.val + 400] := by decide +kernel
theorem offI_l26 : ∀ k : Fin k0_t6_loop.trips, k0_off65 k 416#32 = ![512 * k.val + 416] := by decide +kernel
theorem offI_s26 : ∀ k : Fin k0_t6_loop.trips, k0_off66 k 416#32 = ![512 * k.val + 416] := by decide +kernel
theorem offI_l27 : ∀ k : Fin k0_t6_loop.trips, k0_off66 k 432#32 = ![512 * k.val + 432] := by decide +kernel
theorem offI_s27 : ∀ k : Fin k0_t6_loop.trips, k0_off67 k 432#32 = ![512 * k.val + 432] := by decide +kernel
theorem offI_l28 : ∀ k : Fin k0_t6_loop.trips, k0_off67 k 448#32 = ![512 * k.val + 448] := by decide +kernel
theorem offI_s28 : ∀ k : Fin k0_t6_loop.trips, k0_off68 k 448#32 = ![512 * k.val + 448] := by decide +kernel
theorem offI_l29 : ∀ k : Fin k0_t6_loop.trips, k0_off68 k 464#32 = ![512 * k.val + 464] := by decide +kernel
theorem offI_s29 : ∀ k : Fin k0_t6_loop.trips, k0_off69 k 464#32 = ![512 * k.val + 464] := by decide +kernel
theorem offI_l30 : ∀ k : Fin k0_t6_loop.trips, k0_off69 k 480#32 = ![512 * k.val + 480] := by decide +kernel
theorem offI_s30 : ∀ k : Fin k0_t6_loop.trips, k0_off70 k 480#32 = ![512 * k.val + 480] := by decide +kernel
theorem offI_l31 : ∀ k : Fin k0_t6_loop.trips, k0_off70 k 496#32 = ![512 * k.val + 496] := by decide +kernel
theorem offI_s31 : ∀ k : Fin k0_t6_loop.trips, k0_off71 k = ![512 * k.val + 496] := by decide +kernel

/-- What the gather of the row `R` at the index words `I` holds at lane `j`. -/
def gath (R : S100000.Idx → Elt F .f32) (I : S8192.Idx → Elt F .i32) : S8192.Idx → Elt F .f32 :=
  fun j => R (fun a => match a with | 0 => gIdx (I j))

/-- The first `n` lanes of the out scratch hold `G`. -/
def Good (G : S8192.Idx → Elt F .f32) (n : ℕ) (f : (sO).view.ty.Contents (Elt F)) : Prop :=
  ∀ y : S8192.Idx, (y 0).val < n → (sO).view.read (Elt F) f y = G y

omit [FloatOps F] [URA U] [CountersIn U] in
/-- One more store of sixteen lanes at lane `n`, of `G`'s values there. -/
theorem good_step' {G : S8192.Idx → Elt F .f32} {n : ℕ} {r : Rect S8192} {w : r.shape.Idx → Elt F .f32}
    {L : List (View.Piece (Elt F) S8192 .f32)} {f : (sO).view.ty.Contents (Elt F)}
    (hr : ∀ y : S8192.Idx, y ∈ r.set ↔ n ≤ (y 0).val ∧ (y 0).val < n + 16) (hw : ∀ x, w x = G (r.emb x))
    (hg : Good (F := F) G n ((sO).view.writes (Elt F) f L)) :
    Good (F := F) G (n + 16) ((sO).view.writes (Elt F) f (⟨r, w⟩ :: L)) := by
  intro y hy
  by_cases hmem : y ∈ r.set
  · obtain ⟨x, hx⟩ : ∃ x, r.emb x = y := by
      rw [← Rect.map_emb_univ] at hmem; obtain ⟨x, -, hx⟩ := Finset.mem_map.mp hmem; exact ⟨x, hx⟩
    subst hx
    rw [View.read_writes_cons_emb]; exact hw x
  · rw [View.writes_cons, View.read_slice_write_of_not_mem _ _ _ _ (by rwa [Rect.map_emb_univ])]
    refine hg y ?_
    have := (not_congr (hr y)).mp hmem
    omega

omit [FloatOps F] [URA U] [CountersIn U] in
theorem good_step (R : (sR).view.ty.Contents (Elt F)) (I : (sI).view.ty.Contents (Elt F)) (hI : ∀ j, (I j).toNat < 100000)
    (n n' : ℕ) {m m' : ℕ} {off off' : Fin 1 → Nat} {inb : ∀ a, off a + (![16] : Fin 1 → Nat) a ≤ S8192.size a} {inb' : ∀ a, off' a + (![16] : Fin 1 → Nat) a ≤ S8192.size a}
    {h} {L : List (View.Piece (Elt F) S8192 .f32)} {f : (sO).view.ty.Contents (Elt F)}
    (e : off = ![m]) (e' : off' = ![m']) (hm : m = n) (hm' : m' = n) (hn : n' = n + 16)
    (hg : Good (F := F) (gath R I) n ((sO).view.writes (Elt F) f L)) :
    Good (F := F) (gath R I) n' ((sO).view.writes (Elt F) f
      (⟨Rect.unit (s := S8192) off ![16] inb, loadIdx (View.readAt (Elt F) (sR).view (LoadRect.whole S100000) R)
        ![View.readAt (Elt F) (sI).view (Rect.unit (s := S8192) off' ![16] inb').toLoadRect I] h⟩ :: L)) := by
  subst e e' hm hm' hn
  refine good_step' (fun y => ?_) (fun x => ?_) hg
  · rw [Rect.mem_set_unit]
    constructor
    · intro hh; have := hh 0; simp only [Matrix.cons_val_zero] at this; omega
    · intro hh a; obtain rfl : a = 0 := Subsingleton.elim _ _; simp only [Matrix.cons_val_zero]; omega
  · have hR : View.readAt (Elt F) (sR).view (LoadRect.whole S100000) R = R := Memref.readAt_whole (Elt F) cc0_scratch0 R
    rw [hR]
    unfold loadIdx gath
    congr 1; funext a
    have ha : a = (0 : Fin 1) := Subsingleton.elim (α := Fin 1) a 0
    subst ha
    apply Fin.ext
    rw [gIdx_of_lt (hI _)]
    rfl

omit [FloatOps F] [URA U] [CountersIn U] in
/-- The check the body assumes of sixteen index words it loaded passes: they are words of the index scratch, below
    100000. -/
theorem chk_of (I : (sI).view.ty.Contents (Elt F)) (hI : ∀ j, (I j).toNat < 100000)
    (off : Fin 1 → Nat) (h : ∀ a, off a + S16.size a ≤ S8192.size a) :
    ∀ a x, ((![View.readAt (Elt F) (sI).view (Rect.unit (s := S8192) off S16.size h).toLoadRect I] : Fin 1 → IVec S16 32) a x).toNat < S100000.size a := by
  intro a x
  obtain rfl : a = 0 := Subsingleton.elim _ _
  show (View.readAt (Elt F) (sI).view (Rect.unit (s := S8192) off S16.size h).toLoadRect I x).toNat < 100000
  simp only [View.readAt_apply, Memref.view_whole, View.read_whole]
  exact hI _

omit [FloatOps F] [CountersIn U] in
theorem pts_sR (d : Dev nD) (L : grid0.Coords) (f : Buf (Elt F) ((thrV d L).loc cc0_scratch0)) :
    ((sR).view.loc (thrV d L) ↦{fullShare} f : sProp 𝕄) = (thrV d L).loc cc0_scratch0 ↦{fullShare} f := rfl
omit [FloatOps F] [CountersIn U] in
theorem pts_sI (d : Dev nD) (L : grid0.Coords) (f : Buf (Elt F) ((thrV d L).loc cc0_scratch1)) :
    ((sI).view.loc (thrV d L) ↦{fullShare} f : sProp 𝕄) = (thrV d L).loc cc0_scratch1 ↦{fullShare} f := rfl
omit [FloatOps F] [CountersIn U] in
theorem pts_sO (d : Dev nD) (L : grid0.Coords) (f : Buf (Elt F) ((thrV d L).loc cc0_scratch2)) :
    ((sO).view.loc (thrV d L) ↦{fullShare} f : sProp 𝕄) = (thrV d L).loc cc0_scratch2 ↦{fullShare} f := rfl

/-- The innermost loop's invariant: the row and the index chunk as fetched, the out scratch's first `512 k` lanes
    at the gather. -/
def inv3 (d : Dev nD) (L : grid0.Coords) (R : Buf (Elt F) ((thrV d L).loc cc0_scratch0)) (I : Buf (Elt F) ((thrV d L).loc cc0_scratch1))
    (k : ℕ) (_ : Unit) : sProp 𝕄 :=
  iprop(((thrV d L).loc cc0_scratch0 ↦{fullShare} R) ∗ ((thrV d L).loc cc0_scratch1 ↦{fullShare} I)
    ∗ ∃ o, ((thrV d L).loc cc0_scratch2 ↦{fullShare} o) ∗ ⌜Good (F := F) (gath R I) (512 * k) o⌝)

/-! ## The result array's progress: the pieces below `n` written -/

/-- An element's position among tile `e`'s elements, in the order the pieces `(f, ci)` are written. -/
def linO (ix : S13x16x16384.Idx) : ℕ := (ix 0).val * 16384 + (ix 2).val
/-- The result array after `n` pieces: THE RESULT below piece `n`, the launch contents from there on. -/
def mixO (res g₀ : S13x16x16384.Idx → Elt F .f32) (n : ℕ) : S13x16x16384.Idx → Elt F .f32 :=
  fun ix => if linO ix < n * 8192 then res ix else g₀ ix

omit [FloatOps F] [URA U] [CountersIn U] in
theorem write_sI_univ (I w : (sI).view.ty.Contents (Elt F)) : (sI).view.write (Elt F) I w Finset.univ = w := View.write_whole_univ _ _ _
omit [FloatOps F] [URA U] [CountersIn U] in
theorem write_sR_univ (R w : (sR).view.ty.Contents (Elt F)) : (sR).view.write (Elt F) R w Finset.univ = w := View.write_whole_univ _ _ _

/-! ## Index arithmetic of the squeezed slices -/

omit [FloatOps F] [URA U] [CountersIn U] in
/-- An index of `[n]` matched with `[1, 1, n]` is `(0, 0, y)`. -/
theorem reshape3_val {n : ℕ} (h : (⟨1, ![n]⟩ : Shape).numel = (⟨3, ![1, 1, n]⟩ : Shape).numel) (y : (⟨1, ![n]⟩ : Shape).Idx) :
    ((Shape.reshapeEquiv h y) 0).val = 0 ∧ ((Shape.reshapeEquiv h y) 1).val = 0 ∧ ((Shape.reshapeEquiv h y) 2).val = (y 0).val := by
  have hr := Shape.rowMajor_reshapeEquiv h y
  rw [Shape.rowMajor_val_three, Shape.rowMajor_val_one] at hr
  have h0 : ((Shape.reshapeEquiv h y) 0).val < 1 := ((Shape.reshapeEquiv h y) 0).isLt
  have h1 : ((Shape.reshapeEquiv h y) 1).val < 1 := ((Shape.reshapeEquiv h y) 1).isLt
  simp only [Matrix.cons_val_one, Matrix.cons_val_zero, Matrix.cons_val_two, Matrix.head_cons, Matrix.tail_cons] at hr
  refine ⟨by omega, by omega, ?_⟩
  have e0 : ((Shape.reshapeEquiv h y) 0).val = 0 := by omega
  have e1 : ((Shape.reshapeEquiv h y) 1).val = 0 := by omega
  rw [e0, e1] at hr
  omega

omit [FloatOps F] [URA U] [CountersIn U] in
/-- An index of `[n]` matched with `[1, n]` is `(0, y)`. -/
theorem reshape2_val {n : ℕ} (h : (⟨1, ![n]⟩ : Shape).numel = (⟨2, ![1, n]⟩ : Shape).numel) (y : (⟨1, ![n]⟩ : Shape).Idx) :
    ((Shape.reshapeEquiv h y) 0).val = 0 ∧ ((Shape.reshapeEquiv h y) 1).val = (y 0).val := by
  have hr := Shape.rowMajor_reshapeEquiv h y
  rw [Shape.rowMajor_val_two, Shape.rowMajor_val_one] at hr
  have h0 : ((Shape.reshapeEquiv h y) 0).val < 1 := ((Shape.reshapeEquiv h y) 0).isLt
  simp only [Matrix.cons_val_one, Matrix.cons_val_zero, Matrix.head_cons] at hr
  refine ⟨by omega, ?_⟩
  have e0 : ((Shape.reshapeEquiv h y) 0).val = 0 := by omega
  rw [e0] at hr
  omega

omit [FloatOps F] [URA U] [CountersIn U] in
/-- The gather of a fetched row at a fetched index chunk is THE RESULT at the piece's elements: the row is `[f, e, ·]` of
    the table, the chunk `[f, c + ·]` of the index array, the piece `[f, e, c + ·]` of the result. -/
theorem gath_eq_gathered (T : S13x16x100000.Idx → Elt F .f32) (Ix : S13x16384.Idx → Elt F .i32)
    (eT : S100000.Idx → S13x16x100000.Idx) (eI : S8192.Idx → S13x16384.Idx) (eO : S8192.Idx → S13x16x16384.Idx) (f e c : ℕ)
    (hT : ∀ z, (eT z 0).val = f ∧ (eT z 1).val = e ∧ (eT z 2).val = (z 0).val)
    (hI : ∀ y, (eI y 0).val = f ∧ (eI y 1).val = c + (y 0).val)
    (hO : ∀ y, (eO y 0).val = f ∧ (eO y 1).val = e ∧ (eO y 2).val = c + (y 0).val) (y : S8192.Idx) :
    gath (F := F) (fun z => T (eT z)) (fun j => Ix (eI j)) y = gathered (F := F) T Ix (eO y) := by
  unfold gath gathered
  beta_reduce
  have hIy : eI y = (fun b => match b with | 0 => (eO y 0 : Fin 13) | 1 => (eO y 2 : Fin 16384)) := by
    funext b
    match b with
    | 0 => exact Fin.ext ((hI y).1.trans (hO y).1.symm)
    | 1 => exact Fin.ext ((hI y).2.trans (hO y).2.2.symm)
  congr 1
  funext a
  match a with
  | 0 => exact Fin.ext ((hT _).1.trans (hO y).1.symm)
  | 1 => exact Fin.ext ((hT _).2.1.trans (hO y).2.1.symm)
  | 2 => exact Fin.ext ((hT _).2.2.trans (by rw [hIy] <;> rfl))

theorem mix_arith (a b f k2 : ℕ) (hb : b < 16384) (hk2 : k2 < 2) (hn : ¬(a = f ∧ 8192 * k2 ≤ b ∧ b < 8192 * k2 + 8192)) :
    (a * 16384 + b < (2 * f + k2) * 8192 ↔ a * 16384 + b < (2 * f + (k2 + 1)) * 8192) := by omega

omit [FloatOps F] [URA U] [CountersIn U] in
/-- Off piece `(f, k2)` of tile `e`'s elements, the progress function does not change when the piece is written. -/
theorem rest_eq_gen (res g₀ : S13x16x16384.Idx → Elt F .f32) (S : Finset S13x16x16384.Idx) (f e k2 : ℕ) (hk2 : k2 < 2)
    (hS : ∀ ix : S13x16x16384.Idx, ix ∈ S ↔ (ix 0).val = f ∧ (ix 1).val = e ∧ 8192 * k2 ≤ (ix 2).val ∧ (ix 2).val < 8192 * k2 + 8192) :
    ∀ ix ∈ colSet (n0 := 13) (n1 := 16) (n2 := 16384) e \ S, mixO (F := F) res g₀ (2 * f + k2) ix = mixO (F := F) res g₀ (2 * f + (k2 + 1)) ix := by
  intro ix hix
  obtain ⟨hc, hn⟩ := Finset.mem_sdiff.mp hix
  have he : (ix 1).val = e := (Finset.mem_filter.mp hc).2
  have hnot := mt (hS ix).mpr hn
  have key := mix_arith (ix 0).val (ix 2).val f k2 (ix 2).isLt hk2 (fun ⟨h0, h2a, h2b⟩ => hnot ⟨h0, he, h2a, h2b⟩)
  unfold mixO linO
  simp only [key]

omit [FloatOps F] [URA U] [CountersIn U] in
theorem sub_gen (S : Finset S13x16x16384.Idx) (f e k2 : ℕ)
    (hS : ∀ ix : S13x16x16384.Idx, ix ∈ S ↔ (ix 0).val = f ∧ (ix 1).val = e ∧ 8192 * k2 ≤ (ix 2).val ∧ (ix 2).val < 8192 * k2 + 8192) :
    S ⊆ colSet (n0 := 13) (n1 := 16) (n2 := 16384) e :=
  fun ix h => Finset.mem_filter.mpr ⟨Finset.mem_univ _, ((hS ix).mp h).2.1⟩

omit [FloatOps F] [URA U] [CountersIn U] in
/-- On piece `(f, k2)`, once written, the progress function is THE RESULT. -/
theorem mixO_piece (res g₀ : S13x16x16384.Idx → Elt F .f32) (f k2 : ℕ) (ix : S13x16x16384.Idx)
    (h0 : (ix 0).val = f) (h2 : (ix 2).val < 8192 * k2 + 8192) : mixO (F := F) res g₀ (2 * f + (k2 + 1)) ix = res ix := by
  have key : (ix 0).val * 16384 + (ix 2).val < (2 * f + (k2 + 1)) * 8192 := by omega
  unfold mixO linO
  rw [if_pos key]

omit [FloatOps F] [URA U] [CountersIn U] in
/-- After all twenty-six pieces the progress function is THE RESULT. -/
theorem mixO_all (res g₀ : S13x16x16384.Idx → Elt F .f32) (ix : S13x16x16384.Idx) : mixO (F := F) res g₀ (2 * 13) ix = res ix := by
  have h0 : (ix 0).val < 13 := (ix 0).isLt
  have h2 : (ix 2).val < 16384 := (ix 2).isLt
  have key : (ix 0).val * 16384 + (ix 2).val < 2 * 13 * 8192 := by omega
  unfold mixO linO
  rw [if_pos key]

omit [FloatOps F] [CountersIn U] in
/-- The tile's six DMA semaphores are among its own cells: they, at zero, and the rest. -/
theorem ownSems0_V6 (d : Dev nD) (L : grid0.Coords) :
    (ownSems0 (thrV d L) : sProp 𝕄)
      = iprop(semVal (thrV d L, SemLoc.dma cc0_scoped0.sem) 0 ∗ semVal (thrV d L, SemLoc.dma cc0_scoped1.sem) 0 ∗ semVal (thrV d L, SemLoc.dma cc0_scoped2.sem) 0 ∗ semVal (thrV d L, SemLoc.dma cc0_scoped3.sem) 0 ∗ semVal (thrV d L, SemLoc.dma cc0_scoped4.sem) 0 ∗ semVal (thrV d L, SemLoc.dma cc0_scoped5.sem) 0
          ∗ bigSep (((((((ownCells (thrV d L)).erase (thrV d L, SemLoc.dma cc0_scoped0.sem)).erase (thrV d L, SemLoc.dma cc0_scoped1.sem)).erase (thrV d L, SemLoc.dma cc0_scoped2.sem)).erase (thrV d L, SemLoc.dma cc0_scoped3.sem)).erase (thrV d L, SemLoc.dma cc0_scoped4.sem)).erase (thrV d L, SemLoc.dma cc0_scoped5.sem)) fun g => semVal g 0) := by
  unfold SparseCore.Cfg.ownSems0
  rw [SparseCore.bigSep_erase' ((mem_ownCells (g := ((thrV d L, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨fun e => absurd (Prod.mk.inj e).2 (by decide), (mem_ownCells (g := ((thrV d L, SemLoc.dma cc0_scoped1.sem) : GSem nD τ sig))).mpr ⟨rfl, by show (SemLoc.dma cc0_scoped1.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := ((thrV d L, SemLoc.dma cc0_scoped2.sem) : GSem nD τ sig))).mpr ⟨rfl, by show (SemLoc.dma cc0_scoped2.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped3.sem) : GSem nD τ sig))).mpr ⟨rfl, by show (SemLoc.dma cc0_scoped3.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped4.sem) : GSem nD τ sig))).mpr ⟨rfl, by show (SemLoc.dma cc0_scoped4.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped5.sem) : GSem nD τ sig))).mpr ⟨rfl, by show (SemLoc.dma cc0_scoped5.sem : SemLoc sig).isScoped .scVector = true; decide⟩⟩⟩⟩⟩⟩)]

omit [FloatOps F] [CountersIn U] in
/-- The three scratch buffers are among the tile's own: they, at some contents, and the rest. -/
theorem ownBufs_V3 (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Cert.Kernel.Sc
end
-- ==== Proof.WScBodyUser.lean ====
/-
  The user tower's tile (SparseCore 0): for each of the thirteen fields, the tile's row of the transposed table is
  fetched into the row scratch; for each of the field's two chunks of 8192 index words, the chunk is fetched, gathered
  sixteen lanes at a time (thirty-two unrolled units per trip of the innermost loop) into the out scratch, and the out
  scratch written out to the tile's piece of the result. The loops' invariants carry the value: the out scratch's first
  lanes at the gather, the result's pieces below the current one at THE RESULT.
-/
import proofs.«205816_g11845519802804_retrytranche1_1814_36_alg».proof.Proof.WScBody
import proofs.«205816_g11845519802804_retrytranche1_1814_36_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "tUW" => (Memref.whole Cert.Kernel.main_v0_scv : Memref Cert.Kernel.sig Kind.scVector Space.hbm Cert.Kernel.S13x16x100000 EltTy.f32)
local notation "tIW" => (Memref.whole Cert.Kernel.main_v1_scv : Memref Cert.Kernel.sig Kind.scVector Space.hbm Cert.Kernel.S13x16x100000 EltTy.f32)
local notation "iUW" => (Memref.whole Cert.Kernel.main_arg0_scv : Memref Cert.Kernel.sig Kind.scVector Space.hbm Cert.Kernel.S13x16384 EltTy.i32)
local notation "iIW" => (Memref.whole Cert.Kernel.main_arg1_scv : Memref Cert.Kernel.sig Kind.scVector Space.hbm Cert.Kernel.S13x16384 EltTy.i32)
local notation "oUW" => (Memref.whole Cert.Kernel.main_v2_0_scv : Memref Cert.Kernel.sig Kind.scVector Space.hbm Cert.Kernel.S13x16x16384 EltTy.f32)
local notation "oIW" => (Memref.whole Cert.Kernel.main_v2_1_scv : Memref Cert.Kernel.sig Kind.scVector Space.hbm Cert.Kernel.S13x16x16384 EltTy.f32)
local notation "sR" => (Memref.whole Cert.Kernel.cc0_scratch0 : Memref Cert.Kernel.sig Kind.scVector Space.vmem Cert.Kernel.S100000 EltTy.f32)
local notation "sI" => (Memref.whole Cert.Kernel.cc0_scratch1 : Memref Cert.Kernel.sig Kind.scVector Space.vmem Cert.Kernel.S8192 EltTy.i32)
local notation "sO" => (Memref.whole Cert.Kernel.cc0_scratch2 : Memref Cert.Kernel.sig Kind.scVector Space.vmem Cert.Kernel.S8192 EltTy.f32)

/-! ## The user tower's slices, spelt as the body slices them -/

abbrev tRowU (L : grid0.Coords) (k1 : Fin k0_t1_loop.trips) (h1 : k0_cond1 L = 1#1) : Memref sig .scVector .hbm S100000 .f32 :=
  ((tUW).slice (Rect.unit (s := S13x16x100000) (k0_off1 L k1) S1x1x100000.size (k0_off1_inb L k1 h1)) (fun _ => rfl)).squeeze S100000 squeezes_S1x1x100000_S100000
abbrev iChunkU (L : grid0.Coords) (k1 : Fin k0_t1_loop.trips) (k2 : Fin k0_t2_loop.trips) (h1 : k0_cond1 L = 1#1) : Memref sig .scVector .hbm S8192 .i32 :=
  ((iUW).slice (Rect.unit (s := S13x16384) (k0_off2 k1 k2) S1x8192.size (k0_off2_inb L k1 k2 h1)) (fun _ => rfl)).squeeze S8192 squeezes_S1x8192_S8192
abbrev oPieceU (L : grid0.Coords) (k1 : Fin k0_t1_loop.trips) (k2 : Fin k0_t2_loop.trips) (h1 : k0_cond1 L = 1#1) : Memref sig .scVector .hbm S8192 .f32 :=
  ((oUW).slice (Rect.unit (s := S13x16x16384) (k0_off36 L k1 k2) S1x1x8192.size (k0_off36_inb L k1 k2 h1)) (fun _ => rfl)).squeeze S8192 squeezes_S1x1x8192_S8192

/-- The index chunk `(k1, k2)` and the table row `(k1, e)` as the copies land them. -/
def chunkU (L : grid0.Coords) (k1 : Fin k0_t1_loop.trips) (k2 : Fin k0_t2_loop.trips) (h1 : k0_cond1 L = 1#1) (d : Dev nD) (Ix : Buf (Elt F) (iULoc d)) :
    Buf (Elt F) ((thrV d L).loc cc0_scratch1) := (iChunkU L k1 k2 h1).view.read (Elt F) Ix
def rowU (L : grid0.Coords) (k1 : Fin k0_t1_loop.trips) (h1 : k0_cond1 L = 1#1) (d : Dev nD) (T : Buf (Elt F) (tULoc d)) :
    Buf (Elt F) ((thrV d L).loc cc0_scratch0) := (tRowU L k1 h1).view.read (Elt F) T

theorem trips3 : Scf.trips k0_t3_loop.lb k0_t3_loop.ub k0_t3_loop.st = 16 := by decide
theorem trips2 : Scf.trips k0_t2_loop.lb k0_t2_loop.ub k0_t2_loop.st = 2 := by decide
theorem trips1 : Scf.trips k0_t1_loop.lb k0_t1_loop.ub k0_t1_loop.st = 13 := by decide
theorem trips2' : k0_t2_loop.trips = 2 := by decide

/-! ## Where the user tower's slices sit, and what the written piece holds -/

omit [FloatOps F] [URA U] [CountersIn U] in
theorem unit3_emb_val {n0 n1 n2 n : ℕ} (off : Fin 3 → ℕ) (inb : ∀ a, off a + (![1, 1, n] : Fin 3 → ℕ) a ≤ (⟨3, ![n0, n1, n2]⟩ : Shape).size a)
    (z : (⟨3, ![1, 1, n]⟩ : Shape).Idx) (a : Fin 3) :
    ((Rect.unit (s := ⟨3, ![n0, n1, n2]⟩) off ![1, 1, n] inb).emb z a).val = off a + (z a).val := by
  show off a + 1 * (z a).val = _; omega
omit [FloatOps F] [URA U] [CountersIn U] in
theorem unit2_emb_val {n0 n1 n : ℕ} (off : Fin 2 → ℕ) (inb : ∀ a, off a + (![1, n] : Fin 2 → ℕ) a ≤ (⟨2, ![n0, n1]⟩ : Shape).size a)
    (z : (⟨2, ![1, n]⟩ : Shape).Idx) (a : Fin 2) :
    ((Rect.unit (s := ⟨2, ![n0, n1]⟩) off ![1, n] inb).emb z a).val = off a + (z a).val := by
  show off a + 1 * (z a).val = _; omega

omit [FloatOps F] [URA U] [CountersIn U] in
theorem tRowU_emb (L : grid0.Coords) (k1 : Fin k0_t1_loop.trips) (h1 : k0_cond1 L = 1#1) (z : S100000.Idx) :
    ((tRowU L k1 h1).view.emb z 0).val = k1.val ∧ ((tRowU L k1 h1).view.emb z 1).val = (L 1).val ∧ ((tRowU L k1 h1).view.emb z 2).val = (z 0).val := by
  have hz := reshape3_val squeezes_S1x1x100000_S100000.numel_eq z
  have ho := k0_off1_eq L k1
  have e : ∀ a, ((tRowU L k1 h1).view.emb z a).val = (k0_off1 L k1) a + ((Shape.reshapeEquiv squeezes_S1x1x100000_S100000.numel_eq z) a).val :=
    fun a => unit3_emb_val (k0_off1 L k1) (k0_off1_inb L k1 h1) _ a
  rw [e 0, e 1, e 2, ho, hz.1, hz.2.1, hz.2.2]
  simp
omit [FloatOps F] [URA U] [CountersIn U] in
theorem iChunkU_emb (L : grid0.Coords) (k1 : Fin k0_t1_loop.trips) (k2 : Fin k0_t2_loop.trips) (h1 : k0_cond1 L = 1#1) (y : S8192.Idx) :
    ((iChunkU L k1 k2 h1).view.emb y 0).val = k1.val ∧ ((iChunkU L k1 k2 h1).view.emb y 1).val = 8192 * k2.val + (y 0).val := by
  have hz := reshape2_val squeezes_S1x8192_S8192.numel_eq y
  have ho := k0_off2_eq k1 k2
  have e : ∀ a, ((iChunkU L k1 k2 h1).view.emb y a).val = (k0_off2 k1 k2) a + ((Shape.reshapeEquiv squeezes_S1x8192_S8192.numel_eq y) a).val :=
    fun a => unit2_emb_val (k0_off2 k1 k2) (k0_off2_inb L k1 k2 h1) _ a
  rw [e 0, e 1, ho, hz.1, hz.2]
  simp
omit [FloatOps F] [URA U] [CountersIn U] in
theorem oPieceU_emb (L : grid0.Coords) (k1 : Fin k0_t1_loop.trips) (k2 : Fin k0_t2_loop.trips) (h1 : k0_cond1 L = 1#1) (y : S8192.Idx) :
    ((oPieceU L k1 k2 h1).view.emb y 0).val = k1.val ∧ ((oPieceU L k1 k2 h1).view.emb y 1).val = (L 1).val
      ∧ ((oPieceU L k1 k2 h1).view.emb y 2).val = 8192 * k2.val + (y 0).val := by
  have hz := reshape3_val squeezes_S1x1x8192_S8192.numel_eq y
  have ho := k0_off36_eq L k1 k2
  have e : ∀ a, ((oPieceU L k1 k2 h1).view.emb y a).val = (k0_off36 L k1 k2) a + ((Shape.reshapeEquiv squeezes_S1x1x8192_S8192.numel_eq y) a).val :=
    fun a => unit3_emb_val (k0_off36 L k1 k2) (k0_off36_inb L k1 k2 h1) _ a
  rw [e 0, e 1, e 2, ho, hz.1, hz.2.1, hz.2.2]
  simp

omit [FloatOps F] [URA U] [CountersIn U] in
theorem mem_pieceU (L : grid0.Coords) (k1 : Fin k0_t1_loop.trips) (k2 : Fin k0_t2_loop.trips) (h1 : k0_cond1 L = 1#1) (ix : S13x16x16384.Idx) :
    ix ∈ (oPieceU L k1 k2 h1).view.set ↔ (ix 0).val = k1.val ∧ (ix 1).val = (L 1).val ∧ 8192 * k2.val ≤ (ix 2).val ∧ (ix 2).val < 8192 * k2.val + 8192 := by
  constructor
  · intro hix
    obtain ⟨y, -, rfl⟩ := Finset.mem_map.mp hix
    have h := oPieceU_emb L k1 k2 h1 y
    have hy : (y 0).val < 8192 := (y 0).isLt
    exact ⟨h.1, h.2.1, by omega, by omega⟩
  · rintro ⟨h0, h1', h2a, h2b⟩
    have hlt : (ix 2).val - 8192 * k2.val < 8192 := by omega
    refine Finset.mem_map.mpr ⟨(fun a => match a with | 0 => ⟨(ix 2).val - 8192 * k2.val, hlt⟩ : S8192.Idx), Finset.mem_univ _, ?_⟩
    have h := oPieceU_emb L k1 k2 h1 (fun a => match a with | 0 => ⟨(ix 2).val - 8192 * k2.val, hlt⟩ : S8192.Idx)
    funext a
    apply Fin.ext
    match a with
    | 0 => exact h.1.trans h0.symm
    | 1 => exact h.2.1.trans h1'.symm
    | 2 => exact h.2.2.trans (by show 8192 * k2.val + ((ix 2).val - 8192 * k2.val) = (ix 2).val; omega)

omit [FloatOps F] [URA U] [CountersIn U] in
theorem hchunkU (L : grid0.Coords) (k1 : Fin k0_t1_loop.trips) (k2 : Fin k0_t2_loop.trips) (h1 : k0_cond1 L = 1#1) (d : Dev nD) (Ix : Buf (Elt F) (iULoc d))
    (hIx : ∀ j : S13x16384.Idx, (Ix j).toNat < 100000) : ∀ j, ((chunkU (F := F) L k1 k2 h1 d Ix) j).toNat < 100000 := by
  intro j
  have e : chunkU (F := F) L k1 k2 h1 d Ix j = Ix ((iChunkU L k1 k2 h1).view.emb j) := (View.read_apply _ _).trans (cast_eq _ _)
  rw [e]; exact hIx _

omit [FloatOps F] [URA U] [CountersIn U] in
theorem piece_subU (L : grid0.Coords) (k1 : Fin k0_t1_loop.trips) (k2 : Fin k0_t2_loop.trips) (h1 : k0_cond1 L = 1#1) :
    (oPieceU L k1 k2 h1).view.set ⊆ colSet (n0 := 13) (n1 := 16) (n2 := 16384) (L 1).val :=
  sub_gen _ k1.val (L 1).val k2.val (mem_pieceU L k1 k2 h1)

omit [FloatOps F] [URA U] [CountersIn U] in
theorem rest_eqU (L : grid0.Coords) (k1 : Fin k0_t1_loop.trips) (k2 : Fin k0_t2_loop.trips) (h1 : k0_cond1 L = 1#1)
    (res g₀ : S13x16x16384.Idx → Elt F .f32) :
    ∀ ix ∈ colSet (n0 := 13) (n1 := 16) (n2 := 16384) (L 1).val \ (oPieceU L k1 k2 h1).view.set,
      mixO (F := F) res g₀ (2 * k1.val + k2.val) ix = mixO (F := F) res g₀ (2 * k1.val + (k2.val + 1)) ix :=
  rest_eq_gen res g₀ _ k1.val (L 1).val k2.val (Nat.lt_of_lt_of_eq k2.isLt trips2') (mem_pieceU L k1 k2 h1)

omit [FloatOps F] [URA U] [CountersIn U] in
theorem piece_valU (L : grid0.Coords) (k1 : Fin k0_t1_loop.trips) (k2 : Fin k0_t2_loop.trips) (h1 : k0_cond1 L = 1#1) (d : Dev nD)
    (T : Buf (Elt F) (tULoc d)) (Ix : Buf (Elt F) (iULoc d)) (hIx : ∀ j : S13x16384.Idx, (Ix j).toNat < 100000) (g g₀ : Buf (Elt F) (oULoc d))
    (o' w : Buf (Elt F) ((thrV d L).loc cc0_scratch2)) (hw : w = o')
    (hgood : Good (F := F) (gath (rowU L k1 h1 d T) (chunkU L k1 k2 h1 d Ix)) 8192 o') :
    ∀ ix ∈ (oPieceU L k1 k2 h1).view.set,
      ((oPieceU L k1 k2 h1).view.writes (Elt F) g [⟨Rect.whole S8192, w⟩]) ix = mixO (F := F) (gathered T Ix) g₀ (2 * k1.val + (k2.val + 1)) ix := by
  intro ix hix
  obtain ⟨y, -, rfl⟩ := Finset.mem_map.mp hix
  have he := oPieceU_emb L k1 k2 h1 y
  have hy : (y 0).val < 8192 := (y 0).isLt
  have hR : rowU (F := F) L k1 h1 d T = fun z => T ((tRowU L k1 h1).view.emb z) := funext fun z => (View.read_apply _ _).trans (cast_eq _ _)
  have hI : chunkU (F := F) L k1 k2 h1 d Ix = fun j => Ix ((iChunkU L k1 k2 h1).view.emb j) := funext fun j => (View.read_apply _ _).trans (cast_eq _ _)
  have hL : ((oPieceU L k1 k2 h1).view.writes (Elt F) g [⟨Rect.whole S8192, w⟩]) ((oPieceU L k1 k2 h1).view.emb y) = w y := by
    have := View.read_writes_cons_emb (oPieceU L k1 k2 h1).view g (Rect.whole S8192) w [] y
    rw [Rect.emb_whole_apply, View.read_apply, cast_eq] at this
    exact this
  rw [mixO_piece _ _ k1.val k2.val _ he.1 (by omega)]
  refine hL.trans ?_
  subst hw
  refine (hgood y hy).trans ?_
  rw [hR, hI]
  exact gath_eq_gathered T Ix _ _ _ k1.val (L 1).val (8192 * k2.val) (tRowU_emb L k1 h1) (iChunkU_emb L k1 k2 h1) (oPieceU_emb L k1 k2 h1) y

/-! ## The innermost loop's trip: thirty-two units of sixteen lanes -/

set_option maxRecDepth 65536 in
theorem trip3U (d : Dev nD) (L : grid0.Coords) (h1 : k0_cond1 L = 1#1)
    (R : Buf (Elt F) ((thrV d L).loc cc0_scratch0)) (I : Buf (Elt F) ((thrV d L).loc cc0_scratch1)) (hI : ∀ j, (I j).toNat < 100000)
    (k : Fin k0_t3_loop.trips) (acc : Unit) :
    (inv3 (F := F) (U := U) d L R I k.val acc)
      ⊢ wp frame (wpE (defs₀ (F := F)) 𝒱₀ (thrV d L) none) Set.univ
          (k0_t3_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k acc)
          (inv3 (F := F) (U := U) d L R I (k.val + 1)) := by
  unfold inv3 k0_t3_body
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [SparseCore.vectorLoadIdx]
  iintro ⟨HR0, HI0, %o, HO0, %hg⟩
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  sl_exec (disch := exact fun _ => chk_of I hI _ _)
  sl_step
  isplitl [HR]; · iexact HR
  isplitl [HI]; · iexact HI
  iexists _
  isplitl [HO]; · iexact HO
  ipureintro
  refine (show Good (gath R I) (512 * k.val + 496 + 16) _ from ?_)
  refine good_step R I hI (512 * k.val + 496) _ (offU_s31 k) (offU_l31 k) rfl rfl (by omega) ?_
  refine good_step R I hI (512 * k.val + 480) _ (offU_s30 k) (offU_l30 k) rfl rfl (by omega) ?_
  refine good_step R I hI (512 * k.val + 464) _ (offU_s29 k) (offU_l29 k) rfl rfl (by omega) ?_
  refine good_step R I hI (512 * k.val + 448) _ (offU_s28 k) (offU_l28 k) rfl rfl (by omega) ?_
  refine good_step R I hI (512 * k.val + 432) _ (offU_s27 k) (offU_l27 k) rfl rfl (by omega) ?_
  refine good_step R I hI (512 * k.val + 416) _ (offU_s26 k) (offU_l26 k) rfl rfl (by omega) ?_
  refine good_step R I hI (512 * k.val + 400) _ (offU_s25 k) (offU_l25 k) rfl rfl (by omega) ?_
  refine good_step R I hI (512 * k.val + 384) _ (offU_s24 k) (offU_l24 k) rfl rfl (by omega) ?_
  refine good_step R I hI (512 * k.val + 368) _ (offU_s23 k) (offU_l23 k) rfl rfl (by omega) ?_
  refine good_step R I hI (512 * k.val + 352) _ (offU_s22 k) (offU_l22 k) rfl rfl (by omega) ?_
  refine good_step R I hI (512 * k.val + 336) _ (offU_s21 k) (offU_l21 k) rfl rfl (by omega) ?_
  refine good_step R I hI (512 * k.val + 320) _ (offU_s20 k) (offU_l20 k) rfl rfl (by omega) ?_
  refine good_step R I hI (512 * k.val + 304) _ (offU_s19 k) (offU_l19 k) rfl rfl (by omega) ?_
  refine good_step R I hI (512 * k.val + 288) _ (offU_s18 k) (offU_l18 k) rfl rfl (by omega) ?_
  refine good_step R I hI (512 * k.val + 272) _ (offU_s17 k) (offU_l17 k) rfl rfl (by omega) ?_
  refine good_step R I hI (512 * k.val + 256) _ (offU_s16 k) (offU_l16 k) rfl rfl (by omega) ?_
  refine good_step R I hI (512 * k.val + 240) _ (offU_s15 k) (offU_l15 k) rfl rfl (by omega) ?_
  refine good_step R I hI (512 * k.val + 224) _ (offU_s14 k) (offU_l14 k) rfl rfl (by omega) ?_
  refine good_step R I hI (512 * k.val + 208) _ (offU_s13 k) (offU_l13 k) rfl rfl (by omega) ?_
  refine good_step R I hI (512 * k.val + 192) _ (offU_s12 k) (offU_l12 k) rfl rfl (by omega) ?_
  refine good_step R I hI (512 * k.val + 176) _ (offU_s11 k) (offU_l11 k) rfl rfl (by omega) ?_
  refine good_step R I hI (512 * k.val + 160) _ (offU_s10 k) (offU_l10 k) rfl rfl (by omega) ?_
  refine good_step R I hI (512 * k.val + 144) _ (offU_s9 k) (offU_l9 k) rfl rfl (by omega) ?_
  refine good_step R I hI (512 * k.val + 128) _ (offU_s8 k) (offU_l8 k) rfl rfl (by omega) ?_
  refine good_step R I hI (512 * k.val + 112) _ (offU_s7 k) (offU_l7 k) rfl rfl (by omega) ?_
  refine good_step R I hI (512 * k.val + 96) _ (offU_s6 k) (offU_l6 k) rfl rfl (by omega) ?_
  refine good_step R I hI (512 * k.val + 80) _ (offU_s5 k) (offU_l5 k) rfl rfl (by omega) ?_
  refine good_step R I hI (512 * k.val + 64) _ (offU_s4 k) (offU_l4 k) rfl rfl (by omega) ?_
  refine good_step R I hI (512 * k.val + 48) _ (offU_s3 k) (offU_l3 k) rfl rfl (by omega) ?_
  refine good_step R I hI (512 * k.val + 32) _ (offU_s2 k) (offU_l2 k) rfl rfl (by omega) ?_
  refine good_step R I hI (512 * k.val + 16) _ (offU_s1 k) (offU_l1 k) rfl rfl (by omega) ?_
  refine good_step R I hI (512 * k.val + 0) _ (offU_s0 k) (offU_l0 k) rfl rfl (by omega) ?_
  exact hg

/-! ## The middle loop: one chunk of 8192 indices fetched, gathered, written out -/

def inv2U (d : Dev nD) (L : grid0.Coords) (h1 : k0_cond1 L = 1#1) (q : PosShare TreeShare) (T : Buf (Elt F) (tULoc d)) (Ix : Buf (Elt F) (iULoc d))
    (g₀ : Buf (Elt F) (oULoc d)) (O : CellTallies nD τ sig (HIx 1)) (W : Waits sig (HIx 1)) (k1 : Fin k0_t1_loop.trips) (k2 : ℕ) (_ : Unit) : sProp 𝕄 :=
  iprop(Transfers.MayWaits (thrV d L) (none : HIx 1) O
    ∗ (iULoc d ↦{q} Ix)
    ∗ ((thrV d L).loc cc0_scratch0 ↦{fullShare} rowU L k1 h1 d T)
    ∗ (∃ I, (thrV d L).loc cc0_scratch1 ↦{fullShare} I) ∗ (∃ o, (thrV d L).loc cc0_scratch2 ↦{fullShare} o)
    ∗ semVal (thrV d L, SemLoc.dma cc0_scoped1.sem) 0 ∗ semVal (thrV d L, SemLoc.dma cc0_scoped2.sem) 0
    ∗ (oULoc d ↦[colSet (L 1).val]{fullShare} mixO (F := F) (gathered T Ix) g₀ (2 * k1.val + k2))
    ∗ ∃ W', ⌜∀ p ∈ W', p ∈ W ∨ p.2 = none⌝ ∗ owes (thrV d L) O W')

omit [FloatOps F] [CountersIn U] in
theorem pts_iU (d : Dev nD) (L : grid0.Coords) (q : PosShare TreeShare) (f : Buf (Elt F) (iULoc d)) :
    ((iUW).view.loc (thrV d L) ↦{q} f : sProp 𝕄) = iULoc d ↦{q} f := rfl
omit [FloatOps F] [CountersIn U] in
theorem pts_tU (d : Dev nD) (L : grid0.Coords) (q : PosShare TreeShare) (f : Buf (Elt F) (tULoc d)) :
    ((tUW).view.loc (thrV d L) ↦{q} f : sProp 𝕄) = tULoc d ↦{q} f := rfl
omit [FloatOps F] [CountersIn U] in
theorem pts_oPieceU (d : Dev nD) (L : grid0.Coords) (k1 : Fin k0_t1_loop.trips) (k2 : Fin k0_t2_loop.trips) (h1 : k0_cond1 L = 1#1) (f : Buf (Elt F) (oULoc d)) :
    ((oPieceU L k1 k2 h1).view.loc (thrV d L) ↦[(oPieceU L k1 k2 h1).view.set]{fullShare} f : sProp 𝕄) = oULoc d ↦[(oPieceU L k1 k2 h1).view.set]{fullShare} f := rfl

theorem trip2U (d : Dev nD) (L : grid0.Coords) (h1 : k0_cond1 L = 1#1) (q : PosShare TreeShare) (T : Buf (Elt F) (tULoc d)) (Ix : Buf (Elt F) (iULoc d))
    (hIx : ∀ j : S13x16384.Idx, (Ix j).toNat < 100000)
    (g₀ : Buf (Elt F) (oULoc d)) (O : CellTallies nD τ sig (HIx 1)) (W : Waits sig (HIx 1)) (k1 : Fin k0_t1_loop.trips)
    (k2 : Fin k0_t2_loop.trips) (acc : Unit) :
    (inv2U (F := F) (U := U) d L h1 q T Ix g₀ O W k1 k2.val acc)
      ⊢ wp frame (wpE (defs₀ (F := F)) 𝒱₀ (thrV d L) none) Set.univ
          (k0_t2_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k1 k2 acc)
          (inv2U (F := F) (U := U) d L h1 q T Ix g₀ O W k1 (k2.val + 1)) := by
  unfold inv2U k0_t2_body
  iintro ⟨Hmw, HIx0, HR0, ⟨%I, HI0⟩, ⟨%o, HO0⟩, Hs1, Hs2, Hout0, %W', %hW', HOw⟩
  ihave HIx := (Entails.of_eq (pts_iU (F := F) d L q _).symm) $$ HIx0
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  ihave Hsp := (pointsTo_split_subset (piece_subU L k1 k2 h1)).1 $$ Hout0
  icases Hsp with ⟨Hout1, Hrest⟩
  ihave Hout := (Entails.of_eq (pts_oPieceU (F := F) d L k1 k2 h1 _).symm) $$ Hout1
  sl_exec
  rw [write_sI_univ]
  sl_for (inv3 (F := F) (U := U) d L (rowU L k1 h1 d T) (chunkU L k1 k2 h1 d Ix)) $$ [HR HI HO]
  case region =>
    intro k acc
    exact trip3U d L h1 _ _ (hchunkU L k1 k2 h1 d Ix hIx) k acc
  · unfold inv3
    isplitl [HR]; · iexact HR
    isplitl [HI]; · iexact HI
    iexists o
    isplitl [HO]; · iexact HO
    ipureintro; intro y hy; omega
  iintro %_ HI3
  unfold inv3
  icases HI3 with ⟨HR0, HI0, %o', HO0, %hgood⟩
  rw [trips3] at hgood
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  sl_exec
  sl_step
  isplitl [Hmw]; · iexact Hmw
  isplitl [HIx]; · iexact HIx
  isplitl [HR]; · iexact HR
  isplitl [HI]; · iexists _; iexact HI
  isplitl [HO]; · iexists _; iexact HO
  isplitl [Hs1]; · iexact Hs1
  isplitl [Hs2]; · iexact Hs2
  isplitl [Hout Hrest]
  · ihave Hrest' := (Entails.of_eq (pointsTo_congr (rest_eqU L k1 k2 h1 (gathered T Ix) g₀))) $$ Hrest
    iapply (pointsTo_split_subset (piece_subU L k1 k2 h1)).2
    isplitl [Hout]
    · iapply (Entails.of_eq ((pts_oPieceU (F := F) d L k1 k2 h1 _).trans
        (pointsTo_congr (piece_valU L k1 k2 h1 d T Ix hIx (mixO (F := F) (gathered T Ix) g₀ (2 * k1.val + k2.val)) g₀ o' o' rfl hgood))))
      iexact Hout
    iexact Hrest'
  iexists (insert (SemLoc.dma cc0_scoped2.sem, (default : HIx 1)) (insert (SemLoc.dma cc0_scoped1.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HOw

/-! ## The outer loop: one field's row fetched, its two chunks gathered -/

def inv1U (d : Dev nD) (L : grid0.Coords) (q : PosShare TreeShare) (T : Buf (Elt F) (tULoc d)) (Ix : Buf (Elt F) (iULoc d))
    (g₀ : Buf (Elt F) (oULoc d)) (O : CellTallies nD τ sig (HIx 1)) (W : Waits sig (HIx 1)) (k1 : ℕ) (_ : Unit) : sProp 𝕄 :=
  iprop(Transfers.MayWaits (thrV d L) (none : HIx 1) O
    ∗ (tULoc d ↦{q} T) ∗ (iULoc d ↦{q} Ix)
    ∗ (∃ R, (thrV d L).loc cc0_scratch0 ↦{fullShare} R) ∗ (∃ I, (thrV d L).loc cc0_scratch1 ↦{fullShare} I) ∗ (∃ o, (thrV d L).loc cc0_scratch2 ↦{fullShare} o)
    ∗ semVal (thrV d L, SemLoc.dma cc0_scoped0.sem) 0 ∗ semVal (thrV d L, SemLoc.dma cc0_scoped1.sem) 0 ∗ semVal (thrV d L, SemLoc.dma cc0_scoped2.sem) 0
    ∗ (oULoc d ↦[colSet (L 1).val]{fullShare} mixO (F := F) (gathered T Ix) g₀ (2 * k1))
    ∗ ∃ W', ⌜∀ p ∈ W', p ∈ W ∨ p.2 = none⌝ ∗ owes (thrV d L) O W')

theorem trip1U (d : Dev nD) (L : grid0.Coords) (h1 : k0_cond1 L = 1#1) (q : PosShare TreeShare) (T : Buf (Elt F) (tULoc d)) (Ix : Buf (Elt F) (iULoc d))
    (hIx : ∀ j : S13x16384.Idx, (Ix j).toNat < 100000)
    (g₀ : Buf (Elt F) (oULoc d)) (O : CellTallies nD τ sig (HIx 1)) (W : Waits sig (HIx 1)) (k1 : Fin k0_t1_loop.trips) (acc : Unit) :
    (inv1U (F := F) (U := U) d L q T Ix g₀ O W k1.val acc)
      ⊢ wp frame (wpE (defs₀ (F := F)) 𝒱₀ (thrV d L) none) Set.univ
          (k0_t1_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k1 acc)
          (inv1U (F := F) (U := U) d L q T Ix g₀ O W (k1.val + 1)) := by
  unfold inv1U k0_t1_body
  iintro ⟨Hmw, HT0, HIx, ⟨%R, HR0⟩, HI, HO, Hs0, Hs1, Hs2, Hout, %W', %hW', HOw⟩
  ihave HT := (Entails.of_eq (pts_tU (F := F) d L q _).symm) $$ HT0
  ihave HR := (Entails.of_eq (pts_sR (F := F) d L _).symm) $$ HR0
  sl_exec
  rw [write_sR_univ]
  sl_for (inv2U (F := F) (U := U) d L h1 q T Ix g₀ O W k1) $$ [Hmw HIx HR HI HO Hs1 Hs2 Hout HOw]
  case region =>
    intro k2 acc
    exact trip2U d L h1 q T Ix hIx g₀ O W k1 k2 acc
  · unfold inv2U
    isplitl [Hmw]; · iexact Hmw
    isplitl [HIx]; · iexact HIx
    isplitl [HR]; · iexact HR
    isplitl [HI]; · iexact HI
    isplitl [HO]; · iexact HO
    isplitl [Hs1]; · iexact Hs1
    isplitl [Hs2]; · iexact Hs2
    isplitl [Hout]; · iexact Hout
    iexists (insert (SemLoc.dma cc0_scoped0.sem, (default : HIx 1)) W'); isplitr
    · ipureintro; intro p hp
      rcases Finset.mem_insert.mp hp with hp | hp
      · exact .inr (hp ▸ rfl)
      · exact hW' p hp
    · iexact HOw
  iintro %_ HI2
  unfold inv2U
  rw [trips2]
  icases HI2 with ⟨Hmw, HIx, HR0, HI, HO, Hs1, Hs2, Hout, %W2, %hW2, HOw⟩
  sl_exec
  sl_step
  rw [show 2 * (k1.val + 1) = 2 * k1.val + 2 from by omega]
  isplitl [Hmw]; · iexact Hmw
  isplitl [HT]; · iexact HT
  isplitl [HIx]; · iexact HIx
  isplitl [HR0]; · iexists _; iexact HR0
  isplitl [HI]; · iexact HI
  isplitl [HO]; · iexact HO
  isplitl [Hs0]; · iexact Hs0
  isplitl [Hs1]; · iexact Hs1
  isplitl [Hs2]; · iexact Hs2
  isplitl [Hout]; · iexact Hout
  iexists W2; isplitr
  · ipureintro; exact hW2
  · iexact HOw

/-! ## The user tower's tile -/

theorem bodyU (hF : (K (F := F)).Facts) (d : Dev nD) (L : grid0.Coords) (h1 : k0_cond1 L = 1#1) (q : PosShare TreeShare)
    (T : Buf (Elt F) (tULoc d)) (Ix : Buf (Elt F) (iULoc d)) (hIx : ∀ j : S13x16384.Idx, (Ix j).toNat < 100000) (g₀ : Buf (Elt F) (oULoc d))
    (O : CellTallies nD τ sig (HIx 1)) (W : Waits sig (HIx 1)) (hO : ∀ g, O g none = 0) :
    (iprop(levAts (K (F := F)).L (K (F := F)).lev
        ∗ ((tULoc d ↦{q} T) ∗ (iULoc d ↦{q} Ix) ∗ oULoc d ↦[colSet (L 1).val]{fullShare} g₀)
        ∗ scopedBufs (thrV d L) ∗ scopedSems0 (thrV d L) ∗ owes (thrV d L) O W) : sProp 𝕄)
      ⊢ wp frame (wpE (defs₀ (F := F)) 𝒱₀ (thrV d L) none) Set.univ
          (cc0__sc_gather_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5)
          fun _ => iprop(((tULoc d ↦{q} T) ∗ (iULoc d ↦{q} Ix) ∗ oULoc d ↦[colSet (L 1).val]{fullShare} gathered (F := F) T Ix)
            ∗ scopedBufs (thrV d L) ∗ scopedSems0 (thrV d L)
            ∗ ∃ W', ⌜∀ p ∈ W', p ∈ W ∨ p.2 = none⌝ ∗ owes (thrV d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V6, ownBufs_V3]
  iintro ⟨#Hlv, ⟨HT, HIx, Hout⟩, ⟨HR, HI, HO, Hbufs⟩, ⟨Hs0, Hs1, Hs2, Hs3, Hs4, Hs5, Hsems⟩, HOw⟩
  ihave Hmw := ((K (F := F)).mayWaits_none (thr := thrV d L) hO) $$ Hlv
  sl_exec
  sl_for (inv1U (F := F) (U := U) d L q T Ix g₀ O W) $$ [Hmw HT HIx HR HI HO Hs0 Hs1 Hs2 Hout HOw]
  case region =>
    intro k1 acc
    exact trip1U d L h1 q T Ix hIx g₀ O W k1 acc
  · unfold inv1U
    isplitl [Hmw]; · iexact Hmw
    isplitl [HT]; · iexact HT
    isplitl [HIx]; · iexact HIx
    isplitl [HR]; · iexact HR
    isplitl [HI]; · iexact HI
    isplitl [HO]; · iexact HO
    isplitl [Hs0]; · iexact Hs0
    isplitl [Hs1]; · iexact Hs1
    isplitl [Hs2]; · iexact Hs2
    isplitl [Hout]
    · iapply (Entails.of_eq (pointsTo_congr (fun ix _ => (show mixO (F := F) (gathered T Ix) g₀ (2 * 0) ix = g₀ ix from by
        unfold mixO; rw [if_neg (by omega)]))))
      iexact Hout
    iexists W; isplitr
    · ipureintro; exact fun p hp => .inl hp
    · iexact HOw
  iintro %_ HI1
  unfold inv1U
  rw [trips1]
  icases HI1 with ⟨Hmw, HT, HIx, HR, HI, HO, Hs0, Hs1, Hs2, Hout, %W', %hW', HOw⟩
  sl_exec
  sl_step
  isplitl [HT HIx Hout]
  · isplitl [HT]; · iexact HT
    isplitl [HIx]; · iexact HIx
    iapply (Entails.of_eq (pointsTo_congr (fun ix _ => mixO_all (F := F) (gathered T Ix) g₀ ix)))
    iexact Hout
  isplitl [HR HI HO Hbufs]
  · isplitl [HR]; · iexact HR
    isplitl [HI]; · iexact HI
    isplitl [HO]; · iexact HO
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists W'; isplitr
  · ipureintro; exact hW'
  · iexact HOw

end Cert.Kernel.Sc
end
-- ==== Proof.WScBodyItem.lean ====
/-
  The item tower's tile (SparseCore 1): the same work as the user tower's over the item table, the item index array and
  the item result, on the tile's other three DMA semaphores. The loops' invariants carry the value: the out scratch's
  first lanes at the gather, the result's pieces below the current one at THE RESULT.
-/
import proofs.«205816_g11845519802804_retrytranche1_1814_36_alg».proof.Proof.WScBodyUser
import proofs.«205816_g11845519802804_retrytranche1_1814_36_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "tUW" => (Memref.whole Cert.Kernel.main_v0_scv : Memref Cert.Kernel.sig Kind.scVector Space.hbm Cert.Kernel.S13x16x100000 EltTy.f32)
local notation "tIW" => (Memref.whole Cert.Kernel.main_v1_scv : Memref Cert.Kernel.sig Kind.scVector Space.hbm Cert.Kernel.S13x16x100000 EltTy.f32)
local notation "iUW" => (Memref.whole Cert.Kernel.main_arg0_scv : Memref Cert.Kernel.sig Kind.scVector Space.hbm Cert.Kernel.S13x16384 EltTy.i32)
local notation "iIW" => (Memref.whole Cert.Kernel.main_arg1_scv : Memref Cert.Kernel.sig Kind.scVector Space.hbm Cert.Kernel.S13x16384 EltTy.i32)
local notation "oUW" => (Memref.whole Cert.Kernel.main_v2_0_scv : Memref Cert.Kernel.sig Kind.scVector Space.hbm Cert.Kernel.S13x16x16384 EltTy.f32)
local notation "oIW" => (Memref.whole Cert.Kernel.main_v2_1_scv : Memref Cert.Kernel.sig Kind.scVector Space.hbm Cert.Kernel.S13x16x16384 EltTy.f32)
local notation "sR" => (Memref.whole Cert.Kernel.cc0_scratch0 : Memref Cert.Kernel.sig Kind.scVector Space.vmem Cert.Kernel.S100000 EltTy.f32)
local notation "sI" => (Memref.whole Cert.Kernel.cc0_scratch1 : Memref Cert.Kernel.sig Kind.scVector Space.vmem Cert.Kernel.S8192 EltTy.i32)
local notation "sO" => (Memref.whole Cert.Kernel.cc0_scratch2 : Memref Cert.Kernel.sig Kind.scVector Space.vmem Cert.Kernel.S8192 EltTy.f32)

/-! ## The item tower's slices, spelt as the body slices them -/

abbrev tRowI (L : grid0.Coords) (k1 : Fin k0_t4_loop.trips) (h1 : ¬(k0_cond1 L = 1#1)) : Memref sig .scVector .hbm S100000 .f32 :=
  ((tIW).slice (Rect.unit (s := S13x16x100000) (k0_off37 L k1) S1x1x100000.size (k0_off37_inb L k1 h1)) (fun _ => rfl)).squeeze S100000 squeezes_S1x1x100000_S100000
abbrev iChunkI (L : grid0.Coords) (k1 : Fin k0_t4_loop.trips) (k2 : Fin k0_t5_loop.trips) (h1 : ¬(k0_cond1 L = 1#1)) : Memref sig .scVector .hbm S8192 .i32 :=
  ((iIW).slice (Rect.unit (s := S13x16384) (k0_off38 k1 k2) S1x8192.size (k0_off38_inb L k1 k2 h1)) (fun _ => rfl)).squeeze S8192 squeezes_S1x8192_S8192
abbrev oPieceI (L : grid0.Coords) (k1 : Fin k0_t4_loop.trips) (k2 : Fin k0_t5_loop.trips) (h1 : ¬(k0_cond1 L = 1#1)) : Memref sig .scVector .hbm S8192 .f32 :=
  ((oIW).slice (Rect.unit (s := S13x16x16384) (k0_off72 L k1 k2) S1x1x8192.size (k0_off72_inb L k1 k2 h1)) (fun _ => rfl)).squeeze S8192 squeezes_S1x1x8192_S8192

/-- The index chunk `(k1, k2)` and the table row `(k1, e)` as the copies land them. -/
def chunkI (L : grid0.Coords) (k1 : Fin k0_t4_loop.trips) (k2 : Fin k0_t5_loop.trips) (h1 : ¬(k0_cond1 L = 1#1)) (d : Dev nD) (Ix : Buf (Elt F) (iILoc d)) :
    Buf (Elt F) ((thrV d L).loc cc0_scratch1) := (iChunkI L k1 k2 h1).view.read (Elt F) Ix
def rowI (L : grid0.Coords) (k1 : Fin k0_t4_loop.trips) (h1 : ¬(k0_cond1 L = 1#1)) (d : Dev nD) (T : Buf (Elt F) (tILoc d)) :
    Buf (Elt F) ((thrV d L).loc cc0_scratch0) := (tRowI L k1 h1).view.read (Elt F) T

theorem trips6 : Scf.trips k0_t6_loop.lb k0_t6_loop.ub k0_t6_loop.st = 16 := by decide
theorem trips5 : Scf.trips k0_t5_loop.lb k0_t5_loop.ub k0_t5_loop.st = 2 := by decide
theorem trips4 : Scf.trips k0_t4_loop.lb k0_t4_loop.ub k0_t4_loop.st = 13 := by decide
theorem trips5' : k0_t5_loop.trips = 2 := by decide

/-! ## Where the item tower's slices sit, and what the written piece holds -/

omit [FloatOps F] [URA U] [CountersIn U] in
theorem tRowI_emb (L : grid0.Coords) (k1 : Fin k0_t4_loop.trips) (h1 : ¬(k0_cond1 L = 1#1)) (z : S100000.Idx) :
    ((tRowI L k1 h1).view.emb z 0).val = k1.val ∧ ((tRowI L k1 h1).view.emb z 1).val = (L 1).val ∧ ((tRowI L k1 h1).view.emb z 2).val = (z 0).val := by
  have hz := reshape3_val squeezes_S1x1x100000_S100000.numel_eq z
  have ho := k0_off37_eq L k1
  have e : ∀ a, ((tRowI L k1 h1).view.emb z a).val = (k0_off37 L k1) a + ((Shape.reshapeEquiv squeezes_S1x1x100000_S100000.numel_eq z) a).val :=
    fun a => unit3_emb_val (k0_off37 L k1) (k0_off37_inb L k1 h1) _ a
  rw [e 0, e 1, e 2, ho, hz.1, hz.2.1, hz.2.2]
  simp
omit [FloatOps F] [URA U] [CountersIn U] in
theorem iChunkI_emb (L : grid0.Coords) (k1 : Fin k0_t4_loop.trips) (k2 : Fin k0_t5_loop.trips) (h1 : ¬(k0_cond1 L = 1#1)) (y : S8192.Idx) :
    ((iChunkI L k1 k2 h1).view.emb y 0).val = k1.val ∧ ((iChunkI L k1 k2 h1).view.emb y 1).val = 8192 * k2.val + (y 0).val := by
  have hz := reshape2_val squeezes_S1x8192_S8192.numel_eq y
  have ho := k0_off38_eq k1 k2
  have e : ∀ a, ((iChunkI L k1 k2 h1).view.emb y a).val = (k0_off38 k1 k2) a + ((Shape.reshapeEquiv squeezes_S1x8192_S8192.numel_eq y) a).val :=
    fun a => unit2_emb_val (k0_off38 k1 k2) (k0_off38_inb L k1 k2 h1) _ a
  rw [e 0, e 1, ho, hz.1, hz.2]
  simp
omit [FloatOps F] [URA U] [CountersIn U] in
theorem oPieceI_emb (L : grid0.Coords) (k1 : Fin k0_t4_loop.trips) (k2 : Fin k0_t5_loop.trips) (h1 : ¬(k0_cond1 L = 1#1)) (y : S8192.Idx) :
    ((oPieceI L k1 k2 h1).view.emb y 0).val = k1.val ∧ ((oPieceI L k1 k2 h1).view.emb y 1).val = (L 1).val
      ∧ ((oPieceI L k1 k2 h1).view.emb y 2).val = 8192 * k2.val + (y 0).val := by
  have hz := reshape3_val squeezes_S1x1x8192_S8192.numel_eq y
  have ho := k0_off72_eq L k1 k2
  have e : ∀ a, ((oPieceI L k1 k2 h1).view.emb y a).val = (k0_off72 L k1 k2) a + ((Shape.reshapeEquiv squeezes_S1x1x8192_S8192.numel_eq y) a).val :=
    fun a => unit3_emb_val (k0_off72 L k1 k2) (k0_off72_inb L k1 k2 h1) _ a
  rw [e 0, e 1, e 2, ho, hz.1, hz.2.1, hz.2.2]
  simp

omit [FloatOps F] [URA U] [CountersIn U] in
theorem mem_pieceI (L : grid0.Coords) (k1 : Fin k0_t4_loop.trips) (k2 : Fin k0_t5_loop.trips) (h1 : ¬(k0_cond1 L = 1#1)) (ix : S13x16x16384.Idx) :
    ix ∈ (oPieceI L k1 k2 h1).view.set ↔ (ix 0).val = k1.val ∧ (ix 1).val = (L 1).val ∧ 8192 * k2.val ≤ (ix 2).val ∧ (ix 2).val < 8192 * k2.val + 8192 := by
  constructor
  · intro hix
    obtain ⟨y, -, rfl⟩ := Finset.mem_map.mp hix
    have h := oPieceI_emb L k1 k2 h1 y
    have hy : (y 0).val < 8192 := (y 0).isLt
    exact ⟨h.1, h.2.1, by omega, by omega⟩
  · rintro ⟨h0, h1', h2a, h2b⟩
    have hlt : (ix 2).val - 8192 * k2.val < 8192 := by omega
    refine Finset.mem_map.mpr ⟨(fun a => match a with | 0 => ⟨(ix 2).val - 8192 * k2.val, hlt⟩ : S8192.Idx), Finset.mem_univ _, ?_⟩
    have h := oPieceI_emb L k1 k2 h1 (fun a => match a with | 0 => ⟨(ix 2).val - 8192 * k2.val, hlt⟩ : S8192.Idx)
    funext a
    apply Fin.ext
    match a with
    | 0 => exact h.1.trans h0.symm
    | 1 => exact h.2.1.trans h1'.symm
    | 2 => exact h.2.2.trans (by show 8192 * k2.val + ((ix 2).val - 8192 * k2.val) = (ix 2).val; omega)

omit [FloatOps F] [URA U] [CountersIn U] in
theorem hchunkI (L : grid0.Coords) (k1 : Fin k0_t4_loop.trips) (k2 : Fin k0_t5_loop.trips) (h1 : ¬(k0_cond1 L = 1#1)) (d : Dev nD) (Ix : Buf (Elt F) (iILoc d))
    (hIx : ∀ j : S13x16384.Idx, (Ix j).toNat < 100000) : ∀ j, ((chunkI (F := F) L k1 k2 h1 d Ix) j).toNat < 100000 := by
  intro j
  have e : chunkI (F := F) L k1 k2 h1 d Ix j = Ix ((iChunkI L k1 k2 h1).view.emb j) := (View.read_apply _ _).trans (cast_eq _ _)
  rw [e]; exact hIx _

omit [FloatOps F] [URA U] [CountersIn U] in
theorem piece_subI (L : grid0.Coords) (k1 : Fin k0_t4_loop.trips) (k2 : Fin k0_t5_loop.trips) (h1 : ¬(k0_cond1 L = 1#1)) :
    (oPieceI L k1 k2 h1).view.set ⊆ colSet (n0 := 13) (n1 := 16) (n2 := 16384) (L 1).val :=
  sub_gen _ k1.val (L 1).val k2.val (mem_pieceI L k1 k2 h1)

omit [FloatOps F] [URA U] [CountersIn U] in
theorem rest_eqI (L : grid0.Coords) (k1 : Fin k0_t4_loop.trips) (k2 : Fin k0_t5_loop.trips) (h1 : ¬(k0_cond1 L = 1#1))
    (res g₀ : S13x16x16384.Idx → Elt F .f32) :
    ∀ ix ∈ colSet (n0 := 13) (n1 := 16) (n2 := 16384) (L 1).val \ (oPieceI L k1 k2 h1).view.set,
      mixO (F := F) res g₀ (2 * k1.val + k2.val) ix = mixO (F := F) res g₀ (2 * k1.val + (k2.val + 1)) ix :=
  rest_eq_gen res g₀ _ k1.val (L 1).val k2.val (Nat.lt_of_lt_of_eq k2.isLt trips5') (mem_pieceI L k1 k2 h1)

omit [FloatOps F] [URA U] [CountersIn U] in
theorem piece_valI (L : grid0.Coords) (k1 : Fin k0_t4_loop.trips) (k2 : Fin k0_t5_loop.trips) (h1 : ¬(k0_cond1 L = 1#1)) (d : Dev nD)
    (T : Buf (Elt F) (tILoc d)) (Ix : Buf (Elt F) (iILoc d)) (hIx : ∀ j : S13x16384.Idx, (Ix j).toNat < 100000) (g g₀ : Buf (Elt F) (oILoc d))
    (o' w : Buf (Elt F) ((thrV d L).loc cc0_scratch2)) (hw : w = o')
    (hgood : Good (F := F) (gath (rowI L k1 h1 d T) (chunkI L k1 k2 h1 d Ix)) 8192 o') :
    ∀ ix ∈ (oPieceI L k1 k2 h1).view.set,
      ((oPieceI L k1 k2 h1).view.writes (Elt F) g [⟨Rect.whole S8192, w⟩]) ix = mixO (F := F) (gathered T Ix) g₀ (2 * k1.val + (k2.val + 1)) ix := by
  intro ix hix
  obtain ⟨y, -, rfl⟩ := Finset.mem_map.mp hix
  have he := oPieceI_emb L k1 k2 h1 y
  have hy : (y 0).val < 8192 := (y 0).isLt
  have hR : rowI (F := F) L k1 h1 d T = fun z => T ((tRowI L k1 h1).view.emb z) := funext fun z => (View.read_apply _ _).trans (cast_eq _ _)
  have hI : chunkI (F := F) L k1 k2 h1 d Ix = fun j => Ix ((iChunkI L k1 k2 h1).view.emb j) := funext fun j => (View.read_apply _ _).trans (cast_eq _ _)
  have hL : ((oPieceI L k1 k2 h1).view.writes (Elt F) g [⟨Rect.whole S8192, w⟩]) ((oPieceI L k1 k2 h1).view.emb y) = w y := by
    have := View.read_writes_cons_emb (oPieceI L k1 k2 h1).view g (Rect.whole S8192) w [] y
    rw [Rect.emb_whole_apply, View.read_apply, cast_eq] at this
    exact this
  rw [mixO_piece _ _ k1.val k2.val _ he.1 (by omega)]
  refine hL.trans ?_
  subst hw
  refine (hgood y hy).trans ?_
  rw [hR, hI]
  exact gath_eq_gathered T Ix _ _ _ k1.val (L 1).val (8192 * k2.val) (tRowI_emb L k1 h1) (iChunkI_emb L k1 k2 h1) (oPieceI_emb L k1 k2 h1) y

/-! ## The innermost loop's trip: thirty-two units of sixteen lanes -/

set_option maxRecDepth 65536 in
theorem trip3I (d : Dev nD) (L : grid0.Coords) (h1 : ¬(k0_cond1 L = 1#1))
    (R : Buf (Elt F) ((thrV d L).loc cc0_scratch0)) (I : Buf (Elt F) ((thrV d L).loc cc0_scratch1)) (hI : ∀ j, (I j).toNat < 100000)
    (k : Fin k0_t6_loop.trips) (acc : Unit) :
    (inv3 (F := F) (U := U) d L R I k.val acc)
      ⊢ wp frame (wpE (defs₀ (F := F)) 𝒱₀ (thrV d L) none) Set.univ
          (k0_t6_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k acc)
          (inv3 (F := F) (U := U) d L R I (k.val + 1)) := by
  unfold inv3 k0_t6_body
  simp only [k0_part12_eq_skeleton]; unfold k0_part12_skel
  simp only [k0_part7_eq_skeleton, k0_part8_eq_skeleton, k0_part9_eq_skeleton, k0_part10_eq_skeleton, k0_part11_eq_skeleton]
  unfold k0_part7_skel k0_part8_skel k0_part9_skel k0_part10_skel k0_part11_skel
  simp only [SparseCore.vectorLoadIdx]
  iintro ⟨HR0, HI0, %o, HO0, %hg⟩
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  sl_exec (disch := exact fun _ => chk_of I hI _ _)
  sl_step
  isplitl [HR]; · iexact HR
  isplitl [HI]; · iexact HI
  iexists _
  isplitl [HO]; · iexact HO
  ipureintro
  refine (show Good (gath R I) (512 * k.val + 496 + 16) _ from ?_)
  refine good_step R I hI (512 * k.val + 496) _ (offI_s31 k) (offI_l31 k) rfl rfl (by omega) ?_
  refine good_step R I hI (512 * k.val + 480) _ (offI_s30 k) (offI_l30 k) rfl rfl (by omega) ?_
  refine good_step R I hI (512 * k.val + 464) _ (offI_s29 k) (offI_l29 k) rfl rfl (by omega) ?_
  refine good_step R I hI (512 * k.val + 448) _ (offI_s28 k) (offI_l28 k) rfl rfl (by omega) ?_
  refine good_step R I hI (512 * k.val + 432) _ (offI_s27 k) (offI_l27 k) rfl rfl (by omega) ?_
  refine good_step R I hI (512 * k.val + 416) _ (offI_s26 k) (offI_l26 k) rfl rfl (by omega) ?_
  refine good_step R I hI (512 * k.val + 400) _ (offI_s25 k) (offI_l25 k) rfl rfl (by omega) ?_
  refine good_step R I hI (512 * k.val + 384) _ (offI_s24 k) (offI_l24 k) rfl rfl (by omega) ?_
  refine good_step R I hI (512 * k.val + 368) _ (offI_s23 k) (offI_l23 k) rfl rfl (by omega) ?_
  refine good_step R I hI (512 * k.val + 352) _ (offI_s22 k) (offI_l22 k) rfl rfl (by omega) ?_
  refine good_step R I hI (512 * k.val + 336) _ (offI_s21 k) (offI_l21 k) rfl rfl (by omega) ?_
  refine good_step R I hI (512 * k.val + 320) _ (offI_s20 k) (offI_l20 k) rfl rfl (by omega) ?_
  refine good_step R I hI (512 * k.val + 304) _ (offI_s19 k) (offI_l19 k) rfl rfl (by omega) ?_
  refine good_step R I hI (512 * k.val + 288) _ (offI_s18 k) (offI_l18 k) rfl rfl (by omega) ?_
  refine good_step R I hI (512 * k.val + 272) _ (offI_s17 k) (offI_l17 k) rfl rfl (by omega) ?_
  refine good_step R I hI (512 * k.val + 256) _ (offI_s16 k) (offI_l16 k) rfl rfl (by omega) ?_
  refine good_step R I hI (512 * k.val + 240) _ (offI_s15 k) (offI_l15 k) rfl rfl (by omega) ?_
  refine good_step R I hI (512 * k.val + 224) _ (offI_s14 k) (offI_l14 k) rfl rfl (by omega) ?_
  refine good_step R I hI (512 * k.val + 208) _ (offI_s13 k) (offI_l13 k) rfl rfl (by omega) ?_
  refine good_step R I hI (512 * k.val + 192) _ (offI_s12 k) (offI_l12 k) rfl rfl (by omega) ?_
  refine good_step R I hI (512 * k.val + 176) _ (offI_s11 k) (offI_l11 k) rfl rfl (by omega) ?_
  refine good_step R I hI (512 * k.val + 160) _ (offI_s10 k) (offI_l10 k) rfl rfl (by omega) ?_
  refine good_step R I hI (512 * k.val + 144) _ (offI_s9 k) (offI_l9 k) rfl rfl (by omega) ?_
  refine good_step R I hI (512 * k.val + 128) _ (offI_s8 k) (offI_l8 k) rfl rfl (by omega) ?_
  refine good_step R I hI (512 * k.val + 112) _ (offI_s7 k) (offI_l7 k) rfl rfl (by omega) ?_
  refine good_step R I hI (512 * k.val + 96) _ (offI_s6 k) (offI_l6 k) rfl rfl (by omega) ?_
  refine good_step R I hI (512 * k.val + 80) _ (offI_s5 k) (offI_l5 k) rfl rfl (by omega) ?_
  refine good_step R I hI (512 * k.val + 64) _ (offI_s4 k) (offI_l4 k) rfl rfl (by omega) ?_
  refine good_step R I hI (512 * k.val + 48) _ (offI_s3 k) (offI_l3 k) rfl rfl (by omega) ?_
  refine good_step R I hI (512 * k.val + 32) _ (offI_s2 k) (offI_l2 k) rfl rfl (by omega) ?_
  refine good_step R I hI (512 * k.val + 16) _ (offI_s1 k) (offI_l1 k) rfl rfl (by omega) ?_
  refine good_step R I hI (512 * k.val + 0) _ (offI_s0 k) (offI_l0 k) rfl rfl (by omega) ?_
  exact hg

/-! ## The middle loop: one chunk of 8192 indices fetched, gathered, written out -/

def inv2I (d : Dev nD) (L : grid0.Coords) (h1 : ¬(k0_cond1 L = 1#1)) (q : PosShare TreeShare) (T : Buf (Elt F) (tILoc d)) (Ix : Buf (Elt F) (iILoc d))
    (g₀ : Buf (Elt F) (oILoc d)) (O : CellTallies nD τ sig (HIx 1)) (W : Waits sig (HIx 1)) (k1 : Fin k0_t4_loop.trips) (k2 : ℕ) (_ : Unit) : sProp 𝕄 :=
  iprop(Transfers.MayWaits (thrV d L) (none : HIx 1) O
    ∗ (iILoc d ↦{q} Ix)
    ∗ ((thrV d L).loc cc0_scratch0 ↦{fullShare} rowI L k1 h1 d T)
    ∗ (∃ I, (thrV d L).loc cc0_scratch1 ↦{fullShare} I) ∗ (∃ o, (thrV d L).loc cc0_scratch2 ↦{fullShare} o)
    ∗ semVal (thrV d L, SemLoc.dma cc0_scoped4.sem) 0 ∗ semVal (thrV d L, SemLoc.dma cc0_scoped5.sem) 0
    ∗ (oILoc d ↦[colSet (L 1).val]{fullShare} mixO (F := F) (gathered T Ix) g₀ (2 * k1.val + k2))
    ∗ ∃ W', ⌜∀ p ∈ W', p ∈ W ∨ p.2 = none⌝ ∗ owes (thrV d L) O W')

omit [FloatOps F] [CountersIn U] in
theorem pts_iI (d : Dev nD) (L : grid0.Coords) (q : PosShare TreeShare) (f : Buf (Elt F) (iILoc d)) :
    ((iIW).view.loc (thrV d L) ↦{q} f : sProp 𝕄) = iILoc d ↦{q} f := rfl
omit [FloatOps F] [CountersIn U] in
theorem pts_tI (d : Dev nD) (L : grid0.Coords) (q : PosShare TreeShare) (f : Buf (Elt F) (tILoc d)) :
    ((tIW).view.loc (thrV d L) ↦{q} f : sProp 𝕄) = tILoc d ↦{q} f := rfl
omit [FloatOps F] [CountersIn U] in
theorem pts_oPieceI (d : Dev nD) (L : grid0.Coords) (k1 : Fin k0_t4_loop.trips) (k2 : Fin k0_t5_loop.trips) (h1 : ¬(k0_cond1 L = 1#1)) (f : Buf (Elt F) (oILoc d)) :
    ((oPieceI L k1 k2 h1).view.loc (thrV d L) ↦[(oPieceI L k1 k2 h1).view.set]{fullShare} f : sProp 𝕄) = oILoc d ↦[(oPieceI L k1 k2 h1).view.set]{fullShare} f := rfl

theorem trip2I (d : Dev nD) (L : grid0.Coords) (h1 : ¬(k0_cond1 L = 1#1)) (q : PosShare TreeShare) (T : Buf (Elt F) (tILoc d)) (Ix : Buf (Elt F) (iILoc d))
    (hIx : ∀ j : S13x16384.Idx, (Ix j).toNat < 100000)
    (g₀ : Buf (Elt F) (oILoc d)) (O : CellTallies nD τ sig (HIx 1)) (W : Waits sig (HIx 1)) (k1 : Fin k0_t4_loop.trips)
    (k2 : Fin k0_t5_loop.trips) (acc : Unit) :
    (inv2I (F := F) (U := U) d L h1 q T Ix g₀ O W k1 k2.val acc)
      ⊢ wp frame (wpE (defs₀ (F := F)) 𝒱₀ (thrV d L) none) Set.univ
          (k0_t5_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k1 k2 acc)
          (inv2I (F := F) (U := U) d L h1 q T Ix g₀ O W k1 (k2.val + 1)) := by
  unfold inv2I k0_t5_body
  iintro ⟨Hmw, HIx0, HR0, ⟨%I, HI0⟩, ⟨%o, HO0⟩, Hs1, Hs2, Hout0, %W', %hW', HOw⟩
  ihave HIx := (Entails.of_eq (pts_iI (F := F) d L q _).symm) $$ HIx0
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  ihave Hsp := (pointsTo_split_subset (piece_subI L k1 k2 h1)).1 $$ Hout0
  icases Hsp with ⟨Hout1, Hrest⟩
  ihave Hout := (Entails.of_eq (pts_oPieceI (F := F) d L k1 k2 h1 _).symm) $$ Hout1
  sl_exec
  rw [write_sI_univ]
  sl_for (inv3 (F := F) (U := U) d L (rowI L k1 h1 d T) (chunkI L k1 k2 h1 d Ix)) $$ [HR HI HO]
  case region =>
    intro k acc
    exact trip3I d L h1 _ _ (hchunkI L k1 k2 h1 d Ix hIx) k acc
  · unfold inv3
    isplitl [HR]; · iexact HR
    isplitl [HI]; · iexact HI
    iexists o
    isplitl [HO]; · iexact HO
    ipureintro; intro y hy; omega
  iintro %_ HI3
  unfold inv3
  icases HI3 with ⟨HR0, HI0, %o', HO0, %hgood⟩
  rw [trips6] at hgood
  ihave HR := (Entails.of_eq (pts_sR (F := F) d L _).symm) $$ HR0
  ihave HI := (Entails.of_eq (pts_sI (F := F) d L _).symm) $$ HI0
  ihave HO := (Entails.of_eq (pts_sO (F := F) d L _).symm) $$ HO0
  sl_exec
  sl_step
  isplitl [Hmw]; · iexact Hmw
  isplitl [HIx]; · iexact HIx
  isplitl [HR]; · iexact HR
  isplitl [HI]; · iexists _; iexact HI
  isplitl [HO]; · iexists _; iexact HO
  isplitl [Hs1]; · iexact Hs1
  isplitl [Hs2]; · iexact Hs2
  isplitl [Hout Hrest]
  · ihave Hrest' := (Entails.of_eq (pointsTo_congr (rest_eqI L k1 k2 h1 (gathered T Ix) g₀))) $$ Hrest
    iapply (pointsTo_split_subset (piece_subI L k1 k2 h1)).2
    isplitl [Hout]
    · iapply (Entails.of_eq ((pts_oPieceI (F := F) d L k1 k2 h1 _).trans
        (pointsTo_congr (piece_valI L k1 k2 h1 d T Ix hIx (mixO (F := F) (gathered T Ix) g₀ (2 * k1.val + k2.val)) g₀ o' o' rfl hgood))))
      iexact Hout
    iexact Hrest'
  iexists (insert (SemLoc.dma cc0_scoped5.sem, (default : HIx 1)) (insert (SemLoc.dma cc0_scoped4.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HOw

/-! ## The outer loop: one field's row fetched, its two chunks gathered -/

def inv1I (d : Dev nD) (L : grid0.Coords) (q : PosShare TreeShare) (T : Buf (Elt F) (tILoc d)) (Ix : Buf (Elt F) (iILoc d))
    (g₀ : Buf (Elt F) (oILoc d)) (O : CellTallies nD τ sig (HIx 1)) (W : Waits sig (HIx 1)) (k1 : ℕ) (_ : Unit) : sProp 𝕄 :=
  iprop(Transfers.MayWaits (thrV d L) (none : HIx 1) O
    ∗ (tILoc d ↦{q} T) ∗ (iILoc d ↦{q} Ix)
    ∗ (∃ R, (thrV d L).loc cc0_scratch0 ↦{fullShare} R) ∗ (∃ I, (thrV d L).loc cc0_scratch1 ↦{fullShare} I) ∗ (∃ o, (thrV d L).loc cc0_scratch2 ↦{fullShare} o)
    ∗ semVal (thrV d L, SemLoc.dma cc0_scoped3.sem) 0 ∗ semVal (thrV d L, SemLoc.dma cc0_scoped4.sem) 0 ∗ semVal (thrV d L, SemLoc.dma cc0_scoped5.sem) 0
    ∗ (oILoc d ↦[colSet (L 1).val]{fullShare} mixO (F := F) (gathered T Ix) g₀ (2 * k1))
    ∗ ∃ W', ⌜∀ p ∈ W', p ∈ W ∨ p.2 = none⌝ ∗ owes (thrV d L) O W')

theorem trip1I (d : Dev nD) (L : grid0.Coords) (h1 : ¬(k0_cond1 L = 1#1)) (q : PosShare TreeShare) (T : Buf (Elt F) (tILoc d)) (Ix : Buf (Elt F) (iILoc d))
    (hIx : ∀ j : S13x16384.Idx, (Ix j).toNat < 100000)
    (g₀ : Buf (Elt F) (oILoc d)) (O : CellTallies nD τ sig (HIx 1)) (W : Waits sig (HIx 1)) (k1 : Fin k0_t4_loop.trips) (acc : Unit) :
    (inv1I (F := F) (U := U) d L q T Ix g₀ O W k1.val acc)
      ⊢ wp frame (wpE (defs₀ (F := F)) 𝒱₀ (thrV d L) none) Set.univ
          (k0_t4_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5 h1 k1 acc)
          (inv1I (F := F) (U := U) d L q T Ix g₀ O W (k1.val + 1)) := by
  unfold inv1I k0_t4_body
  iintro ⟨Hmw, HT0, HIx, ⟨%R, HR0⟩, HI, HO, Hs0, Hs1, Hs2, Hout, %W', %hW', HOw⟩
  ihave HT := (Entails.of_eq (pts_tI (F := F) d L q _).symm) $$ HT0
  ihave HR := (Entails.of_eq (pts_sR (F := F) d L _).symm) $$ HR0
  sl_exec
  rw [write_sR_univ]
  sl_for (inv2I (F := F) (U := U) d L h1 q T Ix g₀ O W k1) $$ [Hmw HIx HR HI HO Hs1 Hs2 Hout HOw]
  case region =>
    intro k2 acc
    exact trip2I d L h1 q T Ix hIx g₀ O W k1 k2 acc
  · unfold inv2I
    isplitl [Hmw]; · iexact Hmw
    isplitl [HIx]; · iexact HIx
    isplitl [HR]; · iexact HR
    isplitl [HI]; · iexact HI
    isplitl [HO]; · iexact HO
    isplitl [Hs1]; · iexact Hs1
    isplitl [Hs2]; · iexact Hs2
    isplitl [Hout]; · iexact Hout
    iexists (insert (SemLoc.dma cc0_scoped3.sem, (default : HIx 1)) W'); isplitr
    · ipureintro; intro p hp
      rcases Finset.mem_insert.mp hp with hp | hp
      · exact .inr (hp ▸ rfl)
      · exact hW' p hp
    · iexact HOw
  iintro %_ HI2
  unfold inv2I
  rw [trips5]
  icases HI2 with ⟨Hmw, HIx, HR0, HI, HO, Hs1, Hs2, Hout, %W2, %hW2, HOw⟩
  sl_exec
  sl_step
  rw [show 2 * (k1.val + 1) = 2 * k1.val + 2 from by omega]
  isplitl [Hmw]; · iexact Hmw
  isplitl [HT]; · iexact HT
  isplitl [HIx]; · iexact HIx
  isplitl [HR0]; · iexists _; iexact HR0
  isplitl [HI]; · iexact HI
  isplitl [HO]; · iexact HO
  isplitl [Hs0]; · iexact Hs0
  isplitl [Hs1]; · iexact Hs1
  isplitl [Hs2]; · iexact Hs2
  isplitl [Hout]; · iexact Hout
  iexists W2; isplitr
  · ipureintro; exact hW2
  · iexact HOw

/-! ## The item tower's tile -/

theorem bodyI (hF : (K (F := F)).Facts) (d : Dev nD) (L : grid0.Coords) (h1 : ¬(k0_cond1 L = 1#1)) (q : PosShare TreeShare)
    (T : Buf (Elt F) (tILoc d)) (Ix : Buf (Elt F) (iILoc d)) (hIx : ∀ j : S13x16384.Idx, (Ix j).toNat < 100000) (g₀ : Buf (Elt F) (oILoc d))
    (O : CellTallies nD τ sig (HIx 1)) (W : Waits sig (HIx 1)) (hO : ∀ g, O g none = 0) :
    (iprop(levAts (K (F := F)).L (K (F := F)).lev
        ∗ ((tILoc d ↦{q} T) ∗ (iILoc d ↦{q} Ix) ∗ oILoc d ↦[colSet (L 1).val]{fullShare} g₀)
        ∗ scopedBufs (thrV d L) ∗ scopedSems0 (thrV d L) ∗ owes (thrV d L) O W) : sProp 𝕄)
      ⊢ wp frame (wpE (defs₀ (F := F)) 𝒱₀ (thrV d L) none) Set.univ
          (cc0__sc_gather_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5)
          fun _ => iprop(((tILoc d ↦{q} T) ∗ (iILoc d ↦{q} Ix) ∗ oILoc d ↦[colSet (L 1).val]{fullShare} gathered (F := F) T Ix)
            ∗ scopedBufs (thrV d L) ∗ scopedSems0 (thrV d L)
            ∗ ∃ W', ⌜∀ p ∈ W', p ∈ W ∨ p.2 = none⌝ ∗ owes (thrV d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V6, ownBufs_V3]
  iintro ⟨#Hlv, ⟨HT, HIx, Hout⟩, ⟨HR, HI, HO, Hbufs⟩, ⟨Hs0, Hs1, Hs2, Hs3, Hs4, Hs5, Hsems⟩, HOw⟩
  ihave Hmw := ((K (F := F)).mayWaits_none (thr := thrV d L) hO) $$ Hlv
  sl_exec
  sl_for (inv1I (F := F) (U := U) d L q T Ix g₀ O W) $$ [Hmw HT HIx HR HI HO Hs3 Hs4 Hs5 Hout HOw]
  case region =>
    intro k1 acc
    exact trip1I d L h1 q T Ix hIx g₀ O W k1 acc
  · unfold inv1I
    isplitl [Hmw]; · iexact Hmw
    isplitl [HT]; · iexact HT
    isplitl [HIx]; · iexact HIx
    isplitl [HR]; · iexact HR
    isplitl [HI]; · iexact HI
    isplitl [HO]; · iexact HO
    isplitl [Hs3]; · iexact Hs3
    isplitl [Hs4]; · iexact Hs4
    isplitl [Hs5]; · iexact Hs5
    isplitl [Hout]
    · iapply (Entails.of_eq (pointsTo_congr (fun ix _ => (show mixO (F := F) (gathered T Ix) g₀ (2 * 0) ix = g₀ ix from by
        unfold mixO; rw [if_neg (by omega)]))))
      iexact Hout
    iexists W; isplitr
    · ipureintro; exact fun p hp => .inl hp
    · iexact HOw
  iintro %_ HI1
  unfold inv1I
  rw [trips4]
  icases HI1 with ⟨Hmw, HT, HIx, HR, HI, HO, Hs3, Hs4, Hs5, Hout, %W', %hW', HOw⟩
  sl_exec
  sl_step
  isplitl [HT HIx Hout]
  · isplitl [HT]; · iexact HT
    isplitl [HIx]; · iexact HIx
    iapply (Entails.of_eq (pointsTo_congr (fun ix _ => mixO_all (F := F) (gathered T Ix) g₀ ix)))
    iexact Hout
  isplitl [HR HI HO Hbufs]
  · isplitl [HR]; · iexact HR
    isplitl [HI]; · iexact HI
    isplitl [HO]; · iexact HO
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists W'; isplitr
  · ipureintro; exact hW'
  · iexact HOw

end Cert.Kernel.Sc
end
-- ==== Proof.WScObl.lean ====
/-
  The tile's obligation of the launch theorem for the SparseCore call: a tile of SparseCore 0 runs the user tower's body,
  a tile of SparseCore 1 the item tower's, from its share of the call's operands to its rows of THE RESULT.
-/
import proofs.«205816_g11845519802804_retrytranche1_1814_36_alg».proof.Proof.WScBodyItem
import proofs.«205816_g11845519802804_retrytranche1_1814_36_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "tUW" => (Memref.whole Cert.Kernel.main_v0_scv : Memref Cert.Kernel.sig Kind.scVector Space.hbm Cert.Kernel.S13x16x100000 EltTy.f32)
local notation "tIW" => (Memref.whole Cert.Kernel.main_v1_scv : Memref Cert.Kernel.sig Kind.scVector Space.hbm Cert.Kernel.S13x16x100000 EltTy.f32)
local notation "iUW" => (Memref.whole Cert.Kernel.main_arg0_scv : Memref Cert.Kernel.sig Kind.scVector Space.hbm Cert.Kernel.S13x16384 EltTy.i32)
local notation "iIW" => (Memref.whole Cert.Kernel.main_arg1_scv : Memref Cert.Kernel.sig Kind.scVector Space.hbm Cert.Kernel.S13x16384 EltTy.i32)
local notation "oUW" => (Memref.whole Cert.Kernel.main_v2_0_scv : Memref Cert.Kernel.sig Kind.scVector Space.hbm Cert.Kernel.S13x16x16384 EltTy.f32)
local notation "oIW" => (Memref.whole Cert.Kernel.main_v2_1_scv : Memref Cert.Kernel.sig Kind.scVector Space.hbm Cert.Kernel.S13x16x16384 EltTy.f32)
local notation "sR" => (Memref.whole Cert.Kernel.cc0_scratch0 : Memref Cert.Kernel.sig Kind.scVector Space.vmem Cert.Kernel.S100000 EltTy.f32)
local notation "sI" => (Memref.whole Cert.Kernel.cc0_scratch1 : Memref Cert.Kernel.sig Kind.scVector Space.vmem Cert.Kernel.S8192 EltTy.i32)
local notation "sO" => (Memref.whole Cert.Kernel.cc0_scratch2 : Memref Cert.Kernel.sig Kind.scVector Space.vmem Cert.Kernel.S8192 EltTy.f32)

/-! ## The branch a tile takes -/

omit [FloatOps F] [URA U] [CountersIn U] in
theorem cond_iff (L : grid0.Coords) : k0_cond1 L = 1#1 ↔ (L 0).val = 0 := by
  unfold k0_cond1
  generalize L 0 = c
  revert c
  decide

section Tile

variable (tabU : (d : Dev nD) → Buf (Elt F) (tULoc d)) (tabI : (d : Dev nD) → Buf (Elt F) (tILoc d))
variable (m : (ℓ : Loc nD τ sig) → Buf (Elt F) ℓ)

/-- The task of the tile at grid point `L`: the user tower's on SparseCore 0, the item tower's on SparseCore 1. -/
theorem tile_body (hF : (K (F := F)).Facts)
    (hpreU : ∀ (d : Dev nD) (j : S13x16384.Idx), (m (iULoc d) j).toNat < 100000)
    (hpreI : ∀ (d : Dev nD) (j : S13x16384.Idx), (m (iILoc d) j).toNat < 100000)
    (d : Dev nD) (L : grid0.Coords) (O : CellTallies nD τ sig (HIx 1)) (W : Waits sig (HIx 1)) (hO : ∀ g, O g none = 0) :
    (iprop(levAts (K (F := F)).L (K (F := F)).lev ∗ emp ∗ goTile (U := U) tabU tabI m d (L 0).val (L 1).val
        ∗ scopedBufs (thrV d L) ∗ scopedSems0 (thrV d L) ∗ owes (thrV d L) O W) : sProp 𝕄)
      ⊢ wp frame (wpE (defs₀ (F := F)) 𝒱₀ (thrV d L) none) Set.univ
          (cc0__sc_gather_body L tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5)
          fun _ => iprop(tdTile (U := U) tabU tabI m d (L 0).val (L 1).val ∗ scopedBufs (thrV d L) ∗ scopedSems0 (thrV d L)
            ∗ ∃ W', ⌜∀ p ∈ W', p ∈ W ∨ p.2 = none⌝ ∗ owes (thrV d L) O W') := by
  by_cases h1 : k0_cond1 L = 1#1
  · have h0 : (L 0).val = 0 := (cond_iff L).mp h1
    unfold goTile tdTile
    rw [if_pos h0, if_pos h0]
    iintro ⟨Hlv, -, Hgo, Hsb, Hss, HOw⟩
    iapply (bodyU hF d L h1 _ (tabU d) (m (iULoc d)) (hpreU d) (m (oULoc d)) O W hO)
    isplitl [Hlv]; · iexact Hlv
    isplitl [Hgo]; · iexact Hgo
    isplitl [Hsb]; · iexact Hsb
    isplitl [Hss]; · iexact Hss
    iexact HOw
  · have h0 : ¬ (L 0).val = 0 := mt (cond_iff L).mpr h1
    unfold goTile tdTile
    rw [if_neg h0, if_neg h0]
    iintro ⟨Hlv, -, Hgo, Hsb, Hss, HOw⟩
    iapply (bodyI hF d L h1 _ (tabI d) (m (iILoc d)) (hpreI d) (m (oILoc d)) O W hO)
    isplitl [Hlv]; · iexact Hlv
    isplitl [Hgo]; · iexact Hgo
    isplitl [Hsb]; · iexact Hsb
    isplitl [Hss]; · iexact Hss
    iexact HOw

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

omit [URA U] [CountersIn U] in
theorem defs₀_vector (c : Fin τ.nSC) (s : Fin τ.nSub) :
    defs₀ (F := F) (.scVector c s) 0 ()
      = SparseCore.onTile hcore0 hsub0 (fun c s => cc0__sc_gather_body (coordsV c s)
          tUW (Memref.isWhole_whole _) tIW (Memref.isWhole_whole _) iUW (Memref.isWhole_whole _) iIW (Memref.isWhole_whole _)
            oUW (Memref.isWhole_whole _) oIW (Memref.isWhole_whole _) sR (Memref.isWhole_whole _) sI (Memref.isWhole_whole _) sO (Memref.isWhole_whole _)
            cc0_scoped0 cc0_scoped1 cc0_scoped2 cc0_scoped3 cc0_scoped4 cc0_scoped5) ⟨⟩ c s := rfl

omit [FloatOps F] [CountersIn U] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts)
    (hpreU : ∀ (d : Dev nD) (j : S13x16384.Idx), (m (iULoc d) j).toNat < 100000)
    (hpreI : ∀ (d : Dev nD) (j : S13x16384.Idx), (m (iILoc d) j).toNat < 100000) :
    (K (F := F)).TileObl (D (F := F)) 𝒱 (P (U := U) tabU tabI m) v₀ 0 := by
  intro d c i O W hO _ _
  -- this kernel owes nothing for a protocol of its own
  simp only [show (P (U := U) tabU tabI m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body tabU tabI m hF hpreU hpreI d (coordsV ⟨_, hc.1⟩ ⟨_, hc.2⟩) O W hO).trans (wp_mono frame _ _ fun _ => obl_post)

end Tile

end Cert.Kernel.Sc
end
-- ==== Proof.WTcBody.lean ====
/-
  The body of the inner TensorCore region of `Cert.Kernel` (custom call 1, `cc1__tc_dnn_body`), run once per
  control case at a symbolic grid point on ANY whole staging memrefs, and the pipeline library's body obligation made
  of the three runs.

  The body zeroes the three-word scratch at the first point (`cond1`), at every point adds the three block sums of
  the two towers to it (`Tc.accStep`), and at the last point (`k1_cond2`) stores the score of the scratch in the
  [1,1] result buffer (`Tc.scoreOf`). `bodyA` / `bodyB` / `bodyC` are the first / a middle / the last point; each
  is the skeleton's memory operations run in order, the scratch's three one-word stores read back as one function
  (`read_writes_S3`). The proof data `dat` carries the scratch in the invariant `Φ`: any contents before the first
  point, the fold `accW` of the steps so far before a later one; the result window is idle (left as found) but at the
  last point. `body_obligation` is the library's obligation at every point, by the point's case.
-/
import proofs.«205816_g11845519802804_retrytranche1_1814_36_alg».proof.Proof.WTcValue
import proofs.«205816_g11845519802804_retrytranche1_1814_36_alg».proof.Proof.Gen.Kernel.Launch
import proofs.«205816_g11845519802804_retrytranche1_1814_36_alg».proof.Proof.Gen.Kernel.Skeleton
import proofs.«205816_g11845519802804_retrytranche1_1814_36_alg».proof.Proof.Gen.Kernel.Points
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

abbrev cond1 (i : grid1.Coords) : Prop := (Scalar.cmpi .ne (Scalar.extui (Scalar.cmpi .eq (BitVec.ofNat 32 (i 0).val) 0#32)) 0#32) = 1#1

theorem hz3 : (![0, 0, 0] : Fin 3 → Nat) = fun _ => 0 := funext fun a => by fin_cases a <;> rfl
theorem hz2 : (![0, 0] : Fin 2 → Nat) = fun _ => 0 := funext fun a => by fin_cases a <;> rfl

/-- The one element of a one-word rectangle of the three-word scratch is the word's index. -/
theorem emb_S3_val (k : ℕ) (inb : ∀ a, (![k] : Fin 1 → Nat) a + S1.size a ≤ S3.size a)
    (x : (Rect.unit (s := S3) ![k] S1.size inb).shape.Idx) :
    ((Rect.unit (s := S3) ![k] S1.size inb).emb x 0 : ℕ) = k := by
  have hx : ((x 0 : Fin _) : ℕ) < 1 := (x 0).isLt
  rw [Rect.emb_apply]
  show k + 1 * _ = k
  omega

/-- A load of one word of the scratch reads the contents at the word's index. -/
theorem ld_S3_0 {Val : EltTy → Type} (X : S3.Idx → Val .f32) (h : 0 < (Rect.unit (s := S3) ![0] S1.size inb_S3_S1_0).shape.numel) :
    View.ld X (Rect.unit (s := S3) ![0] S1.size inb_S3_S1_0) (Shape.Idx.first h) = X (ix1 (0 : Fin 3)) := by
  show X _ = X _
  congr 1
  funext a
  match a with
  | ⟨0, _⟩ => exact Fin.ext (show 0 + 1 * 0 = 0 by omega)
theorem ld_S3_1 {Val : EltTy → Type} (X : S3.Idx → Val .f32) (h : 0 < (Rect.unit (s := S3) ![1] S1.size inb_S3_S1_1).shape.numel) :
    View.ld X (Rect.unit (s := S3) ![1] S1.size inb_S3_S1_1) (Shape.Idx.first h) = X (ix1 (1 : Fin 3)) := by
  show X _ = X _
  congr 1
  funext a
  match a with
  | ⟨0, _⟩ => exact Fin.ext (show 1 + 1 * 0 = 1 by omega)
theorem ld_S3_2 {Val : EltTy → Type} (X : S3.Idx → Val .f32) (h : 0 < (Rect.unit (s := S3) ![2] S1.size inb_S3_S1_2).shape.numel) :
    View.ld X (Rect.unit (s := S3) ![2] S1.size inb_S3_S1_2) (Shape.Idx.first h) = X (ix1 (2 : Fin 3)) := by
  show X _ = X _
  congr 1
  funext a
  match a with
  | ⟨0, _⟩ => exact Fin.ext (show 2 + 1 * 0 = 2 by omega)

/-- Three one-word stores at the three words of the scratch leave the function that agrees with each. -/
theorem read_writes_S3 {Val : EltTy → Type} {κ : Kind} {sp : Space} (v : View sig κ sp S3 .f32) (f : v.ty.Contents Val)
    (G : S3.Idx → Val .f32)
    (w0 : (Rect.unit (s := S3) ![0] S1.size inb_S3_S1_0).shape.Idx → Val .f32)
    (w1 : (Rect.unit (s := S3) ![1] S1.size inb_S3_S1_1).shape.Idx → Val .f32)
    (w2 : (Rect.unit (s := S3) ![2] S1.size inb_S3_S1_2).shape.Idx → Val .f32)
    (L : List (View.Piece Val S3 .f32))
    (h0 : ∀ x, w0 x = G (ix1 (0 : Fin 3))) (h1 : ∀ x, w1 x = G (ix1 (1 : Fin 3))) (h2 : ∀ x, w2 x = G (ix1 (2 : Fin 3))) :
    v.read Val (v.writes Val f (⟨Rect.unit (s := S3) ![2] S1.size inb_S3_S1_2, w2⟩ :: ⟨Rect.unit (s := S3) ![1] S1.size inb_S3_S1_1, w1⟩ ::
      ⟨Rect.unit (s := S3) ![0] S1.size inb_S3_S1_0, w0⟩ :: L)) = G := by
  show v.read Val (v.writes Val (v.writes Val f L) [⟨Rect.unit (s := S3) ![2] S1.size inb_S3_S1_2, w2⟩, ⟨Rect.unit (s := S3) ![1] S1.size inb_S3_S1_1, w1⟩,
      ⟨Rect.unit (s := S3) ![0] S1.size inb_S3_S1_0, w0⟩]) = G
  generalize v.writes Val f L = f'
  have hG : ∀ (k : Fin 3) (inb : ∀ a, (![k.val] : Fin 1 → Nat) a + S1.size a ≤ S3.size a)
      (x : (Rect.unit (s := S3) ![k.val] S1.size inb).shape.Idx), (Rect.unit (s := S3) ![k.val] S1.size inb).emb x = ix1 k := by
    intro k inb x
    funext a
    match a with
    | ⟨0, _⟩ => exact Fin.ext (emb_S3_val k.val inb x)
  funext y
  refine View.read_writes_apply_of_pieces v f' G _ ?_ y ?_
  · intro p hp x
    simp only [List.mem_cons, List.not_mem_nil, or_false] at hp
    rcases hp with rfl | rfl | rfl
    · exact (h2 x).trans (congrArg G (hG 2 inb_S3_S1_2 x).symm)
    · exact (h1 x).trans (congrArg G (hG 1 inb_S3_S1_1 x).symm)
    · exact (h0 x).trans (congrArg G (hG 0 inb_S3_S1_0 x).symm)
  · have hy : (y 0 : ℕ) < 3 := (y 0).isLt
    rcases (by omega : (y 0 : ℕ) = 0 ∨ (y 0 : ℕ) = 1 ∨ (y 0 : ℕ) = 2) with e | e | e
    · refine ⟨⟨Rect.unit (s := S3) ![0] S1.size inb_S3_S1_0, w0⟩, List.mem_cons_of_mem _ (List.mem_cons_of_mem _ List.mem_cons_self), (Rect.mem_set_unit (inb := inb_S3_S1_0)).mpr fun a => ?_⟩
      match a with
      | ⟨0, _⟩ => show 0 ≤ (y 0 : ℕ) ∧ (y 0 : ℕ) < 0 + 1; omega
    · refine ⟨⟨Rect.unit (s := S3) ![1] S1.size inb_S3_S1_1, w1⟩, List.mem_cons_of_mem _ List.mem_cons_self, (Rect.mem_set_unit (inb := inb_S3_S1_1)).mpr fun a => ?_⟩
      match a with
      | ⟨0, _⟩ => show 1 ≤ (y 0 : ℕ) ∧ (y 0 : ℕ) < 1 + 1; omega
    · refine ⟨⟨Rect.unit (s := S3) ![2] S1.size inb_S3_S1_2, w2⟩, List.mem_cons_self, (Rect.mem_set_unit (inb := inb_S3_S1_2)).mpr fun a => ?_⟩
      match a with
      | ⟨0, _⟩ => show 2 ≤ (y 0 : ℕ) ∧ (y 0 : ℕ) < 2 + 1; omega

/-- One one-word store at the one word of a [1,1] buffer leaves the function that agrees with it. -/
theorem read_writes_S1x1 {Val : EltTy → Type} {κ : Kind} {sp : Space} (v : View sig κ sp S1x1 .f32) (f : v.ty.Contents Val)
    (G : S1x1.Idx → Val .f32)
    (w : (Rect.unit (s := S1x1) ![0, 0] S1x1.size inb_S1x1_S1x1_0_0).shape.Idx → Val .f32)
    (L : List (View.Piece Val S1x1 .f32)) (h : ∀ x y, w x = G y) :
    v.read Val (v.writes Val f (⟨Rect.unit (s := S1x1) ![0, 0] S1x1.size inb_S1x1_S1x1_0_0, w⟩ :: L)) = G := by
  show v.read Val (v.writes Val (v.writes Val f L) [⟨Rect.unit (s := S1x1) ![0, 0] S1x1.size inb_S1x1_S1x1_0_0, w⟩]) = G
  generalize v.writes Val f L = f'
  funext y
  refine View.read_writes_apply_of_pieces v f' G _ ?_ y ?_
  · intro p hp x
    simp only [List.mem_cons, List.not_mem_nil, or_false] at hp
    subst hp
    exact h x _
  · refine ⟨⟨Rect.unit (s := S1x1) ![0, 0] S1x1.size inb_S1x1_S1x1_0_0, w⟩, List.mem_cons_self, (Rect.mem_set_unit (inb := inb_S1x1_S1x1_0_0)).mpr fun a => ?_⟩
    have h0 : (y 0 : ℕ) < 1 := (y 0).isLt
    have h1 : (y 1 : ℕ) < 1 := (y 1).isLt
    match a with
    | ⟨0, _⟩ => show 0 ≤ (y 0 : ℕ) ∧ (y 0 : ℕ) < 0 + 1; omega
    | ⟨1, _⟩ => show 0 ≤ (y 1 : ℕ) ∧ (y 1 : ℕ) < 0 + 1; omega

set_option maxHeartbeats 2000000 in
theorem bodyA (𝒱₀ : Variants) (c : Dev nD) (i : grid1.Coords)
    (a1 : Memref sig .tc .vmem S13x16x1024 .f32) (h1 : a1.IsWhole) (a2 : Memref sig .tc .vmem S13x16x1024 .f32) (h2 : a2.IsWhole)
    (a3 : Memref sig .tc .vmem S64x208 .f32) (h3 : a3.IsWhole) (a4 : Memref sig .tc .vmem S64x1 .f32) (h4 : a4.IsWhole)
    (a5 : Memref sig .tc .vmem S32x64 .f32) (h5 : a5.IsWhole) (a6 : Memref sig .tc .vmem S32x1 .f32) (h6 : a6.IsWhole)
    (a7 : Memref sig .tc .vmem S64x208 .f32) (h7 : a7.IsWhole) (a8 : Memref sig .tc .vmem S64x1 .f32) (h8 : a8.IsWhole)
    (a9 : Memref sig .tc .vmem S32x64 .f32) (h9 : a9.IsWhole) (a10 : Memref sig .tc .vmem S32x1 .f32) (h10 : a10.IsWhole)
    (a11 : Memref sig .tc .smem S1x1 .f32) (h11 : a11.IsWhole) (a12 : Memref sig .tc .smem S3 .f32) (h12 : a12.IsWhole)
    (hc1 : cond1 i) (hc2 : ¬ k1_cond2 i = 1#1)
    (x1 x2 : Vec F S13x16x1024 .f32) (x3 : Vec F S64x208 .f32) (x4 : Vec F S64x1 .f32) (x5 : Vec F S32x64 .f32) (x6 : Vec F S32x1 .f32)
    (x7 : Vec F S64x208 .f32) (x8 : Vec F S64x1 .f32) (x9 : Vec F S32x64 .f32) (x10 : Vec F S32x1 .f32) (x11 : Vec F S1x1 .f32) (acc : Vec F S3 .f32)
    (E : Set Name) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
        ∗ owns (c : Thread nD τ) a12 fullShare acc
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
            ∗ owns (c : Thread nD τ) a12 fullShare (accStep zero3 x1 x2 x3 x4 x5 x6 x7 x8 x9 x10)) -∗ K ⟨⟩))
      ⊢ wp frame (wpE (defs₀ (F := F)) 𝒱₀ c none) E (cc1__tc_dnn_body i a1 h1 a2 h2 a3 h3 a4 h4 a5 h5 a6 h6 a7 h7 a8 h8 a9 h9 a10 h10 a11 h11 a12 h12) K := by
  simp only [cc1__tc_dnn_body_eq_skeleton]; unfold cc1__tc_dnn_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    · ipureintro; exact hf11
    · iexact H11
  iexists _; isplitr
  swap
  · iexact H12
  ipureintro
  sl_unfold_words
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S13x16x1024) hz3, View.ld_unit_zero (S := S64x208) hz2, View.ld_unit_zero (S := S64x1) hz2, View.ld_unit_zero (S := S32x64) hz2, View.ld_unit_zero (S := S32x1) hz2]
  refine read_writes_S3 _ _ (accStep zero3 x1 x2 x3 x4 x5 x6 x7 x8 x9 x10) _ _ _ _ ?_ ?_ ?_
  · intro x; rfl
  · intro x; rfl
  · intro x; rfl

set_option maxHeartbeats 2000000 in
theorem bodyB (𝒱₀ : Variants) (c : Dev nD) (i : grid1.Coords)
    (a1 : Memref sig .tc .vmem S13x16x1024 .f32) (h1 : a1.IsWhole) (a2 : Memref sig .tc .vmem S13x16x1024 .f32) (h2 : a2.IsWhole)
    (a3 : Memref sig .tc .vmem S64x208 .f32) (h3 : a3.IsWhole) (a4 : Memref sig .tc .vmem S64x1 .f32) (h4 : a4.IsWhole)
    (a5 : Memref sig .tc .vmem S32x64 .f32) (h5 : a5.IsWhole) (a6 : Memref sig .tc .vmem S32x1 .f32) (h6 : a6.IsWhole)
    (a7 : Memref sig .tc .vmem S64x208 .f32) (h7 : a7.IsWhole) (a8 : Memref sig .tc .vmem S64x1 .f32) (h8 : a8.IsWhole)
    (a9 : Memref sig .tc .vmem S32x64 .f32) (h9 : a9.IsWhole) (a10 : Memref sig .tc .vmem S32x1 .f32) (h10 : a10.IsWhole)
    (a11 : Memref sig .tc .smem S1x1 .f32) (h11 : a11.IsWhole) (a12 : Memref sig .tc .smem S3 .f32) (h12 : a12.IsWhole)
    (hc1 : ¬ cond1 i) (hc2 : ¬ k1_cond2 i = 1#1)
    (x1 x2 : Vec F S13x16x1024 .f32) (x3 : Vec F S64x208 .f32) (x4 : Vec F S64x1 .f32) (x5 : Vec F S32x64 .f32) (x6 : Vec F S32x1 .f32)
    (x7 : Vec F S64x208 .f32) (x8 : Vec F S64x1 .f32) (x9 : Vec F S32x64 .f32) (x10 : Vec F S32x1 .f32) (x11 : Vec F S1x1 .f32) (acc : Vec F S3 .f32)
    (E : Set Name) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
        ∗ owns (c : Thread nD τ) a12 fullShare acc
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
            ∗ owns (c : Thread nD τ) a12 fullShare (accStep acc x1 x2 x3 x4 x5 x6 x7 x8 x9 x10)) -∗ K ⟨⟩))
      ⊢ wp frame (wpE (defs₀ (F := F)) 𝒱₀ c none) E (cc1__tc_dnn_body i a1 h1 a2 h2 a3 h3 a4 h4 a5 h5 a6 h6 a7 h7 a8 h8 a9 h9 a10 h10 a11 h11 a12 h12) K := by
  simp only [cc1__tc_dnn_body_eq_skeleton]; unfold cc1__tc_dnn_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    · ipureintro; exact hf11
    · iexact H11
  iexists _; isplitr
  swap
  · iexact H12
  ipureintro
  sl_unfold_words
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S13x16x1024) hz3, View.ld_unit_zero (S := S64x208) hz2, View.ld_unit_zero (S := S64x1) hz2, View.ld_unit_zero (S := S32x64) hz2, View.ld_unit_zero (S := S32x1) hz2]
  refine read_writes_S3 _ _ (accStep acc x1 x2 x3 x4 x5 x6 x7 x8 x9 x10) _ _ _ [] ?_ ?_ ?_
  · intro x; rw [ld_S3_0]; rfl
  · intro x; rw [ld_S3_1]; rfl
  · intro x; rw [ld_S3_2]; rfl

set_option maxHeartbeats 2000000 in
theorem bodyC (𝒱₀ : Variants) (c : Dev nD) (i : grid1.Coords)
    (a1 : Memref sig .tc .vmem S13x16x1024 .f32) (h1 : a1.IsWhole) (a2 : Memref sig .tc .vmem S13x16x1024 .f32) (h2 : a2.IsWhole)
    (a3 : Memref sig .tc .vmem S64x208 .f32) (h3 : a3.IsWhole) (a4 : Memref sig .tc .vmem S64x1 .f32) (h4 : a4.IsWhole)
    (a5 : Memref sig .tc .vmem S32x64 .f32) (h5 : a5.IsWhole) (a6 : Memref sig .tc .vmem S32x1 .f32) (h6 : a6.IsWhole)
    (a7 : Memref sig .tc .vmem S64x208 .f32) (h7 : a7.IsWhole) (a8 : Memref sig .tc .vmem S64x1 .f32) (h8 : a8.IsWhole)
    (a9 : Memref sig .tc .vmem S32x64 .f32) (h9 : a9.IsWhole) (a10 : Memref sig .tc .vmem S32x1 .f32) (h10 : a10.IsWhole)
    (a11 : Memref sig .tc .smem S1x1 .f32) (h11 : a11.IsWhole) (a12 : Memref sig .tc .smem S3 .f32) (h12 : a12.IsWhole)
    (hc1 : ¬ cond1 i) (hc2 : k1_cond2 i = 1#1)
    (x1 x2 : Vec F S13x16x1024 .f32) (x3 : Vec F S64x208 .f32) (x4 : Vec F S64x1 .f32) (x5 : Vec F S32x64 .f32) (x6 : Vec F S32x1 .f32)
    (x7 : Vec F S64x208 .f32) (x8 : Vec F S64x1 .f32) (x9 : Vec F S32x64 .f32) (x10 : Vec F S32x1 .f32) (x11 : Vec F S1x1 .f32) (acc : Vec F S3 .f32)
    (E : Set Name) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
        ∗ owns (c : Thread nD τ) a12 fullShare acc
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare (scoreOf (accStep acc x1 x2 x3 x4 x5 x6 x7 x8 x9 x10))
            ∗ owns (c : Thread nD τ) a12 fullShare (accStep acc x1 x2 x3 x4 x5 x6 x7 x8 x9 x10)) -∗ K ⟨⟩))
      ⊢ wp frame (wpE (defs₀ (F := F)) 𝒱₀ c none) E (cc1__tc_dnn_body i a1 h1 a2 h2 a3 h3 a4 h4 a5 h5 a6 h6 a7 h7 a8 h8 a9 h9 a10 h10 a11 h11 a12 h12) K := by
  simp only [cc1__tc_dnn_body_eq_skeleton]; unfold cc1__tc_dnn_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    swap
    · iexact H11
    ipureintro
    sl_unfold_words
    simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S13x16x1024) hz3, View.ld_unit_zero (S := S64x208) hz2, View.ld_unit_zero (S := S64x1) hz2, View.ld_unit_zero (S := S32x64) hz2, View.ld_unit_zero (S := S32x1) hz2]
    refine read_writes_S1x1 _ _ (scoreOf (accStep acc x1 x2 x3 x4 x5 x6 x7 x8 x9 x10)) _ [] ?_
    intro x y
    rw [ld_S3_0, ld_S3_1, ld_S3_2]
    rfl
  iexists _; isplitr
  swap
  · iexact H12
  ipureintro
  sl_unfold_words
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S13x16x1024) hz3, View.ld_unit_zero (S := S64x208) hz2, View.ld_unit_zero (S := S64x1) hz2, View.ld_unit_zero (S := S32x64) hz2, View.ld_unit_zero (S := S32x1) hz2]
  refine read_writes_S3 _ _ (accStep acc x1 x2 x3 x4 x5 x6 x7 x8 x9 x10) _ _ _ [] ?_ ?_ ?_
  · intro x; rw [ld_S3_0]; rfl
  · intro x; rw [ld_S3_1]; rfl
  · intro x; rw [ld_S3_2]; rfl

/-! ## The pipeline's proof data and the body obligation -/

section Obligation

variable (𝒱₀ : Variants) {c : Dev nD} (V : (b : Ref sig .tc) → Buf (Elt F) ((c : Thread nD τ).loc b))
  (O : CellTallies nD τ sig Ix) (W : Waits sig Ix)

/-- Window `w`'s block at point `t`, read off its array at the contents `V`. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The scratch after point `n`, folded over the windows' own blocks of the two [13,16,16384] arrays. -/
def accW : (n : ℕ) → n < cfg1.N → Vec F S3 .f32
  | 0, h => accStep zero3 (iblk V 0 ⟨0, h⟩) (iblk V 1 ⟨0, h⟩) (iblk V 2 ⟨0, h⟩) (iblk V 3 ⟨0, h⟩) (iblk V 4 ⟨0, h⟩) (iblk V 5 ⟨0, h⟩) (iblk V 6 ⟨0, h⟩) (iblk V 7 ⟨0, h⟩) (iblk V 8 ⟨0, h⟩) (iblk V 9 ⟨0, h⟩)
  | n + 1, h => accStep (accW n (Nat.lt_of_succ_lt h)) (iblk V 0 ⟨n + 1, h⟩) (iblk V 1 ⟨n + 1, h⟩) (iblk V 2 ⟨n + 1, h⟩) (iblk V 3 ⟨n + 1, h⟩) (iblk V 4 ⟨n + 1, h⟩) (iblk V 5 ⟨n + 1, h⟩) (iblk V 6 ⟨n + 1, h⟩) (iblk V 7 ⟨n + 1, h⟩) (iblk V 8 ⟨n + 1, h⟩) (iblk V 9 ⟨n + 1, h⟩)

abbrev ms1_0 (t : Fin cfg1.N) : Memref sig .tc .vmem S13x16x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S13x16x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x208 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x208 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S32x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .smem S1x1 .f32 := win1_10.stage (cfg1.slots t 10)
abbrev hs1_10 (t : Fin cfg1.N) : (ms1_10 t).IsWhole := hstage1_10 ((cfg1.slots t 10).cast nbuf1_10)

/-- The scratch buffer whole at contents `f`. -/
abbrev scr (c : Dev nD) (f : Vec F S3 .f32) : sProp 𝕄 := owns (c : Thread nD τ) (Memref.whole cc1_scratch0) fullShare f

/-- The proof data: the arrays at `V`; after the body each input window's buffer at its block, the result window's
    at the score of the scratch after that point (read at the last point only); the invariant the scratch — at any
    contents before the first point, at the fold's value after point `t - 1` before point `t` —; the core owing the
    constant `O` throughout, its recorded pairs within `W` and the loop's own. -/
def dat : Dat τ (Elt F) Ix Name U Lvl cfg1 c where
  A w := V (Pipeline.arrRef spec1 w)
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => iblk V 7 t
    | ⟨8, _⟩ => iblk V 8 t
    | ⟨9, _⟩ => iblk V 9 t
    | ⟨10, _⟩ => scoreOf (accW V t.val t.isLt)
  Φ t := match t with
    | ⟨0, _⟩ => iprop(∃ f, scr c f)
    | ⟨n + 1, h⟩ => scr c (accW V n (Nat.lt_of_succ_lt_succ h))
  q _ := fullShare
  owed _ := O
  recorded _ := (↑W : Set (SemLoc sig × Ix))

theorem before1_0 (t : Fin cfg1.N) (d) : (dat (Ix := Ix) (Name := Name) (U := U) (Lvl := Lvl) V O W).before 0 t d = iblk V 0 t :=
  ((dat (Ix := Ix) (Name := Name) (U := U) (Lvl := Lvl) V O W).before_in_eq_fetched 0 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_1 (t : Fin cfg1.N) (d) : (dat (Ix := Ix) (Name := Name) (U := U) (Lvl := Lvl) V O W).before 1 t d = iblk V 1 t :=
  ((dat (Ix := Ix) (Name := Name) (U := U) (Lvl := Lvl) V O W).before_in_eq_fetched 1 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_2 (t : Fin cfg1.N) (d) : (dat (Ix := Ix) (Name := Name) (U := U) (Lvl := Lvl) V O W).before 2 t d = iblk V 2 t :=
  ((dat (Ix := Ix) (Name := Name) (U := U) (Lvl := Lvl) V O W).before_in_eq_fetched 2 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_3 (t : Fin cfg1.N) (d) : (dat (Ix := Ix) (Name := Name) (U := U) (Lvl := Lvl) V O W).before 3 t d = iblk V 3 t :=
  ((dat (Ix := Ix) (Name := Name) (U := U) (Lvl := Lvl) V O W).before_in_eq_fetched 3 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_4 (t : Fin cfg1.N) (d) : (dat (Ix := Ix) (Name := Name) (U := U) (Lvl := Lvl) V O W).before 4 t d = iblk V 4 t :=
  ((dat (Ix := Ix) (Name := Name) (U := U) (Lvl := Lvl) V O W).before_in_eq_fetched 4 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_5 (t : Fin cfg1.N) (d) : (dat (Ix := Ix) (Name := Name) (U := U) (Lvl := Lvl) V O W).before 5 t d = iblk V 5 t :=
  ((dat (Ix := Ix) (Name := Name) (U := U) (Lvl := Lvl) V O W).before_in_eq_fetched 5 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_6 (t : Fin cfg1.N) (d) : (dat (Ix := Ix) (Name := Name) (U := U) (Lvl := Lvl) V O W).before 6 t d = iblk V 6 t :=
  ((dat (Ix := Ix) (Name := Name) (U := U) (Lvl := Lvl) V O W).before_in_eq_fetched 6 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_7 (t : Fin cfg1.N) (d) : (dat (Ix := Ix) (Name := Name) (U := U) (Lvl := Lvl) V O W).before 7 t d = iblk V 7 t :=
  ((dat (Ix := Ix) (Name := Name) (U := U) (Lvl := Lvl) V O W).before_in_eq_fetched 7 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_8 (t : Fin cfg1.N) (d) : (dat (Ix := Ix) (Name := Name) (U := U) (Lvl := Lvl) V O W).before 8 t d = iblk V 8 t :=
  ((dat (Ix := Ix) (Name := Name) (U := U) (Lvl := Lvl) V O W).before_in_eq_fetched 8 rfl (fun _ => rfl) (fun _ _ _ => rfl) (fun t => by dsimp only [dat]; unfold Dat.blockOf iblk; dsimp only [dat]; try rfl) t d).trans
    (by unfold Dat.fetched Dat.blockOf iblk; dsimp only [dat]; try rfl)
theorem before1_9 (t : Fin cfg1.N) (d) : (dat (Ix := Ix) (Name := Name) (U := U) (Lvl := Lvl) V O W).before 9 t d = iblk V 9 t :=
  ((dat (Ix := Ix) (Name := Name) (U := U) (Lvl := Lvl) V O W).before_in_eq_fetched 9 rfl (fun _ => rfl) (fun _ _ _ => rfl) (fun t => by dsimp only [dat]; unfold Dat.blockOf iblk; dsimp only [dat]; try rfl) t d).trans
    (by unfold Dat.fetched Dat.blockOf iblk; dsimp only [dat]; try rfl)

/-- The first `scf.if` holds at the first point only, the second at the last only: decided over the grid. -/
theorem hcond1 : ∀ t : Fin cfg1.N, cond1 (grid1.coords t) ↔ t.val % 16 = 0 :=
  (by decide +kernel : ∀ t : Fin grid1.N, cond1 (grid1.coords t) ↔ t.val % 16 = 0)
theorem hcond2 : ∀ t : Fin cfg1.N, k1_cond2 (grid1.coords t) = 1#1 ↔ t.val % 16 = 15 :=
  (by decide +kernel : ∀ t : Fin grid1.N, k1_cond2 (grid1.coords t) = 1#1 ↔ t.val % 16 = 15)

/-- What the body is called with at point `t` (the library's body obligation, the windows one by one), -/
def bodyPre (ι : Ix) (t : Fin cfg1.N) : sProp 𝕄 :=
  iprop((dat (Ix := Ix) (Name := Name) (U := U) (Lvl := Lvl) V O W).Φ t.castSucc ∗ (dat (Ix := Ix) (Name := Name) (U := U) (Lvl := Lvl) V O W).owesAt ι t.castSucc
    ∗ (∃ d, owns (c : Thread nD τ) (ms1_0 t) fullShare ((dat (Ix := Ix) (Name := Name) (U := U) (Lvl := Lvl) V O W).before 0 t d))
    ∗ (∃ d, owns (c : Thread nD τ) (ms1_1 t) fullShare ((dat (Ix := Ix) (Name := Name) (U := U) (Lvl := Lvl) V O W).before 1 t d))
    ∗ (∃ d, owns (c : Thread nD τ) (ms1_2 t) fullShare ((dat (Ix := Ix) (Name := Name) (U := U) (Lvl := Lvl) V O W).before 2 t d))
    ∗ (∃ d, owns (c : Thread nD τ) (ms1_3 t) fullShare ((dat (Ix := Ix) (Name := Name) (U := U) (Lvl := Lvl) V O W).before 3 t d))
    ∗ (∃ d, owns (c : Thread nD τ) (ms1_4 t) fullShare ((dat (Ix := Ix) (Name := Name) (U := U) (Lvl := Lvl) V O W).before 4 t d))
    ∗ (∃ d, owns (c : Thread nD τ) (ms1_5 t) fullShare ((dat (Ix := Ix) (Name := Name) (U := U) (Lvl := Lvl) V O W).before 5 t d))
    ∗ (∃ d, owns (c : Thread nD τ) (ms1_6 t) fullShare ((dat (Ix := Ix) (Name := Name) (U := U) (Lvl := Lvl) V O W).before 6 t d))
    ∗ (∃ d, owns (c : Thread nD τ) (ms1_7 t) fullShare ((dat (Ix := Ix) (Name := Name) (U := U) (Lvl := Lvl) V O W).before 7 t d))
    ∗ (∃ d, owns (c : Thread nD τ) (ms1_8 t) fullShare ((dat (Ix := Ix) (Name := Name) (U := U) (Lvl := Lvl) V O W).before 8 t d))
    ∗ (∃ d, owns (c : Thread nD τ) (ms1_9 t) fullShare ((dat (Ix := Ix) (Name := Name) (U := U) (Lvl := Lvl) V O W).before 9 t d))
    ∗ (∃ d, owns (c : Thread nD τ) (ms1_10 t) fullShare ((dat (Ix := Ix) (Name := Name) (U := U) (Lvl := Lvl) V O W).before 10 t d)))

/-- and what it returns. -/
def bodyPost (ι : Ix) (t : Fin cfg1.N) : sProp 𝕄 :=
  iprop((dat (Ix := Ix) (Name := Name) (U := U) (Lvl := Lvl) V O W).Φ t.succ ∗ (dat (Ix := Ix) (Name := Name) (U := U) (Lvl := Lvl) V O W).owesAt ι t.succ
    ∗ owns (c : Thread nD τ) (ms1_0 t) fullShare (iblk V 0 t)
    ∗ owns (c : Thread nD τ) (ms1_1 t) fullShare (iblk V 1 t)
    ∗ owns (c : Thread nD τ) (ms1_2 t) fullShare (iblk V 2 t)
    ∗ owns (c : Thread nD τ) (ms1_3 t) fullShare (iblk V 3 t)
    ∗ owns (c : Thread nD τ) (ms1_4 t) fullShare (iblk V 4 t)
    ∗ owns (c : Thread nD τ) (ms1_5 t) fullShare (iblk V 5 t)
    ∗ owns (c : Thread nD τ) (ms1_6 t) fullShare (iblk V 6 t)
    ∗ owns (c : Thread nD τ) (ms1_7 t) fullShare (iblk V 7 t)
    ∗ owns (c : Thread nD τ) (ms1_8 t) fullShare (iblk V 8 t)
    ∗ owns (c : Thread nD τ) (ms1_9 t) fullShare (iblk V 9 t)
    ∗ (dat (Ix := Ix) (Name := Name) (U := U) (Lvl := Lvl) V O W).leavesExact 10 t)

set_option maxHeartbeats 1600000 in
/-- The body at any point, by the point's control case: the inputs' buffers hold their blocks; at the first point the
    scratch is found at anything and left at the first step from zero; later at the fold's value so far and left one
    step on; the result's buffer is left as found but at the last point, where it is left at the score. -/
theorem sound_body (ι : Ix) (t : Fin cfg1.N) :
    (bodyPre V O W ι t : sProp 𝕄) ⊢ wp frame (wpE (defs₀ (F := F)) 𝒱₀ c none) Set.univ (bodyAt1 t) (fun _ => bodyPost V O W ι t) := by
  unfold bodyPre bodyPost bodyAt1
  simp only [before1_0, before1_1, before1_2, before1_3, before1_4, before1_5, before1_6, before1_7, before1_8, before1_9]
  rw [show (dat (Ix := Ix) (Name := Name) (U := U) (Lvl := Lvl) V O W).owesAt ι t.succ = (dat (Ix := Ix) (Name := Name) (U := U) (Lvl := Lvl) V O W).owesAt ι t.castSucc from rfl]
  have hN : t.val < 16 := lt_of_lt_of_eq t.isLt N_1
  obtain ⟨n, hn⟩ := t
  replace hN : n < 16 := hN
  rcases Nat.eq_zero_or_pos n with rfl | hpos
  · -- the first point
    have hc1 : cond1 (grid1.coords ⟨0, hn⟩) := (hcond1 ⟨0, hn⟩).mpr rfl
    have hc2 : ¬ k1_cond2 (grid1.coords ⟨0, hn⟩) = 1#1 := fun h => by have := (hcond2 ⟨0, hn⟩).mp h; simp at this
    have hi : cfg1.idle 10 (cfg1.grid.coords ⟨0, hn⟩) = true := by
      show (!(k1_cond2 (grid1.coords ⟨0, hn⟩) == 1#1)) = true
      simp [hc2]
    have hf : (cfg1.win 10).flush ⟨0, hn⟩ = false := Bool.eq_false_iff.mpr fun h => by have := (flush1_10 ⟨0, hn⟩).mp h; simp at this
    rw [(dat (Ix := Ix) (Name := Name) (U := U) (Lvl := Lvl) V O W).leavesExact_idle 10 ⟨0, hn⟩ hi hf]
    show iprop((∃ f, scr c f) ∗ _) ⊢ wp _ _ _ _ (fun _ => iprop(scr c (accW V 0 hn) ∗ _))
    iintro ⟨⟨%f, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (bodyA 𝒱₀ c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (Memref.whole cc1_scratch0) (Memref.isWhole_whole _) hc1 hc2
      (iblk V 0 ⟨0, hn⟩) (iblk V 1 ⟨0, hn⟩) (iblk V 2 ⟨0, hn⟩) (iblk V 3 ⟨0, hn⟩) (iblk V 4 ⟨0, hn⟩) (iblk V 5 ⟨0, hn⟩) (iblk V 6 ⟨0, hn⟩) (iblk V 7 ⟨0, hn⟩) (iblk V 8 ⟨0, hn⟩) (iblk V 9 ⟨0, hn⟩) _ f Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HΦ]; · iexact HΦ
    iintro ⟨H0, H1, H2, H3, H4, H5, H6, H7, H8, H9, H10, HΦ⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · obtain ⟨m, rfl⟩ := Nat.exists_eq_succ_of_ne_zero (Nat.pos_iff_ne_zero.mp hpos)
    replace hN : m + 1 < 16 := hN
    have hc1 : ¬ cond1 (grid1.coords ⟨m + 1, hn⟩) := fun h => by have := (hcond1 ⟨m + 1, hn⟩).mp h; dsimp only at this; omega
    show iprop(scr c (accW V m (Nat.lt_of_succ_lt hn)) ∗ _) ⊢ wp _ _ _ _ (fun _ => iprop(scr c (accW V (m + 1) hn) ∗ _))
    by_cases hl : m + 1 = 15
    · -- the last point
      have hc2 : k1_cond2 (grid1.coords ⟨m + 1, hn⟩) = 1#1 := (hcond2 ⟨m + 1, hn⟩).mpr (by dsimp only; omega)
      have hi : cfg1.idle 10 (cfg1.grid.coords ⟨m + 1, hn⟩) = false := by
        show (!(k1_cond2 (grid1.coords ⟨m + 1, hn⟩) == 1#1)) = false
        simp [hc2]
      rw [show (dat (Ix := Ix) (Name := Name) (U := U) (Lvl := Lvl) V O W).leavesExact 10 ⟨m + 1, hn⟩ = owns (c : Thread nD τ) (ms1_10 ⟨m + 1, hn⟩) fullShare ((dat (Ix := Ix) (Name := Name) (U := U) (Lvl := Lvl) V O W).after 10 ⟨m + 1, hn⟩) from by
        unfold Pipeline.Dat.leavesExact; rw [hi]]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (bodyC 𝒱₀ c (grid1.coords ⟨m + 1, hn⟩) (ms1_0 ⟨m + 1, hn⟩) (hs1_0 ⟨m + 1, hn⟩) (ms1_1 ⟨m + 1, hn⟩) (hs1_1 ⟨m + 1, hn⟩) (ms1_2 ⟨m + 1, hn⟩) (hs1_2 ⟨m + 1, hn⟩) (ms1_3 ⟨m + 1, hn⟩) (hs1_3 ⟨m + 1, hn⟩) (ms1_4 ⟨m + 1, hn⟩) (hs1_4 ⟨m + 1, hn⟩) (ms1_5 ⟨m + 1, hn⟩) (hs1_5 ⟨m + 1, hn⟩) (ms1_6 ⟨m + 1, hn⟩) (hs1_6 ⟨m + 1, hn⟩) (ms1_7 ⟨m + 1, hn⟩) (hs1_7 ⟨m + 1, hn⟩) (ms1_8 ⟨m + 1, hn⟩) (hs1_8 ⟨m + 1, hn⟩) (ms1_9 ⟨m + 1, hn⟩) (hs1_9 ⟨m + 1, hn⟩) (ms1_10 ⟨m + 1, hn⟩) (hs1_10 ⟨m + 1, hn⟩) (Memref.whole cc1_scratch0) (Memref.isWhole_whole _) hc1 hc2
        (iblk V 0 ⟨m + 1, hn⟩) (iblk V 1 ⟨m + 1, hn⟩) (iblk V 2 ⟨m + 1, hn⟩) (iblk V 3 ⟨m + 1, hn⟩) (iblk V 4 ⟨m + 1, hn⟩) (iblk V 5 ⟨m + 1, hn⟩) (iblk V 6 ⟨m + 1, hn⟩) (iblk V 7 ⟨m + 1, hn⟩) (iblk V 8 ⟨m + 1, hn⟩) (iblk V 9 ⟨m + 1, hn⟩) _ (accW V m (Nat.lt_of_succ_lt hn)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HΦ]; · iexact HΦ
      iintro ⟨H0, H1, H2, H3, H4, H5, H6, H7, H8, H9, H10, HΦ⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a middle point
      have hc2 : ¬ k1_cond2 (grid1.coords ⟨m + 1, hn⟩) = 1#1 := fun h => by have := (hcond2 ⟨m + 1, hn⟩).mp h; dsimp only at this; omega
      have hi : cfg1.idle 10 (cfg1.grid.coords ⟨m + 1, hn⟩) = true := by
        show (!(k1_cond2 (grid1.coords ⟨m + 1, hn⟩) == 1#1)) = true
        simp [hc2]
      have hf : (cfg1.win 10).flush ⟨m + 1, hn⟩ = false := Bool.eq_false_iff.mpr fun h => by have := (flush1_10 ⟨m + 1, hn⟩).mp h; dsimp only at this; omega
      rw [(dat (Ix := Ix) (Name := Name) (U := U) (Lvl := Lvl) V O W).leavesExact_idle 10 ⟨m + 1, hn⟩ hi hf]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (bodyB 𝒱₀ c (grid1.coords ⟨m + 1, hn⟩) (ms1_0 ⟨m + 1, hn⟩) (hs1_0 ⟨m + 1, hn⟩) (ms1_1 ⟨m + 1, hn⟩) (hs1_1 ⟨m + 1, hn⟩) (ms1_2 ⟨m + 1, hn⟩) (hs1_2 ⟨m + 1, hn⟩) (ms1_3 ⟨m + 1, hn⟩) (hs1_3 ⟨m + 1, hn⟩) (ms1_4 ⟨m + 1, hn⟩) (hs1_4 ⟨m + 1, hn⟩) (ms1_5 ⟨m + 1, hn⟩) (hs1_5 ⟨m + 1, hn⟩) (ms1_6 ⟨m + 1, hn⟩) (hs1_6 ⟨m + 1, hn⟩) (ms1_7 ⟨m + 1, hn⟩) (hs1_7 ⟨m + 1, hn⟩) (ms1_8 ⟨m + 1, hn⟩) (hs1_8 ⟨m + 1, hn⟩) (ms1_9 ⟨m + 1, hn⟩) (hs1_9 ⟨m + 1, hn⟩) (ms1_10 ⟨m + 1, hn⟩) (hs1_10 ⟨m + 1, hn⟩) (Memref.whole cc1_scratch0) (Memref.isWhole_whole _) hc1 hc2
        (iblk V 0 ⟨m + 1, hn⟩) (iblk V 1 ⟨m + 1, hn⟩) (iblk V 2 ⟨m + 1, hn⟩) (iblk V 3 ⟨m + 1, hn⟩) (iblk V 4 ⟨m + 1, hn⟩) (iblk V 5 ⟨m + 1, hn⟩) (iblk V 6 ⟨m + 1, hn⟩) (iblk V 7 ⟨m + 1, hn⟩) (iblk V 8 ⟨m + 1, hn⟩) (iblk V 9 ⟨m + 1, hn⟩) _ (accW V m (Nat.lt_of_succ_lt hn)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HΦ]; · iexact HΦ
      iintro ⟨H0, H1, H2, H3, H4, H5, H6, H7, H8, H9, H10, HΦ⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation (ι : Ix) : BodyObligation (dat (Ix := Ix) (Name := Name) (U := U) (Lvl := Lvl) V O W) (defs₀ (F := F)) 𝒱₀ ι Set.univ := fun t => by
  rw [bigSep_W1, bigSep_W1]
  exact sound_body 𝒱₀ V O W ι t

end Obligation

end Cert.Kernel.Tc

end
-- ==== Proof.WTcRegion.lean ====
/-
  The inner TensorCore region of `Cert.Kernel` (custom call 1) as ONE rule at @main's custom-call line, for the
  TensorCore thread inside the SparseCore launch.

  § Value: the windows' blocks read as values — a block of a [13,16,16384] array is `Tc.blk` of it, a weight window's
  block is its array —, so the body obligation's fold over window blocks is `Tc.accAt`, and the one write-back of the
  [1,1] result window, at the last point, leaves the result array at `Tc.tcScore` of the ten operand arrays.
  § Region: the pipeline library's record of the region (`reg`: the generated layout facts, the body obligation of
  TcBody.lean, the staging cells' waits at the index `none`, the eleven arrays in and out) and the rule
  `wp_tcRegion`: the region entered in the pipeline's own signature and lifted to the program's body table.
-/
import proofs.«205816_g11845519802804_retrytranche1_1814_36_alg».proof.Proof.WTcBody
import Idealize.ShloMosaic.Lib.SparseCore.Launch
import proofs.«205816_g11845519802804_retrytranche1_1814_36_alg».proof.Proof.Gen.Kernel.Launch
import proofs.«205816_g11845519802804_retrytranche1_1814_36_alg».proof.Proof.Gen.Kernel.Skeleton
import proofs.«205816_g11845519802804_retrytranche1_1814_36_alg».proof.Proof.Gen.Kernel.Points
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The windows' blocks read as values: the fold is `Tc.accAt`, the result array ends at `Tc.tcScore` -/

section Value

variable {Ix : Type} [DecidableEq Ix] {Name : Type} [DecidableEq Name] {U : Type} [URA U] {Lvl : Type} [Preorder Lvl]
variable {c : Dev nD} (V : (b : Ref sig .tc) → Buf (Elt F) ((c : Thread nD τ).loc b))

theorem iblk_0 (t : Fin cfg1.N) : (iblk V 0 t : Vec F S13x16x1024 .f32) = blk (V main_v2_0) t.val := by
  have hi : win1_0.index t 0 = 0 ∧ win1_0.index t 1 = 0 ∧ win1_0.index t 2 = t.val :=
    (by decide +kernel : ∀ t : Fin grid1.N, win1_0.index t 0 = 0 ∧ win1_0.index t 1 = 0 ∧ win1_0.index t 2 = t.val) t
  have hN : t.val < 16 := lt_of_lt_of_eq t.isLt N_1
  funext j
  unfold iblk blk
  rw [View.read_apply]
  show V main_v2_0 _ = V main_v2_0 _
  congr 1
  funext a
  apply Fin.ext
  match a with
  | ⟨0, _⟩ => show win1_0.index t 0 * 13 + 1 * (j 0).val = (j 0).val; rw [hi.1]; omega
  | ⟨1, _⟩ => show win1_0.index t 1 * 16 + 1 * (j 1).val = (j 1).val; rw [hi.2.1]; omega
  | ⟨2, _⟩ => show win1_0.index t 2 * 1024 + 1 * (j 2).val = 1024 * (t.val % 16) + (j 2).val; rw [hi.2.2, Nat.mod_eq_of_lt hN]; omega
theorem iblk_1 (t : Fin cfg1.N) : (iblk V 1 t : Vec F S13x16x1024 .f32) = blk (V main_v2_1) t.val := by
  have hi : win1_1.index t 0 = 0 ∧ win1_1.index t 1 = 0 ∧ win1_1.index t 2 = t.val :=
    (by decide +kernel : ∀ t : Fin grid1.N, win1_1.index t 0 = 0 ∧ win1_1.index t 1 = 0 ∧ win1_1.index t 2 = t.val) t
  have hN : t.val < 16 := lt_of_lt_of_eq t.isLt N_1
  funext j
  unfold iblk blk
  rw [View.read_apply]
  show V main_v2_1 _ = V main_v2_1 _
  congr 1
  funext a
  apply Fin.ext
  match a with
  | ⟨0, _⟩ => show win1_1.index t 0 * 13 + 1 * (j 0).val = (j 0).val; rw [hi.1]; omega
  | ⟨1, _⟩ => show win1_1.index t 1 * 16 + 1 * (j 1).val = (j 1).val; rw [hi.2.1]; omega
  | ⟨2, _⟩ => show win1_1.index t 2 * 1024 + 1 * (j 2).val = 1024 * (t.val % 16) + (j 2).val; rw [hi.2.2, Nat.mod_eq_of_lt hN]; omega
theorem iblk_2 (t : Fin cfg1.N) : (iblk V 2 t : Vec F S64x208 .f32) = V main_v3 := by
  have hz' : (fun a => win1_2.index t a * main_v3.ty.shape.size a) = fun _ => 0 := funext fun a => by fin_cases a <;> rfl
  exact Memref.read_access_unit_zero (Elt F) main_v3 hz' (fun a => by rw [congrFun hz' a]; simp) (V main_v3)
theorem iblk_3 (t : Fin cfg1.N) : (iblk V 3 t : Vec F S64x1 .f32) = V main_v4 := by
  have hz' : (fun a => win1_3.index t a * main_v4.ty.shape.size a) = fun _ => 0 := funext fun a => by fin_cases a <;> rfl
  exact Memref.read_access_unit_zero (Elt F) main_v4 hz' (fun a => by rw [congrFun hz' a]; simp) (V main_v4)
theorem iblk_4 (t : Fin cfg1.N) : (iblk V 4 t : Vec F S32x64 .f32) = V main_v5 := by
  have hz' : (fun a => win1_4.index t a * main_v5.ty.shape.size a) = fun _ => 0 := funext fun a => by fin_cases a <;> rfl
  exact Memref.read_access_unit_zero (Elt F) main_v5 hz' (fun a => by rw [congrFun hz' a]; simp) (V main_v5)
theorem iblk_5 (t : Fin cfg1.N) : (iblk V 5 t : Vec F S32x1 .f32) = V main_v6 := by
  have hz' : (fun a => win1_5.index t a * main_v6.ty.shape.size a) = fun _ => 0 := funext fun a => by fin_cases a <;> rfl
  exact Memref.read_access_unit_zero (Elt F) main_v6 hz' (fun a => by rw [congrFun hz' a]; simp) (V main_v6)
theorem iblk_6 (t : Fin cfg1.N) : (iblk V 6 t : Vec F S64x208 .f32) = V main_v7 := by
  have hz' : (fun a => win1_6.index t a * main_v7.ty.shape.size a) = fun _ => 0 := funext fun a => by fin_cases a <;> rfl
  exact Memref.read_access_unit_zero (Elt F) main_v7 hz' (fun a => by rw [congrFun hz' a]; simp) (V main_v7)
theorem iblk_7 (t : Fin cfg1.N) : (iblk V 7 t : Vec F S64x1 .f32) = V main_v8 := by
  have hz' : (fun a => win1_7.index t a * main_v8.ty.shape.size a) = fun _ => 0 := funext fun a => by fin_cases a <;> rfl
  exact Memref.read_access_unit_zero (Elt F) main_v8 hz' (fun a => by rw [congrFun hz' a]; simp) (V main_v8)
theorem iblk_8 (t : Fin cfg1.N) : (iblk V 8 t : Vec F S32x64 .f32) = V main_v9 := by
  have hz' : (fun a => win1_8.index t a * main_v9.ty.shape.size a) = fun _ => 0 := funext fun a => by fin_cases a <;> rfl
  exact Memref.read_access_unit_zero (Elt F) main_v9 hz' (fun a => by rw [congrFun hz' a]; simp) (V main_v9)
theorem iblk_9 (t : Fin cfg1.N) : (iblk V 9 t : Vec F S32x1 .f32) = V main_v10 := by
  have hz' : (fun a => win1_9.index t a * main_v10.ty.shape.size a) = fun _ => 0 := funext fun a => by fin_cases a <;> rfl
  exact Memref.read_access_unit_zero (Elt F) main_v10 hz' (fun a => by rw [congrFun hz' a]; simp) (V main_v10)

/-- The fold over the windows' blocks is the fold over the arrays' blocks. -/
theorem accW_eq : ∀ (n : ℕ) (h : n < cfg1.N), accW V n h = accAt (V main_v2_0) (V main_v2_1) (V main_v3) (V main_v4) (V main_v5) (V main_v6) (V main_v7) (V main_v8) (V main_v9) (V main_v10) n
  | 0, h => by
    show accStep zero3 _ _ _ _ _ _ _ _ _ _ = accStep zero3 _ _ _ _ _ _ _ _ _ _
    rw [iblk_0, iblk_1, iblk_2, iblk_3, iblk_4, iblk_5, iblk_6, iblk_7, iblk_8, iblk_9]
  | n + 1, h => by
    show accStep (accW V n _) _ _ _ _ _ _ _ _ _ _ = accStep (accAt (V main_v2_0) (V main_v2_1) (V main_v3) (V main_v4) (V main_v5) (V main_v6) (V main_v7) (V main_v8) (V main_v9) (V main_v10) n) _ _ _ _ _ _ _ _ _ _
    rw [accW_eq n, iblk_0, iblk_1, iblk_2, iblk_3, iblk_4, iblk_5, iblk_6, iblk_7, iblk_8, iblk_9]

variable (O : CellTallies nD τ sig Ix) (W : Waits sig Ix)

/-- The one write-back, at the last point, writes the score: block (0, 0) of the [1,1] array is the array. -/
theorem flushed_eq (t : Fin cfg1.N) (hf : (cfg1.win 10).flush t = true) :
    (dat (Ix := Ix) (Name := Name) (U := U) (Lvl := Lvl) V O W).flushed 10 t
      = ((cfg1.win 10).blk t).view.read (Elt F) (tcScore (V main_v2_0) (V main_v2_1) (V main_v3) (V main_v4) (V main_v5) (V main_v6) (V main_v7) (V main_v8) (V main_v9) (V main_v10)) := by
  have hN : t.val < 16 := lt_of_lt_of_eq t.isLt N_1
  have h15 : t.val = 15 := by have := (flush1_10 t).mp hf; omega
  obtain rfl : t = t1_15 := Fin.ext h15
  show (cfg1.win 10).cut (grid1.coords t1_15) ((dat (Ix := Ix) (Name := Name) (U := U) (Lvl := Lvl) V O W).after 10 t1_15) = _
  have ha : (dat (Ix := Ix) (Name := Name) (U := U) (Lvl := Lvl) V O W).after 10 t1_15 = tcScore (V main_v2_0) (V main_v2_1) (V main_v3) (V main_v4) (V main_v5) (V main_v6) (V main_v7) (V main_v8) (V main_v9) (V main_v10) := by
    dsimp only [dat]
    unfold tcScore
    rw [accW_eq]
    rfl
  rw [ha]
  have hz' : (fun a => win1_10.index t1_15 a * main_v11.ty.shape.size a) = fun _ => 0 := funext fun a => by fin_cases a <;> rfl
  exact (Memref.read_access_unit_zero (Elt F) main_v11 hz' (fun a => by rw [congrFun hz' a]; simp) (tcScore (V main_v2_0) (V main_v2_1) (V main_v3) (V main_v4) (V main_v5) (V main_v6) (V main_v7) (V main_v8) (V main_v9) (V main_v10))).symm

/-- So the result array ends holding the score. -/
theorem final_out : (dat (Ix := Ix) (Name := Name) (U := U) (Lvl := Lvl) V O W).arrAt 10 cfg1.N = tcScore (V main_v2_0) (V main_v2_1) (V main_v3) (V main_v4) (V main_v5) (V main_v6) (V main_v7) (V main_v8) (V main_v9) (V main_v10) :=
  (dat V O W).arrAt_eq_of_cover 10 (tcScore (V main_v2_0) (V main_v2_1) (V main_v3) (V main_v4) (V main_v5) (V main_v6) (V main_v7) (V main_v8) (V main_v9) (V main_v10)) (flushed_eq V O W) fun i =>
    ⟨t1_15, (flush1_10 t1_15).mpr rfl, by
      show i ∈ ((View.whole main_v11).slice (win1_10.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_10.index t1_15 0 * win1_10.size 0 ≤ (i 0 : Nat) ∧ (i 0 : Nat) < win1_10.index t1_15 0 * win1_10.size 0 + win1_10.xsize (grid1.coords t1_15) 0
                  rw [show win1_10.index t1_15 0 * win1_10.size 0 = 0 from by decide +kernel, show win1_10.xsize (grid1.coords t1_15) 0 = 1 from by decide +kernel]; omega
      | ⟨1, _⟩ => show win1_10.index t1_15 1 * win1_10.size 1 ≤ (i 1 : Nat) ∧ (i 1 : Nat) < win1_10.index t1_15 1 * win1_10.size 1 + win1_10.xsize (grid1.coords t1_15) 1
                  rw [show win1_10.index t1_15 1 * win1_10.size 1 = 0 from by decide +kernel, show win1_10.xsize (grid1.coords t1_15) 1 = 1 from by decide +kernel]; omega⟩

end Value

/-! ## The region: the library's record for `customCall (entry 0) ()`, and the rule at the custom-call line -/

section Region

variable {Name : Type} [DecidableEq Name] {U : Type} [URA U]

local notation "𝕄" => MT nD τ sig (Option (Fin 1)) (Elt F) Name U ℕ

/-- The pipeline prefetches nothing: its one admissible table contents. -/
abbrev adm : (p : Fin 1) → (pcfgs (F := F) p).Adm := fun p => (cfgs p).toPCfg_adm

/-- The program's staging cells are pairwise distinct, at the pinned configuration. -/
theorem hinj : Function.Injective (Pipeline.cellOf (nD := nD) (τ := τ) (Pipeline.pin (pcfgs (F := F)) adm)) :=
  (launch1.toP (Val := Elt F)).cellOf_inj adm

variable (V : (c : Dev nD) → (b : Ref sig .tc) → Buf (Elt F) ((c : Thread nD τ).loc b))
  (O : Dev nD → CellTallies nD τ sig (Option (Fin 1))) (W : Dev nD → Waits sig (Option (Fin 1)))

/-- The proof data of the one pipeline, on every core. -/
def pdats : (p : Fin 1) → (c : Dev nD) → Dat τ (Elt F) (Option (Fin 1)) Name U ℕ (Pipeline.pin (pcfgs (F := F)) adm p) c
  | 0 => fun c => dat (V c) (O c) (W c)

/-- A buffer of core `c` whole at the full share. -/
abbrev pl (c : Dev nD) (b : Ref sig .tc) (f : Buf (Elt F) ((c : Thread nD τ).loc b)) : sProp 𝕄 := ((c : Thread nD τ).loc b) ↦{fullShare} f

omit [FloatOps F] in
theorem owns_whole_eq (c : Dev nD) (b : Ref sig .tc) (X : b.ty.Contents (Elt F)) :
    (owns (Ix := Option (Fin 1)) (Name := Name) (U := U) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The region's arrays at contents `Fa` are the eleven buffers held. -/
theorem arrays_eq (c : Dev nD) (Fa) : ((pdats (Name := Name) (U := U) V O W 0 c).arrays Fa : sProp 𝕄)
    = iprop(pl c main_v2_0 (Fa 0) ∗ pl c main_v2_1 (Fa 1) ∗ pl c main_v3 (Fa 2) ∗ pl c main_v4 (Fa 3) ∗ pl c main_v5 (Fa 4) ∗ pl c main_v6 (Fa 5) ∗ pl c main_v7 (Fa 6) ∗ pl c main_v8 (Fa 7) ∗ pl c main_v9 (Fa 8) ∗ pl c main_v10 (Fa 9) ∗ pl c main_v11 (Fa 10)) := by
  rw [Pipeline.arrays_eq (Pipeline.pin (pcfgs (F := F)) adm) (pdats V O W) 0 c launch1.arr_whole ((pdats V O W 0 c).share_full fun _ => rfl) Fa, bigSep_W1]

/-- What the region is entered from: what the core owes and the eleven arrays, -/
def regPre (c : Dev nD) : sProp 𝕄 :=
  iprop(owes (c : Thread nD τ) (O c) (W c) ∗ pl c main_v2_0 (V c main_v2_0) ∗ pl c main_v2_1 (V c main_v2_1) ∗ pl c main_v3 (V c main_v3) ∗ pl c main_v4 (V c main_v4) ∗ pl c main_v5 (V c main_v5) ∗ pl c main_v6 (V c main_v6) ∗ pl c main_v7 (V c main_v7) ∗ pl c main_v8 (V c main_v8) ∗ pl c main_v9 (V c main_v9) ∗ pl c main_v10 (V c main_v10) ∗ pl c main_v11 (V c main_v11))

/-- and what it leaves: the ten operands unchanged, the result array at the score, the core owing the same with its
    recorded pairs grown by pairs at index `none` only (the staging cells' waits). -/
def regPost (c : Dev nD) : sProp 𝕄 :=
  iprop((∃ W', ⌜∀ p ∈ W', p ∈ W c ∨ p.2 = none⌝ ∗ owes (c : Thread nD τ) (O c) W') ∗ pl c main_v2_0 (V c main_v2_0) ∗ pl c main_v2_1 (V c main_v2_1) ∗ pl c main_v3 (V c main_v3) ∗ pl c main_v4 (V c main_v4) ∗ pl c main_v5 (V c main_v5) ∗ pl c main_v6 (V c main_v6) ∗ pl c main_v7 (V c main_v7) ∗ pl c main_v8 (V c main_v8) ∗ pl c main_v9 (V c main_v9) ∗ pl c main_v10 (V c main_v10)
    ∗ pl c main_v11 (tcScore (V c main_v2_0) (V c main_v2_1) (V c main_v3) (V c main_v4) (V c main_v5) (V c main_v6) (V c main_v7) (V c main_v8) (V c main_v9) (V c main_v10)))

/-- THE REGION, the library's record: the layout decided by the generated launch facts, no semaphore of the kernel's
    own, the body obligation, the staging cells' waits at index `none` (below everything the launch protocol has the
    TensorCore owe), the eleven arrays into the pipeline and back. -/
def reg (𝒱₀ : Variants) (lv : GSem nD τ sig → Option (Fin 1) → ℕ) (hlv : (sc (F := F)).Refines lv) (hO : ∀ c g, O c g none = 0) :
    Pipeline.RegionSeg (pcfgs (F := F)) adm (pdats (Name := Name) (U := U) V O W) (none : Option (Fin 1)) defs₀ 𝒱₀ (sc (F := F)).L lv 0 where
  win := launch1.win.to₀
  block_pos := launch1.block_pos
  stage_whole := launch1.stage_whole
  K := PEmpty
  osem k := k.elim
  ho := Pipeline.OwnSemFacts.none _
  hbody c := (body_obligation 𝒱₀ (V c) (O c) (W c) none).loose
  hwaits c := Pipeline.cellsWaits_intro (Pipeline.pin (pcfgs (F := F)) adm) (pdats V O W) none 0 c
    fun w s t => (sc (F := F)).mayWait_none _ (hO c) lv hlv
  pre := regPre V O W
  post := regPost V O W
  X _ := iprop(emp)
  Y _ := iprop(emp)
  Z _ := iprop(emp)
  hentry c := by
    rw [Pipeline.ownSems0_none, arrays_eq]
    unfold regPre
    iintro ⟨⟨HO, H0, H1, H2, H3, H4, H5, H6, H7, H8, H9, H10⟩, -, -⟩
    imodintro
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitr; · unfold Pipeline.prefHeld; rw [show (Finset.univ : Finset (Fin 0)) = ∅ from rfl, BI.bigSep_empty]; iempintro
    isplitl [HO]
    · unfold Pipeline.Dat.owesAt Pipeline.owesWithin
      iexists (W c); isplitr; · ipureintro; exact fun _ h => Or.inl h
      iexact HO
    isplitr <;> iempintro
  hin c := by
    rw [scopedRest1_eq]
    show _ ⊢ iprop(∃ f, scr c f)
    iintro ⟨-, -, ⟨%f, H⟩⟩
    iexists f
    rw [scr, owns_whole_eq]
    iexists f; isplitr; · ipureintro; rfl
    iexact H
  hout c := by
    rw [Pipeline.ownSems0_none, scopedRest1_eq]
    show scr c _ ⊢ _
    rw [scr, owns_whole_eq]
    iintro ⟨%f, -, H⟩
    isplitr; · iempintro
    isplitr; · iempintro
    iexists f; iexact H
  hexit c := by
    rw [arrays_eq]
    rw [show (pdats (Name := Name) (U := U) V O W 0 c).arrAt 0 _ = V c main_v2_0 from (dat (V c) (O c) (W c)).arrAt_in 0 rfl _,
      show (pdats (Name := Name) (U := U) V O W 0 c).arrAt 1 _ = V c main_v2_1 from (dat (V c) (O c) (W c)).arrAt_in 1 rfl _,
      show (pdats (Name := Name) (U := U) V O W 0 c).arrAt 2 _ = V c main_v3 from (dat (V c) (O c) (W c)).arrAt_in 2 rfl _,
      show (pdats (Name := Name) (U := U) V O W 0 c).arrAt 3 _ = V c main_v4 from (dat (V c) (O c) (W c)).arrAt_in 3 rfl _,
      show (pdats (Name := Name) (U := U) V O W 0 c).arrAt 4 _ = V c main_v5 from (dat (V c) (O c) (W c)).arrAt_in 4 rfl _,
      show (pdats (Name := Name) (U := U) V O W 0 c).arrAt 5 _ = V c main_v6 from (dat (V c) (O c) (W c)).arrAt_in 5 rfl _,
      show (pdats (Name := Name) (U := U) V O W 0 c).arrAt 6 _ = V c main_v7 from (dat (V c) (O c) (W c)).arrAt_in 6 rfl _,
      show (pdats (Name := Name) (U := U) V O W 0 c).arrAt 7 _ = V c main_v8 from (dat (V c) (O c) (W c)).arrAt_in 7 rfl _,
      show (pdats (Name := Name) (U := U) V O W 0 c).arrAt 8 _ = V c main_v9 from (dat (V c) (O c) (W c)).arrAt_in 8 rfl _,
      show (pdats (Name := Name) (U := U) V O W 0 c).arrAt 9 _ = V c main_v10 from (dat (V c) (O c) (W c)).arrAt_in 9 rfl _,
      show (pdats (Name := Name) (U := U) V O W 0 c).arrAt 10 _ = tcScore (V c main_v2_0) (V c main_v2_1) (V c main_v3) (V c main_v4) (V c main_v5) (V c main_v6) (V c main_v7) (V c main_v8) (V c main_v9) (V c main_v10) from final_out (V c) (O c) (W c)]
    unfold regPost
    iintro ⟨⟨H0, H1, H2, H3, H4, H5, H6, H7, H8, H9, H10⟩, ⟨%W', %hW', HO⟩, -, -⟩
    imodintro
    isplitl [HO]
    · iexists W'; isplitr
      · ipureintro
        intro p hp
        rcases hW' hp with h | ⟨w, s, rfl⟩
        · exact Or.inl h
        · exact Or.inr rfl
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- THE RULE at @main's custom-call line, on the TensorCore thread of device `d`, under the program's own body table
    (the SparseCore launch's extension of the pipeline's): from the level facts, the region boundary (the staging
    buffers, the scratch and the staging semaphores are inside it), the pipeline's cells' ghost state and duty tokens,
    what the thread owes and the eleven arrays, the call runs to the boundary again, the ten operands unchanged, the
    result array at `tcScore` of them, the thread owing what it owed. The region is entered in the pipeline's
    signature (`Pipeline.RegionSeg.wp`) and lifted (`SparseCore.Cfg.wp_liftProg`). -/
theorem wp_tcRegion [∀ e, Nonempty (Elt F e)] [Infinite Name] (𝒱₀ : Variants)
    (EP : Emb (URounds (GSem nD τ sig) Unit) (MT nD τ sig (Option (Fin 1)) (Elt F) Name U ℕ)) [EP.LandsIn (upEmb : UEmb _ 𝕄)]
    (lv : GSem nD τ sig → Option (Fin 1) → ℕ) (hlv : (sc (F := F)).Refines lv) (hO : ∀ c g, O c g none = 0)
    (d : Dev nD) (Φ : PUnit → sProp 𝕄) :
    iprop(levAts (sc (F := F)).L lv ∗ boundary (d : Thread nD τ) ∗ Pipeline.cellsGhost (Pipeline.pin (pcfgs (F := F)) adm) EP 0 d
        ∗ Pipeline.toksInit (Pipeline.pin (pcfgs (F := F)) adm) EP 0 d ∗ regPre V O W d
        ∗ (iprop(boundary (d : Thread nD τ) ∗ regPost V O W d) -∗ Φ ⟨⟩))
      ⊢ wp frame (wpE (defs (F := F)) (Variants.lift 𝒱₀) (d : Thread nD τ) none) Set.univ
          (Prog.lift (.customCall (SparseCore.inner (Pipeline.entry 0)) ())) Φ := by
  have hreg := Pipeline.RegionSeg.wp (pcfgs (F := F)) adm (pdats V O W) none hinj EP defs₀ 𝒱₀ (sc (F := F)).L lv (reg V O W 𝒱₀ lv hlv hO) d none
    (fun _ h => nomatch h) (fun _ => Prog.ret PUnit.unit) Φ
  have hlift := (sc (F := F)).wp_liftProg (Pipeline.defs (pcfgs (F := F)) defs₀) (Variants.lift 𝒱₀) (d : Thread nD τ) Set.univ none
    (Prog.op (TpuEff.customCall (Pipeline.entry 0) ()) fun _ => Prog.ret PUnit.unit) Φ
  refine BIBase.Entails.trans ?_ (show _ ⊢ wp frame (wpE (defs (F := F)) (Variants.lift 𝒱₀) (d : Thread nD τ) none) Set.univ
    (Prog.lift (.customCall (SparseCore.inner (Pipeline.entry 0)) ())) Φ from hlift)
  refine BIBase.Entails.trans ?_ hreg
  show _ ⊢ iprop((iprop(boundary (d : Thread nD τ) ∗ regPost V O W d) -∗ _) ∗ boundary (d : Thread nD τ) ∗ regPre V O W d ∗ _)
  iintro ⟨Hlev, Hb, Hg, Ht, Hpre, Hk⟩
  isplitl [Hk]
  · iintro H
    rw [wp_ret]
    imodintro
    iapply Hk
    iexact H
  isplitl [Hb]; · iexact Hb
  isplitl [Hpre]; · iexact Hpre
  isplitl [Hlev]; · iexact Hlev
  isplitl [Hg]; · iexact Hg
  iexact Ht

end Region

end Cert.Kernel.Tc

end
-- ==== Proof.WTcGlue.lean ====
/-
  The inner TensorCore region's rule in the form @main's proof takes it (`Cert.Kernel.Main.RegionRule`), with the
  ghost state it needs from the launch: per device the pipeline's staging cells' launch state and the duty tokens of
  its transfers (`Gd`), the rounds element that funds them (`pinit`, by `Pipeline.fund_ghost`: `hfund`), and the rule
  itself (`regionRule`: `Tc.wp_tcRegion` at the launch's own levels, the pre and post written out).
-/
import proofs.«205816_g11845519802804_retrytranche1_1814_36_alg».proof.Proof.WMain
import proofs.«205816_g11845519802804_retrytranche1_1814_36_alg».proof.Proof.WTcRegion

noncomputable section

namespace Cert.Kernel.Tc

open Cert.Kernel Cert.Kernel.Gen
open Cert.Kernel.Ghost (EP UP UU)
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the region needs of the launch on device `d`: its staging cells' launch ghost state and its transfers' duty tokens. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- The rounds element the launch holds for the pipeline: every staging cell at its launch state, every transfer's token. -/
def pinit : UP :=
  initOf (Pipeline.cells (Pipeline.pin (pcfgs (F := F)) adm) hinj) (Pipeline.launchToks (Pipeline.pin (pcfgs (F := F)) adm) hinj)

/-- It funds `Gd` on every device (the program has one pipeline). -/
theorem hfund : (BI.own (EP (pinit (F := F))) : sProp 𝕄) ⊢ iprop(|==> bigSep Finset.univ (Gd (F := F))) := by
  have e : ∀ X : Fin 1 → sProp 𝕄, bigSep Finset.univ X = X 0 := fun X => by
    rw [show (Finset.univ : Finset (Fin 1)) = {0} from rfl, BI.bigSep_singleton]
  refine (Pipeline.fund_ghost (Pipeline.pin (pcfgs (F := F)) adm) EP hinj).trans (BI.bupd_mono ?_)
  unfold Gd
  rw [bigSep_sep']
  simp only [e]
  exact BI.Entails.refl _

/-- THE RULE as @main's proof takes it. -/
theorem regionRule [∀ e, Nonempty (Elt F e)] : Cert.Kernel.Main.RegionRule (F := F) (Gd (F := F)) := by
  intro d Vf Of hO Wf Φ
  have h := wp_tcRegion (Name := ℕ) (U := UU) Vf Of Wf Cert.Kernel.Sc.𝒱₀ EP (Cert.Kernel.Sc.K (F := F)).lev
    (SparseCore.Cfg.refines_self _) hO d Φ
  refine BIBase.Entails.trans ?_ h
  unfold regPre regPost Gd
  iintro ⟨Hlev, Hb, ⟨Hg, Ht⟩, HO, H0, H1, H2, H3, H4, H5, H6, H7, H8, H9, H10, Hk⟩
  isplitl [Hlev]; · iexact Hlev
  isplitl [Hb]; · iexact Hb
  isplitl [Hg]; · iexact Hg
  isplitl [Ht]; · iexact Ht
  isplitl [HO H0 H1 H2 H3 H4 H5 H6 H7 H8 H9 H10]
  · isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨Hb, HO, H0, H1, H2, H3, H4, H5, H6, H7, H8, H9, H10⟩
  iapply Hk
  isplitl [Hb]; · iexact Hb
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Kernel.Tc

end
-- ==== Proof.WGlue.lean ====
/-
  The kernel program's run, assembled: the SparseCore kernel's tile obligation (under the index arrays' entries below
  100000), the TensorCore call's rule with the pipeline's ghost state funded at launch, and @main's proof.
-/
import proofs.«205816_g11845519802804_retrytranche1_1814_36_alg».proof.Proof.WMain
import proofs.«205816_g11845519802804_retrytranche1_1814_36_alg».proof.Proof.WScObl
import proofs.«205816_g11845519802804_retrytranche1_1814_36_alg».proof.Proof.WTcGlue

noncomputable section

namespace Cert.Kernel.Glue

open Cert.Kernel
open Idealize.ShloMosaic Idealize.SL.Sem

variable {F : FTy → Type} [FloatOps F]

/-- Every weakly fair execution of the program's threads ends, nothing faulting, with the result array at the TensorCore
    call's score of the gathered arrays and the twelve arguments unchanged. -/
theorem run [∀ e, Nonempty (Elt F e)] (m : (ℓ : Loc nD τ sig) → Buf (Elt F) ℓ) (ρ : Dev nD → PrngReg)
    (hpreU : ∀ (d : Dev nD) (j : S13x16384.Idx), (m (Sc.iULoc d) j).toNat < 100000)
    (hpreI : ∀ (d : Dev nD) (j : S13x16384.Idx), (m (Sc.iILoc d) j).toNat < 100000) :
    θ_run (Cert.Kernel.defs (F := F)) (Cert.Kernel.threads (F := F)) ⟨m, fun _ => 0, ρ⟩ (Main.QC m) :=
  Main.run_main m ρ (Tc.Gd (F := F)) (Tc.pinit (F := F)) Tc.hfund Tc.regionRule
    (Sc.tileObl (Main.tabU m) (Main.tabI m) m Sc.facts hpreU hpreI)

end Cert.Kernel.Glue

end
-- ==== Proof.RefVal.lean ====
/-
  The host program's result as a pure term of its twelve argument arrays (`refVal`): the program's operations
  composed, in three layers — the lookup `takeVal` (its start indices `startIdx`, its in-range mask `inRange`), one
  tower `towerVal`, and the cosine under the logistic `cosVal`.
-/
import proofs.«205816_g11845519802804_retrytranche1_1814_36_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-! ## The result as a term of the arguments -/

/-- The start indices the lookup gathers at: a negative entry wrapped by the table's length, as an `[13, 16384, 1]` column. -/
def startIdx (idx : (⟨S13x16384, .i32⟩ : BufTy).Contents (Elt F)) : (⟨S13x16384x1, .i32⟩ : BufTy).Contents (Elt F) :=
  broadcastInDim S13x16384x1 ![0, 1] bcast_S13x16384_S13x16384x1_0_1
    (select (cmpi .slt idx (broadcastInDim S13x16384 ![] bcast_S_S13x16384 (constantI S_ 32 0#32)))
      (addi idx (broadcastInDim S13x16384 ![] bcast_S_S13x16384 (constantI S_ 32 100000#32))) idx)

/-- Where the lookup's start index is in range, `0 ≤ i ≤ 99999` signed, as an `[13, 16384]` mask. -/
def inRange (idx : (⟨S13x16384, .i32⟩ : BufTy).Contents (Elt F)) : (⟨S13x16384, .i1⟩ : BufTy).Contents (Elt F) :=
  Host.reduce IntOp.andi
    (andi (cmpi .sge (startIdx idx) (broadcastInDim S13x16384x1 ![] bcast_S_S13x16384x1 (constantI S_ 32 0#32)))
      (cmpi .sle (startIdx idx) (broadcastInDim S13x16384x1 ![0, 1, 2] bcast_S1x1x1_S13x16384x1_0_1_2
        (broadcastInDim S1x1x1 ![2] bcast_S1_S1x1x1_2 (constantI S1 32 99999#32)))))
    (constantI S_ 1 1#1) reducesTo_S13x16384x1_S13x16384_d2 h_S_

/-- The lookup of every field's rows: the gather, and the not-a-number pattern where the start index is out of range. -/
def takeVal (tab : (⟨S13x100000x16, .f32⟩ : BufTy).Contents (Elt F)) (idx : (⟨S13x16384, .i32⟩ : BufTy).Contents (Elt F)) : (⟨S13x16384x16, .f32⟩ : BufTy).Contents (Elt F) :=
  select (broadcastInDim S13x16384x16 ![0, 1] bcast_S13x16384_S13x16384x16_0_1 (inRange idx))
    (Host.gather gather_S13x100000x16_S13x16384x1_S13x16384x16_2_1_0_0_1_2_1116 tab (startIdx idx))
    (broadcastInDim S13x16384x16 ![] bcast_S_S13x16384x16 (constant S_ .f32 0x7FC00000#32))

/-- One tower: the looked-up rows laid side by side per batch row, then two dense layers, a rectifier after each. -/
def towerVal (tab : (⟨S13x100000x16, .f32⟩ : BufTy).Contents (Elt F)) (idx : (⟨S13x16384, .i32⟩ : BufTy).Contents (Elt F)) (W1 : (⟨S208x64, .f32⟩ : BufTy).Contents (Elt F)) (b1 : (⟨S64, .f32⟩ : BufTy).Contents (Elt F))
    (W2 : (⟨S64x32, .f32⟩ : BufTy).Contents (Elt F)) (b2 : (⟨S32, .f32⟩ : BufTy).Contents (Elt F)) : (⟨S16384x32, .f32⟩ : BufTy).Contents (Elt F) :=
  maximumf
    (addf
      (Host.dotGeneral dot_S16384x64_S64x32_S16384x32_1_0_0_1_n_n none
        (maximumf
          (addf
            (Host.dotGeneral dot_S16384x208_S208x64_S16384x64_1_0_0_1_n_n none
              (shapeCast S16384x208 (transpose S16384x13x16 [1, 0, 2] (takeVal tab idx) transposes_S13x16384x16_S16384x13x16_1_0_2)
                shapeCasts_S16384x13x16_S16384x208) W1)
            (broadcastInDim S16384x64 ![0, 1] bcast_S1x64_S16384x64_0_1 (broadcastInDim S1x64 ![1] bcast_S64_S1x64_1 b1)))
          (broadcastInDim S16384x64 ![] bcast_S_S16384x64 (constant S_ .f32 0x00000000#32))) W2)
      (broadcastInDim S16384x32 ![0, 1] bcast_S1x32_S16384x32_0_1 (broadcastInDim S1x32 ![1] bcast_S32_S1x32_1 b2)))
    (broadcastInDim S16384x32 ![] bcast_S_S16384x32 (constant S_ .f32 0x00000000#32))

/-- The cosine of two flattened tower outputs under the logistic, in the program's arrangement. -/
def cosVal (oi ou : (⟨S524288, .f32⟩ : BufTy).Contents (Elt F)) : (⟨S1x1, .f32⟩ : BufTy).Contents (Elt F) :=
  shapeCast S1x1
    (Host.divf (constant S_ .f32 0x3F800000#32)
      (addf (constant S_ .f32 0x3F800000#32)
        (Host.exp (Host.negf
          (Host.divf (Host.reduceAdd (mulf oi ou) (constant S_ .f32 0x00000000#32) reducesTo_S524288_S_d0 h_S_)
            (mulf (Host.sqrt (Host.reduceAdd (mulf oi oi) (constant S_ .f32 0x00000000#32) reducesTo_S524288_S_d0 h_S_))
              (Host.sqrt (Host.reduceAdd (mulf ou ou) (constant S_ .f32 0x00000000#32) reducesTo_S524288_S_d0 h_S_))))))))
    shapeCasts_S_S1x1

/-- THE RESULT BUFFER'S CONTENTS as a term of the twelve arguments, in @main's order: the user tower reads arguments
    0, 2, 4 … 7, the item tower 1, 3, 8 … 11; `oi` below is the item tower's output flattened, `ou` the user tower's. -/
def refVal (a0 : (⟨S13x16384, .i32⟩ : BufTy).Contents (Elt F))
    (a1 : (⟨S13x16384, .i32⟩ : BufTy).Contents (Elt F))
    (a2 : (⟨S13x100000x16, .f32⟩ : BufTy).Contents (Elt F))
    (a3 : (⟨S13x100000x16, .f32⟩ : BufTy).Contents (Elt F))
    (a4 : (⟨S208x64, .f32⟩ : BufTy).Contents (Elt F))
    (a5 : (⟨S64, .f32⟩ : BufTy).Contents (Elt F))
    (a6 : (⟨S64x32, .f32⟩ : BufTy).Contents (Elt F))
    (a7 : (⟨S32, .f32⟩ : BufTy).Contents (Elt F))
    (a8 : (⟨S208x64, .f32⟩ : BufTy).Contents (Elt F))
    (a9 : (⟨S64, .f32⟩ : BufTy).Contents (Elt F))
    (a10 : (⟨S64x32, .f32⟩ : BufTy).Contents (Elt F))
    (a11 : (⟨S32, .f32⟩ : BufTy).Contents (Elt F)) :
    (⟨S1x1, .f32⟩ : BufTy).Contents (Elt F) :=
  cosVal (shapeCast S524288 (towerVal a3 a1 a8 a9 a10 a11) shapeCasts_S16384x32_S524288)
    (shapeCast S524288 (towerVal a2 a0 a4 a5 a6 a7) shapeCasts_S16384x32_S524288)

end Cert.ReferenceIdeal.RefRun

end
-- ==== Proof.RefOps.lean ====
/-
  The host program's @main as ONE list of its hundred operations — each call's body listed at the call over that call's
  record of buffers — and the run of that list: every TensorCore buffer ends at the operations' fold over the launch
  contents.
-/
import proofs.«205816_g11845519802804_retrytranche1_1814_36_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main as a list of operations -/

/-- @main's hundred operations in order, the calls unfolded: `_take` is twenty-three (with `_where`'s select inline), each
    rectifier three. -/
abbrev ops : List (HloOp τ sig (Elt F)) :=
  [
    TRef.nullary main_call0.c (constantI S_ 32 0#32),
    TRef.unary main_call0.c main_call0.v0 (broadcastInDim S13x16384 ![] bcast_S_S13x16384),
    TRef.binary (.of main_arg0) main_call0.v0 main_call0.v1 (cmpi .slt),
    TRef.nullary main_call0.c_0 (constantI S_ 32 100000#32),
    TRef.unary main_call0.c_0 main_call0.v2 (broadcastInDim S13x16384 ![] bcast_S_S13x16384),
    TRef.binary (.of main_arg0) main_call0.v2 main_call0.v3 addi,
    TRef.ternary main_call0.v1 main_call0.v3 (.of main_arg0) main_call0.call0.v0 select,
    TRef.unary main_call0.call0.v0 main_call0.v5 (broadcastInDim S13x16384x1 ![0, 1] bcast_S13x16384_S13x16384x1_0_1),
    TRef.nullary main_call0.c_1 (constantI S1 32 99999#32),
    TRef.nullary main_call0.c_2 (constantI S_ 32 0#32),
    TRef.unary main_call0.c_2 main_call0.v6 (broadcastInDim S13x16384x1 ![] bcast_S_S13x16384x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S13x16384x1 ![0, 1, 2] bcast_S1x1x1_S13x16384x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S13x16384x1_S13x16384_d2 h_S_),
    TRef.binary (.of main_arg2) main_call0.v5 main_call0.v13 (fun x i => Host.gather gather_S13x100000x16_S13x16384x1_S13x16384x16_2_1_0_0_1_2_1116 x i),
    TRef.unary main_call0.v12 main_call0.v14 (broadcastInDim S13x16384x16 ![0, 1] bcast_S13x16384_S13x16384x16_0_1),
    TRef.nullary main_call0.cst (constant S_ .f32 0x7FC00000#32),
    TRef.unary main_call0.cst main_call0.v15 (broadcastInDim S13x16384x16 ![] bcast_S_S13x16384x16),
    TRef.ternary main_call0.v14 main_call0.v13 main_call0.v15 main_call0.v16 select,
    unary main_v0 main_v1 ((transpose S16384x13x16 [1, 0, 2] · transposes_S13x16384x16_S16384x13x16_1_0_2) : (⟨S13x16384x16, .f32⟩ : BufTy).Contents (Elt F) → (⟨S16384x13x16, .f32⟩ : BufTy).Contents (Elt F)),
    reshape main_v1 main_v2 rfl shapeCasts_S16384x13x16_S16384x208,
    binary main_v2 main_arg4 main_v3 ((fun l r => Host.dotGeneral dot_S16384x208_S208x64_S16384x64_1_0_0_1_n_n none l r) : (⟨S16384x208, .f32⟩ : BufTy).Contents (Elt F) → (⟨S208x64, .f32⟩ : BufTy).Contents (Elt F) → (⟨S16384x64, .f32⟩ : BufTy).Contents (Elt F)),
    unary main_arg5 main_v4 (broadcastInDim S1x64 ![1] bcast_S64_S1x64_1 : (⟨S64, .f32⟩ : BufTy).Contents (Elt F) → (⟨S1x64, .f32⟩ : BufTy).Contents (Elt F)),
    unary main_v4 main_v5 (broadcastInDim S16384x64 ![0, 1] bcast_S1x64_S16384x64_0_1 : (⟨S1x64, .f32⟩ : BufTy).Contents (Elt F) → (⟨S16384x64, .f32⟩ : BufTy).Contents (Elt F)),
    binary main_v3 main_v5 main_v6 (addf : (⟨S16384x64, .f32⟩ : BufTy).Contents (Elt F) → (⟨S16384x64, .f32⟩ : BufTy).Contents (Elt F) → (⟨S16384x64, .f32⟩ : BufTy).Contents (Elt F)),
    TRef.nullary main_call1.cst (constant S_ .f32 0x00000000#32),
    TRef.unary main_call1.cst main_call1.v0 (broadcastInDim S16384x64 ![] bcast_S_S16384x64),
    TRef.binary (.of main_v6) main_call1.v0 main_call1.v1 maximumf,
    binary main_v7 main_arg6 main_v8 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    unary main_arg7 main_v9 (broadcastInDim S1x32 ![1] bcast_S32_S1x32_1 : (⟨S32, .f32⟩ : BufTy).Contents (Elt F) → (⟨S1x32, .f32⟩ : BufTy).Contents (Elt F)),
    unary main_v9 main_v10 (broadcastInDim S16384x32 ![0, 1] bcast_S1x32_S16384x32_0_1 : (⟨S1x32, .f32⟩ : BufTy).Contents (Elt F) → (⟨S16384x32, .f32⟩ : BufTy).Contents (Elt F)),
    binary main_v8 main_v10 main_v11 (addf : (⟨S16384x32, .f32⟩ : BufTy).Contents (Elt F) → (⟨S16384x32, .f32⟩ : BufTy).Contents (Elt F) → (⟨S16384x32, .f32⟩ : BufTy).Contents (Elt F)),
    TRef.nullary main_call2.cst (constant S_ .f32 0x00000000#32),
    TRef.unary main_call2.cst main_call2.v0 (broadcastInDim S16384x32 ![] bcast_S_S16384x32),
    TRef.binary (.of main_v11) main_call2.v0 main_call2.v1 maximumf,
    TRef.nullary main_call3.c (constantI S_ 32 0#32),
    TRef.unary main_call3.c main_call3.v0 (broadcastInDim S13x16384 ![] bcast_S_S13x16384),
    TRef.binary (.of main_arg1) main_call3.v0 main_call3.v1 (cmpi .slt),
    TRef.nullary main_call3.c_0 (constantI S_ 32 100000#32),
    TRef.unary main_call3.c_0 main_call3.v2 (broadcastInDim S13x16384 ![] bcast_S_S13x16384),
    TRef.binary (.of main_arg1) main_call3.v2 main_call3.v3 addi,
    TRef.ternary main_call3.v1 main_call3.v3 (.of main_arg1) main_call3.call0.v0 select,
    TRef.unary main_call3.call0.v0 main_call3.v5 (broadcastInDim S13x16384x1 ![0, 1] bcast_S13x16384_S13x16384x1_0_1),
    TRef.nullary main_call3.c_1 (constantI S1 32 99999#32),
    TRef.nullary main_call3.c_2 (constantI S_ 32 0#32),
    TRef.unary main_call3.c_2 main_call3.v6 (broadcastInDim S13x16384x1 ![] bcast_S_S13x16384x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S13x16384x1 ![0, 1, 2] bcast_S1x1x1_S13x16384x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S13x16384x1_S13x16384_d2 h_S_),
    TRef.binary (.of main_arg3) main_call3.v5 main_call3.v13 (fun x i => Host.gather gather_S13x100000x16_S13x16384x1_S13x16384x16_2_1_0_0_1_2_1116 x i),
    TRef.unary main_call3.v12 main_call3.v14 (broadcastInDim S13x16384x16 ![0, 1] bcast_S13x16384_S13x16384x16_0_1),
    TRef.nullary main_call3.cst (constant S_ .f32 0x7FC00000#32),
    TRef.unary main_call3.cst main_call3.v15 (broadcastInDim S13x16384x16 ![] bcast_S_S13x16384x16),
    TRef.ternary main_call3.v14 main_call3.v13 main_call3.v15 main_call3.v16 select,
    unary main_v13 main_v14 ((transpose S16384x13x16 [1, 0, 2] · transposes_S13x16384x16_S16384x13x16_1_0_2) : (⟨S13x16384x16, .f32⟩ : BufTy).Contents (Elt F) → (⟨S16384x13x16, .f32⟩ : BufTy).Contents (Elt F)),
    reshape main_v14 main_v15 rfl shapeCasts_S16384x13x16_S16384x208,
    binary main_v15 main_arg8 main_v16 ((fun l r => Host.dotGeneral dot_S16384x208_S208x64_S16384x64_1_0_0_1_n_n none l r) : (⟨S16384x208, .f32⟩ : BufTy).Contents (Elt F) → (⟨S208x64, .f32⟩ : BufTy).Contents (Elt F) → (⟨S16384x64, .f32⟩ : BufTy).Contents (Elt F)),
    unary main_arg9 main_v17 (broadcastInDim S1x64 ![1] bcast_S64_S1x64_1 : (⟨S64, .f32⟩ : BufTy).Contents (Elt F) → (⟨S1x64, .f32⟩ : BufTy).Contents (Elt F)),
    unary main_v17 main_v18 (broadcastInDim S16384x64 ![0, 1] bcast_S1x64_S16384x64_0_1 : (⟨S1x64, .f32⟩ : BufTy).Contents (Elt F) → (⟨S16384x64, .f32⟩ : BufTy).Contents (Elt F)),
    binary main_v16 main_v18 main_v19 (addf : (⟨S16384x64, .f32⟩ : BufTy).Contents (Elt F) → (⟨S16384x64, .f32⟩ : BufTy).Contents (Elt F) → (⟨S16384x64, .f32⟩ : BufTy).Contents (Elt F)),
    TRef.nullary main_call4.cst (constant S_ .f32 0x00000000#32),
    TRef.unary main_call4.cst main_call4.v0 (broadcastInDim S16384x64 ![] bcast_S_S16384x64),
    TRef.binary (.of main_v19) main_call4.v0 main_call4.v1 maximumf,
    binary main_v20 main_arg10 main_v21 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    unary main_arg11 main_v22 (broadcastInDim S1x32 ![1] bcast_S32_S1x32_1 : (⟨S32, .f32⟩ : BufTy).Contents (Elt F) → (⟨S1x32, .f32⟩ : BufTy).Contents (Elt F)),
    unary main_v22 main_v23 (broadcastInDim S16384x32 ![0, 1] bcast_S1x32_S16384x32_0_1 : (⟨S1x32, .f32⟩ : BufTy).Contents (Elt F) → (⟨S16384x32, .f32⟩ : BufTy).Contents (Elt F)),
    binary main_v21 main_v23 main_v24 (addf : (⟨S16384x32, .f32⟩ : BufTy).Contents (Elt F) → (⟨S16384x32, .f32⟩ : BufTy).Contents (Elt F) → (⟨S16384x32, .f32⟩ : BufTy).Contents (Elt F)),
    TRef.nullary main_call5.cst (constant S_ .f32 0x00000000#32),
    TRef.unary main_call5.cst main_call5.v0 (broadcastInDim S16384x32 ![] bcast_S_S16384x32),
    TRef.binary (.of main_v24) main_call5.v0 main_call5.v1 maximumf,
    reshape main_v25 main_v26 rfl shapeCasts_S16384x32_S524288,
    reshape main_v12 main_v27 rfl shapeCasts_S16384x32_S524288,
    binary main_v26 main_v26 main_v28 (mulf : (⟨S524288, .f32⟩ : BufTy).Contents (Elt F) → (⟨S524288, .f32⟩ : BufTy).Contents (Elt F) → (⟨S524288, .f32⟩ : BufTy).Contents (Elt F)),
    nullary main_cst (constant S_ .f32 0x00000000#32),
    binary main_v28 main_cst main_v29 ((fun x v => Host.reduceAdd x v reducesTo_S524288_S_d0 h_S_) : (⟨S524288, .f32⟩ : BufTy).Contents (Elt F) → (⟨S_, .f32⟩ : BufTy).Contents (Elt F) → (⟨S_, .f32⟩ : BufTy).Contents (Elt F)),
    unary main_v29 main_v30 (Host.sqrt : (⟨S_, .f32⟩ : BufTy).Contents (Elt F) → (⟨S_, .f32⟩ : BufTy).Contents (Elt F)),
    binary main_v27 main_v27 main_v31 (mulf : (⟨S524288, .f32⟩ : BufTy).Contents (Elt F) → (⟨S524288, .f32⟩ : BufTy).Contents (Elt F) → (⟨S524288, .f32⟩ : BufTy).Contents (Elt F)),
    nullary main_cst_0 (constant S_ .f32 0x00000000#32),
    binary main_v31 main_cst_0 main_v32 ((fun x v => Host.reduceAdd x v reducesTo_S524288_S_d0 h_S_) : (⟨S524288, .f32⟩ : BufTy).Contents (Elt F) → (⟨S_, .f32⟩ : BufTy).Contents (Elt F) → (⟨S_, .f32⟩ : BufTy).Contents (Elt F)),
    unary main_v32 main_v33 (Host.sqrt : (⟨S_, .f32⟩ : BufTy).Contents (Elt F) → (⟨S_, .f32⟩ : BufTy).Contents (Elt F)),
    binary main_v26 main_v27 main_v34 (mulf : (⟨S524288, .f32⟩ : BufTy).Contents (Elt F) → (⟨S524288, .f32⟩ : BufTy).Contents (Elt F) → (⟨S524288, .f32⟩ : BufTy).Contents (Elt F)),
    nullary main_cst_1 (constant S_ .f32 0x00000000#32),
    binary main_v34 main_cst_1 main_v35 ((fun x v => Host.reduceAdd x v reducesTo_S524288_S_d0 h_S_) : (⟨S524288, .f32⟩ : BufTy).Contents (Elt F) → (⟨S_, .f32⟩ : BufTy).Contents (Elt F) → (⟨S_, .f32⟩ : BufTy).Contents (Elt F)),
    binary main_v30 main_v33 main_v36 (mulf : (⟨S_, .f32⟩ : BufTy).Contents (Elt F) → (⟨S_, .f32⟩ : BufTy).Contents (Elt F) → (⟨S_, .f32⟩ : BufTy).Contents (Elt F)),
    binary main_v35 main_v36 main_v37 (Host.divf : (⟨S_, .f32⟩ : BufTy).Contents (Elt F) → (⟨S_, .f32⟩ : BufTy).Contents (Elt F) → (⟨S_, .f32⟩ : BufTy).Contents (Elt F)),
    unary main_v37 main_v38 (Host.negf : (⟨S_, .f32⟩ : BufTy).Contents (Elt F) → (⟨S_, .f32⟩ : BufTy).Contents (Elt F)),
    unary main_v38 main_v39 (Host.exp : (⟨S_, .f32⟩ : BufTy).Contents (Elt F) → (⟨S_, .f32⟩ : BufTy).Contents (Elt F)),
    nullary main_cst_2 (constant S_ .f32 0x3F800000#32),
    binary main_cst_2 main_v39 main_v40 (addf : (⟨S_, .f32⟩ : BufTy).Contents (Elt F) → (⟨S_, .f32⟩ : BufTy).Contents (Elt F) → (⟨S_, .f32⟩ : BufTy).Contents (Elt F)),
    nullary main_cst_3 (constant S_ .f32 0x3F800000#32),
    binary main_cst_3 main_v40 main_v41 (Host.divf : (⟨S_, .f32⟩ : BufTy).Contents (Elt F) → (⟨S_, .f32⟩ : BufTy).Contents (Elt F) → (⟨S_, .f32⟩ : BufTy).Contents (Elt F)),
    reshape main_v41 main_v42 rfl shapeCasts_S_S1x1 ]

set_option maxRecDepth 8192 in
set_option maxHeartbeats 4000000 in
/-- @main is that straight line: the functions' bodies unfolded at their calls and sequencing reassociated, both by
    computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    reshape_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., reshape_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    reshape_bufs_sub .., reshape_bufs_sub .., binary_bufs_sub .., nullary_bufs_sub .., binary_bufs_sub .., unary_bufs_sub ..,
    binary_bufs_sub .., nullary_bufs_sub .., binary_bufs_sub .., unary_bufs_sub .., binary_bufs_sub .., nullary_bufs_sub ..,
    binary_bufs_sub .., binary_bufs_sub .., binary_bufs_sub .., unary_bufs_sub .., unary_bufs_sub .., nullary_bufs_sub ..,
    binary_bufs_sub .., nullary_bufs_sub .., binary_bufs_sub .., reshape_bufs_sub ..⟩

/-- Every weakly fair execution of @main terminates with every TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The host program's run read at the result: the fold of @main's operations (RefOps.lean) at the result buffer is
  `refVal` (RefVal.lean) of the twelve argument arrays, and it leaves the arguments as they were.
-/
import proofs.«205816_g11845519802804_retrytranche1_1814_36_alg».proof.Proof.RefVal
import proofs.«205816_g11845519802804_retrytranche1_1814_36_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather Host.reduceAdd shapeCast transpose broadcastInDim select cmpi addi andi constantI constant maximumf addf mulf Host.divf Host.exp Host.negf Host.sqrt in
set_option maxHeartbeats 8000000 in
set_option maxRecDepth 8192 in
/-- The fold at the result buffer is `refVal` of the fold's start at the argument buffers: each operation's result
    read at its own buffer and passed over at the others, then the composed term is `refVal` unfolded. -/
theorem out_eq (V : Valuation τ sig (Elt F)) :
    after ops V (main_v42 : DevRef τ sig)
      = refVal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  after_results_simp
  rfl

set_option maxHeartbeats 2000000 in
/-- No operation writes `main_arg0`. -/
theorem main_arg0_eq (V : Valuation τ sig (Elt F)) : after ops V (main_arg0 : DevRef τ sig) = V (main_arg0 : DevRef τ sig) := by
  after_results_simp

set_option maxHeartbeats 2000000 in
/-- No operation writes `main_arg1`. -/
theorem main_arg1_eq (V : Valuation τ sig (Elt F)) : after ops V (main_arg1 : DevRef τ sig) = V (main_arg1 : DevRef τ sig) := by
  after_results_simp

set_option maxHeartbeats 2000000 in
/-- No operation writes `main_arg2`. -/
theorem main_arg2_eq (V : Valuation τ sig (Elt F)) : after ops V (main_arg2 : DevRef τ sig) = V (main_arg2 : DevRef τ sig) := by
  after_results_simp

set_option maxHeartbeats 2000000 in
/-- No operation writes `main_arg3`. -/
theorem main_arg3_eq (V : Valuation τ sig (Elt F)) : after ops V (main_arg3 : DevRef τ sig) = V (main_arg3 : DevRef τ sig) := by
  after_results_simp

set_option maxHeartbeats 2000000 in
/-- No operation writes `main_arg4`. -/
theorem main_arg4_eq (V : Valuation τ sig (Elt F)) : after ops V (main_arg4 : DevRef τ sig) = V (main_arg4 : DevRef τ sig) := by
  after_results_simp

set_option maxHeartbeats 2000000 in
/-- No operation writes `main_arg5`. -/
theorem main_arg5_eq (V : Valuation τ sig (Elt F)) : after ops V (main_arg5 : DevRef τ sig) = V (main_arg5 : DevRef τ sig) := by
  after_results_simp

set_option maxHeartbeats 2000000 in
/-- No operation writes `main_arg6`. -/
theorem main_arg6_eq (V : Valuation τ sig (Elt F)) : after ops V (main_arg6 : DevRef τ sig) = V (main_arg6 : DevRef τ sig) := by
  after_results_simp

set_option maxHeartbeats 2000000 in
/-- No operation writes `main_arg7`. -/
theorem main_arg7_eq (V : Valuation τ sig (Elt F)) : after ops V (main_arg7 : DevRef τ sig) = V (main_arg7 : DevRef τ sig) := by
  after_results_simp

set_option maxHeartbeats 2000000 in
/-- No operation writes `main_arg8`. -/
theorem main_arg8_eq (V : Valuation τ sig (Elt F)) : after ops V (main_arg8 : DevRef τ sig) = V (main_arg8 : DevRef τ sig) := by
  after_results_simp

set_option maxHeartbeats 2000000 in
/-- No operation writes `main_arg9`. -/
theorem main_arg9_eq (V : Valuation τ sig (Elt F)) : after ops V (main_arg9 : DevRef τ sig) = V (main_arg9 : DevRef τ sig) := by
  after_results_simp

set_option maxHeartbeats 2000000 in
/-- No operation writes `main_arg10`. -/
theorem main_arg10_eq (V : Valuation τ sig (Elt F)) : after ops V (main_arg10 : DevRef τ sig) = V (main_arg10 : DevRef τ sig) := by
  after_results_simp

set_option maxHeartbeats 2000000 in
/-- No operation writes `main_arg11`. -/
theorem main_arg11_eq (V : Valuation τ sig (Elt F)) : after ops V (main_arg11 : DevRef τ sig) = V (main_arg11 : DevRef τ sig) := by
  after_results_simp

/-- On every device, from any memory with zero counters: every weakly fair execution of @main terminates with the
    result buffer at `refVal` of the arguments' launch contents and the twelve arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v42).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _),
      (h c main_arg11).trans (main_arg11_eq _)⟩)
    (run_main m ρ)

end Cert.ReferenceIdeal.RefRun

end
-- ==== Proof.Spec.lean ====
/-
  The function this certificate's two programs are compared through, stated once over the twelve argument
  arrays at the ideal values (floats are extended reals, operations exact), over literal shapes: two towers
  (an embedding lookup of thirteen fields, two dense layers with a rectifier each), then the cosine of the two
  towers' flattened outputs under a logistic, in the arrangement the host program computes it.

  An index entry is read as a natural number (`BitVec.toNat`) and CLAMPED into `[0, 99999]` (`min · 99999`), so
  that every function here is total; where an entry is in range (`toNat < 100000`) the clamp is the identity
  (`emb_of_lt`).
-/
import Idealize.ShloMosaic.PureOps.Ideal
import Idealize.ShloMosaic.Lib.ValueIdx

noncomputable section

open scoped BigOperators

namespace Cert.Spec

open Idealize.ShloMosaic Idealize.ShloMosaic.ValueIdx

/-- The index arrays' shape, `[13, 16384]`: field by batch row. -/
abbrev SIdx : Shape := ⟨2, ![13, 16384]⟩
/-- The embedding tables' shape, `[13, 100000, 16]`: field, row, lane. -/
abbrev STab : Shape := ⟨3, ![13, 100000, 16]⟩
/-- The first layer's weights, `[208, 64]`. -/
abbrev SW1 : Shape := ⟨2, ![208, 64]⟩
/-- The first layer's bias, `[64]`. -/
abbrev SB1 : Shape := ⟨1, ![64]⟩
/-- The second layer's weights, `[64, 32]`. -/
abbrev SW2 : Shape := ⟨2, ![64, 32]⟩
/-- The second layer's bias, `[32]`. -/
abbrev SB2 : Shape := ⟨1, ![32]⟩
/-- The result's shape, `[1, 1]`. -/
abbrev SOut : Shape := ⟨2, ![1, 1]⟩

/-- The field of concatenated feature `j` (sixteen lanes per field). -/
abbrev fld (j : Fin 208) : Fin 13 := ⟨j.val / 16, by have := j.isLt; omega⟩
/-- The lane of concatenated feature `j` within its field's embedding row. -/
abbrev lane (j : Fin 208) : Fin 16 := ⟨j.val % 16, Nat.mod_lt _ (by decide)⟩
/-- The table row batch row `b` looks up in field `f`: the index entry read as a natural number, clamped. -/
abbrev row (idx : IVec SIdx 32) (f : Fin 13) (b : Fin 16384) : Fin 100000 :=
  ⟨min (idx (ix2 f b)).toNat 99999, by omega⟩

/-- The concatenated embedding: feature `j` of batch row `b` is lane `j % 16` of the row field `j / 16` looks up. -/
def emb (idx : IVec SIdx 32) (tab : STab.Idx → EReal) (b : Fin 16384) (j : Fin 208) : EReal :=
  tab (ix3 (fld j) (row idx (fld j) b) (lane j))

/-- Where the entry is in range the lookup reads the row it names. -/
theorem emb_of_lt (idx : IVec SIdx 32) (tab : STab.Idx → EReal) (b : Fin 16384) (j : Fin 208)
    (h : (idx (ix2 (fld j) b)).toNat < 100000) :
    emb idx tab b j = tab (ix3 (fld j) ⟨(idx (ix2 (fld j) b)).toNat, h⟩ (lane j)) := by
  unfold emb
  congr 2
  exact Fin.ext (Nat.min_eq_left (by omega))

/-- The first dense layer with its rectifier: `max (Σ_j emb(b, j) · W1(j, k) + b1(k)) 0`. -/
def hid (idx : IVec SIdx 32) (tab : STab.Idx → EReal) (W1 : SW1.Idx → EReal) (b1 : SB1.Idx → EReal)
    (b : Fin 16384) (k : Fin 64) : EReal :=
  max (∑ j : Fin 208, emb idx tab b j * W1 (ix2 j k) + b1 (ix1 k)) 0

/-- The second dense layer with its rectifier: `max (Σ_k hid(b, k) · W2(k, l) + b2(l)) 0`: one tower's output. -/
def tower (idx : IVec SIdx 32) (tab : STab.Idx → EReal) (W1 : SW1.Idx → EReal) (b1 : SB1.Idx → EReal)
    (W2 : SW2.Idx → EReal) (b2 : SB2.Idx → EReal) (b : Fin 16384) (l : Fin 32) : EReal :=
  max (∑ k : Fin 64, hid idx tab W1 b1 b k * W2 (ix2 k l) + b2 (ix1 l)) 0

/-- The inner product of two towers' outputs over the whole batch, `Σ_b Σ_l x(b, l) · y(b, l)`. -/
def dot (x y : Fin 16384 → Fin 32 → EReal) : EReal := ∑ b : Fin 16384, ∑ l : Fin 32, x b l * y b l

/-- The logistic of the cosine, as the host program arranges it: `1 / (1 + exp (−(s / (√a · √c))))` with the
    ideal instance's division, square root and exponential. -/
def logisticCos (s a c : EReal) : EReal :=
  Ideal.div 1 (1 + Ideal.exp (-(Ideal.div s (Ideal.sqrt a * Ideal.sqrt c))))

/-- THE RESULT, as one function of the twelve arguments in the programs' order: `a0`, `a1` the user and item
    index arrays, `a2`, `a3` the user and item tables, `a4 … a7` the user tower's layers, `a8 … a11` the item
    tower's. With `ou` the user tower's output and `oi` the item tower's: `s = Σ oi · ou`, `a = Σ oi²`,
    `c = Σ ou²`, and every entry of the `[1, 1]` result is `logisticCos s a c`. -/
def score (a0 a1 : IVec SIdx 32) (a2 a3 : STab.Idx → EReal)
    (a4 : SW1.Idx → EReal) (a5 : SB1.Idx → EReal) (a6 : SW2.Idx → EReal) (a7 : SB2.Idx → EReal)
    (a8 : SW1.Idx → EReal) (a9 : SB1.Idx → EReal) (a10 : SW2.Idx → EReal) (a11 : SB2.Idx → EReal) :
    SOut.Idx → EReal :=
  fun _ =>
    logisticCos (dot (tower a1 a3 a8 a9 a10 a11) (tower a0 a2 a4 a5 a6 a7))
      (dot (tower a1 a3 a8 a9 a10 a11) (tower a1 a3 a8 a9 a10 a11))
      (dot (tower a0 a2 a4 a5 a6 a7) (tower a0 a2 a4 a5 a6 a7))

end Cert.Spec

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibGatherBatchRows.lean ====
/-
  `stablehlo.gather` as a per-field row lookup lowers it, read at an index.

  For a stack of tables `x : [B, N, C]` and row numbers `idx : [B, E, 1]` — one column of row numbers per table — the
  gather with offset axis `[2]`, collapsed slice axis `[1]`, operand batching axis `[0]` paired with the start indices'
  batching axis `[0]`, start index map `[1]`, index vector axis `2` and slice sizes `[1, 1, C]` has result element
  `(f, e, k)` equal to table `f` at row `idx[f, e, 0]`, read as a signed integer and clamped into `[0, N - 1]`, and
  column `k`. It holds at every element type and every index width.
-/
import Idealize.ShloMosaic.PureOps.Ideal
import Idealize.ShloMosaic.Lib.ValueIdx

namespace Cert.Lib

open Idealize.ShloMosaic Idealize.ShloMosaic.ValueIdx

section GatherBatchRows
variable {α : Type}

/-- The dimension numbers of the per-table row lookup for tables `x : [B, N, C]`, row numbers `idx : [B, E, 1]` and
    result `[B, E, C]`. The conditions `wf` are an argument, so a record with these fields over literal shapes is this
    one by `rfl`. -/
abbrev gatherBatchRowsDims (B N E C : Nat)
    (wf : GatherDims.WF ⟨3, ![B, N, C]⟩ ⟨3, ![B, E, 1]⟩ ⟨3, ![B, E, C]⟩ [2] [1] [0] [1] [0] 2 ![1, 1, C]) :
    GatherDims ⟨3, ![B, N, C]⟩ ⟨3, ![B, E, 1]⟩ ⟨3, ![B, E, C]⟩ where
  offsetDims := [2]
  collapsedSliceDims := [1]
  operandBatchingDims := [0]
  startIndicesBatchingDims := [0]
  startIndexMap := [1]
  indexVectorDim := 2
  sliceSizes := ![1, 1, C]
  wf := wf

/-- The row of a table of `N` rows that a gather reads at the start index `v`: `v` read signed, clamped into `[0, N - 1]`. -/
theorem clampBatchRow_lt {N w : Nat} (hN : 0 < N) (v : BitVec w) : min v.toInt.toNat (N - 1) < N := by omega

/-- THE PER-TABLE ROW GATHER READ AT `(f, e, k)`: table `f` at row `idx[f, e, 0]`, read signed and clamped into
    `[0, N - 1]`, column `k`. -/
theorem gather_batch_rows_apply {B N E C w : Nat} (hN : 0 < N)
    (wf : GatherDims.WF ⟨3, ![B, N, C]⟩ ⟨3, ![B, E, 1]⟩ ⟨3, ![B, E, C]⟩ [2] [1] [0] [1] [0] 2 ![1, 1, C])
    (x : (⟨3, ![B, N, C]⟩ : Shape).Idx → α) (idx : IVec ⟨3, ![B, E, 1]⟩ w) (f : Fin B) (e : Fin E) (k : Fin C) :
    Host.gather (gatherBatchRowsDims B N E C wf) x idx (ix3 f e k)
      = x (ix3 f ⟨min (idx (ix3 f e 0)).toInt.toNat (N - 1), clampBatchRow_lt hN _⟩ k) := by
  unfold Host.gather
  congr 1
  funext a
  refine Fin.ext ?_
  match a with
  | ⟨0, _⟩ =>
    show (gatherBatchRowsDims B N E C wf).start (ix3 f e k) idx 0 + (gatherBatchRowsDims B N E C wf).batchCoord (ix3 f e k) 0
        + (gatherBatchRowsDims B N E C wf).offCoord (ix3 f e k) 0 = _
    have h0 : (0 : Fin 3) ∈ (gatherBatchRowsDims B N E C wf).operandBatchingDims := List.mem_singleton.mpr rfl
    rw [GatherDims.start_batching _ _ _ _ h0,
      GatherDims.offCoord_eq_zero _ _ _ (fun h => ((GatherDims.mem_sKept _ _).mp h).2 h0)]
    simp only [Nat.add_zero, Nat.zero_add]
    unfold GatherDims.batchCoord
    rw [dif_pos h0]
    rfl
  | ⟨1, _⟩ =>
    show (gatherBatchRowsDims B N E C wf).start (ix3 f e k) idx 1 + (gatherBatchRowsDims B N E C wf).batchCoord (ix3 f e k) 1
        + (gatherBatchRowsDims B N E C wf).offCoord (ix3 f e k) 1 = _
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gatherBatchRowsDims B N E C wf).startIndexMap from List.mem_singleton.mpr rfl)]
    have hsi : (gatherBatchRowsDims B N E C wf).siIdx (ix3 f e k) ⟨List.idxOf (1 : Fin 3) (gatherBatchRowsDims B N E C wf).startIndexMap,
        List.idxOf_lt_length_iff.2 (List.mem_singleton.mpr rfl)⟩ = ix3 f e 0 := by
      funext b; refine Fin.ext ?_
      match b with
      | ⟨0, _⟩ => rfl
      | ⟨1, _⟩ => rfl
      | ⟨2, _⟩ => rfl
    rw [hsi]
    rfl
  | ⟨2, _⟩ =>
    show (gatherBatchRowsDims B N E C wf).start (ix3 f e k) idx 2 + (gatherBatchRowsDims B N E C wf).batchCoord (ix3 f e k) 2
        + (gatherBatchRowsDims B N E C wf).offCoord (ix3 f e k) 2 = _
    rw [GatherDims.batchCoord_eq_zero _ _ _ (show (2 : Fin 3) ∉ ([0] : List (Fin 3)) by decide)]
    have hst : (gatherBatchRowsDims B N E C wf).start (ix3 f e k) idx 2 = 0 := by
      unfold GatherDims.start
      rw [dif_neg (show (2 : Fin 3) ∉ ([1] : List (Fin 3)) by decide)]
    rw [hst]
    simp only [Nat.add_zero, Nat.zero_add]
    have hk : (2 : Fin 3) ∈ (gatherBatchRowsDims B N E C wf).sKept :=
      (GatherDims.mem_sKept _ _).mpr ⟨show (2 : Fin 3) ∉ ([1] : List (Fin 3)) by decide, show (2 : Fin 3) ∉ ([0] : List (Fin 3)) by decide⟩
    unfold GatherDims.offCoord
    rw [dif_pos hk]
    rfl

end GatherBatchRows

end Cert.Lib
-- ==== Proof.RefSpec.lean ====
/-
  The host program's result IS the specification: `refVal` (RefVal.lean), the program's operations composed, equals
  `Cert.Spec.score` (Spec.lean) of the same twelve arrays wherever every index entry is in range
  (`toNat < 100000`; equivalently, read signed, `0 ≤ i ≤ 99999`, the form the program's own comparisons take).

  The steps: an in-range entry is not wrapped, passes the in-range mask, and is its own clamp, so the lookup reads the
  row it names; the transpose and reshape lay the thirteen rows side by side; a `dot_general` entry is the sum over the
  contracted coordinate; a broadcast bias reads its one coordinate; the reshape to one axis re-indexes the whole sum,
  which is then the double sum over batch row and lane.
-/
import proofs.«205816_g11845519802804_retrytranche1_1814_36_alg».proof.Proof.RefVal
import proofs.«205816_g11845519802804_retrytranche1_1814_36_alg».proof.Proof.Spec
import proofs.«205816_g11845519802804_retrytranche1_1814_36_alg».proof.Proof.LibRowOps
import proofs.«205816_g11845519802804_retrytranche1_1814_36_alg».proof.Proof.LibGatherBatchRows
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.ReferenceIdeal.RefSpec

open Cert.ReferenceIdeal Cert.ReferenceIdeal.Gen Cert.ReferenceIdeal.RefRun Idealize.ShloMosaic Idealize.ShloMosaic.ValueIdx

/-! ## Words: an index entry in range -/

/-- An in-range entry read signed is itself read unsigned. -/
theorem toInt_of_lt (v : BitVec 32) (h : v.toNat < 100000) : v.toInt = (v.toNat : Int) :=
  BitVec.toInt_eq_toNat_of_lt (by omega)

theorem toInt_toNat_of_lt (v : BitVec 32) (h : v.toNat < 100000) : v.toInt.toNat = v.toNat := by
  rw [toInt_of_lt v h]; rfl

/-- An in-range entry is not negative: the wrap's comparison is false … -/
theorem cmpi_slt_zero (v : BitVec 32) (h : v.toNat < 100000) : IntOp.cmpi .slt v 0#32 = 0#1 := by
  have hI := toInt_of_lt v h
  have h0 : (0#32 : BitVec 32).toInt = 0 := by decide
  have : v.slt 0#32 = false := by
    rw [BitVec.slt, h0, hI, decide_eq_false_iff_not]; omega
  show BitVec.ofBool (v.slt 0#32) = 0#1
  rw [this]; rfl

/-- … and the mask's two comparisons are true. -/
theorem cmpi_sge_zero (v : BitVec 32) (h : v.toNat < 100000) : IntOp.cmpi .sge v 0#32 = 1#1 := by
  have hI := toInt_of_lt v h
  have h0 : (0#32 : BitVec 32).toInt = 0 := by decide
  have : (0#32 : BitVec 32).sle v = true := by
    rw [BitVec.sle, h0, hI, decide_eq_true_iff]; omega
  show BitVec.ofBool ((0#32 : BitVec 32).sle v) = 1#1
  rw [this]; rfl

theorem cmpi_sle_max (v : BitVec 32) (h : v.toNat < 100000) : IntOp.cmpi .sle v 99999#32 = 1#1 := by
  have hI := toInt_of_lt v h
  have h0 : (99999#32 : BitVec 32).toInt = 99999 := by decide
  have : v.sle 99999#32 = true := by
    rw [BitVec.sle, h0, hI, decide_eq_true_iff]; omega
  show BitVec.ofBool (v.sle 99999#32) = 1#1
  rw [this]; rfl

/-- The other way: an entry that passes the two signed comparisons is in range. -/
theorem lt_of_cmpi (v : BitVec 32) (h0 : IntOp.cmpi .sge v 0#32 = 1#1) (h1 : IntOp.cmpi .sle v 99999#32 = 1#1) :
    v.toNat < 100000 := by
  have e0 : (0#32 : BitVec 32).toInt = 0 := by decide
  have e1 : (99999#32 : BitVec 32).toInt = 99999 := by decide
  have a0 : (0#32 : BitVec 32).sle v = true := by
    by_contra hc
    have : (0#32 : BitVec 32).sle v = false := by simpa using hc
    have h0' : BitVec.ofBool ((0#32 : BitVec 32).sle v) = 1#1 := h0
    rw [this] at h0'; exact absurd h0' (by decide)
  have a1 : v.sle 99999#32 = true := by
    by_contra hc
    have : v.sle 99999#32 = false := by simpa using hc
    have h1' : BitVec.ofBool (v.sle 99999#32) = 1#1 := h1
    rw [this] at h1'; exact absurd h1' (by decide)
  rw [BitVec.sle, e0, decide_eq_true_iff] at a0
  rw [BitVec.sle, e1, decide_eq_true_iff] at a1
  have := BitVec.toInt_eq_toNat_cond v
  have hlt := v.isLt
  split at this <;> omega

/-! ## A conjunction over an array that is all ones -/

/-- The host's `and`-reduction of an all-ones array from the initial value one is one everywhere. -/
theorem hostReduce_and_ones {s t u : Shape} {axes : List (Fin s.rank)} (x : IVec s 1) (init : IVec u 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  generalize (List.finRange s.numel).filter (fun n => h.drop (s.rowMajor.symm n) = j) = l
  induction l with
  | nil => rfl
  | cons n l ih =>
    rw [List.foldl_cons, hx]
    exact ih

/-! ## The lookup -/

/-- An in-range entry is its own start index. -/
theorem startIdx_apply (idx : IVec S13x16384 32) (f : Fin 13) (b : Fin 16384) (h : (idx (ix2 f b)).toNat < 100000) :
    startIdx (F := Ideal) idx (ix3 f b 0) = idx (ix2 f b) := by
  unfold startIdx
  rw [broadcastInDim_apply _ _ _ _ (ix2 f b) (by intro a; match a with | ⟨0, _⟩ => rfl | ⟨1, _⟩ => rfl)]
  show Scalar.select (IntOp.cmpi .slt (idx (ix2 f b)) 0#32) _ _ = _
  rw [cmpi_slt_zero _ h, select_zero]

/-- Where every entry is in range the mask is all ones. -/
theorem inRange_eq_one (idx : IVec S13x16384 32) (H : ∀ i, (idx i).toNat < 100000) (j : S13x16384.Idx) :
    inRange (F := Ideal) idx j = 1#1 := by
  unfold inRange
  refine hostReduce_and_ones _ _ _ _ (fun i => ?_) (fun _ => rfl) j
  obtain ⟨f, b, z, rfl⟩ : ∃ f b z, i = ix3 f b z := ⟨_, _, _, eq_ix3 i⟩
  obtain rfl : z = 0 := Subsingleton.elim _ _
  show IntOp.andi (IntOp.cmpi .sge (startIdx (F := Ideal) idx (ix3 f b 0)) 0#32) (IntOp.cmpi .sle (startIdx (F := Ideal) idx (ix3 f b 0)) 99999#32) = 1#1
  rw [startIdx_apply idx f b (H _), cmpi_sge_zero _ (H _), cmpi_sle_max _ (H _)]
  rfl

/-- THE LOOKUP READ AT `(f, b, e)`: table `f` at the row the entry names, lane `e`. -/
theorem takeVal_apply (tab : S13x100000x16.Idx → EReal) (idx : IVec S13x16384 32) (H : ∀ i, (idx i).toNat < 100000)
    (f : Fin 13) (b : Fin 16384) (e : Fin 16) :
    takeVal (F := Ideal) tab idx (ix3 f b e) = tab (ix3 f ⟨(idx (ix2 f b)).toNat, H _⟩ e) := by
  unfold takeVal
  rw [select_apply, broadcastInDim_apply _ _ _ _ (ix2 f b) (by intro a; match a with | ⟨0, _⟩ => rfl | ⟨1, _⟩ => rfl),
    inRange_eq_one idx H, select_one]
  show Host.gather (Cert.Lib.gatherBatchRowsDims 13 100000 16384 16
      gather_S13x100000x16_S13x16384x1_S13x16384x16_2_1_0_0_1_2_1116_wf) tab (startIdx (F := Ideal) idx) (ix3 f b e) = _
  rw [Cert.Lib.gather_batch_rows_apply (by decide)]
  congr 2
  refine Fin.ext ?_
  show min (startIdx (F := Ideal) idx (ix3 f b 0)).toInt.toNat (100000 - 1) = (idx (ix2 f b)).toNat
  rw [startIdx_apply idx f b (H _), toInt_toNat_of_lt _ (H _)]
  have := H (ix2 f b)
  omega

/-! ## The rows side by side, and the two dense layers -/

/-- The transposed and reshaped lookup at `(b, j)`: lane `j % 16` of field `j / 16`'s row for batch row `b`. -/
theorem xmat_apply (T : S13x16384x16.Idx → EReal) (b : Fin 16384) (j : Fin 208) :
    shapeCast S16384x208 (transpose S16384x13x16 [1, 0, 2] T transposes_S13x16384x16_S16384x13x16_1_0_2)
        shapeCasts_S16384x13x16_S16384x208 (ix2 b j)
      = T (ix3 (Cert.Spec.fld j) b (Cert.Spec.lane j)) := by
  rw [shapeCast_apply _ _ _ (ix3 b (Cert.Spec.fld j) (Cert.Spec.lane j)) (by
    rw [Shape.rowMajor_val_three, Shape.rowMajor_val_two]
    show (b.val * 13 + j.val / 16) * 16 + j.val % 16 = b.val * 208 + j.val
    omega)]
  exact transpose_apply _ _ _ _ _ (by intro a; match a with | ⟨0, _⟩ => rfl | ⟨1, _⟩ => rfl | ⟨2, _⟩ => rfl)

/-- The first layer's product at an entry. -/
theorem dot1_entry (X : S16384x208.Idx → EReal) (W : S208x64.Idx → EReal) (b : Fin 16384) (k : Fin 64) :
    Host.dotGeneral (F := Ideal) (φ₁ := .f32) (φ₂ := .f32) dot_S16384x208_S208x64_S16384x64_1_0_0_1_n_n none X W (ix2 b k)
      = ∑ j : Fin 208, X (ix2 b j) * W (ix2 j k) :=
  Cert.RowOps.dotGeneral_entry _ rfl rfl (fun _ _ => rfl) (fun _ _ => rfl) (fun _ _ => rfl) (fun _ _ => rfl) none X W b k

/-- The second layer's product at an entry. -/
theorem dot2_entry (X : S16384x64.Idx → EReal) (W : S64x32.Idx → EReal) (b : Fin 16384) (l : Fin 32) :
    Host.dotGeneral (F := Ideal) (φ₁ := .f32) (φ₂ := .f32) dot_S16384x64_S64x32_S16384x32_1_0_0_1_n_n none X W (ix2 b l)
      = ∑ k : Fin 64, X (ix2 b k) * W (ix2 k l) :=
  Cert.RowOps.dotGeneral_entry _ rfl rfl (fun _ _ => rfl) (fun _ _ => rfl) (fun _ _ => rfl) (fun _ _ => rfl) none X W b l

/-- The first layer's bias, broadcast over the batch rows, at an entry. -/
theorem bias1_apply (b1 : S64.Idx → EReal) (b : Fin 16384) (k : Fin 64) :
    broadcastInDim S16384x64 ![0, 1] bcast_S1x64_S16384x64_0_1 (broadcastInDim S1x64 ![1] bcast_S64_S1x64_1 b1) (ix2 b k)
      = b1 (ix1 k) := by
  rw [broadcastInDim_apply _ _ _ _ (ix2 (0 : Fin 1) k) (by intro a; match a with | ⟨0, _⟩ => rfl | ⟨1, _⟩ => rfl),
    broadcastInDim_apply _ _ _ _ (ix1 k) (by intro a; match a with | ⟨0, _⟩ => rfl)]

/-- The second layer's bias likewise. -/
theorem bias2_apply (b2 : S32.Idx → EReal) (b : Fin 16384) (l : Fin 32) :
    broadcastInDim S16384x32 ![0, 1] bcast_S1x32_S16384x32_0_1 (broadcastInDim S1x32 ![1] bcast_S32_S1x32_1 b2) (ix2 b l)
      = b2 (ix1 l) := by
  rw [broadcastInDim_apply _ _ _ _ (ix2 (0 : Fin 1) l) (by intro a; match a with | ⟨0, _⟩ => rfl | ⟨1, _⟩ => rfl),
    broadcastInDim_apply _ _ _ _ (ix1 l) (by intro a; match a with | ⟨0, _⟩ => rfl)]

/-- The zero splat broadcast to any shape reads the extended real zero. -/
theorem zero_bcast_apply {s : Shape} (h : S_.BroadcastsInDim s (![] : Fin 0 → Fin s.rank)) (i : s.Idx) :
    broadcastInDim s ![] h (constant (F := Ideal) S_ .f32 0x00000000#32) i = (0 : EReal) := by
  rw [broadcastInDim_apply _ _ _ _ ix0 (fun a => a.elim0), constant_apply, Ideal.ofBits_zero_f32]

/-- The first layer's output, as it stands inside `towerVal`. -/
def hidVal (tab : S13x100000x16.Idx → EReal) (idx : IVec S13x16384 32) (W1 : S208x64.Idx → EReal) (b1 : S64.Idx → EReal) :
    S16384x64.Idx → EReal :=
  maximumf (F := Ideal) (φ := .f32)
    (addf
      (Host.dotGeneral (φ₁ := .f32) (φ₂ := .f32) dot_S16384x208_S208x64_S16384x64_1_0_0_1_n_n none
        (shapeCast S16384x208 (transpose S16384x13x16 [1, 0, 2] (takeVal (F := Ideal) tab idx) transposes_S13x16384x16_S16384x13x16_1_0_2)
          shapeCasts_S16384x13x16_S16384x208) W1)
      (broadcastInDim S16384x64 ![0, 1] bcast_S1x64_S16384x64_0_1 (broadcastInDim S1x64 ![1] bcast_S64_S1x64_1 b1)))
    (broadcastInDim S16384x64 ![] bcast_S_S16384x64 (constant S_ .f32 0x00000000#32))

/-- The first layer at an entry is the specification's. -/
theorem hidVal_apply (tab : S13x100000x16.Idx → EReal) (idx : IVec S13x16384 32) (W1 : S208x64.Idx → EReal) (b1 : S64.Idx → EReal)
    (H : ∀ i, (idx i).toNat < 100000) (b : Fin 16384) (k : Fin 64) :
    hidVal tab idx W1 b1 (ix2 b k) = Cert.Spec.hid idx tab W1 b1 b k := by
  unfold hidVal Cert.Spec.hid
  rw [maximumf_apply, addf_apply, dot1_entry, bias1_apply, zero_bcast_apply]
  refine congrArg (fun t : EReal => max (t + b1 (ix1 k)) (0 : EReal)) (Finset.sum_congr rfl fun j _ => ?_)
  rw [xmat_apply, takeVal_apply tab idx H, Cert.Spec.emb_of_lt idx tab b j (H _)]

set_option maxRecDepth 8192 in
/-- One tower at an entry is the specification's. -/
theorem towerVal_apply (tab : S13x100000x16.Idx → EReal) (idx : IVec S13x16384 32) (W1 : S208x64.Idx → EReal) (b1 : S64.Idx → EReal)
    (W2 : S64x32.Idx → EReal) (b2 : S32.Idx → EReal) (H : ∀ i, (idx i).toNat < 100000) (b : Fin 16384) (l : Fin 32) :
    towerVal (F := Ideal) tab idx W1 b1 W2 b2 (ix2 b l) = Cert.Spec.tower idx tab W1 b1 W2 b2 b l := by
  show maximumf (F := Ideal) (φ := .f32) (addf (Host.dotGeneral (φ₁ := .f32) (φ₂ := .f32) dot_S16384x64_S64x32_S16384x32_1_0_0_1_n_n none (hidVal tab idx W1 b1) W2)
      (broadcastInDim S16384x32 ![0, 1] bcast_S1x32_S16384x32_0_1 (broadcastInDim S1x32 ![1] bcast_S32_S1x32_1 b2)))
    (broadcastInDim S16384x32 ![] bcast_S_S16384x32 (constant S_ .f32 0x00000000#32)) (ix2 b l) = _
  unfold Cert.Spec.tower
  rw [maximumf_apply, addf_apply, dot2_entry, bias2_apply, zero_bcast_apply]
  refine congrArg (fun t : EReal => max (t + b2 (ix1 l)) (0 : EReal)) (Finset.sum_congr rfl fun k _ => ?_)
  rw [hidVal_apply tab idx W1 b1 H]

/-! ## The sums over the flattened outputs -/

/-- The sum of products of two flattened `[16384, 32]` arrays is the double sum over batch row and lane. -/
theorem flat_sum (X Y : S16384x32.Idx → EReal) (j : S_.Idx) :
    Host.reduceAdd (F := Ideal) (φ := .f32)
        (mulf (shapeCast S524288 X shapeCasts_S16384x32_S524288) (shapeCast S524288 Y shapeCasts_S16384x32_S524288))
        (constant S_ .f32 0x00000000#32) reducesTo_S524288_S_d0 h_S_ j
      = ∑ b : Fin 16384, ∑ l : Fin 32, X (ix2 b l) * Y (ix2 b l) := by
  show Ideal.hostReduceAdd reducesTo_S524288_S_d0 _ (Ideal.ofBits .f32 0x00000000#32) j = _
  rw [Ideal.hostReduceAdd_total _ (fun b => b.elim0), Ideal.ofBits_zero_f32, zero_add, ← sum_idx2 (fun i => X i * Y i)]
  exact Equiv.sum_comp (Shape.reshapeEquiv shapeCasts_S16384x32_S524288) (fun k => X k * Y k)

/-- The f32 pattern of one is the extended real one. -/
theorem ofBits_one_f32 : Ideal.ofBits .f32 0x3F800000#32 = 1 := IdealRules.sign_bit.ideal_onePat .f32

/-- The host's elementwise operations at an index, at the ideal values. -/
theorem hostDivf_apply {s : Shape} {φ : FTy} (x y : FVec Ideal s φ) (i : s.Idx) : Host.divf x y i = Ideal.div (x i) (y i) := rfl
theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl
theorem hostSqrt_apply {s : Shape} {φ : FTy} (x : FVec Ideal s φ) (i : s.Idx) : Host.sqrt x i = Ideal.sqrt (x i) := rfl

/-- The scalar reshaped to `[1, 1]` reads the scalar. -/
theorem scalar_cast_apply (x : S_.Idx → EReal) (j : S1x1.Idx) : shapeCast S1x1 x shapeCasts_S_S1x1 j = x ix0 :=
  congrArg x (eq_ix0 _)

/-! ## The result -/

set_option maxRecDepth 8192 in
/-- THE HOST PROGRAM'S RESULT IS THE SPECIFICATION wherever every index entry is in range. -/
theorem refVal_eq_score (a0 a1 : IVec S13x16384 32) (a2 a3 : S13x100000x16.Idx → EReal)
    (a4 : S208x64.Idx → EReal) (a5 : S64.Idx → EReal) (a6 : S64x32.Idx → EReal) (a7 : S32.Idx → EReal)
    (a8 : S208x64.Idx → EReal) (a9 : S64.Idx → EReal) (a10 : S64x32.Idx → EReal) (a11 : S32.Idx → EReal)
    (h0 : ∀ i, (a0 i).toNat < 100000) (h1 : ∀ i, (a1 i).toNat < 100000) :
    refVal (F := Ideal) a0 a1 a2 a3 a4 a5 a6 a7 a8 a9 a10 a11 = Cert.Spec.score a0 a1 a2 a3 a4 a5 a6 a7 a8 a9 a10 a11 := by
  funext j
  unfold refVal cosVal
  rw [scalar_cast_apply, hostDivf_apply, constant_apply, addf_apply, constant_apply, hostExp_apply, hostNegf_apply,
    hostDivf_apply, mulf_apply, hostSqrt_apply, hostSqrt_apply, flat_sum, flat_sum, flat_sum, ofBits_one_f32]
  unfold Cert.Spec.score Cert.Spec.logisticCos Cert.Spec.dot
  simp only [towerVal_apply _ _ _ _ _ _ h0, towerVal_apply _ _ _ _ _ _ h1]

end Cert.ReferenceIdeal.RefSpec

end
-- ==== Proof.LibRealEntries.lean ====
/-
  Extended reals that are real numbers, and the operations that keep them so.

  At the ideal instance a float is an extended real. Several operations can only produce a real number,
  whatever they are given: the logistic function maps every extended real into [0, 1]; a finite sum of
  reals is real; an accumulating scatter into an array of reals by updates that are reals is an array of
  reals (each element is the old element plus a finite sum of updates); the larger of a real and one is a
  positive real; and a real divided by a real that is not zero is real. This file proves those facts, with
  the bit patterns of one, zero and minus infinity read as extended reals.
-/
import Idealize.ShloMosaic.PureOps.Ideal.Laws
import Idealize.ShloMosaic.Lib.IdealHost

noncomputable section

namespace Cert.Lib.RealEntries

open Idealize.ShloMosaic
open scoped BigOperators

/-- An extended real that is a real number (neither infinity). -/
def IsReal (x : EReal) : Prop := ∃ r : ℝ, x = (r : EReal)

/-- An extended real that is a positive real number. -/
def IsPosReal (x : EReal) : Prop := ∃ r : ℝ, 0 < r ∧ x = (r : EReal)

theorem isReal_coe (r : ℝ) : IsReal (r : EReal) := ⟨r, rfl⟩

theorem isReal_zero : IsReal 0 := ⟨0, rfl⟩

theorem isReal_one : IsReal 1 := ⟨1, rfl⟩

theorem IsPosReal.isReal {x : EReal} (h : IsPosReal x) : IsReal x := by
  obtain ⟨r, -, e⟩ := h
  exact ⟨r, e⟩

/-- The logistic function of ANY extended real is a real number: 0 at minus infinity, 1 at plus
    infinity, and 1 / (1 + e^(-r)) at a real r. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is real. -/
theorem isReal_sum {ι : Type*} (s : Finset ι) (f : ι → EReal) (h : ∀ j ∈ s, IsReal (f j)) :
    IsReal (∑ j ∈ s, f j) := by
  classical
  induction s using Finset.induction_on with
  | empty => rw [Finset.sum_empty]; exact isReal_zero
  | insert a s ha ih =>
    rw [Finset.sum_insert ha]
    exact (h a (Finset.mem_insert_self a s)).add (ih fun j hj => h j (Finset.mem_insert_of_mem hj))

/-- An accumulating scatter of real updates into an array of reals is an array of reals: each element is
    the old element plus the finite sum of the updates landing on it. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- The larger of a real and one is a positive real. -/
theorem isPosReal_max_one {x : EReal} (hx : IsReal x) : IsPosReal (max x 1) := by
  obtain ⟨a, rfl⟩ := hx
  refine ⟨max a 1, lt_of_lt_of_le one_pos (le_max_right a 1), ?_⟩
  rw [← EReal.coe_one]
  exact (EReal.coe_strictMono.monotone.map_max (a := a) (b := 1)).symm

/-- A real divided by a positive real is real. -/
theorem isReal_div {x y : EReal} (hx : IsReal x) (hy : IsPosReal y) : IsReal (Ideal.div x y) := by
  obtain ⟨a, rfl⟩ := hx
  obtain ⟨b, hb, rfl⟩ := hy
  rw [Ideal.div_coe hb.ne']
  exact ⟨a * (1 / b), (EReal.coe_mul a (1 / b)).symm⟩

/-- The f32 pattern of minus infinity is the bottom extended real. -/
theorem ofBits_neg_inf_f32 : Ideal.ofBits .f32 0xFF800000#32 = ⊥ := by
  simp [Ideal.ofBits, Ideal.ieee]

end Cert.Lib.RealEntries

end
-- ==== Proof.LibRealArith.lean ====
/-
  Arithmetic that keeps an extended real a real number.

  At the ideal instance a float is an extended real, and an algebraic identity between two programs is often valid
  only where every entry is a real number. This file continues the facts of extended reals that are real numbers: a
  product, a difference, a negation and a maximum of reals are real; a product of positive reals is a positive real;
  the reciprocal square root of a positive real is a positive real (at zero it is plus infinity and at a negative real a
  junk value, so positivity is what is needed); a natural number at least one is a positive real; the f32 pattern of
  zero is real; a finite sum of products of reals, in particular an entry of a matrix product, is real; a sum of ones
  over a finite set is the number of its elements. Last, two operations that only move entries: every entry of a gather
  and every entry of a broadcast is an entry of the operand, so a property of all the operand's entries passes to all
  of theirs, whatever the index arrays hold.
-/
import Idealize.ShloMosaic.PureOps.Ideal.Laws
import Idealize.ShloMosaic.Lib.IdealHost
import Idealize.ShloMosaic.Lib.ValueIdx
import proofs.«205816_g11845519802804_retrytranche1_1814_36_alg».proof.Proof.LibRealEntries

noncomputable section

namespace Cert.Lib.RealEntries

open Idealize.ShloMosaic Idealize.ShloMosaic.ValueIdx
open scoped BigOperators

/-! ## Real numbers under the field operations and the maximum -/

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The negation of a real is real. -/
theorem IsReal.neg {x : EReal} (hx : IsReal x) : IsReal (-x) := by
  obtain ⟨a, rfl⟩ := hx
  exact ⟨-a, (EReal.coe_neg a).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem IsReal.max {x y : EReal} (hx : IsReal x) (hy : IsReal y) : IsReal (Max.max x y) := by
  obtain ⟨a, rfl⟩ := hx
  obtain ⟨b, rfl⟩ := hy
  exact ⟨Max.max a b, (EReal.coe_strictMono.monotone.map_max (a := a) (b := b)).symm⟩

/-- The larger of a real and zero is real. -/
theorem isReal_max_zero {x : EReal} (hx : IsReal x) : IsReal (Max.max x 0) :=
  hx.max isReal_zero

/-- A positive real is not zero. -/
theorem IsPosReal.ne_zero {x : EReal} (hx : IsPosReal x) : x ≠ 0 := by
  obtain ⟨a, ha, rfl⟩ := hx
  exact fun h => ha.ne' (EReal.coe_eq_zero.mp h)

/-- The product of two positive reals is a positive real. -/
theorem IsPosReal.mul {x y : EReal} (hx : IsPosReal x) (hy : IsPosReal y) : IsPosReal (x * y) := by
  obtain ⟨a, ha, rfl⟩ := hx
  obtain ⟨b, hb, rfl⟩ := hy
  exact ⟨a * b, mul_pos ha hb, (EReal.coe_mul a b).symm⟩

/-- The reciprocal square root of a positive real `r` is the positive real `1 / √r`. -/
theorem IsPosReal.rsqrt {x : EReal} (hx : IsPosReal x) : IsPosReal (Ideal.rsqrt x) := by
  obtain ⟨a, ha, rfl⟩ := hx
  rw [Ideal.rsqrt_coe, if_neg (not_lt.mpr ha.le), if_neg ha.ne']
  exact ⟨(Real.sqrt a)⁻¹, inv_pos.mpr (Real.sqrt_pos.mpr ha), rfl⟩

/-- A natural number at least one, as an extended real, is a positive real. -/
theorem isPosReal_natCast {k : ℕ} (hk : 1 ≤ k) : IsPosReal (((k : ℝ)) : EReal) :=
  ⟨(k : ℝ), Nat.cast_pos.mpr hk, rfl⟩

/-- A natural number, as an extended real, is real. -/
theorem isReal_natCast (k : ℕ) : IsReal (((k : ℝ)) : EReal) := ⟨(k : ℝ), rfl⟩

/-- The f32 pattern of zero is real (it is zero). -/
theorem isReal_ofBits_zero_f32 : IsReal (Ideal.ofBits .f32 0x00000000#32) := by
  rw [Ideal.ofBits_zero_f32]
  exact isReal_zero

/-! ## Sums -/

/-- A sum over a whole finite index set of products of reals is real. -/
theorem isReal_sum_mul {ι : Type*} [Fintype ι] (f g : ι → EReal) (hf : ∀ k, IsReal (f k)) (hg : ∀ k, IsReal (g k)) :
    IsReal (∑ k, f k * g k) :=
  isReal_sum _ _ fun k _ => (hf k).mul (hg k)

/-- AN ENTRY OF A MATRIX PRODUCT OF REAL MATRICES IS REAL: if every entry of `x : [M, K]` and of `w : [K, Q]` is real,
    so is `∑ k, x[r, k] * w[k, q]`. -/
theorem isReal_matmul_entry {M K Q : ℕ} (x : (⟨2, ![M, K]⟩ : Shape).Idx → EReal) (w : (⟨2, ![K, Q]⟩ : Shape).Idx → EReal)
    (hx : ∀ (r : Fin M) (k : Fin K), IsReal (x (ix2 r k))) (hw : ∀ (k : Fin K) (q : Fin Q), IsReal (w (ix2 k q)))
    (r : Fin M) (q : Fin Q) : IsReal (∑ k : Fin K, x (ix2 r k) * w (ix2 k q)) :=
  isReal_sum_mul _ _ (fun k => hx r k) (fun k => hw k q)

/-- A sum of ones over a finite set is the number of its elements. -/
theorem sum_one_eq_card {ι : Type*} (s : Finset ι) : (∑ _e ∈ s, (1 : EReal)) = ((s.card : ℝ) : EReal) := by
  classical
  induction s using Finset.induction_on with
  | empty => rw [Finset.sum_empty, Finset.card_empty, Nat.cast_zero, EReal.coe_zero]
  | insert a s ha ih =>
    rw [Finset.sum_insert ha, ih, Finset.card_insert_of_notMem ha, Nat.cast_add, Nat.cast_one, EReal.coe_add,
      EReal.coe_one, add_comm]

/-- A sum, over a finite set, of terms each equal to one is the number of the set's elements. -/
theorem sum_eq_card_of_eq_one {ι : Type*} (s : Finset ι) (f : ι → EReal) (h : ∀ e ∈ s, f e = 1) :
    ∑ e ∈ s, f e = ((s.card : ℝ) : EReal) := by
  rw [Finset.sum_congr rfl h]
  exact sum_one_eq_card s

/-! ## Operations that only move entries -/

/-- Every entry of a gather is an entry of its operand, whatever the start indices are (they are clamped). So what
    holds of every entry of the operand holds of every entry of the gather. -/
theorem gather_forall {α : Type} {P : α → Prop} {s si t : Shape} {w : Nat} (d : GatherDims s si t) (x : s.Idx → α)
    (idx : IVec si w) (hx : ∀ k, P (x k)) (j : t.Idx) : P (Host.gather d x idx j) :=
  hx _

/-- Every entry of a `broadcast_in_dim` is an entry of its operand. So what holds of every entry of the operand holds of
    every entry of the broadcast. -/
theorem broadcastInDim_forall {α : Type} {P : α → Prop} {s t : Shape} (dims : Fin s.rank → Fin t.rank)
    (h : s.BroadcastsInDim t dims) (x : s.Idx → α) (hx : ∀ k, P (x k)) (j : t.Idx) : P (broadcastInDim t dims h x j) :=
  hx _

/-- The host's reciprocal square root at an index is the ideal instance's of the element. -/
theorem hostRsqrt_apply {s : Shape} {φ : FTy} (x : FVec Ideal s φ) (i : s.Idx) :
    Host.rsqrt (F := Ideal) x i = Ideal.rsqrt (x i) := rfl

/-- The host's reciprocal square root of an array of positive reals is an array of positive reals. -/
theorem isPosReal_hostRsqrt {s : Shape} {φ : FTy} (x : FVec Ideal s φ) (i : s.Idx) (hx : IsPosReal (x i)) :
    IsPosReal (Host.rsqrt (F := Ideal) x i) := by
  rw [hostRsqrt_apply]
  exact hx.rsqrt

/-- The product of two arrays of reals, read at an index, is real. -/
theorem isReal_mulf {s : Shape} {φ : FTy} (a b : FVec Ideal s φ) (i : s.Idx) (ha : IsReal (a i)) (hb : IsReal (b i)) :
    IsReal (mulf a b i) := by
  rw [mulf_apply]
  exact ha.mul hb

end Cert.Lib.RealEntries

end
-- ==== Proof.SpecReal.lean ====
/-
  The specification on real inputs. Where every entry of the tables, weights and biases is a real number, every
  embedding, hidden and tower entry is real, the three sums over the batch are real and the two sums of squares are not
  negative; on such sums the square root of a product is the product of the square roots, so the cosine may be written
  with one square root of the product of the two sums of squares — and `0 - x` for `-x`, the factors of the inner
  product in either order.
-/
import proofs.«205816_g11845519802804_retrytranche1_1814_36_alg».proof.Proof.Spec
import proofs.«205816_g11845519802804_retrytranche1_1814_36_alg».proof.Proof.LibRealEntries
import proofs.«205816_g11845519802804_retrytranche1_1814_36_alg».proof.Proof.LibRealArith

noncomputable section

open scoped BigOperators

namespace Cert.Spec

open Idealize.ShloMosaic Idealize.ShloMosaic.ValueIdx Cert.Lib.RealEntries

/-! ## Real entries -/

theorem emb_isReal (idx : IVec SIdx 32) (tab : STab.Idx → EReal) (htab : ∀ i, IsReal (tab i)) (b : Fin 16384) (j : Fin 208) :
    IsReal (emb idx tab b j) := htab _

theorem hid_isReal (idx : IVec SIdx 32) (tab : STab.Idx → EReal) (W1 : SW1.Idx → EReal) (b1 : SB1.Idx → EReal)
    (htab : ∀ i, IsReal (tab i)) (hW1 : ∀ i, IsReal (W1 i)) (hb1 : ∀ i, IsReal (b1 i)) (b : Fin 16384) (k : Fin 64) :
    IsReal (hid idx tab W1 b1 b k) :=
  isReal_max_zero ((isReal_sum _ _ fun j _ => (emb_isReal idx tab htab b j).mul (hW1 _)).add (hb1 _))

theorem tower_isReal (idx : IVec SIdx 32) (tab : STab.Idx → EReal) (W1 : SW1.Idx → EReal) (b1 : SB1.Idx → EReal)
    (W2 : SW2.Idx → EReal) (b2 : SB2.Idx → EReal)
    (htab : ∀ i, IsReal (tab i)) (hW1 : ∀ i, IsReal (W1 i)) (hb1 : ∀ i, IsReal (b1 i)) (hW2 : ∀ i, IsReal (W2 i))
    (hb2 : ∀ i, IsReal (b2 i)) (b : Fin 16384) (l : Fin 32) :
    IsReal (tower idx tab W1 b1 W2 b2 b l) :=
  isReal_max_zero ((isReal_sum _ _ fun k _ => (hid_isReal idx tab W1 b1 htab hW1 hb1 b k).mul (hW2 _)).add (hb2 _))

/-! ## The sums over the batch -/

theorem dot_isReal (x y : Fin 16384 → Fin 32 → EReal) (hx : ∀ b l, IsReal (x b l)) (hy : ∀ b l, IsReal (y b l)) :
    IsReal (dot x y) :=
  isReal_sum _ _ fun b _ => isReal_sum _ _ fun l _ => (hx b l).mul (hy b l)

/-- The square of a real is not negative. -/
theorem mul_self_nonneg_of_isReal {x : EReal} (hx : IsReal x) : 0 ≤ x * x := by
  obtain ⟨r, rfl⟩ := hx
  rw [← EReal.coe_mul]
  exact EReal.coe_nonneg.mpr (mul_self_nonneg r)

theorem dot_self_nonneg (x : Fin 16384 → Fin 32 → EReal) (hx : ∀ b l, IsReal (x b l)) : 0 ≤ dot x x :=
  Finset.sum_nonneg fun b _ => Finset.sum_nonneg fun l _ => mul_self_nonneg_of_isReal (hx b l)

/-- The inner product does not depend on the order of its factors. -/
theorem dot_comm (x y : Fin 16384 → Fin 32 → EReal) : dot x y = dot y x :=
  Finset.sum_congr rfl fun b _ => Finset.sum_congr rfl fun l _ => mul_comm _ _

/-! ## The square root of a product -/

/-- On reals that are not negative the square root of a product is the product of the square roots. -/
theorem sqrt_mul_of_real {a c : EReal} (ha : IsReal a) (hc : IsReal c) (ha0 : 0 ≤ a) (hc0 : 0 ≤ c) :
    Ideal.sqrt (c * a) = Ideal.sqrt a * Ideal.sqrt c := by
  obtain ⟨ra, rfl⟩ := ha
  obtain ⟨rc, rfl⟩ := hc
  have hra : 0 ≤ ra := EReal.coe_nonneg.mp ha0
  have hrc : 0 ≤ rc := EReal.coe_nonneg.mp hc0
  rw [← EReal.coe_mul, Ideal.sqrt_coe, Ideal.sqrt_coe, Ideal.sqrt_coe, if_neg (not_lt.mpr (mul_nonneg hrc hra)),
    if_neg (not_lt.mpr hra), if_neg (not_lt.mpr hrc), ← EReal.coe_mul, Real.sqrt_mul hrc, mul_comm]

/-- Zero minus an extended real is its negation. -/
theorem zero_sub_ereal (x : EReal) : 0 - x = -x := by
  rw [sub_eq_add_neg, zero_add]

/-- The logistic of the cosine with ONE square root of the product of the two sums of squares, and `0 - x`. -/
theorem logisticCos_one_sqrt (s : EReal) {a c : EReal} (ha : IsReal a) (hc : IsReal c) (ha0 : 0 ≤ a) (hc0 : 0 ≤ c) :
    Ideal.div 1 (1 + Ideal.exp (0 - Ideal.div s (Ideal.sqrt (c * a)))) = logisticCos s a c := by
  unfold logisticCos
  rw [zero_sub_ereal, sqrt_mul_of_real ha hc ha0 hc0]

/-- THE SPECIFICATION ON REAL INPUTS in the other arrangement: with `ou` the user tower and `oi` the item tower, the
    result is the logistic of `(Σ ou · oi) / √((Σ ou²) · (Σ oi²))`, written with `0 - x`. -/
theorem score_one_sqrt (a0 a1 : IVec SIdx 32) (a2 a3 : STab.Idx → EReal)
    (a4 : SW1.Idx → EReal) (a5 : SB1.Idx → EReal) (a6 : SW2.Idx → EReal) (a7 : SB2.Idx → EReal)
    (a8 : SW1.Idx → EReal) (a9 : SB1.Idx → EReal) (a10 : SW2.Idx → EReal) (a11 : SB2.Idx → EReal)
    (h2 : ∀ i, IsReal (a2 i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i)) (j : SOut.Idx) :
    score a0 a1 a2 a3 a4 a5 a6 a7 a8 a9 a10 a11 j
      = Ideal.div 1 (1 + Ideal.exp (0 - Ideal.div (dot (tower a0 a2 a4 a5 a6 a7) (tower a1 a3 a8 a9 a10 a11))
          (Ideal.sqrt (dot (tower a0 a2 a4 a5 a6 a7) (tower a0 a2 a4 a5 a6 a7)
            * dot (tower a1 a3 a8 a9 a10 a11) (tower a1 a3 a8 a9 a10 a11))))) := by
  have hu : ∀ b l, IsReal (tower a0 a2 a4 a5 a6 a7 b l) := tower_isReal a0 a2 a4 a5 a6 a7 h2 h4 h5 h6 h7
  have hi : ∀ b l, IsReal (tower a1 a3 a8 a9 a10 a11 b l) := tower_isReal a1 a3 a8 a9 a10 a11 h3 h8 h9 h10 h11
  rw [logisticCos_one_sqrt _ (dot_isReal _ _ hi hi) (dot_isReal _ _ hu hu) (dot_self_nonneg _ hi) (dot_self_nonneg _ hu),
    dot_comm (tower a0 a2 a4 a5 a6 a7) (tower a1 a3 a8 a9 a10 a11)]
  rfl

end Cert.Spec

end
-- ==== Proof.LibTiledSum.lean ====
import Mathlib.Data.Fintype.BigOperators
import Mathlib.Logic.Equiv.Fin.Basic

/-!
# Sums over a grid of tiles

A table indexed by `Fin (P * a) × Fin (Q * b)` can be cut into a `P × Q` grid of tiles, each of
`a` rows and `b` columns.  Visiting the tiles in row-major order (tile `t` sits at tile-row
`t / Q` and tile-column `t % Q`) and summing each tile row by row gives the same total as summing
the whole table.

Everything is stated in an arbitrary additive commutative monoid: only associativity and
commutativity of `+` are used, never subtraction or cancellation.

## Main statements

* `TiledSum.sum_fin_mul`: a sum over `Fin (P * a)` as a double sum over `Fin P` and `Fin a`.
* `TiledSum.sum_tiles_eq_sum_of_eq`: the regrouping, with all index bounds taken as hypotheses.
* `TiledSum.sum_tiles_eq_sum`: the regrouping for `f : Fin (P * a) → Fin (Q * b) → M`.
* `TiledSum.sum_tiles_8192`: the instance `P = Q = 16`, `a = b = 512`, all numbers literal.
* `TiledSum.acc_eq_sum_range`, `TiledSum.acc_eq_sum_fin`, `TiledSum.acc_255_eq_sum_fin`:
  a running accumulator is its start value plus the sum of everything added so far.
-/

open Finset

namespace TiledSum

variable {M : Type*} [AddCommMonoid M]

/-! ### Index bounds -/

/-- If `x < P` and `r < a` then `a * x + r < P * a`: row `r` of block `x` is a row of the table. -/
theorem mul_add_lt {a P x r : ℕ} (hx : x < P) (hr : r < a) : a * x + r < P * a :=
  calc a * x + r < a * x + a := Nat.add_lt_add_left hr _
    _ = a * (x + 1) := (Nat.mul_succ a x).symm
    _ ≤ a * P := Nat.mul_le_mul_left a hx
    _ = P * a := Nat.mul_comm a P

/-- The row index `a * (t / Q) + r` of tile `t < P * Q` and local row `r < a` is below `P * a`. -/
theorem tile_row_lt {P Q a : ℕ} (t : Fin (P * Q)) (r : Fin a) :
    a * (t.val / Q) + r.val < P * a :=
  mul_add_lt (Nat.div_lt_of_lt_mul (Nat.mul_comm P Q ▸ t.isLt)) r.isLt

/-- The column index `b * (t % Q) + s` of tile `t < P * Q` and local column `s < b` is below
`Q * b`. -/
theorem tile_col_lt {P Q b : ℕ} (t : Fin (P * Q)) (s : Fin b) :
    b * (t.val % Q) + s.val < Q * b := by
  have hQ : 0 < Q := by
    rcases Nat.eq_zero_or_pos Q with h | h
    · exact absurd t.isLt (by simp [h])
    · exact h
  exact mul_add_lt (Nat.mod_lt _ hQ) s.isLt

/-! ### Splitting one index -/

/-- A sum over `Fin (P * a)` is the sum over blocks `p : Fin P` of the sums over the positions
`r : Fin a` inside the block, the element at position `r` of block `p` being `a * p + r`. -/
theorem sum_fin_mul (P a : ℕ) (G : Fin (P * a) → M) :
    ∑ i : Fin (P * a), G i =
      ∑ p : Fin P, ∑ r : Fin a, G ⟨a * p.val + r.val, mul_add_lt p.isLt r.isLt⟩ := by
  rw [← Equiv.sum_comp finProdFinEquiv G, Fintype.sum_prod_type]
  refine Finset.sum_congr rfl fun p _ => Finset.sum_congr rfl fun r _ => ?_
  exact congrArg G (Fin.ext (Nat.add_comm _ _))

/-! ### The regrouping -/

/-- **Tiled sum, bounds as hypotheses.**  Let `T = P * Q`, `N = P * a` and `N' = Q * b`.  For a
table `f : Fin N → Fin N' → M`, summing tile after tile in row-major order, each tile row by row,
gives the sum of the whole table.  The proofs `h1`, `h2` that the indices are in range are
arbitrary, so the statement applies to index terms built elsewhere. -/
theorem sum_tiles_eq_sum_of_eq {P Q a b T N N' : ℕ} (hT : T = P * Q) (hN : N = P * a)
    (hN' : N' = Q * b) (f : Fin N → Fin N' → M)
    (h1 : ∀ (t : Fin T) (r : Fin a), a * (t.val / Q) + r.val < N)
    (h2 : ∀ (t : Fin T) (s : Fin b), b * (t.val % Q) + s.val < N') :
    ∑ t : Fin T, ∑ r : Fin a, ∑ s : Fin b,
        f ⟨a * (t.val / Q) + r.val, h1 t r⟩ ⟨b * (t.val % Q) + s.val, h2 t s⟩ =
      ∑ i : Fin N, ∑ j : Fin N', f i j := by
  subst hT hN hN'
  -- Right-hand side: split the row index, then the column index.
  rw [sum_fin_mul P a (fun i => ∑ j, f i j)]
  simp only [sum_fin_mul Q b]
  -- Left-hand side: split the tile index into tile-row `p` and tile-column `q`.
  rw [sum_fin_mul P Q]
  refine Finset.sum_congr rfl fun p _ => ?_
  -- Both sides now range over `q`, `r`, `s`; bring `q` and `r` into the same order.
  rw [Finset.sum_comm]
  refine Finset.sum_congr rfl fun r _ => Finset.sum_congr rfl fun q _ =>
    Finset.sum_congr rfl fun s _ => ?_
  -- The tile `Q * p + q` has tile-row `p` and tile-column `q`.
  have hQ : 0 < Q := Nat.lt_of_le_of_lt (Nat.zero_le _) q.isLt
  have hdiv : (Q * p.val + q.val) / Q = p.val := by
    rw [Nat.mul_add_div hQ, Nat.div_eq_of_lt q.isLt, Nat.add_zero]
  have hmod : (Q * p.val + q.val) % Q = q.val := by
    rw [Nat.mul_add_mod, Nat.mod_eq_of_lt q.isLt]
  congr 1 <;> apply Fin.ext <;> simp only [hdiv, hmod]

/-- **Tiled sum.**  For `f : Fin (P * a) → Fin (Q * b) → M`, the sum over the `P * Q` tiles in
row-major order (tile `t` at tile-row `t / Q`, tile-column `t % Q`), each tile summed row by row,
is the sum of the whole table. -/
theorem sum_tiles_eq_sum (P Q a b : ℕ) (f : Fin (P * a) → Fin (Q * b) → M) :
    ∑ t : Fin (P * Q), ∑ r : Fin a, ∑ s : Fin b,
        f ⟨a * (t.val / Q) + r.val, tile_row_lt t r⟩ ⟨b * (t.val % Q) + s.val, tile_col_lt t s⟩ =
      ∑ i : Fin (P * a), ∑ j : Fin (Q * b), f i j :=
  sum_tiles_eq_sum_of_eq rfl rfl rfl f _ _

/-- **Tiled sum of an `8192 × 8192` table** cut into a `16 × 16` grid of `512 × 512` tiles.  The
range proofs `h1`, `h2` are arbitrary.  It follows from the general statement by the equalities
`256 = 16 * 16` and `8192 = 16 * 512` of the bounds alone; nothing is enumerated. -/
theorem sum_tiles_8192 (f : Fin 8192 → Fin 8192 → M)
    (h1 : ∀ (t : Fin 256) (r : Fin 512), 512 * (t.val / 16) + r.val < 8192)
    (h2 : ∀ (t : Fin 256) (s : Fin 512), 512 * (t.val % 16) + s.val < 8192) :
    ∑ t : Fin 256, ∑ r : Fin 512, ∑ s : Fin 512,
        f ⟨512 * (t.val / 16) + r.val, h1 t r⟩ ⟨512 * (t.val % 16) + s.val, h2 t s⟩ =
      ∑ i : Fin 8192, ∑ j : Fin 8192, f i j :=
  sum_tiles_eq_sum_of_eq (P := 16) (Q := 16) (a := 512) (b := 512) (T := 256) (N := 8192)
    (N' := 8192) (by rfl) (by rfl) (by rfl) f h1 h2

/-! ### A running accumulator -/

/-- An accumulator that starts at `z + g 0` and adds `g (n + 1)` at step `n + 1` holds, after step
`n`, the start value `z` plus the sum of `g 0, …, g n`. -/
theorem acc_eq_sum_range (z : M) (g acc : ℕ → M) (h0 : acc 0 = z + g 0)
    (hs : ∀ n, acc (n + 1) = acc n + g (n + 1)) (n : ℕ) :
    acc n = z + ∑ t ∈ Finset.range (n + 1), g t := by
  induction n with
  | zero => rw [h0, Finset.sum_range_one]
  | succ k ih => rw [hs, ih, Finset.sum_range_succ g (k + 1), add_assoc]

/-- The accumulator after step `n`, as a sum over `Fin (n + 1)`. -/
theorem acc_eq_sum_fin (z : M) (g acc : ℕ → M) (h0 : acc 0 = z + g 0)
    (hs : ∀ n, acc (n + 1) = acc n + g (n + 1)) (n : ℕ) :
    acc n = z + ∑ t : Fin (n + 1), g t.val := by
  rw [acc_eq_sum_range z g acc h0 hs n, Fin.sum_univ_eq_sum_range]

/-- The accumulator after step `255`, as a sum over `Fin 256`. -/
theorem acc_255_eq_sum_fin (z : M) (g acc : ℕ → M) (h0 : acc 0 = z + g 0)
    (hs : ∀ n, acc (n + 1) = acc n + g (n + 1)) :
    acc 255 = z + ∑ t : Fin 256, g t.val :=
  acc_eq_sum_fin z g acc h0 hs 255

end TiledSum
-- ==== Proof.TcScoreIdeal.lean ====
/-
  The inner region's value at the ideal values, in closed form. The region's sixteen grid points each take one block of
  1024 batch rows of the two gathered arrays, run both towers on it (two matrix products into a zero accumulator, a
  bias column and a rectifier after each), and add three sums over the block — the towers' inner product and their two
  sums of squares — to three scratch words; the last point divides the first word by the square root of the product of
  the other two and takes the logistic. Read at the extended reals: a tower entry of a block is the tower entry of the
  whole array at that batch row; a block's sum is a double sum over lanes and the block's rows; the sixteen
  accumulations are the sums over all 16384 batch rows.
-/
import proofs.«205816_g11845519802804_retrytranche1_1814_36_alg».proof.Proof.TcValue
import proofs.«205816_g11845519802804_retrytranche1_1814_36_alg».proof.Proof.LibRowOps
import proofs.«205816_g11845519802804_retrytranche1_1814_36_alg».proof.Proof.LibTiledSum
import Idealize.ShloMosaic.PureOps.Ideal.Laws
import Idealize.ShloMosaic.Lib.ValueIdx
import Idealize.ShloMosaic.Lib.Pipeline.Value

noncomputable section

open scoped BigOperators

namespace Cert.KernelIdeal.Tc

open Cert.KernelIdeal Cert.KernelIdeal.Gen
open Idealize.ShloMosaic Idealize.ShloMosaic.ValueIdx

/-! ## The closed form -/

/-- The first layer of a tower at batch row `b`, unit `k`, over the gathered array `[field, lane, batch row]`, the
    transposed weights and the bias column: weight first, bias after the sum, then the rectifier. -/
def hidI (A : Vec Ideal S13x16x16384 .f32) (W1T : Vec Ideal S64x208 .f32) (b1 : Vec Ideal S64x1 .f32) (b : Fin 16384) (k : Fin 64) : EReal :=
  max ((∑ j : Fin 208, W1T (ix2 k j) * A (ix3 (⟨j.val / 16, by have := j.isLt; omega⟩ : Fin 13) (⟨j.val % 16, Nat.mod_lt _ (by decide)⟩ : Fin 16) b)) + b1 (ix2 k (0 : Fin 1))) 0

/-- The second layer likewise: one tower's output at batch row `b`, unit `l`. -/
def towI (A : Vec Ideal S13x16x16384 .f32) (W1T : Vec Ideal S64x208 .f32) (b1 : Vec Ideal S64x1 .f32) (W2T : Vec Ideal S32x64 .f32) (b2 : Vec Ideal S32x1 .f32) (b : Fin 16384) (l : Fin 32) : EReal :=
  max ((∑ k : Fin 64, W2T (ix2 l k) * hidI A W1T b1 b k) + b2 (ix2 l (0 : Fin 1))) 0

/-- The inner product of two towers' outputs over the whole batch. -/
def dotI (x y : Fin 16384 → Fin 32 → EReal) : EReal := ∑ b : Fin 16384, ∑ l : Fin 32, x b l * y b l

/-! ## The scalar operations and the two constant words at the extended reals -/

theorem s_mulf (x y : Ideal .f32) : Scalar.mulf x y = x * y := rfl
theorem s_addf (x y : Ideal .f32) : Scalar.addf x y = x + y := rfl
theorem s_subf (x y : Ideal .f32) : Scalar.subf x y = x - y := rfl
theorem s_divf (x y : Ideal .f32) : Scalar.divf x y = Ideal.div x y := rfl
theorem s_sqrt (x : Ideal .f32) : Scalar.sqrt x = Ideal.sqrt x := rfl
theorem s_exp (x : Ideal .f32) : Scalar.exp x = Ideal.exp x := rfl
theorem s_zero : (Scalar.ofBits .f32 0x00000000#32 : Ideal .f32) = (0 : EReal) := Ideal.ofBits_zero_f32
theorem s_one : (Scalar.ofBits .f32 0x3F800000#32 : Ideal .f32) = (1 : EReal) := IdealRules.sign_bit.ideal_onePat .f32

/-- The last point's word: the logistic of the first scratch word over the square root of the product of the other two. -/
theorem k1_pay1_ideal (s0 s1 s2 : EReal) :
    k1_pay1 (F := Ideal) s0 s1 s2 = Ideal.div 1 (1 + Ideal.exp (0 - Ideal.div s0 (Ideal.sqrt (s1 * s2)))) := by
  simp only [k1_pay1, s_mulf, s_sqrt, s_divf, s_zero, s_subf, s_exp, s_one, s_addf]

/-! ## A tower of one block -/

/-- The block laid out `[208, 1024]` at `(j, c)`: field `j / 16`, lane `j % 16`, row `c` of the block. -/
theorem xblk_apply (e : Vec Ideal S13x16x1024 .f32) (h : S13x16x1024.ShapeCasts S208x1024) (j : Fin 208) (c : Fin 1024) :
    shapeCast S208x1024 e h (ix2 j c)
      = e (ix3 (⟨j.val / 16, by have := j.isLt; omega⟩ : Fin 13) (⟨j.val % 16, Nat.mod_lt _ (by decide)⟩ : Fin 16) c) :=
  shapeCast_apply e h _ _ (by
    rw [Shape.rowMajor_val_three, Shape.rowMajor_val_two]
    show (j.val / 16 * 16 + j.val % 16) * 1024 + c.val = j.val * 1024 + c.val
    omega)

/-- A bias column broadcast along the block's rows reads its one coordinate. -/
theorem colbcast_apply {n : ℕ} (x : (⟨2, ![n, 1]⟩ : Shape).Idx → EReal) (h : (⟨2, ![n, 1]⟩ : Shape).Broadcasts ⟨2, ![n, 1024]⟩)
    (k : Fin n) (c : Fin 1024) : broadcastTo ⟨2, ![n, 1024]⟩ x h (ix2 k c) = x (ix2 k (0 : Fin 1)) :=
  broadcastTo_apply x h _ _ (by
    intro a
    match a with
    | ⟨0, _⟩ =>
      by_cases hn : n = 1
      · subst hn; show (k : ℕ) = if (1 : ℕ) = 1 then 0 else _; rw [if_pos rfl]; omega
      · show (k : ℕ) = if n = 1 then 0 else (k : ℕ); rw [if_neg hn]
    | ⟨1, _⟩ => rfl)

/-- The first layer of one block, as it stands inside the tower. -/
def hidB (e : Vec Ideal S13x16x1024 .f32) (W1 : Vec Ideal S64x208 .f32) (b1 : Vec Ideal S64x1 .f32) : FVec Ideal S64x1024 .f32 :=
  maximumf
    (addf
      (matmul dot_S64x208_S208x1024_S64x1024_1_0_0_1_n_n none (shapeCast S64x208 W1 shapeCasts_S64x208_S64x208 : FVec Ideal S64x208 .f32)
        (shapeCast S208x1024 (shapeCast S13x16x1024 e shapeCasts_S13x16x1024_S13x16x1024 : FVec Ideal S13x16x1024 .f32)
          shapeCasts_S13x16x1024_S208x1024 : FVec Ideal S208x1024 .f32)
        (constant S64x1024 .f32 0x00000000#32))
      (broadcastTo S64x1024 (shapeCast S64x1 b1 shapeCasts_S64x1_S64x1 : FVec Ideal S64x1 .f32) broadcasts_S64x1_S64x1024))
    (broadcast S64x1024 (Scalar.ofBits .f32 0x00000000#32 : Ideal .f32))

theorem hidB_apply (e : Vec Ideal S13x16x1024 .f32) (W1 : Vec Ideal S64x208 .f32) (b1 : Vec Ideal S64x1 .f32) (k : Fin 64) (c : Fin 1024) :
    hidB e W1 b1 (ix2 k c)
      = max ((∑ j : Fin 208, W1 (ix2 k j)
          * e (ix3 (⟨j.val / 16, by have := j.isLt; omega⟩ : Fin 13) (⟨j.val % 16, Nat.mod_lt _ (by decide)⟩ : Fin 16) c)) + b1 (ix2 k (0 : Fin 1))) 0 := by
  unfold hidB
  rw [maximumf_apply, addf_apply, shapeCast_self, shapeCast_self, shapeCast_self,
    Cert.RowOps.matmul_zero_entry _ rfl rfl (fun _ _ => rfl) (fun _ _ => rfl) (fun _ _ => rfl) (fun _ _ => rfl),
    colbcast_apply, broadcast_apply, s_zero]
  refine congrArg (fun t : EReal => max (t + b1 (ix2 k (0 : Fin 1))) (0 : EReal)) (Finset.sum_congr rfl fun j _ => ?_)
  rw [xblk_apply]

set_option maxHeartbeats 1000000 in
/-- The user tower of a block is the first layer, a product, a bias column and a rectifier. -/
theorem k1_pay2_eq (e : Vec Ideal S13x16x1024 .f32) (W1 : Vec Ideal S64x208 .f32) (b1 : Vec Ideal S64x1 .f32) (W2 : Vec Ideal S32x64 .f32)
    (b2 : Vec Ideal S32x1 .f32) :
    k1_pay2 (F := Ideal) e W1 b1 W2 b2
      = maximumf
          (addf
            (matmul dot_S32x64_S64x1024_S32x1024_1_0_0_1_n_n none (shapeCast S32x64 W2 shapeCasts_S32x64_S32x64 : FVec Ideal S32x64 .f32)
              (hidB e W1 b1) (constant S32x1024 .f32 0x00000000#32))
            (broadcastTo S32x1024 (shapeCast S32x1 b2 shapeCasts_S32x1_S32x1 : FVec Ideal S32x1 .f32) broadcasts_S32x1_S32x1024))
          (broadcast S32x1024 (Scalar.ofBits .f32 0x00000000#32 : Ideal .f32)) := rfl

/-- A TOWER ENTRY OF ONE BLOCK, at unit `l` and the block's row `c`. -/
theorem towerU_apply (e : Vec Ideal S13x16x1024 .f32) (W1 : Vec Ideal S64x208 .f32) (b1 : Vec Ideal S64x1 .f32) (W2 : Vec Ideal S32x64 .f32)
    (b2 : Vec Ideal S32x1 .f32) (l : Fin 32) (c : Fin 1024) :
    k1_pay2 (F := Ideal) e W1 b1 W2 b2 (ix2 l c)
      = max ((∑ k : Fin 64, W2 (ix2 l k)
          * max ((∑ j : Fin 208, W1 (ix2 k j)
              * e (ix3 (⟨j.val / 16, by have := j.isLt; omega⟩ : Fin 13) (⟨j.val % 16, Nat.mod_lt _ (by decide)⟩ : Fin 16) c)) + b1 (ix2 k (0 : Fin 1))) 0)
        + b2 (ix2 l (0 : Fin 1))) 0 := by
  rw [k1_pay2_eq, maximumf_apply, addf_apply, shapeCast_self, shapeCast_self,
    Cert.RowOps.matmul_zero_entry _ rfl rfl (fun _ _ => rfl) (fun _ _ => rfl) (fun _ _ => rfl) (fun _ _ => rfl),
    colbcast_apply, broadcast_apply, s_zero]
  refine congrArg (fun t : EReal => max (t + b2 (ix2 l (0 : Fin 1))) (0 : EReal)) (Finset.sum_congr rfl fun k _ => ?_)
  rw [hidB_apply]

/-- A block of the whole array at `(f, e, c)`: the array at batch row `1024 n + c`. -/
theorem blk_apply (A : Vec Ideal S13x16x16384 .f32) (n : ℕ) (hn : n < 16) (f : Fin 13) (e : Fin 16) (c : Fin 1024) :
    blk A n (ix3 f e c) = A (ix3 f e ⟨1024 * n + c.val, by have := c.isLt; omega⟩) := by
  have hb : (⟨1024 * (n % 16) + c.val, by have := c.isLt; have := Nat.mod_lt n (show 0 < 16 by decide); omega⟩ : Fin 16384)
      = ⟨1024 * n + c.val, by have := c.isLt; omega⟩ := Fin.ext (by show 1024 * (n % 16) + c.val = 1024 * n + c.val; rw [Nat.mod_eq_of_lt hn])
  show A (ix3 f e ⟨1024 * (n % 16) + c.val, _⟩) = _
  rw [hb]

/-- A TOWER ENTRY OF BLOCK `n` IS THE WHOLE ARRAY'S at batch row `1024 n + c`. -/
theorem tower_blk (A : Vec Ideal S13x16x16384 .f32) (W1 : Vec Ideal S64x208 .f32) (b1 : Vec Ideal S64x1 .f32) (W2 : Vec Ideal S32x64 .f32)
    (b2 : Vec Ideal S32x1 .f32) (n : ℕ) (hn : n < 16) (l : Fin 32) (c : Fin 1024) :
    k1_pay2 (F := Ideal) (blk A n) W1 b1 W2 b2 (ix2 l c)
      = towI A W1 b1 W2 b2 ⟨1024 * n + c.val, by have := c.isLt; omega⟩ l := by
  rw [towerU_apply]
  unfold towI hidI
  simp only [blk_apply A n hn]

/-! ## A block's sums, and the scratch words -/

/-- The sum over a block of the products of two `[32, 1024]` arrays, as the body takes it: the double sum over units and
    the block's rows. -/
theorem blockSum_apply (u v : FVec Ideal S32x1024 .f32) :
    extractAt ![0, 0, 0]
        (shapeCast S1x1x1
          (multiReduction .add [1, 2] S1 (shapeCast S1x32x1024 (mulf u v) shapeCasts_S32x1024_S1x32x1024 : FVec Ideal S1x32x1024 .f32)
            0x00000000#32 reduces_S1x32x1024_S1 (.inl rfl) rfl : FVec Ideal S1 .f32)
          shapeCasts_S1_S1x1x1 : FVec Ideal S1x1x1 .f32) inpos_S1x1x1_p0_0_0
      = ∑ l : Fin 32, ∑ c : Fin 1024, u (ix2 l c) * v (ix2 l c) := by
  refine (Ideal.multiReduction_add_total (φ := .f32) (shapeCast S1x32x1024 (mulf u v) shapeCasts_S32x1024_S1x32x1024 : FVec Ideal S1x32x1024 .f32)
    0x00000000#32 reduces_S1x32x1024_S1 (fun b => by match b with | ⟨0, _⟩ => rfl) (.inl rfl) rfl _).trans ?_
  rw [← sum_idx2 (fun i => u i * v i)]
  exact Equiv.sum_comp (Shape.reshapeEquiv shapeCasts_S32x1024_S1x32x1024) (fun k => u k * v k)

theorem k1_pay6_ideal (u : FVec Ideal S32x1024 .f32) (p q : FVec Ideal S64x1024 .f32) (W2 : Vec Ideal S32x64 .f32) (b2 : Vec Ideal S32x1 .f32)
    (acc : EReal) :
    k1_pay6 (F := Ideal) u p q W2 b2 acc = acc + ∑ l : Fin 32, ∑ c : Fin 1024, u (ix2 l c) * k1_pay5 p q W2 b2 (ix2 l c) := by
  unfold k1_pay6
  exact congrArg (acc + ·) (blockSum_apply u (k1_pay5 p q W2 b2))

theorem k1_pay7_ideal (u : FVec Ideal S32x1024 .f32) (acc : EReal) :
    k1_pay7 (F := Ideal) u acc = acc + ∑ l : Fin 32, ∑ c : Fin 1024, u (ix2 l c) * u (ix2 l c) := by
  unfold k1_pay7
  exact congrArg (acc + ·) (blockSum_apply u u)

theorem k1_pay8_ideal (p q : FVec Ideal S64x1024 .f32) (W2 : Vec Ideal S32x64 .f32) (b2 : Vec Ideal S32x1 .f32) (acc : EReal) :
    k1_pay8 (F := Ideal) p q W2 b2 acc
      = acc + ∑ l : Fin 32, ∑ c : Fin 1024, k1_pay5 p q W2 b2 (ix2 l c) * k1_pay5 p q W2 b2 (ix2 l c) := by
  unfold k1_pay8
  exact congrArg (acc + ·) (blockSum_apply (k1_pay5 p q W2 b2) (k1_pay5 p q W2 b2))

section Words

variable (A0 A1 : Vec Ideal S13x16x16384 .f32)
  (W1u : Vec Ideal S64x208 .f32) (b1u : Vec Ideal S64x1 .f32) (W2u : Vec Ideal S32x64 .f32) (b2u : Vec Ideal S32x1 .f32)
  (W1v : Vec Ideal S64x208 .f32) (b1v : Vec Ideal S64x1 .f32) (W2v : Vec Ideal S32x64 .f32) (b2v : Vec Ideal S32x1 .f32)

/-- The user tower and the item tower of block `n`. -/
abbrev uB (n : ℕ) : FVec Ideal S32x1024 .f32 := k1_pay2 (F := Ideal) (blk A0 n) W1u b1u W2u b2u
abbrev vB (n : ℕ) : FVec Ideal S32x1024 .f32 := k1_pay2 (F := Ideal) (blk A1 n) W1v b1v W2v b2v

/-- What block `n` adds to each of the three scratch words. -/
def g0 (n : ℕ) : EReal := ∑ l : Fin 32, ∑ c : Fin 1024, uB A0 W1u b1u W2u b2u n (ix2 l c) * vB A1 W1v b1v W2v b2v n (ix2 l c)
def g1 (n : ℕ) : EReal := ∑ l : Fin 32, ∑ c : Fin 1024, uB A0 W1u b1u W2u b2u n (ix2 l c) * uB A0 W1u b1u W2u b2u n (ix2 l c)
def g2 (n : ℕ) : EReal := ∑ l : Fin 32, ∑ c : Fin 1024, vB A1 W1v b1v W2v b2v n (ix2 l c) * vB A1 W1v b1v W2v b2v n (ix2 l c)

/-- One point's three updates, word by word. -/
theorem accStep_w0 (acc : Vec Ideal S3 .f32) (n : ℕ) :
    accStep acc (blk A0 n) (blk A1 n) W1u b1u W2u b2u W1v b1v W2v b2v (ix1 (0 : Fin 3))
      = acc (ix1 (0 : Fin 3)) + g0 A0 A1 W1u b1u W2u b2u W1v b1v W2v b2v n := by
  unfold accStep
  rw [if_pos (show ((ix1 (0 : Fin 3) : S3.Idx) 0).val = 0 from rfl), k1_pay6_ideal]
  rfl

theorem accStep_w1 (acc : Vec Ideal S3 .f32) (n : ℕ) :
    accStep acc (blk A0 n) (blk A1 n) W1u b1u W2u b2u W1v b1v W2v b2v (ix1 (1 : Fin 3))
      = acc (ix1 (1 : Fin 3)) + g1 A0 W1u b1u W2u b2u n := by
  unfold accStep
  rw [if_neg (show ¬ ((ix1 (1 : Fin 3) : S3.Idx) 0).val = 0 from by decide),
    if_pos (show ((ix1 (1 : Fin 3) : S3.Idx) 0).val = 1 from rfl), k1_pay7_ideal]
  rfl

theorem accStep_w2 (acc : Vec Ideal S3 .f32) (n : ℕ) :
    accStep acc (blk A0 n) (blk A1 n) W1u b1u W2u b2u W1v b1v W2v b2v (ix1 (2 : Fin 3))
      = acc (ix1 (2 : Fin 3)) + g2 A1 W1v b1v W2v b2v n := by
  unfold accStep
  rw [if_neg (show ¬ ((ix1 (2 : Fin 3) : S3.Idx) 0).val = 0 from by decide),
    if_neg (show ¬ ((ix1 (2 : Fin 3) : S3.Idx) 0).val = 1 from by decide), k1_pay8_ideal]
  rfl

theorem zero3_apply (j : S3.Idx) : zero3 (F := Ideal) j = (0 : EReal) := s_zero

/-- The scratch after point `n`: each word the sum of what the blocks `0 … n` added. -/
theorem accAt_w0 (n : ℕ) :
    accAt A0 A1 W1u b1u W2u b2u W1v b1v W2v b2v n (ix1 (0 : Fin 3))
      = 0 + ∑ t : Fin (n + 1), g0 A0 A1 W1u b1u W2u b2u W1v b1v W2v b2v t.val :=
  TiledSum.acc_eq_sum_fin 0 _ (fun n => accAt A0 A1 W1u b1u W2u b2u W1v b1v W2v b2v n (ix1 (0 : Fin 3)))
    (by show accStep zero3 (blk A0 0) (blk A1 0) W1u b1u W2u b2u W1v b1v W2v b2v (ix1 (0 : Fin 3)) = _
        rw [accStep_w0, zero3_apply])
    (fun n => by
      show accStep (accAt A0 A1 W1u b1u W2u b2u W1v b1v W2v b2v n) (blk A0 (n + 1)) (blk A1 (n + 1)) W1u b1u W2u b2u W1v b1v W2v b2v
        (ix1 (0 : Fin 3)) = _
      rw [accStep_w0]) n

theorem accAt_w1 (n : ℕ) :
    accAt A0 A1 W1u b1u W2u b2u W1v b1v W2v b2v n (ix1 (1 : Fin 3))
      = 0 + ∑ t : Fin (n + 1), g1 A0 W1u b1u W2u b2u t.val :=
  TiledSum.acc_eq_sum_fin 0 _ (fun n => accAt A0 A1 W1u b1u W2u b2u W1v b1v W2v b2v n (ix1 (1 : Fin 3)))
    (by show accStep zero3 (blk A0 0) (blk A1 0) W1u b1u W2u b2u W1v b1v W2v b2v (ix1 (1 : Fin 3)) = _
        rw [accStep_w1, zero3_apply])
    (fun n => by
      show accStep (accAt A0 A1 W1u b1u W2u b2u W1v b1v W2v b2v n) (blk A0 (n + 1)) (blk A1 (n + 1)) W1u b1u W2u b2u W1v b1v W2v b2v
        (ix1 (1 : Fin 3)) = _
      rw [accStep_w1]) n

theorem accAt_w2 (n : ℕ) :
    accAt A0 A1 W1u b1u W2u b2u W1v b1v W2v b2v n (ix1 (2 : Fin 3))
      = 0 + ∑ t : Fin (n + 1), g2 A1 W1v b1v W2v b2v t.val :=
  TiledSum.acc_eq_sum_fin 0 _ (fun n => accAt A0 A1 W1u b1u W2u b2u W1v b1v W2v b2v n (ix1 (2 : Fin 3)))
    (by show accStep zero3 (blk A0 0) (blk A1 0) W1u b1u W2u b2u W1v b1v W2v b2v (ix1 (2 : Fin 3)) = _
        rw [accStep_w2, zero3_apply])
    (fun n => by
      show accStep (accAt A0 A1 W1u b1u W2u b2u W1v b1v W2v b2v n) (blk A0 (n + 1)) (blk A1 (n + 1)) W1u b1u W2u b2u W1v b1v W2v b2v
        (ix1 (2 : Fin 3)) = _
      rw [accStep_w2]) n

end Words

/-! ## The sixteen blocks are the whole batch -/

/-- Sixteen blocks of 1024 batch rows, each summed over units then rows, are the sum over all 16384 batch rows. -/
theorem blocks_eq_dotI (X Y : Fin 16384 → Fin 32 → EReal) :
    ∑ t : Fin 16, ∑ l : Fin 32, ∑ c : Fin 1024,
        X ⟨1024 * t.val + c.val, TiledSum.mul_add_lt t.isLt c.isLt⟩ l * Y ⟨1024 * t.val + c.val, TiledSum.mul_add_lt t.isLt c.isLt⟩ l
      = dotI X Y := by
  have h := TiledSum.sum_fin_mul (M := EReal) 16 1024 (fun b : Fin 16384 => ∑ l : Fin 32, X b l * Y b l)
  refine Eq.trans ?_ h.symm
  refine Finset.sum_congr rfl fun t _ => ?_
  rw [Finset.sum_comm]

/-! ## The region's value -/

/-- THE REGION'S VALUE IN CLOSED FORM: with `U`, `V` the two towers over the whole batch,
    `1 / (1 + exp (0 - (Σ U·V) / √((Σ U·U) · (Σ V·V))))`. -/
theorem tcScore_ideal (A0 A1 : Vec Ideal S13x16x16384 .f32) (W1u : Vec Ideal S64x208 .f32) (b1u : Vec Ideal S64x1 .f32) (W2u : Vec Ideal S32x64 .f32) (b2u : Vec Ideal S32x1 .f32) (W1v : Vec Ideal S64x208 .f32) (b1v : Vec Ideal S64x1 .f32) (W2v : Vec Ideal S32x64 .f32) (b2v : Vec Ideal S32x1 .f32) :
    tcScore (F := Ideal) A0 A1 W1u b1u W2u b2u W1v b1v W2v b2v (ix2 (0 : Fin 1) (0 : Fin 1))
      = Ideal.div 1 (1 + Ideal.exp (0 - Ideal.div (dotI (towI A0 W1u b1u W2u b2u) (towI A1 W1v b1v W2v b2v))
            (Ideal.sqrt (dotI (towI A0 W1u b1u W2u b2u) (towI A0 W1u b1u W2u b2u) * dotI (towI A1 W1v b1v W2v b2v) (towI A1 W1v b1v W2v b2v))))) := by
  show k1_pay1 (F := Ideal) (accAt A0 A1 W1u b1u W2u b2u W1v b1v W2v b2v 15 (ix1 (0 : Fin 3)))
      (accAt A0 A1 W1u b1u W2u b2u W1v b1v W2v b2v 15 (ix1 (1 : Fin 3))) (accAt A0 A1 W1u b1u W2u b2u W1v b1v W2v b2v 15 (ix1 (2 : Fin 3))) = _
  rw [k1_pay1_ideal, accAt_w0, accAt_w1, accAt_w2, zero_add, zero_add, zero_add,
    ← blocks_eq_dotI (towI A0 W1u b1u W2u b2u) (towI A1 W1v b1v W2v b2v),
    ← blocks_eq_dotI (towI A0 W1u b1u W2u b2u) (towI A0 W1u b1u W2u b2u),
    ← blocks_eq_dotI (towI A1 W1v b1v W2v b2v) (towI A1 W1v b1v W2v b2v)]
  unfold g0 g1 g2
  simp only [tower_blk _ _ _ _ _ _ (Fin.isLt _)]

end Cert.KernelIdeal.Tc

end
-- ==== Proof.KernelSpec.lean ====
/-
  The kernel's arrangement of the specification, at the ideal values. The kernel computes each tower from the gathered
  rows laid out `[field, lane, batch row]`, with the weights transposed and the biases as columns, every product written
  weight first; it then takes ONE square root of the product of the two sums of squares. This file reads those operand
  forms at an index (a transposed table gathered by row number; a transposed weight matrix; a bias as a column) and
  shows that a tower in that arrangement is the specification's tower, and that the result in that arrangement is the
  specification's result where the float entries are real numbers.
-/
import proofs.«205816_g11845519802804_retrytranche1_1814_36_alg».proof.Proof.SpecReal
import proofs.«205816_g11845519802804_retrytranche1_1814_36_alg».proof.Proof.ScSetup
import proofs.«205816_g11845519802804_retrytranche1_1814_36_alg».proof.Proof.TcValue
import proofs.«205816_g11845519802804_retrytranche1_1814_36_alg».proof.Proof.TcScoreIdeal
import Idealize.ShloMosaic.Lib.Pipeline.Value
import Idealize.ShloMosaic.Lib.ValueLayout

noncomputable section

open scoped BigOperators

namespace Cert.KernelIdeal.KernelSpec

open Cert.KernelIdeal Idealize.ShloMosaic Idealize.ShloMosaic.ValueIdx Cert.Lib.RealEntries

/-! ## The operand forms at an index -/

/-- The row an index array names at any index whose coordinates are `(f, b)`. -/
theorem gIdx_at (idx : IVec S13x16384 32) (g : S13x16384.Idx) (f : Fin 13) (b : Fin 16384) (h0 : g 0 = f) (h1 : g 1 = b)
    (hlt : (idx (ix2 f b)).toNat < 100000) : (Cert.KernelIdeal.Sc.gIdx (idx g)).val = (idx (ix2 f b)).toNat := by
  have hg : g = ix2 f b := by subst h0; subst h1; exact eq_ix2 g
  rw [hg, Cert.KernelIdeal.Sc.gIdx_of_lt hlt]

/-- The transposed table gathered by row number, at `(f, e, b)`: the table at field `f`, the row entry `(f, b)` names,
    lane `e` — the specification's lookup where the entry is in range. -/
theorem gathered_transpose_apply (tab : S13x100000x16.Idx → EReal) (idx : IVec S13x16384 32)
    (h : S13x100000x16.Transposes [0, 2, 1] S13x16x100000) (H : ∀ i, (idx i).toNat < 100000)
    (f : Fin 13) (e : Fin 16) (b : Fin 16384) :
    Cert.KernelIdeal.Sc.gathered (F := Ideal) (transpose S13x16x100000 [0, 2, 1] tab h) idx (ix3 f e b)
      = tab (ix3 f ⟨(idx (ix2 f b)).toNat, H _⟩ e) := by
  unfold Cert.KernelIdeal.Sc.gathered
  refine transpose_apply _ tab h _ (ix3 f ⟨(idx (ix2 f b)).toNat, H _⟩ e) fun c => ?_
  match c with
  | ⟨0, _⟩ => rfl
  | ⟨1, _⟩ => rfl
  | ⟨2, _⟩ => exact (gIdx_at idx _ f b rfl rfl (H _)).symm

/-- A bias as a column reads its one coordinate. -/
theorem column_apply {n : ℕ} (x : (⟨1, ![n]⟩ : Shape).Idx → EReal) (h : (⟨1, ![n]⟩ : Shape).ShapeCasts ⟨2, ![n, 1]⟩)
    (k : Fin n) : shapeCast ⟨2, ![n, 1]⟩ x h (ix2 k (0 : Fin 1)) = x (ix1 k) :=
  shapeCast_apply x h _ _ (by
    rw [Shape.rowMajor_val_one, Shape.rowMajor_val_two]
    show k.val = k.val * 1 + 0
    omega)

/-! ## A tower in the kernel's arrangement -/

/-- A TOWER IN THE KERNEL'S ARRANGEMENT IS THE SPECIFICATION'S: operands that read, entry by entry, as the gathered
    rows `[field, lane, batch row]`, the transposed weights and the column biases. -/
theorem tower_arranged (idx : IVec S13x16384 32) (tab : S13x100000x16.Idx → EReal)
    (W1 : S208x64.Idx → EReal) (b1 : S64.Idx → EReal) (W2 : S64x32.Idx → EReal) (b2 : S32.Idx → EReal)
    (H : ∀ i, (idx i).toNat < 100000)
    (A : S13x16x16384.Idx → EReal) (W1T : S64x208.Idx → EReal) (b1c : S64x1.Idx → EReal)
    (W2T : S32x64.Idx → EReal) (b2c : S32x1.Idx → EReal)
    (hA : ∀ f e b, A (ix3 f e b) = tab (ix3 f ⟨(idx (ix2 f b)).toNat, H _⟩ e))
    (hW1 : ∀ k j, W1T (ix2 k j) = W1 (ix2 j k)) (hb1 : ∀ k, b1c (ix2 k (0 : Fin 1)) = b1 (ix1 k))
    (hW2 : ∀ l k, W2T (ix2 l k) = W2 (ix2 k l)) (hb2 : ∀ l, b2c (ix2 l (0 : Fin 1)) = b2 (ix1 l))
    (b : Fin 16384) (l : Fin 32) :
    max ((∑ k : Fin 64, W2T (ix2 l k)
          * max ((∑ j : Fin 208, W1T (ix2 k j) * A (ix3 (Cert.Spec.fld j) (Cert.Spec.lane j) b)) + b1c (ix2 k (0 : Fin 1))) 0)
        + b2c (ix2 l (0 : Fin 1))) 0
      = Cert.Spec.tower idx tab W1 b1 W2 b2 b l := by
  unfold Cert.Spec.tower Cert.Spec.hid
  rw [hb2]
  refine congrArg (fun t : EReal => max (t + b2 (ix1 l)) (0 : EReal)) (Finset.sum_congr rfl fun k _ => ?_)
  rw [hW2, mul_comm, hb1]
  refine congrArg (fun t : EReal => max (t + b1 (ix1 k)) (0 : EReal) * W2 (ix2 k l)) (Finset.sum_congr rfl fun j _ => ?_)
  rw [hW1, hA, mul_comm, Cert.Spec.emb_of_lt idx tab b j (H _)]

/-! ## The result in the kernel's arrangement -/

/-- THE RESULT IN THE KERNEL'S ARRANGEMENT IS THE SPECIFICATION'S where the float entries are real numbers: with `U`,
    `V` the user and item towers, `1 / (1 + exp (0 - (Σ U·V) / √((Σ U·U) · (Σ V·V))))`. -/
theorem score_arranged (a0 a1 : IVec S13x16384 32) (a2 a3 : S13x100000x16.Idx → EReal)
    (a4 : S208x64.Idx → EReal) (a5 : S64.Idx → EReal) (a6 : S64x32.Idx → EReal) (a7 : S32.Idx → EReal)
    (a8 : S208x64.Idx → EReal) (a9 : S64.Idx → EReal) (a10 : S64x32.Idx → EReal) (a11 : S32.Idx → EReal)
    (h2 : ∀ i, IsReal (a2 i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i))
    (U V : Fin 16384 → Fin 32 → EReal)
    (hU : ∀ b l, U b l = Cert.Spec.tower a0 a2 a4 a5 a6 a7 b l) (hV : ∀ b l, V b l = Cert.Spec.tower a1 a3 a8 a9 a10 a11 b l)
    (j : S1x1.Idx) :
    Ideal.div 1 (1 + Ideal.exp (0 - Ideal.div (∑ b : Fin 16384, ∑ l : Fin 32, U b l * V b l)
        (Ideal.sqrt ((∑ b : Fin 16384, ∑ l : Fin 32, U b l * U b l) * (∑ b : Fin 16384, ∑ l : Fin 32, V b l * V b l)))))
      = Cert.Spec.score a0 a1 a2 a3 a4 a5 a6 a7 a8 a9 a10 a11 j := by
  obtain rfl : U = Cert.Spec.tower a0 a2 a4 a5 a6 a7 := funext fun b => funext fun l => hU b l
  obtain rfl : V = Cert.Spec.tower a1 a3 a8 a9 a10 a11 := funext fun b => funext fun l => hV b l
  exact (Cert.Spec.score_one_sqrt a0 a1 a2 a3 a4 a5 a6 a7 a8 a9 a10 a11 h2 h3 h4 h5 h6 h7 h8 h9 h10 h11 j).symm

/-! ## The inner region's value is the specification's result -/

/-- A tower in the kernel's arrangement, as a function of its operand arrays. -/
def towK (A : S13x16x16384.Idx → EReal) (W1T : S64x208.Idx → EReal) (b1c : S64x1.Idx → EReal)
    (W2T : S32x64.Idx → EReal) (b2c : S32x1.Idx → EReal) (b : Fin 16384) (l : Fin 32) : EReal :=
  max ((∑ k : Fin 64, W2T (ix2 l k)
        * max ((∑ j : Fin 208, W1T (ix2 k j) * A (ix3 (Cert.Spec.fld j) (Cert.Spec.lane j) b)) + b1c (ix2 k (0 : Fin 1))) 0)
      + b2c (ix2 l (0 : Fin 1))) 0

/-- THE INNER REGION'S VALUE, once it is known to be the logistic of the cosine of the two towers in the kernel's
    arrangement (`hT`), IS THE SPECIFICATION'S RESULT at the operand forms @main builds: the transposed tables gathered
    by row number, the transposed weights, the biases as columns — where the index entries are in range and the float
    entries are real numbers. -/
theorem tcScore_eq_score_of
    (hT : ∀ (A0 A1 : S13x16x16384.Idx → EReal) (W1u : S64x208.Idx → EReal) (b1u : S64x1.Idx → EReal) (W2u : S32x64.Idx → EReal)
        (b2u : S32x1.Idx → EReal) (W1v : S64x208.Idx → EReal) (b1v : S64x1.Idx → EReal) (W2v : S32x64.Idx → EReal)
        (b2v : S32x1.Idx → EReal),
      Cert.KernelIdeal.Tc.tcScore (F := Ideal) A0 A1 W1u b1u W2u b2u W1v b1v W2v b2v (ix2 (0 : Fin 1) (0 : Fin 1))
        = Ideal.div 1 (1 + Ideal.exp (0 - Ideal.div
            (∑ b : Fin 16384, ∑ l : Fin 32, towK A0 W1u b1u W2u b2u b l * towK A1 W1v b1v W2v b2v b l)
            (Ideal.sqrt ((∑ b : Fin 16384, ∑ l : Fin 32, towK A0 W1u b1u W2u b2u b l * towK A0 W1u b1u W2u b2u b l)
              * (∑ b : Fin 16384, ∑ l : Fin 32, towK A1 W1v b1v W2v b2v b l * towK A1 W1v b1v W2v b2v b l))))))
    (a0 a1 : IVec S13x16384 32) (a2 a3 : S13x100000x16.Idx → EReal)
    (a4 : S208x64.Idx → EReal) (a5 : S64.Idx → EReal) (a6 : S64x32.Idx → EReal) (a7 : S32.Idx → EReal)
    (a8 : S208x64.Idx → EReal) (a9 : S64.Idx → EReal) (a10 : S64x32.Idx → EReal) (a11 : S32.Idx → EReal)
    (h0 : ∀ i, (a0 i).toNat < 100000) (h1 : ∀ i, (a1 i).toNat < 100000)
    (h2 : ∀ i, IsReal (a2 i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i))
    (hx : S13x100000x16.Transposes [0, 2, 1] S13x16x100000) (hw1 : S208x64.Transposes [1, 0] S64x208)
    (hc1 : S64.ShapeCasts S64x1) (hw2 : S64x32.Transposes [1, 0] S32x64) (hc2 : S32.ShapeCasts S32x1) :
    Cert.KernelIdeal.Tc.tcScore (F := Ideal)
        (Cert.KernelIdeal.Sc.gathered (F := Ideal) (transpose S13x16x100000 [0, 2, 1] a2 hx) a0)
        (Cert.KernelIdeal.Sc.gathered (F := Ideal) (transpose S13x16x100000 [0, 2, 1] a3 hx) a1)
        (transpose S64x208 [1, 0] a4 hw1) (shapeCast S64x1 a5 hc1) (transpose S32x64 [1, 0] a6 hw2) (shapeCast S32x1 a7 hc2)
        (transpose S64x208 [1, 0] a8 hw1) (shapeCast S64x1 a9 hc1) (transpose S32x64 [1, 0] a10 hw2) (shapeCast S32x1 a11 hc2)
      = Cert.Spec.score a0 a1 a2 a3 a4 a5 a6 a7 a8 a9 a10 a11 := by
  funext j
  refine (hT _ _ _ _ _ _ _ _ _ _).trans ?_
  exact score_arranged a0 a1 a2 a3 a4 a5 a6 a7 a8 a9 a10 a11 h2 h3 h4 h5 h6 h7 h8 h9 h10 h11 _ _
    (fun b l => tower_arranged a0 a2 a4 a5 a6 a7 h0 _ _ _ _ _
      (fun f e b => gathered_transpose_apply a2 a0 hx h0 f e b) (fun k j => transpose_ix2_apply a4 hw1 k j)
      (fun k => column_apply a5 hc1 k) (fun l k => transpose_ix2_apply a6 hw2 l k) (fun l => column_apply a7 hc2 l) b l)
    (fun b l => tower_arranged a1 a3 a8 a9 a10 a11 h1 _ _ _ _ _
      (fun f e b => gathered_transpose_apply a3 a1 hx h1 f e b) (fun k j => transpose_ix2_apply a8 hw1 k j)
      (fun k => column_apply a9 hc1 k) (fun l k => transpose_ix2_apply a10 hw2 l k) (fun l => column_apply a11 hc2 l) b l)
    j

/-- THE KERNEL'S RESULT IS THE SPECIFICATION'S: the inner region's value at the operand forms @main builds — the
    transposed tables gathered by row number, the transposed weights, the biases as columns — is `Cert.Spec.score` of the
    twelve arguments, where the index entries are in range and the float entries are real numbers; for any proofs of the
    shape relations. -/
theorem kVal_eq_score
    (a0 a1 : IVec S13x16384 32) (a2 a3 : S13x100000x16.Idx → EReal)
    (a4 : S208x64.Idx → EReal) (a5 : S64.Idx → EReal) (a6 : S64x32.Idx → EReal) (a7 : S32.Idx → EReal)
    (a8 : S208x64.Idx → EReal) (a9 : S64.Idx → EReal) (a10 : S64x32.Idx → EReal) (a11 : S32.Idx → EReal)
    (h0 : ∀ i, (a0 i).toNat < 100000) (h1 : ∀ i, (a1 i).toNat < 100000)
    (h2 : ∀ i, IsReal (a2 i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i))
    (hT : S13x100000x16.Transposes [0, 2, 1] S13x16x100000) (hW1 : S208x64.Transposes [1, 0] S64x208)
    (hc1 : S64.ShapeCasts S64x1) (hW2 : S64x32.Transposes [1, 0] S32x64) (hc2 : S32.ShapeCasts S32x1) :
    Cert.KernelIdeal.Tc.tcScore (F := Ideal)
        (Cert.KernelIdeal.Sc.gathered (F := Ideal) (transpose S13x16x100000 [0, 2, 1] a2 hT) a0)
        (Cert.KernelIdeal.Sc.gathered (F := Ideal) (transpose S13x16x100000 [0, 2, 1] a3 hT) a1)
        (transpose S64x208 [1, 0] a4 hW1) (shapeCast S64x1 a5 hc1) (transpose S32x64 [1, 0] a6 hW2) (shapeCast S32x1 a7 hc2)
        (transpose S64x208 [1, 0] a8 hW1) (shapeCast S64x1 a9 hc1) (transpose S32x64 [1, 0] a10 hW2) (shapeCast S32x1 a11 hc2)
      = Cert.Spec.score a0 a1 a2 a3 a4 a5 a6 a7 a8 a9 a10 a11 :=
  tcScore_eq_score_of
    (fun A0 A1 W1u b1u W2u b2u W1v b1v W2v b2v => Cert.KernelIdeal.Tc.tcScore_ideal A0 A1 W1u b1u W2u b2u W1v b1v W2v b2v)
    a0 a1 a2 a3 a4 a5 a6 a7 a8 a9 a10 a11 h0 h1 h2 h3 h4 h5 h6 h7 h8 h9 h10 h11 hT hW1 hc1 hW2 hc2

end Cert.KernelIdeal.KernelSpec

end
-- ==== Proof.lean ====
/-
  The proof of the certificate's claim.

  The kernel's program gathers, on the SparseCore, for each of the two towers the thirteen embedding rows each batch element
  names (from the transposed tables, one table row per tile), and on the TensorCore runs the two-layer perceptron of each
  tower on blocks of 1024 batch elements, accumulating the inner product of the two towers' outputs and their two squared
  norms; the result is the logistic function of the cosine. The reference computes the same towers with the batch along
  the rows and takes the cosine with the two norms' square roots multiplied. Under the precondition — every index between
  0 and 99999, every float finite — both are one function of the arguments (the specification): every index names a table
  row, all sums are finite reals, the sums of squares are not negative, and the square root of their product is the product
  of their square roots.

  The three frames are the programs' runs with the value dropped; the idealization rewrote nothing.
-/
import proofs.«205816_g11845519802804_retrytranche1_1814_36_alg».proof.Defs
import proofs.«205816_g11845519802804_retrytranche1_1814_36_alg».proof.Proof.Gen.Kernel
import proofs.«205816_g11845519802804_retrytranche1_1814_36_alg».proof.Proof.Gen.KernelIdeal
import proofs.«205816_g11845519802804_retrytranche1_1814_36_alg».proof.Proof.Gen.ReferenceIdeal
import proofs.«205816_g11845519802804_retrytranche1_1814_36_alg».proof.Proof.Gen.Pre_input_domain
import proofs.«205816_g11845519802804_retrytranche1_1814_36_alg».proof.Proof.PreFacts
import proofs.«205816_g11845519802804_retrytranche1_1814_36_alg».proof.Proof.Glue
import proofs.«205816_g11845519802804_retrytranche1_1814_36_alg».proof.Proof.WGlue
import proofs.«205816_g11845519802804_retrytranche1_1814_36_alg».proof.Proof.RefRun
import proofs.«205816_g11845519802804_retrytranche1_1814_36_alg».proof.Proof.RefSpec
import proofs.«205816_g11845519802804_retrytranche1_1814_36_alg».proof.Proof.KernelSpec
import Idealize.ShloMosaic.Adequacy
import Idealize.ShloMosaic.Init

noncomputable section

namespace Cert.Proof

open Idealize.ShloMosaic Idealize.SL.Sem

/-- The kernel's run at the word-level instance, and at the exact one: the result array at the TensorCore call's score of the
    gathered arrays, the arguments unchanged. -/
def RunK : Prop := ∀ (m : (ℓ : Loc Cert.Kernel.nD Cert.Kernel.τ Cert.Kernel.sig) → Buf (Elt Bits) ℓ) (ρ : Dev Cert.Kernel.nD → PrngReg),
  (∀ (d : Dev Cert.Kernel.nD) (j : Cert.Kernel.S13x16384.Idx), (m (Cert.Kernel.Sc.iULoc d) j).toNat < 100000) →
  (∀ (d : Dev Cert.Kernel.nD) (j : Cert.Kernel.S13x16384.Idx), (m (Cert.Kernel.Sc.iILoc d) j).toNat < 100000) →
  θ_run (Cert.Kernel.defs (F := Bits)) (Cert.Kernel.threads (F := Bits)) ⟨m, fun _ => 0, ρ⟩ (Cert.Kernel.Main.QC m)
def RunKI : Prop := ∀ (m : (ℓ : Loc Cert.KernelIdeal.nD Cert.KernelIdeal.τ Cert.KernelIdeal.sig) → Buf (Elt Ideal) ℓ) (ρ : Dev Cert.KernelIdeal.nD → PrngReg),
  (∀ (d : Dev Cert.KernelIdeal.nD) (j : Cert.KernelIdeal.S13x16384.Idx), (m (Cert.KernelIdeal.Sc.iULoc d) j).toNat < 100000) →
  (∀ (d : Dev Cert.KernelIdeal.nD) (j : Cert.KernelIdeal.S13x16384.Idx), (m (Cert.KernelIdeal.Sc.iILoc d) j).toNat < 100000) →
  θ_run (Cert.KernelIdeal.defs (F := Ideal)) (Cert.KernelIdeal.threads (F := Ideal)) ⟨m, fun _ => 0, ρ⟩ (Cert.KernelIdeal.Main.QC m)

theorem frame_kernel (hrun : RunK) : Cert.frame_Kernel (hKernel := Cert.Kernel.Gen.facts) (hPre_input_domain := Cert.Pre_input_domain.Gen.facts) := fun m ρ hpre =>
  have ht := fun c => Cert.PreFacts.tests (F := Bits) (hP := Cert.Pre_input_domain.Gen.facts) _ _ _ _ _ _ _ _ _ _ _ _ (hpre c)
  (θ_run Cert.Kernel.defs _ _).mono (fun _ h c => (h c).2) (hrun m ρ (fun d j => (ht d).1.1 j) (fun d j => (ht d).1.2 j))

theorem frame_kernelIdeal (hrun : RunKI) : Cert.frame_KernelIdeal (hKernelIdeal := Cert.KernelIdeal.Gen.facts) (hPre_input_domain := Cert.Pre_input_domain.Gen.facts) := fun m ρ hpre =>
  have ht := fun c => Cert.PreFacts.tests (F := Ideal) (hP := Cert.Pre_input_domain.Gen.facts) _ _ _ _ _ _ _ _ _ _ _ _ (hpre c)
  (θ_run Cert.KernelIdeal.defs _ _).mono (fun _ h c => (h c).2) (hrun m ρ (fun d j => (ht d).1.1 j) (fun d j => (ht d).1.2 j))

theorem frame_reference : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => (h c).2) (Cert.ReferenceIdeal.RefRun.run (F := Ideal) m ρ)

theorem algebraic (hrun : RunKI) :
    Cert.algebraic_KernelIdeal_ReferenceIdeal (hKernelIdeal := Cert.KernelIdeal.Gen.facts) (hReferenceIdeal := Cert.ReferenceIdeal.Gen.facts) (hPre_input_domain := Cert.Pre_input_domain.Gen.facts) := by
  intro m ρ m' ρ' hpre hagree
  have ht := fun c => Cert.PreFacts.tests (F := Ideal) (hP := Cert.Pre_input_domain.Gen.facts) _ _ _ _ _ _ _ _ _ _ _ _ (hpre c)
  refine ⟨fun c => Cert.KernelIdeal.Main.kVal m c, hrun m ρ (fun d j => (ht d).1.1 j) (fun d j => (ht d).1.2 j), ?_⟩
  refine (θ_run Cert.ReferenceIdeal.defs _ _).mono (fun _ h c => ⟨(h c).1.trans ?_, (h c).2⟩) (Cert.ReferenceIdeal.RefRun.run (F := Ideal) m' ρ')
  obtain ⟨e0, e1, e2, e3, e4, e5, e6, e7, e8, e9, e10, e11⟩ := hagree c
  rw [e0, e1, e2, e3, e4, e5, e6, e7, e8, e9, e10, e11]
  obtain ⟨⟨h0, h1⟩, f2, f3, f4, f5, f6, f7, f8, f9, f10, f11⟩ := ht c
  rw [Cert.ReferenceIdeal.RefSpec.refVal_eq_score _ _ _ _ _ _ _ _ _ _ _ _ h0 h1]
  exact (Cert.KernelIdeal.KernelSpec.kVal_eq_score _ _ _ _ _ _ _ _ _ _ _ _ h0 h1
    (fun i => Cert.PreFacts.real_of_finiteAt _ _ f2 i) (fun i => Cert.PreFacts.real_of_finiteAt _ _ f3 i) (fun i => Cert.PreFacts.real_of_finiteAt _ _ f4 i)
    (fun i => Cert.PreFacts.real_of_finiteAt _ _ f5 i) (fun i => Cert.PreFacts.real_of_finiteAt _ _ f6 i) (fun i => Cert.PreFacts.real_of_finiteAt _ _ f7 i)
    (fun i => Cert.PreFacts.real_of_finiteAt _ _ f8 i) (fun i => Cert.PreFacts.real_of_finiteAt _ _ f9 i) (fun i => Cert.PreFacts.real_of_finiteAt _ _ f10 i)
    (fun i => Cert.PreFacts.real_of_finiteAt _ _ f11 i)
    Cert.KernelIdeal.Gen.transposes_S13x100000x16_S13x16x100000_0_2_1 Cert.KernelIdeal.Gen.transposes_S208x64_S64x208_1_0 Cert.KernelIdeal.Gen.shapeCasts_S64_S64x1
    Cert.KernelIdeal.Gen.transposes_S64x32_S32x64_1_0 Cert.KernelIdeal.Gen.shapeCasts_S32_S32x1).symm

/-- The claim, from the kernel's two runs. -/
theorem claim_of (hK : RunK) (hKI : RunKI) : Cert.Claim :=
  ⟨Cert.Kernel.Gen.facts, Cert.KernelIdeal.Gen.facts, Cert.ReferenceIdeal.Gen.facts, Cert.Pre_input_domain.Gen.facts,
    frame_kernel hK, frame_kernelIdeal hKI, frame_reference, trivial, algebraic hKI⟩

theorem runK : RunK := fun m ρ hU hI => Cert.Kernel.Glue.run (F := Bits) m ρ hU hI
theorem runKI : RunKI := fun m ρ hU hI => Cert.KernelIdeal.Glue.run (F := Ideal) m ρ hU hI

/-- The certificate's claim. -/
theorem claim : Cert.Claim := claim_of runK runKI

end Cert.Proof

end
